-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S8192x16 : Shape := ⟨2, ![8192, 16]⟩
abbrev S8192 : Shape := ⟨1, ![8192]⟩
abbrev S_ : Shape := ⟨0, ![]⟩

class Facts : Prop where
  bcast_S_S8192x16 : S_.BroadcastsInDim S8192x16 (![] : Fin 0 → Fin S8192x16.rank)
  bcast_S_S100000x512 : S_.BroadcastsInDim S100000x512 (![] : Fin 0 → Fin S100000x512.rank)
  reducesTo_S100000x512_S_d0_1 : S100000x512.ReducesTo [0, 1] S_
  h_S_ : 0 < S_.numel
  reducesTo_S8192x16_S_d0_1 : S8192x16.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v5 : IVec S8192x16 32) (main_v14 : IVec S_ 1) (main_v17 : IVec S8192 1) : IVec S_ 1 :=
  let main_c_4 : IVec S_ 1 := constantI S_ 1 1#1
  let main_v18 : IVec S_ 1 := (fun x v => Host.reduce IntOp.andi x v reducesTo_S8192_S_d0 h_S_) main_v17 main_c_4
  let main_v19 : IVec S_ 1 := andi main_v14 main_v18
  let main_c_5 : IVec S_ 32 := constantI S_ 32 0#32
  let main_v20 : IVec S8192x16 32 := broadcastInDim S8192x16 ![] bcast_S_S8192x16 main_c_5
  let main_v21 : IVec S8192x16 1 := cmpi .sge main_v5 main_v20
  let main_c_6 : IVec S_ 32 := constantI S_ 32 100000#32
  let main_v22 : IVec S8192x16 32 := broadcastInDim S8192x16 ![] bcast_S_S8192x16 main_c_6
  let main_v23 : IVec S8192x16 1 := cmpi .slt main_v5 main_v22
  let main_v24 : IVec S8192x16 1 := andi main_v21 main_v23
  let main_c_7 : IVec S_ 1 := constantI S_ 1 1#1
  let main_v25 : IVec S_ 1 := (fun x v => Host.reduce IntOp.andi x v reducesTo_S8192x16_S_d0_1 h_S_) main_v24 main_c_7
  let main_v26 : IVec S_ 1 := andi main_v19 main_v25
  main_v26

def fn {F : FTy → Type} [FloatOps F] (main_arg0 : FVec F S100000x512 .f32) (main_arg1 : FVec F S8192x16 .f32) (main_arg2 : FVec F S8192 .f32) : IVec S_ 1 :=
  let main_cst : FVec F S_ .f32 := constant S_ .f32 0x00000000#32
  let main_v0 : FVec F S8192x16 .f32 := broadcastInDim S8192x16 ![] bcast_S_S8192x16 main_cst
  let main_v1 : IVec S8192x16 1 := cmpf .olt main_arg1 main_v0
  let main_v2 : FVec F S8192x16 .f32 := Host.ceil main_arg1
  let main_v3 : FVec F S8192x16 .f32 := Host.floor main_arg1
  let main_v4 : FVec F S8192x16 .f32 := select main_v1 main_v2 main_v3
  let main_v5 : IVec S8192x16 32 := fptosi 32 main_v4
  let main_v6 : FVec F S100000x512 .f32 := Host.absf main_arg0
  let main_cst_0 : FVec F S_ .f32 := constant S_ .f32 0x7F800000#32
  let main_v7 : FVec F S100000x512 .f32 := broadcastInDim S100000x512 ![] bcast_S_S100000x512 main_cst_0
  let main_v8 : IVec S100000x512 1 := cmpf .olt main_v6 main_v7
  let main_c : IVec S_ 1 := constantI S_ 1 1#1
  let main_v9 : IVec S_ 1 := (fun x v => Host.reduce IntOp.andi x v reducesTo_S100000x512_S_d0_1 h_S_) main_v8 main_c
  let main_v10 : FVec F S8192x16 .f32 := Host.absf main_arg1
  let main_cst_1 : FVec F S_ .f32 := constant S_ .f32 0x7F800000#32
  let main_v11 : FVec F S8192x16 .f32 := broadcastInDim S8192x16 ![] bcast_S_S8192x16 main_cst_1
  let main_v12 : IVec S8192x16 1 := cmpf .olt main_v10 main_v11
  let main_c_2 : IVec S_ 1 := constantI S_ 1 1#1
  let main_v13 : IVec S_ 1 := (fun x v => Host.reduce IntOp.andi x v reducesTo_S8192x16_S_d0_1 h_S_) main_v12 main_c_2
  let main_v14 : IVec S_ 1 := andi main_v9 main_v13
  let main_v15 : FVec F S8192 .f32 := Host.absf main_arg2
  let main_cst_3 : FVec F S_ .f32 := constant S_ .f32 0x7F800000#32
  let main_v16 : FVec F S8192 .f32 := broadcastInDim S8192 ![] bcast_S_S8192 main_cst_3
  let main_v17 : IVec S8192 1 := cmpf .olt main_v15 main_v16
  fn_part1 (F := F) main_v5 main_v14 main_v17
-- ==== Kernel.lean ====
abbrev S100000x512 : Shape := ⟨2, ![100000, 512]⟩
abbrev S8192x16 : Shape := ⟨2, ![8192, 16]⟩
abbrev S8192 : Shape := ⟨1, ![8192]⟩
abbrev S_ : Shape := ⟨0, ![]⟩
abbrev S131072 : Shape := ⟨1, ![131072]⟩
abbrev S1x512 : Shape := ⟨2, ![1, 512]⟩
abbrev S8x512 : Shape := ⟨2, ![8, 512]⟩
abbrev S8x16 : Shape := ⟨2, ![8, 16]⟩
abbrev S2x512 : Shape := ⟨2, ![2, 512]⟩
abbrev S2 : Shape := ⟨1, ![2]⟩
abbrev S512 : Shape := ⟨1, ![512]⟩
abbrev S1 : Shape := ⟨1, ![1]⟩
abbrev S1x1 : Shape := ⟨2, ![1, 1]⟩
abbrev S1x16 : Shape := ⟨2, ![1, 16]⟩
abbrev S8192x1 : Shape := ⟨2, ![8192, 1]⟩

abbrev nBuf : Space → Nat
  | .hbm => 48
  | .vmem => 6
  | .smem => 1
  | _ => 0

abbrev bufTy : (tb : Table) → Fin (tcTables nBuf tb) → BufTy
  | .hbm, ⟨0, _⟩ => ⟨S100000x512, .f32⟩
  | .hbm, ⟨1, _⟩ => ⟨S8192x16, .f32⟩
  | .hbm, ⟨2, _⟩ => ⟨S8192, .f32⟩
  | .hbm, ⟨3, _⟩ => ⟨S_, .f32⟩
  | .hbm, ⟨4, _⟩ => ⟨S8192x16, .f32⟩
  | .hbm, ⟨5, _⟩ => ⟨S8192x16, .i1⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S8192x16, .i32⟩
  | .hbm, ⟨10, _⟩ => ⟨S8192x16, .f32⟩
  | .hbm, ⟨11, _⟩ => ⟨S1x512, .f32⟩
  | .hbm, ⟨12, _⟩ => ⟨S512, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x16, .f32⟩
  | .hbm, ⟨30, _⟩ => ⟨S8192x16, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S8x512, .f32⟩
  | .local _ .vmem, ⟨1, _⟩ => ⟨S8x512, .f32⟩
  | .local _ .vmem, ⟨2, _⟩ => ⟨S8x16, .f32⟩
  | .local _ .vmem, ⟨3, _⟩ => ⟨S8x16, .f32⟩
  | .local _ .vmem, ⟨4, _⟩ => ⟨S1x512, .f32⟩
  | .local _ .vmem, ⟨5, _⟩ => ⟨S2x512, .f32⟩
  | .local _ .smem, ⟨0, _⟩ => ⟨S131072, .i32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev main_v1 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_v19 : Ref sig .tc := ⟨.hbm, 37, rfl⟩
abbrev main_cst_7 : Ref sig .tc := ⟨.hbm, 38, rfl⟩
abbrev main_v20 : Ref sig .tc := ⟨.hbm, 39, rfl⟩
abbrev main_cst_8 : Ref sig .tc := ⟨.hbm, 40, rfl⟩
abbrev main_v21 : Ref sig .tc := ⟨.hbm, 41, rfl⟩
abbrev main_v22 : Ref sig .tc := ⟨.hbm, 42, rfl⟩
abbrev main_cst_9 : Ref sig .tc := ⟨.hbm, 43, rfl⟩
abbrev main_v23 : Ref sig .tc := ⟨.hbm, 44, rfl⟩
abbrev main_v24 : Ref sig .tc := ⟨.hbm, 45, rfl⟩
abbrev main_cst_10 : Ref sig .tc := ⟨.hbm, 46, rfl⟩
abbrev main_v25 : Ref sig .tc := ⟨.hbm, 47, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![1024], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c16_i32 : BitVec 32 := 16#32
  let v11 : BitVec 32 := Scalar.muli v0 c16_i32
  let c0_i32_6 : BitVec 32 := 0#32
  let v12 : BitVec 32 := Scalar.addi v11 c0_i32_6
  let v13 : Index := Scalar.indexCast v12
  ![v13.toNat]
def k0_off2 (v14 : BitVec 32) : Fin 2 → Nat :=
  let c0_i32_10 : BitVec 32 := 0#32
  ![v14.toNat, 0]

def k0_chk1 (v14 : BitVec 32) : Prop :=
  (∀ a, (k0_off2 v14) a + S1x512.size a ≤ S100000x512.size a)
instance k0_chk1.dec : ∀ (v14 : BitVec 32), Decidable (k0_chk1 v14) := fun v14 => decidable_of_iff' _ (Iff.of_eq (k0_chk1.eq_1 v14))
theorem k0_off2_inb : ∀ (v14 : BitVec 32) (k0_hw1 : k0_chk1 v14), ∀ a, (k0_off2 v14) a + S1x512.size a ≤ S100000x512.size a := fun v14 k0_hw1 => k0_hw1

def k0_off3 (i : grid0.Coords) : Fin 1 → Nat :=
  let arg0 : BitVec 32 := BitVec.ofNat 32 (i 0).val
  let c8_i32 : BitVec 32 := 8#32
  let v0 : BitVec 32 := Scalar.muli arg0 c8_i32
  let c16_i32_16 : BitVec 32 := 16#32
  let v27 : BitVec 32 := Scalar.muli v0 c16_i32_16
  let c1_i32 : BitVec 32 := 1#32
  let v28 : BitVec 32 := Scalar.addi v27 c1_i32
  let v29 : Index := Scalar.indexCast v28
  ![v29.toNat]
def k0_off4 (v30 : BitVec 32) : Fin 2 → Nat :=
  let c0_i32_20 : BitVec 32 := 0#32
  ![v30.toNat, 0]

def k0_chk2 (v30 : BitVec 32) : Prop :=
  (∀ a, (k0_off4 v30) a + S1x512.size a ≤ S100000x512.size a)
instance k0_chk2.dec : ∀ (v30 : BitVec 32), Decidable (k0_chk2 v30) := fun v30 => decidable_of_iff' _ (Iff.of_eq (k0_chk2.eq_1 v30))
theorem k0_off4_inb : ∀ (v30 : BitVec 32) (k0_hw2 : k0_chk2 v30), ∀ a, (k0_off4 v30) a + S1x512.size a ≤ S100000x512.size a := fun v30 k0_hw2 => k0_hw2

def k0_off5 (i : grid0.Coords) : Fin 1 → Nat :=
  let arg0 : BitVec 32 := BitVec.ofNat 32 (i 0).val
  let c8_i32 : BitVec 32 := 8#32
  let v0 : BitVec 32 := Scalar.muli arg0 c8_i32
  let c16_i32_31 : BitVec 32 := 16#32
  let v48 : BitVec 32 := Scalar.muli v0 c16_i32_31
  let c2_i32 : BitVec 32 := 2#32
  let v49 : BitVec 32 := Scalar.addi v48 c2_i32
  let v50 : Index := Scalar.indexCast v49
  ![v50.toNat]
def k0_off6 (v51 : BitVec 32) : Fin 2 → Nat :=
  let c0_i32_35 : BitVec 32 := 0#32
  ![v51.toNat, 0]

def k0_chk3 (v51 : BitVec 32) : Prop :=
  (∀ a, (k0_off6 v51) a + S1x512.size a ≤ S100000x512.size a)
instance k0_chk3.dec : ∀ (v51 : BitVec 32), Decidable (k0_chk3 v51) := fun v51 => decidable_of_iff' _ (Iff.of_eq (k0_chk3.eq_1 v51))
theorem k0_off6_inb : ∀ (v51 : BitVec 32) (k0_hw3 : k0_chk3 v51), ∀ a, (k0_off6 v51) a + S1x512.size a ≤ S100000x512.size a := fun v51 k0_hw3 => k0_hw3

def k0_off7 (i : grid0.Coords) : Fin 1 → Nat :=
  let arg0 : BitVec 32 := BitVec.ofNat 32 (i 0).val
  let c8_i32 : BitVec 32 := 8#32
  let v0 : BitVec 32 := Scalar.muli arg0 c8_i32
  let c16_i32_45 : BitVec 32 := 16#32
  let v69 : BitVec 32 := Scalar.muli v0 c16_i32_45
  let c3_i32 : BitVec 32 := 3#32
  let v70 : BitVec 32 := Scalar.addi v69 c3_i32
  let v71 : Index := Scalar.indexCast v70
  ![v71.toNat]
def k0_off8 (v72 : BitVec 32) : Fin 2 → Nat :=
  let c0_i32_49 : BitVec 32 := 0#32
  ![v72.toNat, 0]

def k0_chk4 (v72 : BitVec 32) : Prop :=
  (∀ a, (k0_off8 v72) a + S1x512.size a ≤ S100000x512.size a)
instance k0_chk4.dec : ∀ (v72 : BitVec 32), Decidable (k0_chk4 v72) := fun v72 => decidable_of_iff' _ (Iff.of_eq (k0_chk4.eq_1 v72))
theorem k0_off8_inb : ∀ (v72 : BitVec 32) (k0_hw4 : k0_chk4 v72), ∀ a, (k0_off8 v72) a + S1x512.size a ≤ S100000x512.size a := fun v72 k0_hw4 => k0_hw4

def k0_off9 (i : grid0.Coords) : Fin 1 → Nat :=
  let arg0 : BitVec 32 := BitVec.ofNat 32 (i 0).val
  let c8_i32 : BitVec 32 := 8#32
  let v0 : BitVec 32 := Scalar.muli arg0 c8_i32
  let c16_i32_60 : BitVec 32 := 16#32
  let v90 : BitVec 32 := Scalar.muli v0 c16_i32_60
  let c4_i32 : BitVec 32 := 4#32
  let v91 : BitVec 32 := Scalar.addi v90 c4_i32
  let v92 : Index := Scalar.indexCast v91
  ![v92.toNat]
def k0_off10 (v93 : BitVec 32) : Fin 2 → Nat :=
  let c0_i32_64 : BitVec 32 := 0#32
  ![v93.toNat, 0]

def k0_chk5 (v93 : BitVec 32) : Prop :=
  (∀ a, (k0_off10 v93) a + S1x512.size a ≤ S100000x512.size a)
instance k0_chk5.dec : ∀ (v93 : BitVec 32), Decidable (k0_chk5 v93) := fun v93 => decidable_of_iff' _ (Iff.of_eq (k0_chk5.eq_1 v93))
theorem k0_off10_inb : ∀ (v93 : BitVec 32) (k0_hw5 : k0_chk5 v93), ∀ a, (k0_off10 v93) a + S1x512.size a ≤ S100000x512.size a := fun v93 k0_hw5 => k0_hw5

def k0_off11 (i : grid0.Coords) : Fin 1 → Nat :=
  let arg0 : BitVec 32 := BitVec.ofNat 32 (i 0).val
  let c8_i32 : BitVec 32 := 8#32
  let v0 : BitVec 32 := Scalar.muli arg0 c8_i32
  let c16_i32_75 : BitVec 32 := 16#32
  let v111 : BitVec 32 := Scalar.muli v0 c16_i32_75
  let c5_i32 : BitVec 32 := 5#32
  let v112 : BitVec 32 := Scalar.addi v111 c5_i32
  let v113 : Index := Scalar.indexCast v112
  ![v113.toNat]
def k0_off12 (v114 : BitVec 32) : Fin 2 → Nat :=
  let c0_i32_79 : BitVec 32 := 0#32
  ![v114.toNat, 0]

def k0_chk6 (v114 : BitVec 32) : Prop :=
  (∀ a, (k0_off12 v114) a + S1x512.size a ≤ S100000x512.size a)
instance k0_chk6.dec : ∀ (v114 : BitVec 32), Decidable (k0_chk6 v114) := fun v114 => decidable_of_iff' _ (Iff.of_eq (k0_chk6.eq_1 v114))
theorem k0_off12_inb : ∀ (v114 : BitVec 32) (k0_hw6 : k0_chk6 v114), ∀ a, (k0_off12 v114) a + S1x512.size a ≤ S100000x512.size a := fun v114 k0_hw6 => k0_hw6

def k0_off13 (i : grid0.Coords) : Fin 1 → Nat :=
  let arg0 : BitVec 32 := BitVec.ofNat 32 (i 0).val
  let c8_i32 : BitVec 32 := 8#32
  let v0 : BitVec 32 := Scalar.muli arg0 c8_i32
  let c16_i32_90 : BitVec 32 := 16#32
  let v132 : BitVec 32 := Scalar.muli v0 c16_i32_90
  let c6_i32 : BitVec 32 := 6#32
  let v133 : BitVec 32 := Scalar.addi v132 c6_i32
  let v134 : Index := Scalar.indexCast v133
  ![v134.toNat]
def k0_off14 (v135 : BitVec 32) : Fin 2 → Nat :=
  let c0_i32_94 : BitVec 32 := 0#32
  ![v135.toNat, 0]

def k0_chk7 (v135 : BitVec 32) : Prop :=
  (∀ a, (k0_off14 v135) a + S1x512.size a ≤ S100000x512.size a)
instance k0_chk7.dec : ∀ (v135 : BitVec 32), Decidable (k0_chk7 v135) := fun v135 => decidable_of_iff' _ (Iff.of_eq (k0_chk7.eq_1 v135))
theorem k0_off14_inb : ∀ (v135 : BitVec 32) (k0_hw7 : k0_chk7 v135), ∀ a, (k0_off14 v135) a + S1x512.size a ≤ S100000x512.size a := fun v135 k0_hw7 => k0_hw7

def k0_off15 (i : grid0.Coords) : Fin 1 → Nat :=
  let arg0 : BitVec 32 := BitVec.ofNat 32 (i 0).val
  let c8_i32 : BitVec 32 := 8#32
  let v0 : BitVec 32 := Scalar.muli arg0 c8_i32
  let c16_i32_105 : BitVec 32 := 16#32
  let v153 : BitVec 32 := Scalar.muli v0 c16_i32_105
  let c7_i32 : BitVec 32 := 7#32
  let v154 : BitVec 32 := Scalar.addi v153 c7_i32
  let v155 : Index := Scalar.indexCast v154
  ![v155.toNat]
def k0_off16 (v156 : BitVec 32) : Fin 2 → Nat :=
  let c0_i32_109 : BitVec 32 := 0#32
  ![v156.toNat, 0]

def k0_chk8 (v156 : BitVec 32) : Prop :=
  (∀ a, (k0_off16 v156) a + S1x512.size a ≤ S100000x512.size a)
instance k0_chk8.dec : ∀ (v156 : BitVec 32), Decidable (k0_chk8 v156) := fun v156 => decidable_of_iff' _ (Iff.of_eq (k0_chk8.eq_1 v156))
theorem k0_off16_inb : ∀ (v156 : BitVec 32) (k0_hw8 : k0_chk8 v156), ∀ a, (k0_off16 v156) a + S1x512.size a ≤ S100000x512.size a := fun v156 k0_hw8 => k0_hw8

def k0_off17 (i : grid0.Coords) : Fin 1 → Nat :=
  let arg0 : BitVec 32 := BitVec.ofNat 32 (i 0).val
  let c8_i32 : BitVec 32 := 8#32
  let v0 : BitVec 32 := Scalar.muli arg0 c8_i32
  let c16_i32_120 : BitVec 32 := 16#32
  let v174 : BitVec 32 := Scalar.muli v0 c16_i32_120
  let c8_i32_121 : BitVec 32 := 8#32
  let v175 : BitVec 32 := Scalar.addi v174 c8_i32_121
  let v176 : Index := Scalar.indexCast v175
  ![v176.toNat]
def k0_off18 (v177 : BitVec 32) : Fin 2 → Nat :=
  let c0_i32_125 : BitVec 32 := 0#32
  ![v177.toNat, 0]

def k0_chk9 (v177 : BitVec 32) : Prop :=
  (∀ a, (k0_off18 v177) a + S1x512.size a ≤ S100000x512.size a)
instance k0_chk9.dec : ∀ (v177 : BitVec 32), Decidable (k0_chk9 v177) := fun v177 => decidable_of_iff' _ (Iff.of_eq (k0_chk9.eq_1 v177))
theorem k0_off18_inb : ∀ (v177 : BitVec 32) (k0_hw9 : k0_chk9 v177), ∀ a, (k0_off18 v177) a + S1x512.size a ≤ S100000x512.size a := fun v177 k0_hw9 => k0_hw9

def k0_off19 (i : grid0.Coords) : Fin 1 → Nat :=
  let arg0 : BitVec 32 := BitVec.ofNat 32 (i 0).val
  let c8_i32 : BitVec 32 := 8#32
  let v0 : BitVec 32 := Scalar.muli arg0 c8_i32
  let c16_i32_136 : BitVec 32 := 16#32
  let v195 : BitVec 32 := Scalar.muli v0 c16_i32_136
  let c9_i32 : BitVec 32 := 9#32
  let v196 : BitVec 32 := Scalar.addi v195 c9_i32
  let v197 : Index := Scalar.indexCast v196
  ![v197.toNat]
def k0_off20 (v198 : BitVec 32) : Fin 2 → Nat :=
  let c0_i32_140 : BitVec 32 := 0#32
  ![v198.toNat, 0]

def k0_chk10 (v198 : BitVec 32) : Prop :=
  (∀ a, (k0_off20 v198) a + S1x512.size a ≤ S100000x512.size a)
instance k0_chk10.dec : ∀ (v198 : BitVec 32), Decidable (k0_chk10 v198) := fun v198 => decidable_of_iff' _ (Iff.of_eq (k0_chk10.eq_1 v198))
theorem k0_off20_inb : ∀ (v198 : BitVec 32) (k0_hw10 : k0_chk10 v198), ∀ a, (k0_off20 v198) a + S1x512.size a ≤ S100000x512.size a := fun v198 k0_hw10 => k0_hw10

def k0_off21 (i : grid0.Coords) : Fin 1 → Nat :=
  let arg0 : BitVec 32 := BitVec.ofNat 32 (i 0).val
  let c8_i32 : BitVec 32 := 8#32
  let v0 : BitVec 32 := Scalar.muli arg0 c8_i32
  let c16_i32_151 : BitVec 32 := 16#32
  let v216 : BitVec 32 := Scalar.muli v0 c16_i32_151
  let c10_i32 : BitVec 32 := 10#32
  let v217 : BitVec 32 := Scalar.addi v216 c10_i32
  let v218 : Index := Scalar.indexCast v217
  ![v218.toNat]
def k0_off22 (v219 : BitVec 32) : Fin 2 → Nat :=
  let c0_i32_155 : BitVec 32 := 0#32
  ![v219.toNat, 0]

def k0_chk11 (v219 : BitVec 32) : Prop :=
  (∀ a, (k0_off22 v219) a + S1x512.size a ≤ S100000x512.size a)
instance k0_chk11.dec : ∀ (v219 : BitVec 32), Decidable (k0_chk11 v219) := fun v219 => decidable_of_iff' _ (Iff.of_eq (k0_chk11.eq_1 v219))
theorem k0_off22_inb : ∀ (v219 : BitVec 32) (k0_hw11 : k0_chk11 v219), ∀ a, (k0_off22 v219) a + S1x512.size a ≤ S100000x512.size a := fun v219 k0_hw11 => k0_hw11

def k0_off23 (i : grid0.Coords) : Fin 1 → Nat :=
  let arg0 : BitVec 32 := BitVec.ofNat 32 (i 0).val
  let c8_i32 : BitVec 32 := 8#32
  let v0 : BitVec 32 := Scalar.muli arg0 c8_i32
  let c16_i32_166 : BitVec 32 := 16#32
  let v237 : BitVec 32 := Scalar.muli v0 c16_i32_166
  let c11_i32 : BitVec 32 := 11#32
  let v238 : BitVec 32 := Scalar.addi v237 c11_i32
  let v239 : Index := Scalar.indexCast v238
  ![v239.toNat]
def k0_off24 (v240 : BitVec 32) : Fin 2 → Nat :=
  let c0_i32_170 : BitVec 32 := 0#32
  ![v240.toNat, 0]

def k0_chk12 (v240 : BitVec 32) : Prop :=
  (∀ a, (k0_off24 v240) a + S1x512.size a ≤ S100000x512.size a)
instance k0_chk12.dec : ∀ (v240 : BitVec 32), Decidable (k0_chk12 v240) := fun v240 => decidable_of_iff' _ (Iff.of_eq (k0_chk12.eq_1 v240))
theorem k0_off24_inb : ∀ (v240 : BitVec 32) (k0_hw12 : k0_chk12 v240), ∀ a, (k0_off24 v240) a + S1x512.size a ≤ S100000x512.size a := fun v240 k0_hw12 => k0_hw12

def k0_off25 (i : grid0.Coords) : Fin 1 → Nat :=
  let arg0 : BitVec 32 := BitVec.ofNat 32 (i 0).val
  let c8_i32 : BitVec 32 := 8#32
  let v0 : BitVec 32 := Scalar.muli arg0 c8_i32
  let c16_i32_181 : BitVec 32 := 16#32
  let v258 : BitVec 32 := Scalar.muli v0 c16_i32_181
  let c12_i32 : BitVec 32 := 12#32
  let v259 : BitVec 32 := Scalar.addi v258 c12_i32
  let v260 : Index := Scalar.indexCast v259
  ![v260.toNat]
def k0_off26 (v261 : BitVec 32) : Fin 2 → Nat :=
  let c0_i32_185 : BitVec 32 := 0#32
  ![v261.toNat, 0]

def k0_chk13 (v261 : BitVec 32) : Prop :=
  (∀ a, (k0_off26 v261) a + S1x512.size a ≤ S100000x512.size a)
instance k0_chk13.dec : ∀ (v261 : BitVec 32), Decidable (k0_chk13 v261) := fun v261 => decidable_of_iff' _ (Iff.of_eq (k0_chk13.eq_1 v261))
theorem k0_off26_inb : ∀ (v261 : BitVec 32) (k0_hw13 : k0_chk13 v261), ∀ a, (k0_off26 v261) a + S1x512.size a ≤ S100000x512.size a := fun v261 k0_hw13 => k0_hw13

def k0_off27 (i : grid0.Coords) : Fin 1 → Nat :=
  let arg0 : BitVec 32 := BitVec.ofNat 32 (i 0).val
  let c8_i32 : BitVec 32 := 8#32
  let v0 : BitVec 32 := Scalar.muli arg0 c8_i32
  let c16_i32_196 : BitVec 32 := 16#32
  let v279 : BitVec 32 := Scalar.muli v0 c16_i32_196
  let c13_i32 : BitVec 32 := 13#32
  let v280 : BitVec 32 := Scalar.addi v279 c13_i32
  let v281 : Index := Scalar.indexCast v280
  ![v281.toNat]
def k0_off28 (v282 : BitVec 32) : Fin 2 → Nat :=
  let c0_i32_200 : BitVec 32 := 0#32
  ![v282.toNat, 0]

def k0_chk14 (v282 : BitVec 32) : Prop :=
  (∀ a, (k0_off28 v282) a + S1x512.size a ≤ S100000x512.size a)
instance k0_chk14.dec : ∀ (v282 : BitVec 32), Decidable (k0_chk14 v282) := fun v282 => decidable_of_iff' _ (Iff.of_eq (k0_chk14.eq_1 v282))
theorem k0_off28_inb : ∀ (v282 : BitVec 32) (k0_hw14 : k0_chk14 v282), ∀ a, (k0_off28 v282) a + S1x512.size a ≤ S100000x512.size a := fun v282 k0_hw14 => k0_hw14

def k0_off29 (i : grid0.Coords) : Fin 1 → Nat :=
  let arg0 : BitVec 32 := BitVec.ofNat 32 (i 0).val
  let c8_i32 : BitVec 32 := 8#32
  let v0 : BitVec 32 := Scalar.muli arg0 c8_i32
  let c16_i32_211 : BitVec 32 := 16#32
  let v300 : BitVec 32 := Scalar.muli v0 c16_i32_211
  let c14_i32 : BitVec 32 := 14#32
  let v301 : BitVec 32 := Scalar.addi v300 c14_i32
  let v302 : Index := Scalar.indexCast v301
  ![v302.toNat]
def k0_off30 (v303 : BitVec 32) : Fin 2 → Nat :=
  let c0_i32_215 : BitVec 32 := 0#32
  ![v303.toNat, 0]

def k0_chk15 (v303 : BitVec 32) : Prop :=
  (∀ a, (k0_off30 v303) a + S1x512.size a ≤ S100000x512.size a)
instance k0_chk15.dec : ∀ (v303 : BitVec 32), Decidable (k0_chk15 v303) := fun v303 => decidable_of_iff' _ (Iff.of_eq (k0_chk15.eq_1 v303))
theorem k0_off30_inb : ∀ (v303 : BitVec 32) (k0_hw15 : k0_chk15 v303), ∀ a, (k0_off30 v303) a + S1x512.size a ≤ S100000x512.size a := fun v303 k0_hw15 => k0_hw15

def k0_off31 (i : grid0.Coords) : Fin 1 → Nat :=
  let arg0 : BitVec 32 := BitVec.ofNat 32 (i 0).val
  let c8_i32 : BitVec 32 := 8#32
  let v0 : BitVec 32 := Scalar.muli arg0 c8_i32
  let c16_i32_226 : BitVec 32 := 16#32
  let v321 : BitVec 32 := Scalar.muli v0 c16_i32_226
  let c15_i32 : BitVec 32 := 15#32
  let v322 : BitVec 32 := Scalar.addi v321 c15_i32
  let v323 : Index := Scalar.indexCast v322
  ![v323.toNat]
def k0_off32 (v324 : BitVec 32) : Fin 2 → Nat :=
  let c0_i32_230 : BitVec 32 := 0#32
  ![v324.toNat, 0]

def k0_chk16 (v324 : BitVec 32) : Prop :=
  (∀ a, (k0_off32 v324) a + S1x512.size a ≤ S100000x512.size a)
instance k0_chk16.dec : ∀ (v324 : BitVec 32), Decidable (k0_chk16 v324) := fun v324 => decidable_of_iff' _ (Iff.of_eq (k0_chk16.eq_1 v324))
theorem k0_off32_inb : ∀ (v324 : BitVec 32) (k0_hw16 : k0_chk16 v324), ∀ a, (k0_off32 v324) a + S1x512.size a ≤ S100000x512.size a := fun v324 k0_hw16 => k0_hw16

def k0_off33 (i : grid0.Coords) : Fin 1 → Nat :=
  let arg0 : BitVec 32 := BitVec.ofNat 32 (i 0).val
  let c8_i32 : BitVec 32 := 8#32
  let v0 : BitVec 32 := Scalar.muli arg0 c8_i32
  let c16_i32_241 : BitVec 32 := 16#32
  let v342 : BitVec 32 := Scalar.muli v0 c16_i32_241
  let c16_i32_242 : BitVec 32 := 16#32
  let v343 : BitVec 32 := Scalar.addi v342 c16_i32_242
  let v344 : Index := Scalar.indexCast v343
  ![v344.toNat]
def k0_off34 (v345 : BitVec 32) : Fin 2 → Nat :=
  let c0_i32_246 : BitVec 32 := 0#32
  ![v345.toNat, 0]

def k0_chk17 (v345 : BitVec 32) : Prop :=
  (∀ a, (k0_off34 v345) a + S1x512.size a ≤ S100000x512.size a)
instance k0_chk17.dec : ∀ (v345 : BitVec 32), Decidable (k0_chk17 v345) := fun v345 => decidable_of_iff' _ (Iff.of_eq (k0_chk17.eq_1 v345))
theorem k0_off34_inb : ∀ (v345 : BitVec 32) (k0_hw17 : k0_chk17 v345), ∀ a, (k0_off34 v345) a + S1x512.size a ≤ S100000x512.size a := fun v345 k0_hw17 => k0_hw17

def k0_off35 (i : grid0.Coords) : Fin 1 → Nat :=
  let arg0 : BitVec 32 := BitVec.ofNat 32 (i 0).val
  let c8_i32 : BitVec 32 := 8#32
  let v0 : BitVec 32 := Scalar.muli arg0 c8_i32
  let c16_i32_257 : BitVec 32 := 16#32
  let v364 : BitVec 32 := Scalar.muli v0 c16_i32_257
  let c17_i32 : BitVec 32 := 17#32
  let v365 : BitVec 32 := Scalar.addi v364 c17_i32
  let v366 : Index := Scalar.indexCast v365
  ![v366.toNat]
def k0_off36 (v367 : BitVec 32) : Fin 2 → Nat :=
  let c0_i32_261 : BitVec 32 := 0#32
  ![v367.toNat, 0]

def k0_chk18 (v367 : BitVec 32) : Prop :=
  (∀ a, (k0_off36 v367) a + S1x512.size a ≤ S100000x512.size a)
instance k0_chk18.dec : ∀ (v367 : BitVec 32), Decidable (k0_chk18 v367) := fun v367 => decidable_of_iff' _ (Iff.of_eq (k0_chk18.eq_1 v367))
theorem k0_off36_inb : ∀ (v367 : BitVec 32) (k0_hw18 : k0_chk18 v367), ∀ a, (k0_off36 v367) a + S1x512.size a ≤ S100000x512.size a := fun v367 k0_hw18 => k0_hw18

def k0_off37 (i : grid0.Coords) : Fin 1 → Nat :=
  let arg0 : BitVec 32 := BitVec.ofNat 32 (i 0).val
  let c8_i32 : BitVec 32 := 8#32
  let v0 : BitVec 32 := Scalar.muli arg0 c8_i32
  let c16_i32_272 : BitVec 32 := 16#32
  let v385 : BitVec 32 := Scalar.muli v0 c16_i32_272
  let c18_i32 : BitVec 32 := 18#32
  let v386 : BitVec 32 := Scalar.addi v385 c18_i32
  let v387 : Index := Scalar.indexCast v386
  ![v387.toNat]
def k0_off38 (v388 : BitVec 32) : Fin 2 → Nat :=
  let c0_i32_276 : BitVec 32 := 0#32
  ![v388.toNat, 0]

def k0_chk19 (v388 : BitVec 32) : Prop :=
  (∀ a, (k0_off38 v388) a + S1x512.size a ≤ S100000x512.size a)
instance k0_chk19.dec : ∀ (v388 : BitVec 32), Decidable (k0_chk19 v388) := fun v388 => decidable_of_iff' _ (Iff.of_eq (k0_chk19.eq_1 v388))
theorem k0_off38_inb : ∀ (v388 : BitVec 32) (k0_hw19 : k0_chk19 v388), ∀ a, (k0_off38 v388) a + S1x512.size a ≤ S100000x512.size a := fun v388 k0_hw19 => k0_hw19

def k0_off39 (i : grid0.Coords) : Fin 1 → Nat :=
  let arg0 : BitVec 32 := BitVec.ofNat 32 (i 0).val
  let c8_i32 : BitVec 32 := 8#32
  let v0 : BitVec 32 := Scalar.muli arg0 c8_i32
  let c16_i32_287 : BitVec 32 := 16#32
  let v406 : BitVec 32 := Scalar.muli v0 c16_i32_287
  let c19_i32 : BitVec 32 := 19#32
  let v407 : BitVec 32 := Scalar.addi v406 c19_i32
  let v408 : Index := Scalar.indexCast v407
  ![v408.toNat]
def k0_off40 (v409 : BitVec 32) : Fin 2 → Nat :=
  let c0_i32_291 : BitVec 32 := 0#32
  ![v409.toNat, 0]

def k0_chk20 (v409 : BitVec 32) : Prop :=
  (∀ a, (k0_off40 v409) a + S1x512.size a ≤ S100000x512.size a)
instance k0_chk20.dec : ∀ (v409 : BitVec 32), Decidable (k0_chk20 v409) := fun v409 => decidable_of_iff' _ (Iff.of_eq (k0_chk20.eq_1 v409))
theorem k0_off40_inb : ∀ (v409 : BitVec 32) (k0_hw20 : k0_chk20 v409), ∀ a, (k0_off40 v409) a + S1x512.size a ≤ S100000x512.size a := fun v409 k0_hw20 => k0_hw20

def k0_off41 (i : grid0.Coords) : Fin 1 → Nat :=
  let arg0 : BitVec 32 := BitVec.ofNat 32 (i 0).val
  let c8_i32 : BitVec 32 := 8#32
  let v0 : BitVec 32 := Scalar.muli arg0 c8_i32
  let c16_i32_302 : BitVec 32 := 16#32
  let v427 : BitVec 32 := Scalar.muli v0 c16_i32_302
  let c20_i32 : BitVec 32 := 20#32
  let v428 : BitVec 32 := Scalar.addi v427 c20_i32
  let v429 : Index := Scalar.indexCast v428
  ![v429.toNat]
def k0_off42 (v430 : BitVec 32) : Fin 2 → Nat :=
  let c0_i32_306 : BitVec 32 := 0#32
  ![v430.toNat, 0]

def k0_chk21 (v430 : BitVec 32) : Prop :=
  (∀ a, (k0_off42 v430) a + S1x512.size a ≤ S100000x512.size a)
instance k0_chk21.dec : ∀ (v430 : BitVec 32), Decidable (k0_chk21 v430) := fun v430 => decidable_of_iff' _ (Iff.of_eq (k0_chk21.eq_1 v430))
theorem k0_off42_inb : ∀ (v430 : BitVec 32) (k0_hw21 : k0_chk21 v430), ∀ a, (k0_off42 v430) a + S1x512.size a ≤ S100000x512.size a := fun v430 k0_hw21 => k0_hw21

def k0_off43 (i : grid0.Coords) : Fin 1 → Nat :=
  let arg0 : BitVec 32 := BitVec.ofNat 32 (i 0).val
  let c8_i32 : BitVec 32 := 8#32
  let v0 : BitVec 32 := Scalar.muli arg0 c8_i32
  let c16_i32_317 : BitVec 32 := 16#32
  let v448 : BitVec 32 := Scalar.muli v0 c16_i32_317
  let c21_i32 : BitVec 32 := 21#32
  let v449 : BitVec 32 := Scalar.addi v448 c21_i32
  let v450 : Index := Scalar.indexCast v449
  ![v450.toNat]
def k0_off44 (v451 : BitVec 32) : Fin 2 → Nat :=
  let c0_i32_321 : BitVec 32 := 0#32
  ![v451.toNat, 0]

def k0_chk22 (v451 : BitVec 32) : Prop :=
  (∀ a, (k0_off44 v451) a + S1x512.size a ≤ S100000x512.size a)
instance k0_chk22.dec : ∀ (v451 : BitVec 32), Decidable (k0_chk22 v451) := fun v451 => decidable_of_iff' _ (Iff.of_eq (k0_chk22.eq_1 v451))
theorem k0_off44_inb : ∀ (v451 : BitVec 32) (k0_hw22 : k0_chk22 v451), ∀ a, (k0_off44 v451) a + S1x512.size a ≤ S100000x512.size a := fun v451 k0_hw22 => k0_hw22

def k0_off45 (i : grid0.Coords) : Fin 1 → Nat :=
  let arg0 : BitVec 32 := BitVec.ofNat 32 (i 0).val
  let c8_i32 : BitVec 32 := 8#32
  let v0 : BitVec 32 := Scalar.muli arg0 c8_i32
  let c16_i32_332 : BitVec 32 := 16#32
  let v469 : BitVec 32 := Scalar.muli v0 c16_i32_332
  let c22_i32 : BitVec 32 := 22#32
  let v470 : BitVec 32 := Scalar.addi v469 c22_i32
  let v471 : Index := Scalar.indexCast v470
  ![v471.toNat]
def k0_off46 (v472 : BitVec 32) : Fin 2 → Nat :=
  let c0_i32_336 : BitVec 32 := 0#32
  ![v472.toNat, 0]

def k0_chk23 (v472 : BitVec 32) : Prop :=
  (∀ a, (k0_off46 v472) a + S1x512.size a ≤ S100000x512.size a)
instance k0_chk23.dec : ∀ (v472 : BitVec 32), Decidable (k0_chk23 v472) := fun v472 => decidable_of_iff' _ (Iff.of_eq (k0_chk23.eq_1 v472))
theorem k0_off46_inb : ∀ (v472 : BitVec 32) (k0_hw23 : k0_chk23 v472), ∀ a, (k0_off46 v472) a + S1x512.size a ≤ S100000x512.size a := fun v472 k0_hw23 => k0_hw23

def k0_off47 (i : grid0.Coords) : Fin 1 → Nat :=
  let arg0 : BitVec 32 := BitVec.ofNat 32 (i 0).val
  let c8_i32 : BitVec 32 := 8#32
  let v0 : BitVec 32 := Scalar.muli arg0 c8_i32
  let c16_i32_347 : BitVec 32 := 16#32
  let v490 : BitVec 32 := Scalar.muli v0 c16_i32_347
  let c23_i32 : BitVec 32 := 23#32
  let v491 : BitVec 32 := Scalar.addi v490 c23_i32
  let v492 : Index := Scalar.indexCast v491
  ![v492.toNat]
def k0_off48 (v493 : BitVec 32) : Fin 2 → Nat :=
  let c0_i32_351 : BitVec 32 := 0#32
  ![v493.toNat, 0]

def k0_chk24 (v493 : BitVec 32) : Prop :=
  (∀ a, (k0_off48 v493) a + S1x512.size a ≤ S100000x512.size a)
instance k0_chk24.dec : ∀ (v493 : BitVec 32), Decidable (k0_chk24 v493) := fun v493 => decidable_of_iff' _ (Iff.of_eq (k0_chk24.eq_1 v493))
theorem k0_off48_inb : ∀ (v493 : BitVec 32) (k0_hw24 : k0_chk24 v493), ∀ a, (k0_off48 v493) a + S1x512.size a ≤ S100000x512.size a := fun v493 k0_hw24 => k0_hw24

def k0_off49 (i : grid0.Coords) : Fin 1 → Nat :=
  let arg0 : BitVec 32 := BitVec.ofNat 32 (i 0).val
  let c8_i32 : BitVec 32 := 8#32
  let v0 : BitVec 32 := Scalar.muli arg0 c8_i32
  let c16_i32_362 : BitVec 32 := 16#32
  let v511 : BitVec 32 := Scalar.muli v0 c16_i32_362
  let c24_i32 : BitVec 32 := 24#32
  let v512 : BitVec 32 := Scalar.addi v511 c24_i32
  let v513 : Index := Scalar.indexCast v512
  ![v513.toNat]
def k0_off50 (v514 : BitVec 32) : Fin 2 → Nat :=
  let c0_i32_366 : BitVec 32 := 0#32
  ![v514.toNat, 0]

def k0_chk25 (v514 : BitVec 32) : Prop :=
  (∀ a, (k0_off50 v514) a + S1x512.size a ≤ S100000x512.size a)
instance k0_chk25.dec : ∀ (v514 : BitVec 32), Decidable (k0_chk25 v514) := fun v514 => decidable_of_iff' _ (Iff.of_eq (k0_chk25.eq_1 v514))
theorem k0_off50_inb : ∀ (v514 : BitVec 32) (k0_hw25 : k0_chk25 v514), ∀ a, (k0_off50 v514) a + S1x512.size a ≤ S100000x512.size a := fun v514 k0_hw25 => k0_hw25

def k0_off51 (i : grid0.Coords) : Fin 1 → Nat :=
  let arg0 : BitVec 32 := BitVec.ofNat 32 (i 0).val
  let c8_i32 : BitVec 32 := 8#32
  let v0 : BitVec 32 := Scalar.muli arg0 c8_i32
  let c16_i32_377 : BitVec 32 := 16#32
  let v532 : BitVec 32 := Scalar.muli v0 c16_i32_377
  let c25_i32 : BitVec 32 := 25#32
  let v533 : BitVec 32 := Scalar.addi v532 c25_i32
  let v534 : Index := Scalar.indexCast v533
  ![v534.toNat]
def k0_off52 (v535 : BitVec 32) : Fin 2 → Nat :=
  let c0_i32_381 : BitVec 32 := 0#32
  ![v535.toNat, 0]

def k0_chk26 (v535 : BitVec 32) : Prop :=
  (∀ a, (k0_off52 v535) a + S1x512.size a ≤ S100000x512.size a)
instance k0_chk26.dec : ∀ (v535 : BitVec 32), Decidable (k0_chk26 v535) := fun v535 => decidable_of_iff' _ (Iff.of_eq (k0_chk26.eq_1 v535))
theorem k0_off52_inb : ∀ (v535 : BitVec 32) (k0_hw26 : k0_chk26 v535), ∀ a, (k0_off52 v535) a + S1x512.size a ≤ S100000x512.size a := fun v535 k0_hw26 => k0_hw26

def k0_off53 (i : grid0.Coords) : Fin 1 → Nat :=
  let arg0 : BitVec 32 := BitVec.ofNat 32 (i 0).val
  let c8_i32 : BitVec 32 := 8#32
  let v0 : BitVec 32 := Scalar.muli arg0 c8_i32
  let c16_i32_392 : BitVec 32 := 16#32
  let v553 : BitVec 32 := Scalar.muli v0 c16_i32_392
  let c26_i32 : BitVec 32 := 26#32
  let v554 : BitVec 32 := Scalar.addi v553 c26_i32
  let v555 : Index := Scalar.indexCast v554
  ![v555.toNat]
def k0_off54 (v556 : BitVec 32) : Fin 2 → Nat :=
  let c0_i32_396 : BitVec 32 := 0#32
  ![v556.toNat, 0]

def k0_chk27 (v556 : BitVec 32) : Prop :=
  (∀ a, (k0_off54 v556) a + S1x512.size a ≤ S100000x512.size a)
instance k0_chk27.dec : ∀ (v556 : BitVec 32), Decidable (k0_chk27 v556) := fun v556 => decidable_of_iff' _ (Iff.of_eq (k0_chk27.eq_1 v556))
theorem k0_off54_inb : ∀ (v556 : BitVec 32) (k0_hw27 : k0_chk27 v556), ∀ a, (k0_off54 v556) a + S1x512.size a ≤ S100000x512.size a := fun v556 k0_hw27 => k0_hw27

def k0_off55 (i : grid0.Coords) : Fin 1 → Nat :=
  let arg0 : BitVec 32 := BitVec.ofNat 32 (i 0).val
  let c8_i32 : BitVec 32 := 8#32
  let v0 : BitVec 32 := Scalar.muli arg0 c8_i32
  let c16_i32_407 : BitVec 32 := 16#32
  let v574 : BitVec 32 := Scalar.muli v0 c16_i32_407
  let c27_i32 : BitVec 32 := 27#32
  let v575 : BitVec 32 := Scalar.addi v574 c27_i32
  let v576 : Index := Scalar.indexCast v575
  ![v576.toNat]
def k0_off56 (v577 : BitVec 32) : Fin 2 → Nat :=
  let c0_i32_411 : BitVec 32 := 0#32
  ![v577.toNat, 0]

def k0_chk28 (v577 : BitVec 32) : Prop :=
  (∀ a, (k0_off56 v577) a + S1x512.size a ≤ S100000x512.size a)
instance k0_chk28.dec : ∀ (v577 : BitVec 32), Decidable (k0_chk28 v577) := fun v577 => decidable_of_iff' _ (Iff.of_eq (k0_chk28.eq_1 v577))
theorem k0_off56_inb : ∀ (v577 : BitVec 32) (k0_hw28 : k0_chk28 v577), ∀ a, (k0_off56 v577) a + S1x512.size a ≤ S100000x512.size a := fun v577 k0_hw28 => k0_hw28

def k0_off57 (i : grid0.Coords) : Fin 1 → Nat :=
  let arg0 : BitVec 32 := BitVec.ofNat 32 (i 0).val
  let c8_i32 : BitVec 32 := 8#32
  let v0 : BitVec 32 := Scalar.muli arg0 c8_i32
  let c16_i32_422 : BitVec 32 := 16#32
  let v595 : BitVec 32 := Scalar.muli v0 c16_i32_422
  let c28_i32 : BitVec 32 := 28#32
  let v596 : BitVec 32 := Scalar.addi v595 c28_i32
  let v597 : Index := Scalar.indexCast v596
  ![v597.toNat]
def k0_off58 (v598 : BitVec 32) : Fin 2 → Nat :=
  let c0_i32_426 : BitVec 32 := 0#32
  ![v598.toNat, 0]

def k0_chk29 (v598 : BitVec 32) : Prop :=
  (∀ a, (k0_off58 v598) a + S1x512.size a ≤ S100000x512.size a)
instance k0_chk29.dec : ∀ (v598 : BitVec 32), Decidable (k0_chk29 v598) := fun v598 => decidable_of_iff' _ (Iff.of_eq (k0_chk29.eq_1 v598))
theorem k0_off58_inb : ∀ (v598 : BitVec 32) (k0_hw29 : k0_chk29 v598), ∀ a, (k0_off58 v598) a + S1x512.size a ≤ S100000x512.size a := fun v598 k0_hw29 => k0_hw29

def k0_off59 (i : grid0.Coords) : Fin 1 → Nat :=
  let arg0 : BitVec 32 := BitVec.ofNat 32 (i 0).val
  let c8_i32 : BitVec 32 := 8#32
  let v0 : BitVec 32 := Scalar.muli arg0 c8_i32
  let c16_i32_437 : BitVec 32 := 16#32
  let v616 : BitVec 32 := Scalar.muli v0 c16_i32_437
  let c29_i32 : BitVec 32 := 29#32
  let v617 : BitVec 32 := Scalar.addi v616 c29_i32
  let v618 : Index := Scalar.indexCast v617
  ![v618.toNat]
def k0_off60 (v619 : BitVec 32) : Fin 2 → Nat :=
  let c0_i32_441 : BitVec 32 := 0#32
  ![v619.toNat, 0]

def k0_chk30 (v619 : BitVec 32) : Prop :=
  (∀ a, (k0_off60 v619) a + S1x512.size a ≤ S100000x512.size a)
instance k0_chk30.dec : ∀ (v619 : BitVec 32), Decidable (k0_chk30 v619) := fun v619 => decidable_of_iff' _ (Iff.of_eq (k0_chk30.eq_1 v619))
theorem k0_off60_inb : ∀ (v619 : BitVec 32) (k0_hw30 : k0_chk30 v619), ∀ a, (k0_off60 v619) a + S1x512.size a ≤ S100000x512.size a := fun v619 k0_hw30 => k0_hw30

def k0_off61 (i : grid0.Coords) : Fin 1 → Nat :=
  let arg0 : BitVec 32 := BitVec.ofNat 32 (i 0).val
  let c8_i32 : BitVec 32 := 8#32
  let v0 : BitVec 32 := Scalar.muli arg0 c8_i32
  let c16_i32_452 : BitVec 32 := 16#32
  let v637 : BitVec 32 := Scalar.muli v0 c16_i32_452
  let c30_i32 : BitVec 32 := 30#32
  let v638 : BitVec 32 := Scalar.addi v637 c30_i32
  let v639 : Index := Scalar.indexCast v638
  ![v639.toNat]
def k0_off62 (v640 : BitVec 32) : Fin 2 → Nat :=
  let c0_i32_456 : BitVec 32 := 0#32
  ![v640.toNat, 0]

def k0_chk31 (v640 : BitVec 32) : Prop :=
  (∀ a, (k0_off62 v640) a + S1x512.size a ≤ S100000x512.size a)
instance k0_chk31.dec : ∀ (v640 : BitVec 32), Decidable (k0_chk31 v640) := fun v640 => decidable_of_iff' _ (Iff.of_eq (k0_chk31.eq_1 v640))
theorem k0_off62_inb : ∀ (v640 : BitVec 32) (k0_hw31 : k0_chk31 v640), ∀ a, (k0_off62 v640) a + S1x512.size a ≤ S100000x512.size a := fun v640 k0_hw31 => k0_hw31

def k0_off63 (i : grid0.Coords) : Fin 1 → Nat :=
  let arg0 : BitVec 32 := BitVec.ofNat 32 (i 0).val
  let c8_i32 : BitVec 32 := 8#32
  let v0 : BitVec 32 := Scalar.muli arg0 c8_i32
  let c16_i32_467 : BitVec 32 := 16#32
  let v658 : BitVec 32 := Scalar.muli v0 c16_i32_467
  let c31_i32 : BitVec 32 := 31#32
  let v659 : BitVec 32 := Scalar.addi v658 c31_i32
  let v660 : Index := Scalar.indexCast v659
  ![v660.toNat]
def k0_off64 (v661 : BitVec 32) : Fin 2 → Nat :=
  let c0_i32_471 : BitVec 32 := 0#32
  ![v661.toNat, 0]

def k0_chk32 (v661 : BitVec 32) : Prop :=
  (∀ a, (k0_off64 v661) a + S1x512.size a ≤ S100000x512.size a)
instance k0_chk32.dec : ∀ (v661 : BitVec 32), Decidable (k0_chk32 v661) := fun v661 => decidable_of_iff' _ (Iff.of_eq (k0_chk32.eq_1 v661))
theorem k0_off64_inb : ∀ (v661 : BitVec 32) (k0_hw32 : k0_chk32 v661), ∀ a, (k0_off64 v661) a + S1x512.size a ≤ S100000x512.size a := fun v661 k0_hw32 => k0_hw32

def k0_off65 (i : grid0.Coords) : Fin 1 → Nat :=
  let arg0 : BitVec 32 := BitVec.ofNat 32 (i 0).val
  let c8_i32 : BitVec 32 := 8#32
  let v0 : BitVec 32 := Scalar.muli arg0 c8_i32
  let c16_i32_482 : BitVec 32 := 16#32
  let v679 : BitVec 32 := Scalar.muli v0 c16_i32_482
  let c32_i32 : BitVec 32 := 32#32
  let v680 : BitVec 32 := Scalar.addi v679 c32_i32
  let v681 : Index := Scalar.indexCast v680
  ![v681.toNat]
def k0_off66 (v682 : BitVec 32) : Fin 2 → Nat :=
  let c0_i32_486 : BitVec 32 := 0#32
  ![v682.toNat, 0]

def k0_chk33 (v682 : BitVec 32) : Prop :=
  (∀ a, (k0_off66 v682) a + S1x512.size a ≤ S100000x512.size a)
instance k0_chk33.dec : ∀ (v682 : BitVec 32), Decidable (k0_chk33 v682) := fun v682 => decidable_of_iff' _ (Iff.of_eq (k0_chk33.eq_1 v682))
theorem k0_off66_inb : ∀ (v682 : BitVec 32) (k0_hw33 : k0_chk33 v682), ∀ a, (k0_off66 v682) a + S1x512.size a ≤ S100000x512.size a := fun v682 k0_hw33 => k0_hw33

def k0_off67 (i : grid0.Coords) : Fin 1 → Nat :=
  let arg0 : BitVec 32 := BitVec.ofNat 32 (i 0).val
  let c8_i32 : BitVec 32 := 8#32
  let v0 : BitVec 32 := Scalar.muli arg0 c8_i32
  let c16_i32_497 : BitVec 32 := 16#32
  let v701 : BitVec 32 := Scalar.muli v0 c16_i32_497
  let c33_i32 : BitVec 32 := 33#32
  let v702 : BitVec 32 := Scalar.addi v701 c33_i32
  let v703 : Index := Scalar.indexCast v702
  ![v703.toNat]
def k0_off68 (v704 : BitVec 32) : Fin 2 → Nat :=
  let c0_i32_501 : BitVec 32 := 0#32
  ![v704.toNat, 0]

def k0_chk34 (v704 : BitVec 32) : Prop :=
  (∀ a, (k0_off68 v704) a + S1x512.size a ≤ S100000x512.size a)
instance k0_chk34.dec : ∀ (v704 : BitVec 32), Decidable (k0_chk34 v704) := fun v704 => decidable_of_iff' _ (Iff.of_eq (k0_chk34.eq_1 v704))
theorem k0_off68_inb : ∀ (v704 : BitVec 32) (k0_hw34 : k0_chk34 v704), ∀ a, (k0_off68 v704) a + S1x512.size a ≤ S100000x512.size a := fun v704 k0_hw34 => k0_hw34

def k0_off69 (i : grid0.Coords) : Fin 1 → Nat :=
  let arg0 : BitVec 32 := BitVec.ofNat 32 (i 0).val
  let c8_i32 : BitVec 32 := 8#32
  let v0 : BitVec 32 := Scalar.muli arg0 c8_i32
  let c16_i32_511 : BitVec 32 := 16#32
  let v722 : BitVec 32 := Scalar.muli v0 c16_i32_511
  let c34_i32 : BitVec 32 := 34#32
  let v723 : BitVec 32 := Scalar.addi v722 c34_i32
  let v724 : Index := Scalar.indexCast v723
  ![v724.toNat]
def k0_off70 (v725 : BitVec 32) : Fin 2 → Nat :=
  let c0_i32_515 : BitVec 32 := 0#32
  ![v725.toNat, 0]

def k0_chk35 (v725 : BitVec 32) : Prop :=
  (∀ a, (k0_off70 v725) a + S1x512.size a ≤ S100000x512.size a)
instance k0_chk35.dec : ∀ (v725 : BitVec 32), Decidable (k0_chk35 v725) := fun v725 => decidable_of_iff' _ (Iff.of_eq (k0_chk35.eq_1 v725))
theorem k0_off70_inb : ∀ (v725 : BitVec 32) (k0_hw35 : k0_chk35 v725), ∀ a, (k0_off70 v725) a + S1x512.size a ≤ S100000x512.size a := fun v725 k0_hw35 => k0_hw35

def k0_off71 (i : grid0.Coords) : Fin 1 → Nat :=
  let arg0 : BitVec 32 := BitVec.ofNat 32 (i 0).val
  let c8_i32 : BitVec 32 := 8#32
  let v0 : BitVec 32 := Scalar.muli arg0 c8_i32
  let c16_i32_526 : BitVec 32 := 16#32
  let v743 : BitVec 32 := Scalar.muli v0 c16_i32_526
  let c35_i32 : BitVec 32 := 35#32
  let v744 : BitVec 32 := Scalar.addi v743 c35_i32
  let v745 : Index := Scalar.indexCast v744
  ![v745.toNat]
def k0_off72 (v746 : BitVec 32) : Fin 2 → Nat :=
  let c0_i32_530 : BitVec 32 := 0#32
  ![v746.toNat, 0]

def k0_chk36 (v746 : BitVec 32) : Prop :=
  (∀ a, (k0_off72 v746) a + S1x512.size a ≤ S100000x512.size a)
instance k0_chk36.dec : ∀ (v746 : BitVec 32), Decidable (k0_chk36 v746) := fun v746 => decidable_of_iff' _ (Iff.of_eq (k0_chk36.eq_1 v746))
theorem k0_off72_inb : ∀ (v746 : BitVec 32) (k0_hw36 : k0_chk36 v746), ∀ a, (k0_off72 v746) a + S1x512.size a ≤ S100000x512.size a := fun v746 k0_hw36 => k0_hw36

def k0_off73 (i : grid0.Coords) : Fin 1 → Nat :=
  let arg0 : BitVec 32 := BitVec.ofNat 32 (i 0).val
  let c8_i32 : BitVec 32 := 8#32
  let v0 : BitVec 32 := Scalar.muli arg0 c8_i32
  let c16_i32_541 : BitVec 32 := 16#32
  let v764 : BitVec 32 := Scalar.muli v0 c16_i32_541
  let c36_i32 : BitVec 32 := 36#32
  let v765 : BitVec 32 := Scalar.addi v764 c36_i32
  let v766 : Index := Scalar.indexCast v765
  ![v766.toNat]
def k0_off74 (v767 : BitVec 32) : Fin 2 → Nat :=
  let c0_i32_545 : BitVec 32 := 0#32
  ![v767.toNat, 0]

def k0_chk37 (v767 : BitVec 32) : Prop :=
  (∀ a, (k0_off74 v767) a + S1x512.size a ≤ S100000x512.size a)
instance k0_chk37.dec : ∀ (v767 : BitVec 32), Decidable (k0_chk37 v767) := fun v767 => decidable_of_iff' _ (Iff.of_eq (k0_chk37.eq_1 v767))
theorem k0_off74_inb : ∀ (v767 : BitVec 32) (k0_hw37 : k0_chk37 v767), ∀ a, (k0_off74 v767) a + S1x512.size a ≤ S100000x512.size a := fun v767 k0_hw37 => k0_hw37

def k0_off75 (i : grid0.Coords) : Fin 1 → Nat :=
  let arg0 : BitVec 32 := BitVec.ofNat 32 (i 0).val
  let c8_i32 : BitVec 32 := 8#32
  let v0 : BitVec 32 := Scalar.muli arg0 c8_i32
  let c16_i32_556 : BitVec 32 := 16#32
  let v785 : BitVec 32 := Scalar.muli v0 c16_i32_556
  let c37_i32 : BitVec 32 := 37#32
  let v786 : BitVec 32 := Scalar.addi v785 c37_i32
  let v787 : Index := Scalar.indexCast v786
  ![v787.toNat]
def k0_off76 (v788 : BitVec 32) : Fin 2 → Nat :=
  let c0_i32_560 : BitVec 32 := 0#32
  ![v788.toNat, 0]

def k0_chk38 (v788 : BitVec 32) : Prop :=
  (∀ a, (k0_off76 v788) a + S1x512.size a ≤ S100000x512.size a)
instance k0_chk38.dec : ∀ (v788 : BitVec 32), Decidable (k0_chk38 v788) := fun v788 => decidable_of_iff' _ (Iff.of_eq (k0_chk38.eq_1 v788))
theorem k0_off76_inb : ∀ (v788 : BitVec 32) (k0_hw38 : k0_chk38 v788), ∀ a, (k0_off76 v788) a + S1x512.size a ≤ S100000x512.size a := fun v788 k0_hw38 => k0_hw38

def k0_off77 (i : grid0.Coords) : Fin 1 → Nat :=
  let arg0 : BitVec 32 := BitVec.ofNat 32 (i 0).val
  let c8_i32 : BitVec 32 := 8#32
  let v0 : BitVec 32 := Scalar.muli arg0 c8_i32
  let c16_i32_571 : BitVec 32 := 16#32
  let v806 : BitVec 32 := Scalar.muli v0 c16_i32_571
  let c38_i32 : BitVec 32 := 38#32
  let v807 : BitVec 32 := Scalar.addi v806 c38_i32
  let v808 : Index := Scalar.indexCast v807
  ![v808.toNat]
def k0_off78 (v809 : BitVec 32) : Fin 2 → Nat :=
  let c0_i32_575 : BitVec 32 := 0#32
  ![v809.toNat, 0]

def k0_chk39 (v809 : BitVec 32) : Prop :=
  (∀ a, (k0_off78 v809) a + S1x512.size a ≤ S100000x512.size a)
instance k0_chk39.dec : ∀ (v809 : BitVec 32), Decidable (k0_chk39 v809) := fun v809 => decidable_of_iff' _ (Iff.of_eq (k0_chk39.eq_1 v809))
theorem k0_off78_inb : ∀ (v809 : BitVec 32) (k0_hw39 : k0_chk39 v809), ∀ a, (k0_off78 v809) a + S1x512.size a ≤ S100000x512.size a := fun v809 k0_hw39 => k0_hw39

def k0_off79 (i : grid0.Coords) : Fin 1 → Nat :=
  let arg0 : BitVec 32 := BitVec.ofNat 32 (i 0).val
  let c8_i32 : BitVec 32 := 8#32
  let v0 : BitVec 32 := Scalar.muli arg0 c8_i32
  let c16_i32_586 : BitVec 32 := 16#32
  let v827 : BitVec 32 := Scalar.muli v0 c16_i32_586
  let c39_i32 : BitVec 32 := 39#32
  let v828 : BitVec 32 := Scalar.addi v827 c39_i32
  let v829 : Index := Scalar.indexCast v828
  ![v829.toNat]
def k0_off80 (v830 : BitVec 32) : Fin 2 → Nat :=
  let c0_i32_590 : BitVec 32 := 0#32
  ![v830.toNat, 0]

def k0_chk40 (v830 : BitVec 32) : Prop :=
  (∀ a, (k0_off80 v830) a + S1x512.size a ≤ S100000x512.size a)
instance k0_chk40.dec : ∀ (v830 : BitVec 32), Decidable (k0_chk40 v830) := fun v830 => decidable_of_iff' _ (Iff.of_eq (k0_chk40.eq_1 v830))
theorem k0_off80_inb : ∀ (v830 : BitVec 32) (k0_hw40 : k0_chk40 v830), ∀ a, (k0_off80 v830) a + S1x512.size a ≤ S100000x512.size a := fun v830 k0_hw40 => k0_hw40

def k0_off81 (i : grid0.Coords) : Fin 1 → Nat :=
  let arg0 : BitVec 32 := BitVec.ofNat 32 (i 0).val
  let c8_i32 : BitVec 32 := 8#32
  let v0 : BitVec 32 := Scalar.muli arg0 c8_i32
  let c16_i32_601 : BitVec 32 := 16#32
  let v848 : BitVec 32 := Scalar.muli v0 c16_i32_601
  let c40_i32 : BitVec 32 := 40#32
  let v849 : BitVec 32 := Scalar.addi v848 c40_i32
  let v850 : Index := Scalar.indexCast v849
  ![v850.toNat]
def k0_off82 (v851 : BitVec 32) : Fin 2 → Nat :=
  let c0_i32_605 : BitVec 32 := 0#32
  ![v851.toNat, 0]

def k0_chk41 (v851 : BitVec 32) : Prop :=
  (∀ a, (k0_off82 v851) a + S1x512.size a ≤ S100000x512.size a)
instance k0_chk41.dec : ∀ (v851 : BitVec 32), Decidable (k0_chk41 v851) := fun v851 => decidable_of_iff' _ (Iff.of_eq (k0_chk41.eq_1 v851))
theorem k0_off82_inb : ∀ (v851 : BitVec 32) (k0_hw41 : k0_chk41 v851), ∀ a, (k0_off82 v851) a + S1x512.size a ≤ S100000x512.size a := fun v851 k0_hw41 => k0_hw41

def k0_off83 (i : grid0.Coords) : Fin 1 → Nat :=
  let arg0 : BitVec 32 := BitVec.ofNat 32 (i 0).val
  let c8_i32 : BitVec 32 := 8#32
  let v0 : BitVec 32 := Scalar.muli arg0 c8_i32
  let c16_i32_616 : BitVec 32 := 16#32
  let v869 : BitVec 32 := Scalar.muli v0 c16_i32_616
  let c41_i32 : BitVec 32 := 41#32
  let v870 : BitVec 32 := Scalar.addi v869 c41_i32
  let v871 : Index := Scalar.indexCast v870
  ![v871.toNat]
def k0_off84 (v872 : BitVec 32) : Fin 2 → Nat :=
  let c0_i32_620 : BitVec 32 := 0#32
  ![v872.toNat, 0]

def k0_chk42 (v872 : BitVec 32) : Prop :=
  (∀ a, (k0_off84 v872) a + S1x512.size a ≤ S100000x512.size a)
instance k0_chk42.dec : ∀ (v872 : BitVec 32), Decidable (k0_chk42 v872) := fun v872 => decidable_of_iff' _ (Iff.of_eq (k0_chk42.eq_1 v872))
theorem k0_off84_inb : ∀ (v872 : BitVec 32) (k0_hw42 : k0_chk42 v872), ∀ a, (k0_off84 v872) a + S1x512.size a ≤ S100000x512.size a := fun v872 k0_hw42 => k0_hw42

def k0_off85 (i : grid0.Coords) : Fin 1 → Nat :=
  let arg0 : BitVec 32 := BitVec.ofNat 32 (i 0).val
  let c8_i32 : BitVec 32 := 8#32
  let v0 : BitVec 32 := Scalar.muli arg0 c8_i32
  let c16_i32_631 : BitVec 32 := 16#32
  let v890 : BitVec 32 := Scalar.muli v0 c16_i32_631
  let c42_i32 : BitVec 32 := 42#32
  let v891 : BitVec 32 := Scalar.addi v890 c42_i32
  let v892 : Index := Scalar.indexCast v891
  ![v892.toNat]
def k0_off86 (v893 : BitVec 32) : Fin 2 → Nat :=
  let c0_i32_635 : BitVec 32 := 0#32
  ![v893.toNat, 0]

def k0_chk43 (v893 : BitVec 32) : Prop :=
  (∀ a, (k0_off86 v893) a + S1x512.size a ≤ S100000x512.size a)
instance k0_chk43.dec : ∀ (v893 : BitVec 32), Decidable (k0_chk43 v893) := fun v893 => decidable_of_iff' _ (Iff.of_eq (k0_chk43.eq_1 v893))
theorem k0_off86_inb : ∀ (v893 : BitVec 32) (k0_hw43 : k0_chk43 v893), ∀ a, (k0_off86 v893) a + S1x512.size a ≤ S100000x512.size a := fun v893 k0_hw43 => k0_hw43

def k0_off87 (i : grid0.Coords) : Fin 1 → Nat :=
  let arg0 : BitVec 32 := BitVec.ofNat 32 (i 0).val
  let c8_i32 : BitVec 32 := 8#32
  let v0 : BitVec 32 := Scalar.muli arg0 c8_i32
  let c16_i32_646 : BitVec 32 := 16#32
  let v911 : BitVec 32 := Scalar.muli v0 c16_i32_646
  let c43_i32 : BitVec 32 := 43#32
  let v912 : BitVec 32 := Scalar.addi v911 c43_i32
  let v913 : Index := Scalar.indexCast v912
  ![v913.toNat]
def k0_off88 (v914 : BitVec 32) : Fin 2 → Nat :=
  let c0_i32_650 : BitVec 32 := 0#32
  ![v914.toNat, 0]

def k0_chk44 (v914 : BitVec 32) : Prop :=
  (∀ a, (k0_off88 v914) a + S1x512.size a ≤ S100000x512.size a)
instance k0_chk44.dec : ∀ (v914 : BitVec 32), Decidable (k0_chk44 v914) := fun v914 => decidable_of_iff' _ (Iff.of_eq (k0_chk44.eq_1 v914))
theorem k0_off88_inb : ∀ (v914 : BitVec 32) (k0_hw44 : k0_chk44 v914), ∀ a, (k0_off88 v914) a + S1x512.size a ≤ S100000x512.size a := fun v914 k0_hw44 => k0_hw44

def k0_off89 (i : grid0.Coords) : Fin 1 → Nat :=
  let arg0 : BitVec 32 := BitVec.ofNat 32 (i 0).val
  let c8_i32 : BitVec 32 := 8#32
  let v0 : BitVec 32 := Scalar.muli arg0 c8_i32
  let c16_i32_661 : BitVec 32 := 16#32
  let v932 : BitVec 32 := Scalar.muli v0 c16_i32_661
  let c44_i32 : BitVec 32 := 44#32
  let v933 : BitVec 32 := Scalar.addi v932 c44_i32
  let v934 : Index := Scalar.indexCast v933
  ![v934.toNat]
def k0_off90 (v935 : BitVec 32) : Fin 2 → Nat :=
  let c0_i32_665 : BitVec 32 := 0#32
  ![v935.toNat, 0]

def k0_chk45 (v935 : BitVec 32) : Prop :=
  (∀ a, (k0_off90 v935) a + S1x512.size a ≤ S100000x512.size a)
instance k0_chk45.dec : ∀ (v935 : BitVec 32), Decidable (k0_chk45 v935) := fun v935 => decidable_of_iff' _ (Iff.of_eq (k0_chk45.eq_1 v935))
theorem k0_off90_inb : ∀ (v935 : BitVec 32) (k0_hw45 : k0_chk45 v935), ∀ a, (k0_off90 v935) a + S1x512.size a ≤ S100000x512.size a := fun v935 k0_hw45 => k0_hw45

def k0_off91 (i : grid0.Coords) : Fin 1 → Nat :=
  let arg0 : BitVec 32 := BitVec.ofNat 32 (i 0).val
  let c8_i32 : BitVec 32 := 8#32
  let v0 : BitVec 32 := Scalar.muli arg0 c8_i32
  let c16_i32_676 : BitVec 32 := 16#32
  let v953 : BitVec 32 := Scalar.muli v0 c16_i32_676
  let c45_i32 : BitVec 32 := 45#32
  let v954 : BitVec 32 := Scalar.addi v953 c45_i32
  let v955 : Index := Scalar.indexCast v954
  ![v955.toNat]
def k0_off92 (v956 : BitVec 32) : Fin 2 → Nat :=
  let c0_i32_680 : BitVec 32 := 0#32
  ![v956.toNat, 0]

def k0_chk46 (v956 : BitVec 32) : Prop :=
  (∀ a, (k0_off92 v956) a + S1x512.size a ≤ S100000x512.size a)
instance k0_chk46.dec : ∀ (v956 : BitVec 32), Decidable (k0_chk46 v956) := fun v956 => decidable_of_iff' _ (Iff.of_eq (k0_chk46.eq_1 v956))
theorem k0_off92_inb : ∀ (v956 : BitVec 32) (k0_hw46 : k0_chk46 v956), ∀ a, (k0_off92 v956) a + S1x512.size a ≤ S100000x512.size a := fun v956 k0_hw46 => k0_hw46

def k0_off93 (i : grid0.Coords) : Fin 1 → Nat :=
  let arg0 : BitVec 32 := BitVec.ofNat 32 (i 0).val
  let c8_i32 : BitVec 32 := 8#32
  let v0 : BitVec 32 := Scalar.muli arg0 c8_i32
  let c16_i32_691 : BitVec 32 := 16#32
  let v974 : BitVec 32 := Scalar.muli v0 c16_i32_691
  let c46_i32 : BitVec 32 := 46#32
  let v975 : BitVec 32 := Scalar.addi v974 c46_i32
  let v976 : Index := Scalar.indexCast v975
  ![v976.toNat]
def k0_off94 (v977 : BitVec 32) : Fin 2 → Nat :=
  let c0_i32_695 : BitVec 32 := 0#32
  ![v977.toNat, 0]

def k0_chk47 (v977 : BitVec 32) : Prop :=
  (∀ a, (k0_off94 v977) a + S1x512.size a ≤ S100000x512.size a)
instance k0_chk47.dec : ∀ (v977 : BitVec 32), Decidable (k0_chk47 v977) := fun v977 => decidable_of_iff' _ (Iff.of_eq (k0_chk47.eq_1 v977))
theorem k0_off94_inb : ∀ (v977 : BitVec 32) (k0_hw47 : k0_chk47 v977), ∀ a, (k0_off94 v977) a + S1x512.size a ≤ S100000x512.size a := fun v977 k0_hw47 => k0_hw47

def k0_off95 (i : grid0.Coords) : Fin 1 → Nat :=
  let arg0 : BitVec 32 := BitVec.ofNat 32 (i 0).val
  let c8_i32 : BitVec 32 := 8#32
  let v0 : BitVec 32 := Scalar.muli arg0 c8_i32
  let c16_i32_706 : BitVec 32 := 16#32
  let v995 : BitVec 32 := Scalar.muli v0 c16_i32_706
  let c47_i32 : BitVec 32 := 47#32
  let v996 : BitVec 32 := Scalar.addi v995 c47_i32
  let v997 : Index := Scalar.indexCast v996
  ![v997.toNat]
def k0_off96 (v998 : BitVec 32) : Fin 2 → Nat :=
  let c0_i32_710 : BitVec 32 := 0#32
  ![v998.toNat, 0]

def k0_chk48 (v998 : BitVec 32) : Prop :=
  (∀ a, (k0_off96 v998) a + S1x512.size a ≤ S100000x512.size a)
instance k0_chk48.dec : ∀ (v998 : BitVec 32), Decidable (k0_chk48 v998) := fun v998 => decidable_of_iff' _ (Iff.of_eq (k0_chk48.eq_1 v998))
theorem k0_off96_inb : ∀ (v998 : BitVec 32) (k0_hw48 : k0_chk48 v998), ∀ a, (k0_off96 v998) a + S1x512.size a ≤ S100000x512.size a := fun v998 k0_hw48 => k0_hw48

def k0_off97 (i : grid0.Coords) : Fin 1 → Nat :=
  let arg0 : BitVec 32 := BitVec.ofNat 32 (i 0).val
  let c8_i32 : BitVec 32 := 8#32
  let v0 : BitVec 32 := Scalar.muli arg0 c8_i32
  let c16_i32_721 : BitVec 32 := 16#32
  let v1016 : BitVec 32 := Scalar.muli v0 c16_i32_721
  let c48_i32 : BitVec 32 := 48#32
  let v1017 : BitVec 32 := Scalar.addi v1016 c48_i32
  let v1018 : Index := Scalar.indexCast v1017
  ![v1018.toNat]
def k0_off98 (v1019 : BitVec 32) : Fin 2 → Nat :=
  let c0_i32_725 : BitVec 32 := 0#32
  ![v1019.toNat, 0]

def k0_chk49 (v1019 : BitVec 32) : Prop :=
  (∀ a, (k0_off98 v1019) a + S1x512.size a ≤ S100000x512.size a)
instance k0_chk49.dec : ∀ (v1019 : BitVec 32), Decidable (k0_chk49 v1019) := fun v1019 => decidable_of_iff' _ (Iff.of_eq (k0_chk49.eq_1 v1019))
theorem k0_off98_inb : ∀ (v1019 : BitVec 32) (k0_hw49 : k0_chk49 v1019), ∀ a, (k0_off98 v1019) a + S1x512.size a ≤ S100000x512.size a := fun v1019 k0_hw49 => k0_hw49

def k0_off99 (i : grid0.Coords) : Fin 1 → Nat :=
  let arg0 : BitVec 32 := BitVec.ofNat 32 (i 0).val
  let c8_i32 : BitVec 32 := 8#32
  let v0 : BitVec 32 := Scalar.muli arg0 c8_i32
  let c16_i32_736 : BitVec 32 := 16#32
  let v1038 : BitVec 32 := Scalar.muli v0 c16_i32_736
  let c49_i32 : BitVec 32 := 49#32
  let v1039 : BitVec 32 := Scalar.addi v1038 c49_i32
  let v1040 : Index := Scalar.indexCast v1039
  ![v1040.toNat]
def k0_off100 (v1041 : BitVec 32) : Fin 2 → Nat :=
  let c0_i32_740 : BitVec 32 := 0#32
  ![v1041.toNat, 0]

def k0_chk50 (v1041 : BitVec 32) : Prop :=
  (∀ a, (k0_off100 v1041) a + S1x512.size a ≤ S100000x512.size a)
instance k0_chk50.dec : ∀ (v1041 : BitVec 32), Decidable (k0_chk50 v1041) := fun v1041 => decidable_of_iff' _ (Iff.of_eq (k0_chk50.eq_1 v1041))
theorem k0_off100_inb : ∀ (v1041 : BitVec 32) (k0_hw50 : k0_chk50 v1041), ∀ a, (k0_off100 v1041) a + S1x512.size a ≤ S100000x512.size a := fun v1041 k0_hw50 => k0_hw50

def k0_off101 (i : grid0.Coords) : Fin 1 → Nat :=
  let arg0 : BitVec 32 := BitVec.ofNat 32 (i 0).val
  let c8_i32 : BitVec 32 := 8#32
  let v0 : BitVec 32 := Scalar.muli arg0 c8_i32
  let c16_i32_750 : BitVec 32 := 16#32
  let v1059 : BitVec 32 := Scalar.muli v0 c16_i32_750
  let c50_i32 : BitVec 32 := 50#32
  let v1060 : BitVec 32 := Scalar.addi v1059 c50_i32
  let v1061 : Index := Scalar.indexCast v1060
  ![v1061.toNat]
def k0_off102 (v1062 : BitVec 32) : Fin 2 → Nat :=
  let c0_i32_754 : BitVec 32 := 0#32
  ![v1062.toNat, 0]

def k0_chk51 (v1062 : BitVec 32) : Prop :=
  (∀ a, (k0_off102 v1062) a + S1x512.size a ≤ S100000x512.size a)
instance k0_chk51.dec : ∀ (v1062 : BitVec 32), Decidable (k0_chk51 v1062) := fun v1062 => decidable_of_iff' _ (Iff.of_eq (k0_chk51.eq_1 v1062))
theorem k0_off102_inb : ∀ (v1062 : BitVec 32) (k0_hw51 : k0_chk51 v1062), ∀ a, (k0_off102 v1062) a + S1x512.size a ≤ S100000x512.size a := fun v1062 k0_hw51 => k0_hw51

def k0_off103 (i : grid0.Coords) : Fin 1 → Nat :=
  let arg0 : BitVec 32 := BitVec.ofNat 32 (i 0).val
  let c8_i32 : BitVec 32 := 8#32
  let v0 : BitVec 32 := Scalar.muli arg0 c8_i32
  let c16_i32_765 : BitVec 32 := 16#32
  let v1080 : BitVec 32 := Scalar.muli v0 c16_i32_765
  let c51_i32 : BitVec 32 := 51#32
  let v1081 : BitVec 32 := Scalar.addi v1080 c51_i32
  let v1082 : Index := Scalar.indexCast v1081
  ![v1082.toNat]
def k0_off104 (v1083 : BitVec 32) : Fin 2 → Nat :=
  let c0_i32_769 : BitVec 32 := 0#32
  ![v1083.toNat, 0]

def k0_chk52 (v1083 : BitVec 32) : Prop :=
  (∀ a, (k0_off104 v1083) a + S1x512.size a ≤ S100000x512.size a)
instance k0_chk52.dec : ∀ (v1083 : BitVec 32), Decidable (k0_chk52 v1083) := fun v1083 => decidable_of_iff' _ (Iff.of_eq (k0_chk52.eq_1 v1083))
theorem k0_off104_inb : ∀ (v1083 : BitVec 32) (k0_hw52 : k0_chk52 v1083), ∀ a, (k0_off104 v1083) a + S1x512.size a ≤ S100000x512.size a := fun v1083 k0_hw52 => k0_hw52

def k0_off105 (i : grid0.Coords) : Fin 1 → Nat :=
  let arg0 : BitVec 32 := BitVec.ofNat 32 (i 0).val
  let c8_i32 : BitVec 32 := 8#32
  let v0 : BitVec 32 := Scalar.muli arg0 c8_i32
  let c16_i32_780 : BitVec 32 := 16#32
  let v1101 : BitVec 32 := Scalar.muli v0 c16_i32_780
  let c52_i32 : BitVec 32 := 52#32
  let v1102 : BitVec 32 := Scalar.addi v1101 c52_i32
  let v1103 : Index := Scalar.indexCast v1102
  ![v1103.toNat]
def k0_off106 (v1104 : BitVec 32) : Fin 2 → Nat :=
  let c0_i32_784 : BitVec 32 := 0#32
  ![v1104.toNat, 0]

def k0_chk53 (v1104 : BitVec 32) : Prop :=
  (∀ a, (k0_off106 v1104) a + S1x512.size a ≤ S100000x512.size a)
instance k0_chk53.dec : ∀ (v1104 : BitVec 32), Decidable (k0_chk53 v1104) := fun v1104 => decidable_of_iff' _ (Iff.of_eq (k0_chk53.eq_1 v1104))
theorem k0_off106_inb : ∀ (v1104 : BitVec 32) (k0_hw53 : k0_chk53 v1104), ∀ a, (k0_off106 v1104) a + S1x512.size a ≤ S100000x512.size a := fun v1104 k0_hw53 => k0_hw53

def k0_off107 (i : grid0.Coords) : Fin 1 → Nat :=
  let arg0 : BitVec 32 := BitVec.ofNat 32 (i 0).val
  let c8_i32 : BitVec 32 := 8#32
  let v0 : BitVec 32 := Scalar.muli arg0 c8_i32
  let c16_i32_795 : BitVec 32 := 16#32
  let v1122 : BitVec 32 := Scalar.muli v0 c16_i32_795
  let c53_i32 : BitVec 32 := 53#32
  let v1123 : BitVec 32 := Scalar.addi v1122 c53_i32
  let v1124 : Index := Scalar.indexCast v1123
  ![v1124.toNat]
def k0_off108 (v1125 : BitVec 32) : Fin 2 → Nat :=
  let c0_i32_799 : BitVec 32 := 0#32
  ![v1125.toNat, 0]

def k0_chk54 (v1125 : BitVec 32) : Prop :=
  (∀ a, (k0_off108 v1125) a + S1x512.size a ≤ S100000x512.size a)
instance k0_chk54.dec : ∀ (v1125 : BitVec 32), Decidable (k0_chk54 v1125) := fun v1125 => decidable_of_iff' _ (Iff.of_eq (k0_chk54.eq_1 v1125))
theorem k0_off108_inb : ∀ (v1125 : BitVec 32) (k0_hw54 : k0_chk54 v1125), ∀ a, (k0_off108 v1125) a + S1x512.size a ≤ S100000x512.size a := fun v1125 k0_hw54 => k0_hw54

def k0_off109 (i : grid0.Coords) : Fin 1 → Nat :=
  let arg0 : BitVec 32 := BitVec.ofNat 32 (i 0).val
  let c8_i32 : BitVec 32 := 8#32
  let v0 : BitVec 32 := Scalar.muli arg0 c8_i32
  let c16_i32_810 : BitVec 32 := 16#32
  let v1143 : BitVec 32 := Scalar.muli v0 c16_i32_810
  let c54_i32 : BitVec 32 := 54#32
  let v1144 : BitVec 32 := Scalar.addi v1143 c54_i32
  let v1145 : Index := Scalar.indexCast v1144
  ![v1145.toNat]
def k0_off110 (v1146 : BitVec 32) : Fin 2 → Nat :=
  let c0_i32_814 : BitVec 32 := 0#32
  ![v1146.toNat, 0]

def k0_chk55 (v1146 : BitVec 32) : Prop :=
  (∀ a, (k0_off110 v1146) a + S1x512.size a ≤ S100000x512.size a)
instance k0_chk55.dec : ∀ (v1146 : BitVec 32), Decidable (k0_chk55 v1146) := fun v1146 => decidable_of_iff' _ (Iff.of_eq (k0_chk55.eq_1 v1146))
theorem k0_off110_inb : ∀ (v1146 : BitVec 32) (k0_hw55 : k0_chk55 v1146), ∀ a, (k0_off110 v1146) a + S1x512.size a ≤ S100000x512.size a := fun v1146 k0_hw55 => k0_hw55

def k0_off111 (i : grid0.Coords) : Fin 1 → Nat :=
  let arg0 : BitVec 32 := BitVec.ofNat 32 (i 0).val
  let c8_i32 : BitVec 32 := 8#32
  let v0 : BitVec 32 := Scalar.muli arg0 c8_i32
  let c16_i32_825 : BitVec 32 := 16#32
  let v1164 : BitVec 32 := Scalar.muli v0 c16_i32_825
  let c55_i32 : BitVec 32 := 55#32
  let v1165 : BitVec 32 := Scalar.addi v1164 c55_i32
  let v1166 : Index := Scalar.indexCast v1165
  ![v1166.toNat]
def k0_off112 (v1167 : BitVec 32) : Fin 2 → Nat :=
  let c0_i32_829 : BitVec 32 := 0#32
  ![v1167.toNat, 0]

def k0_chk56 (v1167 : BitVec 32) : Prop :=
  (∀ a, (k0_off112 v1167) a + S1x512.size a ≤ S100000x512.size a)
instance k0_chk56.dec : ∀ (v1167 : BitVec 32), Decidable (k0_chk56 v1167) := fun v1167 => decidable_of_iff' _ (Iff.of_eq (k0_chk56.eq_1 v1167))
theorem k0_off112_inb : ∀ (v1167 : BitVec 32) (k0_hw56 : k0_chk56 v1167), ∀ a, (k0_off112 v1167) a + S1x512.size a ≤ S100000x512.size a := fun v1167 k0_hw56 => k0_hw56

def k0_off113 (i : grid0.Coords) : Fin 1 → Nat :=
  let arg0 : BitVec 32 := BitVec.ofNat 32 (i 0).val
  let c8_i32 : BitVec 32 := 8#32
  let v0 : BitVec 32 := Scalar.muli arg0 c8_i32
  let c16_i32_840 : BitVec 32 := 16#32
  let v1185 : BitVec 32 := Scalar.muli v0 c16_i32_840
  let c56_i32 : BitVec 32 := 56#32
  let v1186 : BitVec 32 := Scalar.addi v1185 c56_i32
  let v1187 : Index := Scalar.indexCast v1186
  ![v1187.toNat]
def k0_off114 (v1188 : BitVec 32) : Fin 2 → Nat :=
  let c0_i32_844 : BitVec 32 := 0#32
  ![v1188.toNat, 0]

def k0_chk57 (v1188 : BitVec 32) : Prop :=
  (∀ a, (k0_off114 v1188) a + S1x512.size a ≤ S100000x512.size a)
instance k0_chk57.dec : ∀ (v1188 : BitVec 32), Decidable (k0_chk57 v1188) := fun v1188 => decidable_of_iff' _ (Iff.of_eq (k0_chk57.eq_1 v1188))
theorem k0_off114_inb : ∀ (v1188 : BitVec 32) (k0_hw57 : k0_chk57 v1188), ∀ a, (k0_off114 v1188) a + S1x512.size a ≤ S100000x512.size a := fun v1188 k0_hw57 => k0_hw57

def k0_off115 (i : grid0.Coords) : Fin 1 → Nat :=
  let arg0 : BitVec 32 := BitVec.ofNat 32 (i 0).val
  let c8_i32 : BitVec 32 := 8#32
  let v0 : BitVec 32 := Scalar.muli arg0 c8_i32
  let c16_i32_855 : BitVec 32 := 16#32
  let v1206 : BitVec 32 := Scalar.muli v0 c16_i32_855
  let c57_i32 : BitVec 32 := 57#32
  let v1207 : BitVec 32 := Scalar.addi v1206 c57_i32
  let v1208 : Index := Scalar.indexCast v1207
  ![v1208.toNat]
def k0_off116 (v1209 : BitVec 32) : Fin 2 → Nat :=
  let c0_i32_859 : BitVec 32 := 0#32
  ![v1209.toNat, 0]

def k0_chk58 (v1209 : BitVec 32) : Prop :=
  (∀ a, (k0_off116 v1209) a + S1x512.size a ≤ S100000x512.size a)
instance k0_chk58.dec : ∀ (v1209 : BitVec 32), Decidable (k0_chk58 v1209) := fun v1209 => decidable_of_iff' _ (Iff.of_eq (k0_chk58.eq_1 v1209))
theorem k0_off116_inb : ∀ (v1209 : BitVec 32) (k0_hw58 : k0_chk58 v1209), ∀ a, (k0_off116 v1209) a + S1x512.size a ≤ S100000x512.size a := fun v1209 k0_hw58 => k0_hw58

def k0_off117 (i : grid0.Coords) : Fin 1 → Nat :=
  let arg0 : BitVec 32 := BitVec.ofNat 32 (i 0).val
  let c8_i32 : BitVec 32 := 8#32
  let v0 : BitVec 32 := Scalar.muli arg0 c8_i32
  let c16_i32_870 : BitVec 32 := 16#32
  let v1227 : BitVec 32 := Scalar.muli v0 c16_i32_870
  let c58_i32 : BitVec 32 := 58#32
  let v1228 : BitVec 32 := Scalar.addi v1227 c58_i32
  let v1229 : Index := Scalar.indexCast v1228
  ![v1229.toNat]
def k0_off118 (v1230 : BitVec 32) : Fin 2 → Nat :=
  let c0_i32_874 : BitVec 32 := 0#32
  ![v1230.toNat, 0]

def k0_chk59 (v1230 : BitVec 32) : Prop :=
  (∀ a, (k0_off118 v1230) a + S1x512.size a ≤ S100000x512.size a)
instance k0_chk59.dec : ∀ (v1230 : BitVec 32), Decidable (k0_chk59 v1230) := fun v1230 => decidable_of_iff' _ (Iff.of_eq (k0_chk59.eq_1 v1230))
theorem k0_off118_inb : ∀ (v1230 : BitVec 32) (k0_hw59 : k0_chk59 v1230), ∀ a, (k0_off118 v1230) a + S1x512.size a ≤ S100000x512.size a := fun v1230 k0_hw59 => k0_hw59

def k0_off119 (i : grid0.Coords) : Fin 1 → Nat :=
  let arg0 : BitVec 32 := BitVec.ofNat 32 (i 0).val
  let c8_i32 : BitVec 32 := 8#32
  let v0 : BitVec 32 := Scalar.muli arg0 c8_i32
  let c16_i32_885 : BitVec 32 := 16#32
  let v1248 : BitVec 32 := Scalar.muli v0 c16_i32_885
  let c59_i32 : BitVec 32 := 59#32
  let v1249 : BitVec 32 := Scalar.addi v1248 c59_i32
  let v1250 : Index := Scalar.indexCast v1249
  ![v1250.toNat]
def k0_off120 (v1251 : BitVec 32) : Fin 2 → Nat :=
  let c0_i32_889 : BitVec 32 := 0#32
  ![v1251.toNat, 0]

def k0_chk60 (v1251 : BitVec 32) : Prop :=
  (∀ a, (k0_off120 v1251) a + S1x512.size a ≤ S100000x512.size a)
instance k0_chk60.dec : ∀ (v1251 : BitVec 32), Decidable (k0_chk60 v1251) := fun v1251 => decidable_of_iff' _ (Iff.of_eq (k0_chk60.eq_1 v1251))
theorem k0_off120_inb : ∀ (v1251 : BitVec 32) (k0_hw60 : k0_chk60 v1251), ∀ a, (k0_off120 v1251) a + S1x512.size a ≤ S100000x512.size a := fun v1251 k0_hw60 => k0_hw60

def k0_off121 (i : grid0.Coords) : Fin 1 → Nat :=
  let arg0 : BitVec 32 := BitVec.ofNat 32 (i 0).val
  let c8_i32 : BitVec 32 := 8#32
  let v0 : BitVec 32 := Scalar.muli arg0 c8_i32
  let c16_i32_900 : BitVec 32 := 16#32
  let v1269 : BitVec 32 := Scalar.muli v0 c16_i32_900
  let c60_i32 : BitVec 32 := 60#32
  let v1270 : BitVec 32 := Scalar.addi v1269 c60_i32
  let v1271 : Index := Scalar.indexCast v1270
  ![v1271.toNat]
def k0_off122 (v1272 : BitVec 32) : Fin 2 → Nat :=
  let c0_i32_904 : BitVec 32 := 0#32
  ![v1272.toNat, 0]

def k0_chk61 (v1272 : BitVec 32) : Prop :=
  (∀ a, (k0_off122 v1272) a + S1x512.size a ≤ S100000x512.size a)
instance k0_chk61.dec : ∀ (v1272 : BitVec 32), Decidable (k0_chk61 v1272) := fun v1272 => decidable_of_iff' _ (Iff.of_eq (k0_chk61.eq_1 v1272))
theorem k0_off122_inb : ∀ (v1272 : BitVec 32) (k0_hw61 : k0_chk61 v1272), ∀ a, (k0_off122 v1272) a + S1x512.size a ≤ S100000x512.size a := fun v1272 k0_hw61 => k0_hw61

def k0_off123 (i : grid0.Coords) : Fin 1 → Nat :=
  let arg0 : BitVec 32 := BitVec.ofNat 32 (i 0).val
  let c8_i32 : BitVec 32 := 8#32
  let v0 : BitVec 32 := Scalar.muli arg0 c8_i32
  let c16_i32_915 : BitVec 32 := 16#32
  let v1290 : BitVec 32 := Scalar.muli v0 c16_i32_915
  let c61_i32 : BitVec 32 := 61#32
  let v1291 : BitVec 32 := Scalar.addi v1290 c61_i32
  let v1292 : Index := Scalar.indexCast v1291
  ![v1292.toNat]
def k0_off124 (v1293 : BitVec 32) : Fin 2 → Nat :=
  let c0_i32_919 : BitVec 32 := 0#32
  ![v1293.toNat, 0]

def k0_chk62 (v1293 : BitVec 32) : Prop :=
  (∀ a, (k0_off124 v1293) a + S1x512.size a ≤ S100000x512.size a)
instance k0_chk62.dec : ∀ (v1293 : BitVec 32), Decidable (k0_chk62 v1293) := fun v1293 => decidable_of_iff' _ (Iff.of_eq (k0_chk62.eq_1 v1293))
theorem k0_off124_inb : ∀ (v1293 : BitVec 32) (k0_hw62 : k0_chk62 v1293), ∀ a, (k0_off124 v1293) a + S1x512.size a ≤ S100000x512.size a := fun v1293 k0_hw62 => k0_hw62

def k0_off125 (i : grid0.Coords) : Fin 1 → Nat :=
  let arg0 : BitVec 32 := BitVec.ofNat 32 (i 0).val
  let c8_i32 : BitVec 32 := 8#32
  let v0 : BitVec 32 := Scalar.muli arg0 c8_i32
  let c16_i32_930 : BitVec 32 := 16#32
  let v1311 : BitVec 32 := Scalar.muli v0 c16_i32_930
  let c62_i32 : BitVec 32 := 62#32
  let v1312 : BitVec 32 := Scalar.addi v1311 c62_i32
  let v1313 : Index := Scalar.indexCast v1312
  ![v1313.toNat]
def k0_off126 (v1314 : BitVec 32) : Fin 2 → Nat :=
  let c0_i32_934 : BitVec 32 := 0#32
  ![v1314.toNat, 0]

def k0_chk63 (v1314 : BitVec 32) : Prop :=
  (∀ a, (k0_off126 v1314) a + S1x512.size a ≤ S100000x512.size a)
instance k0_chk63.dec : ∀ (v1314 : BitVec 32), Decidable (k0_chk63 v1314) := fun v1314 => decidable_of_iff' _ (Iff.of_eq (k0_chk63.eq_1 v1314))
theorem k0_off126_inb : ∀ (v1314 : BitVec 32) (k0_hw63 : k0_chk63 v1314), ∀ a, (k0_off126 v1314) a + S1x512.size a ≤ S100000x512.size a := fun v1314 k0_hw63 => k0_hw63

def k0_off127 (i : grid0.Coords) : Fin 1 → Nat :=
  let arg0 : BitVec 32 := BitVec.ofNat 32 (i 0).val
  let c8_i32 : BitVec 32 := 8#32
  let v0 : BitVec 32 := Scalar.muli arg0 c8_i32
  let c16_i32_945 : BitVec 32 := 16#32
  let v1332 : BitVec 32 := Scalar.muli v0 c16_i32_945
  let c63_i32 : BitVec 32 := 63#32
  let v1333 : BitVec 32 := Scalar.addi v1332 c63_i32
  let v1334 : Index := Scalar.indexCast v1333
  ![v1334.toNat]
def k0_off128 (v1335 : BitVec 32) : Fin 2 → Nat :=
  let c0_i32_949 : BitVec 32 := 0#32
  ![v1335.toNat, 0]

def k0_chk64 (v1335 : BitVec 32) : Prop :=
  (∀ a, (k0_off128 v1335) a + S1x512.size a ≤ S100000x512.size a)
instance k0_chk64.dec : ∀ (v1335 : BitVec 32), Decidable (k0_chk64 v1335) := fun v1335 => decidable_of_iff' _ (Iff.of_eq (k0_chk64.eq_1 v1335))
theorem k0_off128_inb : ∀ (v1335 : BitVec 32) (k0_hw64 : k0_chk64 v1335), ∀ a, (k0_off128 v1335) a + S1x512.size a ≤ S100000x512.size a := fun v1335 k0_hw64 => k0_hw64

def k0_off129 (i : grid0.Coords) : Fin 1 → Nat :=
  let arg0 : BitVec 32 := BitVec.ofNat 32 (i 0).val
  let c8_i32 : BitVec 32 := 8#32
  let v0 : BitVec 32 := Scalar.muli arg0 c8_i32
  let c16_i32_960 : BitVec 32 := 16#32
  let v1353 : BitVec 32 := Scalar.muli v0 c16_i32_960
  let c64_i32 : BitVec 32 := 64#32
  let v1354 : BitVec 32 := Scalar.addi v1353 c64_i32
  let v1355 : Index := Scalar.indexCast v1354
  ![v1355.toNat]
def k0_off130 (v1356 : BitVec 32) : Fin 2 → Nat :=
  let c0_i32_964 : BitVec 32 := 0#32
  ![v1356.toNat, 0]

def k0_chk65 (v1356 : BitVec 32) : Prop :=
  (∀ a, (k0_off130 v1356) a + S1x512.size a ≤ S100000x512.size a)
instance k0_chk65.dec : ∀ (v1356 : BitVec 32), Decidable (k0_chk65 v1356) := fun v1356 => decidable_of_iff' _ (Iff.of_eq (k0_chk65.eq_1 v1356))
theorem k0_off130_inb : ∀ (v1356 : BitVec 32) (k0_hw65 : k0_chk65 v1356), ∀ a, (k0_off130 v1356) a + S1x512.size a ≤ S100000x512.size a := fun v1356 k0_hw65 => k0_hw65

def k0_off131 (i : grid0.Coords) : Fin 1 → Nat :=
  let arg0 : BitVec 32 := BitVec.ofNat 32 (i 0).val
  let c8_i32 : BitVec 32 := 8#32
  let v0 : BitVec 32 := Scalar.muli arg0 c8_i32
  let c16_i32_975 : BitVec 32 := 16#32
  let v1375 : BitVec 32 := Scalar.muli v0 c16_i32_975
  let c65_i32 : BitVec 32 := 65#32
  let v1376 : BitVec 32 := Scalar.addi v1375 c65_i32
  let v1377 : Index := Scalar.indexCast v1376
  ![v1377.toNat]
def k0_off132 (v1378 : BitVec 32) : Fin 2 → Nat :=
  let c0_i32_979 : BitVec 32 := 0#32
  ![v1378.toNat, 0]

def k0_chk66 (v1378 : BitVec 32) : Prop :=
  (∀ a, (k0_off132 v1378) a + S1x512.size a ≤ S100000x512.size a)
instance k0_chk66.dec : ∀ (v1378 : BitVec 32), Decidable (k0_chk66 v1378) := fun v1378 => decidable_of_iff' _ (Iff.of_eq (k0_chk66.eq_1 v1378))
theorem k0_off132_inb : ∀ (v1378 : BitVec 32) (k0_hw66 : k0_chk66 v1378), ∀ a, (k0_off132 v1378) a + S1x512.size a ≤ S100000x512.size a := fun v1378 k0_hw66 => k0_hw66

def k0_off133 (i : grid0.Coords) : Fin 1 → Nat :=
  let arg0 : BitVec 32 := BitVec.ofNat 32 (i 0).val
  let c8_i32 : BitVec 32 := 8#32
  let v0 : BitVec 32 := Scalar.muli arg0 c8_i32
  let c16_i32_989 : BitVec 32 := 16#32
  let v1396 : BitVec 32 := Scalar.muli v0 c16_i32_989
  let c66_i32 : BitVec 32 := 66#32
  let v1397 : BitVec 32 := Scalar.addi v1396 c66_i32
  let v1398 : Index := Scalar.indexCast v1397
  ![v1398.toNat]
def k0_off134 (v1399 : BitVec 32) : Fin 2 → Nat :=
  let c0_i32_993 : BitVec 32 := 0#32
  ![v1399.toNat, 0]

def k0_chk67 (v1399 : BitVec 32) : Prop :=
  (∀ a, (k0_off134 v1399) a + S1x512.size a ≤ S100000x512.size a)
instance k0_chk67.dec : ∀ (v1399 : BitVec 32), Decidable (k0_chk67 v1399) := fun v1399 => decidable_of_iff' _ (Iff.of_eq (k0_chk67.eq_1 v1399))
theorem k0_off134_inb : ∀ (v1399 : BitVec 32) (k0_hw67 : k0_chk67 v1399), ∀ a, (k0_off134 v1399) a + S1x512.size a ≤ S100000x512.size a := fun v1399 k0_hw67 => k0_hw67

def k0_off135 (i : grid0.Coords) : Fin 1 → Nat :=
  let arg0 : BitVec 32 := BitVec.ofNat 32 (i 0).val
  let c8_i32 : BitVec 32 := 8#32
  let v0 : BitVec 32 := Scalar.muli arg0 c8_i32
  let c16_i32_1004 : BitVec 32 := 16#32
  let v1417 : BitVec 32 := Scalar.muli v0 c16_i32_1004
  let c67_i32 : BitVec 32 := 67#32
  let v1418 : BitVec 32 := Scalar.addi v1417 c67_i32
  let v1419 : Index := Scalar.indexCast v1418
  ![v1419.toNat]
def k0_off136 (v1420 : BitVec 32) : Fin 2 → Nat :=
  let c0_i32_1008 : BitVec 32 := 0#32
  ![v1420.toNat, 0]

def k0_chk68 (v1420 : BitVec 32) : Prop :=
  (∀ a, (k0_off136 v1420) a + S1x512.size a ≤ S100000x512.size a)
instance k0_chk68.dec : ∀ (v1420 : BitVec 32), Decidable (k0_chk68 v1420) := fun v1420 => decidable_of_iff' _ (Iff.of_eq (k0_chk68.eq_1 v1420))
theorem k0_off136_inb : ∀ (v1420 : BitVec 32) (k0_hw68 : k0_chk68 v1420), ∀ a, (k0_off136 v1420) a + S1x512.size a ≤ S100000x512.size a := fun v1420 k0_hw68 => k0_hw68

def k0_off137 (i : grid0.Coords) : Fin 1 → Nat :=
  let arg0 : BitVec 32 := BitVec.ofNat 32 (i 0).val
  let c8_i32 : BitVec 32 := 8#32
  let v0 : BitVec 32 := Scalar.muli arg0 c8_i32
  let c16_i32_1019 : BitVec 32 := 16#32
  let v1438 : BitVec 32 := Scalar.muli v0 c16_i32_1019
  let c68_i32 : BitVec 32 := 68#32
  let v1439 : BitVec 32 := Scalar.addi v1438 c68_i32
  let v1440 : Index := Scalar.indexCast v1439
  ![v1440.toNat]
def k0_off138 (v1441 : BitVec 32) : Fin 2 → Nat :=
  let c0_i32_1023 : BitVec 32 := 0#32
  ![v1441.toNat, 0]

def k0_chk69 (v1441 : BitVec 32) : Prop :=
  (∀ a, (k0_off138 v1441) a + S1x512.size a ≤ S100000x512.size a)
instance k0_chk69.dec : ∀ (v1441 : BitVec 32), Decidable (k0_chk69 v1441) := fun v1441 => decidable_of_iff' _ (Iff.of_eq (k0_chk69.eq_1 v1441))
theorem k0_off138_inb : ∀ (v1441 : BitVec 32) (k0_hw69 : k0_chk69 v1441), ∀ a, (k0_off138 v1441) a + S1x512.size a ≤ S100000x512.size a := fun v1441 k0_hw69 => k0_hw69

def k0_off139 (i : grid0.Coords) : Fin 1 → Nat :=
  let arg0 : BitVec 32 := BitVec.ofNat 32 (i 0).val
  let c8_i32 : BitVec 32 := 8#32
  let v0 : BitVec 32 := Scalar.muli arg0 c8_i32
  let c16_i32_1034 : BitVec 32 := 16#32
  let v1459 : BitVec 32 := Scalar.muli v0 c16_i32_1034
  let c69_i32 : BitVec 32 := 69#32
  let v1460 : BitVec 32 := Scalar.addi v1459 c69_i32
  let v1461 : Index := Scalar.indexCast v1460
  ![v1461.toNat]
def k0_off140 (v1462 : BitVec 32) : Fin 2 → Nat :=
  let c0_i32_1038 : BitVec 32 := 0#32
  ![v1462.toNat, 0]

def k0_chk70 (v1462 : BitVec 32) : Prop :=
  (∀ a, (k0_off140 v1462) a + S1x512.size a ≤ S100000x512.size a)
instance k0_chk70.dec : ∀ (v1462 : BitVec 32), Decidable (k0_chk70 v1462) := fun v1462 => decidable_of_iff' _ (Iff.of_eq (k0_chk70.eq_1 v1462))
theorem k0_off140_inb : ∀ (v1462 : BitVec 32) (k0_hw70 : k0_chk70 v1462), ∀ a, (k0_off140 v1462) a + S1x512.size a ≤ S100000x512.size a := fun v1462 k0_hw70 => k0_hw70

def k0_off141 (i : grid0.Coords) : Fin 1 → Nat :=
  let arg0 : BitVec 32 := BitVec.ofNat 32 (i 0).val
  let c8_i32 : BitVec 32 := 8#32
  let v0 : BitVec 32 := Scalar.muli arg0 c8_i32
  let c16_i32_1049 : BitVec 32 := 16#32
  let v1480 : BitVec 32 := Scalar.muli v0 c16_i32_1049
  let c70_i32 : BitVec 32 := 70#32
  let v1481 : BitVec 32 := Scalar.addi v1480 c70_i32
  let v1482 : Index := Scalar.indexCast v1481
  ![v1482.toNat]
def k0_off142 (v1483 : BitVec 32) : Fin 2 → Nat :=
  let c0_i32_1053 : BitVec 32 := 0#32
  ![v1483.toNat, 0]

def k0_chk71 (v1483 : BitVec 32) : Prop :=
  (∀ a, (k0_off142 v1483) a + S1x512.size a ≤ S100000x512.size a)
instance k0_chk71.dec : ∀ (v1483 : BitVec 32), Decidable (k0_chk71 v1483) := fun v1483 => decidable_of_iff' _ (Iff.of_eq (k0_chk71.eq_1 v1483))
theorem k0_off142_inb : ∀ (v1483 : BitVec 32) (k0_hw71 : k0_chk71 v1483), ∀ a, (k0_off142 v1483) a + S1x512.size a ≤ S100000x512.size a := fun v1483 k0_hw71 => k0_hw71

def k0_off143 (i : grid0.Coords) : Fin 1 → Nat :=
  let arg0 : BitVec 32 := BitVec.ofNat 32 (i 0).val
  let c8_i32 : BitVec 32 := 8#32
  let v0 : BitVec 32 := Scalar.muli arg0 c8_i32
  let c16_i32_1064 : BitVec 32 := 16#32
  let v1501 : BitVec 32 := Scalar.muli v0 c16_i32_1064
  let c71_i32 : BitVec 32 := 71#32
  let v1502 : BitVec 32 := Scalar.addi v1501 c71_i32
  let v1503 : Index := Scalar.indexCast v1502
  ![v1503.toNat]
def k0_off144 (v1504 : BitVec 32) : Fin 2 → Nat :=
  let c0_i32_1068 : BitVec 32 := 0#32
  ![v1504.toNat, 0]

def k0_chk72 (v1504 : BitVec 32) : Prop :=
  (∀ a, (k0_off144 v1504) a + S1x512.size a ≤ S100000x512.size a)
instance k0_chk72.dec : ∀ (v1504 : BitVec 32), Decidable (k0_chk72 v1504) := fun v1504 => decidable_of_iff' _ (Iff.of_eq (k0_chk72.eq_1 v1504))
theorem k0_off144_inb : ∀ (v1504 : BitVec 32) (k0_hw72 : k0_chk72 v1504), ∀ a, (k0_off144 v1504) a + S1x512.size a ≤ S100000x512.size a := fun v1504 k0_hw72 => k0_hw72

def k0_off145 (i : grid0.Coords) : Fin 1 → Nat :=
  let arg0 : BitVec 32 := BitVec.ofNat 32 (i 0).val
  let c8_i32 : BitVec 32 := 8#32
  let v0 : BitVec 32 := Scalar.muli arg0 c8_i32
  let c16_i32_1079 : BitVec 32 := 16#32
  let v1522 : BitVec 32 := Scalar.muli v0 c16_i32_1079
  let c72_i32 : BitVec 32 := 72#32
  let v1523 : BitVec 32 := Scalar.addi v1522 c72_i32
  let v1524 : Index := Scalar.indexCast v1523
  ![v1524.toNat]
def k0_off146 (v1525 : BitVec 32) : Fin 2 → Nat :=
  let c0_i32_1083 : BitVec 32 := 0#32
  ![v1525.toNat, 0]

def k0_chk73 (v1525 : BitVec 32) : Prop :=
  (∀ a, (k0_off146 v1525) a + S1x512.size a ≤ S100000x512.size a)
instance k0_chk73.dec : ∀ (v1525 : BitVec 32), Decidable (k0_chk73 v1525) := fun v1525 => decidable_of_iff' _ (Iff.of_eq (k0_chk73.eq_1 v1525))
theorem k0_off146_inb : ∀ (v1525 : BitVec 32) (k0_hw73 : k0_chk73 v1525), ∀ a, (k0_off146 v1525) a + S1x512.size a ≤ S100000x512.size a := fun v1525 k0_hw73 => k0_hw73

def k0_off147 (i : grid0.Coords) : Fin 1 → Nat :=
  let arg0 : BitVec 32 := BitVec.ofNat 32 (i 0).val
  let c8_i32 : BitVec 32 := 8#32
  let v0 : BitVec 32 := Scalar.muli arg0 c8_i32
  let c16_i32_1094 : BitVec 32 := 16#32
  let v1543 : BitVec 32 := Scalar.muli v0 c16_i32_1094
  let c73_i32 : BitVec 32 := 73#32
  let v1544 : BitVec 32 := Scalar.addi v1543 c73_i32
  let v1545 : Index := Scalar.indexCast v1544
  ![v1545.toNat]
def k0_off148 (v1546 : BitVec 32) : Fin 2 → Nat :=
  let c0_i32_1098 : BitVec 32 := 0#32
  ![v1546.toNat, 0]

def k0_chk74 (v1546 : BitVec 32) : Prop :=
  (∀ a, (k0_off148 v1546) a + S1x512.size a ≤ S100000x512.size a)
instance k0_chk74.dec : ∀ (v1546 : BitVec 32), Decidable (k0_chk74 v1546) := fun v1546 => decidable_of_iff' _ (Iff.of_eq (k0_chk74.eq_1 v1546))
theorem k0_off148_inb : ∀ (v1546 : BitVec 32) (k0_hw74 : k0_chk74 v1546), ∀ a, (k0_off148 v1546) a + S1x512.size a ≤ S100000x512.size a := fun v1546 k0_hw74 => k0_hw74

def k0_off149 (i : grid0.Coords) : Fin 1 → Nat :=
  let arg0 : BitVec 32 := BitVec.ofNat 32 (i 0).val
  let c8_i32 : BitVec 32 := 8#32
  let v0 : BitVec 32 := Scalar.muli arg0 c8_i32
  let c16_i32_1109 : BitVec 32 := 16#32
  let v1564 : BitVec 32 := Scalar.muli v0 c16_i32_1109
  let c74_i32 : BitVec 32 := 74#32
  let v1565 : BitVec 32 := Scalar.addi v1564 c74_i32
  let v1566 : Index := Scalar.indexCast v1565
  ![v1566.toNat]
def k0_off150 (v1567 : BitVec 32) : Fin 2 → Nat :=
  let c0_i32_1113 : BitVec 32 := 0#32
  ![v1567.toNat, 0]

def k0_chk75 (v1567 : BitVec 32) : Prop :=
  (∀ a, (k0_off150 v1567) a + S1x512.size a ≤ S100000x512.size a)
instance k0_chk75.dec : ∀ (v1567 : BitVec 32), Decidable (k0_chk75 v1567) := fun v1567 => decidable_of_iff' _ (Iff.of_eq (k0_chk75.eq_1 v1567))
theorem k0_off150_inb : ∀ (v1567 : BitVec 32) (k0_hw75 : k0_chk75 v1567), ∀ a, (k0_off150 v1567) a + S1x512.size a ≤ S100000x512.size a := fun v1567 k0_hw75 => k0_hw75

def k0_off151 (i : grid0.Coords) : Fin 1 → Nat :=
  let arg0 : BitVec 32 := BitVec.ofNat 32 (i 0).val
  let c8_i32 : BitVec 32 := 8#32
  let v0 : BitVec 32 := Scalar.muli arg0 c8_i32
  let c16_i32_1124 : BitVec 32 := 16#32
  let v1585 : BitVec 32 := Scalar.muli v0 c16_i32_1124
  let c75_i32 : BitVec 32 := 75#32
  let v1586 : BitVec 32 := Scalar.addi v1585 c75_i32
  let v1587 : Index := Scalar.indexCast v1586
  ![v1587.toNat]
def k0_off152 (v1588 : BitVec 32) : Fin 2 → Nat :=
  let c0_i32_1128 : BitVec 32 := 0#32
  ![v1588.toNat, 0]

def k0_chk76 (v1588 : BitVec 32) : Prop :=
  (∀ a, (k0_off152 v1588) a + S1x512.size a ≤ S100000x512.size a)
instance k0_chk76.dec : ∀ (v1588 : BitVec 32), Decidable (k0_chk76 v1588) := fun v1588 => decidable_of_iff' _ (Iff.of_eq (k0_chk76.eq_1 v1588))
theorem k0_off152_inb : ∀ (v1588 : BitVec 32) (k0_hw76 : k0_chk76 v1588), ∀ a, (k0_off152 v1588) a + S1x512.size a ≤ S100000x512.size a := fun v1588 k0_hw76 => k0_hw76

def k0_off153 (i : grid0.Coords) : Fin 1 → Nat :=
  let arg0 : BitVec 32 := BitVec.ofNat 32 (i 0).val
  let c8_i32 : BitVec 32 := 8#32
  let v0 : BitVec 32 := Scalar.muli arg0 c8_i32
  let c16_i32_1139 : BitVec 32 := 16#32
  let v1606 : BitVec 32 := Scalar.muli v0 c16_i32_1139
  let c76_i32 : BitVec 32 := 76#32
  let v1607 : BitVec 32 := Scalar.addi v1606 c76_i32
  let v1608 : Index := Scalar.indexCast v1607
  ![v1608.toNat]
def k0_off154 (v1609 : BitVec 32) : Fin 2 → Nat :=
  let c0_i32_1143 : BitVec 32 := 0#32
  ![v1609.toNat, 0]

def k0_chk77 (v1609 : BitVec 32) : Prop :=
  (∀ a, (k0_off154 v1609) a + S1x512.size a ≤ S100000x512.size a)
instance k0_chk77.dec : ∀ (v1609 : BitVec 32), Decidable (k0_chk77 v1609) := fun v1609 => decidable_of_iff' _ (Iff.of_eq (k0_chk77.eq_1 v1609))
theorem k0_off154_inb : ∀ (v1609 : BitVec 32) (k0_hw77 : k0_chk77 v1609), ∀ a, (k0_off154 v1609) a + S1x512.size a ≤ S100000x512.size a := fun v1609 k0_hw77 => k0_hw77

def k0_off155 (i : grid0.Coords) : Fin 1 → Nat :=
  let arg0 : BitVec 32 := BitVec.ofNat 32 (i 0).val
  let c8_i32 : BitVec 32 := 8#32
  let v0 : BitVec 32 := Scalar.muli arg0 c8_i32
  let c16_i32_1154 : BitVec 32 := 16#32
  let v1627 : BitVec 32 := Scalar.muli v0 c16_i32_1154
  let c77_i32 : BitVec 32 := 77#32
  let v1628 : BitVec 32 := Scalar.addi v1627 c77_i32
  let v1629 : Index := Scalar.indexCast v1628
  ![v1629.toNat]
def k0_off156 (v1630 : BitVec 32) : Fin 2 → Nat :=
  let c0_i32_1158 : BitVec 32 := 0#32
  ![v1630.toNat, 0]

def k0_chk78 (v1630 : BitVec 32) : Prop :=
  (∀ a, (k0_off156 v1630) a + S1x512.size a ≤ S100000x512.size a)
instance k0_chk78.dec : ∀ (v1630 : BitVec 32), Decidable (k0_chk78 v1630) := fun v1630 => decidable_of_iff' _ (Iff.of_eq (k0_chk78.eq_1 v1630))
theorem k0_off156_inb : ∀ (v1630 : BitVec 32) (k0_hw78 : k0_chk78 v1630), ∀ a, (k0_off156 v1630) a + S1x512.size a ≤ S100000x512.size a := fun v1630 k0_hw78 => k0_hw78

def k0_off157 (i : grid0.Coords) : Fin 1 → Nat :=
  let arg0 : BitVec 32 := BitVec.ofNat 32 (i 0).val
  let c8_i32 : BitVec 32 := 8#32
  let v0 : BitVec 32 := Scalar.muli arg0 c8_i32
  let c16_i32_1169 : BitVec 32 := 16#32
  let v1648 : BitVec 32 := Scalar.muli v0 c16_i32_1169
  let c78_i32 : BitVec 32 := 78#32
  let v1649 : BitVec 32 := Scalar.addi v1648 c78_i32
  let v1650 : Index := Scalar.indexCast v1649
  ![v1650.toNat]
def k0_off158 (v1651 : BitVec 32) : Fin 2 → Nat :=
  let c0_i32_1173 : BitVec 32 := 0#32
  ![v1651.toNat, 0]

def k0_chk79 (v1651 : BitVec 32) : Prop :=
  (∀ a, (k0_off158 v1651) a + S1x512.size a ≤ S100000x512.size a)
instance k0_chk79.dec : ∀ (v1651 : BitVec 32), Decidable (k0_chk79 v1651) := fun v1651 => decidable_of_iff' _ (Iff.of_eq (k0_chk79.eq_1 v1651))
theorem k0_off158_inb : ∀ (v1651 : BitVec 32) (k0_hw79 : k0_chk79 v1651), ∀ a, (k0_off158 v1651) a + S1x512.size a ≤ S100000x512.size a := fun v1651 k0_hw79 => k0_hw79

def k0_off159 (i : grid0.Coords) : Fin 1 → Nat :=
  let arg0 : BitVec 32 := BitVec.ofNat 32 (i 0).val
  let c8_i32 : BitVec 32 := 8#32
  let v0 : BitVec 32 := Scalar.muli arg0 c8_i32
  let c16_i32_1184 : BitVec 32 := 16#32
  let v1669 : BitVec 32 := Scalar.muli v0 c16_i32_1184
  let c79_i32 : BitVec 32 := 79#32
  let v1670 : BitVec 32 := Scalar.addi v1669 c79_i32
  let v1671 : Index := Scalar.indexCast v1670
  ![v1671.toNat]
def k0_off160 (v1672 : BitVec 32) : Fin 2 → Nat :=
  let c0_i32_1188 : BitVec 32 := 0#32
  ![v1672.toNat, 0]

def k0_chk80 (v1672 : BitVec 32) : Prop :=
  (∀ a, (k0_off160 v1672) a + S1x512.size a ≤ S100000x512.size a)
instance k0_chk80.dec : ∀ (v1672 : BitVec 32), Decidable (k0_chk80 v1672) := fun v1672 => decidable_of_iff' _ (Iff.of_eq (k0_chk80.eq_1 v1672))
theorem k0_off160_inb : ∀ (v1672 : BitVec 32) (k0_hw80 : k0_chk80 v1672), ∀ a, (k0_off160 v1672) a + S1x512.size a ≤ S100000x512.size a := fun v1672 k0_hw80 => k0_hw80

def k0_off161 (i : grid0.Coords) : Fin 1 → Nat :=
  let arg0 : BitVec 32 := BitVec.ofNat 32 (i 0).val
  let c8_i32 : BitVec 32 := 8#32
  let v0 : BitVec 32 := Scalar.muli arg0 c8_i32
  let c16_i32_1199 : BitVec 32 := 16#32
  let v1690 : BitVec 32 := Scalar.muli v0 c16_i32_1199
  let c80_i32 : BitVec 32 := 80#32
  let v1691 : BitVec 32 := Scalar.addi v1690 c80_i32
  let v1692 : Index := Scalar.indexCast v1691
  ![v1692.toNat]
def k0_off162 (v1693 : BitVec 32) : Fin 2 → Nat :=
  let c0_i32_1203 : BitVec 32 := 0#32
  ![v1693.toNat, 0]

def k0_chk81 (v1693 : BitVec 32) : Prop :=
  (∀ a, (k0_off162 v1693) a + S1x512.size a ≤ S100000x512.size a)
instance k0_chk81.dec : ∀ (v1693 : BitVec 32), Decidable (k0_chk81 v1693) := fun v1693 => decidable_of_iff' _ (Iff.of_eq (k0_chk81.eq_1 v1693))
theorem k0_off162_inb : ∀ (v1693 : BitVec 32) (k0_hw81 : k0_chk81 v1693), ∀ a, (k0_off162 v1693) a + S1x512.size a ≤ S100000x512.size a := fun v1693 k0_hw81 => k0_hw81

def k0_off163 (i : grid0.Coords) : Fin 1 → Nat :=
  let arg0 : BitVec 32 := BitVec.ofNat 32 (i 0).val
  let c8_i32 : BitVec 32 := 8#32
  let v0 : BitVec 32 := Scalar.muli arg0 c8_i32
  let c16_i32_1214 : BitVec 32 := 16#32
  let v1712 : BitVec 32 := Scalar.muli v0 c16_i32_1214
  let c81_i32 : BitVec 32 := 81#32
  let v1713 : BitVec 32 := Scalar.addi v1712 c81_i32
  let v1714 : Index := Scalar.indexCast v1713
  ![v1714.toNat]
def k0_off164 (v1715 : BitVec 32) : Fin 2 → Nat :=
  let c0_i32_1218 : BitVec 32 := 0#32
  ![v1715.toNat, 0]

def k0_chk82 (v1715 : BitVec 32) : Prop :=
  (∀ a, (k0_off164 v1715) a + S1x512.size a ≤ S100000x512.size a)
instance k0_chk82.dec : ∀ (v1715 : BitVec 32), Decidable (k0_chk82 v1715) := fun v1715 => decidable_of_iff' _ (Iff.of_eq (k0_chk82.eq_1 v1715))
theorem k0_off164_inb : ∀ (v1715 : BitVec 32) (k0_hw82 : k0_chk82 v1715), ∀ a, (k0_off164 v1715) a + S1x512.size a ≤ S100000x512.size a := fun v1715 k0_hw82 => k0_hw82

def k0_off165 (i : grid0.Coords) : Fin 1 → Nat :=
  let arg0 : BitVec 32 := BitVec.ofNat 32 (i 0).val
  let c8_i32 : BitVec 32 := 8#32
  let v0 : BitVec 32 := Scalar.muli arg0 c8_i32
  let c16_i32_1228 : BitVec 32 := 16#32
  let v1733 : BitVec 32 := Scalar.muli v0 c16_i32_1228
  let c82_i32 : BitVec 32 := 82#32
  let v1734 : BitVec 32 := Scalar.addi v1733 c82_i32
  let v1735 : Index := Scalar.indexCast v1734
  ![v1735.toNat]
def k0_off166 (v1736 : BitVec 32) : Fin 2 → Nat :=
  let c0_i32_1232 : BitVec 32 := 0#32
  ![v1736.toNat, 0]

def k0_chk83 (v1736 : BitVec 32) : Prop :=
  (∀ a, (k0_off166 v1736) a + S1x512.size a ≤ S100000x512.size a)
instance k0_chk83.dec : ∀ (v1736 : BitVec 32), Decidable (k0_chk83 v1736) := fun v1736 => decidable_of_iff' _ (Iff.of_eq (k0_chk83.eq_1 v1736))
theorem k0_off166_inb : ∀ (v1736 : BitVec 32) (k0_hw83 : k0_chk83 v1736), ∀ a, (k0_off166 v1736) a + S1x512.size a ≤ S100000x512.size a := fun v1736 k0_hw83 => k0_hw83

def k0_off167 (i : grid0.Coords) : Fin 1 → Nat :=
  let arg0 : BitVec 32 := BitVec.ofNat 32 (i 0).val
  let c8_i32 : BitVec 32 := 8#32
  let v0 : BitVec 32 := Scalar.muli arg0 c8_i32
  let c16_i32_1243 : BitVec 32 := 16#32
  let v1754 : BitVec 32 := Scalar.muli v0 c16_i32_1243
  let c83_i32 : BitVec 32 := 83#32
  let v1755 : BitVec 32 := Scalar.addi v1754 c83_i32
  let v1756 : Index := Scalar.indexCast v1755
  ![v1756.toNat]
def k0_off168 (v1757 : BitVec 32) : Fin 2 → Nat :=
  let c0_i32_1247 : BitVec 32 := 0#32
  ![v1757.toNat, 0]

def k0_chk84 (v1757 : BitVec 32) : Prop :=
  (∀ a, (k0_off168 v1757) a + S1x512.size a ≤ S100000x512.size a)
instance k0_chk84.dec : ∀ (v1757 : BitVec 32), Decidable (k0_chk84 v1757) := fun v1757 => decidable_of_iff' _ (Iff.of_eq (k0_chk84.eq_1 v1757))
theorem k0_off168_inb : ∀ (v1757 : BitVec 32) (k0_hw84 : k0_chk84 v1757), ∀ a, (k0_off168 v1757) a + S1x512.size a ≤ S100000x512.size a := fun v1757 k0_hw84 => k0_hw84

def k0_off169 (i : grid0.Coords) : Fin 1 → Nat :=
  let arg0 : BitVec 32 := BitVec.ofNat 32 (i 0).val
  let c8_i32 : BitVec 32 := 8#32
  let v0 : BitVec 32 := Scalar.muli arg0 c8_i32
  let c16_i32_1258 : BitVec 32 := 16#32
  let v1775 : BitVec 32 := Scalar.muli v0 c16_i32_1258
  let c84_i32 : BitVec 32 := 84#32
  let v1776 : BitVec 32 := Scalar.addi v1775 c84_i32
  let v1777 : Index := Scalar.indexCast v1776
  ![v1777.toNat]
def k0_off170 (v1778 : BitVec 32) : Fin 2 → Nat :=
  let c0_i32_1262 : BitVec 32 := 0#32
  ![v1778.toNat, 0]

def k0_chk85 (v1778 : BitVec 32) : Prop :=
  (∀ a, (k0_off170 v1778) a + S1x512.size a ≤ S100000x512.size a)
instance k0_chk85.dec : ∀ (v1778 : BitVec 32), Decidable (k0_chk85 v1778) := fun v1778 => decidable_of_iff' _ (Iff.of_eq (k0_chk85.eq_1 v1778))
theorem k0_off170_inb : ∀ (v1778 : BitVec 32) (k0_hw85 : k0_chk85 v1778), ∀ a, (k0_off170 v1778) a + S1x512.size a ≤ S100000x512.size a := fun v1778 k0_hw85 => k0_hw85

def k0_off171 (i : grid0.Coords) : Fin 1 → Nat :=
  let arg0 : BitVec 32 := BitVec.ofNat 32 (i 0).val
  let c8_i32 : BitVec 32 := 8#32
  let v0 : BitVec 32 := Scalar.muli arg0 c8_i32
  let c16_i32_1273 : BitVec 32 := 16#32
  let v1796 : BitVec 32 := Scalar.muli v0 c16_i32_1273
  let c85_i32 : BitVec 32 := 85#32
  let v1797 : BitVec 32 := Scalar.addi v1796 c85_i32
  let v1798 : Index := Scalar.indexCast v1797
  ![v1798.toNat]
def k0_off172 (v1799 : BitVec 32) : Fin 2 → Nat :=
  let c0_i32_1277 : BitVec 32 := 0#32
  ![v1799.toNat, 0]

def k0_chk86 (v1799 : BitVec 32) : Prop :=
  (∀ a, (k0_off172 v1799) a + S1x512.size a ≤ S100000x512.size a)
instance k0_chk86.dec : ∀ (v1799 : BitVec 32), Decidable (k0_chk86 v1799) := fun v1799 => decidable_of_iff' _ (Iff.of_eq (k0_chk86.eq_1 v1799))
theorem k0_off172_inb : ∀ (v1799 : BitVec 32) (k0_hw86 : k0_chk86 v1799), ∀ a, (k0_off172 v1799) a + S1x512.size a ≤ S100000x512.size a := fun v1799 k0_hw86 => k0_hw86

def k0_off173 (i : grid0.Coords) : Fin 1 → Nat :=
  let arg0 : BitVec 32 := BitVec.ofNat 32 (i 0).val
  let c8_i32 : BitVec 32 := 8#32
  let v0 : BitVec 32 := Scalar.muli arg0 c8_i32
  let c16_i32_1288 : BitVec 32 := 16#32
  let v1817 : BitVec 32 := Scalar.muli v0 c16_i32_1288
  let c86_i32 : BitVec 32 := 86#32
  let v1818 : BitVec 32 := Scalar.addi v1817 c86_i32
  let v1819 : Index := Scalar.indexCast v1818
  ![v1819.toNat]
def k0_off174 (v1820 : BitVec 32) : Fin 2 → Nat :=
  let c0_i32_1292 : BitVec 32 := 0#32
  ![v1820.toNat, 0]

def k0_chk87 (v1820 : BitVec 32) : Prop :=
  (∀ a, (k0_off174 v1820) a + S1x512.size a ≤ S100000x512.size a)
instance k0_chk87.dec : ∀ (v1820 : BitVec 32), Decidable (k0_chk87 v1820) := fun v1820 => decidable_of_iff' _ (Iff.of_eq (k0_chk87.eq_1 v1820))
theorem k0_off174_inb : ∀ (v1820 : BitVec 32) (k0_hw87 : k0_chk87 v1820), ∀ a, (k0_off174 v1820) a + S1x512.size a ≤ S100000x512.size a := fun v1820 k0_hw87 => k0_hw87

def k0_off175 (i : grid0.Coords) : Fin 1 → Nat :=
  let arg0 : BitVec 32 := BitVec.ofNat 32 (i 0).val
  let c8_i32 : BitVec 32 := 8#32
  let v0 : BitVec 32 := Scalar.muli arg0 c8_i32
  let c16_i32_1303 : BitVec 32 := 16#32
  let v1838 : BitVec 32 := Scalar.muli v0 c16_i32_1303
  let c87_i32 : BitVec 32 := 87#32
  let v1839 : BitVec 32 := Scalar.addi v1838 c87_i32
  let v1840 : Index := Scalar.indexCast v1839
  ![v1840.toNat]
def k0_off176 (v1841 : BitVec 32) : Fin 2 → Nat :=
  let c0_i32_1307 : BitVec 32 := 0#32
  ![v1841.toNat, 0]

def k0_chk88 (v1841 : BitVec 32) : Prop :=
  (∀ a, (k0_off176 v1841) a + S1x512.size a ≤ S100000x512.size a)
instance k0_chk88.dec : ∀ (v1841 : BitVec 32), Decidable (k0_chk88 v1841) := fun v1841 => decidable_of_iff' _ (Iff.of_eq (k0_chk88.eq_1 v1841))
theorem k0_off176_inb : ∀ (v1841 : BitVec 32) (k0_hw88 : k0_chk88 v1841), ∀ a, (k0_off176 v1841) a + S1x512.size a ≤ S100000x512.size a := fun v1841 k0_hw88 => k0_hw88

def k0_off177 (i : grid0.Coords) : Fin 1 → Nat :=
  let arg0 : BitVec 32 := BitVec.ofNat 32 (i 0).val
  let c8_i32 : BitVec 32 := 8#32
  let v0 : BitVec 32 := Scalar.muli arg0 c8_i32
  let c16_i32_1318 : BitVec 32 := 16#32
  let v1859 : BitVec 32 := Scalar.muli v0 c16_i32_1318
  let c88_i32 : BitVec 32 := 88#32
  let v1860 : BitVec 32 := Scalar.addi v1859 c88_i32
  let v1861 : Index := Scalar.indexCast v1860
  ![v1861.toNat]
def k0_off178 (v1862 : BitVec 32) : Fin 2 → Nat :=
  let c0_i32_1322 : BitVec 32 := 0#32
  ![v1862.toNat, 0]

def k0_chk89 (v1862 : BitVec 32) : Prop :=
  (∀ a, (k0_off178 v1862) a + S1x512.size a ≤ S100000x512.size a)
instance k0_chk89.dec : ∀ (v1862 : BitVec 32), Decidable (k0_chk89 v1862) := fun v1862 => decidable_of_iff' _ (Iff.of_eq (k0_chk89.eq_1 v1862))
theorem k0_off178_inb : ∀ (v1862 : BitVec 32) (k0_hw89 : k0_chk89 v1862), ∀ a, (k0_off178 v1862) a + S1x512.size a ≤ S100000x512.size a := fun v1862 k0_hw89 => k0_hw89

def k0_off179 (i : grid0.Coords) : Fin 1 → Nat :=
  let arg0 : BitVec 32 := BitVec.ofNat 32 (i 0).val
  let c8_i32 : BitVec 32 := 8#32
  let v0 : BitVec 32 := Scalar.muli arg0 c8_i32
  let c16_i32_1333 : BitVec 32 := 16#32
  let v1880 : BitVec 32 := Scalar.muli v0 c16_i32_1333
  let c89_i32 : BitVec 32 := 89#32
  let v1881 : BitVec 32 := Scalar.addi v1880 c89_i32
  let v1882 : Index := Scalar.indexCast v1881
  ![v1882.toNat]
def k0_off180 (v1883 : BitVec 32) : Fin 2 → Nat :=
  let c0_i32_1337 : BitVec 32 := 0#32
  ![v1883.toNat, 0]

def k0_chk90 (v1883 : BitVec 32) : Prop :=
  (∀ a, (k0_off180 v1883) a + S1x512.size a ≤ S100000x512.size a)
instance k0_chk90.dec : ∀ (v1883 : BitVec 32), Decidable (k0_chk90 v1883) := fun v1883 => decidable_of_iff' _ (Iff.of_eq (k0_chk90.eq_1 v1883))
theorem k0_off180_inb : ∀ (v1883 : BitVec 32) (k0_hw90 : k0_chk90 v1883), ∀ a, (k0_off180 v1883) a + S1x512.size a ≤ S100000x512.size a := fun v1883 k0_hw90 => k0_hw90

def k0_off181 (i : grid0.Coords) : Fin 1 → Nat :=
  let arg0 : BitVec 32 := BitVec.ofNat 32 (i 0).val
  let c8_i32 : BitVec 32 := 8#32
  let v0 : BitVec 32 := Scalar.muli arg0 c8_i32
  let c16_i32_1348 : BitVec 32 := 16#32
  let v1901 : BitVec 32 := Scalar.muli v0 c16_i32_1348
  let c90_i32 : BitVec 32 := 90#32
  let v1902 : BitVec 32 := Scalar.addi v1901 c90_i32
  let v1903 : Index := Scalar.indexCast v1902
  ![v1903.toNat]
def k0_off182 (v1904 : BitVec 32) : Fin 2 → Nat :=
  let c0_i32_1352 : BitVec 32 := 0#32
  ![v1904.toNat, 0]

def k0_chk91 (v1904 : BitVec 32) : Prop :=
  (∀ a, (k0_off182 v1904) a + S1x512.size a ≤ S100000x512.size a)
instance k0_chk91.dec : ∀ (v1904 : BitVec 32), Decidable (k0_chk91 v1904) := fun v1904 => decidable_of_iff' _ (Iff.of_eq (k0_chk91.eq_1 v1904))
theorem k0_off182_inb : ∀ (v1904 : BitVec 32) (k0_hw91 : k0_chk91 v1904), ∀ a, (k0_off182 v1904) a + S1x512.size a ≤ S100000x512.size a := fun v1904 k0_hw91 => k0_hw91

def k0_off183 (i : grid0.Coords) : Fin 1 → Nat :=
  let arg0 : BitVec 32 := BitVec.ofNat 32 (i 0).val
  let c8_i32 : BitVec 32 := 8#32
  let v0 : BitVec 32 := Scalar.muli arg0 c8_i32
  let c16_i32_1363 : BitVec 32 := 16#32
  let v1922 : BitVec 32 := Scalar.muli v0 c16_i32_1363
  let c91_i32 : BitVec 32 := 91#32
  let v1923 : BitVec 32 := Scalar.addi v1922 c91_i32
  let v1924 : Index := Scalar.indexCast v1923
  ![v1924.toNat]
def k0_off184 (v1925 : BitVec 32) : Fin 2 → Nat :=
  let c0_i32_1367 : BitVec 32 := 0#32
  ![v1925.toNat, 0]

def k0_chk92 (v1925 : BitVec 32) : Prop :=
  (∀ a, (k0_off184 v1925) a + S1x512.size a ≤ S100000x512.size a)
instance k0_chk92.dec : ∀ (v1925 : BitVec 32), Decidable (k0_chk92 v1925) := fun v1925 => decidable_of_iff' _ (Iff.of_eq (k0_chk92.eq_1 v1925))
theorem k0_off184_inb : ∀ (v1925 : BitVec 32) (k0_hw92 : k0_chk92 v1925), ∀ a, (k0_off184 v1925) a + S1x512.size a ≤ S100000x512.size a := fun v1925 k0_hw92 => k0_hw92

def k0_off185 (i : grid0.Coords) : Fin 1 → Nat :=
  let arg0 : BitVec 32 := BitVec.ofNat 32 (i 0).val
  let c8_i32 : BitVec 32 := 8#32
  let v0 : BitVec 32 := Scalar.muli arg0 c8_i32
  let c16_i32_1378 : BitVec 32 := 16#32
  let v1943 : BitVec 32 := Scalar.muli v0 c16_i32_1378
  let c92_i32 : BitVec 32 := 92#32
  let v1944 : BitVec 32 := Scalar.addi v1943 c92_i32
  let v1945 : Index := Scalar.indexCast v1944
  ![v1945.toNat]
def k0_off186 (v1946 : BitVec 32) : Fin 2 → Nat :=
  let c0_i32_1382 : BitVec 32 := 0#32
  ![v1946.toNat, 0]

def k0_chk93 (v1946 : BitVec 32) : Prop :=
  (∀ a, (k0_off186 v1946) a + S1x512.size a ≤ S100000x512.size a)
instance k0_chk93.dec : ∀ (v1946 : BitVec 32), Decidable (k0_chk93 v1946) := fun v1946 => decidable_of_iff' _ (Iff.of_eq (k0_chk93.eq_1 v1946))
theorem k0_off186_inb : ∀ (v1946 : BitVec 32) (k0_hw93 : k0_chk93 v1946), ∀ a, (k0_off186 v1946) a + S1x512.size a ≤ S100000x512.size a := fun v1946 k0_hw93 => k0_hw93

def k0_off187 (i : grid0.Coords) : Fin 1 → Nat :=
  let arg0 : BitVec 32 := BitVec.ofNat 32 (i 0).val
  let c8_i32 : BitVec 32 := 8#32
  let v0 : BitVec 32 := Scalar.muli arg0 c8_i32
  let c16_i32_1393 : BitVec 32 := 16#32
  let v1964 : BitVec 32 := Scalar.muli v0 c16_i32_1393
  let c93_i32 : BitVec 32 := 93#32
  let v1965 : BitVec 32 := Scalar.addi v1964 c93_i32
  let v1966 : Index := Scalar.indexCast v1965
  ![v1966.toNat]
def k0_off188 (v1967 : BitVec 32) : Fin 2 → Nat :=
  let c0_i32_1397 : BitVec 32 := 0#32
  ![v1967.toNat, 0]

def k0_chk94 (v1967 : BitVec 32) : Prop :=
  (∀ a, (k0_off188 v1967) a + S1x512.size a ≤ S100000x512.size a)
instance k0_chk94.dec : ∀ (v1967 : BitVec 32), Decidable (k0_chk94 v1967) := fun v1967 => decidable_of_iff' _ (Iff.of_eq (k0_chk94.eq_1 v1967))
theorem k0_off188_inb : ∀ (v1967 : BitVec 32) (k0_hw94 : k0_chk94 v1967), ∀ a, (k0_off188 v1967) a + S1x512.size a ≤ S100000x512.size a := fun v1967 k0_hw94 => k0_hw94

def k0_off189 (i : grid0.Coords) : Fin 1 → Nat :=
  let arg0 : BitVec 32 := BitVec.ofNat 32 (i 0).val
  let c8_i32 : BitVec 32 := 8#32
  let v0 : BitVec 32 := Scalar.muli arg0 c8_i32
  let c16_i32_1408 : BitVec 32 := 16#32
  let v1985 : BitVec 32 := Scalar.muli v0 c16_i32_1408
  let c94_i32 : BitVec 32 := 94#32
  let v1986 : BitVec 32 := Scalar.addi v1985 c94_i32
  let v1987 : Index := Scalar.indexCast v1986
  ![v1987.toNat]
def k0_off190 (v1988 : BitVec 32) : Fin 2 → Nat :=
  let c0_i32_1412 : BitVec 32 := 0#32
  ![v1988.toNat, 0]

def k0_chk95 (v1988 : BitVec 32) : Prop :=
  (∀ a, (k0_off190 v1988) a + S1x512.size a ≤ S100000x512.size a)
instance k0_chk95.dec : ∀ (v1988 : BitVec 32), Decidable (k0_chk95 v1988) := fun v1988 => decidable_of_iff' _ (Iff.of_eq (k0_chk95.eq_1 v1988))
theorem k0_off190_inb : ∀ (v1988 : BitVec 32) (k0_hw95 : k0_chk95 v1988), ∀ a, (k0_off190 v1988) a + S1x512.size a ≤ S100000x512.size a := fun v1988 k0_hw95 => k0_hw95

def k0_off191 (i : grid0.Coords) : Fin 1 → Nat :=
  let arg0 : BitVec 32 := BitVec.ofNat 32 (i 0).val
  let c8_i32 : BitVec 32 := 8#32
  let v0 : BitVec 32 := Scalar.muli arg0 c8_i32
  let c16_i32_1423 : BitVec 32 := 16#32
  let v2006 : BitVec 32 := Scalar.muli v0 c16_i32_1423
  let c95_i32 : BitVec 32 := 95#32
  let v2007 : BitVec 32 := Scalar.addi v2006 c95_i32
  let v2008 : Index := Scalar.indexCast v2007
  ![v2008.toNat]
def k0_off192 (v2009 : BitVec 32) : Fin 2 → Nat :=
  let c0_i32_1427 : BitVec 32 := 0#32
  ![v2009.toNat, 0]

def k0_chk96 (v2009 : BitVec 32) : Prop :=
  (∀ a, (k0_off192 v2009) a + S1x512.size a ≤ S100000x512.size a)
instance k0_chk96.dec : ∀ (v2009 : BitVec 32), Decidable (k0_chk96 v2009) := fun v2009 => decidable_of_iff' _ (Iff.of_eq (k0_chk96.eq_1 v2009))
theorem k0_off192_inb : ∀ (v2009 : BitVec 32) (k0_hw96 : k0_chk96 v2009), ∀ a, (k0_off192 v2009) a + S1x512.size a ≤ S100000x512.size a := fun v2009 k0_hw96 => k0_hw96

def k0_off193 (i : grid0.Coords) : Fin 1 → Nat :=
  let arg0 : BitVec 32 := BitVec.ofNat 32 (i 0).val
  let c8_i32 : BitVec 32 := 8#32
  let v0 : BitVec 32 := Scalar.muli arg0 c8_i32
  let c16_i32_1438 : BitVec 32 := 16#32
  let v2027 : BitVec 32 := Scalar.muli v0 c16_i32_1438
  let c96_i32 : BitVec 32 := 96#32
  let v2028 : BitVec 32 := Scalar.addi v2027 c96_i32
  let v2029 : Index := Scalar.indexCast v2028
  ![v2029.toNat]
def k0_off194 (v2030 : BitVec 32) : Fin 2 → Nat :=
  let c0_i32_1442 : BitVec 32 := 0#32
  ![v2030.toNat, 0]

def k0_chk97 (v2030 : BitVec 32) : Prop :=
  (∀ a, (k0_off194 v2030) a + S1x512.size a ≤ S100000x512.size a)
instance k0_chk97.dec : ∀ (v2030 : BitVec 32), Decidable (k0_chk97 v2030) := fun v2030 => decidable_of_iff' _ (Iff.of_eq (k0_chk97.eq_1 v2030))
theorem k0_off194_inb : ∀ (v2030 : BitVec 32) (k0_hw97 : k0_chk97 v2030), ∀ a, (k0_off194 v2030) a + S1x512.size a ≤ S100000x512.size a := fun v2030 k0_hw97 => k0_hw97

def k0_off195 (i : grid0.Coords) : Fin 1 → Nat :=
  let arg0 : BitVec 32 := BitVec.ofNat 32 (i 0).val
  let c8_i32 : BitVec 32 := 8#32
  let v0 : BitVec 32 := Scalar.muli arg0 c8_i32
  let c16_i32_1453 : BitVec 32 := 16#32
  let v2049 : BitVec 32 := Scalar.muli v0 c16_i32_1453
  let c97_i32 : BitVec 32 := 97#32
  let v2050 : BitVec 32 := Scalar.addi v2049 c97_i32
  let v2051 : Index := Scalar.indexCast v2050
  ![v2051.toNat]
def k0_off196 (v2052 : BitVec 32) : Fin 2 → Nat :=
  let c0_i32_1457 : BitVec 32 := 0#32
  ![v2052.toNat, 0]

def k0_chk98 (v2052 : BitVec 32) : Prop :=
  (∀ a, (k0_off196 v2052) a + S1x512.size a ≤ S100000x512.size a)
instance k0_chk98.dec : ∀ (v2052 : BitVec 32), Decidable (k0_chk98 v2052) := fun v2052 => decidable_of_iff' _ (Iff.of_eq (k0_chk98.eq_1 v2052))
theorem k0_off196_inb : ∀ (v2052 : BitVec 32) (k0_hw98 : k0_chk98 v2052), ∀ a, (k0_off196 v2052) a + S1x512.size a ≤ S100000x512.size a := fun v2052 k0_hw98 => k0_hw98

def k0_off197 (i : grid0.Coords) : Fin 1 → Nat :=
  let arg0 : BitVec 32 := BitVec.ofNat 32 (i 0).val
  let c8_i32 : BitVec 32 := 8#32
  let v0 : BitVec 32 := Scalar.muli arg0 c8_i32
  let c16_i32_1467 : BitVec 32 := 16#32
  let v2070 : BitVec 32 := Scalar.muli v0 c16_i32_1467
  let c98_i32 : BitVec 32 := 98#32
  let v2071 : BitVec 32 := Scalar.addi v2070 c98_i32
  let v2072 : Index := Scalar.indexCast v2071
  ![v2072.toNat]
def k0_off198 (v2073 : BitVec 32) : Fin 2 → Nat :=
  let c0_i32_1471 : BitVec 32 := 0#32
  ![v2073.toNat, 0]

def k0_chk99 (v2073 : BitVec 32) : Prop :=
  (∀ a, (k0_off198 v2073) a + S1x512.size a ≤ S100000x512.size a)
instance k0_chk99.dec : ∀ (v2073 : BitVec 32), Decidable (k0_chk99 v2073) := fun v2073 => decidable_of_iff' _ (Iff.of_eq (k0_chk99.eq_1 v2073))
theorem k0_off198_inb : ∀ (v2073 : BitVec 32) (k0_hw99 : k0_chk99 v2073), ∀ a, (k0_off198 v2073) a + S1x512.size a ≤ S100000x512.size a := fun v2073 k0_hw99 => k0_hw99

def k0_off199 (i : grid0.Coords) : Fin 1 → Nat :=
  let arg0 : BitVec 32 := BitVec.ofNat 32 (i 0).val
  let c8_i32 : BitVec 32 := 8#32
  let v0 : BitVec 32 := Scalar.muli arg0 c8_i32
  let c16_i32_1482 : BitVec 32 := 16#32
  let v2091 : BitVec 32 := Scalar.muli v0 c16_i32_1482
  let c99_i32 : BitVec 32 := 99#32
  let v2092 : BitVec 32 := Scalar.addi v2091 c99_i32
  let v2093 : Index := Scalar.indexCast v2092
  ![v2093.toNat]
def k0_off200 (v2094 : BitVec 32) : Fin 2 → Nat :=
  let c0_i32_1486 : BitVec 32 := 0#32
  ![v2094.toNat, 0]

def k0_chk100 (v2094 : BitVec 32) : Prop :=
  (∀ a, (k0_off200 v2094) a + S1x512.size a ≤ S100000x512.size a)
instance k0_chk100.dec : ∀ (v2094 : BitVec 32), Decidable (k0_chk100 v2094) := fun v2094 => decidable_of_iff' _ (Iff.of_eq (k0_chk100.eq_1 v2094))
theorem k0_off200_inb : ∀ (v2094 : BitVec 32) (k0_hw100 : k0_chk100 v2094), ∀ a, (k0_off200 v2094) a + S1x512.size a ≤ S100000x512.size a := fun v2094 k0_hw100 => k0_hw100

def k0_off201 (i : grid0.Coords) : Fin 1 → Nat :=
  let arg0 : BitVec 32 := BitVec.ofNat 32 (i 0).val
  let c8_i32 : BitVec 32 := 8#32
  let v0 : BitVec 32 := Scalar.muli arg0 c8_i32
  let c16_i32_1497 : BitVec 32 := 16#32
  let v2112 : BitVec 32 := Scalar.muli v0 c16_i32_1497
  let c100_i32 : BitVec 32 := 100#32
  let v2113 : BitVec 32 := Scalar.addi v2112 c100_i32
  let v2114 : Index := Scalar.indexCast v2113
  ![v2114.toNat]
def k0_off202 (v2115 : BitVec 32) : Fin 2 → Nat :=
  let c0_i32_1501 : BitVec 32 := 0#32
  ![v2115.toNat, 0]

def k0_chk101 (v2115 : BitVec 32) : Prop :=
  (∀ a, (k0_off202 v2115) a + S1x512.size a ≤ S100000x512.size a)
instance k0_chk101.dec : ∀ (v2115 : BitVec 32), Decidable (k0_chk101 v2115) := fun v2115 => decidable_of_iff' _ (Iff.of_eq (k0_chk101.eq_1 v2115))
theorem k0_off202_inb : ∀ (v2115 : BitVec 32) (k0_hw101 : k0_chk101 v2115), ∀ a, (k0_off202 v2115) a + S1x512.size a ≤ S100000x512.size a := fun v2115 k0_hw101 => k0_hw101

def k0_off203 (i : grid0.Coords) : Fin 1 → Nat :=
  let arg0 : BitVec 32 := BitVec.ofNat 32 (i 0).val
  let c8_i32 : BitVec 32 := 8#32
  let v0 : BitVec 32 := Scalar.muli arg0 c8_i32
  let c16_i32_1512 : BitVec 32 := 16#32
  let v2133 : BitVec 32 := Scalar.muli v0 c16_i32_1512
  let c101_i32 : BitVec 32 := 101#32
  let v2134 : BitVec 32 := Scalar.addi v2133 c101_i32
  let v2135 : Index := Scalar.indexCast v2134
  ![v2135.toNat]
def k0_off204 (v2136 : BitVec 32) : Fin 2 → Nat :=
  let c0_i32_1516 : BitVec 32 := 0#32
  ![v2136.toNat, 0]

def k0_chk102 (v2136 : BitVec 32) : Prop :=
  (∀ a, (k0_off204 v2136) a + S1x512.size a ≤ S100000x512.size a)
instance k0_chk102.dec : ∀ (v2136 : BitVec 32), Decidable (k0_chk102 v2136) := fun v2136 => decidable_of_iff' _ (Iff.of_eq (k0_chk102.eq_1 v2136))
theorem k0_off204_inb : ∀ (v2136 : BitVec 32) (k0_hw102 : k0_chk102 v2136), ∀ a, (k0_off204 v2136) a + S1x512.size a ≤ S100000x512.size a := fun v2136 k0_hw102 => k0_hw102

def k0_off205 (i : grid0.Coords) : Fin 1 → Nat :=
  let arg0 : BitVec 32 := BitVec.ofNat 32 (i 0).val
  let c8_i32 : BitVec 32 := 8#32
  let v0 : BitVec 32 := Scalar.muli arg0 c8_i32
  let c16_i32_1527 : BitVec 32 := 16#32
  let v2154 : BitVec 32 := Scalar.muli v0 c16_i32_1527
  let c102_i32 : BitVec 32 := 102#32
  let v2155 : BitVec 32 := Scalar.addi v2154 c102_i32
  let v2156 : Index := Scalar.indexCast v2155
  ![v2156.toNat]
def k0_off206 (v2157 : BitVec 32) : Fin 2 → Nat :=
  let c0_i32_1531 : BitVec 32 := 0#32
  ![v2157.toNat, 0]

def k0_chk103 (v2157 : BitVec 32) : Prop :=
  (∀ a, (k0_off206 v2157) a + S1x512.size a ≤ S100000x512.size a)
instance k0_chk103.dec : ∀ (v2157 : BitVec 32), Decidable (k0_chk103 v2157) := fun v2157 => decidable_of_iff' _ (Iff.of_eq (k0_chk103.eq_1 v2157))
theorem k0_off206_inb : ∀ (v2157 : BitVec 32) (k0_hw103 : k0_chk103 v2157), ∀ a, (k0_off206 v2157) a + S1x512.size a ≤ S100000x512.size a := fun v2157 k0_hw103 => k0_hw103

def k0_off207 (i : grid0.Coords) : Fin 1 → Nat :=
  let arg0 : BitVec 32 := BitVec.ofNat 32 (i 0).val
  let c8_i32 : BitVec 32 := 8#32
  let v0 : BitVec 32 := Scalar.muli arg0 c8_i32
  let c16_i32_1542 : BitVec 32 := 16#32
  let v2175 : BitVec 32 := Scalar.muli v0 c16_i32_1542
  let c103_i32 : BitVec 32 := 103#32
  let v2176 : BitVec 32 := Scalar.addi v2175 c103_i32
  let v2177 : Index := Scalar.indexCast v2176
  ![v2177.toNat]
def k0_off208 (v2178 : BitVec 32) : Fin 2 → Nat :=
  let c0_i32_1546 : BitVec 32 := 0#32
  ![v2178.toNat, 0]

def k0_chk104 (v2178 : BitVec 32) : Prop :=
  (∀ a, (k0_off208 v2178) a + S1x512.size a ≤ S100000x512.size a)
instance k0_chk104.dec : ∀ (v2178 : BitVec 32), Decidable (k0_chk104 v2178) := fun v2178 => decidable_of_iff' _ (Iff.of_eq (k0_chk104.eq_1 v2178))
theorem k0_off208_inb : ∀ (v2178 : BitVec 32) (k0_hw104 : k0_chk104 v2178), ∀ a, (k0_off208 v2178) a + S1x512.size a ≤ S100000x512.size a := fun v2178 k0_hw104 => k0_hw104

def k0_off209 (i : grid0.Coords) : Fin 1 → Nat :=
  let arg0 : BitVec 32 := BitVec.ofNat 32 (i 0).val
  let c8_i32 : BitVec 32 := 8#32
  let v0 : BitVec 32 := Scalar.muli arg0 c8_i32
  let c16_i32_1557 : BitVec 32 := 16#32
  let v2196 : BitVec 32 := Scalar.muli v0 c16_i32_1557
  let c104_i32 : BitVec 32 := 104#32
  let v2197 : BitVec 32 := Scalar.addi v2196 c104_i32
  let v2198 : Index := Scalar.indexCast v2197
  ![v2198.toNat]
def k0_off210 (v2199 : BitVec 32) : Fin 2 → Nat :=
  let c0_i32_1561 : BitVec 32 := 0#32
  ![v2199.toNat, 0]

def k0_chk105 (v2199 : BitVec 32) : Prop :=
  (∀ a, (k0_off210 v2199) a + S1x512.size a ≤ S100000x512.size a)
instance k0_chk105.dec : ∀ (v2199 : BitVec 32), Decidable (k0_chk105 v2199) := fun v2199 => decidable_of_iff' _ (Iff.of_eq (k0_chk105.eq_1 v2199))
theorem k0_off210_inb : ∀ (v2199 : BitVec 32) (k0_hw105 : k0_chk105 v2199), ∀ a, (k0_off210 v2199) a + S1x512.size a ≤ S100000x512.size a := fun v2199 k0_hw105 => k0_hw105

def k0_off211 (i : grid0.Coords) : Fin 1 → Nat :=
  let arg0 : BitVec 32 := BitVec.ofNat 32 (i 0).val
  let c8_i32 : BitVec 32 := 8#32
  let v0 : BitVec 32 := Scalar.muli arg0 c8_i32
  let c16_i32_1572 : BitVec 32 := 16#32
  let v2217 : BitVec 32 := Scalar.muli v0 c16_i32_1572
  let c105_i32 : BitVec 32 := 105#32
  let v2218 : BitVec 32 := Scalar.addi v2217 c105_i32
  let v2219 : Index := Scalar.indexCast v2218
  ![v2219.toNat]
def k0_off212 (v2220 : BitVec 32) : Fin 2 → Nat :=
  let c0_i32_1576 : BitVec 32 := 0#32
  ![v2220.toNat, 0]

def k0_chk106 (v2220 : BitVec 32) : Prop :=
  (∀ a, (k0_off212 v2220) a + S1x512.size a ≤ S100000x512.size a)
instance k0_chk106.dec : ∀ (v2220 : BitVec 32), Decidable (k0_chk106 v2220) := fun v2220 => decidable_of_iff' _ (Iff.of_eq (k0_chk106.eq_1 v2220))
theorem k0_off212_inb : ∀ (v2220 : BitVec 32) (k0_hw106 : k0_chk106 v2220), ∀ a, (k0_off212 v2220) a + S1x512.size a ≤ S100000x512.size a := fun v2220 k0_hw106 => k0_hw106

def k0_off213 (i : grid0.Coords) : Fin 1 → Nat :=
  let arg0 : BitVec 32 := BitVec.ofNat 32 (i 0).val
  let c8_i32 : BitVec 32 := 8#32
  let v0 : BitVec 32 := Scalar.muli arg0 c8_i32
  let c16_i32_1587 : BitVec 32 := 16#32
  let v2238 : BitVec 32 := Scalar.muli v0 c16_i32_1587
  let c106_i32 : BitVec 32 := 106#32
  let v2239 : BitVec 32 := Scalar.addi v2238 c106_i32
  let v2240 : Index := Scalar.indexCast v2239
  ![v2240.toNat]
def k0_off214 (v2241 : BitVec 32) : Fin 2 → Nat :=
  let c0_i32_1591 : BitVec 32 := 0#32
  ![v2241.toNat, 0]

def k0_chk107 (v2241 : BitVec 32) : Prop :=
  (∀ a, (k0_off214 v2241) a + S1x512.size a ≤ S100000x512.size a)
instance k0_chk107.dec : ∀ (v2241 : BitVec 32), Decidable (k0_chk107 v2241) := fun v2241 => decidable_of_iff' _ (Iff.of_eq (k0_chk107.eq_1 v2241))
theorem k0_off214_inb : ∀ (v2241 : BitVec 32) (k0_hw107 : k0_chk107 v2241), ∀ a, (k0_off214 v2241) a + S1x512.size a ≤ S100000x512.size a := fun v2241 k0_hw107 => k0_hw107

def k0_off215 (i : grid0.Coords) : Fin 1 → Nat :=
  let arg0 : BitVec 32 := BitVec.ofNat 32 (i 0).val
  let c8_i32 : BitVec 32 := 8#32
  let v0 : BitVec 32 := Scalar.muli arg0 c8_i32
  let c16_i32_1602 : BitVec 32 := 16#32
  let v2259 : BitVec 32 := Scalar.muli v0 c16_i32_1602
  let c107_i32 : BitVec 32 := 107#32
  let v2260 : BitVec 32 := Scalar.addi v2259 c107_i32
  let v2261 : Index := Scalar.indexCast v2260
  ![v2261.toNat]
def k0_off216 (v2262 : BitVec 32) : Fin 2 → Nat :=
  let c0_i32_1606 : BitVec 32 := 0#32
  ![v2262.toNat, 0]

def k0_chk108 (v2262 : BitVec 32) : Prop :=
  (∀ a, (k0_off216 v2262) a + S1x512.size a ≤ S100000x512.size a)
instance k0_chk108.dec : ∀ (v2262 : BitVec 32), Decidable (k0_chk108 v2262) := fun v2262 => decidable_of_iff' _ (Iff.of_eq (k0_chk108.eq_1 v2262))
theorem k0_off216_inb : ∀ (v2262 : BitVec 32) (k0_hw108 : k0_chk108 v2262), ∀ a, (k0_off216 v2262) a + S1x512.size a ≤ S100000x512.size a := fun v2262 k0_hw108 => k0_hw108

def k0_off217 (i : grid0.Coords) : Fin 1 → Nat :=
  let arg0 : BitVec 32 := BitVec.ofNat 32 (i 0).val
  let c8_i32 : BitVec 32 := 8#32
  let v0 : BitVec 32 := Scalar.muli arg0 c8_i32
  let c16_i32_1617 : BitVec 32 := 16#32
  let v2280 : BitVec 32 := Scalar.muli v0 c16_i32_1617
  let c108_i32 : BitVec 32 := 108#32
  let v2281 : BitVec 32 := Scalar.addi v2280 c108_i32
  let v2282 : Index := Scalar.indexCast v2281
  ![v2282.toNat]
def k0_off218 (v2283 : BitVec 32) : Fin 2 → Nat :=
  let c0_i32_1621 : BitVec 32 := 0#32
  ![v2283.toNat, 0]

def k0_chk109 (v2283 : BitVec 32) : Prop :=
  (∀ a, (k0_off218 v2283) a + S1x512.size a ≤ S100000x512.size a)
instance k0_chk109.dec : ∀ (v2283 : BitVec 32), Decidable (k0_chk109 v2283) := fun v2283 => decidable_of_iff' _ (Iff.of_eq (k0_chk109.eq_1 v2283))
theorem k0_off218_inb : ∀ (v2283 : BitVec 32) (k0_hw109 : k0_chk109 v2283), ∀ a, (k0_off218 v2283) a + S1x512.size a ≤ S100000x512.size a := fun v2283 k0_hw109 => k0_hw109

def k0_off219 (i : grid0.Coords) : Fin 1 → Nat :=
  let arg0 : BitVec 32 := BitVec.ofNat 32 (i 0).val
  let c8_i32 : BitVec 32 := 8#32
  let v0 : BitVec 32 := Scalar.muli arg0 c8_i32
  let c16_i32_1632 : BitVec 32 := 16#32
  let v2301 : BitVec 32 := Scalar.muli v0 c16_i32_1632
  let c109_i32 : BitVec 32 := 109#32
  let v2302 : BitVec 32 := Scalar.addi v2301 c109_i32
  let v2303 : Index := Scalar.indexCast v2302
  ![v2303.toNat]
def k0_off220 (v2304 : BitVec 32) : Fin 2 → Nat :=
  let c0_i32_1636 : BitVec 32 := 0#32
  ![v2304.toNat, 0]

def k0_chk110 (v2304 : BitVec 32) : Prop :=
  (∀ a, (k0_off220 v2304) a + S1x512.size a ≤ S100000x512.size a)
instance k0_chk110.dec : ∀ (v2304 : BitVec 32), Decidable (k0_chk110 v2304) := fun v2304 => decidable_of_iff' _ (Iff.of_eq (k0_chk110.eq_1 v2304))
theorem k0_off220_inb : ∀ (v2304 : BitVec 32) (k0_hw110 : k0_chk110 v2304), ∀ a, (k0_off220 v2304) a + S1x512.size a ≤ S100000x512.size a := fun v2304 k0_hw110 => k0_hw110

def k0_off221 (i : grid0.Coords) : Fin 1 → Nat :=
  let arg0 : BitVec 32 := BitVec.ofNat 32 (i 0).val
  let c8_i32 : BitVec 32 := 8#32
  let v0 : BitVec 32 := Scalar.muli arg0 c8_i32
  let c16_i32_1647 : BitVec 32 := 16#32
  let v2322 : BitVec 32 := Scalar.muli v0 c16_i32_1647
  let c110_i32 : BitVec 32 := 110#32
  let v2323 : BitVec 32 := Scalar.addi v2322 c110_i32
  let v2324 : Index := Scalar.indexCast v2323
  ![v2324.toNat]
def k0_off222 (v2325 : BitVec 32) : Fin 2 → Nat :=
  let c0_i32_1651 : BitVec 32 := 0#32
  ![v2325.toNat, 0]

def k0_chk111 (v2325 : BitVec 32) : Prop :=
  (∀ a, (k0_off222 v2325) a + S1x512.size a ≤ S100000x512.size a)
instance k0_chk111.dec : ∀ (v2325 : BitVec 32), Decidable (k0_chk111 v2325) := fun v2325 => decidable_of_iff' _ (Iff.of_eq (k0_chk111.eq_1 v2325))
theorem k0_off222_inb : ∀ (v2325 : BitVec 32) (k0_hw111 : k0_chk111 v2325), ∀ a, (k0_off222 v2325) a + S1x512.size a ≤ S100000x512.size a := fun v2325 k0_hw111 => k0_hw111

def k0_off223 (i : grid0.Coords) : Fin 1 → Nat :=
  let arg0 : BitVec 32 := BitVec.ofNat 32 (i 0).val
  let c8_i32 : BitVec 32 := 8#32
  let v0 : BitVec 32 := Scalar.muli arg0 c8_i32
  let c16_i32_1662 : BitVec 32 := 16#32
  let v2343 : BitVec 32 := Scalar.muli v0 c16_i32_1662
  let c111_i32 : BitVec 32 := 111#32
  let v2344 : BitVec 32 := Scalar.addi v2343 c111_i32
  let v2345 : Index := Scalar.indexCast v2344
  ![v2345.toNat]
def k0_off224 (v2346 : BitVec 32) : Fin 2 → Nat :=
  let c0_i32_1666 : BitVec 32 := 0#32
  ![v2346.toNat, 0]

def k0_chk112 (v2346 : BitVec 32) : Prop :=
  (∀ a, (k0_off224 v2346) a + S1x512.size a ≤ S100000x512.size a)
instance k0_chk112.dec : ∀ (v2346 : BitVec 32), Decidable (k0_chk112 v2346) := fun v2346 => decidable_of_iff' _ (Iff.of_eq (k0_chk112.eq_1 v2346))
theorem k0_off224_inb : ∀ (v2346 : BitVec 32) (k0_hw112 : k0_chk112 v2346), ∀ a, (k0_off224 v2346) a + S1x512.size a ≤ S100000x512.size a := fun v2346 k0_hw112 => k0_hw112

def k0_off225 (i : grid0.Coords) : Fin 1 → Nat :=
  let arg0 : BitVec 32 := BitVec.ofNat 32 (i 0).val
  let c8_i32 : BitVec 32 := 8#32
  let v0 : BitVec 32 := Scalar.muli arg0 c8_i32
  let c16_i32_1677 : BitVec 32 := 16#32
  let v2364 : BitVec 32 := Scalar.muli v0 c16_i32_1677
  let c112_i32 : BitVec 32 := 112#32
  let v2365 : BitVec 32 := Scalar.addi v2364 c112_i32
  let v2366 : Index := Scalar.indexCast v2365
  ![v2366.toNat]
def k0_off226 (v2367 : BitVec 32) : Fin 2 → Nat :=
  let c0_i32_1681 : BitVec 32 := 0#32
  ![v2367.toNat, 0]

def k0_chk113 (v2367 : BitVec 32) : Prop :=
  (∀ a, (k0_off226 v2367) a + S1x512.size a ≤ S100000x512.size a)
instance k0_chk113.dec : ∀ (v2367 : BitVec 32), Decidable (k0_chk113 v2367) := fun v2367 => decidable_of_iff' _ (Iff.of_eq (k0_chk113.eq_1 v2367))
theorem k0_off226_inb : ∀ (v2367 : BitVec 32) (k0_hw113 : k0_chk113 v2367), ∀ a, (k0_off226 v2367) a + S1x512.size a ≤ S100000x512.size a := fun v2367 k0_hw113 => k0_hw113

def k0_off227 (i : grid0.Coords) : Fin 1 → Nat :=
  let arg0 : BitVec 32 := BitVec.ofNat 32 (i 0).val
  let c8_i32 : BitVec 32 := 8#32
  let v0 : BitVec 32 := Scalar.muli arg0 c8_i32
  let c16_i32_1692 : BitVec 32 := 16#32
  let v2386 : BitVec 32 := Scalar.muli v0 c16_i32_1692
  let c113_i32 : BitVec 32 := 113#32
  let v2387 : BitVec 32 := Scalar.addi v2386 c113_i32
  let v2388 : Index := Scalar.indexCast v2387
  ![v2388.toNat]
def k0_off228 (v2389 : BitVec 32) : Fin 2 → Nat :=
  let c0_i32_1696 : BitVec 32 := 0#32
  ![v2389.toNat, 0]

def k0_chk114 (v2389 : BitVec 32) : Prop :=
  (∀ a, (k0_off228 v2389) a + S1x512.size a ≤ S100000x512.size a)
instance k0_chk114.dec : ∀ (v2389 : BitVec 32), Decidable (k0_chk114 v2389) := fun v2389 => decidable_of_iff' _ (Iff.of_eq (k0_chk114.eq_1 v2389))
theorem k0_off228_inb : ∀ (v2389 : BitVec 32) (k0_hw114 : k0_chk114 v2389), ∀ a, (k0_off228 v2389) a + S1x512.size a ≤ S100000x512.size a := fun v2389 k0_hw114 => k0_hw114

def k0_off229 (i : grid0.Coords) : Fin 1 → Nat :=
  let arg0 : BitVec 32 := BitVec.ofNat 32 (i 0).val
  let c8_i32 : BitVec 32 := 8#32
  let v0 : BitVec 32 := Scalar.muli arg0 c8_i32
  let c16_i32_1706 : BitVec 32 := 16#32
  let v2407 : BitVec 32 := Scalar.muli v0 c16_i32_1706
  let c114_i32 : BitVec 32 := 114#32
  let v2408 : BitVec 32 := Scalar.addi v2407 c114_i32
  let v2409 : Index := Scalar.indexCast v2408
  ![v2409.toNat]
def k0_off230 (v2410 : BitVec 32) : Fin 2 → Nat :=
  let c0_i32_1710 : BitVec 32 := 0#32
  ![v2410.toNat, 0]

def k0_chk115 (v2410 : BitVec 32) : Prop :=
  (∀ a, (k0_off230 v2410) a + S1x512.size a ≤ S100000x512.size a)
instance k0_chk115.dec : ∀ (v2410 : BitVec 32), Decidable (k0_chk115 v2410) := fun v2410 => decidable_of_iff' _ (Iff.of_eq (k0_chk115.eq_1 v2410))
theorem k0_off230_inb : ∀ (v2410 : BitVec 32) (k0_hw115 : k0_chk115 v2410), ∀ a, (k0_off230 v2410) a + S1x512.size a ≤ S100000x512.size a := fun v2410 k0_hw115 => k0_hw115

def k0_off231 (i : grid0.Coords) : Fin 1 → Nat :=
  let arg0 : BitVec 32 := BitVec.ofNat 32 (i 0).val
  let c8_i32 : BitVec 32 := 8#32
  let v0 : BitVec 32 := Scalar.muli arg0 c8_i32
  let c16_i32_1721 : BitVec 32 := 16#32
  let v2428 : BitVec 32 := Scalar.muli v0 c16_i32_1721
  let c115_i32 : BitVec 32 := 115#32
  let v2429 : BitVec 32 := Scalar.addi v2428 c115_i32
  let v2430 : Index := Scalar.indexCast v2429
  ![v2430.toNat]
def k0_off232 (v2431 : BitVec 32) : Fin 2 → Nat :=
  let c0_i32_1725 : BitVec 32 := 0#32
  ![v2431.toNat, 0]

def k0_chk116 (v2431 : BitVec 32) : Prop :=
  (∀ a, (k0_off232 v2431) a + S1x512.size a ≤ S100000x512.size a)
instance k0_chk116.dec : ∀ (v2431 : BitVec 32), Decidable (k0_chk116 v2431) := fun v2431 => decidable_of_iff' _ (Iff.of_eq (k0_chk116.eq_1 v2431))
theorem k0_off232_inb : ∀ (v2431 : BitVec 32) (k0_hw116 : k0_chk116 v2431), ∀ a, (k0_off232 v2431) a + S1x512.size a ≤ S100000x512.size a := fun v2431 k0_hw116 => k0_hw116

def k0_off233 (i : grid0.Coords) : Fin 1 → Nat :=
  let arg0 : BitVec 32 := BitVec.ofNat 32 (i 0).val
  let c8_i32 : BitVec 32 := 8#32
  let v0 : BitVec 32 := Scalar.muli arg0 c8_i32
  let c16_i32_1736 : BitVec 32 := 16#32
  let v2449 : BitVec 32 := Scalar.muli v0 c16_i32_1736
  let c116_i32 : BitVec 32 := 116#32
  let v2450 : BitVec 32 := Scalar.addi v2449 c116_i32
  let v2451 : Index := Scalar.indexCast v2450
  ![v2451.toNat]
def k0_off234 (v2452 : BitVec 32) : Fin 2 → Nat :=
  let c0_i32_1740 : BitVec 32 := 0#32
  ![v2452.toNat, 0]

def k0_chk117 (v2452 : BitVec 32) : Prop :=
  (∀ a, (k0_off234 v2452) a + S1x512.size a ≤ S100000x512.size a)
instance k0_chk117.dec : ∀ (v2452 : BitVec 32), Decidable (k0_chk117 v2452) := fun v2452 => decidable_of_iff' _ (Iff.of_eq (k0_chk117.eq_1 v2452))
theorem k0_off234_inb : ∀ (v2452 : BitVec 32) (k0_hw117 : k0_chk117 v2452), ∀ a, (k0_off234 v2452) a + S1x512.size a ≤ S100000x512.size a := fun v2452 k0_hw117 => k0_hw117

def k0_off235 (i : grid0.Coords) : Fin 1 → Nat :=
  let arg0 : BitVec 32 := BitVec.ofNat 32 (i 0).val
  let c8_i32 : BitVec 32 := 8#32
  let v0 : BitVec 32 := Scalar.muli arg0 c8_i32
  let c16_i32_1751 : BitVec 32 := 16#32
  let v2470 : BitVec 32 := Scalar.muli v0 c16_i32_1751
  let c117_i32 : BitVec 32 := 117#32
  let v2471 : BitVec 32 := Scalar.addi v2470 c117_i32
  let v2472 : Index := Scalar.indexCast v2471
  ![v2472.toNat]
def k0_off236 (v2473 : BitVec 32) : Fin 2 → Nat :=
  let c0_i32_1755 : BitVec 32 := 0#32
  ![v2473.toNat, 0]

def k0_chk118 (v2473 : BitVec 32) : Prop :=
  (∀ a, (k0_off236 v2473) a + S1x512.size a ≤ S100000x512.size a)
instance k0_chk118.dec : ∀ (v2473 : BitVec 32), Decidable (k0_chk118 v2473) := fun v2473 => decidable_of_iff' _ (Iff.of_eq (k0_chk118.eq_1 v2473))
theorem k0_off236_inb : ∀ (v2473 : BitVec 32) (k0_hw118 : k0_chk118 v2473), ∀ a, (k0_off236 v2473) a + S1x512.size a ≤ S100000x512.size a := fun v2473 k0_hw118 => k0_hw118

def k0_off237 (i : grid0.Coords) : Fin 1 → Nat :=
  let arg0 : BitVec 32 := BitVec.ofNat 32 (i 0).val
  let c8_i32 : BitVec 32 := 8#32
  let v0 : BitVec 32 := Scalar.muli arg0 c8_i32
  let c16_i32_1766 : BitVec 32 := 16#32
  let v2491 : BitVec 32 := Scalar.muli v0 c16_i32_1766
  let c118_i32 : BitVec 32 := 118#32
  let v2492 : BitVec 32 := Scalar.addi v2491 c118_i32
  let v2493 : Index := Scalar.indexCast v2492
  ![v2493.toNat]
def k0_off238 (v2494 : BitVec 32) : Fin 2 → Nat :=
  let c0_i32_1770 : BitVec 32 := 0#32
  ![v2494.toNat, 0]

def k0_chk119 (v2494 : BitVec 32) : Prop :=
  (∀ a, (k0_off238 v2494) a + S1x512.size a ≤ S100000x512.size a)
instance k0_chk119.dec : ∀ (v2494 : BitVec 32), Decidable (k0_chk119 v2494) := fun v2494 => decidable_of_iff' _ (Iff.of_eq (k0_chk119.eq_1 v2494))
theorem k0_off238_inb : ∀ (v2494 : BitVec 32) (k0_hw119 : k0_chk119 v2494), ∀ a, (k0_off238 v2494) a + S1x512.size a ≤ S100000x512.size a := fun v2494 k0_hw119 => k0_hw119

def k0_off239 (i : grid0.Coords) : Fin 1 → Nat :=
  let arg0 : BitVec 32 := BitVec.ofNat 32 (i 0).val
  let c8_i32 : BitVec 32 := 8#32
  let v0 : BitVec 32 := Scalar.muli arg0 c8_i32
  let c16_i32_1781 : BitVec 32 := 16#32
  let v2512 : BitVec 32 := Scalar.muli v0 c16_i32_1781
  let c119_i32 : BitVec 32 := 119#32
  let v2513 : BitVec 32 := Scalar.addi v2512 c119_i32
  let v2514 : Index := Scalar.indexCast v2513
  ![v2514.toNat]
def k0_off240 (v2515 : BitVec 32) : Fin 2 → Nat :=
  let c0_i32_1785 : BitVec 32 := 0#32
  ![v2515.toNat, 0]

def k0_chk120 (v2515 : BitVec 32) : Prop :=
  (∀ a, (k0_off240 v2515) a + S1x512.size a ≤ S100000x512.size a)
instance k0_chk120.dec : ∀ (v2515 : BitVec 32), Decidable (k0_chk120 v2515) := fun v2515 => decidable_of_iff' _ (Iff.of_eq (k0_chk120.eq_1 v2515))
theorem k0_off240_inb : ∀ (v2515 : BitVec 32) (k0_hw120 : k0_chk120 v2515), ∀ a, (k0_off240 v2515) a + S1x512.size a ≤ S100000x512.size a := fun v2515 k0_hw120 => k0_hw120

def k0_off241 (i : grid0.Coords) : Fin 1 → Nat :=
  let arg0 : BitVec 32 := BitVec.ofNat 32 (i 0).val
  let c8_i32 : BitVec 32 := 8#32
  let v0 : BitVec 32 := Scalar.muli arg0 c8_i32
  let c16_i32_1796 : BitVec 32 := 16#32
  let v2533 : BitVec 32 := Scalar.muli v0 c16_i32_1796
  let c120_i32 : BitVec 32 := 120#32
  let v2534 : BitVec 32 := Scalar.addi v2533 c120_i32
  let v2535 : Index := Scalar.indexCast v2534
  ![v2535.toNat]
def k0_off242 (v2536 : BitVec 32) : Fin 2 → Nat :=
  let c0_i32_1800 : BitVec 32 := 0#32
  ![v2536.toNat, 0]

def k0_chk121 (v2536 : BitVec 32) : Prop :=
  (∀ a, (k0_off242 v2536) a + S1x512.size a ≤ S100000x512.size a)
instance k0_chk121.dec : ∀ (v2536 : BitVec 32), Decidable (k0_chk121 v2536) := fun v2536 => decidable_of_iff' _ (Iff.of_eq (k0_chk121.eq_1 v2536))
theorem k0_off242_inb : ∀ (v2536 : BitVec 32) (k0_hw121 : k0_chk121 v2536), ∀ a, (k0_off242 v2536) a + S1x512.size a ≤ S100000x512.size a := fun v2536 k0_hw121 => k0_hw121

def k0_off243 (i : grid0.Coords) : Fin 1 → Nat :=
  let arg0 : BitVec 32 := BitVec.ofNat 32 (i 0).val
  let c8_i32 : BitVec 32 := 8#32
  let v0 : BitVec 32 := Scalar.muli arg0 c8_i32
  let c16_i32_1811 : BitVec 32 := 16#32
  let v2554 : BitVec 32 := Scalar.muli v0 c16_i32_1811
  let c121_i32 : BitVec 32 := 121#32
  let v2555 : BitVec 32 := Scalar.addi v2554 c121_i32
  let v2556 : Index := Scalar.indexCast v2555
  ![v2556.toNat]
def k0_off244 (v2557 : BitVec 32) : Fin 2 → Nat :=
  let c0_i32_1815 : BitVec 32 := 0#32
  ![v2557.toNat, 0]

def k0_chk122 (v2557 : BitVec 32) : Prop :=
  (∀ a, (k0_off244 v2557) a + S1x512.size a ≤ S100000x512.size a)
instance k0_chk122.dec : ∀ (v2557 : BitVec 32), Decidable (k0_chk122 v2557) := fun v2557 => decidable_of_iff' _ (Iff.of_eq (k0_chk122.eq_1 v2557))
theorem k0_off244_inb : ∀ (v2557 : BitVec 32) (k0_hw122 : k0_chk122 v2557), ∀ a, (k0_off244 v2557) a + S1x512.size a ≤ S100000x512.size a := fun v2557 k0_hw122 => k0_hw122

def k0_off245 (i : grid0.Coords) : Fin 1 → Nat :=
  let arg0 : BitVec 32 := BitVec.ofNat 32 (i 0).val
  let c8_i32 : BitVec 32 := 8#32
  let v0 : BitVec 32 := Scalar.muli arg0 c8_i32
  let c16_i32_1826 : BitVec 32 := 16#32
  let v2575 : BitVec 32 := Scalar.muli v0 c16_i32_1826
  let c122_i32 : BitVec 32 := 122#32
  let v2576 : BitVec 32 := Scalar.addi v2575 c122_i32
  let v2577 : Index := Scalar.indexCast v2576
  ![v2577.toNat]
def k0_off246 (v2578 : BitVec 32) : Fin 2 → Nat :=
  let c0_i32_1830 : BitVec 32 := 0#32
  ![v2578.toNat, 0]

def k0_chk123 (v2578 : BitVec 32) : Prop :=
  (∀ a, (k0_off246 v2578) a + S1x512.size a ≤ S100000x512.size a)
instance k0_chk123.dec : ∀ (v2578 : BitVec 32), Decidable (k0_chk123 v2578) := fun v2578 => decidable_of_iff' _ (Iff.of_eq (k0_chk123.eq_1 v2578))
theorem k0_off246_inb : ∀ (v2578 : BitVec 32) (k0_hw123 : k0_chk123 v2578), ∀ a, (k0_off246 v2578) a + S1x512.size a ≤ S100000x512.size a := fun v2578 k0_hw123 => k0_hw123

def k0_off247 (i : grid0.Coords) : Fin 1 → Nat :=
  let arg0 : BitVec 32 := BitVec.ofNat 32 (i 0).val
  let c8_i32 : BitVec 32 := 8#32
  let v0 : BitVec 32 := Scalar.muli arg0 c8_i32
  let c16_i32_1841 : BitVec 32 := 16#32
  let v2596 : BitVec 32 := Scalar.muli v0 c16_i32_1841
  let c123_i32 : BitVec 32 := 123#32
  let v2597 : BitVec 32 := Scalar.addi v2596 c123_i32
  let v2598 : Index := Scalar.indexCast v2597
  ![v2598.toNat]
def k0_off248 (v2599 : BitVec 32) : Fin 2 → Nat :=
  let c0_i32_1845 : BitVec 32 := 0#32
  ![v2599.toNat, 0]

def k0_chk124 (v2599 : BitVec 32) : Prop :=
  (∀ a, (k0_off248 v2599) a + S1x512.size a ≤ S100000x512.size a)
instance k0_chk124.dec : ∀ (v2599 : BitVec 32), Decidable (k0_chk124 v2599) := fun v2599 => decidable_of_iff' _ (Iff.of_eq (k0_chk124.eq_1 v2599))
theorem k0_off248_inb : ∀ (v2599 : BitVec 32) (k0_hw124 : k0_chk124 v2599), ∀ a, (k0_off248 v2599) a + S1x512.size a ≤ S100000x512.size a := fun v2599 k0_hw124 => k0_hw124

def k0_off249 (i : grid0.Coords) : Fin 1 → Nat :=
  let arg0 : BitVec 32 := BitVec.ofNat 32 (i 0).val
  let c8_i32 : BitVec 32 := 8#32
  let v0 : BitVec 32 := Scalar.muli arg0 c8_i32
  let c16_i32_1856 : BitVec 32 := 16#32
  let v2617 : BitVec 32 := Scalar.muli v0 c16_i32_1856
  let c124_i32 : BitVec 32 := 124#32
  let v2618 : BitVec 32 := Scalar.addi v2617 c124_i32
  let v2619 : Index := Scalar.indexCast v2618
  ![v2619.toNat]
def k0_off250 (v2620 : BitVec 32) : Fin 2 → Nat :=
  let c0_i32_1860 : BitVec 32 := 0#32
  ![v2620.toNat, 0]

def k0_chk125 (v2620 : BitVec 32) : Prop :=
  (∀ a, (k0_off250 v2620) a + S1x512.size a ≤ S100000x512.size a)
instance k0_chk125.dec : ∀ (v2620 : BitVec 32), Decidable (k0_chk125 v2620) := fun v2620 => decidable_of_iff' _ (Iff.of_eq (k0_chk125.eq_1 v2620))
theorem k0_off250_inb : ∀ (v2620 : BitVec 32) (k0_hw125 : k0_chk125 v2620), ∀ a, (k0_off250 v2620) a + S1x512.size a ≤ S100000x512.size a := fun v2620 k0_hw125 => k0_hw125

def k0_off251 (i : grid0.Coords) : Fin 1 → Nat :=
  let arg0 : BitVec 32 := BitVec.ofNat 32 (i 0).val
  let c8_i32 : BitVec 32 := 8#32
  let v0 : BitVec 32 := Scalar.muli arg0 c8_i32
  let c16_i32_1871 : BitVec 32 := 16#32
  let v2638 : BitVec 32 := Scalar.muli v0 c16_i32_1871
  let c125_i32 : BitVec 32 := 125#32
  let v2639 : BitVec 32 := Scalar.addi v2638 c125_i32
  let v2640 : Index := Scalar.indexCast v2639
  ![v2640.toNat]
def k0_off252 (v2641 : BitVec 32) : Fin 2 → Nat :=
  let c0_i32_1875 : BitVec 32 := 0#32
  ![v2641.toNat, 0]

def k0_chk126 (v2641 : BitVec 32) : Prop :=
  (∀ a, (k0_off252 v2641) a + S1x512.size a ≤ S100000x512.size a)
instance k0_chk126.dec : ∀ (v2641 : BitVec 32), Decidable (k0_chk126 v2641) := fun v2641 => decidable_of_iff' _ (Iff.of_eq (k0_chk126.eq_1 v2641))
theorem k0_off252_inb : ∀ (v2641 : BitVec 32) (k0_hw126 : k0_chk126 v2641), ∀ a, (k0_off252 v2641) a + S1x512.size a ≤ S100000x512.size a := fun v2641 k0_hw126 => k0_hw126

def k0_off253 (i : grid0.Coords) : Fin 1 → Nat :=
  let arg0 : BitVec 32 := BitVec.ofNat 32 (i 0).val
  let c8_i32 : BitVec 32 := 8#32
  let v0 : BitVec 32 := Scalar.muli arg0 c8_i32
  let c16_i32_1886 : BitVec 32 := 16#32
  let v2659 : BitVec 32 := Scalar.muli v0 c16_i32_1886
  let c126_i32 : BitVec 32 := 126#32
  let v2660 : BitVec 32 := Scalar.addi v2659 c126_i32
  let v2661 : Index := Scalar.indexCast v2660
  ![v2661.toNat]
def k0_off254 (v2662 : BitVec 32) : Fin 2 → Nat :=
  let c0_i32_1890 : BitVec 32 := 0#32
  ![v2662.toNat, 0]

def k0_chk127 (v2662 : BitVec 32) : Prop :=
  (∀ a, (k0_off254 v2662) a + S1x512.size a ≤ S100000x512.size a)
instance k0_chk127.dec : ∀ (v2662 : BitVec 32), Decidable (k0_chk127 v2662) := fun v2662 => decidable_of_iff' _ (Iff.of_eq (k0_chk127.eq_1 v2662))
theorem k0_off254_inb : ∀ (v2662 : BitVec 32) (k0_hw127 : k0_chk127 v2662), ∀ a, (k0_off254 v2662) a + S1x512.size a ≤ S100000x512.size a := fun v2662 k0_hw127 => k0_hw127

def k0_off255 (i : grid0.Coords) : Fin 1 → Nat :=
  let arg0 : BitVec 32 := BitVec.ofNat 32 (i 0).val
  let c8_i32 : BitVec 32 := 8#32
  let v0 : BitVec 32 := Scalar.muli arg0 c8_i32
  let c16_i32_1901 : BitVec 32 := 16#32
  let v2680 : BitVec 32 := Scalar.muli v0 c16_i32_1901
  let c127_i32 : BitVec 32 := 127#32
  let v2681 : BitVec 32 := Scalar.addi v2680 c127_i32
  let v2682 : Index := Scalar.indexCast v2681
  ![v2682.toNat]
def k0_off256 (v2683 : BitVec 32) : Fin 2 → Nat :=
  let c0_i32_1905 : BitVec 32 := 0#32
  ![v2683.toNat, 0]

def k0_chk128 (v2683 : BitVec 32) : Prop :=
  (∀ a, (k0_off256 v2683) a + S1x512.size a ≤ S100000x512.size a)
instance k0_chk128.dec : ∀ (v2683 : BitVec 32), Decidable (k0_chk128 v2683) := fun v2683 => decidable_of_iff' _ (Iff.of_eq (k0_chk128.eq_1 v2683))
theorem k0_off256_inb : ∀ (v2683 : BitVec 32) (k0_hw128 : k0_chk128 v2683), ∀ a, (k0_off256 v2683) a + S1x512.size a ≤ S100000x512.size a := fun v2683 k0_hw128 => k0_hw128

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S_S8192x16 : S_.BroadcastsInDim S8192x16 (![] : Fin 0 → Fin S8192x16.rank)
  shapeCasts_S8192x16_S131072 : S8192x16.ShapeCasts S131072
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S8x512_S8x512_0_0 : ∀ a, (![0, 0] : Fin 2 → Nat) a + S8x512.size a ≤ S8x512.size a
  h_S8x512 : 0 < S8x512.numel
  reduces_S8x512_S512 : S8x512.Reduces [0] S512
  shapeCasts_S512_S1x512 : S512.ShapeCasts S1x512
  numel1_S1 : S1.numel = 1
  inb_S2_S1_0 : ∀ a, (![0] : Fin 1 → Nat) a + S1.size a ≤ S2.size a
  squeezes_S1_S_ : S1.Squeezes S_
  inb_S2x512_S1x512_0_0 : ∀ a, (![0, 0] : Fin 2 → Nat) a + S1x512.size a ≤ S2x512.size a
  squeezes_S1x512_S512 : S1x512.Squeezes S512
  inb_S100000x512_S1x512_0_0 : ∀ a, (![0, 0] : Fin 2 → Nat) a + S1x512.size a ≤ S100000x512.size a
  inb_S2_S1_1 : ∀ a, (![1] : Fin 1 → Nat) a + S1.size a ≤ S2.size a
  inb_S2x512_S1x512_1_0 : ∀ a, (![1, 0] : Fin 2 → Nat) a + S1x512.size a ≤ S2x512.size a
  inb_S8x512_S1x512_0_0 : ∀ a, (![0, 0] : Fin 2 → Nat) a + S1x512.size a ≤ S8x512.size a
  reduces_S1x512_S1 : S1x512.Reduces [1] S1
  shapeCasts_S1_S1x1 : S1.ShapeCasts S1x1
  concatenates_S1x1_S1x1_S1x1_S1x1_S1x1_S1x1_S1x1_S1x1_S1x1_S1x1_S1x1_S1x1_S1x1_S1x1_S1x1_S1x1_S1x16_d1 : Shape.Concatenates [S1x1, S1x1, S1x1, S1x1, S1x1, S1x1, S1x1, S1x1, S1x1, S1x1, S1x1, S1x1, S1x1, S1x1, S1x1, S1x1] S1x16 1
  inb_S8x512_S1x512_1_0 : ∀ a, (![1, 0] : Fin 2 → Nat) a + S1x512.size a ≤ S8x512.size a
  inb_S8x512_S1x512_2_0 : ∀ a, (![2, 0] : Fin 2 → Nat) a + S1x512.size a ≤ S8x512.size a
  inb_S8x512_S1x512_3_0 : ∀ a, (![3, 0] : Fin 2 → Nat) a + S1x512.size a ≤ S8x512.size a
  inb_S8x512_S1x512_4_0 : ∀ a, (![4, 0] : Fin 2 → Nat) a + S1x512.size a ≤ S8x512.size a
  inb_S8x512_S1x512_5_0 : ∀ a, (![5, 0] : Fin 2 → Nat) a + S1x512.size a ≤ S8x512.size a
  inb_S8x512_S1x512_6_0 : ∀ a, (![6, 0] : Fin 2 → Nat) a + S1x512.size a ≤ S8x512.size a
  inb_S8x512_S1x512_7_0 : ∀ a, (![7, 0] : Fin 2 → Nat) a + S1x512.size a ≤ S8x512.size a
  concatenates_S1x16_S1x16_S1x16_S1x16_S1x16_S1x16_S1x16_S1x16_S8x16_d0 : Shape.Concatenates [S1x16, S1x16, S1x16, S1x16, S1x16, S1x16, S1x16, S1x16] S8x16 0
  inb_S8x16_S8x16_0_0 : ∀ a, (![0, 0] : Fin 2 → Nat) a + S8x16.size a ≤ S8x16.size a
  h_S8x16 : 0 < S8x16.numel
  shapeCasts_S1x512_S512 : S1x512.ShapeCasts S512
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  reducesTo_S8192x16_S_d0_1 : S8192x16.ReducesTo [0, 1] S_
  reducesTo_S512_S_d0 : S512.ReducesTo [0] S_
  hcc0_scratch1 : 5 + S2.numel ≤ 7
  hrank0 : 0 < grid0.rank
  k0_off1_inb : ∀ i : grid0.Coords, ∀ a, (k0_off1 i) a + S1.size a ≤ S131072.size a
  k0_off3_inb : ∀ i : grid0.Coords, ∀ a, (k0_off3 i) a + S1.size a ≤ S131072.size a
  k0_off5_inb : ∀ i : grid0.Coords, ∀ a, (k0_off5 i) a + S1.size a ≤ S131072.size a
  k0_off7_inb : ∀ i : grid0.Coords, ∀ a, (k0_off7 i) a + S1.size a ≤ S131072.size a
  k0_off9_inb : ∀ i : grid0.Coords, ∀ a, (k0_off9 i) a + S1.size a ≤ S131072.size a
  k0_off11_inb : ∀ i : grid0.Coords, ∀ a, (k0_off11 i) a + S1.size a ≤ S131072.size a
  k0_off13_inb : ∀ i : grid0.Coords, ∀ a, (k0_off13 i) a + S1.size a ≤ S131072.size a
  k0_off15_inb : ∀ i : grid0.Coords, ∀ a, (k0_off15 i) a + S1.size a ≤ S131072.size a
  k0_off17_inb : ∀ i : grid0.Coords, ∀ a, (k0_off17 i) a + S1.size a ≤ S131072.size a
  k0_off19_inb : ∀ i : grid0.Coords, ∀ a, (k0_off19 i) a + S1.size a ≤ S131072.size a
  k0_off21_inb : ∀ i : grid0.Coords, ∀ a, (k0_off21 i) a + S1.size a ≤ S131072.size a
  k0_off23_inb : ∀ i : grid0.Coords, ∀ a, (k0_off23 i) a + S1.size a ≤ S131072.size a
  k0_off25_inb : ∀ i : grid0.Coords, ∀ a, (k0_off25 i) a + S1.size a ≤ S131072.size a
  k0_off27_inb : ∀ i : grid0.Coords, ∀ a, (k0_off27 i) a + S1.size a ≤ S131072.size a
  k0_off29_inb : ∀ i : grid0.Coords, ∀ a, (k0_off29 i) a + S1.size a ≤ S131072.size a
  k0_off31_inb : ∀ i : grid0.Coords, ∀ a, (k0_off31 i) a + S1.size a ≤ S131072.size a
  k0_off33_inb : ∀ i : grid0.Coords, ∀ a, (k0_off33 i) a + S1.size a ≤ S131072.size a
  k0_off35_inb : ∀ i : grid0.Coords, ∀ a, (k0_off35 i) a + S1.size a ≤ S131072.size a
  k0_off37_inb : ∀ i : grid0.Coords, ∀ a, (k0_off37 i) a + S1.size a ≤ S131072.size a
  k0_off39_inb : ∀ i : grid0.Coords, ∀ a, (k0_off39 i) a + S1.size a ≤ S131072.size a
  k0_off41_inb : ∀ i : grid0.Coords, ∀ a, (k0_off41 i) a + S1.size a ≤ S131072.size a
  k0_off43_inb : ∀ i : grid0.Coords, ∀ a, (k0_off43 i) a + S1.size a ≤ S131072.size a
  k0_off45_inb : ∀ i : grid0.Coords, ∀ a, (k0_off45 i) a + S1.size a ≤ S131072.size a
  k0_off47_inb : ∀ i : grid0.Coords, ∀ a, (k0_off47 i) a + S1.size a ≤ S131072.size a
  k0_off49_inb : ∀ i : grid0.Coords, ∀ a, (k0_off49 i) a + S1.size a ≤ S131072.size a
  k0_off51_inb : ∀ i : grid0.Coords, ∀ a, (k0_off51 i) a + S1.size a ≤ S131072.size a
  k0_off53_inb : ∀ i : grid0.Coords, ∀ a, (k0_off53 i) a + S1.size a ≤ S131072.size a
  k0_off55_inb : ∀ i : grid0.Coords, ∀ a, (k0_off55 i) a + S1.size a ≤ S131072.size a
  k0_off57_inb : ∀ i : grid0.Coords, ∀ a, (k0_off57 i) a + S1.size a ≤ S131072.size a
  k0_off59_inb : ∀ i : grid0.Coords, ∀ a, (k0_off59 i) a + S1.size a ≤ S131072.size a
  k0_off61_inb : ∀ i : grid0.Coords, ∀ a, (k0_off61 i) a + S1.size a ≤ S131072.size a
  k0_off63_inb : ∀ i : grid0.Coords, ∀ a, (k0_off63 i) a + S1.size a ≤ S131072.size a
  k0_off65_inb : ∀ i : grid0.Coords, ∀ a, (k0_off65 i) a + S1.size a ≤ S131072.size a
  k0_off67_inb : ∀ i : grid0.Coords, ∀ a, (k0_off67 i) a + S1.size a ≤ S131072.size a
  k0_off69_inb : ∀ i : grid0.Coords, ∀ a, (k0_off69 i) a + S1.size a ≤ S131072.size a
  k0_off71_inb : ∀ i : grid0.Coords, ∀ a, (k0_off71 i) a + S1.size a ≤ S131072.size a
  k0_off73_inb : ∀ i : grid0.Coords, ∀ a, (k0_off73 i) a + S1.size a ≤ S131072.size a
  k0_off75_inb : ∀ i : grid0.Coords, ∀ a, (k0_off75 i) a + S1.size a ≤ S131072.size a
  k0_off77_inb : ∀ i : grid0.Coords, ∀ a, (k0_off77 i) a + S1.size a ≤ S131072.size a
  k0_off79_inb : ∀ i : grid0.Coords, ∀ a, (k0_off79 i) a + S1.size a ≤ S131072.size a
  k0_off81_inb : ∀ i : grid0.Coords, ∀ a, (k0_off81 i) a + S1.size a ≤ S131072.size a
  k0_off83_inb : ∀ i : grid0.Coords, ∀ a, (k0_off83 i) a + S1.size a ≤ S131072.size a
  k0_off85_inb : ∀ i : grid0.Coords, ∀ a, (k0_off85 i) a + S1.size a ≤ S131072.size a
  k0_off87_inb : ∀ i : grid0.Coords, ∀ a, (k0_off87 i) a + S1.size a ≤ S131072.size a
  k0_off89_inb : ∀ i : grid0.Coords, ∀ a, (k0_off89 i) a + S1.size a ≤ S131072.size a
  k0_off91_inb : ∀ i : grid0.Coords, ∀ a, (k0_off91 i) a + S1.size a ≤ S131072.size a
  k0_off93_inb : ∀ i : grid0.Coords, ∀ a, (k0_off93 i) a + S1.size a ≤ S131072.size a
  k0_off95_inb : ∀ i : grid0.Coords, ∀ a, (k0_off95 i) a + S1.size a ≤ S131072.size a
  k0_off97_inb : ∀ i : grid0.Coords, ∀ a, (k0_off97 i) a + S1.size a ≤ S131072.size a
  k0_off99_inb : ∀ i : grid0.Coords, ∀ a, (k0_off99 i) a + S1.size a ≤ S131072.size a
  k0_off101_inb : ∀ i : grid0.Coords, ∀ a, (k0_off101 i) a + S1.size a ≤ S131072.size a
  k0_off103_inb : ∀ i : grid0.Coords, ∀ a, (k0_off103 i) a + S1.size a ≤ S131072.size a
  k0_off105_inb : ∀ i : grid0.Coords, ∀ a, (k0_off105 i) a + S1.size a ≤ S131072.size a
  k0_off107_inb : ∀ i : grid0.Coords, ∀ a, (k0_off107 i) a + S1.size a ≤ S131072.size a
  k0_off109_inb : ∀ i : grid0.Coords, ∀ a, (k0_off109 i) a + S1.size a ≤ S131072.size a
  k0_off111_inb : ∀ i : grid0.Coords, ∀ a, (k0_off111 i) a + S1.size a ≤ S131072.size a
  k0_off113_inb : ∀ i : grid0.Coords, ∀ a, (k0_off113 i) a + S1.size a ≤ S131072.size a
  k0_off115_inb : ∀ i : grid0.Coords, ∀ a, (k0_off115 i) a + S1.size a ≤ S131072.size a
  k0_off117_inb : ∀ i : grid0.Coords, ∀ a, (k0_off117 i) a + S1.size a ≤ S131072.size a
  k0_off119_inb : ∀ i : grid0.Coords, ∀ a, (k0_off119 i) a + S1.size a ≤ S131072.size a
  k0_off121_inb : ∀ i : grid0.Coords, ∀ a, (k0_off121 i) a + S1.size a ≤ S131072.size a
  k0_off123_inb : ∀ i : grid0.Coords, ∀ a, (k0_off123 i) a + S1.size a ≤ S131072.size a
  k0_off125_inb : ∀ i : grid0.Coords, ∀ a, (k0_off125 i) a + S1.size a ≤ S131072.size a
  k0_off127_inb : ∀ i : grid0.Coords, ∀ a, (k0_off127 i) a + S1.size a ≤ S131072.size a
  k0_off129_inb : ∀ i : grid0.Coords, ∀ a, (k0_off129 i) a + S1.size a ≤ S131072.size a
  k0_off131_inb : ∀ i : grid0.Coords, ∀ a, (k0_off131 i) a + S1.size a ≤ S131072.size a
  k0_off133_inb : ∀ i : grid0.Coords, ∀ a, (k0_off133 i) a + S1.size a ≤ S131072.size a
  k0_off135_inb : ∀ i : grid0.Coords, ∀ a, (k0_off135 i) a + S1.size a ≤ S131072.size a
  k0_off137_inb : ∀ i : grid0.Coords, ∀ a, (k0_off137 i) a + S1.size a ≤ S131072.size a
  k0_off139_inb : ∀ i : grid0.Coords, ∀ a, (k0_off139 i) a + S1.size a ≤ S131072.size a
  k0_off141_inb : ∀ i : grid0.Coords, ∀ a, (k0_off141 i) a + S1.size a ≤ S131072.size a
  k0_off143_inb : ∀ i : grid0.Coords, ∀ a, (k0_off143 i) a + S1.size a ≤ S131072.size a
  k0_off145_inb : ∀ i : grid0.Coords, ∀ a, (k0_off145 i) a + S1.size a ≤ S131072.size a
  k0_off147_inb : ∀ i : grid0.Coords, ∀ a, (k0_off147 i) a + S1.size a ≤ S131072.size a
  k0_off149_inb : ∀ i : grid0.Coords, ∀ a, (k0_off149 i) a + S1.size a ≤ S131072.size a
  k0_off151_inb : ∀ i : grid0.Coords, ∀ a, (k0_off151 i) a + S1.size a ≤ S131072.size a
  k0_off153_inb : ∀ i : grid0.Coords, ∀ a, (k0_off153 i) a + S1.size a ≤ S131072.size a
  k0_off155_inb : ∀ i : grid0.Coords, ∀ a, (k0_off155 i) a + S1.size a ≤ S131072.size a
  k0_off157_inb : ∀ i : grid0.Coords, ∀ a, (k0_off157 i) a + S1.size a ≤ S131072.size a
  k0_off159_inb : ∀ i : grid0.Coords, ∀ a, (k0_off159 i) a + S1.size a ≤ S131072.size a
  k0_off161_inb : ∀ i : grid0.Coords, ∀ a, (k0_off161 i) a + S1.size a ≤ S131072.size a
  k0_off163_inb : ∀ i : grid0.Coords, ∀ a, (k0_off163 i) a + S1.size a ≤ S131072.size a
  k0_off165_inb : ∀ i : grid0.Coords, ∀ a, (k0_off165 i) a + S1.size a ≤ S131072.size a
  k0_off167_inb : ∀ i : grid0.Coords, ∀ a, (k0_off167 i) a + S1.size a ≤ S131072.size a
  k0_off169_inb : ∀ i : grid0.Coords, ∀ a, (k0_off169 i) a + S1.size a ≤ S131072.size a
  k0_off171_inb : ∀ i : grid0.Coords, ∀ a, (k0_off171 i) a + S1.size a ≤ S131072.size a
  k0_off173_inb : ∀ i : grid0.Coords, ∀ a, (k0_off173 i) a + S1.size a ≤ S131072.size a
  k0_off175_inb : ∀ i : grid0.Coords, ∀ a, (k0_off175 i) a + S1.size a ≤ S131072.size a
  k0_off177_inb : ∀ i : grid0.Coords, ∀ a, (k0_off177 i) a + S1.size a ≤ S131072.size a
  k0_off179_inb : ∀ i : grid0.Coords, ∀ a, (k0_off179 i) a + S1.size a ≤ S131072.size a
  k0_off181_inb : ∀ i : grid0.Coords, ∀ a, (k0_off181 i) a + S1.size a ≤ S131072.size a
  k0_off183_inb : ∀ i : grid0.Coords, ∀ a, (k0_off183 i) a + S1.size a ≤ S131072.size a
  k0_off185_inb : ∀ i : grid0.Coords, ∀ a, (k0_off185 i) a + S1.size a ≤ S131072.size a
  k0_off187_inb : ∀ i : grid0.Coords, ∀ a, (k0_off187 i) a + S1.size a ≤ S131072.size a
  k0_off189_inb : ∀ i : grid0.Coords, ∀ a, (k0_off189 i) a + S1.size a ≤ S131072.size a
  k0_off191_inb : ∀ i : grid0.Coords, ∀ a, (k0_off191 i) a + S1.size a ≤ S131072.size a
  k0_off193_inb : ∀ i : grid0.Coords, ∀ a, (k0_off193 i) a + S1.size a ≤ S131072.size a
  k0_off195_inb : ∀ i : grid0.Coords, ∀ a, (k0_off195 i) a + S1.size a ≤ S131072.size a
  k0_off197_inb : ∀ i : grid0.Coords, ∀ a, (k0_off197 i) a + S1.size a ≤ S131072.size a
  k0_off199_inb : ∀ i : grid0.Coords, ∀ a, (k0_off199 i) a + S1.size a ≤ S131072.size a
  k0_off201_inb : ∀ i : grid0.Coords, ∀ a, (k0_off201 i) a + S1.size a ≤ S131072.size a
  k0_off203_inb : ∀ i : grid0.Coords, ∀ a, (k0_off203 i) a + S1.size a ≤ S131072.size a
  k0_off205_inb : ∀ i : grid0.Coords, ∀ a, (k0_off205 i) a + S1.size a ≤ S131072.size a
  k0_off207_inb : ∀ i : grid0.Coords, ∀ a, (k0_off207 i) a + S1.size a ≤ S131072.size a
  k0_off209_inb : ∀ i : grid0.Coords, ∀ a, (k0_off209 i) a + S1.size a ≤ S131072.size a
  k0_off211_inb : ∀ i : grid0.Coords, ∀ a, (k0_off211 i) a + S1.size a ≤ S131072.size a
  k0_off213_inb : ∀ i : grid0.Coords, ∀ a, (k0_off213 i) a + S1.size a ≤ S131072.size a
  k0_off215_inb : ∀ i : grid0.Coords, ∀ a, (k0_off215 i) a + S1.size a ≤ S131072.size a
  k0_off217_inb : ∀ i : grid0.Coords, ∀ a, (k0_off217 i) a + S1.size a ≤ S131072.size a
  k0_off219_inb : ∀ i : grid0.Coords, ∀ a, (k0_off219 i) a + S1.size a ≤ S131072.size a
  k0_off221_inb : ∀ i : grid0.Coords, ∀ a, (k0_off221 i) a + S1.size a ≤ S131072.size a
  k0_off223_inb : ∀ i : grid0.Coords, ∀ a, (k0_off223 i) a + S1.size a ≤ S131072.size a
  k0_off225_inb : ∀ i : grid0.Coords, ∀ a, (k0_off225 i) a + S1.size a ≤ S131072.size a
  k0_off227_inb : ∀ i : grid0.Coords, ∀ a, (k0_off227 i) a + S1.size a ≤ S131072.size a
  k0_off229_inb : ∀ i : grid0.Coords, ∀ a, (k0_off229 i) a + S1.size a ≤ S131072.size a
  k0_off231_inb : ∀ i : grid0.Coords, ∀ a, (k0_off231 i) a + S1.size a ≤ S131072.size a
  k0_off233_inb : ∀ i : grid0.Coords, ∀ a, (k0_off233 i) a + S1.size a ≤ S131072.size a
  k0_off235_inb : ∀ i : grid0.Coords, ∀ a, (k0_off235 i) a + S1.size a ≤ S131072.size a
  k0_off237_inb : ∀ i : grid0.Coords, ∀ a, (k0_off237 i) a + S1.size a ≤ S131072.size a
  k0_off239_inb : ∀ i : grid0.Coords, ∀ a, (k0_off239 i) a + S1.size a ≤ S131072.size a
  k0_off241_inb : ∀ i : grid0.Coords, ∀ a, (k0_off241 i) a + S1.size a ≤ S131072.size a
  k0_off243_inb : ∀ i : grid0.Coords, ∀ a, (k0_off243 i) a + S1.size a ≤ S131072.size a
  k0_off245_inb : ∀ i : grid0.Coords, ∀ a, (k0_off245 i) a + S1.size a ≤ S131072.size a
  k0_off247_inb : ∀ i : grid0.Coords, ∀ a, (k0_off247 i) a + S1.size a ≤ S131072.size a
  k0_off249_inb : ∀ i : grid0.Coords, ∀ a, (k0_off249 i) a + S1.size a ≤ S131072.size a
  k0_off251_inb : ∀ i : grid0.Coords, ∀ a, (k0_off251 i) a + S1.size a ≤ S131072.size a
  k0_off253_inb : ∀ i : grid0.Coords, ∀ a, (k0_off253 i) a + S1.size a ≤ S131072.size a
  k0_off255_inb : ∀ i : grid0.Coords, ∀ a, (k0_off255 i) a + S1.size a ≤ S131072.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S8x512.size a ≤ S100000x512.size a
  hwx0_0 : ∀ i : grid0.Coords, EltTy.bits .f32 = 32 ∨ (Rect.block (s := S100000x512) S8x512.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S8x16.size a ≤ S8192x16.size a
  hwx0_1 : ∀ i : grid0.Coords, EltTy.bits .f32 = 32 ∨ (Rect.block (s := S8192x16) S8x16.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S1x512.size a ≤ S1x512.size a
  hwx0_2 : ∀ i : grid0.Coords, EltTy.bits .f32 = 32 ∨ (Rect.block (s := S1x512) S1x512.size (cc0_transform_3 i) (hinb0_2 i)).WholeWords (EltTy.packing .f32)

variable [Facts₀]

abbrev cc0_scratch1 : DmaSems sig S2 := SemArray.consecutive 5 S2 hcc0_scratch1

abbrev spec0_0 : Pipeline.WinSpec sig grid0.rank :=
  Pipeline.WinSpec.ofSpec (Memref.whole main_arg0) S8x512.size reads0_0 false false 2 stage0_0 sem0_0 nbuf0_0 hstage0_0

abbrev spec0_1 : Pipeline.WinSpec sig grid0.rank :=
  Pipeline.WinSpec.ofSpec (Memref.whole main_v3_0) S8x16.size reads0_1 true false 2 stage0_1 sem0_1 nbuf0_1 hstage0_1

abbrev spec0_2 : Pipeline.WinSpec sig grid0.rank :=
  Pipeline.WinSpec.ofSpec (Memref.whole main_v3_1) S1x512.size reads0_2 true true 1 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_1 | 1 => cc0_transform_2 | 2 => cc0_transform_3 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S100000x512 : Shape := ⟨2, ![100000, 512]⟩
abbrev S8192x16 : Shape := ⟨2, ![8192, 16]⟩
abbrev S8192 : Shape := ⟨1, ![8192]⟩
abbrev S_ : Shape := ⟨0, ![]⟩
abbrev S8192x16x1 : Shape := ⟨3, ![8192, 16, 1]⟩
abbrev S8192x16x512 : Shape := ⟨3, ![8192, 16, 512]⟩
abbrev S8192x512 : Shape := ⟨2, ![8192, 512]⟩
abbrev S8192x1x512 : Shape := ⟨3, ![8192, 1, 512]⟩
abbrev S8192x1 : Shape := ⟨2, ![8192, 1]⟩
abbrev S512 : Shape := ⟨1, ![512]⟩

abbrev nBuf : Space → Nat
  | .hbm => 63
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S8192x16, .f32⟩
  | .hbm, ⟨2, _⟩ => ⟨S8192, .f32⟩
  | .hbm, ⟨3, _⟩ => ⟨S_, .f32⟩
  | .hbm, ⟨4, _⟩ => ⟨S8192x16, .f32⟩
  | .hbm, ⟨5, _⟩ => ⟨S8192x16, .i1⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S8192x16, .i32⟩
  | .hbm, ⟨10, _⟩ => ⟨S_, .i32⟩
  | .hbm, ⟨11, _⟩ => ⟨S8192x16, .i32⟩
  | .hbm, ⟨12, _⟩ => ⟨S8192x16, .i1⟩
  | .hbm, ⟨13, _⟩ => ⟨S_, .i32⟩
  | .hbm, ⟨14, _⟩ => ⟨S8192x16, .i32⟩
  | .hbm, ⟨15, _⟩ => ⟨S8192x16, .i32⟩
  | .hbm, ⟨16, _⟩ => ⟨S8192x16, .i32⟩
  | .hbm, ⟨17, _⟩ => ⟨S8192x16x1, .i32⟩
  | .hbm, ⟨18, _⟩ => ⟨S8192x16x512, .f32⟩
  | .hbm, ⟨19, _⟩ => ⟨S8192x512, .f32⟩
  | .hbm, ⟨20, _⟩ => ⟨S8192x1x512, .f32⟩
  | .hbm, ⟨21, _⟩ => ⟨S8192x16x512, .f32⟩
  | .hbm, ⟨22, _⟩ => ⟨S8192x16x512, .f32⟩
  | .hbm, ⟨23, _⟩ => ⟨S_, .f32⟩
  | .hbm, ⟨24, _⟩ => ⟨S8192x16, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x16, .f32⟩
  | .hbm, ⟨42, _⟩ => ⟨S8192x16, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8192x512, .f32⟩
  | .hbm, ⟨51, _⟩ => ⟨S_, .f32⟩
  | .hbm, ⟨52, _⟩ => ⟨S512, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_cst_10 : Ref sig .tc := ⟨.hbm, 53, rfl⟩
abbrev main_v31 : Ref sig .tc := ⟨.hbm, 54, rfl⟩
abbrev main_cst_11 : Ref sig .tc := ⟨.hbm, 55, rfl⟩
abbrev main_v32 : Ref sig .tc := ⟨.hbm, 56, rfl⟩
abbrev main_v33 : Ref sig .tc := ⟨.hbm, 57, rfl⟩
abbrev main_cst_12 : Ref sig .tc := ⟨.hbm, 58, rfl⟩
abbrev main_v34 : Ref sig .tc := ⟨.hbm, 59, rfl⟩
abbrev main_v35 : Ref sig .tc := ⟨.hbm, 60, rfl⟩
abbrev main_cst_13 : Ref sig .tc := ⟨.hbm, 61, rfl⟩
abbrev main_v36 : Ref sig .tc := ⟨.hbm, 62, rfl⟩

abbrev nD : Nat := 1
abbrev τ : Topo := Topo.v7x

variable {F : FTy → Type} [FloatOps F]

class Facts₀ : Prop where
  bcast_S_S8192x16 : S_.BroadcastsInDim S8192x16 (![] : Fin 0 → Fin S8192x16.rank)
  bcast_S8192x16_S8192x16x1_0_1 : S8192x16.BroadcastsInDim S8192x16x1 (![0, 1] : Fin 2 → Fin S8192x16x1.rank)
  slices_S100000x512_S8192x512_0_0 : S100000x512.Slices ![0, 0] S8192x512
  bcast_S8192x512_S8192x1x512_0_2 : S8192x512.BroadcastsInDim S8192x1x512 (![0, 2] : Fin 2 → Fin S8192x1x512.rank)
  bcast_S8192x1x512_S8192x16x512_0_1_2 : S8192x1x512.BroadcastsInDim S8192x16x512 (![0, 1, 2] : Fin 3 → Fin S8192x16x512.rank)
  reducesTo_S8192x16x512_S8192x16_d2 : S8192x16x512.ReducesTo [2] S8192x16
  h_S_ : 0 < S_.numel
  reducesTo_S8192x16_S8192_d1 : S8192x16.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  reducesTo_S8192x16_S_d0_1 : S8192x16.ReducesTo [0, 1] S_
  reducesTo_S8192x512_S512_d0 : S8192x512.ReducesTo [0] S512
  reducesTo_S512_S_d0 : S512.ReducesTo [0] S_
  gather_S100000x512_S8192x16x1_S8192x16x512_2_0_n_n_0_2_1512_wf : GatherDims.WF S100000x512 S8192x16x1 S8192x16x512 [2] [0] [] [0] [] 2 ![1, 512]

variable [Facts₀]

def gather_S100000x512_S8192x16x1_S8192x16x512_2_0_n_n_0_2_1512 : GatherDims S100000x512 S8192x16x1 S8192x16x512 where
  offsetDims := [2]
  collapsedSliceDims := [0]
  operandBatchingDims := []
  startIndicesBatchingDims := []
  startIndexMap := [0]
  indexVectorDim := 2
  sliceSizes := ![1, 512]
  wf := gather_S100000x512_S8192x16x1_S8192x16x512_2_0_n_n_0_2_1512_wf

class Facts : Prop extends Facts₀ where

variable [Facts]
-- ==== Proof.BodyCommonBits.lean ====
/-
  What the body of the row-gather kernel is handed at a grid point and what it gives back, named once.
  The body reads a table of 131072 row indices (the truncated entries of y, flattened), 128 of them per
  point: entry 128·i + 16·b + k names the row of the 100000 × 512 array that is copied into a two-slot
  buffer and added to row b of the point's 8 × 512 block. Each copy reads one whole row, so it is inside
  the array exactly when its index is below 100000; that bound, for every word of the table, is the one
  fact the body needs about the table.
-/
import proofs.«106441_j1580547974259_1_alg».proof.Proof.Gen.Kernel.Skeleton
import proofs.«106441_j1580547974259_1_alg».proof.Proof.Gen.Kernel.Launch
import Idealize.ShloMosaic.Lib.Pipeline.Frame
import Idealize.ShloMosaic.Lib.Tactic
import Idealize.ShloMosaic.Lib.Exec

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The table of row indices as the body is handed it: the whole scalar-memory buffer. -/
abbrev tbM : Memref sig .tc .smem S131072 .i32 := Memref.whole main_v2
abbrev htbM : (tbM).IsWhole := Memref.isWhole_whole _
/-- The array of rows, left where it is: the body copies single rows out of it. -/
abbrev hbM : Memref sig .tc .hbm S100000x512 .f32 := Memref.whole main_arg0
abbrev hhbM : (hbM).IsWhole := Memref.isWhole_whole _

/-- A buffer's contents type on core c, and the buffer held whole at a share: the table at the half the
    body is lent, the array of rows at the half the block fetches leave free. -/
abbrev BufOf (c : Dev nD) {sp : Space} {S : Shape} {e : EltTy} (M : Memref sig .tc sp S e) : Type := Buf (Elt F) (M.view.loc (c : Thread nD τ))
abbrev heldAt (c : Dev nD) (q : PosShare TreeShare) {sp : Space} {S : Shape} {e : EltTy} (M : Memref sig .tc sp S e) (f : BufOf (F := F) c M) : sProp 𝕄 :=
  M.view.loc (c : Thread nD τ) ↦{q} f

/-- Whether the point is the first one, as the body computes it from its coordinate. -/
abbrev isFirst (i : grid0.Coords) : Prop :=
  Scalar.cmpi .ne (Scalar.extui (Scalar.cmpi .eq (BitVec.ofNat 32 (i 0).val) 0#32)) 0#32 = 1#1

/-- A row index below 100000 names a whole row inside the array: the copy's one side condition. -/
theorem row_inside (v : BitVec 32) (h : v.toNat < 100000) :
    ∀ a : Fin 2, (![v.toNat, 0] : Fin 2 → Nat) a + S1x512.size a ≤ S100000x512.size a := by
  intro a; fin_cases a
  · show v.toNat + 1 ≤ 100000; omega
  · show 0 + 512 ≤ 512; omega

/-- Every word of the table, however the body reads it, is a row index below 100000. -/
abbrev RowsBelow (c : Dev nD) (xt : BufOf (F := F) c tbM) : Prop :=
  ∀ (r : LoadRect S131072) (j : r.shape.Idx), ((tbM).view.readAt (Elt F) r xt j).toNat < 100000

end Cert.Kernel.Body

end
-- ==== Proof.RegionStateBits.lean ====
/-
  The row-gather region seen from outside the body: the table's contents when the region is entered, the
  pipeline at those contents, the windows' buffers at a point, when each output window is written back,
  and what the body keeps between grid points — its two-slot buffer, its two copy counters at zero, the
  table, and the half of the array of rows that the block fetches leave free.
-/
import proofs.«106441_j1580547974259_1_alg».proof.Proof.BodyCommonBits
import Idealize.ShloMosaic.Lib.Pipeline.Regions
import Idealize.ShloMosaic.Lib.Pipeline.FrameBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

-- what core c's buffers hold when the region is entered
variable (V : (c : Dev nD) → (b : Ref sig .tc) → Buf (Elt F) ((c : Thread nD τ).loc b))

/-- The table's contents at entry (there is one device). -/
def tbl : pre0.Contents (Elt F) := fun j => V (0 : Dev nD) (pre0.ref j)
theorem V_pre (c : Dev nD) (j : Fin 1) : V c (pre0.ref j) = tbl V j := by
  obtain rfl : c = 0 := Subsingleton.elim _ _; rfl
/-- The pipeline at those contents: no index map reads the table, so every contents is admissible. -/
abbrev adm : (pcfg0 (F := F)).Adm := ⟨tbl V, trivial⟩
abbrev cfgM : Pipeline.Cfg sig Λ₀ := cfg0 (adm V)

/-- A window's block at a point, read off its array as the region finds it. -/
def iblk (c : Dev nD) (w : Fin (cfgM V).W) (t : Fin (cfgM V).N) : (((cfgM V).win w).xblock ((cfgM V).grid.coords t)).Idx → Elt F ((cfgM V).win w).elt :=
  (((cfgM V).win w).blk t).view.read (Elt F) (V c (Pipeline.arrRef spec0 w))

/-- The block of rows sits in its buffer at every point, fetched there or not: the body only reads it. -/
theorem before_rows_of {c : Dev nD} (dat : Dat τ (Elt F) Unit ℕ (Pipeline.UD sig nD τ) ℕ (cfgM V) c) (hA : dat.A 0 = V c (Pipeline.arrRef spec0 0))
    (hafter : ∀ t, dat.after 0 t = iblk V c 0 t) (t : Fin (cfgM V).N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The current buffers of the three windows at a point, and the two-slot buffer. -/
abbrev ms0 (t : Fin (cfgM V).N) : Memref sig .tc .vmem S8x512 .f32 := spec0_0.stage ((cfgM V).slots t 0)
abbrev hs0 (t : Fin (cfgM V).N) : (ms0 V t).IsWhole := hstage0_0 (((cfgM V).slots t 0).cast nbuf0_0)
abbrev ms1 (t : Fin (cfgM V).N) : Memref sig .tc .vmem S8x16 .f32 := spec0_1.stage ((cfgM V).slots t 1)
abbrev hs1 (t : Fin (cfgM V).N) : (ms1 V t).IsWhole := hstage0_1 (((cfgM V).slots t 1).cast nbuf0_1)
abbrev ms2 (t : Fin (cfgM V).N) : Memref sig .tc .vmem S1x512 .f32 := spec0_2.stage ((cfgM V).slots t 2)
abbrev hs2 (t : Fin (cfgM V).N) : (ms2 V t).IsWhole := hstage0_2 (((cfgM V).slots t 2).cast nbuf0_2)
abbrev scM : Memref sig .tc .vmem S2x512 .f32 := Memref.whole cc0_scratch0
abbrev hscM : (scM).IsWhole := Memref.isWhole_whole _
abbrev VO1 : View sig .tc .vmem S8x16 .f32 := (Memref.whole cc0_stg1_0 : Memref sig .tc .vmem S8x16 .f32).view
abbrev VO2 : View sig .tc .vmem S1x512 .f32 := (Memref.whole cc0_stg2_0 : Memref sig .tc .vmem S1x512 .f32).view

/-- The body's first-point test holds at point 0 only; the maxima are written back at every point, the
    column sums after the last only — at any contents of the table. -/
theorem first_iff (a : (pcfg0 (F := F)).Adm) : ∀ t : Fin (cfg0 a).N, isFirst (grid0.coords t) ↔ t.val = 0 :=
  (by decide +kernel : ∀ t : Fin grid0.N, isFirst (grid0.coords t) ↔ t.val = 0)
theorem flush_max (a : (pcfg0 (F := F)).Adm) : ∀ t : Fin (cfg0 a).N, ((cfg0 a).win 1).flush t = true :=
  (by decide +kernel : ∀ t : Fin grid0.N, Pipeline.Window.flushOf grid0 true cc0_transform_2 t = true)
theorem flush_sums (a : (pcfg0 (F := F)).Adm) : ∀ t : Fin (cfg0 a).N, ((cfg0 a).win 2).flush t = true ↔ t.val = 1023 :=
  (by decide +kernel : ∀ t : Fin grid0.N, Pipeline.Window.flushOf grid0 true cc0_transform_3 t = true ↔ t.val = 1023)
theorem N_eq (a : (pcfg0 (F := F)).Adm) : (cfg0 a).N = 1024 := N_0

/-- The body's own two copy counters. -/
abbrev osem : Fin 2 → SemLoc sig := fun j => (![SemLoc.dma 5, SemLoc.dma 6] : Fin 2 → SemLoc sig) j
theorem ownSemFacts : Pipeline.OwnSemFacts spec0 osem := by decide

/-- What the body keeps between points. -/
def Phi (c : Dev nD) : sProp 𝕄 :=
  iprop(Pipeline.scopedRest spec0 c ∗ Pipeline.ownSems0 osem c ∗ Pipeline.prefHeld pre0 c (fun _ => fullShare) (tbl V)
    ∗ heldAt c fullShare.right hbM (V c main_arg0))

/-- The share of each input array the block fetches hold: half of the array of rows. -/
def shareOf : Fin 3 → PosShare TreeShare
  | ⟨0, _⟩ => fullShare.left
  | ⟨1, _⟩ => fullShare
  | ⟨2, _⟩ => fullShare

end Cert.Kernel.Body

end
-- ==== Proof.RowsInRange.lean ====
/-
  The row indices lie in the table. The row indices are the 32-bit words
  `int32(trunc y)` of the argument `y : f32[8192,16]`, where `trunc y` is `ceil y` where `y < 0` and `floor y`
  elsewhere. The precondition computes these same words and states, by a reduction with `and` over all of
  them, that each is at least 0 and below 100000 as a SIGNED word. Here that statement is read back: every index
  word, read UNSIGNED, is below 100000, so it names a row of an array of 100000 rows. A signed word that is
  at least 0 has its top bit clear, so its signed and unsigned readings agree; the signed bound is then the
  unsigned one. Everything is stated for an arbitrary float instance: only integer comparisons of the
  converted words are used, nothing of the conversion itself.
-/
import proofs.«106441_j1580547974259_1_alg».proof.Pre_finite_inputs
import proofs.«106441_j1580547974259_1_alg».proof.Proof.Gen.Pre_finite_inputs
import Idealize.ShloMosaic.Lib.ReduceAll
import Idealize.ShloMosaic.Lib.ValueIdx

noncomputable section

namespace Cert.RowsInRange

open Idealize.ShloMosaic
open Cert.Pre_finite_inputs

/-- The shape of a scalar has exactly one index. -/
instance subsingleton_scalar_idx : Subsingleton S_.Idx := ⟨fun a b => funext fun d => d.elim0⟩

/-- The index words as a function of `y`: `int32(trunc y)`, with `trunc` spelled as the precondition spells it
    (`ceil` where `y < 0`, `floor` elsewhere). -/
def rows {F : FTy → Type} [FloatOps F] (y : FVec F S8192x16 .f32) : IVec S8192x16 32 :=
  fptosi 32 (select (cmpf .olt y (broadcastInDim S8192x16 ![] Facts.bcast_S_S8192x16 (constant S_ .f32 0x00000000#32)))
    (Host.ceil y) (Host.floor y))

/-- A 32-bit word that is, signed, at least 0 and below 100000 is below 100000 unsigned: nonnegative means the
    top bit is clear, and then both readings are the same number. -/
theorem toNat_lt_of_signed (v : BitVec 32) (h0 : IntOp.cmpi .sge v 0#32 = 1#1) (h1 : IntOp.cmpi .slt v 100000#32 = 1#1) :
    v.toNat < 100000 := by
  have hpos : 2 * v.toNat < 2 ^ 32 := (Scalar.nonneg_iff v).1 h0
  have hlt : v.toInt < (100000#32 : BitVec 32).toInt := IntOp.cmpi_slt.1 h1
  rw [BitVec.toInt_eq_toNat_of_lt hpos, show (100000#32 : BitVec 32).toInt = ((100000 : Nat) : Int) from rfl] at hlt
  exact Int.ofNat_lt.1 hlt

/-- Under the precondition every index word is below 100000. The precondition is a conjunction whose last
    conjunct is the `and`-reduction, over all indices, of `0 ≤ rows y ∧ rows y < 100000` (signed); a reduction
    by `and` that came out 1 met a 1 at every index. -/
theorem rows_lt {F : FTy → Type} [FloatOps F] (a0 : FVec F S100000x512 .f32) (a1 : FVec F S8192x16 .f32) (a2 : FVec F S8192 .f32)
    (h : Cert.Pre_finite_inputs.fn (F := F) a0 a1 a2 = (fun _ => 1#1)) :
    ∀ i : S8192x16.Idx, ((rows a1) i).toNat < 100000 := by
  intro i
  have e := congrFun h ValueIdx.ix0
  dsimp only [Cert.Pre_finite_inputs.fn, Cert.Pre_finite_inputs.fn_part1] at e
  have e2 := (IntOp.andi_eq_one.1 e).2
  have e3 := Host.reduce_andi_all _ _ _ _ _ e2 i
  obtain ⟨hge, hlt⟩ := IntOp.andi_eq_one.1 e3
  exact toNat_lt_of_signed (rows a1 i) hge hlt

/-- The same in the form a bounds check takes: the row after the one named still lies within 100000 rows. -/
theorem rows_succ_le {F : FTy → Type} [FloatOps F] (a0 : FVec F S100000x512 .f32) (a1 : FVec F S8192x16 .f32) (a2 : FVec F S8192 .f32)
    (h : Cert.Pre_finite_inputs.fn (F := F) a0 a1 a2 = (fun _ => 1#1)) (i : S8192x16.Idx) :
    ((rows a1) i).toNat + 1 ≤ 100000 :=
  rows_lt a0 a1 a2 h i

/-- The index words laid out under any other shape of the same number of elements (the flat table of 131072
    words is one): a change of shape only re-indexes, word `k` of the result is word `reshapeEquiv k` of `rows y`. -/
theorem shapeCast_rows_apply {F : FTy → Type} [FloatOps F] (a1 : FVec F S8192x16 .f32) (t : Shape) (hc : S8192x16.ShapeCasts t)
    (k : t.Idx) : shapeCast t (rows a1) hc k = rows a1 (Shape.reshapeEquiv hc k) := rfl

/-- Under the precondition every word of the re-shaped table is below 100000. -/
theorem table_lt {F : FTy → Type} [FloatOps F] (a0 : FVec F S100000x512 .f32) (a1 : FVec F S8192x16 .f32) (a2 : FVec F S8192 .f32)
    (h : Cert.Pre_finite_inputs.fn (F := F) a0 a1 a2 = (fun _ => 1#1)) (t : Shape) (hc : S8192x16.ShapeCasts t) :
    ∀ k : t.Idx, (shapeCast t (rows a1) hc k).toNat < 100000 :=
  fun k => rows_lt a0 a1 a2 h (Shape.reshapeEquiv hc k)

/-- The re-shaped table in the form a bounds check takes. -/
theorem table_succ_le {F : FTy → Type} [FloatOps F] (a0 : FVec F S100000x512 .f32) (a1 : FVec F S8192x16 .f32) (a2 : FVec F S8192 .f32)
    (h : Cert.Pre_finite_inputs.fn (F := F) a0 a1 a2 = (fun _ => 1#1)) (t : Shape) (hc : S8192x16.ShapeCasts t) (k : t.Idx) :
    (shapeCast t (rows a1) hc k).toNat + 1 ≤ 100000 :=
  table_lt a0 a1 a2 h t hc k

/-- A block of one row and all 512 columns that starts at row `n`, column 0, of an array of 100000 rows and
    512 columns lies inside the array when `n < 100000`: along the rows `n + 1 ≤ 100000`, along the columns
    `0 + 512 ≤ 512`. -/
theorem block_inb (n : Nat) (hn : n < 100000) :
    ∀ a, (![n, 0] : Fin 2 → Nat) a + (⟨2, ![1, 512]⟩ : Shape).size a ≤ (⟨2, ![100000, 512]⟩ : Shape).size a := by
  intro a
  fin_cases a
  · show n + 1 ≤ 100000
    exact hn
  · show 0 + 512 ≤ 512
    exact Nat.le_refl _

end Cert.RowsInRange

end
-- ==== Proof.HostSideBits.lean ====
/-
  The host side of the program's run. The program is a chain of six items: two stretches of host operations (the
  truncation of the second argument; its conversion to 32-bit integers and flattening into the table the region
  prefetches), the kernel region, and three more stretches (the reductions and scalings that turn the region's two
  output arrays into the four results). Between items every unscoped buffer of a core is held whole at a VALUATION:
  the launch contents, then each stretch applied in turn, the region changing its two output arrays only, to contents
  `o0`, `o1` that are parameters here.

  This module proves everything about that chain that is not the region itself:
  * the valuations and what each stretch leaves unchanged (no item writes an argument);
  * the readings: the table the region is entered with is the flattened index words of the second argument; the four
    results are named pure functions (`kcost`, `kdiff`, `kb`, `kbooster`) of `o0`, `o1` and the third argument;
  * `run_cond`: GIVEN a record of the region, entered from the valuation before it and left at the one after it, the
    whole program terminates and every unscoped buffer ends at the last valuation.
  Everything is stated for an arbitrary float instance.
-/
import proofs.«106441_j1580547974259_1_alg».proof.Proof.Gen.Kernel.Launch
import proofs.«106441_j1580547974259_1_alg».proof.Proof.RowsInRange
import Idealize.ShloMosaic.Lib.Pipeline.Frame
import Idealize.ShloMosaic.Lib.Pipeline.Regions
import Idealize.ShloMosaic.Lib.StableHlo.Run

noncomputable section

namespace Cert.Kernel.HostSide

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between the items of the program -/

variable (m : (ℓ : Loc nD τ sig) → Buf (Elt F) ℓ)
variable (o0 : (c : Dev nD) → Buf (Elt F) ((c : Thread nD τ).loc main_v3_0))
variable (o1 : (c : Dev nD) → Buf (Elt F) ((c : Thread nD τ).loc main_v3_1))

/-- Core `c`'s unscoped buffers at launch. -/
abbrev V0 (c : Dev nD) : Valuation τ sig (Elt F) := fun b => m (c, b)
/-- After the first stretch (the truncation of the second argument). -/
abbrev V0a (c : Dev nD) : Valuation τ sig (Elt F) := StableHlo.after hostOps0 (V0 m c)
/-- After the second stretch (the conversion to integers and the flattening into the table): what the region is entered with. -/
abbrev V1 (c : Dev nD) : Valuation τ sig (Elt F) := StableHlo.after hostOps0_1 (V0a m c)
/-- After the region, which may change its two output arrays only: they hold `o0 c` and `o1 c`. -/
abbrev V2 (c : Dev nD) : Valuation τ sig (Elt F) :=
  Function.update (Function.update (V1 m c) main_v3_0 (o0 c)) main_v3_1 (o1 c)
/-- After the first stretch behind the region, -/
abbrev V2a (c : Dev nD) : Valuation τ sig (Elt F) := StableHlo.after hostOps1 (V2 m o0 o1 c)
/-- the second, -/
abbrev V2b (c : Dev nD) : Valuation τ sig (Elt F) := StableHlo.after hostOps1_1 (V2a m o0 o1 c)
/-- and the last: the contents the program ends with. -/
abbrev V3 (c : Dev nD) : Valuation τ sig (Elt F) := StableHlo.after hostOps1_2 (V2b m o0 o1 c)

/-! ## What each stretch writes -/

theorem hostOps0_fresh : (hostOps0 : List (HloOp τ sig (Elt F))).Forall fun op => op.fresh = ∅ := by
  simp only [List.Forall]; repeat' constructor
/-- The references the operations of `hostOps0` write, in order. -/
abbrev hostOps0_W : List (Ref sig .tc) := [main_call0_cst, main_call0_v0, main_call0_v1, main_call0_v2, main_call0_v3, main_v0]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)

theorem hostOps0_1_fresh : (hostOps0_1 : List (HloOp τ sig (Elt F))).Forall fun op => op.fresh = ∅ := by
  simp only [List.Forall]; repeat' constructor
/-- The references the operations of `hostOps0_1` write, in order. -/
abbrev hostOps0_1_W : List (Ref sig .tc) := [main_v1, main_v2]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_⟩ <;> exact List.mem_map_of_mem (by decide)

theorem hostOps1_fresh : (hostOps1 : List (HloOp τ sig (Elt F))).Forall fun op => op.fresh = ∅ := by
  simp only [List.Forall]; repeat' constructor
/-- The references the operations of `hostOps1` write, in order. -/
abbrev hostOps1_W : List (Ref sig .tc) := [main_v4, main_cst, main_v5, main_cst_0, main_v6, main_v7, main_cst_1, main_v8, main_v9, main_cst_2, main_v10, main_v11, main_cst_3]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_⟩ <;> exact List.mem_map_of_mem (by decide)

theorem hostOps1_1_fresh : (hostOps1_1 : List (HloOp τ sig (Elt F))).Forall fun op => op.fresh = ∅ := by
  simp only [List.Forall]; repeat' constructor
/-- The references the operations of `hostOps1_1` write, in order. -/
abbrev hostOps1_1_W : List (Ref sig .tc) := [main_call1_v0, main_call1_v1, main_v12]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_⟩ <;> exact List.mem_map_of_mem (by decide)

theorem hostOps1_2_fresh : (hostOps1_2 : List (HloOp τ sig (Elt F))).Forall fun op => op.fresh = ∅ := by
  simp only [List.Forall]; repeat' constructor
/-- The references the operations of `hostOps1_2` write, in order. -/
abbrev hostOps1_2_W : List (Ref sig .tc) := [main_v13, main_v14, main_v15, main_cst_4, main_v16, main_cst_5, main_v17, main_cst_6, main_v18, main_v19, main_cst_7, main_v20, main_cst_8, main_v21, main_v22, main_cst_9, main_v23, main_v24, main_cst_10, main_v25]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_⟩ <;> exact List.mem_map_of_mem (by decide)

/-! ## What each item leaves unchanged -/

theorem V0a_of (c : Dev nD) (r : Ref sig .tc) (h : r ∉ hostOps0_W) : V0a m c r = V0 m c r :=
  StableHlo.after_of_writes_sub hostOps0 _ hostOps0_writes h
theorem V1_of' (c : Dev nD) (r : Ref sig .tc) (h : r ∉ hostOps0_1_W) : V1 m c r = V0a m c r :=
  StableHlo.after_of_writes_sub hostOps0_1 _ hostOps0_1_writes h
/-- A buffer neither stretch before the region writes holds its launch contents when the region is entered. -/
theorem V1_of (c : Dev nD) (r : Ref sig .tc) (h : r ∉ hostOps0_W) (h' : r ∉ hostOps0_1_W) : V1 m c r = V0 m c r :=
  (V1_of' m c r h').trans (V0a_of m c r h)
/-- The region changes its two output arrays only. -/
theorem V2_of (c : Dev nD) (r : Ref sig .tc) (h : r ∉ ([main_v3_0, main_v3_1] : List (Ref sig .tc))) : V2 m o0 o1 c r = V1 m c r := by
  have h0 : r ≠ main_v3_0 := fun e => h (e ▸ List.mem_cons_self)
  have h1 : r ≠ main_v3_1 := fun e => h (e ▸ List.mem_cons_of_mem _ List.mem_cons_self)
  simp only [V2, Function.update_of_ne (StableHlo.devRef_ne_of_ne h1 : (Proc.devRef .tc r : DevRef τ sig) ≠ Proc.devRef .tc main_v3_1),
    Function.update_of_ne (StableHlo.devRef_ne_of_ne h0 : (Proc.devRef .tc r : DevRef τ sig) ≠ Proc.devRef .tc main_v3_0)]
theorem V2_main_v3_0 (c : Dev nD) : V2 m o0 o1 c main_v3_0 = o0 c := by
  simp only [V2, Function.update_of_ne (StableHlo.devRef_ne_of_ne (by decide : main_v3_0 ≠ main_v3_1) : (Proc.devRef .tc main_v3_0 : DevRef τ sig) ≠ Proc.devRef .tc main_v3_1),
    Function.update_self]
theorem V2_main_v3_1 (c : Dev nD) : V2 m o0 o1 c main_v3_1 = o1 c := by
  simp only [V2, Function.update_self]
theorem V2a_of (c : Dev nD) (r : Ref sig .tc) (h : r ∉ hostOps1_W) : V2a m o0 o1 c r = V2 m o0 o1 c r :=
  StableHlo.after_of_writes_sub hostOps1 _ hostOps1_writes h
theorem V2b_of (c : Dev nD) (r : Ref sig .tc) (h : r ∉ hostOps1_1_W) : V2b m o0 o1 c r = V2a m o0 o1 c r :=
  StableHlo.after_of_writes_sub hostOps1_1 _ hostOps1_1_writes h
theorem V3_of' (c : Dev nD) (r : Ref sig .tc) (h : r ∉ hostOps1_2_W) : V3 m o0 o1 c r = V2b m o0 o1 c r :=
  StableHlo.after_of_writes_sub hostOps1_2 _ hostOps1_2_writes h
/-- A buffer no stretch behind the region writes ends with what the region left in it. -/
theorem V3_of (c : Dev nD) (r : Ref sig .tc) (h : r ∉ hostOps1_W) (h' : r ∉ hostOps1_1_W) (h'' : r ∉ hostOps1_2_W) :
    V3 m o0 o1 c r = V2 m o0 o1 c r :=
  (V3_of' m o0 o1 c r h'').trans <| (V2b_of m o0 o1 c r h').trans (V2a_of m o0 o1 c r h)

/-! ## No item writes an argument -/

theorem V1_main_arg0 (c : Dev nD) : V1 m c main_arg0 = m ((c : Thread nD τ).loc main_arg0) := (V1_of m c main_arg0 (by decide) (by decide)).trans rfl
theorem V1_main_arg1 (c : Dev nD) : V1 m c main_arg1 = m ((c : Thread nD τ).loc main_arg1) := (V1_of m c main_arg1 (by decide) (by decide)).trans rfl
theorem V1_main_arg2 (c : Dev nD) : V1 m c main_arg2 = m ((c : Thread nD τ).loc main_arg2) := (V1_of m c main_arg2 (by decide) (by decide)).trans rfl
theorem V1_main_v3_0 (c : Dev nD) : V1 m c main_v3_0 = m ((c : Thread nD τ).loc main_v3_0) := (V1_of m c main_v3_0 (by decide) (by decide)).trans rfl
theorem V1_main_v3_1 (c : Dev nD) : V1 m c main_v3_1 = m ((c : Thread nD τ).loc main_v3_1) := (V1_of m c main_v3_1 (by decide) (by decide)).trans rfl
theorem V3_main_arg0 (c : Dev nD) : V3 m o0 o1 c main_arg0 = m ((c : Thread nD τ).loc main_arg0) :=
  (V3_of m o0 o1 c main_arg0 (by decide) (by decide) (by decide)).trans <| (V2_of m o0 o1 c main_arg0 (by decide)).trans (V1_main_arg0 m c)
theorem V3_main_arg1 (c : Dev nD) : V3 m o0 o1 c main_arg1 = m ((c : Thread nD τ).loc main_arg1) :=
  (V3_of m o0 o1 c main_arg1 (by decide) (by decide) (by decide)).trans <| (V2_of m o0 o1 c main_arg1 (by decide)).trans (V1_main_arg1 m c)
theorem V3_main_arg2 (c : Dev nD) : V3 m o0 o1 c main_arg2 = m ((c : Thread nD τ).loc main_arg2) :=
  (V3_of m o0 o1 c main_arg2 (by decide) (by decide) (by decide)).trans <| (V2_of m o0 o1 c main_arg2 (by decide)).trans (V1_main_arg2 m c)

/-! ## The table the region is entered with -/

/-- The prefetched table when the region is entered: the index words of the second argument
    (`Cert.RowsInRange.rows`), flattened. -/
theorem V1_main_v2 (c : Dev nD) :
    (V1 m c main_v2 : S131072.Idx → BitVec 32)
      = shapeCast S131072 (Cert.RowsInRange.rows (m ((c : Thread nD τ).loc main_arg1))) Facts₀.shapeCasts_S8192x16_S131072 := by
  show StableHlo.after hostOps0_1 (StableHlo.after hostOps0 (V0 m c)) (Proc.devRef .tc main_v2) = _
  after_results
  rfl

/-! ## The host operations behind the region, as pure functions of what the region left -/

/-- The second output array (one row of 512) as a vector of 512. -/
def kflat (bc : FVec F S1x512 .f32) : FVec F S512 .f32 := shapeCast S512 bc Facts₀.shapeCasts_S1x512_S512

/-- `(2 − mean over the columns of add) / 2`: the mean is the row sum divided by 16. -/
def khalf (add : FVec F S8192x16 .f32) : FVec F S8192 .f32 :=
  Host.divf
    (subf (broadcastInDim S8192 ![] Facts₀.bcast_S_S8192 (constant (F := F) S_ .f32 0x40000000#32))
      (Host.divf (Host.reduceAdd add (constant (F := F) S_ .f32 0x00000000#32) Facts₀.reducesTo_S8192x16_S8192_d1 Facts₀.h_S_)
        (broadcastInDim S8192 ![] Facts₀.bcast_S_S8192 (constant (F := F) S_ .f32 0x41800000#32))))
    (broadcastInDim S8192 ![] Facts₀.bcast_S_S8192 (constant (F := F) S_ .f32 0x40000000#32))

/-- The fourth result: `max(1/2, (2 − row mean of add) / 2)` per row. -/
def kbooster (add : FVec F S8192x16 .f32) : FVec F S8192 .f32 :=
  maximumf (broadcastInDim S8192 ![] Facts₀.bcast_S_S8192 (id (constant (F := F) S_ .f32 0x3F000000#32))) (khalf add)

/-- The second result: `(2 − mean of add · w over all entries)²`, the weight `w` broadcast along the columns, the mean the
    sum divided by 131072. -/
def kdiff (add : FVec F S8192x16 .f32) (w : FVec F S8192 .f32) : FVec F S_ .f32 :=
  mulf
    (subf (constant (F := F) S_ .f32 0x40000000#32)
      (Host.divf
        (Host.reduceAdd (mulf add (broadcastInDim S8192x16 ![0, 1] Facts₀.bcast_S8192x1_S8192x16_0_1 (broadcastInDim S8192x1 ![0] Facts₀.bcast_S8192_S8192x1_0 w)))
          (constant (F := F) S_ .f32 0x00000000#32) Facts₀.reducesTo_S8192x16_S_d0_1 Facts₀.h_S_)
        (constant (F := F) S_ .f32 0x48000000#32)))
    (subf (constant (F := F) S_ .f32 0x40000000#32)
      (Host.divf
        (Host.reduceAdd (mulf add (broadcastInDim S8192x16 ![0, 1] Facts₀.bcast_S8192x1_S8192x16_0_1 (broadcastInDim S8192x1 ![0] Facts₀.bcast_S8192_S8192x1_0 w)))
          (constant (F := F) S_ .f32 0x00000000#32) Facts₀.reducesTo_S8192x16_S_d0_1 Facts₀.h_S_)
        (constant (F := F) S_ .f32 0x48000000#32)))

/-- The spread of a vector of 512: its maximum (from −∞) minus its minimum (from +∞). -/
def kspread (v : FVec F S512 .f32) : FVec F S_ .f32 :=
  subf (Host.reduce FloatOps.maximumf v (constant (F := F) S_ .f32 0xFF800000#32) Facts₀.reducesTo_S512_S_d0 Facts₀.h_S_)
    (Host.reduce FloatOps.minimumf v (constant (F := F) S_ .f32 0x7F800000#32) Facts₀.reducesTo_S512_S_d0 Facts₀.h_S_)

/-- The third result: the spread divided by 195.3125. -/
def kb (v : FVec F S512 .f32) : FVec F S_ .f32 := Host.divf (kspread v) (constant (F := F) S_ .f32 0x43435000#32)

/-- The first result: the third plus the second. -/
def kcost (add : FVec F S8192x16 .f32) (v : FVec F S512 .f32) (w : FVec F S8192 .f32) : FVec F S_ .f32 :=
  addf (Host.divf (kspread v) (constant (F := F) S_ .f32 0x43435000#32)) (kdiff add w)

/-! ### Each stretch behind the region, read at the buffers that matter, from any contents -/

section Stretch

variable (Vb : Valuation τ sig (Elt F))

theorem after1_main_v4 : (StableHlo.after hostOps1 Vb (Proc.devRef .tc main_v4) : FVec F S512 .f32) = kflat (Vb (Proc.devRef .tc main_v3_1)) := by
  after_results
  rfl
theorem after1_main_v11 : (StableHlo.after hostOps1 Vb (Proc.devRef .tc main_v11) : FVec F S8192 .f32) = khalf (Vb (Proc.devRef .tc main_v3_0)) := by
  after_results
  rfl
theorem after1_main_cst_3 : (StableHlo.after hostOps1 Vb (Proc.devRef .tc main_cst_3) : FVec F S_ .f32) = constant (F := F) S_ .f32 0x3F000000#32 := by
  after_results
theorem after11_main_v12 : (StableHlo.after hostOps1_1 Vb (Proc.devRef .tc main_v12) : FVec F S8192 .f32)
    = maximumf (broadcastInDim S8192 ![] Facts₀.bcast_S_S8192 (id (Vb (Proc.devRef .tc main_cst_3) : FVec F S_ .f32))) (Vb (Proc.devRef .tc main_v11) : FVec F S8192 .f32) := by
  after_results
  rfl
theorem after12_main_v19 : (StableHlo.after hostOps1_2 Vb (Proc.devRef .tc main_v19) : FVec F S_ .f32)
    = kdiff (Vb (Proc.devRef .tc main_v3_0)) (Vb (Proc.devRef .tc main_arg2)) := by
  after_results
  rfl
theorem after12_main_v25 : (StableHlo.after hostOps1_2 Vb (Proc.devRef .tc main_v25) : FVec F S_ .f32)
    = kb (Vb (Proc.devRef .tc main_v4)) := by
  after_results
  rfl
theorem after12_main_v24 : (StableHlo.after hostOps1_2 Vb (Proc.devRef .tc main_v24) : FVec F S_ .f32)
    = kcost (Vb (Proc.devRef .tc main_v3_0)) (Vb (Proc.devRef .tc main_v4)) (Vb (Proc.devRef .tc main_arg2)) := by
  after_results
  rfl

end Stretch

/-! ## The four results, read off the last valuation -/

theorem V2b_main_v3_0 (c : Dev nD) : V2b m o0 o1 c main_v3_0 = o0 c :=
  (V2b_of m o0 o1 c main_v3_0 (by decide)).trans <| (V2a_of m o0 o1 c main_v3_0 (by decide)).trans (V2_main_v3_0 m o0 o1 c)
theorem V2b_main_arg2 (c : Dev nD) : V2b m o0 o1 c main_arg2 = m ((c : Thread nD τ).loc main_arg2) :=
  (V2b_of m o0 o1 c main_arg2 (by decide)).trans <| (V2a_of m o0 o1 c main_arg2 (by decide)).trans <|
    (V2_of m o0 o1 c main_arg2 (by decide)).trans (V1_main_arg2 m c)
theorem V2b_main_v4 (c : Dev nD) : (V2b m o0 o1 c main_v4 : FVec F S512 .f32) = kflat (o1 c) :=
  (V2b_of m o0 o1 c main_v4 (by decide)).trans <| (after1_main_v4 (V2 m o0 o1 c)).trans (congrArg kflat (V2_main_v3_1 m o0 o1 c))
theorem V2a_main_v11 (c : Dev nD) : (V2a m o0 o1 c main_v11 : FVec F S8192 .f32) = khalf (o0 c) :=
  (after1_main_v11 (V2 m o0 o1 c)).trans (congrArg khalf (V2_main_v3_0 m o0 o1 c))
theorem V2a_main_cst_3 (c : Dev nD) : (V2a m o0 o1 c main_cst_3 : FVec F S_ .f32) = constant (F := F) S_ .f32 0x3F000000#32 :=
  after1_main_cst_3 (V2 m o0 o1 c)

/-- The first result (`cost`). -/
theorem V3_main_v24 (c : Dev nD) :
    (V3 m o0 o1 c main_v24 : FVec F S_ .f32) = kcost (o0 c) (kflat (o1 c)) (m ((c : Thread nD τ).loc main_arg2)) :=
  (after12_main_v24 (V2b m o0 o1 c)).trans <|
    (congrArg (fun a => kcost a _ _) (V2b_main_v3_0 m o0 o1 c)).trans <|
      (congrArg (fun v => kcost _ v _) (V2b_main_v4 m o0 o1 c)).trans (congrArg (fun w => kcost _ _ w) (V2b_main_arg2 m o0 o1 c))
/-- The second result (`diff`). -/
theorem V3_main_v19 (c : Dev nD) :
    (V3 m o0 o1 c main_v19 : FVec F S_ .f32) = kdiff (o0 c) (m ((c : Thread nD τ).loc main_arg2)) :=
  (after12_main_v19 (V2b m o0 o1 c)).trans <|
    (congrArg (fun a => kdiff a _) (V2b_main_v3_0 m o0 o1 c)).trans (congrArg (fun w => kdiff _ w) (V2b_main_arg2 m o0 o1 c))
/-- The third result (`b` over its target). -/
theorem V3_main_v25 (c : Dev nD) : (V3 m o0 o1 c main_v25 : FVec F S_ .f32) = kb (kflat (o1 c)) :=
  (after12_main_v25 (V2b m o0 o1 c)).trans (congrArg kb (V2b_main_v4 m o0 o1 c))
/-- The fourth result (the booster weights). -/
theorem V3_main_v12 (c : Dev nD) : (V3 m o0 o1 c main_v12 : FVec F S8192 .f32) = kbooster (o0 c) :=
  (V3_of' m o0 o1 c main_v12 (by decide)).trans <| (after11_main_v12 (V2a m o0 o1 c)).trans <|
    (congrArg (fun k => maximumf (broadcastInDim S8192 ![] Facts₀.bcast_S_S8192 (id k)) _) (V2a_main_cst_3 m o0 o1 c)).trans
      (congrArg (fun h => maximumf (broadcastInDim S8192 ![] Facts₀.bcast_S_S8192 (id (constant (F := F) S_ .f32 0x3F000000#32))) h) (V2a_main_v11 m o0 o1 c))

/-! ## The items as segments -/

section Run

local notation "𝕄" => MT nD τ sig Unit (Elt F) ℕ (Pipeline.UD sig nD τ) ℕ

/-- No core owes anything at launch: no level facts, no dues, no ghost resources besides the pipeline's. -/
abbrev L₀ : GSem nD τ sig → Finset Unit := fun _ => ∅
abbrev lv₀ : GSem nD τ sig → Unit → ℕ := fun _ _ => 0
abbrev O₀ : Dev nD → CellTallies nD τ sig Unit := fun _ => 0
abbrev G₀ : Dev nD → sProp 𝕄 := fun _ => iprop(emp)

/-- What the launch deals core `c` besides its unscoped buffers: the unscoped semaphores at zero, the core owing
    nothing, its launch credit, the generator register. It rides along the two stretches before the region. -/
abbrev E0 (ρ : Dev nD → PrngReg) (c : Dev nD) : sProp 𝕄 :=
  iprop(unscopedSems0 c ∗ owes (c : Thread nD τ) (O₀ c) ∅ ∗ Pipeline.launchCred O₀ c ∗ prngReg c (ρ c) ∗ G₀ (F := F) c)

/-- The first stretch, from the launch contents. -/
def seg0 (𝒱₀ : Variants) (ρ : Dev nD → PrngReg) :
    HostSeg (Ix := Unit) (Name := ℕ) (U := Pipeline.UD sig nD τ) (Lvl := ℕ) (pcfgs (F := F)) defs₀ 𝒱₀ L₀ lv₀ :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E0 ρ)
/-- The second stretch. -/
def seg0_1 (𝒱₀ : Variants) (ρ : Dev nD → PrngReg) :
    HostSeg (Ix := Unit) (Name := ℕ) (U := Pipeline.UD sig nD τ) (Lvl := ℕ) (pcfgs (F := F)) defs₀ 𝒱₀ L₀ lv₀ :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V0a m) (E0 ρ)
/-- The first stretch behind the region, from what the region left, the rest `E1` riding along. -/
def seg1 (𝒱₀ : Variants) (E1 : Dev nD → sProp 𝕄) :
    HostSeg (Ix := Unit) (Name := ℕ) (U := Pipeline.UD sig nD τ) (Lvl := ℕ) (pcfgs (F := F)) defs₀ 𝒱₀ L₀ lv₀ :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m o0 o1) E1
/-- The second stretch behind the region. -/
def seg1_1 (𝒱₀ : Variants) (E1 : Dev nD → sProp 𝕄) :
    HostSeg (Ix := Unit) (Name := ℕ) (U := Pipeline.UD sig nD τ) (Lvl := ℕ) (pcfgs (F := F)) defs₀ 𝒱₀ L₀ lv₀ :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V2a m o0 o1) E1
/-- The last stretch. -/
def seg1_2 (𝒱₀ : Variants) (E1 : Dev nD → sProp 𝕄) :
    HostSeg (Ix := Unit) (Name := ℕ) (U := Pipeline.UD sig nD τ) (Lvl := ℕ) (pcfgs (F := F)) defs₀ 𝒱₀ L₀ lv₀ :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (V2b m o0 o1) E1

/-- The program's items as segments, in order: two stretches, the region, three stretches. -/
abbrev segs (𝒱₀ : Variants) (ρ : Dev nD → PrngReg) (E1 : Dev nD → sProp 𝕄) (adm : (p : Fin 1) → (pcfgs (F := F) p).Adm)
    (pdats : (p : Fin 1) → (c : Dev nD) → Dat τ (Elt F) Unit ℕ (Pipeline.UD sig nD τ) ℕ (Pipeline.pin (pcfgs (F := F)) adm p) c)
    (R0 : RegionSeg (pcfgs (F := F)) adm pdats () defs₀ 𝒱₀ L₀ lv₀ 0) :
    List (Seg (pcfgs (F := F)) adm pdats () defs₀ 𝒱₀ L₀ lv₀) :=
  [.host (seg0 m 𝒱₀ ρ), .host (seg0_1 m 𝒱₀ ρ), .region R0, .host (seg1 m o0 o1 𝒱₀ E1), .host (seg1_1 m o0 o1 𝒱₀ E1), .host (seg1_2 m o0 o1 𝒱₀ E1)]

/-! ## The run, given the region's record -/

set_option backward.isDefEq.respectTransparency.types false in
/-- GIVEN the region's segment record, entered from the buffers at `V1` beside what the launch dealt (`hpre0`) and
    left at `V2` beside a rest that owes nothing (`hpost0`, `hE1`): every weakly fair execution of the program from
    memory `m` with zero counters terminates, and every final memory holds each unscoped buffer at `V3`. -/
theorem run_cond (𝒱₀ : Variants) (ρ : Dev nD → PrngReg) (adm : (p : Fin 1) → (pcfgs (F := F) p).Adm)
    (pdats : (p : Fin 1) → (c : Dev nD) → Dat τ (Elt F) Unit ℕ (Pipeline.UD sig nD τ) ℕ (Pipeline.pin (pcfgs (F := F)) adm p) c)
    (E1 : Dev nD → sProp 𝕄)
    (hE1 : ∀ c : Dev nD, E1 c ⊢ (iprop(∃ W, owes (c : Thread nD τ) (0 : CellTallies nD τ sig Unit) W) : sProp 𝕄))
    (R0 : RegionSeg (pcfgs (F := F)) adm pdats () defs₀ 𝒱₀ L₀ lv₀ 0)
    (hpre0 : ∀ c : Dev nD, iprop(StableHlo.held (c : Thread nD τ) (Pipeline.ucRefs τ sig) (V1 m c) ∗ E0 ρ c) ⊢ R0.pre c)
    (hpost0 : ∀ c : Dev nD, R0.post c ⊢ iprop(StableHlo.held (c : Thread nD τ) (Pipeline.ucRefs τ sig) (V2 m o0 o1 c) ∗ E1 c)) :
    θ_run defs (onTc (τ := τ) (main (F := F))) ⟨m, fun _ => 0, ρ⟩ (fun r => ∀ c : Dev nD, ∀ b : Ref sig .tc,
      ¬ (Proc.devRef .tc b : DevRef τ sig).isScoped →
        r.2.mem ((c.tc : Thread nD τ).loc b) = V3 m o0 o1 c (Proc.devRef .tc b)) := by
  refine Pipeline.θ_run_regions_kit_dev (pcfgs (F := F)) adm pdats () (cellOf_inj adm) embL defs₀ 𝒱₀ L₀ lv₀ m ρ main
    (fun _ => segs m o0 o1 𝒱₀ ρ E1 adm pdats R0)
    (fun c Q => by
      rewrite [main_chain c, Seg.run_eq_chain,
        show (segs m o0 o1 𝒱₀ ρ E1 adm pdats R0).map Seg.prog = [
          StableHlo.seq hostOps0,
          StableHlo.seq hostOps0_1,
          Prog.lift (.customCall (Pipeline.entry 0) ()),
          StableHlo.seq hostOps1,
          StableHlo.seq hostOps1_1,
          StableHlo.seq hostOps1_2 ] from rfl]
      exact .rfl)
    (fun c => by simp only [segs, Seg.pipes_host, Seg.pipes_region, Seg.pipes_nil]; decide) O₀ (fun _ _ => rfl) G₀
    (initOf (Pipeline.cells (Pipeline.pin (pcfgs (F := F)) adm) (cellOf_inj adm)) (Pipeline.launchToks (Pipeline.pin (pcfgs (F := F)) adm) (cellOf_inj adm)), 1)
    (by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E0 ρ c))
    (Tₙ := fun c => StableHlo.held (c : Thread nD τ) (Pipeline.ucRefs τ sig) (V3 m o0 o1 c))
    (hch := fun c => ⟨.rfl, .rfl, hpre0 c, hpost0 c, .rfl, .rfl, sep_mono .rfl (hE1 c)⟩)
    (hinit := ?_)
    (QY := fun c s => ∀ b : Ref sig .tc, ¬ (Proc.devRef .tc b : DevRef τ sig).isScoped →
      s.mem ((c.tc : Thread nD τ).loc b) = V3 m o0 o1 c (Proc.devRef .tc b))
    (hfin := fun c s' => ?_) (hQ := fun _ h c b hb => h c b hb)
  · -- the launch: the unscoped buffers are held at `V0`; the rest is `E0`, as dealt
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G₀ (F := F) c))
        ⊢ (bigSep Finset.univ fun c : Dev nD => iprop(StableHlo.held (c : Thread nD τ) (Pipeline.ucRefs τ sig) (V0 m c) ∗ E0 ρ c) : sProp 𝕄) :=
      bigSep_mono fun c _ => by rw [← Pipeline.unscopedBufs_held (Ix := Unit) (Name := ℕ) (U := Pipeline.UD sig nD τ) (Lvl := ℕ) c (V0 m c)]; exact BI.Entails.refl _
    iintro ⟨H, -⟩
    ihave H' := hsplit $$ H
    imodintro
    iexact H'
  · -- the end: every unscoped buffer read off the last valuation
    unfold StableHlo.held
    iintro ⟨Hh, HSI⟩
    ihave Hr := (pointsTo_read_all (Pipeline.ucRefs τ sig) (fun b => ((c : Thread nD τ).1, b)) (V3 m o0 o1 c) s') $$ [Hh HSI]
    · isplitl [Hh] <;> iassumption
    icases Hr with ⟨%h, HSI⟩
    imodintro
    isplitr
    · ipureintro
      intro b hb
      exact h (Proc.devRef .tc b) (Finset.mem_filter.mpr ⟨StableHlo.devRef_mem_tcRefs b, hb⟩)
    · iexact HSI

end Run

end Cert.Kernel.HostSide

end
-- ==== Proof.RegionRecordBits.lean ====
/-
  The kernel region's record: the region as one item of the program's chain. The region is entered holding every
  unscoped buffer of the core whole, beside what the launch dealt, and is left the same way with its two output arrays
  changed. In between, the pipeline and the body share the array of rows: it is both the array the first window's
  blocks are fetched from and the array the body copies single rows out of. So at entry its whole points-to is split
  in two halves, the left for the block fetches and the right for the body's invariant, and at exit the halves are
  joined again; the array is an input, so it holds what it held. The table goes to the pipeline whole; everything
  else passes the region by. Given proof data with these entry contents, shares, invariant and no dues, and the body
  obligation, this yields the record, and with it the run of the whole program.
-/
import proofs.«106441_j1580547974259_1_alg».proof.Proof.RegionStateBits
import proofs.«106441_j1580547974259_1_alg».proof.Proof.HostSideBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)
open Cert.Kernel.HostSide (L₀ lv₀ O₀ G₀ E0)

variable {F : FTy → Type} [FloatOps F]

local notation "𝕄" => MT nD τ sig Unit (Elt F) ℕ (Pipeline.UD sig nD τ) ℕ

/-! ## A core's unscoped buffers, sorted for the region -/

/-- A core's buffers before the region as a function of references, read off a valuation. -/
abbrev VR (W : Dev nD → Valuation τ sig (Elt F)) : (c : Dev nD) → (b : Ref sig .tc) → Buf (Elt F) ((c : Thread nD τ).loc b) :=
  fun c b => W c (Proc.devRef .tc b)

/-- The four buffers the region sorts out of a core's unscoped ones: the three windows' arrays and the table. -/
abbrev T4r : Finset (Ref sig .tc) := {main_arg0, main_v3_0, main_v3_1, main_v2}
abbrev T4 : Finset (DevRef τ sig) := T4r.map ⟨Proc.devRef .tc, Proc.devRef_injective _⟩

theorem T4_sub : (T4 : Finset (DevRef τ sig)) ⊆ Pipeline.ucRefs τ sig := fun b hb => by
  obtain ⟨r, hr, rfl⟩ := Finset.mem_map.mp hb
  exact Finset.mem_filter.mpr ⟨StableHlo.devRef_mem_tcRefs r, (by decide : ∀ r ∈ T4r, ¬ (Proc.devRef (τ := τ) .tc r).isScoped) r hr⟩

/-- Those four, held whole, one by one. -/
theorem held_T4 (c : Dev nD) (W : Valuation τ sig (Elt F)) :
    (StableHlo.held (c : Thread nD τ) T4 W : sProp 𝕄)
      = iprop((((c : Thread nD τ).loc main_arg0) ↦{fullShare} W main_arg0) ∗ (((c : Thread nD τ).loc main_v3_0) ↦{fullShare} W main_v3_0)
          ∗ (((c : Thread nD τ).loc main_v3_1) ↦{fullShare} W main_v3_1) ∗ (((c : Thread nD τ).loc main_v2) ↦{fullShare} W main_v2)) := by
  unfold StableHlo.held
  rw [bigSep_map, bigSep_insert (by decide), bigSep_insert (by decide), bigSep_insert (by decide), bigSep_singleton]
  rfl

section Arrays

variable (V : (c : Dev nD) → (b : Ref sig .tc) → Buf (Elt F) ((c : Thread nD τ).loc b)) (c : Dev nD)
  (D : Dat τ (Elt F) Unit ℕ (Pipeline.UD sig nD τ) ℕ (cfgM V) c)

/-- The block fetches hold the array of rows at the left half; the two outputs are held whole. -/
theorem share0 (hq : ∀ w, D.q w = shareOf w) : D.share 0 = fullShare.left := by
  unfold Dat.share
  rw [if_neg (by rw [show ((cfgM V).win 0).isOut = false from rfl]; exact Bool.false_ne_true), hq]; rfl
theorem share1 : D.share 1 = fullShare := by
  unfold Dat.share
  rw [if_pos (show ((cfgM V).win 1).isOut = true from rfl)]
theorem share2 : D.share 2 = fullShare := by
  unfold Dat.share
  rw [if_pos (show ((cfgM V).win 2).isOut = true from rfl)]

/-- The pipeline's three arrays, one by one. -/
theorem arrays_three (hq : ∀ w, D.q w = shareOf w) (Fa : (w : Fin (cfgM V).W) → Buf (Elt F) (((cfgM V).win w).arr.view.loc (c : Thread nD τ))) :
    (D.arrays Fa : sProp 𝕄)
      = iprop((((c : Thread nD τ).loc main_arg0) ↦{fullShare.left} Fa 0) ∗ (((c : Thread nD τ).loc main_v3_0) ↦{fullShare} Fa 1)
          ∗ (((c : Thread nD τ).loc main_v3_1) ↦{fullShare} Fa 2)) := by
  unfold Dat.arrays
  rw [bigSep_W0, share0 V c D hq, share1 V c D, share2 V c D,
    (arr_whole0 0).set_eq_univ, (arr_whole0 1).set_eq_univ, (arr_whole0 2).set_eq_univ]

/-- At entry the arrays hold what the core's buffers hold. -/
theorem arrays_entry (hq : ∀ w, D.q w = shareOf w) (hA : ∀ w, D.A w = V c (Pipeline.arrRef spec0 w)) :
    (D.arrays (D.arrAt · 0) : sProp 𝕄)
      = iprop((((c : Thread nD τ).loc main_arg0) ↦{fullShare.left} V c main_arg0) ∗ (((c : Thread nD τ).loc main_v3_0) ↦{fullShare} V c main_v3_0)
          ∗ (((c : Thread nD τ).loc main_v3_1) ↦{fullShare} V c main_v3_1)) := by
  rw [arrays_three V c D hq]
  show iprop((_ ↦{_} D.A 0) ∗ (_ ↦{_} D.A 1) ∗ (_ ↦{_} D.A 2)) = _
  rw [hA 0, hA 1, hA 2]
  rfl

/-- At exit the array of rows, an input, holds what it held; the two outputs hold their final contents. -/
theorem arrays_exit (hq : ∀ w, D.q w = shareOf w) (hA : ∀ w, D.A w = V c (Pipeline.arrRef spec0 w)) :
    (D.arrays (D.arrAt · (cfgM V).N) : sProp 𝕄)
      = iprop((((c : Thread nD τ).loc main_arg0) ↦{fullShare.left} V c main_arg0) ∗ (((c : Thread nD τ).loc main_v3_0) ↦{fullShare} D.arrAt 1 (cfgM V).N)
          ∗ (((c : Thread nD τ).loc main_v3_1) ↦{fullShare} D.arrAt 2 (cfgM V).N)) := by
  rw [arrays_three V c D hq]
  show iprop((_ ↦{_} D.arrAt 0 (cfgM V).N) ∗ _) = _
  rw [D.arrAt_in 0 rfl (cfgM V).N, hA 0]
  rfl

/-- The table, the one prefetched buffer, at a share. -/
theorem prefHeld_tbl (q : PosShare TreeShare) :
    (Pipeline.prefHeld pre0 c (fun _ => q) (tbl V) : sProp 𝕄) = (((c : Thread nD τ).loc main_v2) ↦{q} V c main_v2) := by
  unfold Pipeline.prefHeld
  rw [bigSep_univ_of_subsingleton (0 : Fin 1), ← V_pre V c 0]
  rfl

end Arrays

/-! ## The region's record -/

section Record

variable (W : Dev nD → Valuation τ sig (Elt F)) (𝒱₀ : Variants) (ρ : Dev nD → PrngReg)
variable (pdats : (p : Fin 1) → (c : Dev nD) → Dat τ (Elt F) Unit ℕ (Pipeline.UD sig nD τ) ℕ (Pipeline.pin (pcfgs (F := F)) (fun _ => adm (VR W)) p) c)

/-- What the launch dealt that passes the region by untouched. -/
abbrev Zrest (c : Dev nD) : sProp 𝕄 := iprop(unscopedSems0 c ∗ Pipeline.launchCred O₀ c ∗ prngReg c (ρ c) ∗ G₀ (F := F) c)
/-- The thread state the region is entered from: every unscoped buffer held whole, beside what the launch dealt. -/
abbrev preR (c : Dev nD) : sProp 𝕄 := iprop(StableHlo.held (c : Thread nD τ) (Pipeline.ucRefs τ sig) (W c) ∗ E0 ρ c)
/-- What enters the body's invariant besides the table and the scoped rest: the body's two counters at zero and
    the right half of the array of rows. -/
abbrev XR (c : Dev nD) : sProp 𝕄 := iprop(Pipeline.ownSems0 osem c ∗ heldAt c fullShare.right hbM (VR W c main_arg0))
/-- What the invariant gives back: the table and that half. -/
abbrev YR (c : Dev nD) : sProp 𝕄 :=
  iprop(Pipeline.prefHeld pre0 c (fun _ => fullShare) (tbl (VR W)) ∗ heldAt c fullShare.right hbM (VR W c main_arg0))
/-- What passes the region by: every other unscoped buffer, and the rest of what the launch dealt. -/
abbrev ZR (c : Dev nD) : sProp 𝕄 := iprop(StableHlo.held (c : Thread nD τ) (Pipeline.ucRefs τ sig \ T4) (W c) ∗ Zrest ρ c)
/-- The two output arrays after all write-backs. -/
abbrev out0 (c : Dev nD) : Buf (Elt F) ((c : Thread nD τ).loc main_v3_0) := (pdats 0 c).arrAt 1 (cfgM (VR W)).N
abbrev out1 (c : Dev nD) : Buf (Elt F) ((c : Thread nD τ).loc main_v3_1) := (pdats 0 c).arrAt 2 (cfgM (VR W)).N
/-- The buffers after the region: the two outputs changed, nothing else. -/
abbrev VP (c : Dev nD) : Valuation τ sig (Elt F) :=
  Function.update (Function.update (W c) main_v3_0 (out0 W pdats c)) main_v3_1 (out1 W pdats c)
/-- The rest after the region: the core owes nothing. -/
abbrev E1R (c : Dev nD) : sProp 𝕄 := iprop((∃ Ws, owes (c : Thread nD τ) (0 : CellTallies nD τ sig Unit) Ws) ∗ Zrest ρ c)
/-- The thread state the region leaves. -/
abbrev postR (c : Dev nD) : sProp 𝕄 := iprop(StableHlo.held (c : Thread nD τ) (Pipeline.ucRefs τ sig) (VP W pdats c) ∗ E1R ρ c)

theorem E1R_owes (c : Dev nD) : E1R (F := F) ρ c ⊢ (iprop(∃ Ws, owes (c : Thread nD τ) (0 : CellTallies nD τ sig Unit) Ws) : sProp 𝕄) := by
  iintro ⟨H, -⟩; iexact H

theorem VP_main_arg0 (c : Dev nD) : VP W pdats c main_arg0 = W c main_arg0 := by
  simp only [VP, Function.update_of_ne (StableHlo.devRef_ne_of_ne (by decide : main_arg0 ≠ main_v3_1) : (Proc.devRef .tc main_arg0 : DevRef τ sig) ≠ Proc.devRef .tc main_v3_1),
    Function.update_of_ne (StableHlo.devRef_ne_of_ne (by decide : main_arg0 ≠ main_v3_0) : (Proc.devRef .tc main_arg0 : DevRef τ sig) ≠ Proc.devRef .tc main_v3_0)]
theorem VP_main_v2 (c : Dev nD) : VP W pdats c main_v2 = W c main_v2 := by
  simp only [VP, Function.update_of_ne (StableHlo.devRef_ne_of_ne (by decide : main_v2 ≠ main_v3_1) : (Proc.devRef .tc main_v2 : DevRef τ sig) ≠ Proc.devRef .tc main_v3_1),
    Function.update_of_ne (StableHlo.devRef_ne_of_ne (by decide : main_v2 ≠ main_v3_0) : (Proc.devRef .tc main_v2 : DevRef τ sig) ≠ Proc.devRef .tc main_v3_0)]
theorem VP_main_v3_0 (c : Dev nD) : VP W pdats c main_v3_0 = out0 W pdats c := by
  simp only [VP, Function.update_of_ne (StableHlo.devRef_ne_of_ne (by decide : main_v3_0 ≠ main_v3_1) : (Proc.devRef .tc main_v3_0 : DevRef τ sig) ≠ Proc.devRef .tc main_v3_1),
    Function.update_self]
theorem VP_main_v3_1 (c : Dev nD) : VP W pdats c main_v3_1 = out1 W pdats c := by
  simp only [VP, Function.update_self]
/-- Outside the four sorted buffers the region changes nothing. -/
theorem VP_rest (c : Dev nD) (b : DevRef τ sig) (hb : b ∈ Pipeline.ucRefs τ sig \ T4) : VP W pdats c b = W c b := by
  have hn : b ∉ (T4 : Finset (DevRef τ sig)) := (Finset.mem_sdiff.mp hb).2
  have h0 : b ≠ Proc.devRef .tc main_v3_0 := fun e => hn (e ▸ Finset.mem_map_of_mem _ (by decide))
  have h1 : b ≠ Proc.devRef .tc main_v3_1 := fun e => hn (e ▸ Finset.mem_map_of_mem _ (by decide))
  simp only [VP, Function.update_of_ne h1, Function.update_of_ne h0]

section Entailments

variable (hA : ∀ c w, (pdats 0 c).A w = VR W c (Pipeline.arrRef spec0 w)) (hq : ∀ c w, (pdats 0 c).q w = shareOf w)
  (hΦ : ∀ c t, (pdats 0 c).Φ t = Phi (VR W) c) (howed : ∀ c t, (pdats 0 c).owed t = 0)

include hA hq howed in
/-- ENTRY. The three arrays are carved out of the unscoped buffers, the array of rows split in two halves (the left
    for the block fetches, the right for the body); the table goes whole; the core owes nothing. -/
theorem hentryR (c : Dev nD) :
    iprop(preR W ρ c ∗ Pipeline.ownSems0 osem c ∗ levAts L₀ lv₀)
      ⊢ (|={Set.univ}=> iprop((pdats 0 c).arrays ((pdats 0 c).arrAt · 0) ∗ Pipeline.prefHeld pre0 c (fun _ => fullShare) (adm (VR W)).1
          ∗ (pdats 0 c).owesAt () 0 ∗ XR W c ∗ ZR W ρ c) : sProp 𝕄) := by
  rw [arrays_entry (VR W) c (pdats 0 c) (hq c) (hA c), show (adm (VR W)).1 = tbl (VR W) from rfl, prefHeld_tbl (VR W) c fullShare]
  dsimp only [preR, XR, ZR, Zrest, E0, heldAt, Dat.owesAt, Pipeline.owesWithin]
  rw [StableHlo.held_sub_split (c : Thread nD τ) T4_sub (W c), held_T4 c (W c), howed c 0]
  iintro ⟨⟨⟨⟨Ha0, Hv30, Hv31, Hv2⟩, Hrest⟩, ⟨Hsems, Howes, Hcred, Hprng, HG⟩⟩, Hown, -⟩
  ihave Hsp := (pointsTo_share (PosShare.mem_left_op_right fullShare)).1 $$ Ha0
  icases Hsp with ⟨HaL, HaR⟩
  imodintro
  isplitl [HaL Hv30 Hv31]
  · isplitl [HaL]; · iexact HaL
    isplitl [Hv30]; · iexact Hv30
    iexact Hv31
  isplitl [Hv2]; · iexact Hv2
  isplitl [Howes]
  · iexists ∅; isplitr
    · ipureintro; simp
    iexact Howes
  isplitl [Hown HaR]
  · isplitl [Hown]; · iexact Hown
    iexact HaR
  isplitl [Hrest]; · iexact Hrest
  isplitl [Hsems]; · iexact Hsems
  isplitl [Hcred]; · iexact Hcred
  isplitl [Hprng]; · iexact Hprng
  iexact HG

include hΦ in
/-- The invariant at the first point: a reshuffle. -/
theorem hinR (c : Dev nD) :
    iprop(XR W c ∗ Pipeline.prefHeld pre0 c (fun _ => fullShare) (adm (VR W)).1 ∗ Pipeline.scopedRest spec0 c) ⊢ ((pdats 0 c).Φ 0 : sProp 𝕄) := by
  rw [hΦ c 0]
  unfold Phi
  iintro ⟨⟨Hown, HaR⟩, Hpf, Hsc⟩
  isplitl [Hsc]; · iexact Hsc
  isplitl [Hown]; · iexact Hown
  isplitl [Hpf]; · iexact Hpf
  iexact HaR

include hΦ in
/-- The invariant at the last point gives the same back. -/
theorem houtR (c : Dev nD) :
    ((pdats 0 c).Φ (Fin.last (cfgM (VR W)).N) : sProp 𝕄) ⊢ iprop(YR W c ∗ Pipeline.ownSems0 osem c ∗ Pipeline.scopedRest spec0 c) := by
  rw [hΦ c _]
  unfold Phi
  iintro ⟨Hsc, Hown, Hpf, HaR⟩
  isplitl [Hpf HaR]
  · isplitl [Hpf]; · iexact Hpf
    iexact HaR
  isplitl [Hown]; · iexact Hown
  iexact Hsc

include hA hq howed in
/-- EXIT. The two halves of the array of rows join; the four sorted buffers and the rest are every unscoped buffer
    again, the two outputs at their final contents. -/
theorem hexitR (c : Dev nD) :
    iprop((pdats 0 c).arrays ((pdats 0 c).arrAt · (cfgM (VR W)).N) ∗ (pdats 0 c).owesAt () (Fin.last (cfgM (VR W)).N) ∗ YR W c ∗ ZR W ρ c)
      ⊢ (|={Set.univ}=> postR W ρ pdats c : sProp 𝕄) := by
  rw [arrays_exit (VR W) c (pdats 0 c) (hq c) (hA c)]
  dsimp only [postR, YR, ZR, Zrest, E1R, heldAt, Dat.owesAt, Pipeline.owesWithin]
  rw [prefHeld_tbl (VR W) c fullShare, StableHlo.held_sub_split (c : Thread nD τ) T4_sub (VP W pdats c), held_T4 c (VP W pdats c),
    VP_main_arg0, VP_main_v2, VP_main_v3_0, VP_main_v3_1, StableHlo.held_congr (c : Thread nD τ) (VP_rest W pdats c), howed c _]
  iintro ⟨⟨HaL, Hv30, Hv31⟩, ⟨%Ws, -, Howes⟩, ⟨Hv2, HaR⟩, ⟨Hrest, HZ⟩⟩
  ihave Ha0 := (pointsTo_share (PosShare.mem_left_op_right fullShare)).2 $$ [HaL HaR]
  · isplitl [HaL]; · iexact HaL
    iexact HaR
  imodintro
  isplitl [Ha0 Hv30 Hv31 Hv2 Hrest]
  · isplitr [Hrest]
    · isplitl [Ha0]; · iexact Ha0
      isplitl [Hv30]; · iexact Hv30
      isplitl [Hv31]; · iexact Hv31
      iexact Hv2
    · iexact Hrest
  isplitl [Howes]
  · iexists Ws; iexact Howes
  iexact HZ

end Entailments

/-- The region's record: the layout facts the launch decides, the body's two counters, the body obligation (given),
    no wait owed at the pipeline's cells, and the four entailments above around the thread states `preR` / `postR`. -/
def regionSeg (hA : ∀ c w, (pdats 0 c).A w = VR W c (Pipeline.arrRef spec0 w)) (hq : ∀ c w, (pdats 0 c).q w = shareOf w)
    (hΦ : ∀ c t, (pdats 0 c).Φ t = Phi (VR W) c) (howed : ∀ c t, (pdats 0 c).owed t = 0)
    (hbody : ∀ c, BodyObligationLoose (pdats 0 c) defs₀ 𝒱₀ () Set.univ) :
    RegionSeg (pcfgs (F := F)) (fun _ => adm (VR W)) pdats () defs₀ 𝒱₀ L₀ lv₀ 0 where
  win := winFacts0.to₀
  block_pos := block_pos0
  stage_whole := stage_whole0
  K := Fin 2
  osem := osem
  ho := ownSemFacts
  hbody := hbody
  hwaits := fun c => Pipeline.hwaits_of_owed_zero (pcfgs (F := F)) (fun _ => adm (VR W)) pdats () L₀ lv₀ 0 howed c
  pre := preR W ρ
  post := postR W ρ pdats
  X := XR W
  Y := YR W
  Z := ZR W ρ
  hentry := hentryR W ρ pdats hA hq howed
  hin := hinR W pdats hΦ
  hout := houtR W pdats hΦ
  hexit := hexitR W ρ pdats hA hq howed

end Record

/-! ## The program's run, given the body -/

/-- The whole program, with the region's record above at the buffers the two leading stretches leave (`V1`): given
    proof data for the region whose entry contents, shares, invariant and dues are the ones named here, and the body
    obligation, every weakly fair execution from memory `m` with zero counters terminates, and every unscoped buffer ends at
    the last valuation, the two output arrays being what the region's write-backs made them. -/
theorem region_run (m : (ℓ : Loc nD τ sig) → Buf (Elt F) ℓ) (𝒱₀ : Variants) (ρ : Dev nD → PrngReg)
    (pdats : (p : Fin 1) → (c : Dev nD) → Dat τ (Elt F) Unit ℕ (Pipeline.UD sig nD τ) ℕ (Pipeline.pin (pcfgs (F := F)) (fun _ => adm (VR (HostSide.V1 m))) p) c)
    (hA : ∀ c w, (pdats 0 c).A w = VR (HostSide.V1 m) c (Pipeline.arrRef spec0 w)) (hq : ∀ c w, (pdats 0 c).q w = shareOf w)
    (hΦ : ∀ c t, (pdats 0 c).Φ t = Phi (VR (HostSide.V1 m)) c) (howed : ∀ c t, (pdats 0 c).owed t = 0)
    (hbody : ∀ c, BodyObligationLoose (pdats 0 c) defs₀ 𝒱₀ () Set.univ) :
    θ_run defs (onTc (τ := τ) (main (F := F))) ⟨m, fun _ => 0, ρ⟩ (fun r => ∀ c : Dev nD, ∀ b : Ref sig .tc,
      ¬ (Proc.devRef .tc b : DevRef τ sig).isScoped →
        r.2.mem ((c.tc : Thread nD τ).loc b)
          = HostSide.V3 m (out0 (HostSide.V1 m) pdats) (out1 (HostSide.V1 m) pdats) c (Proc.devRef .tc b)) :=
  HostSide.run_cond m (out0 (HostSide.V1 m) pdats) (out1 (HostSide.V1 m) pdats) 𝒱₀ ρ (fun _ => adm (VR (HostSide.V1 m))) pdats
    (E1R ρ) (E1R_owes ρ) (regionSeg (HostSide.V1 m) 𝒱₀ ρ pdats hA hq hΦ howed hbody) (fun _ => .rfl) (fun _ => .rfl)

end Cert.Kernel.Body

end
-- ==== Proof.AssembleBits.lean ====
/-
  The assembly of the frame claim. The precondition makes every word of the table the region prefetches a row index
  below 100000; that is the one fact the body needs of the table. Given the body's proof data for the region at the
  buffers the two leading stretches leave, the region's record makes the whole program run to the end with every
  unscoped buffer at the last valuation; no item writes an argument, so the three arguments end as launched.
-/
import proofs.«106441_j1580547974259_1_alg».proof.Proof.RegionRecordBits
import proofs.«106441_j1580547974259_1_alg».proof.Defs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]

/-! ## The table's words are row indices below 100000 -/

/-- Under the precondition, every word of the table the region is entered with, however it is read, is below 100000:
    the table is the flattened index words of the second argument, and a read through the whole table is one of its words. -/
theorem rows_below_of_pre (m : (ℓ : Loc nD τ sig) → Buf (Elt F) ℓ) (c : Dev nD)
    (h : Cert.Pre_finite_inputs.fn (F := F) (m ((c.tc : Thread nD τ).loc main_arg0)) (m ((c.tc : Thread nD τ).loc main_arg1))
      (m ((c.tc : Thread nD τ).loc main_arg2)) = (fun _ => 1#1)) :
    RowsBelow c (tbl (VR (HostSide.V1 m)) 0) := by
  obtain rfl : c = 0 := Subsingleton.elim _ _
  intro r j
  show ((tbl (VR (HostSide.V1 m)) 0 : S131072.Idx → BitVec 32) (r.idx j)).toNat < 100000
  rw [show (tbl (VR (HostSide.V1 m)) 0 : S131072.Idx → BitVec 32)
      = shapeCast S131072 (Cert.RowsInRange.rows (m (((0 : Dev nD) : Thread nD τ).loc main_arg1))) Facts₀.shapeCasts_S8192x16_S131072
    from HostSide.V1_main_v2 m 0]
  exact Cert.RowsInRange.table_lt _ _ _ h _ _ _

/-! ## What the body's proof supplies -/

/-- Proof data for the region at the buffers the two leading stretches leave, with the entry contents, shares,
    invariant and dues the region's record names, and the body obligation. -/
structure BodyData (m : (ℓ : Loc nD τ sig) → Buf (Elt F) ℓ) (𝒱₀ : Variants) where
  pdats : (p : Fin 1) → (c : Dev nD) → Dat τ (Elt F) Unit ℕ (Pipeline.UD sig nD τ) ℕ
    (Pipeline.pin (pcfgs (F := F)) (fun _ => adm (VR (HostSide.V1 m))) p) c
  hA : ∀ c w, (pdats 0 c).A w = VR (HostSide.V1 m) c (Pipeline.arrRef spec0 w)
  hq : ∀ c w, (pdats 0 c).q w = shareOf w
  hΦ : ∀ c t, (pdats 0 c).Φ t = Phi (VR (HostSide.V1 m)) c
  howed : ∀ c t, (pdats 0 c).owed t = 0
  hbody : ∀ c, BodyObligationLoose (pdats 0 c) defs₀ 𝒱₀ () Set.univ

/-- The program runs to the end and its three arguments end unchanged, for any float instance. -/
theorem frame_gen (𝒱₀ : Variants) (m : (ℓ : Loc nD τ sig) → Buf (Elt F) ℓ) (ρ : Dev nD → PrngReg) (bd : BodyData (F := F) m 𝒱₀) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := F)) _ _).mono (fun _ h c =>
      ⟨(h c main_arg0 (by decide)).trans (HostSide.V3_main_arg0 m _ _ c),
       (h c main_arg1 (by decide)).trans (HostSide.V3_main_arg1 m _ _ c),
       (h c main_arg2 (by decide)).trans (HostSide.V3_main_arg2 m _ _ c)⟩)
    (region_run m 𝒱₀ ρ bd.pdats bd.hA bd.hq bd.hΦ bd.howed bd.hbody)

/-- The frame claim, given the body's data for every memory of which the precondition holds. -/
theorem frame_of (𝒱₀ : Variants)
    (bd : ∀ m : (ℓ : Loc nD τ sig) → Buf (Elt Bits) ℓ,
      Cert.Pre_Kernel (hPre_finite_inputs := Cert.Pre_finite_inputs.Gen.facts) m → BodyData (F := Bits) m 𝒱₀) :
    Cert.frame_Kernel (hKernel := Cert.Kernel.Gen.facts) (hPre_finite_inputs := Cert.Pre_finite_inputs.Gen.facts) :=
  fun m g hpre => frame_gen 𝒱₀ m g (bd m hpre)

end Cert.Kernel.Body

end
-- ==== Proof.BodyCommonIdeal.lean ====
/-
  What the body of the row-gather kernel is handed at a grid point and what it gives back, named once.
  The body reads a table of 131072 row indices (the truncated entries of y, flattened), 128 of them per
  point: entry 128·i + 16·b + k names the row of the 100000 × 512 array that is copied into a two-slot
  buffer and added to row b of the point's 8 × 512 block. Each copy reads one whole row, so it is inside
  the array exactly when its index is below 100000; that bound, for every word of the table, is the one
  fact the body needs about the table.
-/
import proofs.«106441_j1580547974259_1_alg».proof.Proof.Gen.KernelIdeal.Skeleton
import proofs.«106441_j1580547974259_1_alg».proof.Proof.Gen.KernelIdeal.Launch
import Idealize.ShloMosaic.Lib.Pipeline.Frame
import Idealize.ShloMosaic.Lib.Tactic
import Idealize.ShloMosaic.Lib.Exec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The table of row indices as the body is handed it: the whole scalar-memory buffer. -/
abbrev tbM : Memref sig .tc .smem S131072 .i32 := Memref.whole main_v2
abbrev htbM : (tbM).IsWhole := Memref.isWhole_whole _
/-- The array of rows, left where it is: the body copies single rows out of it. -/
abbrev hbM : Memref sig .tc .hbm S100000x512 .f32 := Memref.whole main_arg0
abbrev hhbM : (hbM).IsWhole := Memref.isWhole_whole _

/-- A buffer's contents type on core c, and the buffer held whole at a share: the table at the half the
    body is lent, the array of rows at the half the block fetches leave free. -/
abbrev BufOf (c : Dev nD) {sp : Space} {S : Shape} {e : EltTy} (M : Memref sig .tc sp S e) : Type := Buf (Elt F) (M.view.loc (c : Thread nD τ))
abbrev heldAt (c : Dev nD) (q : PosShare TreeShare) {sp : Space} {S : Shape} {e : EltTy} (M : Memref sig .tc sp S e) (f : BufOf (F := F) c M) : sProp 𝕄 :=
  M.view.loc (c : Thread nD τ) ↦{q} f

/-- Whether the point is the first one, as the body computes it from its coordinate. -/
abbrev isFirst (i : grid0.Coords) : Prop :=
  Scalar.cmpi .ne (Scalar.extui (Scalar.cmpi .eq (BitVec.ofNat 32 (i 0).val) 0#32)) 0#32 = 1#1

/-- A row index below 100000 names a whole row inside the array: the copy's one side condition. -/
theorem row_inside (v : BitVec 32) (h : v.toNat < 100000) :
    ∀ a : Fin 2, (![v.toNat, 0] : Fin 2 → Nat) a + S1x512.size a ≤ S100000x512.size a := by
  intro a; fin_cases a
  · show v.toNat + 1 ≤ 100000; omega
  · show 0 + 512 ≤ 512; omega

/-- Every word of the table, however the body reads it, is a row index below 100000. -/
abbrev RowsBelow (c : Dev nD) (xt : BufOf (F := F) c tbM) : Prop :=
  ∀ (r : LoadRect S131072) (j : r.shape.Idx), ((tbM).view.readAt (Elt F) r xt j).toNat < 100000

end Cert.KernelIdeal.Body

end
-- ==== Proof.RegionStateIdeal.lean ====
/-
  The row-gather region seen from outside the body: the table's contents when the region is entered, the
  pipeline at those contents, the windows' buffers at a point, when each output window is written back,
  and what the body keeps between grid points — its two-slot buffer, its two copy counters at zero, the
  table, and the half of the array of rows that the block fetches leave free.
-/
import proofs.«106441_j1580547974259_1_alg».proof.Proof.BodyCommonIdeal
import Idealize.ShloMosaic.Lib.Pipeline.Regions
import Idealize.ShloMosaic.Lib.Pipeline.FrameBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

-- what core c's buffers hold when the region is entered
variable (V : (c : Dev nD) → (b : Ref sig .tc) → Buf (Elt F) ((c : Thread nD τ).loc b))

/-- The table's contents at entry (there is one device). -/
def tbl : pre0.Contents (Elt F) := fun j => V (0 : Dev nD) (pre0.ref j)
theorem V_pre (c : Dev nD) (j : Fin 1) : V c (pre0.ref j) = tbl V j := by
  obtain rfl : c = 0 := Subsingleton.elim _ _; rfl
/-- The pipeline at those contents: no index map reads the table, so every contents is admissible. -/
abbrev adm : (pcfg0 (F := F)).Adm := ⟨tbl V, trivial⟩
abbrev cfgM : Pipeline.Cfg sig Λ₀ := cfg0 (adm V)

/-- A window's block at a point, read off its array as the region finds it. -/
def iblk (c : Dev nD) (w : Fin (cfgM V).W) (t : Fin (cfgM V).N) : (((cfgM V).win w).xblock ((cfgM V).grid.coords t)).Idx → Elt F ((cfgM V).win w).elt :=
  (((cfgM V).win w).blk t).view.read (Elt F) (V c (Pipeline.arrRef spec0 w))

/-- The block of rows sits in its buffer at every point, fetched there or not: the body only reads it. -/
theorem before_rows_of {c : Dev nD} (dat : Dat τ (Elt F) Unit ℕ (Pipeline.UD sig nD τ) ℕ (cfgM V) c) (hA : dat.A 0 = V c (Pipeline.arrRef spec0 0))
    (hafter : ∀ t, dat.after 0 t = iblk V c 0 t) (t : Fin (cfgM V).N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The current buffers of the three windows at a point, and the two-slot buffer. -/
abbrev ms0 (t : Fin (cfgM V).N) : Memref sig .tc .vmem S8x512 .f32 := spec0_0.stage ((cfgM V).slots t 0)
abbrev hs0 (t : Fin (cfgM V).N) : (ms0 V t).IsWhole := hstage0_0 (((cfgM V).slots t 0).cast nbuf0_0)
abbrev ms1 (t : Fin (cfgM V).N) : Memref sig .tc .vmem S8x16 .f32 := spec0_1.stage ((cfgM V).slots t 1)
abbrev hs1 (t : Fin (cfgM V).N) : (ms1 V t).IsWhole := hstage0_1 (((cfgM V).slots t 1).cast nbuf0_1)
abbrev ms2 (t : Fin (cfgM V).N) : Memref sig .tc .vmem S1x512 .f32 := spec0_2.stage ((cfgM V).slots t 2)
abbrev hs2 (t : Fin (cfgM V).N) : (ms2 V t).IsWhole := hstage0_2 (((cfgM V).slots t 2).cast nbuf0_2)
abbrev scM : Memref sig .tc .vmem S2x512 .f32 := Memref.whole cc0_scratch0
abbrev hscM : (scM).IsWhole := Memref.isWhole_whole _
abbrev VO1 : View sig .tc .vmem S8x16 .f32 := (Memref.whole cc0_stg1_0 : Memref sig .tc .vmem S8x16 .f32).view
abbrev VO2 : View sig .tc .vmem S1x512 .f32 := (Memref.whole cc0_stg2_0 : Memref sig .tc .vmem S1x512 .f32).view

/-- The body's first-point test holds at point 0 only; the maxima are written back at every point, the
    column sums after the last only — at any contents of the table. -/
theorem first_iff (a : (pcfg0 (F := F)).Adm) : ∀ t : Fin (cfg0 a).N, isFirst (grid0.coords t) ↔ t.val = 0 :=
  (by decide +kernel : ∀ t : Fin grid0.N, isFirst (grid0.coords t) ↔ t.val = 0)
theorem flush_max (a : (pcfg0 (F := F)).Adm) : ∀ t : Fin (cfg0 a).N, ((cfg0 a).win 1).flush t = true :=
  (by decide +kernel : ∀ t : Fin grid0.N, Pipeline.Window.flushOf grid0 true cc0_transform_2 t = true)
theorem flush_sums (a : (pcfg0 (F := F)).Adm) : ∀ t : Fin (cfg0 a).N, ((cfg0 a).win 2).flush t = true ↔ t.val = 1023 :=
  (by decide +kernel : ∀ t : Fin grid0.N, Pipeline.Window.flushOf grid0 true cc0_transform_3 t = true ↔ t.val = 1023)
theorem N_eq (a : (pcfg0 (F := F)).Adm) : (cfg0 a).N = 1024 := N_0

/-- The body's own two copy counters. -/
abbrev osem : Fin 2 → SemLoc sig := fun j => (![SemLoc.dma 5, SemLoc.dma 6] : Fin 2 → SemLoc sig) j
theorem ownSemFacts : Pipeline.OwnSemFacts spec0 osem := by decide

/-- What the body keeps between points. -/
def Phi (c : Dev nD) : sProp 𝕄 :=
  iprop(Pipeline.scopedRest spec0 c ∗ Pipeline.ownSems0 osem c ∗ Pipeline.prefHeld pre0 c (fun _ => fullShare) (tbl V)
    ∗ heldAt c fullShare.right hbM (V c main_arg0))

/-- The share of each input array the block fetches hold: half of the array of rows. -/
def shareOf : Fin 3 → PosShare TreeShare
  | ⟨0, _⟩ => fullShare.left
  | ⟨1, _⟩ => fullShare
  | ⟨2, _⟩ => fullShare

end Cert.KernelIdeal.Body

end
-- ==== Proof.HostSideIdeal.lean ====
/-
  The host side of the program's run. The program is a chain of six items: two stretches of host operations (the
  truncation of the second argument; its conversion to 32-bit integers and flattening into the table the region
  prefetches), the kernel region, and three more stretches (the reductions and scalings that turn the region's two
  output arrays into the four results). Between items every unscoped buffer of a core is held whole at a VALUATION:
  the launch contents, then each stretch applied in turn, the region changing its two output arrays only, to contents
  `o0`, `o1` that are parameters here.

  This module proves everything about that chain that is not the region itself:
  * the valuations and what each stretch leaves unchanged (no item writes an argument);
  * the readings: the table the region is entered with is the flattened index words of the second argument; the four
    results are named pure functions (`kcost`, `kdiff`, `kb`, `kbooster`) of `o0`, `o1` and the third argument;
  * `run_cond`: GIVEN a record of the region, entered from the valuation before it and left at the one after it, the
    whole program terminates and every unscoped buffer ends at the last valuation.
  Everything is stated for an arbitrary float instance.
-/
import proofs.«106441_j1580547974259_1_alg».proof.Proof.Gen.KernelIdeal.Launch
import proofs.«106441_j1580547974259_1_alg».proof.Proof.RowsInRange
import Idealize.ShloMosaic.Lib.Pipeline.Frame
import Idealize.ShloMosaic.Lib.Pipeline.Regions
import Idealize.ShloMosaic.Lib.StableHlo.Run

noncomputable section

namespace Cert.KernelIdeal.HostSide

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between the items of the program -/

variable (m : (ℓ : Loc nD τ sig) → Buf (Elt F) ℓ)
variable (o0 : (c : Dev nD) → Buf (Elt F) ((c : Thread nD τ).loc main_v3_0))
variable (o1 : (c : Dev nD) → Buf (Elt F) ((c : Thread nD τ).loc main_v3_1))

/-- Core `c`'s unscoped buffers at launch. -/
abbrev V0 (c : Dev nD) : Valuation τ sig (Elt F) := fun b => m (c, b)
/-- After the first stretch (the truncation of the second argument). -/
abbrev V0a (c : Dev nD) : Valuation τ sig (Elt F) := StableHlo.after hostOps0 (V0 m c)
/-- After the second stretch (the conversion to integers and the flattening into the table): what the region is entered with. -/
abbrev V1 (c : Dev nD) : Valuation τ sig (Elt F) := StableHlo.after hostOps0_1 (V0a m c)
/-- After the region, which may change its two output arrays only: they hold `o0 c` and `o1 c`. -/
abbrev V2 (c : Dev nD) : Valuation τ sig (Elt F) :=
  Function.update (Function.update (V1 m c) main_v3_0 (o0 c)) main_v3_1 (o1 c)
/-- After the first stretch behind the region, -/
abbrev V2a (c : Dev nD) : Valuation τ sig (Elt F) := StableHlo.after hostOps1 (V2 m o0 o1 c)
/-- the second, -/
abbrev V2b (c : Dev nD) : Valuation τ sig (Elt F) := StableHlo.after hostOps1_1 (V2a m o0 o1 c)
/-- and the last: the contents the program ends with. -/
abbrev V3 (c : Dev nD) : Valuation τ sig (Elt F) := StableHlo.after hostOps1_2 (V2b m o0 o1 c)

/-! ## What each stretch writes -/

theorem hostOps0_fresh : (hostOps0 : List (HloOp τ sig (Elt F))).Forall fun op => op.fresh = ∅ := by
  simp only [List.Forall]; repeat' constructor
/-- The references the operations of `hostOps0` write, in order. -/
abbrev hostOps0_W : List (Ref sig .tc) := [main_call0_cst, main_call0_v0, main_call0_v1, main_call0_v2, main_call0_v3, main_v0]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)

theorem hostOps0_1_fresh : (hostOps0_1 : List (HloOp τ sig (Elt F))).Forall fun op => op.fresh = ∅ := by
  simp only [List.Forall]; repeat' constructor
/-- The references the operations of `hostOps0_1` write, in order. -/
abbrev hostOps0_1_W : List (Ref sig .tc) := [main_v1, main_v2]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_⟩ <;> exact List.mem_map_of_mem (by decide)

theorem hostOps1_fresh : (hostOps1 : List (HloOp τ sig (Elt F))).Forall fun op => op.fresh = ∅ := by
  simp only [List.Forall]; repeat' constructor
/-- The references the operations of `hostOps1` write, in order. -/
abbrev hostOps1_W : List (Ref sig .tc) := [main_v4, main_cst, main_v5, main_cst_0, main_v6, main_v7, main_cst_1, main_v8, main_v9, main_cst_2, main_v10, main_v11, main_cst_3]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_⟩ <;> exact List.mem_map_of_mem (by decide)

theorem hostOps1_1_fresh : (hostOps1_1 : List (HloOp τ sig (Elt F))).Forall fun op => op.fresh = ∅ := by
  simp only [List.Forall]; repeat' constructor
/-- The references the operations of `hostOps1_1` write, in order. -/
abbrev hostOps1_1_W : List (Ref sig .tc) := [main_call1_v0, main_call1_v1, main_v12]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_⟩ <;> exact List.mem_map_of_mem (by decide)

theorem hostOps1_2_fresh : (hostOps1_2 : List (HloOp τ sig (Elt F))).Forall fun op => op.fresh = ∅ := by
  simp only [List.Forall]; repeat' constructor
/-- The references the operations of `hostOps1_2` write, in order. -/
abbrev hostOps1_2_W : List (Ref sig .tc) := [main_v13, main_v14, main_v15, main_cst_4, main_v16, main_cst_5, main_v17, main_cst_6, main_v18, main_v19, main_cst_7, main_v20, main_cst_8, main_v21, main_v22, main_cst_9, main_v23, main_v24, main_cst_10, main_v25]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_⟩ <;> exact List.mem_map_of_mem (by decide)

/-! ## What each item leaves unchanged -/

theorem V0a_of (c : Dev nD) (r : Ref sig .tc) (h : r ∉ hostOps0_W) : V0a m c r = V0 m c r :=
  StableHlo.after_of_writes_sub hostOps0 _ hostOps0_writes h
theorem V1_of' (c : Dev nD) (r : Ref sig .tc) (h : r ∉ hostOps0_1_W) : V1 m c r = V0a m c r :=
  StableHlo.after_of_writes_sub hostOps0_1 _ hostOps0_1_writes h
/-- A buffer neither stretch before the region writes holds its launch contents when the region is entered. -/
theorem V1_of (c : Dev nD) (r : Ref sig .tc) (h : r ∉ hostOps0_W) (h' : r ∉ hostOps0_1_W) : V1 m c r = V0 m c r :=
  (V1_of' m c r h').trans (V0a_of m c r h)
/-- The region changes its two output arrays only. -/
theorem V2_of (c : Dev nD) (r : Ref sig .tc) (h : r ∉ ([main_v3_0, main_v3_1] : List (Ref sig .tc))) : V2 m o0 o1 c r = V1 m c r := by
  have h0 : r ≠ main_v3_0 := fun e => h (e ▸ List.mem_cons_self)
  have h1 : r ≠ main_v3_1 := fun e => h (e ▸ List.mem_cons_of_mem _ List.mem_cons_self)
  simp only [V2, Function.update_of_ne (StableHlo.devRef_ne_of_ne h1 : (Proc.devRef .tc r : DevRef τ sig) ≠ Proc.devRef .tc main_v3_1),
    Function.update_of_ne (StableHlo.devRef_ne_of_ne h0 : (Proc.devRef .tc r : DevRef τ sig) ≠ Proc.devRef .tc main_v3_0)]
theorem V2_main_v3_0 (c : Dev nD) : V2 m o0 o1 c main_v3_0 = o0 c := by
  simp only [V2, Function.update_of_ne (StableHlo.devRef_ne_of_ne (by decide : main_v3_0 ≠ main_v3_1) : (Proc.devRef .tc main_v3_0 : DevRef τ sig) ≠ Proc.devRef .tc main_v3_1),
    Function.update_self]
theorem V2_main_v3_1 (c : Dev nD) : V2 m o0 o1 c main_v3_1 = o1 c := by
  simp only [V2, Function.update_self]
theorem V2a_of (c : Dev nD) (r : Ref sig .tc) (h : r ∉ hostOps1_W) : V2a m o0 o1 c r = V2 m o0 o1 c r :=
  StableHlo.after_of_writes_sub hostOps1 _ hostOps1_writes h
theorem V2b_of (c : Dev nD) (r : Ref sig .tc) (h : r ∉ hostOps1_1_W) : V2b m o0 o1 c r = V2a m o0 o1 c r :=
  StableHlo.after_of_writes_sub hostOps1_1 _ hostOps1_1_writes h
theorem V3_of' (c : Dev nD) (r : Ref sig .tc) (h : r ∉ hostOps1_2_W) : V3 m o0 o1 c r = V2b m o0 o1 c r :=
  StableHlo.after_of_writes_sub hostOps1_2 _ hostOps1_2_writes h
/-- A buffer no stretch behind the region writes ends with what the region left in it. -/
theorem V3_of (c : Dev nD) (r : Ref sig .tc) (h : r ∉ hostOps1_W) (h' : r ∉ hostOps1_1_W) (h'' : r ∉ hostOps1_2_W) :
    V3 m o0 o1 c r = V2 m o0 o1 c r :=
  (V3_of' m o0 o1 c r h'').trans <| (V2b_of m o0 o1 c r h').trans (V2a_of m o0 o1 c r h)

/-! ## No item writes an argument -/

theorem V1_main_arg0 (c : Dev nD) : V1 m c main_arg0 = m ((c : Thread nD τ).loc main_arg0) := (V1_of m c main_arg0 (by decide) (by decide)).trans rfl
theorem V1_main_arg1 (c : Dev nD) : V1 m c main_arg1 = m ((c : Thread nD τ).loc main_arg1) := (V1_of m c main_arg1 (by decide) (by decide)).trans rfl
theorem V1_main_arg2 (c : Dev nD) : V1 m c main_arg2 = m ((c : Thread nD τ).loc main_arg2) := (V1_of m c main_arg2 (by decide) (by decide)).trans rfl
theorem V1_main_v3_0 (c : Dev nD) : V1 m c main_v3_0 = m ((c : Thread nD τ).loc main_v3_0) := (V1_of m c main_v3_0 (by decide) (by decide)).trans rfl
theorem V1_main_v3_1 (c : Dev nD) : V1 m c main_v3_1 = m ((c : Thread nD τ).loc main_v3_1) := (V1_of m c main_v3_1 (by decide) (by decide)).trans rfl
theorem V3_main_arg0 (c : Dev nD) : V3 m o0 o1 c main_arg0 = m ((c : Thread nD τ).loc main_arg0) :=
  (V3_of m o0 o1 c main_arg0 (by decide) (by decide) (by decide)).trans <| (V2_of m o0 o1 c main_arg0 (by decide)).trans (V1_main_arg0 m c)
theorem V3_main_arg1 (c : Dev nD) : V3 m o0 o1 c main_arg1 = m ((c : Thread nD τ).loc main_arg1) :=
  (V3_of m o0 o1 c main_arg1 (by decide) (by decide) (by decide)).trans <| (V2_of m o0 o1 c main_arg1 (by decide)).trans (V1_main_arg1 m c)
theorem V3_main_arg2 (c : Dev nD) : V3 m o0 o1 c main_arg2 = m ((c : Thread nD τ).loc main_arg2) :=
  (V3_of m o0 o1 c main_arg2 (by decide) (by decide) (by decide)).trans <| (V2_of m o0 o1 c main_arg2 (by decide)).trans (V1_main_arg2 m c)

/-! ## The table the region is entered with -/

/-- The prefetched table when the region is entered: the index words of the second argument
    (`Cert.RowsInRange.rows`), flattened. -/
theorem V1_main_v2 (c : Dev nD) :
    (V1 m c main_v2 : S131072.Idx → BitVec 32)
      = shapeCast S131072 (Cert.RowsInRange.rows (m ((c : Thread nD τ).loc main_arg1))) Facts₀.shapeCasts_S8192x16_S131072 := by
  show StableHlo.after hostOps0_1 (StableHlo.after hostOps0 (V0 m c)) (Proc.devRef .tc main_v2) = _
  after_results
  rfl

/-! ## The host operations behind the region, as pure functions of what the region left -/

/-- The second output array (one row of 512) as a vector of 512. -/
def kflat (bc : FVec F S1x512 .f32) : FVec F S512 .f32 := shapeCast S512 bc Facts₀.shapeCasts_S1x512_S512

/-- `(2 − mean over the columns of add) / 2`: the mean is the row sum divided by 16. -/
def khalf (add : FVec F S8192x16 .f32) : FVec F S8192 .f32 :=
  Host.divf
    (subf (broadcastInDim S8192 ![] Facts₀.bcast_S_S8192 (constant (F := F) S_ .f32 0x40000000#32))
      (Host.divf (Host.reduceAdd add (constant (F := F) S_ .f32 0x00000000#32) Facts₀.reducesTo_S8192x16_S8192_d1 Facts₀.h_S_)
        (broadcastInDim S8192 ![] Facts₀.bcast_S_S8192 (constant (F := F) S_ .f32 0x41800000#32))))
    (broadcastInDim S8192 ![] Facts₀.bcast_S_S8192 (constant (F := F) S_ .f32 0x40000000#32))

/-- The fourth result: `max(1/2, (2 − row mean of add) / 2)` per row. -/
def kbooster (add : FVec F S8192x16 .f32) : FVec F S8192 .f32 :=
  maximumf (broadcastInDim S8192 ![] Facts₀.bcast_S_S8192 (id (constant (F := F) S_ .f32 0x3F000000#32))) (khalf add)

/-- The second result: `(2 − mean of add · w over all entries)²`, the weight `w` broadcast along the columns, the mean the
    sum divided by 131072. -/
def kdiff (add : FVec F S8192x16 .f32) (w : FVec F S8192 .f32) : FVec F S_ .f32 :=
  mulf
    (subf (constant (F := F) S_ .f32 0x40000000#32)
      (Host.divf
        (Host.reduceAdd (mulf add (broadcastInDim S8192x16 ![0, 1] Facts₀.bcast_S8192x1_S8192x16_0_1 (broadcastInDim S8192x1 ![0] Facts₀.bcast_S8192_S8192x1_0 w)))
          (constant (F := F) S_ .f32 0x00000000#32) Facts₀.reducesTo_S8192x16_S_d0_1 Facts₀.h_S_)
        (constant (F := F) S_ .f32 0x48000000#32)))
    (subf (constant (F := F) S_ .f32 0x40000000#32)
      (Host.divf
        (Host.reduceAdd (mulf add (broadcastInDim S8192x16 ![0, 1] Facts₀.bcast_S8192x1_S8192x16_0_1 (broadcastInDim S8192x1 ![0] Facts₀.bcast_S8192_S8192x1_0 w)))
          (constant (F := F) S_ .f32 0x00000000#32) Facts₀.reducesTo_S8192x16_S_d0_1 Facts₀.h_S_)
        (constant (F := F) S_ .f32 0x48000000#32)))

/-- The spread of a vector of 512: its maximum (from −∞) minus its minimum (from +∞). -/
def kspread (v : FVec F S512 .f32) : FVec F S_ .f32 :=
  subf (Host.reduce FloatOps.maximumf v (constant (F := F) S_ .f32 0xFF800000#32) Facts₀.reducesTo_S512_S_d0 Facts₀.h_S_)
    (Host.reduce FloatOps.minimumf v (constant (F := F) S_ .f32 0x7F800000#32) Facts₀.reducesTo_S512_S_d0 Facts₀.h_S_)

/-- The third result: the spread divided by 195.3125. -/
def kb (v : FVec F S512 .f32) : FVec F S_ .f32 := Host.divf (kspread v) (constant (F := F) S_ .f32 0x43435000#32)

/-- The first result: the third plus the second. -/
def kcost (add : FVec F S8192x16 .f32) (v : FVec F S512 .f32) (w : FVec F S8192 .f32) : FVec F S_ .f32 :=
  addf (Host.divf (kspread v) (constant (F := F) S_ .f32 0x43435000#32)) (kdiff add w)

/-! ### Each stretch behind the region, read at the buffers that matter, from any contents -/

section Stretch

variable (Vb : Valuation τ sig (Elt F))

theorem after1_main_v4 : (StableHlo.after hostOps1 Vb (Proc.devRef .tc main_v4) : FVec F S512 .f32) = kflat (Vb (Proc.devRef .tc main_v3_1)) := by
  after_results
  rfl
theorem after1_main_v11 : (StableHlo.after hostOps1 Vb (Proc.devRef .tc main_v11) : FVec F S8192 .f32) = khalf (Vb (Proc.devRef .tc main_v3_0)) := by
  after_results
  rfl
theorem after1_main_cst_3 : (StableHlo.after hostOps1 Vb (Proc.devRef .tc main_cst_3) : FVec F S_ .f32) = constant (F := F) S_ .f32 0x3F000000#32 := by
  after_results
theorem after11_main_v12 : (StableHlo.after hostOps1_1 Vb (Proc.devRef .tc main_v12) : FVec F S8192 .f32)
    = maximumf (broadcastInDim S8192 ![] Facts₀.bcast_S_S8192 (id (Vb (Proc.devRef .tc main_cst_3) : FVec F S_ .f32))) (Vb (Proc.devRef .tc main_v11) : FVec F S8192 .f32) := by
  after_results
  rfl
theorem after12_main_v19 : (StableHlo.after hostOps1_2 Vb (Proc.devRef .tc main_v19) : FVec F S_ .f32)
    = kdiff (Vb (Proc.devRef .tc main_v3_0)) (Vb (Proc.devRef .tc main_arg2)) := by
  after_results
  rfl
theorem after12_main_v25 : (StableHlo.after hostOps1_2 Vb (Proc.devRef .tc main_v25) : FVec F S_ .f32)
    = kb (Vb (Proc.devRef .tc main_v4)) := by
  after_results
  rfl
theorem after12_main_v24 : (StableHlo.after hostOps1_2 Vb (Proc.devRef .tc main_v24) : FVec F S_ .f32)
    = kcost (Vb (Proc.devRef .tc main_v3_0)) (Vb (Proc.devRef .tc main_v4)) (Vb (Proc.devRef .tc main_arg2)) := by
  after_results
  rfl

end Stretch

/-! ## The four results, read off the last valuation -/

theorem V2b_main_v3_0 (c : Dev nD) : V2b m o0 o1 c main_v3_0 = o0 c :=
  (V2b_of m o0 o1 c main_v3_0 (by decide)).trans <| (V2a_of m o0 o1 c main_v3_0 (by decide)).trans (V2_main_v3_0 m o0 o1 c)
theorem V2b_main_arg2 (c : Dev nD) : V2b m o0 o1 c main_arg2 = m ((c : Thread nD τ).loc main_arg2) :=
  (V2b_of m o0 o1 c main_arg2 (by decide)).trans <| (V2a_of m o0 o1 c main_arg2 (by decide)).trans <|
    (V2_of m o0 o1 c main_arg2 (by decide)).trans (V1_main_arg2 m c)
theorem V2b_main_v4 (c : Dev nD) : (V2b m o0 o1 c main_v4 : FVec F S512 .f32) = kflat (o1 c) :=
  (V2b_of m o0 o1 c main_v4 (by decide)).trans <| (after1_main_v4 (V2 m o0 o1 c)).trans (congrArg kflat (V2_main_v3_1 m o0 o1 c))
theorem V2a_main_v11 (c : Dev nD) : (V2a m o0 o1 c main_v11 : FVec F S8192 .f32) = khalf (o0 c) :=
  (after1_main_v11 (V2 m o0 o1 c)).trans (congrArg khalf (V2_main_v3_0 m o0 o1 c))
theorem V2a_main_cst_3 (c : Dev nD) : (V2a m o0 o1 c main_cst_3 : FVec F S_ .f32) = constant (F := F) S_ .f32 0x3F000000#32 :=
  after1_main_cst_3 (V2 m o0 o1 c)

/-- The first result (`cost`). -/
theorem V3_main_v24 (c : Dev nD) :
    (V3 m o0 o1 c main_v24 : FVec F S_ .f32) = kcost (o0 c) (kflat (o1 c)) (m ((c : Thread nD τ).loc main_arg2)) :=
  (after12_main_v24 (V2b m o0 o1 c)).trans <|
    (congrArg (fun a => kcost a _ _) (V2b_main_v3_0 m o0 o1 c)).trans <|
      (congrArg (fun v => kcost _ v _) (V2b_main_v4 m o0 o1 c)).trans (congrArg (fun w => kcost _ _ w) (V2b_main_arg2 m o0 o1 c))
/-- The second result (`diff`). -/
theorem V3_main_v19 (c : Dev nD) :
    (V3 m o0 o1 c main_v19 : FVec F S_ .f32) = kdiff (o0 c) (m ((c : Thread nD τ).loc main_arg2)) :=
  (after12_main_v19 (V2b m o0 o1 c)).trans <|
    (congrArg (fun a => kdiff a _) (V2b_main_v3_0 m o0 o1 c)).trans (congrArg (fun w => kdiff _ w) (V2b_main_arg2 m o0 o1 c))
/-- The third result (`b` over its target). -/
theorem V3_main_v25 (c : Dev nD) : (V3 m o0 o1 c main_v25 : FVec F S_ .f32) = kb (kflat (o1 c)) :=
  (after12_main_v25 (V2b m o0 o1 c)).trans (congrArg kb (V2b_main_v4 m o0 o1 c))
/-- The fourth result (the booster weights). -/
theorem V3_main_v12 (c : Dev nD) : (V3 m o0 o1 c main_v12 : FVec F S8192 .f32) = kbooster (o0 c) :=
  (V3_of' m o0 o1 c main_v12 (by decide)).trans <| (after11_main_v12 (V2a m o0 o1 c)).trans <|
    (congrArg (fun k => maximumf (broadcastInDim S8192 ![] Facts₀.bcast_S_S8192 (id k)) _) (V2a_main_cst_3 m o0 o1 c)).trans
      (congrArg (fun h => maximumf (broadcastInDim S8192 ![] Facts₀.bcast_S_S8192 (id (constant (F := F) S_ .f32 0x3F000000#32))) h) (V2a_main_v11 m o0 o1 c))

/-! ## The items as segments -/

section Run

local notation "𝕄" => MT nD τ sig Unit (Elt F) ℕ (Pipeline.UD sig nD τ) ℕ

/-- No core owes anything at launch: no level facts, no dues, no ghost resources besides the pipeline's. -/
abbrev L₀ : GSem nD τ sig → Finset Unit := fun _ => ∅
abbrev lv₀ : GSem nD τ sig → Unit → ℕ := fun _ _ => 0
abbrev O₀ : Dev nD → CellTallies nD τ sig Unit := fun _ => 0
abbrev G₀ : Dev nD → sProp 𝕄 := fun _ => iprop(emp)

/-- What the launch deals core `c` besides its unscoped buffers: the unscoped semaphores at zero, the core owing
    nothing, its launch credit, the generator register. It rides along the two stretches before the region. -/
abbrev E0 (ρ : Dev nD → PrngReg) (c : Dev nD) : sProp 𝕄 :=
  iprop(unscopedSems0 c ∗ owes (c : Thread nD τ) (O₀ c) ∅ ∗ Pipeline.launchCred O₀ c ∗ prngReg c (ρ c) ∗ G₀ (F := F) c)

/-- The first stretch, from the launch contents. -/
def seg0 (𝒱₀ : Variants) (ρ : Dev nD → PrngReg) :
    HostSeg (Ix := Unit) (Name := ℕ) (U := Pipeline.UD sig nD τ) (Lvl := ℕ) (pcfgs (F := F)) defs₀ 𝒱₀ L₀ lv₀ :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E0 ρ)
/-- The second stretch. -/
def seg0_1 (𝒱₀ : Variants) (ρ : Dev nD → PrngReg) :
    HostSeg (Ix := Unit) (Name := ℕ) (U := Pipeline.UD sig nD τ) (Lvl := ℕ) (pcfgs (F := F)) defs₀ 𝒱₀ L₀ lv₀ :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V0a m) (E0 ρ)
/-- The first stretch behind the region, from what the region left, the rest `E1` riding along. -/
def seg1 (𝒱₀ : Variants) (E1 : Dev nD → sProp 𝕄) :
    HostSeg (Ix := Unit) (Name := ℕ) (U := Pipeline.UD sig nD τ) (Lvl := ℕ) (pcfgs (F := F)) defs₀ 𝒱₀ L₀ lv₀ :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m o0 o1) E1
/-- The second stretch behind the region. -/
def seg1_1 (𝒱₀ : Variants) (E1 : Dev nD → sProp 𝕄) :
    HostSeg (Ix := Unit) (Name := ℕ) (U := Pipeline.UD sig nD τ) (Lvl := ℕ) (pcfgs (F := F)) defs₀ 𝒱₀ L₀ lv₀ :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V2a m o0 o1) E1
/-- The last stretch. -/
def seg1_2 (𝒱₀ : Variants) (E1 : Dev nD → sProp 𝕄) :
    HostSeg (Ix := Unit) (Name := ℕ) (U := Pipeline.UD sig nD τ) (Lvl := ℕ) (pcfgs (F := F)) defs₀ 𝒱₀ L₀ lv₀ :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (V2b m o0 o1) E1

/-- The program's items as segments, in order: two stretches, the region, three stretches. -/
abbrev segs (𝒱₀ : Variants) (ρ : Dev nD → PrngReg) (E1 : Dev nD → sProp 𝕄) (adm : (p : Fin 1) → (pcfgs (F := F) p).Adm)
    (pdats : (p : Fin 1) → (c : Dev nD) → Dat τ (Elt F) Unit ℕ (Pipeline.UD sig nD τ) ℕ (Pipeline.pin (pcfgs (F := F)) adm p) c)
    (R0 : RegionSeg (pcfgs (F := F)) adm pdats () defs₀ 𝒱₀ L₀ lv₀ 0) :
    List (Seg (pcfgs (F := F)) adm pdats () defs₀ 𝒱₀ L₀ lv₀) :=
  [.host (seg0 m 𝒱₀ ρ), .host (seg0_1 m 𝒱₀ ρ), .region R0, .host (seg1 m o0 o1 𝒱₀ E1), .host (seg1_1 m o0 o1 𝒱₀ E1), .host (seg1_2 m o0 o1 𝒱₀ E1)]

/-! ## The run, given the region's record -/

set_option backward.isDefEq.respectTransparency.types false in
/-- GIVEN the region's segment record, entered from the buffers at `V1` beside what the launch dealt (`hpre0`) and
    left at `V2` beside a rest that owes nothing (`hpost0`, `hE1`): every weakly fair execution of the program from
    memory `m` with zero counters terminates, and every final memory holds each unscoped buffer at `V3`. -/
theorem run_cond (𝒱₀ : Variants) (ρ : Dev nD → PrngReg) (adm : (p : Fin 1) → (pcfgs (F := F) p).Adm)
    (pdats : (p : Fin 1) → (c : Dev nD) → Dat τ (Elt F) Unit ℕ (Pipeline.UD sig nD τ) ℕ (Pipeline.pin (pcfgs (F := F)) adm p) c)
    (E1 : Dev nD → sProp 𝕄)
    (hE1 : ∀ c : Dev nD, E1 c ⊢ (iprop(∃ W, owes (c : Thread nD τ) (0 : CellTallies nD τ sig Unit) W) : sProp 𝕄))
    (R0 : RegionSeg (pcfgs (F := F)) adm pdats () defs₀ 𝒱₀ L₀ lv₀ 0)
    (hpre0 : ∀ c : Dev nD, iprop(StableHlo.held (c : Thread nD τ) (Pipeline.ucRefs τ sig) (V1 m c) ∗ E0 ρ c) ⊢ R0.pre c)
    (hpost0 : ∀ c : Dev nD, R0.post c ⊢ iprop(StableHlo.held (c : Thread nD τ) (Pipeline.ucRefs τ sig) (V2 m o0 o1 c) ∗ E1 c)) :
    θ_run defs (onTc (τ := τ) (main (F := F))) ⟨m, fun _ => 0, ρ⟩ (fun r => ∀ c : Dev nD, ∀ b : Ref sig .tc,
      ¬ (Proc.devRef .tc b : DevRef τ sig).isScoped →
        r.2.mem ((c.tc : Thread nD τ).loc b) = V3 m o0 o1 c (Proc.devRef .tc b)) := by
  refine Pipeline.θ_run_regions_kit_dev (pcfgs (F := F)) adm pdats () (cellOf_inj adm) embL defs₀ 𝒱₀ L₀ lv₀ m ρ main
    (fun _ => segs m o0 o1 𝒱₀ ρ E1 adm pdats R0)
    (fun c Q => by
      rewrite [main_chain c, Seg.run_eq_chain,
        show (segs m o0 o1 𝒱₀ ρ E1 adm pdats R0).map Seg.prog = [
          StableHlo.seq hostOps0,
          StableHlo.seq hostOps0_1,
          Prog.lift (.customCall (Pipeline.entry 0) ()),
          StableHlo.seq hostOps1,
          StableHlo.seq hostOps1_1,
          StableHlo.seq hostOps1_2 ] from rfl]
      exact .rfl)
    (fun c => by simp only [segs, Seg.pipes_host, Seg.pipes_region, Seg.pipes_nil]; decide) O₀ (fun _ _ => rfl) G₀
    (initOf (Pipeline.cells (Pipeline.pin (pcfgs (F := F)) adm) (cellOf_inj adm)) (Pipeline.launchToks (Pipeline.pin (pcfgs (F := F)) adm) (cellOf_inj adm)), 1)
    (by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E0 ρ c))
    (Tₙ := fun c => StableHlo.held (c : Thread nD τ) (Pipeline.ucRefs τ sig) (V3 m o0 o1 c))
    (hch := fun c => ⟨.rfl, .rfl, hpre0 c, hpost0 c, .rfl, .rfl, sep_mono .rfl (hE1 c)⟩)
    (hinit := ?_)
    (QY := fun c s => ∀ b : Ref sig .tc, ¬ (Proc.devRef .tc b : DevRef τ sig).isScoped →
      s.mem ((c.tc : Thread nD τ).loc b) = V3 m o0 o1 c (Proc.devRef .tc b))
    (hfin := fun c s' => ?_) (hQ := fun _ h c b hb => h c b hb)
  · -- the launch: the unscoped buffers are held at `V0`; the rest is `E0`, as dealt
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G₀ (F := F) c))
        ⊢ (bigSep Finset.univ fun c : Dev nD => iprop(StableHlo.held (c : Thread nD τ) (Pipeline.ucRefs τ sig) (V0 m c) ∗ E0 ρ c) : sProp 𝕄) :=
      bigSep_mono fun c _ => by rw [← Pipeline.unscopedBufs_held (Ix := Unit) (Name := ℕ) (U := Pipeline.UD sig nD τ) (Lvl := ℕ) c (V0 m c)]; exact BI.Entails.refl _
    iintro ⟨H, -⟩
    ihave H' := hsplit $$ H
    imodintro
    iexact H'
  · -- the end: every unscoped buffer read off the last valuation
    unfold StableHlo.held
    iintro ⟨Hh, HSI⟩
    ihave Hr := (pointsTo_read_all (Pipeline.ucRefs τ sig) (fun b => ((c : Thread nD τ).1, b)) (V3 m o0 o1 c) s') $$ [Hh HSI]
    · isplitl [Hh] <;> iassumption
    icases Hr with ⟨%h, HSI⟩
    imodintro
    isplitr
    · ipureintro
      intro b hb
      exact h (Proc.devRef .tc b) (Finset.mem_filter.mpr ⟨StableHlo.devRef_mem_tcRefs b, hb⟩)
    · iexact HSI

end Run

end Cert.KernelIdeal.HostSide

end
-- ==== Proof.RegionRecordIdeal.lean ====
/-
  The kernel region's record: the region as one item of the program's chain. The region is entered holding every
  unscoped buffer of the core whole, beside what the launch dealt, and is left the same way with its two output arrays
  changed. In between, the pipeline and the body share the array of rows: it is both the array the first window's
  blocks are fetched from and the array the body copies single rows out of. So at entry its whole points-to is split
  in two halves, the left for the block fetches and the right for the body's invariant, and at exit the halves are
  joined again; the array is an input, so it holds what it held. The table goes to the pipeline whole; everything
  else passes the region by. Given proof data with these entry contents, shares, invariant and no dues, and the body
  obligation, this yields the record, and with it the run of the whole program.
-/
import proofs.«106441_j1580547974259_1_alg».proof.Proof.RegionStateIdeal
import proofs.«106441_j1580547974259_1_alg».proof.Proof.HostSideIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)
open Cert.KernelIdeal.HostSide (L₀ lv₀ O₀ G₀ E0)

variable {F : FTy → Type} [FloatOps F]

local notation "𝕄" => MT nD τ sig Unit (Elt F) ℕ (Pipeline.UD sig nD τ) ℕ

/-! ## A core's unscoped buffers, sorted for the region -/

/-- A core's buffers before the region as a function of references, read off a valuation. -/
abbrev VR (W : Dev nD → Valuation τ sig (Elt F)) : (c : Dev nD) → (b : Ref sig .tc) → Buf (Elt F) ((c : Thread nD τ).loc b) :=
  fun c b => W c (Proc.devRef .tc b)

/-- The four buffers the region sorts out of a core's unscoped ones: the three windows' arrays and the table. -/
abbrev T4r : Finset (Ref sig .tc) := {main_arg0, main_v3_0, main_v3_1, main_v2}
abbrev T4 : Finset (DevRef τ sig) := T4r.map ⟨Proc.devRef .tc, Proc.devRef_injective _⟩

theorem T4_sub : (T4 : Finset (DevRef τ sig)) ⊆ Pipeline.ucRefs τ sig := fun b hb => by
  obtain ⟨r, hr, rfl⟩ := Finset.mem_map.mp hb
  exact Finset.mem_filter.mpr ⟨StableHlo.devRef_mem_tcRefs r, (by decide : ∀ r ∈ T4r, ¬ (Proc.devRef (τ := τ) .tc r).isScoped) r hr⟩

/-- Those four, held whole, one by one. -/
theorem held_T4 (c : Dev nD) (W : Valuation τ sig (Elt F)) :
    (StableHlo.held (c : Thread nD τ) T4 W : sProp 𝕄)
      = iprop((((c : Thread nD τ).loc main_arg0) ↦{fullShare} W main_arg0) ∗ (((c : Thread nD τ).loc main_v3_0) ↦{fullShare} W main_v3_0)
          ∗ (((c : Thread nD τ).loc main_v3_1) ↦{fullShare} W main_v3_1) ∗ (((c : Thread nD τ).loc main_v2) ↦{fullShare} W main_v2)) := by
  unfold StableHlo.held
  rw [bigSep_map, bigSep_insert (by decide), bigSep_insert (by decide), bigSep_insert (by decide), bigSep_singleton]
  rfl

section Arrays

variable (V : (c : Dev nD) → (b : Ref sig .tc) → Buf (Elt F) ((c : Thread nD τ).loc b)) (c : Dev nD)
  (D : Dat τ (Elt F) Unit ℕ (Pipeline.UD sig nD τ) ℕ (cfgM V) c)

/-- The block fetches hold the array of rows at the left half; the two outputs are held whole. -/
theorem share0 (hq : ∀ w, D.q w = shareOf w) : D.share 0 = fullShare.left := by
  unfold Dat.share
  rw [if_neg (by rw [show ((cfgM V).win 0).isOut = false from rfl]; exact Bool.false_ne_true), hq]; rfl
theorem share1 : D.share 1 = fullShare := by
  unfold Dat.share
  rw [if_pos (show ((cfgM V).win 1).isOut = true from rfl)]
theorem share2 : D.share 2 = fullShare := by
  unfold Dat.share
  rw [if_pos (show ((cfgM V).win 2).isOut = true from rfl)]

/-- The pipeline's three arrays, one by one. -/
theorem arrays_three (hq : ∀ w, D.q w = shareOf w) (Fa : (w : Fin (cfgM V).W) → Buf (Elt F) (((cfgM V).win w).arr.view.loc (c : Thread nD τ))) :
    (D.arrays Fa : sProp 𝕄)
      = iprop((((c : Thread nD τ).loc main_arg0) ↦{fullShare.left} Fa 0) ∗ (((c : Thread nD τ).loc main_v3_0) ↦{fullShare} Fa 1)
          ∗ (((c : Thread nD τ).loc main_v3_1) ↦{fullShare} Fa 2)) := by
  unfold Dat.arrays
  rw [bigSep_W0, share0 V c D hq, share1 V c D, share2 V c D,
    (arr_whole0 0).set_eq_univ, (arr_whole0 1).set_eq_univ, (arr_whole0 2).set_eq_univ]

/-- At entry the arrays hold what the core's buffers hold. -/
theorem arrays_entry (hq : ∀ w, D.q w = shareOf w) (hA : ∀ w, D.A w = V c (Pipeline.arrRef spec0 w)) :
    (D.arrays (D.arrAt · 0) : sProp 𝕄)
      = iprop((((c : Thread nD τ).loc main_arg0) ↦{fullShare.left} V c main_arg0) ∗ (((c : Thread nD τ).loc main_v3_0) ↦{fullShare} V c main_v3_0)
          ∗ (((c : Thread nD τ).loc main_v3_1) ↦{fullShare} V c main_v3_1)) := by
  rw [arrays_three V c D hq]
  show iprop((_ ↦{_} D.A 0) ∗ (_ ↦{_} D.A 1) ∗ (_ ↦{_} D.A 2)) = _
  rw [hA 0, hA 1, hA 2]
  rfl

/-- At exit the array of rows, an input, holds what it held; the two outputs hold their final contents. -/
theorem arrays_exit (hq : ∀ w, D.q w = shareOf w) (hA : ∀ w, D.A w = V c (Pipeline.arrRef spec0 w)) :
    (D.arrays (D.arrAt · (cfgM V).N) : sProp 𝕄)
      = iprop((((c : Thread nD τ).loc main_arg0) ↦{fullShare.left} V c main_arg0) ∗ (((c : Thread nD τ).loc main_v3_0) ↦{fullShare} D.arrAt 1 (cfgM V).N)
          ∗ (((c : Thread nD τ).loc main_v3_1) ↦{fullShare} D.arrAt 2 (cfgM V).N)) := by
  rw [arrays_three V c D hq]
  show iprop((_ ↦{_} D.arrAt 0 (cfgM V).N) ∗ _) = _
  rw [D.arrAt_in 0 rfl (cfgM V).N, hA 0]
  rfl

/-- The table, the one prefetched buffer, at a share. -/
theorem prefHeld_tbl (q : PosShare TreeShare) :
    (Pipeline.prefHeld pre0 c (fun _ => q) (tbl V) : sProp 𝕄) = (((c : Thread nD τ).loc main_v2) ↦{q} V c main_v2) := by
  unfold Pipeline.prefHeld
  rw [bigSep_univ_of_subsingleton (0 : Fin 1), ← V_pre V c 0]
  rfl

end Arrays

/-! ## The region's record -/

section Record

variable (W : Dev nD → Valuation τ sig (Elt F)) (𝒱₀ : Variants) (ρ : Dev nD → PrngReg)
variable (pdats : (p : Fin 1) → (c : Dev nD) → Dat τ (Elt F) Unit ℕ (Pipeline.UD sig nD τ) ℕ (Pipeline.pin (pcfgs (F := F)) (fun _ => adm (VR W)) p) c)

/-- What the launch dealt that passes the region by untouched. -/
abbrev Zrest (c : Dev nD) : sProp 𝕄 := iprop(unscopedSems0 c ∗ Pipeline.launchCred O₀ c ∗ prngReg c (ρ c) ∗ G₀ (F := F) c)
/-- The thread state the region is entered from: every unscoped buffer held whole, beside what the launch dealt. -/
abbrev preR (c : Dev nD) : sProp 𝕄 := iprop(StableHlo.held (c : Thread nD τ) (Pipeline.ucRefs τ sig) (W c) ∗ E0 ρ c)
/-- What enters the body's invariant besides the table and the scoped rest: the body's two counters at zero and
    the right half of the array of rows. -/
abbrev XR (c : Dev nD) : sProp 𝕄 := iprop(Pipeline.ownSems0 osem c ∗ heldAt c fullShare.right hbM (VR W c main_arg0))
/-- What the invariant gives back: the table and that half. -/
abbrev YR (c : Dev nD) : sProp 𝕄 :=
  iprop(Pipeline.prefHeld pre0 c (fun _ => fullShare) (tbl (VR W)) ∗ heldAt c fullShare.right hbM (VR W c main_arg0))
/-- What passes the region by: every other unscoped buffer, and the rest of what the launch dealt. -/
abbrev ZR (c : Dev nD) : sProp 𝕄 := iprop(StableHlo.held (c : Thread nD τ) (Pipeline.ucRefs τ sig \ T4) (W c) ∗ Zrest ρ c)
/-- The two output arrays after all write-backs. -/
abbrev out0 (c : Dev nD) : Buf (Elt F) ((c : Thread nD τ).loc main_v3_0) := (pdats 0 c).arrAt 1 (cfgM (VR W)).N
abbrev out1 (c : Dev nD) : Buf (Elt F) ((c : Thread nD τ).loc main_v3_1) := (pdats 0 c).arrAt 2 (cfgM (VR W)).N
/-- The buffers after the region: the two outputs changed, nothing else. -/
abbrev VP (c : Dev nD) : Valuation τ sig (Elt F) :=
  Function.update (Function.update (W c) main_v3_0 (out0 W pdats c)) main_v3_1 (out1 W pdats c)
/-- The rest after the region: the core owes nothing. -/
abbrev E1R (c : Dev nD) : sProp 𝕄 := iprop((∃ Ws, owes (c : Thread nD τ) (0 : CellTallies nD τ sig Unit) Ws) ∗ Zrest ρ c)
/-- The thread state the region leaves. -/
abbrev postR (c : Dev nD) : sProp 𝕄 := iprop(StableHlo.held (c : Thread nD τ) (Pipeline.ucRefs τ sig) (VP W pdats c) ∗ E1R ρ c)

theorem E1R_owes (c : Dev nD) : E1R (F := F) ρ c ⊢ (iprop(∃ Ws, owes (c : Thread nD τ) (0 : CellTallies nD τ sig Unit) Ws) : sProp 𝕄) := by
  iintro ⟨H, -⟩; iexact H

theorem VP_main_arg0 (c : Dev nD) : VP W pdats c main_arg0 = W c main_arg0 := by
  simp only [VP, Function.update_of_ne (StableHlo.devRef_ne_of_ne (by decide : main_arg0 ≠ main_v3_1) : (Proc.devRef .tc main_arg0 : DevRef τ sig) ≠ Proc.devRef .tc main_v3_1),
    Function.update_of_ne (StableHlo.devRef_ne_of_ne (by decide : main_arg0 ≠ main_v3_0) : (Proc.devRef .tc main_arg0 : DevRef τ sig) ≠ Proc.devRef .tc main_v3_0)]
theorem VP_main_v2 (c : Dev nD) : VP W pdats c main_v2 = W c main_v2 := by
  simp only [VP, Function.update_of_ne (StableHlo.devRef_ne_of_ne (by decide : main_v2 ≠ main_v3_1) : (Proc.devRef .tc main_v2 : DevRef τ sig) ≠ Proc.devRef .tc main_v3_1),
    Function.update_of_ne (StableHlo.devRef_ne_of_ne (by decide : main_v2 ≠ main_v3_0) : (Proc.devRef .tc main_v2 : DevRef τ sig) ≠ Proc.devRef .tc main_v3_0)]
theorem VP_main_v3_0 (c : Dev nD) : VP W pdats c main_v3_0 = out0 W pdats c := by
  simp only [VP, Function.update_of_ne (StableHlo.devRef_ne_of_ne (by decide : main_v3_0 ≠ main_v3_1) : (Proc.devRef .tc main_v3_0 : DevRef τ sig) ≠ Proc.devRef .tc main_v3_1),
    Function.update_self]
theorem VP_main_v3_1 (c : Dev nD) : VP W pdats c main_v3_1 = out1 W pdats c := by
  simp only [VP, Function.update_self]
/-- Outside the four sorted buffers the region changes nothing. -/
theorem VP_rest (c : Dev nD) (b : DevRef τ sig) (hb : b ∈ Pipeline.ucRefs τ sig \ T4) : VP W pdats c b = W c b := by
  have hn : b ∉ (T4 : Finset (DevRef τ sig)) := (Finset.mem_sdiff.mp hb).2
  have h0 : b ≠ Proc.devRef .tc main_v3_0 := fun e => hn (e ▸ Finset.mem_map_of_mem _ (by decide))
  have h1 : b ≠ Proc.devRef .tc main_v3_1 := fun e => hn (e ▸ Finset.mem_map_of_mem _ (by decide))
  simp only [VP, Function.update_of_ne h1, Function.update_of_ne h0]

section Entailments

variable (hA : ∀ c w, (pdats 0 c).A w = VR W c (Pipeline.arrRef spec0 w)) (hq : ∀ c w, (pdats 0 c).q w = shareOf w)
  (hΦ : ∀ c t, (pdats 0 c).Φ t = Phi (VR W) c) (howed : ∀ c t, (pdats 0 c).owed t = 0)

include hA hq howed in
/-- ENTRY. The three arrays are carved out of the unscoped buffers, the array of rows split in two halves (the left
    for the block fetches, the right for the body); the table goes whole; the core owes nothing. -/
theorem hentryR (c : Dev nD) :
    iprop(preR W ρ c ∗ Pipeline.ownSems0 osem c ∗ levAts L₀ lv₀)
      ⊢ (|={Set.univ}=> iprop((pdats 0 c).arrays ((pdats 0 c).arrAt · 0) ∗ Pipeline.prefHeld pre0 c (fun _ => fullShare) (adm (VR W)).1
          ∗ (pdats 0 c).owesAt () 0 ∗ XR W c ∗ ZR W ρ c) : sProp 𝕄) := by
  rw [arrays_entry (VR W) c (pdats 0 c) (hq c) (hA c), show (adm (VR W)).1 = tbl (VR W) from rfl, prefHeld_tbl (VR W) c fullShare]
  dsimp only [preR, XR, ZR, Zrest, E0, heldAt, Dat.owesAt, Pipeline.owesWithin]
  rw [StableHlo.held_sub_split (c : Thread nD τ) T4_sub (W c), held_T4 c (W c), howed c 0]
  iintro ⟨⟨⟨⟨Ha0, Hv30, Hv31, Hv2⟩, Hrest⟩, ⟨Hsems, Howes, Hcred, Hprng, HG⟩⟩, Hown, -⟩
  ihave Hsp := (pointsTo_share (PosShare.mem_left_op_right fullShare)).1 $$ Ha0
  icases Hsp with ⟨HaL, HaR⟩
  imodintro
  isplitl [HaL Hv30 Hv31]
  · isplitl [HaL]; · iexact HaL
    isplitl [Hv30]; · iexact Hv30
    iexact Hv31
  isplitl [Hv2]; · iexact Hv2
  isplitl [Howes]
  · iexists ∅; isplitr
    · ipureintro; simp
    iexact Howes
  isplitl [Hown HaR]
  · isplitl [Hown]; · iexact Hown
    iexact HaR
  isplitl [Hrest]; · iexact Hrest
  isplitl [Hsems]; · iexact Hsems
  isplitl [Hcred]; · iexact Hcred
  isplitl [Hprng]; · iexact Hprng
  iexact HG

include hΦ in
/-- The invariant at the first point: a reshuffle. -/
theorem hinR (c : Dev nD) :
    iprop(XR W c ∗ Pipeline.prefHeld pre0 c (fun _ => fullShare) (adm (VR W)).1 ∗ Pipeline.scopedRest spec0 c) ⊢ ((pdats 0 c).Φ 0 : sProp 𝕄) := by
  rw [hΦ c 0]
  unfold Phi
  iintro ⟨⟨Hown, HaR⟩, Hpf, Hsc⟩
  isplitl [Hsc]; · iexact Hsc
  isplitl [Hown]; · iexact Hown
  isplitl [Hpf]; · iexact Hpf
  iexact HaR

include hΦ in
/-- The invariant at the last point gives the same back. -/
theorem houtR (c : Dev nD) :
    ((pdats 0 c).Φ (Fin.last (cfgM (VR W)).N) : sProp 𝕄) ⊢ iprop(YR W c ∗ Pipeline.ownSems0 osem c ∗ Pipeline.scopedRest spec0 c) := by
  rw [hΦ c _]
  unfold Phi
  iintro ⟨Hsc, Hown, Hpf, HaR⟩
  isplitl [Hpf HaR]
  · isplitl [Hpf]; · iexact Hpf
    iexact HaR
  isplitl [Hown]; · iexact Hown
  iexact Hsc

include hA hq howed in
/-- EXIT. The two halves of the array of rows join; the four sorted buffers and the rest are every unscoped buffer
    again, the two outputs at their final contents. -/
theorem hexitR (c : Dev nD) :
    iprop((pdats 0 c).arrays ((pdats 0 c).arrAt · (cfgM (VR W)).N) ∗ (pdats 0 c).owesAt () (Fin.last (cfgM (VR W)).N) ∗ YR W c ∗ ZR W ρ c)
      ⊢ (|={Set.univ}=> postR W ρ pdats c : sProp 𝕄) := by
  rw [arrays_exit (VR W) c (pdats 0 c) (hq c) (hA c)]
  dsimp only [postR, YR, ZR, Zrest, E1R, heldAt, Dat.owesAt, Pipeline.owesWithin]
  rw [prefHeld_tbl (VR W) c fullShare, StableHlo.held_sub_split (c : Thread nD τ) T4_sub (VP W pdats c), held_T4 c (VP W pdats c),
    VP_main_arg0, VP_main_v2, VP_main_v3_0, VP_main_v3_1, StableHlo.held_congr (c : Thread nD τ) (VP_rest W pdats c), howed c _]
  iintro ⟨⟨HaL, Hv30, Hv31⟩, ⟨%Ws, -, Howes⟩, ⟨Hv2, HaR⟩, ⟨Hrest, HZ⟩⟩
  ihave Ha0 := (pointsTo_share (PosShare.mem_left_op_right fullShare)).2 $$ [HaL HaR]
  · isplitl [HaL]; · iexact HaL
    iexact HaR
  imodintro
  isplitl [Ha0 Hv30 Hv31 Hv2 Hrest]
  · isplitr [Hrest]
    · isplitl [Ha0]; · iexact Ha0
      isplitl [Hv30]; · iexact Hv30
      isplitl [Hv31]; · iexact Hv31
      iexact Hv2
    · iexact Hrest
  isplitl [Howes]
  · iexists Ws; iexact Howes
  iexact HZ

end Entailments

/-- The region's record: the layout facts the launch decides, the body's two counters, the body obligation (given),
    no wait owed at the pipeline's cells, and the four entailments above around the thread states `preR` / `postR`. -/
def regionSeg (hA : ∀ c w, (pdats 0 c).A w = VR W c (Pipeline.arrRef spec0 w)) (hq : ∀ c w, (pdats 0 c).q w = shareOf w)
    (hΦ : ∀ c t, (pdats 0 c).Φ t = Phi (VR W) c) (howed : ∀ c t, (pdats 0 c).owed t = 0)
    (hbody : ∀ c, BodyObligationLoose (pdats 0 c) defs₀ 𝒱₀ () Set.univ) :
    RegionSeg (pcfgs (F := F)) (fun _ => adm (VR W)) pdats () defs₀ 𝒱₀ L₀ lv₀ 0 where
  win := winFacts0.to₀
  block_pos := block_pos0
  stage_whole := stage_whole0
  K := Fin 2
  osem := osem
  ho := ownSemFacts
  hbody := hbody
  hwaits := fun c => Pipeline.hwaits_of_owed_zero (pcfgs (F := F)) (fun _ => adm (VR W)) pdats () L₀ lv₀ 0 howed c
  pre := preR W ρ
  post := postR W ρ pdats
  X := XR W
  Y := YR W
  Z := ZR W ρ
  hentry := hentryR W ρ pdats hA hq howed
  hin := hinR W pdats hΦ
  hout := houtR W pdats hΦ
  hexit := hexitR W ρ pdats hA hq howed

end Record

/-! ## The program's run, given the body -/

/-- The whole program, with the region's record above at the buffers the two leading stretches leave (`V1`): given
    proof data for the region whose entry contents, shares, invariant and dues are the ones named here, and the body
    obligation, every weakly fair execution from memory `m` with zero counters terminates, and every unscoped buffer ends at
    the last valuation, the two output arrays being what the region's write-backs made them. -/
theorem region_run (m : (ℓ : Loc nD τ sig) → Buf (Elt F) ℓ) (𝒱₀ : Variants) (ρ : Dev nD → PrngReg)
    (pdats : (p : Fin 1) → (c : Dev nD) → Dat τ (Elt F) Unit ℕ (Pipeline.UD sig nD τ) ℕ (Pipeline.pin (pcfgs (F := F)) (fun _ => adm (VR (HostSide.V1 m))) p) c)
    (hA : ∀ c w, (pdats 0 c).A w = VR (HostSide.V1 m) c (Pipeline.arrRef spec0 w)) (hq : ∀ c w, (pdats 0 c).q w = shareOf w)
    (hΦ : ∀ c t, (pdats 0 c).Φ t = Phi (VR (HostSide.V1 m)) c) (howed : ∀ c t, (pdats 0 c).owed t = 0)
    (hbody : ∀ c, BodyObligationLoose (pdats 0 c) defs₀ 𝒱₀ () Set.univ) :
    θ_run defs (onTc (τ := τ) (main (F := F))) ⟨m, fun _ => 0, ρ⟩ (fun r => ∀ c : Dev nD, ∀ b : Ref sig .tc,
      ¬ (Proc.devRef .tc b : DevRef τ sig).isScoped →
        r.2.mem ((c.tc : Thread nD τ).loc b)
          = HostSide.V3 m (out0 (HostSide.V1 m) pdats) (out1 (HostSide.V1 m) pdats) c (Proc.devRef .tc b)) :=
  HostSide.run_cond m (out0 (HostSide.V1 m) pdats) (out1 (HostSide.V1 m) pdats) 𝒱₀ ρ (fun _ => adm (VR (HostSide.V1 m))) pdats
    (E1R ρ) (E1R_owes ρ) (regionSeg (HostSide.V1 m) 𝒱₀ ρ pdats hA hq hΦ howed hbody) (fun _ => .rfl) (fun _ => .rfl)

end Cert.KernelIdeal.Body

end
-- ==== Proof.AssembleIdeal.lean ====
/-
  The assembly of the frame claim. The precondition makes every word of the table the region prefetches a row index
  below 100000; that is the one fact the body needs of the table. Given the body's proof data for the region at the
  buffers the two leading stretches leave, the region's record makes the whole program run to the end with every
  unscoped buffer at the last valuation; no item writes an argument, so the three arguments end as launched.
-/
import proofs.«106441_j1580547974259_1_alg».proof.Proof.RegionRecordIdeal
import proofs.«106441_j1580547974259_1_alg».proof.Defs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]

/-! ## The table's words are row indices below 100000 -/

/-- Under the precondition, every word of the table the region is entered with, however it is read, is below 100000:
    the table is the flattened index words of the second argument, and a read through the whole table is one of its words. -/
theorem rows_below_of_pre (m : (ℓ : Loc nD τ sig) → Buf (Elt F) ℓ) (c : Dev nD)
    (h : Cert.Pre_finite_inputs.fn (F := F) (m ((c.tc : Thread nD τ).loc main_arg0)) (m ((c.tc : Thread nD τ).loc main_arg1))
      (m ((c.tc : Thread nD τ).loc main_arg2)) = (fun _ => 1#1)) :
    RowsBelow c (tbl (VR (HostSide.V1 m)) 0) := by
  obtain rfl : c = 0 := Subsingleton.elim _ _
  intro r j
  show ((tbl (VR (HostSide.V1 m)) 0 : S131072.Idx → BitVec 32) (r.idx j)).toNat < 100000
  rw [show (tbl (VR (HostSide.V1 m)) 0 : S131072.Idx → BitVec 32)
      = shapeCast S131072 (Cert.RowsInRange.rows (m (((0 : Dev nD) : Thread nD τ).loc main_arg1))) Facts₀.shapeCasts_S8192x16_S131072
    from HostSide.V1_main_v2 m 0]
  exact Cert.RowsInRange.table_lt _ _ _ h _ _ _

/-! ## What the body's proof supplies -/

/-- Proof data for the region at the buffers the two leading stretches leave, with the entry contents, shares,
    invariant and dues the region's record names, and the body obligation. -/
structure BodyData (m : (ℓ : Loc nD τ sig) → Buf (Elt F) ℓ) (𝒱₀ : Variants) where
  pdats : (p : Fin 1) → (c : Dev nD) → Dat τ (Elt F) Unit ℕ (Pipeline.UD sig nD τ) ℕ
    (Pipeline.pin (pcfgs (F := F)) (fun _ => adm (VR (HostSide.V1 m))) p) c
  hA : ∀ c w, (pdats 0 c).A w = VR (HostSide.V1 m) c (Pipeline.arrRef spec0 w)
  hq : ∀ c w, (pdats 0 c).q w = shareOf w
  hΦ : ∀ c t, (pdats 0 c).Φ t = Phi (VR (HostSide.V1 m)) c
  howed : ∀ c t, (pdats 0 c).owed t = 0
  hbody : ∀ c, BodyObligationLoose (pdats 0 c) defs₀ 𝒱₀ () Set.univ

/-- The program runs to the end and its three arguments end unchanged, for any float instance. -/
theorem frame_gen (𝒱₀ : Variants) (m : (ℓ : Loc nD τ sig) → Buf (Elt F) ℓ) (ρ : Dev nD → PrngReg) (bd : BodyData (F := F) m 𝒱₀) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := F)) _ _).mono (fun _ h c =>
      ⟨(h c main_arg0 (by decide)).trans (HostSide.V3_main_arg0 m _ _ c),
       (h c main_arg1 (by decide)).trans (HostSide.V3_main_arg1 m _ _ c),
       (h c main_arg2 (by decide)).trans (HostSide.V3_main_arg2 m _ _ c)⟩)
    (region_run m 𝒱₀ ρ bd.pdats bd.hA bd.hq bd.hΦ bd.howed bd.hbody)

/-- The frame claim, given the body's data for every memory of which the precondition holds. -/
theorem frame_of (𝒱₀ : Variants)
    (bd : ∀ m : (ℓ : Loc nD τ sig) → Buf (Elt Ideal) ℓ,
      Cert.Pre_KernelIdeal (hPre_finite_inputs := Cert.Pre_finite_inputs.Gen.facts) m → BodyData (F := Ideal) m 𝒱₀) :
    Cert.frame_KernelIdeal (hKernelIdeal := Cert.KernelIdeal.Gen.facts) (hPre_finite_inputs := Cert.Pre_finite_inputs.Gen.facts) :=
  fun m g hpre => frame_gen 𝒱₀ m g (bd m hpre)

end Cert.KernelIdeal.Body

end
-- ==== Proof.RefRun.lean ====
/-
  The reference, read as mathematics.

  The reference is a straight line of host tensor operations and nothing else. From the three argument arrays
  `x : f32[100000, 512]`, `y : f32[8192, 16]`, `w : f32[8192]` it computes

    * the row indices `refNns y`: `y` rounded toward zero (the ceiling where `y < 0`, the floor elsewhere), read as
      a signed 32-bit integer, and `100000` added where that integer is negative;
    * `refAdd x y : f32[8192, 16]`: at `(p, k)` the maximum over the 512 columns `j` of
      `x[nns(p, k), j] + x[p, j]` (the gather of rows of `x`, plus the first 8192 rows of `x` broadcast along the
      middle axis, reduced by the maximum from `-∞`);
    * `refBcol x : f32[512]`: the column sums of the first 8192 rows of `x`;

  and then a tail that depends on `x` and `y` only through those two arrays:

    * `tailBooster add : f32[8192]` = `max(1/2, (2 - (Σₖ add[p, k]) / 16) / 2)`;
    * `tailDiff add w : f32[]` = `(2 - (Σ_{p,k} add[p, k] · w[p]) / 131072)²`;
    * `tailB bcol : f32[]` = `(max_q bcol[q] - min_q bcol[q]) / 195.3125`;
    * `tailCost add bcol w : f32[]` = `tailB bcol + tailDiff add w`.

  `run` says that every weakly fair execution of the program terminates with its four result buffers at exactly
  these terms of the launch contents of the argument buffers, and the argument buffers unchanged. The program calls
  three local functions (round toward zero, its select, and the clip); a call means the callee's operations on the
  call's own buffers, so the whole program is one list `ops` of sixty operations, the callees' listed in place.
  `frame` is the same run with the results forgotten.
-/
import proofs.«106441_j1580547974259_1_alg».proof.Defs
import proofs.«106441_j1580547974259_1_alg».proof.Proof.Gen.ReferenceIdeal
import proofs.«106441_j1580547974259_1_alg».proof.Proof.Gen.Pre_finite_inputs
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The terms -/

/-- `y` rounded toward zero: its ceiling where `y < 0`, its floor elsewhere. -/
def refTrunc (y : FVec F S8192x16 .f32) : FVec F S8192x16 .f32 :=
  select (cmpf .olt y (broadcastInDim S8192x16 ![] bcast_S_S8192x16 (constant S_ .f32 0x00000000#32)))
    (Host.ceil y) (Host.floor y)

/-- The rounded `y` as signed 32-bit integers. -/
def refIdx (y : FVec F S8192x16 .f32) : IVec S8192x16 32 :=
  fptosi 32 (refTrunc y)

/-- The row indices: the integer, plus `100000` where it is negative. -/
def refNns (y : FVec F S8192x16 .f32) : IVec S8192x16 32 :=
  select (cmpi .slt (refIdx y) (broadcastInDim S8192x16 ![] bcast_S_S8192x16 (constantI S_ 32 0#32)))
    (addi (refIdx y) (broadcastInDim S8192x16 ![] bcast_S_S8192x16 (constantI S_ 32 100000#32)))
    (refIdx y)

/-- The first 8192 rows of `x`. -/
def refHead (x : FVec F S100000x512 .f32) : FVec F S8192x512 .f32 :=
  extractStridedSlice S8192x512 ![0, 0] x slices_S100000x512_S8192x512_0_0

/-- The rows of `x` at the row indices, plus the first 8192 rows of `x` along the middle axis: `f32[8192, 16, 512]`. -/
def refSum (x : FVec F S100000x512 .f32) (y : FVec F S8192x16 .f32) : FVec F S8192x16x512 .f32 :=
  addf
    (Host.gather gather_S100000x512_S8192x16x1_S8192x16x512_2_0_n_n_0_2_1512 x
      (broadcastInDim S8192x16x1 ![0, 1] bcast_S8192x16_S8192x16x1_0_1 (refNns y)))
    (broadcastInDim S8192x16x512 ![0, 1, 2] bcast_S8192x1x512_S8192x16x512_0_1_2
      (broadcastInDim S8192x1x512 ![0, 2] bcast_S8192x512_S8192x1x512_0_2 (refHead x)))

/-- Its maximum over the last axis, from `-∞`. -/
def refAdd (x : FVec F S100000x512 .f32) (y : FVec F S8192x16 .f32) : FVec F S8192x16 .f32 :=
  Host.reduce FloatOps.maximumf (refSum x y) (constant S_ .f32 0xFF800000#32) reducesTo_S8192x16x512_S8192x16_d2 h_S_

/-- The column sums of the first 8192 rows of `x`. -/
def refBcol (x : FVec F S100000x512 .f32) : FVec F S512 .f32 :=
  Host.reduceAdd (refHead x) (constant S_ .f32 0x00000000#32) reducesTo_S8192x512_S512_d0 h_S_

/-- `max(1/2, (2 - rowmean(add)) / 2)`, the row mean being the row sum over 16. -/
def tailBooster (add : FVec F S8192x16 .f32) : FVec F S8192 .f32 :=
  maximumf (broadcastInDim S8192 ![] bcast_S_S8192 (constant S_ .f32 0x3F000000#32))
    (Host.divf
      (subf (broadcastInDim S8192 ![] bcast_S_S8192 (constant S_ .f32 0x40000000#32))
        (Host.divf (Host.reduceAdd add (constant S_ .f32 0x00000000#32) reducesTo_S8192x16_S8192_d1 h_S_)
          (broadcastInDim S8192 ![] bcast_S_S8192 (constant S_ .f32 0x41800000#32))))
      (broadcastInDim S8192 ![] bcast_S_S8192 (constant S_ .f32 0x40000000#32)))

/-- `2 - (Σ add · w) / 131072`, `w` broadcast along the rows. -/
def tailGap (add : FVec F S8192x16 .f32) (w : FVec F S8192 .f32) : FVec F S_ .f32 :=
  subf (constant S_ .f32 0x40000000#32)
    (Host.divf
      (Host.reduceAdd
        (mulf add (broadcastInDim S8192x16 ![0, 1] bcast_S8192x1_S8192x16_0_1
          (broadcastInDim S8192x1 ![0] bcast_S8192_S8192x1_0 w)))
        (constant S_ .f32 0x00000000#32) reducesTo_S8192x16_S_d0_1 h_S_)
      (constant S_ .f32 0x48000000#32))

/-- Its square. -/
def tailDiff (add : FVec F S8192x16 .f32) (w : FVec F S8192 .f32) : FVec F S_ .f32 :=
  mulf (tailGap add w) (tailGap add w)

/-- `(max bcol - min bcol) / 195.3125`, the maximum from `-∞` and the minimum from `+∞`. -/
def tailB (bcol : FVec F S512 .f32) : FVec F S_ .f32 :=
  Host.divf
    (subf (Host.reduce FloatOps.maximumf bcol (constant S_ .f32 0xFF800000#32) reducesTo_S512_S_d0 h_S_)
      (Host.reduce FloatOps.minimumf bcol (constant S_ .f32 0x7F800000#32) reducesTo_S512_S_d0 h_S_))
    (constant S_ .f32 0x43435000#32)

/-- The sum of the two. -/
def tailCost (add : FVec F S8192x16 .f32) (bcol : FVec F S512 .f32) (w : FVec F S8192 .f32) : FVec F S_ .f32 :=
  addf (tailB bcol) (tailDiff add w)

/-- The four results as one function of `add`, `bcol` and `w`. -/
def tail (add : FVec F S8192x16 .f32) (bcol : FVec F S512 .f32) (w : FVec F S8192 .f32) :
    FVec F S_ .f32 × FVec F S_ .f32 × FVec F S_ .f32 × FVec F S8192 .f32 :=
  (tailCost add bcol w, tailDiff add w, tailB bcol, tailBooster add)

/-! ## The program as a list of operations -/

/-- The sixty operations in order: rounding toward zero is six (the zero, its broadcast, the comparison, the
    ceiling, the floor, the select), the clip three (the bound, its broadcast, the maximum). -/
abbrev ops : List (HloOp τ sig (Elt F)) :=
  [ TRef.nullary main_call0.cst (constant S_ .f32 0x00000000#32),
    TRef.unary main_call0.cst main_call0.v0 (broadcastInDim S8192x16 ![] bcast_S_S8192x16),
    TRef.binary (.of main_arg1) main_call0.v0 main_call0.v1 (cmpf .olt),
    TRef.unary (.of main_arg1) main_call0.v2 Host.ceil,
    TRef.unary (.of main_arg1) main_call0.v3 Host.floor,
    TRef.ternary main_call0.v1 main_call0.v2 main_call0.v3 main_call0.call0.v0 select,
    unary main_v0 main_v1 (fptosi 32 : (⟨S8192x16, .f32⟩ : BufTy).Contents (Elt F) → (⟨S8192x16, .i32⟩ : BufTy).Contents (Elt F)),
    nullary main_c (constantI S_ 32 0#32),
    unary main_c main_v2 (broadcastInDim S8192x16 ![] bcast_S_S8192x16 : (⟨S_, .i32⟩ : BufTy).Contents (Elt F) → (⟨S8192x16, .i32⟩ : BufTy).Contents (Elt F)),
    binary main_v1 main_v2 main_v3 (cmpi .slt : (⟨S8192x16, .i32⟩ : BufTy).Contents (Elt F) → (⟨S8192x16, .i32⟩ : BufTy).Contents (Elt F) → (⟨S8192x16, .i1⟩ : BufTy).Contents (Elt F)),
    nullary main_c_0 (constantI S_ 32 100000#32),
    unary main_c_0 main_v4 (broadcastInDim S8192x16 ![] bcast_S_S8192x16 : (⟨S_, .i32⟩ : BufTy).Contents (Elt F) → (⟨S8192x16, .i32⟩ : BufTy).Contents (Elt F)),
    binary main_v1 main_v4 main_v5 (addi : (⟨S8192x16, .i32⟩ : BufTy).Contents (Elt F) → (⟨S8192x16, .i32⟩ : BufTy).Contents (Elt F) → (⟨S8192x16, .i32⟩ : BufTy).Contents (Elt F)),
    ternary main_v3 main_v5 main_v1 main_v6 (select : (⟨S8192x16, .i1⟩ : BufTy).Contents (Elt F) → (⟨S8192x16, .i32⟩ : BufTy).Contents (Elt F) → (⟨S8192x16, .i32⟩ : BufTy).Contents (Elt F) → (⟨S8192x16, .i32⟩ : BufTy).Contents (Elt F)),
    unary main_v6 main_v7 (broadcastInDim S8192x16x1 ![0, 1] bcast_S8192x16_S8192x16x1_0_1 : (⟨S8192x16, .i32⟩ : BufTy).Contents (Elt F) → (⟨S8192x16x1, .i32⟩ : BufTy).Contents (Elt F)),
    binary main_arg0 main_v7 main_v8 ((fun x i => Host.gather gather_S100000x512_S8192x16x1_S8192x16x512_2_0_n_n_0_2_1512 x i) : (⟨S100000x512, .f32⟩ : BufTy).Contents (Elt F) → (⟨S8192x16x1, .i32⟩ : BufTy).Contents (Elt F) → (⟨S8192x16x512, .f32⟩ : BufTy).Contents (Elt F)),
    unary main_arg0 main_v9 ((extractStridedSlice S8192x512 ![0, 0] · slices_S100000x512_S8192x512_0_0) : (⟨S100000x512, .f32⟩ : BufTy).Contents (Elt F) → (⟨S8192x512, .f32⟩ : BufTy).Contents (Elt F)),
    unary main_v9 main_v10 (broadcastInDim S8192x1x512 ![0, 2] bcast_S8192x512_S8192x1x512_0_2 : (⟨S8192x512, .f32⟩ : BufTy).Contents (Elt F) → (⟨S8192x1x512, .f32⟩ : BufTy).Contents (Elt F)),
    unary main_v10 main_v11 (broadcastInDim S8192x16x512 ![0, 1, 2] bcast_S8192x1x512_S8192x16x512_0_1_2 : (⟨S8192x1x512, .f32⟩ : BufTy).Contents (Elt F) → (⟨S8192x16x512, .f32⟩ : BufTy).Contents (Elt F)),
    binary main_v8 main_v11 main_v12 (addf : (⟨S8192x16x512, .f32⟩ : BufTy).Contents (Elt F) → (⟨S8192x16x512, .f32⟩ : BufTy).Contents (Elt F) → (⟨S8192x16x512, .f32⟩ : BufTy).Contents (Elt F)),
    nullary main_cst (constant S_ .f32 0xFF800000#32),
    binary main_v12 main_cst main_v13 ((fun x v => Host.reduce FloatOps.maximumf x v reducesTo_S8192x16x512_S8192x16_d2 h_S_) : (⟨S8192x16x512, .f32⟩ : BufTy).Contents (Elt F) → (⟨S_, .f32⟩ : BufTy).Contents (Elt F) → (⟨S8192x16, .f32⟩ : BufTy).Contents (Elt F)),
    nullary main_cst_1 (constant S_ .f32 0x00000000#32),
    binary main_v13 main_cst_1 main_v14 ((fun x v => Host.reduceAdd x v reducesTo_S8192x16_S8192_d1 h_S_) : (⟨S8192x16, .f32⟩ : BufTy).Contents (Elt F) → (⟨S_, .f32⟩ : BufTy).Contents (Elt F) → (⟨S8192, .f32⟩ : BufTy).Contents (Elt F)),
    nullary main_cst_2 (constant S_ .f32 0x41800000#32),
    unary main_cst_2 main_v15 (broadcastInDim S8192 ![] bcast_S_S8192 : (⟨S_, .f32⟩ : BufTy).Contents (Elt F) → (⟨S8192, .f32⟩ : BufTy).Contents (Elt F)),
    binary main_v14 main_v15 main_v16 (Host.divf : (⟨S8192, .f32⟩ : BufTy).Contents (Elt F) → (⟨S8192, .f32⟩ : BufTy).Contents (Elt F) → (⟨S8192, .f32⟩ : BufTy).Contents (Elt F)),
    nullary main_cst_3 (constant S_ .f32 0x40000000#32),
    unary main_cst_3 main_v17 (broadcastInDim S8192 ![] bcast_S_S8192 : (⟨S_, .f32⟩ : BufTy).Contents (Elt F) → (⟨S8192, .f32⟩ : BufTy).Contents (Elt F)),
    binary main_v17 main_v16 main_v18 (subf : (⟨S8192, .f32⟩ : BufTy).Contents (Elt F) → (⟨S8192, .f32⟩ : BufTy).Contents (Elt F) → (⟨S8192, .f32⟩ : BufTy).Contents (Elt F)),
    nullary main_cst_4 (constant S_ .f32 0x40000000#32),
    unary main_cst_4 main_v19 (broadcastInDim S8192 ![] bcast_S_S8192 : (⟨S_, .f32⟩ : BufTy).Contents (Elt F) → (⟨S8192, .f32⟩ : BufTy).Contents (Elt F)),
    binary main_v18 main_v19 main_v20 (Host.divf : (⟨S8192, .f32⟩ : BufTy).Contents (Elt F) → (⟨S8192, .f32⟩ : BufTy).Contents (Elt F) → (⟨S8192, .f32⟩ : BufTy).Contents (Elt F)),
    nullary main_cst_5 (constant S_ .f32 0x3F000000#32),
    TRef.unary (.of main_cst_5) main_call1.v0 id,
    TRef.unary main_call1.v0 main_call1.v1 (broadcastInDim S8192 ![] bcast_S_S8192),
    TRef.binary main_call1.v1 (.of main_v20) main_call1.v2 maximumf,
    unary main_arg2 main_v22 (broadcastInDim S8192x1 ![0] bcast_S8192_S8192x1_0 : (⟨S8192, .f32⟩ : BufTy).Contents (Elt F) → (⟨S8192x1, .f32⟩ : BufTy).Contents (Elt F)),
    unary main_v22 main_v23 (broadcastInDim S8192x16 ![0, 1] bcast_S8192x1_S8192x16_0_1 : (⟨S8192x1, .f32⟩ : BufTy).Contents (Elt F) → (⟨S8192x16, .f32⟩ : BufTy).Contents (Elt F)),
    binary main_v13 main_v23 main_v24 (mulf : (⟨S8192x16, .f32⟩ : BufTy).Contents (Elt F) → (⟨S8192x16, .f32⟩ : BufTy).Contents (Elt F) → (⟨S8192x16, .f32⟩ : BufTy).Contents (Elt F)),
    nullary main_cst_6 (constant S_ .f32 0x00000000#32),
    binary main_v24 main_cst_6 main_v25 ((fun x v => Host.reduceAdd x v reducesTo_S8192x16_S_d0_1 h_S_) : (⟨S8192x16, .f32⟩ : BufTy).Contents (Elt F) → (⟨S_, .f32⟩ : BufTy).Contents (Elt F) → (⟨S_, .f32⟩ : BufTy).Contents (Elt F)),
    nullary main_cst_7 (constant S_ .f32 0x48000000#32),
    binary main_v25 main_cst_7 main_v26 (Host.divf : (⟨S_, .f32⟩ : BufTy).Contents (Elt F) → (⟨S_, .f32⟩ : BufTy).Contents (Elt F) → (⟨S_, .f32⟩ : BufTy).Contents (Elt F)),
    nullary main_cst_8 (constant S_ .f32 0x40000000#32),
    binary main_cst_8 main_v26 main_v27 (subf : (⟨S_, .f32⟩ : BufTy).Contents (Elt F) → (⟨S_, .f32⟩ : BufTy).Contents (Elt F) → (⟨S_, .f32⟩ : BufTy).Contents (Elt F)),
    binary main_v27 main_v27 main_v28 (mulf : (⟨S_, .f32⟩ : BufTy).Contents (Elt F) → (⟨S_, .f32⟩ : BufTy).Contents (Elt F) → (⟨S_, .f32⟩ : BufTy).Contents (Elt F)),
    unary main_arg0 main_v29 ((extractStridedSlice S8192x512 ![0, 0] · slices_S100000x512_S8192x512_0_0) : (⟨S100000x512, .f32⟩ : BufTy).Contents (Elt F) → (⟨S8192x512, .f32⟩ : BufTy).Contents (Elt F)),
    nullary main_cst_9 (constant S_ .f32 0x00000000#32),
    binary main_v29 main_cst_9 main_v30 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    nullary main_cst_10 (constant S_ .f32 0xFF800000#32),
    binary main_v30 main_cst_10 main_v31 ((fun x v => Host.reduce FloatOps.maximumf x v reducesTo_S512_S_d0 h_S_) : (⟨S512, .f32⟩ : BufTy).Contents (Elt F) → (⟨S_, .f32⟩ : BufTy).Contents (Elt F) → (⟨S_, .f32⟩ : BufTy).Contents (Elt F)),
    nullary main_cst_11 (constant S_ .f32 0x7F800000#32),
    binary main_v30 main_cst_11 main_v32 ((fun x v => Host.reduce FloatOps.minimumf x v reducesTo_S512_S_d0 h_S_) : (⟨S512, .f32⟩ : BufTy).Contents (Elt F) → (⟨S_, .f32⟩ : BufTy).Contents (Elt F) → (⟨S_, .f32⟩ : BufTy).Contents (Elt F)),
    binary main_v31 main_v32 main_v33 (subf : (⟨S_, .f32⟩ : BufTy).Contents (Elt F) → (⟨S_, .f32⟩ : BufTy).Contents (Elt F) → (⟨S_, .f32⟩ : BufTy).Contents (Elt F)),
    nullary main_cst_12 (constant S_ .f32 0x43435000#32),
    binary main_v33 main_cst_12 main_v34 (Host.divf : (⟨S_, .f32⟩ : BufTy).Contents (Elt F) → (⟨S_, .f32⟩ : BufTy).Contents (Elt F) → (⟨S_, .f32⟩ : BufTy).Contents (Elt F)),
    binary main_v34 main_v28 main_v35 (addf : (⟨S_, .f32⟩ : BufTy).Contents (Elt F) → (⟨S_, .f32⟩ : BufTy).Contents (Elt F) → (⟨S_, .f32⟩ : BufTy).Contents (Elt F)),
    nullary main_cst_13 (constant S_ .f32 0x43435000#32),
    binary main_v33 main_cst_13 main_v36 (Host.divf : (⟨S_, .f32⟩ : BufTy).Contents (Elt F) → (⟨S_, .f32⟩ : BufTy).Contents (Elt F) → (⟨S_, .f32⟩ : BufTy).Contents (Elt F)) ]

/-- The program is that straight line: the three functions unfolded at their calls, sequencing reassociated. -/
theorem main_eq (c : Dev nD) : main (F := F) c = seq ops := by
  simp only [main, fn_trunc.body, fn_where.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., unary_bufs_sub .., ternary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    unary_bufs_sub .., binary_bufs_sub .., nullary_bufs_sub .., binary_bufs_sub .., nullary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    binary_bufs_sub .., unary_bufs_sub .., unary_bufs_sub .., binary_bufs_sub .., nullary_bufs_sub .., binary_bufs_sub ..,
    nullary_bufs_sub .., binary_bufs_sub .., nullary_bufs_sub .., binary_bufs_sub .., binary_bufs_sub .., unary_bufs_sub ..,
    nullary_bufs_sub .., binary_bufs_sub .., nullary_bufs_sub .., binary_bufs_sub .., nullary_bufs_sub .., binary_bufs_sub ..,
    binary_bufs_sub .., nullary_bufs_sub .., binary_bufs_sub .., binary_bufs_sub .., nullary_bufs_sub .., binary_bufs_sub ..⟩

/-- Every weakly fair execution terminates, every buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The results -/

section Results

-- the reductions and the gather are folds and searches over their operand's elements: the equations below never look inside them
attribute [local irreducible] Host.reduce Host.reduceAdd Host.gather

variable (V : Valuation τ sig (Elt F))

/-- The fold at the cost's buffer is `tailCost` of `refAdd`, `refBcol` and the weights. -/
theorem cost_eq :
    after ops V (main_v35 : DevRef τ sig)
      = tailCost (refAdd (V (main_arg0 : DevRef τ sig)) (V (main_arg1 : DevRef τ sig))) (refBcol (V (main_arg0 : DevRef τ sig)))
          (V (main_arg2 : DevRef τ sig)) := by
  after_results_simp
  rfl

/-- The fold at the squared gap's buffer is `tailDiff`. -/
theorem diff_eq :
    after ops V (main_v28 : DevRef τ sig)
      = tailDiff (refAdd (V (main_arg0 : DevRef τ sig)) (V (main_arg1 : DevRef τ sig))) (V (main_arg2 : DevRef τ sig)) := by
  after_results_simp
  rfl

/-- The fold at the spread's buffer is `tailB`. -/
theorem b_eq :
    after ops V (main_v36 : DevRef τ sig) = tailB (refBcol (V (main_arg0 : DevRef τ sig))) := by
  after_results_simp
  rfl

/-- The fold at the booster's buffer is `tailBooster`. -/
theorem booster_eq :
    after ops V (main_v21 : DevRef τ sig)
      = tailBooster (refAdd (V (main_arg0 : DevRef τ sig)) (V (main_arg1 : DevRef τ sig))) := by
  after_results_simp
  rfl

/-- No operation writes an argument buffer. -/
theorem arg0_eq : after ops V (main_arg0 : DevRef τ sig) = V (main_arg0 : DevRef τ sig) := by
  after_results_simp
theorem arg1_eq : after ops V (main_arg1 : DevRef τ sig) = V (main_arg1 : DevRef τ sig) := by
  after_results_simp
theorem arg2_eq : after ops V (main_arg2 : DevRef τ sig) = V (main_arg2 : DevRef τ sig) := by
  after_results_simp

end Results

/-- On every device, for any float values, from any memory with zero counters: every weakly fair execution of the
    reference terminates with the four results at `tailCost`, `tailDiff`, `tailB`, `tailBooster` of
    `refAdd`, `refBcol` and the weights, read off the launch contents of the arguments, and the arguments unchanged. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v35)
          = tailCost (refAdd (m ((c.tc : Thread nD τ).loc main_arg0)) (m ((c.tc : Thread nD τ).loc main_arg1)))
              (refBcol (m ((c.tc : Thread nD τ).loc main_arg0))) (m ((c.tc : Thread nD τ).loc main_arg2))
      ∧ r.2.mem ((c.tc : Thread nD τ).loc main_v28)
          = tailDiff (refAdd (m ((c.tc : Thread nD τ).loc main_arg0)) (m ((c.tc : Thread nD τ).loc main_arg1)))
              (m ((c.tc : Thread nD τ).loc main_arg2))
      ∧ r.2.mem ((c.tc : Thread nD τ).loc main_v36) = tailB (refBcol (m ((c.tc : Thread nD τ).loc main_arg0)))
      ∧ r.2.mem ((c.tc : Thread nD τ).loc main_v21)
          = tailBooster (refAdd (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_v35).trans (cost_eq (launchContents m c)),
       (h c main_v28).trans (diff_eq (launchContents m c)),
       (h c main_v36).trans (b_eq (launchContents m c)),
       (h c main_v21).trans (booster_eq (launchContents m c)),
       (h c main_arg0).trans (arg0_eq (launchContents m c)),
       (h c main_arg1).trans (arg1_eq (launchContents m c)),
       (h c main_arg2).trans (arg2_eq (launchContents m c))⟩)
    (run_main m g)

/-- The reference runs to the end, faults nowhere, and leaves its arguments unchanged: the run, its results forgotten. -/
theorem frame : Cert.frame_ReferenceIdeal (hReferenceIdeal := Cert.ReferenceIdeal.Gen.facts)
    (hPre_finite_inputs := Cert.Pre_finite_inputs.Gen.facts) :=
  fun m g _ => (θ_run (defs (F := Ideal)) _ _).mono
    (fun _ h c => ⟨(h c).2.2.2.2.1, (h c).2.2.2.2.2.1, (h c).2.2.2.2.2.2⟩) (run (F := Ideal) m g)

end Cert.RefRun

end
-- ==== Proof.RefRead.lean ====
/-
  The reference's two arrays, read at an index, at the ideal values (floats extended reals, operations exact).

    * `refAdd x y` at `(p, k)` is the maximum over the 512 columns `j` of `x[row, j] + x[p, j]`, where `row` is the
      row-index word `refNns y (p, k)` read as a signed integer. The gather clamps every start index into
      `[0, 99999]`; `refAdd_apply_clamp` states the read with the clamp, `refAdd_apply` without it under the
      hypothesis that the word, read signed, is below `100000` (a negative word reads as row `0` either way, so no
      lower bound is needed). The maximum is the fold of `max` from `⊥` (the initial value `-∞`) over the columns,
      and equally the supremum `⨆ j`.
    * `refBcol x` at `q` is `∑ r : Fin 8192, x[r, q]`.

  The steps: the gather's operand index at `(p, k, j)` is `(clamp(idx[p, k, 0]), j)` (its start on the collapsed axis,
  the offset coordinate on the other); the index array is the row indices with a unit axis appended; the added term is
  the first 8192 rows of `x` carried along the middle axis by two broadcasts; a reduce over one axis with a commutative,
  associative body is the fold over that axis's coordinates.
-/
import proofs.«106441_j1580547974259_1_alg».proof.Proof.RefRun
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

open scoped BigOperators

namespace Cert.RefRead

open Cert.ReferenceIdeal Cert.ReferenceIdeal.Gen Cert.RefRun Idealize.ShloMosaic Idealize.ShloMosaic.ValueIdx

/-! ## The gather -/

/-- The gather's operand index at result `(p, k, j)`, on the collapsed axis: the start index `idx[p, k, 0]` read signed
    and clamped into `[0, 99999]`. -/
theorem gather_row {w : Nat} (idx : IVec S8192x16x1 w) (p : Fin 8192) (k : Fin 16) (j : Fin 512) :
    ((gather_S100000x512_S8192x16x1_S8192x16x512_2_0_n_n_0_2_1512).operandIdx (ix3 p k j) idx (0 : Fin 2)).val
      = min (idx (ix3 p k (0 : Fin 1))).toInt.toNat 99999 := by
  show (gather_S100000x512_S8192x16x1_S8192x16x512_2_0_n_n_0_2_1512).start (ix3 p k j) idx 0 + (gather_S100000x512_S8192x16x1_S8192x16x512_2_0_n_n_0_2_1512).batchCoord (ix3 p k j) 0
      + (gather_S100000x512_S8192x16x1_S8192x16x512_2_0_n_n_0_2_1512).offCoord (ix3 p k j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gather_S100000x512_S8192x16x1_S8192x16x512_2_0_n_n_0_2_1512).startIndexMap from List.mem_singleton.mpr rfl)]
  have hsi : (gather_S100000x512_S8192x16x1_S8192x16x512_2_0_n_n_0_2_1512).siIdx (ix3 p k j) ⟨List.idxOf (0 : Fin 2) (gather_S100000x512_S8192x16x1_S8192x16x512_2_0_n_n_0_2_1512).startIndexMap,
      List.idxOf_lt_length_iff.2 (List.mem_singleton.mpr rfl)⟩ = ix3 p k (0 : Fin 1) := by
    funext b; refine Fin.ext ?_
    match b with
    | ⟨0, _⟩ => rfl
    | ⟨1, _⟩ => rfl
    | ⟨2, _⟩ => rfl
  rw [hsi]
  rfl

/-- … and on the other axis: the offset coordinate `j`. -/
theorem gather_col {w : Nat} (idx : IVec S8192x16x1 w) (p : Fin 8192) (k : Fin 16) (j : Fin 512) :
    ((gather_S100000x512_S8192x16x1_S8192x16x512_2_0_n_n_0_2_1512).operandIdx (ix3 p k j) idx (1 : Fin 2)).val = j.val := by
  show (gather_S100000x512_S8192x16x1_S8192x16x512_2_0_n_n_0_2_1512).start (ix3 p k j) idx 1 + (gather_S100000x512_S8192x16x1_S8192x16x512_2_0_n_n_0_2_1512).batchCoord (ix3 p k j) 1
      + (gather_S100000x512_S8192x16x1_S8192x16x512_2_0_n_n_0_2_1512).offCoord (ix3 p k j) 1 = _
  rw [GatherDims.batchCoord_eq_zero _ _ _ List.not_mem_nil]
  have hs : (gather_S100000x512_S8192x16x1_S8192x16x512_2_0_n_n_0_2_1512).start (ix3 p k j) idx 1 = 0 := by
    unfold GatherDims.start
    rw [dif_neg (show ¬ (1 : Fin 2) ∈ (gather_S100000x512_S8192x16x1_S8192x16x512_2_0_n_n_0_2_1512).startIndexMap by decide)]
  rw [hs]
  simp only [Nat.add_zero, Nat.zero_add]
  rfl

/-- The gather read at `(p, k, j)`: the operand at row `row`, column `j`, for any `row` that is the clamped start index. -/
theorem gather_apply {α : Type} {w : Nat} (x : S100000x512.Idx → α) (idx : IVec S8192x16x1 w)
    (p : Fin 8192) (k : Fin 16) (j : Fin 512) (row : Fin 100000)
    (hrow : row.val = min (idx (ix3 p k (0 : Fin 1))).toInt.toNat 99999) :
    Host.gather gather_S100000x512_S8192x16x1_S8192x16x512_2_0_n_n_0_2_1512 x idx (ix3 p k j) = x (ix2 row j) := by
  unfold Host.gather
  refine congrArg x (funext fun a => Fin.ext ?_)
  match a with
  | ⟨0, _⟩ => exact (gather_row idx p k j).trans hrow.symm
  | ⟨1, _⟩ => exact gather_col idx p k j

/-! ## The re-indexings -/

/-- The index array: the row indices with a unit axis appended. -/
theorem idx_apply {α : Type} (n : S8192x16.Idx → α) (p : Fin 8192) (k : Fin 16) :
    broadcastInDim S8192x16x1 ![0, 1] bcast_S8192x16_S8192x16x1_0_1 n (ix3 p k (0 : Fin 1)) = n (ix2 p k) :=
  broadcastInDim_apply _ _ n _ (ix2 p k) fun a => by
    match a with
    | ⟨0, _⟩ => rfl
    | ⟨1, _⟩ => rfl

/-- The first 8192 rows of `x` at `(p, j)`. -/
theorem head_apply {α : Type} (x : S100000x512.Idx → α) (p : Fin 8192) (j : Fin 512) :
    extractStridedSlice S8192x512 ![0, 0] x slices_S100000x512_S8192x512_0_0 (ix2 p j)
      = x (ix2 (⟨p.val, by omega⟩ : Fin 100000) j) :=
  extractStridedSlice_apply _ x _ (ix2 p j) _ fun a => by
    match a with
    | ⟨0, _⟩ => exact (Nat.zero_add _).symm
    | ⟨1, _⟩ => exact (Nat.zero_add _).symm

/-- They are carried along the middle axis: the two broadcasts read at `(p, k, j)` are the array at `(p, j)`. -/
theorem carried_apply {α : Type} (h : S8192x512.Idx → α) (p : Fin 8192) (k : Fin 16) (j : Fin 512) :
    broadcastInDim S8192x16x512 ![0, 1, 2] bcast_S8192x1x512_S8192x16x512_0_1_2
        (broadcastInDim S8192x1x512 ![0, 2] bcast_S8192x512_S8192x1x512_0_2 h) (ix3 p k j) = h (ix2 p j) := by
  rw [broadcastInDim_apply _ _ _ (ix3 p k j) (ix3 p (0 : Fin 1) j) fun a => by
    match a with
    | ⟨0, _⟩ => rfl
    | ⟨1, _⟩ => rfl
    | ⟨2, _⟩ => rfl]
  exact broadcastInDim_apply _ _ h _ (ix2 p j) fun a => by
    match a with
    | ⟨0, _⟩ => rfl
    | ⟨1, _⟩ => rfl

/-! ## `refAdd` at an index -/

/-- The summed array at `(p, k, j)`: row `row` of `x` plus row `p` of `x`, at column `j`. -/
theorem refSum_apply (x : FVec Ideal S100000x512 .f32) (y : FVec Ideal S8192x16 .f32)
    (p : Fin 8192) (k : Fin 16) (j : Fin 512) (row : Fin 100000)
    (hrow : row.val = min (refNns y (ix2 p k)).toInt.toNat 99999) :
    refSum x y (ix3 p k j) = x (ix2 row j) + x (ix2 (⟨p.val, by omega⟩ : Fin 100000) j) := by
  unfold refSum refHead
  rw [addf_apply, carried_apply, head_apply]
  rw [gather_apply x _ p k j row (by rw [idx_apply]; exact hrow)]

/-- The reduced index `(p, k)` with column `j` put back is `(p, k, j)`. -/
theorem lift_ix3 (h : S8192x16x512.Reduces [2] S8192x16) (p : Fin 8192) (k : Fin 16)
    (j : Fin (S8192x16x512.size 2)) : h.lift (ix2 p k) j = ix3 p k (⟨j.val, j.isLt⟩ : Fin 512) := by
  funext c; apply Fin.ext
  fin_cases c <;> rfl

/-- The initial value of the maximum, `-∞`, is the bottom of the extended reals. -/
theorem neg_inf_eq_bot : Ideal.ofBits .f32 0xFF800000#32 = (⊥ : EReal) := by
  simp [Ideal.ofBits, Ideal.ieee]

/-- `refAdd` at `(p, k)`, the clamp kept: the fold of `max` from `⊥` over the columns. -/
theorem refAdd_apply_clamp (x : FVec Ideal S100000x512 .f32) (y : FVec Ideal S8192x16 .f32)
    (p : Fin 8192) (k : Fin 16) (row : Fin 100000)
    (hrow : row.val = min (refNns y (ix2 p k)).toInt.toNat 99999) :
    refAdd x y (ix2 p k)
      = (Finset.univ : Finset (Fin 512)).fold max (⊥ : EReal)
          (fun j => x (ix2 row j) + x (ix2 (⟨p.val, by omega⟩ : Fin 100000) j)) := by
  have h : S8192x16x512.Reduces [2] S8192x16 := by decide
  unfold refAdd
  rw [Host.reduce_eq_fold_single FloatOps.maximumf (refSum x y) _ reducesTo_S8192x16x512_S8192x16_d2 h h_S_]
  have hf : (refSum x y ∘ h.lift (ix2 p k))
      = fun j : Fin 512 => x (ix2 row j) + x (ix2 (⟨p.val, by omega⟩ : Fin 100000) j) :=
    funext fun j => by
      show refSum x y (h.lift (ix2 p k) j) = _
      rw [lift_ix3 h p k j]
      exact refSum_apply x y p k _ row hrow
  have hi : constant (F := Ideal) S_ .f32 0xFF800000#32 (Shape.Idx.first h_S_) = (⊥ : EReal) := neg_inf_eq_bot
  rw [hi]
  exact congrArg (fun f => Finset.fold max (⊥ : EReal) f (Finset.univ : Finset (Fin 512))) hf

/-- `refAdd` at `(p, k)` when the row-index word, read signed, is below `100000`: the clamp is the identity. -/
theorem refAdd_apply (x : FVec Ideal S100000x512 .f32) (y : FVec Ideal S8192x16 .f32)
    (p : Fin 8192) (k : Fin 16) (hr : (refNns y (ix2 p k)).toInt.toNat < 100000) :
    refAdd x y (ix2 p k)
      = (Finset.univ : Finset (Fin 512)).fold max (⊥ : EReal)
          (fun j => x (ix2 (⟨(refNns y (ix2 p k)).toInt.toNat, hr⟩ : Fin 100000) j)
            + x (ix2 (⟨p.val, by omega⟩ : Fin 100000) j)) :=
  refAdd_apply_clamp x y p k ⟨(refNns y (ix2 p k)).toInt.toNat, hr⟩ (Nat.min_eq_left (by omega)).symm

/-- A fold of `max` from `⊥` over every index is the supremum. -/
theorem fold_max_bot_eq_iSup {n : Nat} (f : Fin n → EReal) :
    (Finset.univ : Finset (Fin n)).fold max (⊥ : EReal) f = ⨆ j, f j := by
  refine le_antisymm ?_ ?_
  · exact (Finset.fold_max_le _).mpr ⟨bot_le, fun j _ => le_iSup f j⟩
  · exact iSup_le fun j => ((Finset.fold_max_le _).mp le_rfl).2 j (Finset.mem_univ j)

/-- The same as a supremum. -/
theorem refAdd_apply_iSup (x : FVec Ideal S100000x512 .f32) (y : FVec Ideal S8192x16 .f32)
    (p : Fin 8192) (k : Fin 16) (hr : (refNns y (ix2 p k)).toInt.toNat < 100000) :
    refAdd x y (ix2 p k)
      = ⨆ j : Fin 512, (x (ix2 (⟨(refNns y (ix2 p k)).toInt.toNat, hr⟩ : Fin 100000) j)
            + x (ix2 (⟨p.val, by omega⟩ : Fin 100000) j) : EReal) :=
  (refAdd_apply x y p k hr).trans (fold_max_bot_eq_iSup _)

/-! ## `refBcol` at an index -/

/-- The reduced index `q` with row `r` put back is `(r, q)`. -/
theorem lift_ix2 (h : S8192x512.Reduces [0] S512) (q : Fin 512) (r : Fin (S8192x512.size 0)) :
    h.lift (ix1 q) r = ix2 (⟨r.val, r.isLt⟩ : Fin 8192) q := by
  funext c; apply Fin.ext
  fin_cases c <;> rfl

/-- `refBcol x` at `q`: the sum down column `q` of the first 8192 rows of `x`. -/
theorem refBcol_apply (x : FVec Ideal S100000x512 .f32) (q : Fin 512) :
    refBcol x (ix1 q) = ∑ r : Fin 8192, (x (ix2 (⟨r.val, by omega⟩ : Fin 100000) q) : EReal) := by
  have h : S8192x512.Reduces [0] S512 := by decide
  unfold refBcol
  rw [hostReduceAdd_apply, Ideal.hostReduceAdd_single reducesTo_S8192x512_S512_d0 h]
  have hi : constant (F := Ideal) S_ .f32 0x00000000#32 (Shape.Idx.first h_S_) = (0 : EReal) := Ideal.ofBits_zero_f32
  rw [hi, zero_add]
  refine Finset.sum_congr rfl fun r _ => ?_
  rw [lift_ix2 h q r]
  exact head_apply x ⟨r.val, r.isLt⟩ q

end Cert.RefRead

end
-- ==== Proof.GridSum.lean ====
/-
  A sum over a range cut into consecutive blocks.

  A sum over `Fin (m * n)` is the double sum over `m` blocks of `n` consecutive positions: position `n * i + j` is
  position `j` of block `i`, and every position below `m * n` is of that form exactly once (division with remainder).
  No finiteness is asked of the summands: any commutative additive monoid will do, the extended reals among them.
  `sum_grid` is the instance the kernel's grid needs: 1024 grid points of 8 rows each cover the 8192 rows.
-/
import Idealize.ShloMosaic.Lib.ValueIdx

noncomputable section

open scoped BigOperators

namespace Cert.GridSum

/-- A sum over `Fin (m * n)` is the double sum over `m` blocks of `n` consecutive positions. -/
theorem sum_blocks {M : Type*} [AddCommMonoid M] (m n : ℕ) (f : Fin (m * n) → M) :
    ∑ r, f r = ∑ i : Fin m, ∑ j : Fin n, f (finProdFinEquiv (i, j)) := by
  rw [← Equiv.sum_comp finProdFinEquiv f, Fintype.sum_prod_type]

/-- Position `j` of block `i` is position `n * i + j`. -/
theorem block_val (m n : ℕ) (i : Fin m) (j : Fin n) : (finProdFinEquiv (i, j)).val = n * i.val + j.val :=
  Nat.add_comm _ _

/-- 1024 blocks of 8 rows are the 8192 rows. -/
theorem sum_grid {M : Type*} [AddCommMonoid M] (f : Fin 8192 → M) :
    (∑ t : Fin 1024, ∑ b : Fin 8, f ⟨8 * t.val + b.val, by omega⟩) = ∑ r : Fin 8192, f r := by
  refine ((sum_blocks 1024 8 f).trans ?_).symm
  refine Finset.sum_congr rfl fun t _ => Finset.sum_congr rfl fun b _ => congrArg f (Fin.ext ?_)
  exact block_val 1024 8 t b

end Cert.GridSum

end
-- ==== Proof.Closing.lean ====
/-
  The closing algebra: what the kernel leaves is what the reference computes.

  Both programs end with the same host operations applied to two arrays: a table of maxima `add : f32[8192, 16]` and
  the column sums of the first 8192 rows of `x`. So three things are to be seen.

    * The tails agree (`kcost_eq`, `kdiff_eq`, `kb_eq`, `kbooster_eq`): the kernel's four closing functions are the
      reference's four, the same operations in the same order.
    * The maxima agree (`kAdd_eq_refAdd`). The kernel's entry `(r, k)` is the maximum over the 512 columns `j` of
      `x[r, j] + x[row, j]`, `row` being the index word of `y` at `(r, k)` read unsigned; the reference's is the
      maximum of `x[row', j] + x[r, j]`, `row'` being the word after `100000` is added where it is negative, read
      signed. A word below `100000` unsigned has its top bit clear: it is not negative, so nothing is added, and
      its signed and unsigned readings are the same number. The two sums differ by the order of their terms.
    * The column sums agree (`kflat_kBcol`): the kernel sums each column over 1024 grid points of 8 rows, the
      reference over the 8192 rows at once; the kernel's row of 512 is then read as a vector of 512.

  `closing` puts the three together.
-/
import proofs.«106441_j1580547974259_1_alg».proof.Proof.RefRead
import proofs.«106441_j1580547974259_1_alg».proof.Proof.GridSum
import proofs.«106441_j1580547974259_1_alg».proof.Proof.HostSideIdeal
import proofs.«106441_j1580547974259_1_alg».proof.Proof.RowsInRange
import Idealize.ShloMosaic.Lib.Affine
import Idealize.ShloMosaic.Lib.ValueLayout

noncomputable section

open scoped BigOperators

namespace Cert.Closing

open Cert.ReferenceIdeal Cert.RefRun Cert.RefRead Cert.KernelIdeal.HostSide
open Idealize.ShloMosaic Idealize.ShloMosaic.ValueIdx

/-! ## The tails agree -/

section Tails

variable {F : FTy → Type} [FloatOps F]

theorem kdiff_eq (add : FVec F S8192x16 .f32) (w : FVec F S8192 .f32) : kdiff add w = tailDiff add w := rfl
theorem kb_eq (v : FVec F S512 .f32) : kb v = tailB v := rfl
theorem kcost_eq (add : FVec F S8192x16 .f32) (v : FVec F S512 .f32) (w : FVec F S8192 .f32) :
    kcost add v w = tailCost add v w := rfl
theorem kbooster_eq (add : FVec F S8192x16 .f32) : kbooster add = tailBooster add := rfl

end Tails

/-! ## The index words -/

/-- The kernel's index words are the reference's, before the reference adds `100000` to the negative ones. -/
theorem rows_eq_refIdx {F : FTy → Type} [FloatOps F] (y : FVec F S8192x16 .f32) :
    Cert.RowsInRange.rows y = refIdx y := rfl

/-- A word below `100000` unsigned is not negative signed, and reads the same both ways. -/
theorem toInt_of_lt (v : BitVec 32) (h : v.toNat < 100000) : v.toInt = (v.toNat : Int) :=
  BitVec.toInt_eq_toNat_of_lt (by omega)

/-- To such a word nothing is added. -/
theorem select_neg_of_lt (v : BitVec 32) (h : v.toNat < 100000) :
    Scalar.select (IntOp.cmpi .slt v 0#32) (IntOp.addi v 100000#32) v = v := by
  have hn : ¬ IntOp.cmpi .slt v 0#32 = 1#1 := fun hc => by
    have hlt : v.toInt < (0#32 : BitVec 32).toInt := IntOp.cmpi_slt.1 hc
    rw [toInt_of_lt v h, show (0#32 : BitVec 32).toInt = 0 from rfl] at hlt
    omega
  rw [eq_zero_of_ne_one hn, select_zero]

/-- So the reference's row index at `i` is the kernel's word there, … -/
theorem refNns_apply_of_lt {F : FTy → Type} [FloatOps F] (y : FVec F S8192x16 .f32) (i : S8192x16.Idx)
    (h : (Cert.RowsInRange.rows y i).toNat < 100000) : refNns y i = Cert.RowsInRange.rows y i := by
  show Scalar.select (IntOp.cmpi .slt (refIdx y i) 0#32) (IntOp.addi (refIdx y i) 100000#32) (refIdx y i) = refIdx y i
  exact select_neg_of_lt (refIdx y i) h

/-- … and read signed it is the word read unsigned. -/
theorem refNns_toNat_of_lt {F : FTy → Type} [FloatOps F] (y : FVec F S8192x16 .f32) (i : S8192x16.Idx)
    (h : (Cert.RowsInRange.rows y i).toNat < 100000) :
    (refNns y i).toInt.toNat = (Cert.RowsInRange.rows y i).toNat := by
  rw [refNns_apply_of_lt y i h, toInt_of_lt _ h]
  exact Int.toNat_natCast _

/-! ## The maxima agree -/

/-- The kernel's table of maxima in closed form: at `i = (r, k)` the maximum over the columns `j` of
    `x[r, j] + x[row, j]`, `row` the index word at `i` read unsigned. -/
def kAdd (x : FVec Ideal S100000x512 .f32) (y : FVec Ideal S8192x16 .f32)
    (hrows : ∀ i : S8192x16.Idx, (Cert.RowsInRange.rows y i).toNat < 100000) : S8192x16.Idx → EReal :=
  fun i => (Finset.univ : Finset (Fin 512)).fold max (⊥ : EReal) fun j =>
    x (ix2 (⟨(i 0).val, by have := idx2_lt0 i; omega⟩ : Fin 100000) j)
      + x (ix2 (⟨(Cert.RowsInRange.rows y i).toNat, hrows i⟩ : Fin 100000) j)

/-- At `(r, k)`. -/
theorem kAdd_apply (x : FVec Ideal S100000x512 .f32) (y : FVec Ideal S8192x16 .f32)
    (hrows : ∀ i : S8192x16.Idx, (Cert.RowsInRange.rows y i).toNat < 100000) (r : Fin 8192) (k : Fin 16) :
    kAdd x y hrows (ix2 r k)
      = (Finset.univ : Finset (Fin 512)).fold max (⊥ : EReal) fun j =>
          x (ix2 (⟨r.val, by omega⟩ : Fin 100000) j)
            + x (ix2 (⟨(Cert.RowsInRange.rows y (ix2 r k)).toNat, hrows (ix2 r k)⟩ : Fin 100000) j) := rfl

/-- It is the reference's. -/
theorem kAdd_eq_refAdd (x : FVec Ideal S100000x512 .f32) (y : FVec Ideal S8192x16 .f32)
    (hrows : ∀ i : S8192x16.Idx, (Cert.RowsInRange.rows y i).toNat < 100000) : kAdd x y hrows = refAdd x y := by
  funext i
  obtain ⟨r, k, rfl⟩ : ∃ (r : Fin 8192) (k : Fin 16), i = ix2 r k := ⟨i 0, i 1, eq_ix2 i⟩
  have hn := refNns_toNat_of_lt y (ix2 r k) (hrows (ix2 r k))
  have hr : (refNns y (ix2 r k)).toInt.toNat < 100000 := by rw [hn]; exact hrows (ix2 r k)
  rw [refAdd_apply x y r k hr, kAdd_apply]
  refine congrArg (fun f => Finset.fold max (⊥ : EReal) f (Finset.univ : Finset (Fin 512))) (funext fun j => ?_)
  have hrow : (⟨(Cert.RowsInRange.rows y (ix2 r k)).toNat, hrows (ix2 r k)⟩ : Fin 100000)
      = ⟨(refNns y (ix2 r k)).toInt.toNat, hr⟩ := Fin.ext hn.symm
  rw [hrow]
  exact add_comm _ _

/-! ## The column sums agree -/

/-- The kernel's row of column sums in closed form: at column `q` the sum over the 1024 grid points `t` and the 8
    rows `b` of a point of `x[8 t + b, q]`. -/
def kBcol (x : FVec Ideal S100000x512 .f32) : Cert.KernelIdeal.S1x512.Idx → EReal :=
  fun i => ∑ t : Fin 1024, ∑ b : Fin 8,
    x (ix2 (⟨8 * t.val + b.val, by omega⟩ : Fin 100000) (⟨(i 1).val, idx2_lt1 i⟩ : Fin 512))

/-- At column `q`. -/
theorem kBcol_apply (x : FVec Ideal S100000x512 .f32) (q : Fin 512) :
    kBcol x (ix2 (0 : Fin 1) q)
      = ∑ t : Fin 1024, ∑ b : Fin 8, (x (ix2 (⟨8 * t.val + b.val, by omega⟩ : Fin 100000) q) : EReal) := rfl

/-- The same started from zero, as an accumulation leaves it. -/
theorem zero_add_kBcol_apply (x : FVec Ideal S100000x512 .f32) (q : Fin 512) :
    (0 : EReal) + ∑ t : Fin 1024, ∑ b : Fin 8, (x (ix2 (⟨8 * t.val + b.val, by omega⟩ : Fin 100000) q) : EReal)
      = kBcol x (ix2 (0 : Fin 1) q) := zero_add _

/-- Read as a vector of 512 it is the reference's. -/
theorem kflat_kBcol (x : FVec Ideal S100000x512 .f32) : kflat (kBcol x) = refBcol x := by
  funext j
  obtain ⟨q, rfl⟩ : ∃ q : Fin 512, j = ix1 q := ⟨j 0, eq_ix1 j⟩
  unfold kflat
  refine (shapeCast_1a_a_apply _ _ q).trans ?_
  rw [refBcol_apply, kBcol_apply]
  exact Cert.GridSum.sum_grid fun r : Fin 8192 => (x (ix2 (⟨r.val, by omega⟩ : Fin 100000) q) : EReal)

/-! ## Together -/

/-- If the region leaves the table of maxima and the row of column sums in their closed forms, the kernel's four
    results are the reference's. -/
theorem closing (x : FVec Ideal S100000x512 .f32) (y : FVec Ideal S8192x16 .f32) (w : FVec Ideal S8192 .f32)
    (hrows : ∀ i : S8192x16.Idx, (Cert.RowsInRange.rows y i).toNat < 100000)
    (o0 : FVec Ideal S8192x16 .f32) (o1 : FVec Ideal Cert.KernelIdeal.S1x512 .f32)
    (h0 : o0 = fun i => kAdd x y hrows i) (h1 : o1 = fun i => kBcol x i) :
    kcost o0 (kflat o1) w = tailCost (refAdd x y) (refBcol x) w
      ∧ kdiff o0 w = tailDiff (refAdd x y) w
      ∧ kb (kflat o1) = tailB (refBcol x)
      ∧ kbooster o0 = tailBooster (refAdd x y) := by
  have e0 : o0 = refAdd x y := h0.trans (kAdd_eq_refAdd x y hrows)
  have e1 : kflat o1 = refBcol x := (congrArg kflat h1).trans (kflat_kBcol x)
  rw [e0, e1]
  exact ⟨kcost_eq _ _ _, kdiff_eq _ _, kb_eq _, kbooster_eq _⟩

end Cert.Closing

end
-- ==== Proof.AssembleAlg.lean ====
/-
  The algebraic claim assembled: the program's four results are the closing functions of what the region leaves; when
  that is the table of maxima and the row of column sums in closed form, the closing algebra makes them the
  reference's four results, and both programs leave their arguments unchanged.
-/
import proofs.«106441_j1580547974259_1_alg».proof.Proof.AssembleIdeal
import proofs.«106441_j1580547974259_1_alg».proof.Proof.Closing
import proofs.«106441_j1580547974259_1_alg».proof.Proof.RefRun

set_option maxRecDepth 16384

noncomputable section

namespace Cert.KernelIdeal.Body

open Cert.KernelIdeal Cert.KernelIdeal.Gen
open Idealize.ShloMosaic Idealize.ShloMosaic.TcCoe
open Idealize.SL.Sem
open Idealize.ShloMosaic.Pipeline (Dat)

/-- The algebraic claim, given the body's data and the closed forms of what the region leaves. If, for every memory of
    which the precondition holds, the region's table of maxima is `kAdd` and its row of column sums is `kBcol` of the
    first two arguments, then the program and the reference, run from memories that agree on the arguments, end with
    equal results and unchanged arguments: the program's results are the closing functions of what the region left,
    which are the reference's by the closing algebra. -/
theorem alg_of (𝒱₀ : Variants)
    (bd : ∀ m : (ℓ : Loc nD τ sig) → Buf (Elt Ideal) ℓ,
      Cert.Pre_KernelIdeal (hPre_finite_inputs := Cert.Pre_finite_inputs.Gen.facts) m → BodyData (F := Ideal) m 𝒱₀)
    (hout : ∀ (m : (ℓ : Loc nD τ sig) → Buf (Elt Ideal) ℓ)
      (hpre : Cert.Pre_KernelIdeal (hPre_finite_inputs := Cert.Pre_finite_inputs.Gen.facts) m) (c : Dev nD),
      (out0 (HostSide.V1 m) (bd m hpre).pdats c : FVec Ideal S8192x16 .f32)
          = (fun i => Cert.Closing.kAdd (m ((c.tc : Thread nD τ).loc main_arg0)) (m ((c.tc : Thread nD τ).loc main_arg1))
              (Cert.RowsInRange.rows_lt _ _ _ (hpre c)) i)
        ∧ (out1 (HostSide.V1 m) (bd m hpre).pdats c : FVec Ideal S1x512 .f32)
          = (fun i => Cert.Closing.kBcol (m ((c.tc : Thread nD τ).loc main_arg0)) i)) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m g m' g' hpre hagree
  refine ⟨
    fun c => Cert.RefRun.tailCost (F := Ideal) (Cert.RefRun.refAdd (m ((c.tc : Thread nD τ).loc main_arg0)) (m ((c.tc : Thread nD τ).loc main_arg1)))
      (Cert.RefRun.refBcol (m ((c.tc : Thread nD τ).loc main_arg0))) (m ((c.tc : Thread nD τ).loc main_arg2)),
    fun c => Cert.RefRun.tailDiff (F := Ideal) (Cert.RefRun.refAdd (m ((c.tc : Thread nD τ).loc main_arg0)) (m ((c.tc : Thread nD τ).loc main_arg1)))
      (m ((c.tc : Thread nD τ).loc main_arg2)),
    fun c => Cert.RefRun.tailB (F := Ideal) (Cert.RefRun.refBcol (m ((c.tc : Thread nD τ).loc main_arg0))),
    fun c => Cert.RefRun.tailBooster (F := Ideal) (Cert.RefRun.refAdd (m ((c.tc : Thread nD τ).loc main_arg0)) (m ((c.tc : Thread nD τ).loc main_arg1))),
    ?_, ?_⟩
  · refine (θ_run (defs (F := Ideal)) _ _).mono (fun _ h c => ?_)
      (region_run m 𝒱₀ g (bd m hpre).pdats (bd m hpre).hA (bd m hpre).hq (bd m hpre).hΦ (bd m hpre).howed (bd m hpre).hbody)
    obtain ⟨h0, h1⟩ := hout m hpre c
    obtain ⟨k0, k1, k2, k3⟩ := Cert.Closing.closing (m ((c.tc : Thread nD τ).loc main_arg0)) (m ((c.tc : Thread nD τ).loc main_arg1))
      (m ((c.tc : Thread nD τ).loc main_arg2)) (Cert.RowsInRange.rows_lt _ _ _ (hpre c)) _ _ h0 h1
    exact ⟨(h c main_v24 (by decide)).trans ((HostSide.V3_main_v24 m _ _ c).trans k0),
      (h c main_v19 (by decide)).trans ((HostSide.V3_main_v19 m _ _ c).trans k1),
      (h c main_v25 (by decide)).trans ((HostSide.V3_main_v25 m _ _ c).trans k2),
      (h c main_v12 (by decide)).trans ((HostSide.V3_main_v12 m _ _ c).trans k3),
      (h c main_arg0 (by decide)).trans (HostSide.V3_main_arg0 m _ _ c),
      (h c main_arg1 (by decide)).trans (HostSide.V3_main_arg1 m _ _ c),
      (h c main_arg2 (by decide)).trans (HostSide.V3_main_arg2 m _ _ c)⟩
  · refine (θ_run (Cert.ReferenceIdeal.defs (F := Ideal)) _ _).mono (fun _ h c => ?_) (Cert.RefRun.run (F := Ideal) m' g')
    obtain ⟨a0, a1, a2⟩ := hagree c
    obtain ⟨r0, r1, r2, r3, r4, r5, r6⟩ := h c
    refine ⟨r0.trans ?_, r1.trans ?_, r2.trans ?_, r3.trans ?_, r4, r5, r6⟩
    · rw [a0, a1, a2]
    · rw [a0, a1, a2]
    · rw [a0]
    · rw [a0, a1]

end Cert.KernelIdeal.Body

end
-- ==== Proof.BodyMathBits.lean ====
/-
  The kernel body's arithmetic, named and read at an index.

  The body computes with a handful of functions, each occurring many times over different values:

    * `smax s : f32[1, 1]`, the maximum of the 512 entries of a row `s : f32[1, 512]`, from `-∞`;
    * `pmax q g = smax (q + g)`, the maximum over the 512 lanes of the sum of two rows;
    * `row16 v : f32[1, 16]`, sixteen `1 × 1` values laid side by side;
    * `col8 r : f32[8, 16]`, eight rows of sixteen stacked;
    * `accStep acc x : f32[1, 512]`, a row plus the column sums of an `8 × 512` block;
    * `zeroRow`, the row of zeros.

  Every named payload of the body is one of these applied to the payload's own arguments (`payN_eq`, each by
  unfolding; `pay_eqs` is their conjunction, usable as one rewriting set). At the ideal values (floats extended reals,
  operations exact): `smax s` is the fold of `max` from `⊥` over the 512 lanes, and equally their supremum; `pmax` is
  symmetric in its two rows; entry `k` of `row16 v` is `v k`, row `b` of `col8 r` is `r b`; `accStep acc x` at column
  `q` is `acc` there plus `∑ b : Fin 8, x[b, q]`; `zeroRow` is `0` everywhere.
-/
import proofs.«106441_j1580547974259_1_alg».proof.Proof.Gen.Kernel.Skeleton
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

open scoped BigOperators

namespace Cert.BodyMathBits

open Cert.Kernel Cert.Kernel.Gen Idealize.ShloMosaic Idealize.ShloMosaic.ValueIdx

/-! ## The functions -/

section Functions

variable {F : FTy → Type} [FloatOps F] {α : Type}

/-- The maximum of a row's 512 entries, from `-∞`, as a `1 × 1` value. -/
def smax (s : FVec F S1x512 .f32) : FVec F S1x1 .f32 :=
  shapeCast S1x1 (multiReduction .maximumf [1] S1 s 0xFF800000#32 reduces_S1x512_S1 (.inl rfl) rfl) shapeCasts_S1_S1x1

/-- The maximum over the lanes of the sum of two rows. -/
def pmax (q g : FVec F S1x512 .f32) : FVec F S1x1 .f32 :=
  smax (addf q g)

/-- Sixteen `1 × 1` values side by side. -/
def row16 (v : Fin 16 → S1x1.Idx → α) : S1x16.Idx → α :=
  concatenate S1x16 1 [⟨S1x1, v 0⟩, ⟨S1x1, v 1⟩, ⟨S1x1, v 2⟩, ⟨S1x1, v 3⟩, ⟨S1x1, v 4⟩, ⟨S1x1, v 5⟩, ⟨S1x1, v 6⟩, ⟨S1x1, v 7⟩, ⟨S1x1, v 8⟩, ⟨S1x1, v 9⟩, ⟨S1x1, v 10⟩, ⟨S1x1, v 11⟩, ⟨S1x1, v 12⟩, ⟨S1x1, v 13⟩, ⟨S1x1, v 14⟩, ⟨S1x1, v 15⟩] concatenates_S1x1_S1x1_S1x1_S1x1_S1x1_S1x1_S1x1_S1x1_S1x1_S1x1_S1x1_S1x1_S1x1_S1x1_S1x1_S1x1_S1x16_d1

/-- Eight rows of sixteen, stacked. -/
def col8 (r : Fin 8 → S1x16.Idx → α) : S8x16.Idx → α :=
  concatenate S8x16 0 [⟨S1x16, r 0⟩, ⟨S1x16, r 1⟩, ⟨S1x16, r 2⟩, ⟨S1x16, r 3⟩, ⟨S1x16, r 4⟩, ⟨S1x16, r 5⟩, ⟨S1x16, r 6⟩, ⟨S1x16, r 7⟩] concatenates_S1x16_S1x16_S1x16_S1x16_S1x16_S1x16_S1x16_S1x16_S8x16_d0

/-- A row plus the column sums of an `8 × 512` block. -/
def accStep (acc : FVec F S1x512 .f32) (x : FVec F S8x512 .f32) : FVec F S1x512 .f32 :=
  addf (shapeCast S1x512 acc shapeCasts_S1x512_S1x512)
    (shapeCast S1x512 (multiReduction .add [0] S512 x 0x00000000#32 reduces_S8x512_S512 (.inl rfl) rfl) shapeCasts_S512_S1x512)

/-- The row of zeros. -/
def zeroRow : FVec F S1x512 .f32 :=
  broadcast S1x512 (Scalar.ofBits .f32 0x00000000#32)

/-- `smax` of a sum is `pmax`. -/
theorem smax_addf (q g : FVec F S1x512 .f32) : smax (addf q g) = pmax q g := rfl

/-! ## Every payload is one of them -/

theorem pay1_eq (v2400 : FVec F S1x1 .f32) (v2421 : FVec F S1x1 .f32) (v2442 : FVec F S1x1 .f32) (v2463 : FVec F S1x1 .f32) (v2484 : FVec F S1x1 .f32) (v2505 : FVec F S1x1 .f32) (v2526 : FVec F S1x1 .f32) (v2547 : FVec F S1x1 .f32) (v2568 : FVec F S1x1 .f32) (v2589 : FVec F S1x1 .f32) (v2610 : FVec F S1x1 .f32) (v2631 : FVec F S1x1 .f32) (v2652 : FVec F S1x1 .f32) (v2673 : FVec F S1x1 .f32) (v2694 : FVec F S1x1 .f32) (v2703 : FVec F S1x512 .f32) : k0_pay1 v2400 v2421 v2442 v2463 v2484 v2505 v2526 v2547 v2568 v2589 v2610 v2631 v2652 v2673 v2694 v2703 = row16 ![v2400, v2421, v2442, v2463, v2484, v2505, v2526, v2547, v2568, v2589, v2610, v2631, v2652, v2673, v2694, smax v2703] := rfl
theorem pay2_eq (v357 : FVec F S1x16 .f32) (v694 : FVec F S1x16 .f32) (v1031 : FVec F S1x16 .f32) (v1368 : FVec F S1x16 .f32) (v1705 : FVec F S1x16 .f32) (v2042 : FVec F S1x16 .f32) (v2379 : FVec F S1x16 .f32) (v2706 : FVec F S1x16 .f32) : k0_pay2 v357 v694 v1031 v1368 v1705 v2042 v2379 v2706 = col8 ![v357, v694, v1031, v1368, v1705, v2042, v2379, v2706] := rfl
theorem pay3_eq : (k0_pay3 : FVec F S1x512 .f32) = zeroRow := rfl
theorem pay4_eq (v4 : FVec F S1x512 .f32) (v6 : FVec F S8x512 .f32) : k0_pay4 v4 v6 = accStep v4 v6 := rfl
theorem pay5_eq (v37 : FVec F S1x512 .f32) (v38 : FVec F S1x512 .f32) : k0_pay5 v37 v38 = pmax v37 v38 := rfl
theorem pay6_eq (v58 : FVec F S1x512 .f32) (v59 : FVec F S1x512 .f32) : k0_pay6 v58 v59 = addf v58 v59 := rfl
theorem pay7_eq (v60 : FVec F S1x512 .f32) : k0_pay7 v60 = smax v60 := rfl
theorem pay8_eq (v79 : FVec F S1x512 .f32) (v80 : FVec F S1x512 .f32) : k0_pay8 v79 v80 = pmax v79 v80 := rfl
theorem pay9_eq (v100 : FVec F S1x512 .f32) (v101 : FVec F S1x512 .f32) : k0_pay9 v100 v101 = pmax v100 v101 := rfl
theorem pay10_eq (v121 : FVec F S1x512 .f32) (v122 : FVec F S1x512 .f32) : k0_pay10 v121 v122 = addf v121 v122 := rfl
theorem pay11_eq (v123 : FVec F S1x512 .f32) : k0_pay11 v123 = smax v123 := rfl
theorem pay12_eq (v142 : FVec F S1x512 .f32) (v143 : FVec F S1x512 .f32) : k0_pay12 v142 v143 = pmax v142 v143 := rfl
theorem pay13_eq (v163 : FVec F S1x512 .f32) (v164 : FVec F S1x512 .f32) : k0_pay13 v163 v164 = pmax v163 v164 := rfl
theorem pay14_eq (v184 : FVec F S1x512 .f32) (v185 : FVec F S1x512 .f32) : k0_pay14 v184 v185 = addf v184 v185 := rfl
theorem pay15_eq (v186 : FVec F S1x512 .f32) : k0_pay15 v186 = smax v186 := rfl
theorem pay16_eq (v205 : FVec F S1x512 .f32) (v206 : FVec F S1x512 .f32) : k0_pay16 v205 v206 = pmax v205 v206 := rfl
theorem pay17_eq (v226 : FVec F S1x512 .f32) (v227 : FVec F S1x512 .f32) : k0_pay17 v226 v227 = pmax v226 v227 := rfl
theorem pay18_eq (v247 : FVec F S1x512 .f32) (v248 : FVec F S1x512 .f32) : k0_pay18 v247 v248 = addf v247 v248 := rfl
theorem pay19_eq (v249 : FVec F S1x512 .f32) : k0_pay19 v249 = smax v249 := rfl
theorem pay20_eq (v268 : FVec F S1x512 .f32) (v269 : FVec F S1x512 .f32) : k0_pay20 v268 v269 = pmax v268 v269 := rfl
theorem pay21_eq (v289 : FVec F S1x512 .f32) (v290 : FVec F S1x512 .f32) : k0_pay21 v289 v290 = pmax v289 v290 := rfl
theorem pay22_eq (v310 : FVec F S1x512 .f32) (v311 : FVec F S1x512 .f32) : k0_pay22 v310 v311 = addf v310 v311 := rfl
theorem pay23_eq (v312 : FVec F S1x512 .f32) : k0_pay23 v312 = smax v312 := rfl
theorem pay24_eq (v331 : FVec F S1x512 .f32) (v332 : FVec F S1x512 .f32) : k0_pay24 v331 v332 = pmax v331 v332 := rfl
theorem pay25_eq (v41 : FVec F S1x1 .f32) (v62 : FVec F S1x1 .f32) (v83 : FVec F S1x1 .f32) (v104 : FVec F S1x1 .f32) (v125 : FVec F S1x1 .f32) (v146 : FVec F S1x1 .f32) (v167 : FVec F S1x1 .f32) (v188 : FVec F S1x1 .f32) (v209 : FVec F S1x1 .f32) (v230 : FVec F S1x1 .f32) (v251 : FVec F S1x1 .f32) (v272 : FVec F S1x1 .f32) (v293 : FVec F S1x1 .f32) (v314 : FVec F S1x1 .f32) (v335 : FVec F S1x1 .f32) (v352 : FVec F S1x512 .f32) (v353 : FVec F S1x512 .f32) : k0_pay25 v41 v62 v83 v104 v125 v146 v167 v188 v209 v230 v251 v272 v293 v314 v335 v352 v353 = row16 ![v41, v62, v83, v104, v125, v146, v167, v188, v209, v230, v251, v272, v293, v314, v335, pmax v352 v353] := rfl
theorem pay26_eq (v374 : FVec F S1x512 .f32) (v375 : FVec F S1x512 .f32) : k0_pay26 v374 v375 = addf v374 v375 := rfl
theorem pay27_eq (v376 : FVec F S1x512 .f32) : k0_pay27 v376 = smax v376 := rfl
theorem pay28_eq (v395 : FVec F S1x512 .f32) (v396 : FVec F S1x512 .f32) : k0_pay28 v395 v396 = pmax v395 v396 := rfl
theorem pay29_eq (v416 : FVec F S1x512 .f32) (v417 : FVec F S1x512 .f32) : k0_pay29 v416 v417 = pmax v416 v417 := rfl
theorem pay30_eq (v437 : FVec F S1x512 .f32) (v438 : FVec F S1x512 .f32) : k0_pay30 v437 v438 = addf v437 v438 := rfl
theorem pay31_eq (v439 : FVec F S1x512 .f32) : k0_pay31 v439 = smax v439 := rfl
theorem pay32_eq (v458 : FVec F S1x512 .f32) (v459 : FVec F S1x512 .f32) : k0_pay32 v458 v459 = pmax v458 v459 := rfl
theorem pay33_eq (v479 : FVec F S1x512 .f32) (v480 : FVec F S1x512 .f32) : k0_pay33 v479 v480 = pmax v479 v480 := rfl
theorem pay34_eq (v500 : FVec F S1x512 .f32) (v501 : FVec F S1x512 .f32) : k0_pay34 v500 v501 = addf v500 v501 := rfl
theorem pay35_eq (v502 : FVec F S1x512 .f32) : k0_pay35 v502 = smax v502 := rfl
theorem pay36_eq (v521 : FVec F S1x512 .f32) (v522 : FVec F S1x512 .f32) : k0_pay36 v521 v522 = pmax v521 v522 := rfl
theorem pay37_eq (v542 : FVec F S1x512 .f32) (v543 : FVec F S1x512 .f32) : k0_pay37 v542 v543 = pmax v542 v543 := rfl
theorem pay38_eq (v563 : FVec F S1x512 .f32) (v564 : FVec F S1x512 .f32) : k0_pay38 v563 v564 = addf v563 v564 := rfl
theorem pay39_eq (v565 : FVec F S1x512 .f32) : k0_pay39 v565 = smax v565 := rfl
theorem pay40_eq (v584 : FVec F S1x512 .f32) (v585 : FVec F S1x512 .f32) : k0_pay40 v584 v585 = pmax v584 v585 := rfl
theorem pay41_eq (v605 : FVec F S1x512 .f32) (v606 : FVec F S1x512 .f32) : k0_pay41 v605 v606 = pmax v605 v606 := rfl
theorem pay42_eq (v626 : FVec F S1x512 .f32) (v627 : FVec F S1x512 .f32) : k0_pay42 v626 v627 = addf v626 v627 := rfl
theorem pay43_eq (v628 : FVec F S1x512 .f32) : k0_pay43 v628 = smax v628 := rfl
theorem pay44_eq (v647 : FVec F S1x512 .f32) (v648 : FVec F S1x512 .f32) : k0_pay44 v647 v648 = pmax v647 v648 := rfl
theorem pay45_eq (v668 : FVec F S1x512 .f32) (v669 : FVec F S1x512 .f32) : k0_pay45 v668 v669 = pmax v668 v669 := rfl
theorem pay46_eq (v689 : FVec F S1x512 .f32) (v690 : FVec F S1x512 .f32) : k0_pay46 v689 v690 = addf v689 v690 := rfl
theorem pay47_eq (v378 : FVec F S1x1 .f32) (v399 : FVec F S1x1 .f32) (v420 : FVec F S1x1 .f32) (v441 : FVec F S1x1 .f32) (v462 : FVec F S1x1 .f32) (v483 : FVec F S1x1 .f32) (v504 : FVec F S1x1 .f32) (v525 : FVec F S1x1 .f32) (v546 : FVec F S1x1 .f32) (v567 : FVec F S1x1 .f32) (v588 : FVec F S1x1 .f32) (v609 : FVec F S1x1 .f32) (v630 : FVec F S1x1 .f32) (v651 : FVec F S1x1 .f32) (v672 : FVec F S1x1 .f32) (v691 : FVec F S1x512 .f32) : k0_pay47 v378 v399 v420 v441 v462 v483 v504 v525 v546 v567 v588 v609 v630 v651 v672 v691 = row16 ![v378, v399, v420, v441, v462, v483, v504, v525, v546, v567, v588, v609, v630, v651, v672, smax v691] := rfl
theorem pay48_eq (v711 : FVec F S1x512 .f32) (v712 : FVec F S1x512 .f32) : k0_pay48 v711 v712 = pmax v711 v712 := rfl
theorem pay49_eq (v732 : FVec F S1x512 .f32) (v733 : FVec F S1x512 .f32) : k0_pay49 v732 v733 = pmax v732 v733 := rfl
theorem pay50_eq (v753 : FVec F S1x512 .f32) (v754 : FVec F S1x512 .f32) : k0_pay50 v753 v754 = pmax v753 v754 := rfl
theorem pay51_eq (v774 : FVec F S1x512 .f32) (v775 : FVec F S1x512 .f32) : k0_pay51 v774 v775 = pmax v774 v775 := rfl
theorem pay52_eq (v795 : FVec F S1x512 .f32) (v796 : FVec F S1x512 .f32) : k0_pay52 v795 v796 = pmax v795 v796 := rfl
theorem pay53_eq (v816 : FVec F S1x512 .f32) (v817 : FVec F S1x512 .f32) : k0_pay53 v816 v817 = pmax v816 v817 := rfl
theorem pay54_eq (v837 : FVec F S1x512 .f32) (v838 : FVec F S1x512 .f32) : k0_pay54 v837 v838 = pmax v837 v838 := rfl
theorem pay55_eq (v858 : FVec F S1x512 .f32) (v859 : FVec F S1x512 .f32) : k0_pay55 v858 v859 = pmax v858 v859 := rfl
theorem pay56_eq (v879 : FVec F S1x512 .f32) (v880 : FVec F S1x512 .f32) : k0_pay56 v879 v880 = pmax v879 v880 := rfl
theorem pay57_eq (v900 : FVec F S1x512 .f32) (v901 : FVec F S1x512 .f32) : k0_pay57 v900 v901 = pmax v900 v901 := rfl
theorem pay58_eq (v921 : FVec F S1x512 .f32) (v922 : FVec F S1x512 .f32) : k0_pay58 v921 v922 = pmax v921 v922 := rfl
theorem pay59_eq (v942 : FVec F S1x512 .f32) (v943 : FVec F S1x512 .f32) : k0_pay59 v942 v943 = pmax v942 v943 := rfl
theorem pay60_eq (v963 : FVec F S1x512 .f32) (v964 : FVec F S1x512 .f32) : k0_pay60 v963 v964 = pmax v963 v964 := rfl
theorem pay61_eq (v984 : FVec F S1x512 .f32) (v985 : FVec F S1x512 .f32) : k0_pay61 v984 v985 = pmax v984 v985 := rfl
theorem pay62_eq (v715 : FVec F S1x1 .f32) (v736 : FVec F S1x1 .f32) (v757 : FVec F S1x1 .f32) (v778 : FVec F S1x1 .f32) (v799 : FVec F S1x1 .f32) (v820 : FVec F S1x1 .f32) (v841 : FVec F S1x1 .f32) (v862 : FVec F S1x1 .f32) (v883 : FVec F S1x1 .f32) (v904 : FVec F S1x1 .f32) (v925 : FVec F S1x1 .f32) (v946 : FVec F S1x1 .f32) (v967 : FVec F S1x1 .f32) (v988 : FVec F S1x1 .f32) (v1005 : FVec F S1x512 .f32) (v1006 : FVec F S1x512 .f32) (v1026 : FVec F S1x512 .f32) (v1027 : FVec F S1x512 .f32) : k0_pay62 v715 v736 v757 v778 v799 v820 v841 v862 v883 v904 v925 v946 v967 v988 v1005 v1006 v1026 v1027 = row16 ![v715, v736, v757, v778, v799, v820, v841, v862, v883, v904, v925, v946, v967, v988, pmax v1005 v1006, pmax v1026 v1027] := rfl
theorem pay63_eq (v1048 : FVec F S1x512 .f32) (v1049 : FVec F S1x512 .f32) : k0_pay63 v1048 v1049 = pmax v1048 v1049 := rfl
theorem pay64_eq (v1069 : FVec F S1x512 .f32) (v1070 : FVec F S1x512 .f32) : k0_pay64 v1069 v1070 = pmax v1069 v1070 := rfl
theorem pay65_eq (v1090 : FVec F S1x512 .f32) (v1091 : FVec F S1x512 .f32) : k0_pay65 v1090 v1091 = pmax v1090 v1091 := rfl
theorem pay66_eq (v1111 : FVec F S1x512 .f32) (v1112 : FVec F S1x512 .f32) : k0_pay66 v1111 v1112 = pmax v1111 v1112 := rfl
theorem pay67_eq (v1132 : FVec F S1x512 .f32) (v1133 : FVec F S1x512 .f32) : k0_pay67 v1132 v1133 = pmax v1132 v1133 := rfl
theorem pay68_eq (v1153 : FVec F S1x512 .f32) (v1154 : FVec F S1x512 .f32) : k0_pay68 v1153 v1154 = pmax v1153 v1154 := rfl
theorem pay69_eq (v1174 : FVec F S1x512 .f32) (v1175 : FVec F S1x512 .f32) : k0_pay69 v1174 v1175 = pmax v1174 v1175 := rfl
theorem pay70_eq (v1195 : FVec F S1x512 .f32) (v1196 : FVec F S1x512 .f32) : k0_pay70 v1195 v1196 = pmax v1195 v1196 := rfl
theorem pay71_eq (v1216 : FVec F S1x512 .f32) (v1217 : FVec F S1x512 .f32) : k0_pay71 v1216 v1217 = pmax v1216 v1217 := rfl
theorem pay72_eq (v1237 : FVec F S1x512 .f32) (v1238 : FVec F S1x512 .f32) : k0_pay72 v1237 v1238 = pmax v1237 v1238 := rfl
theorem pay73_eq (v1258 : FVec F S1x512 .f32) (v1259 : FVec F S1x512 .f32) : k0_pay73 v1258 v1259 = pmax v1258 v1259 := rfl
theorem pay74_eq (v1279 : FVec F S1x512 .f32) (v1280 : FVec F S1x512 .f32) : k0_pay74 v1279 v1280 = pmax v1279 v1280 := rfl
theorem pay75_eq (v1300 : FVec F S1x512 .f32) (v1301 : FVec F S1x512 .f32) : k0_pay75 v1300 v1301 = pmax v1300 v1301 := rfl
theorem pay76_eq (v1321 : FVec F S1x512 .f32) (v1322 : FVec F S1x512 .f32) : k0_pay76 v1321 v1322 = pmax v1321 v1322 := rfl
theorem pay77_eq (v1342 : FVec F S1x512 .f32) (v1343 : FVec F S1x512 .f32) : k0_pay77 v1342 v1343 = pmax v1342 v1343 := rfl
theorem pay78_eq (v1052 : FVec F S1x1 .f32) (v1073 : FVec F S1x1 .f32) (v1094 : FVec F S1x1 .f32) (v1115 : FVec F S1x1 .f32) (v1136 : FVec F S1x1 .f32) (v1157 : FVec F S1x1 .f32) (v1178 : FVec F S1x1 .f32) (v1199 : FVec F S1x1 .f32) (v1220 : FVec F S1x1 .f32) (v1241 : FVec F S1x1 .f32) (v1262 : FVec F S1x1 .f32) (v1283 : FVec F S1x1 .f32) (v1304 : FVec F S1x1 .f32) (v1325 : FVec F S1x1 .f32) (v1346 : FVec F S1x1 .f32) (v1363 : FVec F S1x512 .f32) (v1364 : FVec F S1x512 .f32) : k0_pay78 v1052 v1073 v1094 v1115 v1136 v1157 v1178 v1199 v1220 v1241 v1262 v1283 v1304 v1325 v1346 v1363 v1364 = row16 ![v1052, v1073, v1094, v1115, v1136, v1157, v1178, v1199, v1220, v1241, v1262, v1283, v1304, v1325, v1346, pmax v1363 v1364] := rfl
theorem pay79_eq (v1385 : FVec F S1x512 .f32) (v1386 : FVec F S1x512 .f32) : k0_pay79 v1385 v1386 = pmax v1385 v1386 := rfl
theorem pay80_eq (v1406 : FVec F S1x512 .f32) (v1407 : FVec F S1x512 .f32) : k0_pay80 v1406 v1407 = pmax v1406 v1407 := rfl
theorem pay81_eq (v1427 : FVec F S1x512 .f32) (v1428 : FVec F S1x512 .f32) : k0_pay81 v1427 v1428 = pmax v1427 v1428 := rfl
theorem pay82_eq (v1448 : FVec F S1x512 .f32) (v1449 : FVec F S1x512 .f32) : k0_pay82 v1448 v1449 = pmax v1448 v1449 := rfl
theorem pay83_eq (v1469 : FVec F S1x512 .f32) (v1470 : FVec F S1x512 .f32) : k0_pay83 v1469 v1470 = pmax v1469 v1470 := rfl
theorem pay84_eq (v1490 : FVec F S1x512 .f32) (v1491 : FVec F S1x512 .f32) : k0_pay84 v1490 v1491 = pmax v1490 v1491 := rfl
theorem pay85_eq (v1511 : FVec F S1x512 .f32) (v1512 : FVec F S1x512 .f32) : k0_pay85 v1511 v1512 = pmax v1511 v1512 := rfl
theorem pay86_eq (v1532 : FVec F S1x512 .f32) (v1533 : FVec F S1x512 .f32) : k0_pay86 v1532 v1533 = pmax v1532 v1533 := rfl
theorem pay87_eq (v1553 : FVec F S1x512 .f32) (v1554 : FVec F S1x512 .f32) : k0_pay87 v1553 v1554 = pmax v1553 v1554 := rfl
theorem pay88_eq (v1574 : FVec F S1x512 .f32) (v1575 : FVec F S1x512 .f32) : k0_pay88 v1574 v1575 = pmax v1574 v1575 := rfl
theorem pay89_eq (v1595 : FVec F S1x512 .f32) (v1596 : FVec F S1x512 .f32) : k0_pay89 v1595 v1596 = pmax v1595 v1596 := rfl
theorem pay90_eq (v1616 : FVec F S1x512 .f32) (v1617 : FVec F S1x512 .f32) : k0_pay90 v1616 v1617 = pmax v1616 v1617 := rfl
theorem pay91_eq (v1637 : FVec F S1x512 .f32) (v1638 : FVec F S1x512 .f32) : k0_pay91 v1637 v1638 = pmax v1637 v1638 := rfl
theorem pay92_eq (v1658 : FVec F S1x512 .f32) (v1659 : FVec F S1x512 .f32) : k0_pay92 v1658 v1659 = pmax v1658 v1659 := rfl
theorem pay93_eq (v1679 : FVec F S1x512 .f32) (v1680 : FVec F S1x512 .f32) : k0_pay93 v1679 v1680 = pmax v1679 v1680 := rfl
theorem pay94_eq (v1389 : FVec F S1x1 .f32) (v1410 : FVec F S1x1 .f32) (v1431 : FVec F S1x1 .f32) (v1452 : FVec F S1x1 .f32) (v1473 : FVec F S1x1 .f32) (v1494 : FVec F S1x1 .f32) (v1515 : FVec F S1x1 .f32) (v1536 : FVec F S1x1 .f32) (v1557 : FVec F S1x1 .f32) (v1578 : FVec F S1x1 .f32) (v1599 : FVec F S1x1 .f32) (v1620 : FVec F S1x1 .f32) (v1641 : FVec F S1x1 .f32) (v1662 : FVec F S1x1 .f32) (v1683 : FVec F S1x1 .f32) (v1700 : FVec F S1x512 .f32) (v1701 : FVec F S1x512 .f32) : k0_pay94 v1389 v1410 v1431 v1452 v1473 v1494 v1515 v1536 v1557 v1578 v1599 v1620 v1641 v1662 v1683 v1700 v1701 = row16 ![v1389, v1410, v1431, v1452, v1473, v1494, v1515, v1536, v1557, v1578, v1599, v1620, v1641, v1662, v1683, pmax v1700 v1701] := rfl
theorem pay95_eq (v1722 : FVec F S1x512 .f32) (v1723 : FVec F S1x512 .f32) : k0_pay95 v1722 v1723 = pmax v1722 v1723 := rfl
theorem pay96_eq (v1743 : FVec F S1x512 .f32) (v1744 : FVec F S1x512 .f32) : k0_pay96 v1743 v1744 = pmax v1743 v1744 := rfl
theorem pay97_eq (v1764 : FVec F S1x512 .f32) (v1765 : FVec F S1x512 .f32) : k0_pay97 v1764 v1765 = pmax v1764 v1765 := rfl
theorem pay98_eq (v1785 : FVec F S1x512 .f32) (v1786 : FVec F S1x512 .f32) : k0_pay98 v1785 v1786 = pmax v1785 v1786 := rfl
theorem pay99_eq (v1806 : FVec F S1x512 .f32) (v1807 : FVec F S1x512 .f32) : k0_pay99 v1806 v1807 = pmax v1806 v1807 := rfl
theorem pay100_eq (v1827 : FVec F S1x512 .f32) (v1828 : FVec F S1x512 .f32) : k0_pay100 v1827 v1828 = pmax v1827 v1828 := rfl
theorem pay101_eq (v1848 : FVec F S1x512 .f32) (v1849 : FVec F S1x512 .f32) : k0_pay101 v1848 v1849 = pmax v1848 v1849 := rfl
theorem pay102_eq (v1869 : FVec F S1x512 .f32) (v1870 : FVec F S1x512 .f32) : k0_pay102 v1869 v1870 = pmax v1869 v1870 := rfl
theorem pay103_eq (v1890 : FVec F S1x512 .f32) (v1891 : FVec F S1x512 .f32) : k0_pay103 v1890 v1891 = pmax v1890 v1891 := rfl
theorem pay104_eq (v1911 : FVec F S1x512 .f32) (v1912 : FVec F S1x512 .f32) : k0_pay104 v1911 v1912 = pmax v1911 v1912 := rfl
theorem pay105_eq (v1932 : FVec F S1x512 .f32) (v1933 : FVec F S1x512 .f32) : k0_pay105 v1932 v1933 = pmax v1932 v1933 := rfl
theorem pay106_eq (v1953 : FVec F S1x512 .f32) (v1954 : FVec F S1x512 .f32) : k0_pay106 v1953 v1954 = pmax v1953 v1954 := rfl
theorem pay107_eq (v1974 : FVec F S1x512 .f32) (v1975 : FVec F S1x512 .f32) : k0_pay107 v1974 v1975 = pmax v1974 v1975 := rfl
theorem pay108_eq (v1995 : FVec F S1x512 .f32) (v1996 : FVec F S1x512 .f32) : k0_pay108 v1995 v1996 = pmax v1995 v1996 := rfl
theorem pay109_eq (v1726 : FVec F S1x1 .f32) (v1747 : FVec F S1x1 .f32) (v1768 : FVec F S1x1 .f32) (v1789 : FVec F S1x1 .f32) (v1810 : FVec F S1x1 .f32) (v1831 : FVec F S1x1 .f32) (v1852 : FVec F S1x1 .f32) (v1873 : FVec F S1x1 .f32) (v1894 : FVec F S1x1 .f32) (v1915 : FVec F S1x1 .f32) (v1936 : FVec F S1x1 .f32) (v1957 : FVec F S1x1 .f32) (v1978 : FVec F S1x1 .f32) (v1999 : FVec F S1x1 .f32) (v2016 : FVec F S1x512 .f32) (v2017 : FVec F S1x512 .f32) (v2037 : FVec F S1x512 .f32) (v2038 : FVec F S1x512 .f32) : k0_pay109 v1726 v1747 v1768 v1789 v1810 v1831 v1852 v1873 v1894 v1915 v1936 v1957 v1978 v1999 v2016 v2017 v2037 v2038 = row16 ![v1726, v1747, v1768, v1789, v1810, v1831, v1852, v1873, v1894, v1915, v1936, v1957, v1978, v1999, pmax v2016 v2017, pmax v2037 v2038] := rfl
theorem pay110_eq (v2059 : FVec F S1x512 .f32) (v2060 : FVec F S1x512 .f32) : k0_pay110 v2059 v2060 = pmax v2059 v2060 := rfl
theorem pay111_eq (v2080 : FVec F S1x512 .f32) (v2081 : FVec F S1x512 .f32) : k0_pay111 v2080 v2081 = pmax v2080 v2081 := rfl
theorem pay112_eq (v2101 : FVec F S1x512 .f32) (v2102 : FVec F S1x512 .f32) : k0_pay112 v2101 v2102 = pmax v2101 v2102 := rfl
theorem pay113_eq (v2122 : FVec F S1x512 .f32) (v2123 : FVec F S1x512 .f32) : k0_pay113 v2122 v2123 = pmax v2122 v2123 := rfl
theorem pay114_eq (v2143 : FVec F S1x512 .f32) (v2144 : FVec F S1x512 .f32) : k0_pay114 v2143 v2144 = pmax v2143 v2144 := rfl
theorem pay115_eq (v2164 : FVec F S1x512 .f32) (v2165 : FVec F S1x512 .f32) : k0_pay115 v2164 v2165 = pmax v2164 v2165 := rfl
theorem pay116_eq (v2185 : FVec F S1x512 .f32) (v2186 : FVec F S1x512 .f32) : k0_pay116 v2185 v2186 = pmax v2185 v2186 := rfl
theorem pay117_eq (v2206 : FVec F S1x512 .f32) (v2207 : FVec F S1x512 .f32) : k0_pay117 v2206 v2207 = pmax v2206 v2207 := rfl
theorem pay118_eq (v2227 : FVec F S1x512 .f32) (v2228 : FVec F S1x512 .f32) : k0_pay118 v2227 v2228 = pmax v2227 v2228 := rfl
theorem pay119_eq (v2248 : FVec F S1x512 .f32) (v2249 : FVec F S1x512 .f32) : k0_pay119 v2248 v2249 = pmax v2248 v2249 := rfl
theorem pay120_eq (v2269 : FVec F S1x512 .f32) (v2270 : FVec F S1x512 .f32) : k0_pay120 v2269 v2270 = pmax v2269 v2270 := rfl
theorem pay121_eq (v2290 : FVec F S1x512 .f32) (v2291 : FVec F S1x512 .f32) : k0_pay121 v2290 v2291 = pmax v2290 v2291 := rfl
theorem pay122_eq (v2311 : FVec F S1x512 .f32) (v2312 : FVec F S1x512 .f32) : k0_pay122 v2311 v2312 = pmax v2311 v2312 := rfl
theorem pay123_eq (v2332 : FVec F S1x512 .f32) (v2333 : FVec F S1x512 .f32) : k0_pay123 v2332 v2333 = pmax v2332 v2333 := rfl
theorem pay124_eq (v2353 : FVec F S1x512 .f32) (v2354 : FVec F S1x512 .f32) : k0_pay124 v2353 v2354 = pmax v2353 v2354 := rfl
theorem pay125_eq (v2063 : FVec F S1x1 .f32) (v2084 : FVec F S1x1 .f32) (v2105 : FVec F S1x1 .f32) (v2126 : FVec F S1x1 .f32) (v2147 : FVec F S1x1 .f32) (v2168 : FVec F S1x1 .f32) (v2189 : FVec F S1x1 .f32) (v2210 : FVec F S1x1 .f32) (v2231 : FVec F S1x1 .f32) (v2252 : FVec F S1x1 .f32) (v2273 : FVec F S1x1 .f32) (v2294 : FVec F S1x1 .f32) (v2315 : FVec F S1x1 .f32) (v2336 : FVec F S1x1 .f32) (v2357 : FVec F S1x1 .f32) (v2374 : FVec F S1x512 .f32) (v2375 : FVec F S1x512 .f32) : k0_pay125 v2063 v2084 v2105 v2126 v2147 v2168 v2189 v2210 v2231 v2252 v2273 v2294 v2315 v2336 v2357 v2374 v2375 = row16 ![v2063, v2084, v2105, v2126, v2147, v2168, v2189, v2210, v2231, v2252, v2273, v2294, v2315, v2336, v2357, pmax v2374 v2375] := rfl
theorem pay126_eq (v2396 : FVec F S1x512 .f32) (v2397 : FVec F S1x512 .f32) : k0_pay126 v2396 v2397 = pmax v2396 v2397 := rfl
theorem pay127_eq (v2417 : FVec F S1x512 .f32) (v2418 : FVec F S1x512 .f32) : k0_pay127 v2417 v2418 = pmax v2417 v2418 := rfl
theorem pay128_eq (v2438 : FVec F S1x512 .f32) (v2439 : FVec F S1x512 .f32) : k0_pay128 v2438 v2439 = pmax v2438 v2439 := rfl
theorem pay129_eq (v2459 : FVec F S1x512 .f32) (v2460 : FVec F S1x512 .f32) : k0_pay129 v2459 v2460 = pmax v2459 v2460 := rfl
theorem pay130_eq (v2480 : FVec F S1x512 .f32) (v2481 : FVec F S1x512 .f32) : k0_pay130 v2480 v2481 = pmax v2480 v2481 := rfl
theorem pay131_eq (v2501 : FVec F S1x512 .f32) (v2502 : FVec F S1x512 .f32) : k0_pay131 v2501 v2502 = pmax v2501 v2502 := rfl
theorem pay132_eq (v2522 : FVec F S1x512 .f32) (v2523 : FVec F S1x512 .f32) : k0_pay132 v2522 v2523 = pmax v2522 v2523 := rfl
theorem pay133_eq (v2543 : FVec F S1x512 .f32) (v2544 : FVec F S1x512 .f32) : k0_pay133 v2543 v2544 = pmax v2543 v2544 := rfl
theorem pay134_eq (v2564 : FVec F S1x512 .f32) (v2565 : FVec F S1x512 .f32) : k0_pay134 v2564 v2565 = pmax v2564 v2565 := rfl
theorem pay135_eq (v2585 : FVec F S1x512 .f32) (v2586 : FVec F S1x512 .f32) : k0_pay135 v2585 v2586 = pmax v2585 v2586 := rfl
theorem pay136_eq (v2606 : FVec F S1x512 .f32) (v2607 : FVec F S1x512 .f32) : k0_pay136 v2606 v2607 = pmax v2606 v2607 := rfl
theorem pay137_eq (v2627 : FVec F S1x512 .f32) (v2628 : FVec F S1x512 .f32) : k0_pay137 v2627 v2628 = pmax v2627 v2628 := rfl
theorem pay138_eq (v2648 : FVec F S1x512 .f32) (v2649 : FVec F S1x512 .f32) : k0_pay138 v2648 v2649 = pmax v2648 v2649 := rfl
theorem pay139_eq (v2669 : FVec F S1x512 .f32) (v2670 : FVec F S1x512 .f32) : k0_pay139 v2669 v2670 = pmax v2669 v2670 := rfl
theorem pay140_eq (v2690 : FVec F S1x512 .f32) (v2691 : FVec F S1x512 .f32) : k0_pay140 v2690 v2691 = pmax v2690 v2691 := rfl

/-- All of them at once. -/
theorem pay_eqs :
    (∀ (v2400 : FVec F S1x1 .f32) (v2421 : FVec F S1x1 .f32) (v2442 : FVec F S1x1 .f32) (v2463 : FVec F S1x1 .f32) (v2484 : FVec F S1x1 .f32) (v2505 : FVec F S1x1 .f32) (v2526 : FVec F S1x1 .f32) (v2547 : FVec F S1x1 .f32) (v2568 : FVec F S1x1 .f32) (v2589 : FVec F S1x1 .f32) (v2610 : FVec F S1x1 .f32) (v2631 : FVec F S1x1 .f32) (v2652 : FVec F S1x1 .f32) (v2673 : FVec F S1x1 .f32) (v2694 : FVec F S1x1 .f32) (v2703 : FVec F S1x512 .f32), k0_pay1 v2400 v2421 v2442 v2463 v2484 v2505 v2526 v2547 v2568 v2589 v2610 v2631 v2652 v2673 v2694 v2703 = row16 ![v2400, v2421, v2442, v2463, v2484, v2505, v2526, v2547, v2568, v2589, v2610, v2631, v2652, v2673, v2694, smax v2703]) ∧
    (∀ (v357 : FVec F S1x16 .f32) (v694 : FVec F S1x16 .f32) (v1031 : FVec F S1x16 .f32) (v1368 : FVec F S1x16 .f32) (v1705 : FVec F S1x16 .f32) (v2042 : FVec F S1x16 .f32) (v2379 : FVec F S1x16 .f32) (v2706 : FVec F S1x16 .f32), k0_pay2 v357 v694 v1031 v1368 v1705 v2042 v2379 v2706 = col8 ![v357, v694, v1031, v1368, v1705, v2042, v2379, v2706]) ∧
    ((k0_pay3 : FVec F S1x512 .f32) = zeroRow) ∧
    (∀ (v4 : FVec F S1x512 .f32) (v6 : FVec F S8x512 .f32), k0_pay4 v4 v6 = accStep v4 v6) ∧
    (∀ (v37 : FVec F S1x512 .f32) (v38 : FVec F S1x512 .f32), k0_pay5 v37 v38 = pmax v37 v38) ∧
    (∀ (v58 : FVec F S1x512 .f32) (v59 : FVec F S1x512 .f32), k0_pay6 v58 v59 = addf v58 v59) ∧
    (∀ (v60 : FVec F S1x512 .f32), k0_pay7 v60 = smax v60) ∧
    (∀ (v79 : FVec F S1x512 .f32) (v80 : FVec F S1x512 .f32), k0_pay8 v79 v80 = pmax v79 v80) ∧
    (∀ (v100 : FVec F S1x512 .f32) (v101 : FVec F S1x512 .f32), k0_pay9 v100 v101 = pmax v100 v101) ∧
    (∀ (v121 : FVec F S1x512 .f32) (v122 : FVec F S1x512 .f32), k0_pay10 v121 v122 = addf v121 v122) ∧
    (∀ (v123 : FVec F S1x512 .f32), k0_pay11 v123 = smax v123) ∧
    (∀ (v142 : FVec F S1x512 .f32) (v143 : FVec F S1x512 .f32), k0_pay12 v142 v143 = pmax v142 v143) ∧
    (∀ (v163 : FVec F S1x512 .f32) (v164 : FVec F S1x512 .f32), k0_pay13 v163 v164 = pmax v163 v164) ∧
    (∀ (v184 : FVec F S1x512 .f32) (v185 : FVec F S1x512 .f32), k0_pay14 v184 v185 = addf v184 v185) ∧
    (∀ (v186 : FVec F S1x512 .f32), k0_pay15 v186 = smax v186) ∧
    (∀ (v205 : FVec F S1x512 .f32) (v206 : FVec F S1x512 .f32), k0_pay16 v205 v206 = pmax v205 v206) ∧
    (∀ (v226 : FVec F S1x512 .f32) (v227 : FVec F S1x512 .f32), k0_pay17 v226 v227 = pmax v226 v227) ∧
    (∀ (v247 : FVec F S1x512 .f32) (v248 : FVec F S1x512 .f32), k0_pay18 v247 v248 = addf v247 v248) ∧
    (∀ (v249 : FVec F S1x512 .f32), k0_pay19 v249 = smax v249) ∧
    (∀ (v268 : FVec F S1x512 .f32) (v269 : FVec F S1x512 .f32), k0_pay20 v268 v269 = pmax v268 v269) ∧
    (∀ (v289 : FVec F S1x512 .f32) (v290 : FVec F S1x512 .f32), k0_pay21 v289 v290 = pmax v289 v290) ∧
    (∀ (v310 : FVec F S1x512 .f32) (v311 : FVec F S1x512 .f32), k0_pay22 v310 v311 = addf v310 v311) ∧
    (∀ (v312 : FVec F S1x512 .f32), k0_pay23 v312 = smax v312) ∧
    (∀ (v331 : FVec F S1x512 .f32) (v332 : FVec F S1x512 .f32), k0_pay24 v331 v332 = pmax v331 v332) ∧
    (∀ (v41 : FVec F S1x1 .f32) (v62 : FVec F S1x1 .f32) (v83 : FVec F S1x1 .f32) (v104 : FVec F S1x1 .f32) (v125 : FVec F S1x1 .f32) (v146 : FVec F S1x1 .f32) (v167 : FVec F S1x1 .f32) (v188 : FVec F S1x1 .f32) (v209 : FVec F S1x1 .f32) (v230 : FVec F S1x1 .f32) (v251 : FVec F S1x1 .f32) (v272 : FVec F S1x1 .f32) (v293 : FVec F S1x1 .f32) (v314 : FVec F S1x1 .f32) (v335 : FVec F S1x1 .f32) (v352 : FVec F S1x512 .f32) (v353 : FVec F S1x512 .f32), k0_pay25 v41 v62 v83 v104 v125 v146 v167 v188 v209 v230 v251 v272 v293 v314 v335 v352 v353 = row16 ![v41, v62, v83, v104, v125, v146, v167, v188, v209, v230, v251, v272, v293, v314, v335, pmax v352 v353]) ∧
    (∀ (v374 : FVec F S1x512 .f32) (v375 : FVec F S1x512 .f32), k0_pay26 v374 v375 = addf v374 v375) ∧
    (∀ (v376 : FVec F S1x512 .f32), k0_pay27 v376 = smax v376) ∧
    (∀ (v395 : FVec F S1x512 .f32) (v396 : FVec F S1x512 .f32), k0_pay28 v395 v396 = pmax v395 v396) ∧
    (∀ (v416 : FVec F S1x512 .f32) (v417 : FVec F S1x512 .f32), k0_pay29 v416 v417 = pmax v416 v417) ∧
    (∀ (v437 : FVec F S1x512 .f32) (v438 : FVec F S1x512 .f32), k0_pay30 v437 v438 = addf v437 v438) ∧
    (∀ (v439 : FVec F S1x512 .f32), k0_pay31 v439 = smax v439) ∧
    (∀ (v458 : FVec F S1x512 .f32) (v459 : FVec F S1x512 .f32), k0_pay32 v458 v459 = pmax v458 v459) ∧
    (∀ (v479 : FVec F S1x512 .f32) (v480 : FVec F S1x512 .f32), k0_pay33 v479 v480 = pmax v479 v480) ∧
    (∀ (v500 : FVec F S1x512 .f32) (v501 : FVec F S1x512 .f32), k0_pay34 v500 v501 = addf v500 v501) ∧
    (∀ (v502 : FVec F S1x512 .f32), k0_pay35 v502 = smax v502) ∧
    (∀ (v521 : FVec F S1x512 .f32) (v522 : FVec F S1x512 .f32), k0_pay36 v521 v522 = pmax v521 v522) ∧
    (∀ (v542 : FVec F S1x512 .f32) (v543 : FVec F S1x512 .f32), k0_pay37 v542 v543 = pmax v542 v543) ∧
    (∀ (v563 : FVec F S1x512 .f32) (v564 : FVec F S1x512 .f32), k0_pay38 v563 v564 = addf v563 v564) ∧
    (∀ (v565 : FVec F S1x512 .f32), k0_pay39 v565 = smax v565) ∧
    (∀ (v584 : FVec F S1x512 .f32) (v585 : FVec F S1x512 .f32), k0_pay40 v584 v585 = pmax v584 v585) ∧
    (∀ (v605 : FVec F S1x512 .f32) (v606 : FVec F S1x512 .f32), k0_pay41 v605 v606 = pmax v605 v606) ∧
    (∀ (v626 : FVec F S1x512 .f32) (v627 : FVec F S1x512 .f32), k0_pay42 v626 v627 = addf v626 v627) ∧
    (∀ (v628 : FVec F S1x512 .f32), k0_pay43 v628 = smax v628) ∧
    (∀ (v647 : FVec F S1x512 .f32) (v648 : FVec F S1x512 .f32), k0_pay44 v647 v648 = pmax v647 v648) ∧
    (∀ (v668 : FVec F S1x512 .f32) (v669 : FVec F S1x512 .f32), k0_pay45 v668 v669 = pmax v668 v669) ∧
    (∀ (v689 : FVec F S1x512 .f32) (v690 : FVec F S1x512 .f32), k0_pay46 v689 v690 = addf v689 v690) ∧
    (∀ (v378 : FVec F S1x1 .f32) (v399 : FVec F S1x1 .f32) (v420 : FVec F S1x1 .f32) (v441 : FVec F S1x1 .f32) (v462 : FVec F S1x1 .f32) (v483 : FVec F S1x1 .f32) (v504 : FVec F S1x1 .f32) (v525 : FVec F S1x1 .f32) (v546 : FVec F S1x1 .f32) (v567 : FVec F S1x1 .f32) (v588 : FVec F S1x1 .f32) (v609 : FVec F S1x1 .f32) (v630 : FVec F S1x1 .f32) (v651 : FVec F S1x1 .f32) (v672 : FVec F S1x1 .f32) (v691 : FVec F S1x512 .f32), k0_pay47 v378 v399 v420 v441 v462 v483 v504 v525 v546 v567 v588 v609 v630 v651 v672 v691 = row16 ![v378, v399, v420, v441, v462, v483, v504, v525, v546, v567, v588, v609, v630, v651, v672, smax v691]) ∧
    (∀ (v711 : FVec F S1x512 .f32) (v712 : FVec F S1x512 .f32), k0_pay48 v711 v712 = pmax v711 v712) ∧
    (∀ (v732 : FVec F S1x512 .f32) (v733 : FVec F S1x512 .f32), k0_pay49 v732 v733 = pmax v732 v733) ∧
    (∀ (v753 : FVec F S1x512 .f32) (v754 : FVec F S1x512 .f32), k0_pay50 v753 v754 = pmax v753 v754) ∧
    (∀ (v774 : FVec F S1x512 .f32) (v775 : FVec F S1x512 .f32), k0_pay51 v774 v775 = pmax v774 v775) ∧
    (∀ (v795 : FVec F S1x512 .f32) (v796 : FVec F S1x512 .f32), k0_pay52 v795 v796 = pmax v795 v796) ∧
    (∀ (v816 : FVec F S1x512 .f32) (v817 : FVec F S1x512 .f32), k0_pay53 v816 v817 = pmax v816 v817) ∧
    (∀ (v837 : FVec F S1x512 .f32) (v838 : FVec F S1x512 .f32), k0_pay54 v837 v838 = pmax v837 v838) ∧
    (∀ (v858 : FVec F S1x512 .f32) (v859 : FVec F S1x512 .f32), k0_pay55 v858 v859 = pmax v858 v859) ∧
    (∀ (v879 : FVec F S1x512 .f32) (v880 : FVec F S1x512 .f32), k0_pay56 v879 v880 = pmax v879 v880) ∧
    (∀ (v900 : FVec F S1x512 .f32) (v901 : FVec F S1x512 .f32), k0_pay57 v900 v901 = pmax v900 v901) ∧
    (∀ (v921 : FVec F S1x512 .f32) (v922 : FVec F S1x512 .f32), k0_pay58 v921 v922 = pmax v921 v922) ∧
    (∀ (v942 : FVec F S1x512 .f32) (v943 : FVec F S1x512 .f32), k0_pay59 v942 v943 = pmax v942 v943) ∧
    (∀ (v963 : FVec F S1x512 .f32) (v964 : FVec F S1x512 .f32), k0_pay60 v963 v964 = pmax v963 v964) ∧
    (∀ (v984 : FVec F S1x512 .f32) (v985 : FVec F S1x512 .f32), k0_pay61 v984 v985 = pmax v984 v985) ∧
    (∀ (v715 : FVec F S1x1 .f32) (v736 : FVec F S1x1 .f32) (v757 : FVec F S1x1 .f32) (v778 : FVec F S1x1 .f32) (v799 : FVec F S1x1 .f32) (v820 : FVec F S1x1 .f32) (v841 : FVec F S1x1 .f32) (v862 : FVec F S1x1 .f32) (v883 : FVec F S1x1 .f32) (v904 : FVec F S1x1 .f32) (v925 : FVec F S1x1 .f32) (v946 : FVec F S1x1 .f32) (v967 : FVec F S1x1 .f32) (v988 : FVec F S1x1 .f32) (v1005 : FVec F S1x512 .f32) (v1006 : FVec F S1x512 .f32) (v1026 : FVec F S1x512 .f32) (v1027 : FVec F S1x512 .f32), k0_pay62 v715 v736 v757 v778 v799 v820 v841 v862 v883 v904 v925 v946 v967 v988 v1005 v1006 v1026 v1027 = row16 ![v715, v736, v757, v778, v799, v820, v841, v862, v883, v904, v925, v946, v967, v988, pmax v1005 v1006, pmax v1026 v1027]) ∧
    (∀ (v1048 : FVec F S1x512 .f32) (v1049 : FVec F S1x512 .f32), k0_pay63 v1048 v1049 = pmax v1048 v1049) ∧
    (∀ (v1069 : FVec F S1x512 .f32) (v1070 : FVec F S1x512 .f32), k0_pay64 v1069 v1070 = pmax v1069 v1070) ∧
    (∀ (v1090 : FVec F S1x512 .f32) (v1091 : FVec F S1x512 .f32), k0_pay65 v1090 v1091 = pmax v1090 v1091) ∧
    (∀ (v1111 : FVec F S1x512 .f32) (v1112 : FVec F S1x512 .f32), k0_pay66 v1111 v1112 = pmax v1111 v1112) ∧
    (∀ (v1132 : FVec F S1x512 .f32) (v1133 : FVec F S1x512 .f32), k0_pay67 v1132 v1133 = pmax v1132 v1133) ∧
    (∀ (v1153 : FVec F S1x512 .f32) (v1154 : FVec F S1x512 .f32), k0_pay68 v1153 v1154 = pmax v1153 v1154) ∧
    (∀ (v1174 : FVec F S1x512 .f32) (v1175 : FVec F S1x512 .f32), k0_pay69 v1174 v1175 = pmax v1174 v1175) ∧
    (∀ (v1195 : FVec F S1x512 .f32) (v1196 : FVec F S1x512 .f32), k0_pay70 v1195 v1196 = pmax v1195 v1196) ∧
    (∀ (v1216 : FVec F S1x512 .f32) (v1217 : FVec F S1x512 .f32), k0_pay71 v1216 v1217 = pmax v1216 v1217) ∧
    (∀ (v1237 : FVec F S1x512 .f32) (v1238 : FVec F S1x512 .f32), k0_pay72 v1237 v1238 = pmax v1237 v1238) ∧
    (∀ (v1258 : FVec F S1x512 .f32) (v1259 : FVec F S1x512 .f32), k0_pay73 v1258 v1259 = pmax v1258 v1259) ∧
    (∀ (v1279 : FVec F S1x512 .f32) (v1280 : FVec F S1x512 .f32), k0_pay74 v1279 v1280 = pmax v1279 v1280) ∧
    (∀ (v1300 : FVec F S1x512 .f32) (v1301 : FVec F S1x512 .f32), k0_pay75 v1300 v1301 = pmax v1300 v1301) ∧
    (∀ (v1321 : FVec F S1x512 .f32) (v1322 : FVec F S1x512 .f32), k0_pay76 v1321 v1322 = pmax v1321 v1322) ∧
    (∀ (v1342 : FVec F S1x512 .f32) (v1343 : FVec F S1x512 .f32), k0_pay77 v1342 v1343 = pmax v1342 v1343) ∧
    (∀ (v1052 : FVec F S1x1 .f32) (v1073 : FVec F S1x1 .f32) (v1094 : FVec F S1x1 .f32) (v1115 : FVec F S1x1 .f32) (v1136 : FVec F S1x1 .f32) (v1157 : FVec F S1x1 .f32) (v1178 : FVec F S1x1 .f32) (v1199 : FVec F S1x1 .f32) (v1220 : FVec F S1x1 .f32) (v1241 : FVec F S1x1 .f32) (v1262 : FVec F S1x1 .f32) (v1283 : FVec F S1x1 .f32) (v1304 : FVec F S1x1 .f32) (v1325 : FVec F S1x1 .f32) (v1346 : FVec F S1x1 .f32) (v1363 : FVec F S1x512 .f32) (v1364 : FVec F S1x512 .f32), k0_pay78 v1052 v1073 v1094 v1115 v1136 v1157 v1178 v1199 v1220 v1241 v1262 v1283 v1304 v1325 v1346 v1363 v1364 = row16 ![v1052, v1073, v1094, v1115, v1136, v1157, v1178, v1199, v1220, v1241, v1262, v1283, v1304, v1325, v1346, pmax v1363 v1364]) ∧
    (∀ (v1385 : FVec F S1x512 .f32) (v1386 : FVec F S1x512 .f32), k0_pay79 v1385 v1386 = pmax v1385 v1386) ∧
    (∀ (v1406 : FVec F S1x512 .f32) (v1407 : FVec F S1x512 .f32), k0_pay80 v1406 v1407 = pmax v1406 v1407) ∧
    (∀ (v1427 : FVec F S1x512 .f32) (v1428 : FVec F S1x512 .f32), k0_pay81 v1427 v1428 = pmax v1427 v1428) ∧
    (∀ (v1448 : FVec F S1x512 .f32) (v1449 : FVec F S1x512 .f32), k0_pay82 v1448 v1449 = pmax v1448 v1449) ∧
    (∀ (v1469 : FVec F S1x512 .f32) (v1470 : FVec F S1x512 .f32), k0_pay83 v1469 v1470 = pmax v1469 v1470) ∧
    (∀ (v1490 : FVec F S1x512 .f32) (v1491 : FVec F S1x512 .f32), k0_pay84 v1490 v1491 = pmax v1490 v1491) ∧
    (∀ (v1511 : FVec F S1x512 .f32) (v1512 : FVec F S1x512 .f32), k0_pay85 v1511 v1512 = pmax v1511 v1512) ∧
    (∀ (v1532 : FVec F S1x512 .f32) (v1533 : FVec F S1x512 .f32), k0_pay86 v1532 v1533 = pmax v1532 v1533) ∧
    (∀ (v1553 : FVec F S1x512 .f32) (v1554 : FVec F S1x512 .f32), k0_pay87 v1553 v1554 = pmax v1553 v1554) ∧
    (∀ (v1574 : FVec F S1x512 .f32) (v1575 : FVec F S1x512 .f32), k0_pay88 v1574 v1575 = pmax v1574 v1575) ∧
    (∀ (v1595 : FVec F S1x512 .f32) (v1596 : FVec F S1x512 .f32), k0_pay89 v1595 v1596 = pmax v1595 v1596) ∧
    (∀ (v1616 : FVec F S1x512 .f32) (v1617 : FVec F S1x512 .f32), k0_pay90 v1616 v1617 = pmax v1616 v1617) ∧
    (∀ (v1637 : FVec F S1x512 .f32) (v1638 : FVec F S1x512 .f32), k0_pay91 v1637 v1638 = pmax v1637 v1638) ∧
    (∀ (v1658 : FVec F S1x512 .f32) (v1659 : FVec F S1x512 .f32), k0_pay92 v1658 v1659 = pmax v1658 v1659) ∧
    (∀ (v1679 : FVec F S1x512 .f32) (v1680 : FVec F S1x512 .f32), k0_pay93 v1679 v1680 = pmax v1679 v1680) ∧
    (∀ (v1389 : FVec F S1x1 .f32) (v1410 : FVec F S1x1 .f32) (v1431 : FVec F S1x1 .f32) (v1452 : FVec F S1x1 .f32) (v1473 : FVec F S1x1 .f32) (v1494 : FVec F S1x1 .f32) (v1515 : FVec F S1x1 .f32) (v1536 : FVec F S1x1 .f32) (v1557 : FVec F S1x1 .f32) (v1578 : FVec F S1x1 .f32) (v1599 : FVec F S1x1 .f32) (v1620 : FVec F S1x1 .f32) (v1641 : FVec F S1x1 .f32) (v1662 : FVec F S1x1 .f32) (v1683 : FVec F S1x1 .f32) (v1700 : FVec F S1x512 .f32) (v1701 : FVec F S1x512 .f32), k0_pay94 v1389 v1410 v1431 v1452 v1473 v1494 v1515 v1536 v1557 v1578 v1599 v1620 v1641 v1662 v1683 v1700 v1701 = row16 ![v1389, v1410, v1431, v1452, v1473, v1494, v1515, v1536, v1557, v1578, v1599, v1620, v1641, v1662, v1683, pmax v1700 v1701]) ∧
    (∀ (v1722 : FVec F S1x512 .f32) (v1723 : FVec F S1x512 .f32), k0_pay95 v1722 v1723 = pmax v1722 v1723) ∧
    (∀ (v1743 : FVec F S1x512 .f32) (v1744 : FVec F S1x512 .f32), k0_pay96 v1743 v1744 = pmax v1743 v1744) ∧
    (∀ (v1764 : FVec F S1x512 .f32) (v1765 : FVec F S1x512 .f32), k0_pay97 v1764 v1765 = pmax v1764 v1765) ∧
    (∀ (v1785 : FVec F S1x512 .f32) (v1786 : FVec F S1x512 .f32), k0_pay98 v1785 v1786 = pmax v1785 v1786) ∧
    (∀ (v1806 : FVec F S1x512 .f32) (v1807 : FVec F S1x512 .f32), k0_pay99 v1806 v1807 = pmax v1806 v1807) ∧
    (∀ (v1827 : FVec F S1x512 .f32) (v1828 : FVec F S1x512 .f32), k0_pay100 v1827 v1828 = pmax v1827 v1828) ∧
    (∀ (v1848 : FVec F S1x512 .f32) (v1849 : FVec F S1x512 .f32), k0_pay101 v1848 v1849 = pmax v1848 v1849) ∧
    (∀ (v1869 : FVec F S1x512 .f32) (v1870 : FVec F S1x512 .f32), k0_pay102 v1869 v1870 = pmax v1869 v1870) ∧
    (∀ (v1890 : FVec F S1x512 .f32) (v1891 : FVec F S1x512 .f32), k0_pay103 v1890 v1891 = pmax v1890 v1891) ∧
    (∀ (v1911 : FVec F S1x512 .f32) (v1912 : FVec F S1x512 .f32), k0_pay104 v1911 v1912 = pmax v1911 v1912) ∧
    (∀ (v1932 : FVec F S1x512 .f32) (v1933 : FVec F S1x512 .f32), k0_pay105 v1932 v1933 = pmax v1932 v1933) ∧
    (∀ (v1953 : FVec F S1x512 .f32) (v1954 : FVec F S1x512 .f32), k0_pay106 v1953 v1954 = pmax v1953 v1954) ∧
    (∀ (v1974 : FVec F S1x512 .f32) (v1975 : FVec F S1x512 .f32), k0_pay107 v1974 v1975 = pmax v1974 v1975) ∧
    (∀ (v1995 : FVec F S1x512 .f32) (v1996 : FVec F S1x512 .f32), k0_pay108 v1995 v1996 = pmax v1995 v1996) ∧
    (∀ (v1726 : FVec F S1x1 .f32) (v1747 : FVec F S1x1 .f32) (v1768 : FVec F S1x1 .f32) (v1789 : FVec F S1x1 .f32) (v1810 : FVec F S1x1 .f32) (v1831 : FVec F S1x1 .f32) (v1852 : FVec F S1x1 .f32) (v1873 : FVec F S1x1 .f32) (v1894 : FVec F S1x1 .f32) (v1915 : FVec F S1x1 .f32) (v1936 : FVec F S1x1 .f32) (v1957 : FVec F S1x1 .f32) (v1978 : FVec F S1x1 .f32) (v1999 : FVec F S1x1 .f32) (v2016 : FVec F S1x512 .f32) (v2017 : FVec F S1x512 .f32) (v2037 : FVec F S1x512 .f32) (v2038 : FVec F S1x512 .f32), k0_pay109 v1726 v1747 v1768 v1789 v1810 v1831 v1852 v1873 v1894 v1915 v1936 v1957 v1978 v1999 v2016 v2017 v2037 v2038 = row16 ![v1726, v1747, v1768, v1789, v1810, v1831, v1852, v1873, v1894, v1915, v1936, v1957, v1978, v1999, pmax v2016 v2017, pmax v2037 v2038]) ∧
    (∀ (v2059 : FVec F S1x512 .f32) (v2060 : FVec F S1x512 .f32), k0_pay110 v2059 v2060 = pmax v2059 v2060) ∧
    (∀ (v2080 : FVec F S1x512 .f32) (v2081 : FVec F S1x512 .f32), k0_pay111 v2080 v2081 = pmax v2080 v2081) ∧
    (∀ (v2101 : FVec F S1x512 .f32) (v2102 : FVec F S1x512 .f32), k0_pay112 v2101 v2102 = pmax v2101 v2102) ∧
    (∀ (v2122 : FVec F S1x512 .f32) (v2123 : FVec F S1x512 .f32), k0_pay113 v2122 v2123 = pmax v2122 v2123) ∧
    (∀ (v2143 : FVec F S1x512 .f32) (v2144 : FVec F S1x512 .f32), k0_pay114 v2143 v2144 = pmax v2143 v2144) ∧
    (∀ (v2164 : FVec F S1x512 .f32) (v2165 : FVec F S1x512 .f32), k0_pay115 v2164 v2165 = pmax v2164 v2165) ∧
    (∀ (v2185 : FVec F S1x512 .f32) (v2186 : FVec F S1x512 .f32), k0_pay116 v2185 v2186 = pmax v2185 v2186) ∧
    (∀ (v2206 : FVec F S1x512 .f32) (v2207 : FVec F S1x512 .f32), k0_pay117 v2206 v2207 = pmax v2206 v2207) ∧
    (∀ (v2227 : FVec F S1x512 .f32) (v2228 : FVec F S1x512 .f32), k0_pay118 v2227 v2228 = pmax v2227 v2228) ∧
    (∀ (v2248 : FVec F S1x512 .f32) (v2249 : FVec F S1x512 .f32), k0_pay119 v2248 v2249 = pmax v2248 v2249) ∧
    (∀ (v2269 : FVec F S1x512 .f32) (v2270 : FVec F S1x512 .f32), k0_pay120 v2269 v2270 = pmax v2269 v2270) ∧
    (∀ (v2290 : FVec F S1x512 .f32) (v2291 : FVec F S1x512 .f32), k0_pay121 v2290 v2291 = pmax v2290 v2291) ∧
    (∀ (v2311 : FVec F S1x512 .f32) (v2312 : FVec F S1x512 .f32), k0_pay122 v2311 v2312 = pmax v2311 v2312) ∧
    (∀ (v2332 : FVec F S1x512 .f32) (v2333 : FVec F S1x512 .f32), k0_pay123 v2332 v2333 = pmax v2332 v2333) ∧
    (∀ (v2353 : FVec F S1x512 .f32) (v2354 : FVec F S1x512 .f32), k0_pay124 v2353 v2354 = pmax v2353 v2354) ∧
    (∀ (v2063 : FVec F S1x1 .f32) (v2084 : FVec F S1x1 .f32) (v2105 : FVec F S1x1 .f32) (v2126 : FVec F S1x1 .f32) (v2147 : FVec F S1x1 .f32) (v2168 : FVec F S1x1 .f32) (v2189 : FVec F S1x1 .f32) (v2210 : FVec F S1x1 .f32) (v2231 : FVec F S1x1 .f32) (v2252 : FVec F S1x1 .f32) (v2273 : FVec F S1x1 .f32) (v2294 : FVec F S1x1 .f32) (v2315 : FVec F S1x1 .f32) (v2336 : FVec F S1x1 .f32) (v2357 : FVec F S1x1 .f32) (v2374 : FVec F S1x512 .f32) (v2375 : FVec F S1x512 .f32), k0_pay125 v2063 v2084 v2105 v2126 v2147 v2168 v2189 v2210 v2231 v2252 v2273 v2294 v2315 v2336 v2357 v2374 v2375 = row16 ![v2063, v2084, v2105, v2126, v2147, v2168, v2189, v2210, v2231, v2252, v2273, v2294, v2315, v2336, v2357, pmax v2374 v2375]) ∧
    (∀ (v2396 : FVec F S1x512 .f32) (v2397 : FVec F S1x512 .f32), k0_pay126 v2396 v2397 = pmax v2396 v2397) ∧
    (∀ (v2417 : FVec F S1x512 .f32) (v2418 : FVec F S1x512 .f32), k0_pay127 v2417 v2418 = pmax v2417 v2418) ∧
    (∀ (v2438 : FVec F S1x512 .f32) (v2439 : FVec F S1x512 .f32), k0_pay128 v2438 v2439 = pmax v2438 v2439) ∧
    (∀ (v2459 : FVec F S1x512 .f32) (v2460 : FVec F S1x512 .f32), k0_pay129 v2459 v2460 = pmax v2459 v2460) ∧
    (∀ (v2480 : FVec F S1x512 .f32) (v2481 : FVec F S1x512 .f32), k0_pay130 v2480 v2481 = pmax v2480 v2481) ∧
    (∀ (v2501 : FVec F S1x512 .f32) (v2502 : FVec F S1x512 .f32), k0_pay131 v2501 v2502 = pmax v2501 v2502) ∧
    (∀ (v2522 : FVec F S1x512 .f32) (v2523 : FVec F S1x512 .f32), k0_pay132 v2522 v2523 = pmax v2522 v2523) ∧
    (∀ (v2543 : FVec F S1x512 .f32) (v2544 : FVec F S1x512 .f32), k0_pay133 v2543 v2544 = pmax v2543 v2544) ∧
    (∀ (v2564 : FVec F S1x512 .f32) (v2565 : FVec F S1x512 .f32), k0_pay134 v2564 v2565 = pmax v2564 v2565) ∧
    (∀ (v2585 : FVec F S1x512 .f32) (v2586 : FVec F S1x512 .f32), k0_pay135 v2585 v2586 = pmax v2585 v2586) ∧
    (∀ (v2606 : FVec F S1x512 .f32) (v2607 : FVec F S1x512 .f32), k0_pay136 v2606 v2607 = pmax v2606 v2607) ∧
    (∀ (v2627 : FVec F S1x512 .f32) (v2628 : FVec F S1x512 .f32), k0_pay137 v2627 v2628 = pmax v2627 v2628) ∧
    (∀ (v2648 : FVec F S1x512 .f32) (v2649 : FVec F S1x512 .f32), k0_pay138 v2648 v2649 = pmax v2648 v2649) ∧
    (∀ (v2669 : FVec F S1x512 .f32) (v2670 : FVec F S1x512 .f32), k0_pay139 v2669 v2670 = pmax v2669 v2670) ∧
    (∀ (v2690 : FVec F S1x512 .f32) (v2691 : FVec F S1x512 .f32), k0_pay140 v2690 v2691 = pmax v2690 v2691) :=
  ⟨pay1_eq, pay2_eq, pay3_eq, pay4_eq, pay5_eq, pay6_eq, pay7_eq, pay8_eq, pay9_eq, pay10_eq,
   pay11_eq, pay12_eq, pay13_eq, pay14_eq, pay15_eq, pay16_eq, pay17_eq, pay18_eq, pay19_eq, pay20_eq,
   pay21_eq, pay22_eq, pay23_eq, pay24_eq, pay25_eq, pay26_eq, pay27_eq, pay28_eq, pay29_eq, pay30_eq,
   pay31_eq, pay32_eq, pay33_eq, pay34_eq, pay35_eq, pay36_eq, pay37_eq, pay38_eq, pay39_eq, pay40_eq,
   pay41_eq, pay42_eq, pay43_eq, pay44_eq, pay45_eq, pay46_eq, pay47_eq, pay48_eq, pay49_eq, pay50_eq,
   pay51_eq, pay52_eq, pay53_eq, pay54_eq, pay55_eq, pay56_eq, pay57_eq, pay58_eq, pay59_eq, pay60_eq,
   pay61_eq, pay62_eq, pay63_eq, pay64_eq, pay65_eq, pay66_eq, pay67_eq, pay68_eq, pay69_eq, pay70_eq,
   pay71_eq, pay72_eq, pay73_eq, pay74_eq, pay75_eq, pay76_eq, pay77_eq, pay78_eq, pay79_eq, pay80_eq,
   pay81_eq, pay82_eq, pay83_eq, pay84_eq, pay85_eq, pay86_eq, pay87_eq, pay88_eq, pay89_eq, pay90_eq,
   pay91_eq, pay92_eq, pay93_eq, pay94_eq, pay95_eq, pay96_eq, pay97_eq, pay98_eq, pay99_eq, pay100_eq,
   pay101_eq, pay102_eq, pay103_eq, pay104_eq, pay105_eq, pay106_eq, pay107_eq, pay108_eq, pay109_eq, pay110_eq,
   pay111_eq, pay112_eq, pay113_eq, pay114_eq, pay115_eq, pay116_eq, pay117_eq, pay118_eq, pay119_eq, pay120_eq,
   pay121_eq, pay122_eq, pay123_eq, pay124_eq, pay125_eq, pay126_eq, pay127_eq, pay128_eq, pay129_eq, pay130_eq,
   pay131_eq, pay132_eq, pay133_eq, pay134_eq, pay135_eq, pay136_eq, pay137_eq, pay138_eq, pay139_eq, pay140_eq⟩

end Functions

/-! ## Read at an index -/

section Layout

variable {α : Type}

/-- Entry `k` of sixteen values side by side is the `k`-th value. -/
theorem row16_apply (v : Fin 16 → S1x1.Idx → α) (k : Fin 16) :
    row16 v (ix2 (0 : Fin 1) k) = v k (ix2 (0 : Fin 1) (0 : Fin 1)) := by
  unfold row16
  exact concatenate_ofFn_unit_apply (t := S1x16) (s₁ := S1x1) 1 v concatenates_S1x1_S1x1_S1x1_S1x1_S1x1_S1x1_S1x1_S1x1_S1x1_S1x1_S1x1_S1x1_S1x1_S1x1_S1x1_S1x1_S1x16_d1 rfl rfl
    (ix2 (0 : Fin 1) k) k rfl (ix2 (0 : Fin 1) (0 : Fin 1)) fun b hb => by
      match b with
      | ⟨0, _⟩ => rfl
      | ⟨1, _⟩ => exact absurd rfl hb

/-- Row `b` of eight stacked rows is the `b`-th row. -/
theorem col8_apply (r : Fin 8 → S1x16.Idx → α) (b : Fin 8) (k : Fin 16) :
    col8 r (ix2 b k) = r b (ix2 (0 : Fin 1) k) := by
  unfold col8
  exact concatenate_ofFn_unit_apply (t := S8x16) (s₁ := S1x16) 0 r concatenates_S1x16_S1x16_S1x16_S1x16_S1x16_S1x16_S1x16_S1x16_S8x16_d0 rfl rfl
    (ix2 b k) b rfl (ix2 (0 : Fin 1) k) fun c hc => by
      match c with
      | ⟨0, _⟩ => exact absurd rfl hc
      | ⟨1, _⟩ => rfl

end Layout

section AtIdeal

/-- The initial value of a maximum, `-∞`, is the bottom of the extended reals. -/
theorem neg_inf_eq_bot : Ideal.ofBits .f32 0xFF800000#32 = (⊥ : EReal) := by
  simp [Ideal.ofBits, Ideal.ieee]

/-- The reduced index with lane `j` put back is `(0, j)`. -/
theorem lift_lane (i : S1.Idx) (j : Fin (S1x512.size 1)) :
    reduces_S1x512_S1.lift i j = ix2 (0 : Fin 1) (⟨j.val, j.isLt⟩ : Fin 512) := by
  funext c; apply Fin.ext
  match c with
  | ⟨0, _⟩ =>
    have h0 : (reduces_S1x512_S1.lift i j (0 : Fin 2)).val < 1 := (reduces_S1x512_S1.lift i j (0 : Fin 2)).isLt
    exact Nat.lt_one_iff.mp h0
  | ⟨1, _⟩ => rfl

/-- `smax s` is the fold of `max` from `⊥` over the 512 lanes. -/
theorem smax_apply (s : FVec Ideal S1x512 .f32) (i : S1x1.Idx) :
    smax s i = (Finset.univ : Finset (Fin 512)).fold max (⊥ : EReal) (fun j => s (ix2 (0 : Fin 1) j)) := by
  unfold smax
  refine (shapeCast_addUnit_apply ![1] _ shapeCasts_S1_S1x1 i).trans ?_
  refine (Ideal.multiReduction_maximumf_single s 0xFF800000#32 reduces_S1x512_S1 (.inl rfl) rfl _).trans ?_
  have hf : (s ∘ reduces_S1x512_S1.lift (fun a => i a.succ)) = fun j : Fin 512 => s (ix2 (0 : Fin 1) j) :=
    funext fun j => congrArg s (lift_lane _ j)
  have hi : FloatOps.ofBits (F := Ideal) .f32 0xFF800000#32 = (⊥ : EReal) := neg_inf_eq_bot
  rw [hi]
  exact congrArg (fun f => Finset.fold max (⊥ : EReal) f (Finset.univ : Finset (Fin 512))) hf

/-- `pmax q g` is the fold of `max` from `⊥` over the lanes `j` of `q[0, j] + g[0, j]`. -/
theorem pmax_apply (q g : FVec Ideal S1x512 .f32) (i : S1x1.Idx) :
    pmax q g i = (Finset.univ : Finset (Fin 512)).fold max (⊥ : EReal)
      (fun j => q (ix2 (0 : Fin 1) j) + g (ix2 (0 : Fin 1) j)) :=
  smax_apply (addf q g) i

/-- A fold of `max` from `⊥` over every index is the supremum. -/
theorem fold_max_bot_eq_iSup {n : Nat} (f : Fin n → EReal) :
    (Finset.univ : Finset (Fin n)).fold max (⊥ : EReal) f = ⨆ j, f j := by
  refine le_antisymm ?_ ?_
  · exact (Finset.fold_max_le _).mpr ⟨bot_le, fun j _ => le_iSup f j⟩
  · exact iSup_le fun j => ((Finset.fold_max_le _).mp le_rfl).2 j (Finset.mem_univ j)

/-- The same as a supremum. -/
theorem pmax_apply_iSup (q g : FVec Ideal S1x512 .f32) (i : S1x1.Idx) :
    pmax q g i = ⨆ j : Fin 512, (q (ix2 (0 : Fin 1) j) + g (ix2 (0 : Fin 1) j) : EReal) :=
  (pmax_apply q g i).trans (fold_max_bot_eq_iSup _)

/-- The sum of two rows does not depend on their order, so neither does `pmax`. -/
theorem pmax_comm (q g : FVec Ideal S1x512 .f32) : pmax q g = pmax g q := by
  have h : (addf q g : FVec Ideal S1x512 .f32) = addf g q := funext fun i => by
    show q i + g i = g i + q i
    exact add_comm _ _
  unfold pmax
  rw [h]

/-- The reduced index `q` with row `b` put back is `(b, q)`. -/
theorem lift_row (i : S512.Idx) (q : Fin 512) (hq : (i ⟨0, by decide⟩).val = q.val) (b : Fin (S8x512.size 0)) :
    reduces_S8x512_S512.lift i b = ix2 (⟨b.val, b.isLt⟩ : Fin 8) q := by
  funext c; apply Fin.ext
  match c with
  | ⟨0, _⟩ => rfl
  | ⟨1, _⟩ => exact hq

/-- `accStep acc x` at column `q`: `acc` there plus the sum down column `q` of the eight rows of `x`. -/
theorem accStep_apply (acc : FVec Ideal S1x512 .f32) (x : FVec Ideal S8x512 .f32) (q : Fin 512) :
    accStep acc x (ix2 (0 : Fin 1) q) = acc (ix2 (0 : Fin 1) q) + ∑ b : Fin 8, (x (ix2 b q) : EReal) := by
  unfold accStep
  rw [shapeCast_self]
  show acc (ix2 (0 : Fin 1) q) + _ = _
  congr 1
  refine (shapeCast_addUnit_apply ![512] _ shapeCasts_S512_S1x512 (ix2 (0 : Fin 1) q)).trans ?_
  refine (Ideal.multiReduction_add_single x 0x00000000#32 reduces_S8x512_S512 (.inl rfl) rfl _).trans ?_
  refine Finset.sum_congr rfl fun b _ => congrArg x ?_
  exact lift_row _ q rfl b

/-- The same for the payload itself. -/
theorem pay4_apply (acc : FVec Ideal S1x512 .f32) (x : FVec Ideal S8x512 .f32) (q : Fin 512) :
    k0_pay4 acc x (ix2 (0 : Fin 1) q) = acc (ix2 (0 : Fin 1) q) + ∑ b : Fin 8, (x (ix2 b q) : EReal) :=
  accStep_apply acc x q

/-- The row of zeros is `0` everywhere. -/
theorem zeroRow_apply (i : S1x512.Idx) : (zeroRow : FVec Ideal S1x512 .f32) i = (0 : EReal) :=
  Ideal.ofBits_zero_f32

end AtIdeal

/-! ## Closed from here on

What is known of the functions is the lemmas above. Their bodies are reductions over every index of a 512-entry row;
an equation that could be decided by unfolding them would have that fold evaluated, so they are not unfolded. -/

attribute [irreducible] smax pmax row16 col8 accStep

end Cert.BodyMathBits

end
-- ==== Proof.BodyOutBits.lean ====
/-
  What the body leaves at a grid point, in closed form.

  At a point the body stores one 8 × 16 block of maxima and one row of 512 column sums. `readMax` and `readSums`
  read what a list of stores leaves in a buffer of each shape. `maxBlock` is the block of maxima as a function of
  what the body is handed and nothing else: entry `(b, k)` is the maximum over the 512 lanes of row `b` of the
  point's 8 × 512 block plus row `w` of the 100000 × 512 array, `w` being word number `128·t + 16·b + k` of the
  table of row indices (`t` the point). The two-slot buffer the rows pass through does not appear in it.

  That it does not is the content of the three slot lemmas: a buffer of two rows of 512, each row reached through
  its own one-row view with the unit axis dropped. A read of row `s` through the whole buffer is a read through
  row `s`'s view (`slot_read`); so a row written whole through its own view reads back as what was written
  (`slot_hit`), and a write through the other row's view is not seen (`slot_miss`).
-/
import proofs.«106441_j1580547974259_1_alg».proof.Proof.RegionStateBits
import proofs.«106441_j1580547974259_1_alg».proof.Proof.BodyMathBits
import Idealize.ShloMosaic.Lib.ValueIdx
import Idealize.ShloMosaic.Lib.WholeRead

set_option maxRecDepth 16384

noncomputable section

namespace Cert.Kernel.Body

open Cert.Kernel Cert.Kernel.Gen Cert.BodyMathBits
open Idealize.ShloMosaic Idealize.ShloMosaic.TcCoe Idealize.ShloMosaic.ValueIdx

variable {F : FTy → Type} [FloatOps F]

/-! ## Rows -/

/-- A vector of 512 as one row. -/
def asRow {α : Type} (w : S512.Idx → α) : S1x512.Idx → α :=
  fun x => w (ix1 (⟨(x 1).val, idx2_lt1 x⟩ : Fin 512))

theorem asRow_apply {α : Type} (w : S512.Idx → α) (j : Fin 512) : asRow w (ix2 (0 : Fin 1) j) = w (ix1 j) := rfl

/-- Row `b` of an 8 × 512 block as one row. -/
def blockRow {α : Type} (x0 : S8x512.Idx → α) (b : Fin 8) : S1x512.Idx → α :=
  fun x => x0 (ix2 b (⟨(x 1).val, idx2_lt1 x⟩ : Fin 512))

theorem blockRow_apply {α : Type} (x0 : S8x512.Idx → α) (b : Fin 8) (j : Fin 512) :
    blockRow x0 b (ix2 (0 : Fin 1) j) = x0 (ix2 b j) := rfl

/-! ## The two-slot buffer -/

section Slots

variable {Val : EltTy → Type}

/-- A read of row `s` through its own view is a read of the whole buffer at row `s`. -/
theorem slot_read (M : Memref sig .tc .vmem S2x512 .f32) (s : Fin 2) (off : Fin 2 → ℕ) (h : off = ![s.val, 0])
    (inb : ∀ a, off a + S1x512.size a ≤ S2x512.size a) (hr) (hq : S1x512.Squeezes S512) (f : M.view.ty.Contents Val) (j : Fin 512) :
    ((M.slice (Rect.unit (s := S2x512) off S1x512.size inb) hr).squeeze S512 hq).view.read Val f (ix1 j)
      = M.view.read Val f (ix2 s j) := by
  subst h
  have h1 : ((M.slice (Rect.unit (s := S2x512) ![s.val, 0] S1x512.size inb) hr).squeeze S512 hq).view.read Val f (ix1 j)
      = M.view.read Val f ((Rect.unit (s := S2x512) ![s.val, 0] S1x512.size inb).emb (Shape.reshapeEquiv hq.numel_eq (ix1 j))) := rfl
  rw [h1, Shape.reshapeEquiv_cons_one]
  congr 1
  funext a
  apply Fin.ext
  rw [Rect.emb_apply]
  match a with
  | ⟨0, _⟩ => show s.val + 1 * 0 = s.val; omega
  | ⟨1, _⟩ => show 0 + 1 * j.val = j.val; omega

/-- A row written whole through its own view reads back, through the whole buffer, as what was written. -/
theorem slot_hit (M : Memref sig .tc .vmem S2x512 .f32) (s : Fin 2) (off : Fin 2 → ℕ) (h : off = ![s.val, 0])
    (inb : ∀ a, off a + S1x512.size a ≤ S2x512.size a) (hr) (hq : S1x512.Squeezes S512) (f : M.view.ty.Contents Val)
    (w : S512.Idx → Val .f32) (j : Fin 512) :
    M.view.read Val (((M.slice (Rect.unit (s := S2x512) off S1x512.size inb) hr).squeeze S512 hq).view.write Val f w Finset.univ) (ix2 s j)
      = w (ix1 j) := by
  rw [← slot_read M s off h inb hr hq]
  exact View.read_write_of_mem _ _ (Finset.mem_univ _)

/-- A write through the other row's view is not seen. -/
theorem slot_miss (M : Memref sig .tc .vmem S2x512 .f32) (s s' : Fin 2) (hs : s ≠ s') (off : Fin 2 → ℕ) (h : off = ![s'.val, 0])
    (inb : ∀ a, off a + S1x512.size a ≤ S2x512.size a) (hr) (hq : S1x512.Squeezes S512) (f : M.view.ty.Contents Val)
    (w : S512.Idx → Val .f32) (Ms : Finset S512.Idx) (j : Fin 512) :
    M.view.read Val (((M.slice (Rect.unit (s := S2x512) off S1x512.size inb) hr).squeeze S512 hq).view.write Val f w Ms) (ix2 s j)
      = M.view.read Val f (ix2 s j) := by
  subst h
  apply View.read_congr_at
  apply View.write_of_not_mem
  intro hm
  obtain ⟨x, _, hx⟩ := Finset.mem_map.mp hm
  have e : ((M.slice (Rect.unit (s := S2x512) ![s'.val, 0] S1x512.size inb) hr).squeeze S512 hq).view.emb x
      = M.view.emb ((Rect.unit (s := S2x512) ![s'.val, 0] S1x512.size inb).emb (Shape.reshapeEquiv hq.numel_eq x)) := rfl
  rw [e, Shape.reshapeEquiv_cons_one] at hx
  have h := M.view.emb.injective hx
  have h0 := congrArg (fun i : S2x512.Idx => (i 0 : ℕ)) h
  simp only [Rect.emb_apply] at h0
  have h4 : (s' : ℕ) + 1 * 0 = (s : ℕ) := h0
  exact hs (Fin.ext (by omega))

end Slots

/-! ## The table and the array -/

/-- Where word number `128·t + n` of the table sits. -/
theorem tab_lt (i : grid0.Coords) (n : Fin 128) : 128 * (i 0).val + n.val < 131072 := by
  have h : (i 0).val < 1024 := (i 0).isLt
  omega

/-- Word number `128·t + n` of the table, `t` the point. -/
def word (c : Dev nD) (i : grid0.Coords) (xt : BufOf (F := F) c tbM) (n : Fin 128) : BitVec 32 :=
  (tbM).view.read (Elt F) xt (ix1 (⟨128 * (i 0).val + n.val, tab_lt i n⟩ : Fin 131072))

/-- It names a row of the array. -/
theorem word_lt (c : Dev nD) (i : grid0.Coords) (xt : BufOf (F := F) c tbM) (hrows : RowsBelow c xt) (n : Fin 128) :
    (word c i xt n).toNat < 100000 := by
  have h := hrows (LoadRect.whole S131072) (ix1 (⟨128 * (i 0).val + n.val, tab_lt i n⟩ : Fin 131072))
  rw [View.readAt_apply, LoadRect.idx_whole] at h
  exact h

/-- Row `w` of the array, as a vector of 512: read through the one-row view with the unit axis dropped. -/
def arrRow (c : Dev nD) (fh : BufOf (F := F) c hbM) (w : BitVec 32) (hw : w.toNat < 100000) : Vec F S512 .f32 :=
  ((hbM.slice (Rect.unit (s := S100000x512) (k0_off2 w) S1x512.size (row_inside w hw)) (fun _ => rfl)).squeeze S512 squeezes_S1x512_S512).view.read (Elt F) fh

/-! ## The block of maxima -/

/-- The transfer that serves entry `(b, k)`. -/
abbrev xfer (b : Fin 8) (k : Fin 16) : Fin 128 := ⟨16 * b.val + k.val, by omega⟩

/-- The block of maxima the body leaves at a point, in closed form. -/
def maxBlock (c : Dev nD) (i : grid0.Coords) (xt : BufOf (F := F) c tbM) (x0 : Vec F S8x512 .f32) (fh : BufOf (F := F) c hbM)
    (hrows : RowsBelow c xt) : Vec F S8x16 .f32 :=
  col8 fun b => row16 fun k =>
    pmax (blockRow x0 b) (asRow (arrRow c fh (word c i xt (xfer b k)) (word_lt c i xt hrows (xfer b k))))

/-! ## What a list of stores leaves -/

section Reads

variable [∀ e, Nonempty (Elt F e)]

/-- What the stores `L` leave in a buffer of the block's shape. -/
def readMax (L : List (View.Piece (Elt F) S8x16 .f32)) : Vec F S8x16 .f32 :=
  VO1.read (Elt F) (VO1.writes (Elt F) VO1.junk L)

/-- What the stores `L` leave in a buffer of the row's shape. -/
def readSums (L : List (View.Piece (Elt F) S1x512 .f32)) : Vec F S1x512 .f32 :=
  VO2.read (Elt F) (VO2.writes (Elt F) VO2.junk L)

end Reads

end Cert.Kernel.Body

end
-- ==== Proof.BodyLoadsBits.lean ====
/-
  The body's loads, one at a time.

  Every value the body computes with is loaded from one of three places, and each load has a closed form.
    * A row of the point's block: a load of row `b` through a buffer holding the block reads `blockRow x0 b`.
    * A word of the table: transfer `n` of a point reads the table at an offset the body computes with 32-bit
      arithmetic from the point's coordinate `t`, `(t · 8 + b) · 16 + k` for `n = 16·b + k`; as `t < 1024` nothing
      wraps, and the offset is `128·t + n` (`offN_eq`, one equation per transfer).
    * A row of the two-slot buffer. When it is loaded, the last store into the buffer went either into the loaded
      row (`load_top`: the load reads what was stored) or into the other row, the one before it into the loaded
      row (`load_second`: the later store is not seen, the load reads the earlier one). What the buffer held before
      does not matter in either case.
-/
import proofs.«106441_j1580547974259_1_alg».proof.Proof.BodyOutBits

set_option maxRecDepth 16384

noncomputable section

namespace Cert.Kernel.Body

open Cert.Kernel Cert.Kernel.Gen Cert.BodyMathBits
open Idealize.ShloMosaic Idealize.ShloMosaic.TcCoe Idealize.ShloMosaic.ValueIdx

variable {F : FTy → Type} [FloatOps F]

/-! ## A one-row rectangle -/

/-- Index `x` of the one-row rectangle at row `s` is `(s, x 1)`. -/
theorem rowRect_emb {R : ℕ} (s : Fin R) (off : Fin 2 → ℕ) (h : off = ![s.val, 0])
    (inb : ∀ a, off a + S1x512.size a ≤ (⟨2, ![R, 512]⟩ : Shape).size a)
    (x : (Rect.unit (s := (⟨2, ![R, 512]⟩ : Shape)) off S1x512.size inb).shape.Idx) :
    (Rect.unit (s := (⟨2, ![R, 512]⟩ : Shape)) off S1x512.size inb).emb x
      = ix2 s (⟨(x (1 : Fin 2)).val, (x (1 : Fin 2)).isLt⟩ : Fin 512) := by
  subst h
  funext a
  apply Fin.ext
  rw [Rect.emb_apply]
  match a with
  | ⟨0, _⟩ =>
    have h0 : (x (0 : Fin 2)).val < 1 := (x (0 : Fin 2)).isLt
    show s.val + 1 * (x (0 : Fin 2)).val = s.val
    omega
  | ⟨1, _⟩ =>
    show 0 + 1 * (x (1 : Fin 2)).val = (x (1 : Fin 2)).val
    omega

/-! ## The two-slot buffer -/

section Loads

variable {Val : EltTy → Type}

/-- A load of row `s` of a buffer that reads `w` along row `s` reads `w` as a row. -/
theorem load_row (M : Memref sig .tc .vmem S2x512 .f32) (s : Fin 2) {off : Fin 2 → ℕ} (h : off = ![s.val, 0])
    {inb : ∀ a, off a + S1x512.size a ≤ S2x512.size a} (g : M.view.ty.Contents Val) (w : S512.Idx → Val .f32)
    (hg : ∀ j : Fin 512, M.view.read Val g (ix2 s j) = w (ix1 j)) :
    View.readAt Val M.view (Rect.unit (s := S2x512) off S1x512.size inb).toLoadRect g = asRow w := by
  funext x
  show M.view.read Val g ((Rect.unit (s := S2x512) off S1x512.size inb).emb x) = _
  rw [rowRect_emb s off h inb x]
  exact hg _

/-- The last store went into the loaded row. -/
theorem load_top (M : Memref sig .tc .vmem S2x512 .f32) (s : Fin 2) {off offw : Fin 2 → ℕ} (h : off = ![s.val, 0]) (hw : offw = ![s.val, 0])
    {inb : ∀ a, off a + S1x512.size a ≤ S2x512.size a} {inbw : ∀ a, offw a + S1x512.size a ≤ S2x512.size a} {hr} {hq : S1x512.Squeezes S512}
    {f : M.view.ty.Contents Val} {w : S512.Idx → Val .f32} :
    View.readAt Val M.view (Rect.unit (s := S2x512) off S1x512.size inb).toLoadRect
        (((M.slice (Rect.unit (s := S2x512) offw S1x512.size inbw) hr).squeeze S512 hq).view.write Val f w Finset.univ)
      = asRow w :=
  load_row M s h _ w fun j => slot_hit M s offw hw inbw hr hq f w j

/-- The last store went into the other row, the one before it into the loaded row. -/
theorem load_second (M : Memref sig .tc .vmem S2x512 .f32) (s s' : Fin 2) (hs : s ≠ s') {off offw offw' : Fin 2 → ℕ}
    (h : off = ![s.val, 0]) (hw' : offw' = ![s'.val, 0]) (hw : offw = ![s.val, 0])
    {inb : ∀ a, off a + S1x512.size a ≤ S2x512.size a} {inbw : ∀ a, offw a + S1x512.size a ≤ S2x512.size a}
    {inbw' : ∀ a, offw' a + S1x512.size a ≤ S2x512.size a} {hr hr'} {hq hq' : S1x512.Squeezes S512}
    {f : M.view.ty.Contents Val} {w w' : S512.Idx → Val .f32} {Ms : Finset S512.Idx} :
    View.readAt Val M.view (Rect.unit (s := S2x512) off S1x512.size inb).toLoadRect
        (((M.slice (Rect.unit (s := S2x512) offw' S1x512.size inbw') hr').squeeze S512 hq').view.write Val
          (((M.slice (Rect.unit (s := S2x512) offw S1x512.size inbw) hr).squeeze S512 hq).view.write Val f w Finset.univ) w' Ms)
      = asRow w :=
  load_row M s h _ w fun j =>
    (slot_miss M s s' hs offw' hw' inbw' hr' hq' _ w' Ms j).trans (slot_hit M s offw hw inbw hr hq f w j)

end Loads

/-! ## The block, the table, the array -/

/-- A load of row `b` of the point's block. -/
theorem block_load (M : Memref sig .tc .vmem S8x512 .f32) (hM : M.IsWhole) (b : Fin 8) {off : Fin 2 → ℕ} (h : off = ![b.val, 0])
    {inb : ∀ a, off a + S1x512.size a ≤ S8x512.size a} (x0 : Vec F S8x512 .f32) :
    View.readAt (Elt F) M.view (Rect.unit (s := S8x512) off S1x512.size inb).toLoadRect (hM.unread x0) = blockRow x0 b := by
  funext x
  show M.view.read (Elt F) (hM.unread x0) ((Rect.unit (s := S8x512) off S1x512.size inb).emb x) = _
  rw [hM.read_unread, rowRect_emb b off h inb x]
  rfl

/-- A load of the table at offset `128·t + n` is word number `128·t + n`. -/
theorem word_of_off (c : Dev nD) (i : grid0.Coords) (xt : BufOf (F := F) c tbM) (n : Fin 128) {off : Fin 1 → ℕ}
    (h : off = ![128 * (i 0).val + n.val]) {inb : ∀ a, off a + S1.size a ≤ S131072.size a} {hf} :
    View.readAt (Elt F) (tbM).view (Rect.unit (s := S131072) off S1.size inb).toLoadRect xt (Shape.Idx.first hf) = word c i xt n := by
  subst h
  show (tbM).view.read (Elt F) xt ((Rect.unit (s := S131072) ![128 * (i 0).val + n.val] S1.size inb).emb (Shape.Idx.first hf)) = _
  unfold word
  congr 1
  funext a
  apply Fin.ext
  rw [Rect.emb_apply]
  match a with
  | ⟨0, _⟩ =>
    have h0 : ((Shape.Idx.first hf : (Rect.unit (s := S131072) ![128 * (i 0).val + n.val] S1.size inb).shape.Idx) (0 : Fin 1)).val < 1 :=
      ((Shape.Idx.first hf : (Rect.unit (s := S131072) ![128 * (i 0).val + n.val] S1.size inb).shape.Idx) (0 : Fin 1)).isLt
    show 128 * (i 0).val + n.val + 1 * ((Shape.Idx.first hf : (Rect.unit (s := S131072) ![128 * (i 0).val + n.val] S1.size inb).shape.Idx) (0 : Fin 1)).val
        = 128 * (i 0).val + n.val
    omega

/-- A copy of the row a word names is that row of the array. -/
theorem dma_of_word (c : Dev nD) (fh : BufOf (F := F) c hbM) (w w' : BitVec 32) (hw : w = w') (h' : w'.toNat < 100000)
    {off : Fin 2 → ℕ} (hoff : off = ![w.toNat, 0]) {inb : ∀ a, off a + S1x512.size a ≤ S100000x512.size a} {hr} :
    ReadAs.same.apply (View.read (Elt F)
        ((hbM.slice (Rect.unit (s := S100000x512) off S1x512.size inb) hr).squeeze S512 squeezes_S1x512_S512).view fh)
      = arrRow c fh w' h' := by
  subst hw hoff
  rfl

/-! ## Whole loads and whole stores -/

theorem zero2 : (![0, 0] : Fin 2 → ℕ) = fun _ => 0 := by
  funext a; fin_cases a <;> rfl

/-- A load through the whole rectangle of a buffer holding `X` reads `X`. -/
theorem whole_load {S : Shape} (M : Memref sig .tc .vmem S .f32) (hM : M.IsWhole) (off : Fin S.rank → ℕ) (hz : off = fun _ => 0)
    (inb : ∀ a, off a + S.size a ≤ S.size a) (X : S.Idx → Elt F .f32) :
    View.readAt (Elt F) M.view (Rect.unit (s := S) off S.size inb).toLoadRect (hM.unread X) = X := by
  rw [View.readAt_eq_ld, hM.read_unread]
  exact View.ld_unit_zero hz inb X

section WholeStores

variable [∀ e, Nonempty (Elt F e)]

/-- One store through the whole rectangle leaves its payload. -/
theorem readSums_whole (off : Fin 2 → ℕ) (hz : off = fun _ => 0) (inb : ∀ a, off a + S1x512.size a ≤ S1x512.size a)
    (w : S1x512.Idx → Elt F .f32) :
    readSums [(⟨Rect.unit (s := S1x512) off S1x512.size inb, w⟩ : View.Piece (Elt F) S1x512 .f32)] = w := by
  unfold readSums
  rw [View.read_writes_junk_eq_canon]
  exact View.canon_unit_zero hz inb w

theorem readMax_whole (off : Fin 2 → ℕ) (hz : off = fun _ => 0) (inb : ∀ a, off a + S8x16.size a ≤ S8x16.size a)
    (w : S8x16.Idx → Elt F .f32) :
    readMax [(⟨Rect.unit (s := S8x16) off S8x16.size inb, w⟩ : View.Piece (Elt F) S8x16 .f32)] = w := by
  unfold readMax
  rw [View.read_writes_junk_eq_canon]
  exact View.canon_unit_zero hz inb w

end WholeStores

/-! ## The table offsets -/

/-- The point's coordinate is below 1024, so the body's 32-bit arithmetic on it does not wrap. -/
macro "off_arith " f:ident i:ident : tactic =>
  `(tactic| (
    have ht : ($i 0).val < 1024 := ($i 0).isLt
    unfold $f
    simp only [Scalar.muli, Scalar.addi, Scalar.indexCast, IntOp.muli, IntOp.addi]
    congr 1
    simp only [BitVec.toNat_add, BitVec.toNat_mul, BitVec.toNat_ofNat]
    omega))

theorem off1_eq (i : grid0.Coords) : k0_off1 i = ![128 * (i 0).val + 0] := by off_arith k0_off1 i
theorem off3_eq (i : grid0.Coords) : k0_off3 i = ![128 * (i 0).val + 1] := by off_arith k0_off3 i
theorem off5_eq (i : grid0.Coords) : k0_off5 i = ![128 * (i 0).val + 2] := by off_arith k0_off5 i
theorem off7_eq (i : grid0.Coords) : k0_off7 i = ![128 * (i 0).val + 3] := by off_arith k0_off7 i
theorem off9_eq (i : grid0.Coords) : k0_off9 i = ![128 * (i 0).val + 4] := by off_arith k0_off9 i
theorem off11_eq (i : grid0.Coords) : k0_off11 i = ![128 * (i 0).val + 5] := by off_arith k0_off11 i
theorem off13_eq (i : grid0.Coords) : k0_off13 i = ![128 * (i 0).val + 6] := by off_arith k0_off13 i
theorem off15_eq (i : grid0.Coords) : k0_off15 i = ![128 * (i 0).val + 7] := by off_arith k0_off15 i
theorem off17_eq (i : grid0.Coords) : k0_off17 i = ![128 * (i 0).val + 8] := by off_arith k0_off17 i
theorem off19_eq (i : grid0.Coords) : k0_off19 i = ![128 * (i 0).val + 9] := by off_arith k0_off19 i
theorem off21_eq (i : grid0.Coords) : k0_off21 i = ![128 * (i 0).val + 10] := by off_arith k0_off21 i
theorem off23_eq (i : grid0.Coords) : k0_off23 i = ![128 * (i 0).val + 11] := by off_arith k0_off23 i
theorem off25_eq (i : grid0.Coords) : k0_off25 i = ![128 * (i 0).val + 12] := by off_arith k0_off25 i
theorem off27_eq (i : grid0.Coords) : k0_off27 i = ![128 * (i 0).val + 13] := by off_arith k0_off27 i
theorem off29_eq (i : grid0.Coords) : k0_off29 i = ![128 * (i 0).val + 14] := by off_arith k0_off29 i
theorem off31_eq (i : grid0.Coords) : k0_off31 i = ![128 * (i 0).val + 15] := by off_arith k0_off31 i
theorem off33_eq (i : grid0.Coords) : k0_off33 i = ![128 * (i 0).val + 16] := by off_arith k0_off33 i
theorem off35_eq (i : grid0.Coords) : k0_off35 i = ![128 * (i 0).val + 17] := by off_arith k0_off35 i
theorem off37_eq (i : grid0.Coords) : k0_off37 i = ![128 * (i 0).val + 18] := by off_arith k0_off37 i
theorem off39_eq (i : grid0.Coords) : k0_off39 i = ![128 * (i 0).val + 19] := by off_arith k0_off39 i
theorem off41_eq (i : grid0.Coords) : k0_off41 i = ![128 * (i 0).val + 20] := by off_arith k0_off41 i
theorem off43_eq (i : grid0.Coords) : k0_off43 i = ![128 * (i 0).val + 21] := by off_arith k0_off43 i
theorem off45_eq (i : grid0.Coords) : k0_off45 i = ![128 * (i 0).val + 22] := by off_arith k0_off45 i
theorem off47_eq (i : grid0.Coords) : k0_off47 i = ![128 * (i 0).val + 23] := by off_arith k0_off47 i
theorem off49_eq (i : grid0.Coords) : k0_off49 i = ![128 * (i 0).val + 24] := by off_arith k0_off49 i
theorem off51_eq (i : grid0.Coords) : k0_off51 i = ![128 * (i 0).val + 25] := by off_arith k0_off51 i
theorem off53_eq (i : grid0.Coords) : k0_off53 i = ![128 * (i 0).val + 26] := by off_arith k0_off53 i
theorem off55_eq (i : grid0.Coords) : k0_off55 i = ![128 * (i 0).val + 27] := by off_arith k0_off55 i
theorem off57_eq (i : grid0.Coords) : k0_off57 i = ![128 * (i 0).val + 28] := by off_arith k0_off57 i
theorem off59_eq (i : grid0.Coords) : k0_off59 i = ![128 * (i 0).val + 29] := by off_arith k0_off59 i
theorem off61_eq (i : grid0.Coords) : k0_off61 i = ![128 * (i 0).val + 30] := by off_arith k0_off61 i
theorem off63_eq (i : grid0.Coords) : k0_off63 i = ![128 * (i 0).val + 31] := by off_arith k0_off63 i
theorem off65_eq (i : grid0.Coords) : k0_off65 i = ![128 * (i 0).val + 32] := by off_arith k0_off65 i
theorem off67_eq (i : grid0.Coords) : k0_off67 i = ![128 * (i 0).val + 33] := by off_arith k0_off67 i
theorem off69_eq (i : grid0.Coords) : k0_off69 i = ![128 * (i 0).val + 34] := by off_arith k0_off69 i
theorem off71_eq (i : grid0.Coords) : k0_off71 i = ![128 * (i 0).val + 35] := by off_arith k0_off71 i
theorem off73_eq (i : grid0.Coords) : k0_off73 i = ![128 * (i 0).val + 36] := by off_arith k0_off73 i
theorem off75_eq (i : grid0.Coords) : k0_off75 i = ![128 * (i 0).val + 37] := by off_arith k0_off75 i
theorem off77_eq (i : grid0.Coords) : k0_off77 i = ![128 * (i 0).val + 38] := by off_arith k0_off77 i
theorem off79_eq (i : grid0.Coords) : k0_off79 i = ![128 * (i 0).val + 39] := by off_arith k0_off79 i
theorem off81_eq (i : grid0.Coords) : k0_off81 i = ![128 * (i 0).val + 40] := by off_arith k0_off81 i
theorem off83_eq (i : grid0.Coords) : k0_off83 i = ![128 * (i 0).val + 41] := by off_arith k0_off83 i
theorem off85_eq (i : grid0.Coords) : k0_off85 i = ![128 * (i 0).val + 42] := by off_arith k0_off85 i
theorem off87_eq (i : grid0.Coords) : k0_off87 i = ![128 * (i 0).val + 43] := by off_arith k0_off87 i
theorem off89_eq (i : grid0.Coords) : k0_off89 i = ![128 * (i 0).val + 44] := by off_arith k0_off89 i
theorem off91_eq (i : grid0.Coords) : k0_off91 i = ![128 * (i 0).val + 45] := by off_arith k0_off91 i
theorem off93_eq (i : grid0.Coords) : k0_off93 i = ![128 * (i 0).val + 46] := by off_arith k0_off93 i
theorem off95_eq (i : grid0.Coords) : k0_off95 i = ![128 * (i 0).val + 47] := by off_arith k0_off95 i
theorem off97_eq (i : grid0.Coords) : k0_off97 i = ![128 * (i 0).val + 48] := by off_arith k0_off97 i
theorem off99_eq (i : grid0.Coords) : k0_off99 i = ![128 * (i 0).val + 49] := by off_arith k0_off99 i
theorem off101_eq (i : grid0.Coords) : k0_off101 i = ![128 * (i 0).val + 50] := by off_arith k0_off101 i
theorem off103_eq (i : grid0.Coords) : k0_off103 i = ![128 * (i 0).val + 51] := by off_arith k0_off103 i
theorem off105_eq (i : grid0.Coords) : k0_off105 i = ![128 * (i 0).val + 52] := by off_arith k0_off105 i
theorem off107_eq (i : grid0.Coords) : k0_off107 i = ![128 * (i 0).val + 53] := by off_arith k0_off107 i
theorem off109_eq (i : grid0.Coords) : k0_off109 i = ![128 * (i 0).val + 54] := by off_arith k0_off109 i
theorem off111_eq (i : grid0.Coords) : k0_off111 i = ![128 * (i 0).val + 55] := by off_arith k0_off111 i
theorem off113_eq (i : grid0.Coords) : k0_off113 i = ![128 * (i 0).val + 56] := by off_arith k0_off113 i
theorem off115_eq (i : grid0.Coords) : k0_off115 i = ![128 * (i 0).val + 57] := by off_arith k0_off115 i
theorem off117_eq (i : grid0.Coords) : k0_off117 i = ![128 * (i 0).val + 58] := by off_arith k0_off117 i
theorem off119_eq (i : grid0.Coords) : k0_off119 i = ![128 * (i 0).val + 59] := by off_arith k0_off119 i
theorem off121_eq (i : grid0.Coords) : k0_off121 i = ![128 * (i 0).val + 60] := by off_arith k0_off121 i
theorem off123_eq (i : grid0.Coords) : k0_off123 i = ![128 * (i 0).val + 61] := by off_arith k0_off123 i
theorem off125_eq (i : grid0.Coords) : k0_off125 i = ![128 * (i 0).val + 62] := by off_arith k0_off125 i
theorem off127_eq (i : grid0.Coords) : k0_off127 i = ![128 * (i 0).val + 63] := by off_arith k0_off127 i
theorem off129_eq (i : grid0.Coords) : k0_off129 i = ![128 * (i 0).val + 64] := by off_arith k0_off129 i
theorem off131_eq (i : grid0.Coords) : k0_off131 i = ![128 * (i 0).val + 65] := by off_arith k0_off131 i
theorem off133_eq (i : grid0.Coords) : k0_off133 i = ![128 * (i 0).val + 66] := by off_arith k0_off133 i
theorem off135_eq (i : grid0.Coords) : k0_off135 i = ![128 * (i 0).val + 67] := by off_arith k0_off135 i
theorem off137_eq (i : grid0.Coords) : k0_off137 i = ![128 * (i 0).val + 68] := by off_arith k0_off137 i
theorem off139_eq (i : grid0.Coords) : k0_off139 i = ![128 * (i 0).val + 69] := by off_arith k0_off139 i
theorem off141_eq (i : grid0.Coords) : k0_off141 i = ![128 * (i 0).val + 70] := by off_arith k0_off141 i
theorem off143_eq (i : grid0.Coords) : k0_off143 i = ![128 * (i 0).val + 71] := by off_arith k0_off143 i
theorem off145_eq (i : grid0.Coords) : k0_off145 i = ![128 * (i 0).val + 72] := by off_arith k0_off145 i
theorem off147_eq (i : grid0.Coords) : k0_off147 i = ![128 * (i 0).val + 73] := by off_arith k0_off147 i
theorem off149_eq (i : grid0.Coords) : k0_off149 i = ![128 * (i 0).val + 74] := by off_arith k0_off149 i
theorem off151_eq (i : grid0.Coords) : k0_off151 i = ![128 * (i 0).val + 75] := by off_arith k0_off151 i
theorem off153_eq (i : grid0.Coords) : k0_off153 i = ![128 * (i 0).val + 76] := by off_arith k0_off153 i
theorem off155_eq (i : grid0.Coords) : k0_off155 i = ![128 * (i 0).val + 77] := by off_arith k0_off155 i
theorem off157_eq (i : grid0.Coords) : k0_off157 i = ![128 * (i 0).val + 78] := by off_arith k0_off157 i
theorem off159_eq (i : grid0.Coords) : k0_off159 i = ![128 * (i 0).val + 79] := by off_arith k0_off159 i
theorem off161_eq (i : grid0.Coords) : k0_off161 i = ![128 * (i 0).val + 80] := by off_arith k0_off161 i
theorem off163_eq (i : grid0.Coords) : k0_off163 i = ![128 * (i 0).val + 81] := by off_arith k0_off163 i
theorem off165_eq (i : grid0.Coords) : k0_off165 i = ![128 * (i 0).val + 82] := by off_arith k0_off165 i
theorem off167_eq (i : grid0.Coords) : k0_off167 i = ![128 * (i 0).val + 83] := by off_arith k0_off167 i
theorem off169_eq (i : grid0.Coords) : k0_off169 i = ![128 * (i 0).val + 84] := by off_arith k0_off169 i
theorem off171_eq (i : grid0.Coords) : k0_off171 i = ![128 * (i 0).val + 85] := by off_arith k0_off171 i
theorem off173_eq (i : grid0.Coords) : k0_off173 i = ![128 * (i 0).val + 86] := by off_arith k0_off173 i
theorem off175_eq (i : grid0.Coords) : k0_off175 i = ![128 * (i 0).val + 87] := by off_arith k0_off175 i
theorem off177_eq (i : grid0.Coords) : k0_off177 i = ![128 * (i 0).val + 88] := by off_arith k0_off177 i
theorem off179_eq (i : grid0.Coords) : k0_off179 i = ![128 * (i 0).val + 89] := by off_arith k0_off179 i
theorem off181_eq (i : grid0.Coords) : k0_off181 i = ![128 * (i 0).val + 90] := by off_arith k0_off181 i
theorem off183_eq (i : grid0.Coords) : k0_off183 i = ![128 * (i 0).val + 91] := by off_arith k0_off183 i
theorem off185_eq (i : grid0.Coords) : k0_off185 i = ![128 * (i 0).val + 92] := by off_arith k0_off185 i
theorem off187_eq (i : grid0.Coords) : k0_off187 i = ![128 * (i 0).val + 93] := by off_arith k0_off187 i
theorem off189_eq (i : grid0.Coords) : k0_off189 i = ![128 * (i 0).val + 94] := by off_arith k0_off189 i
theorem off191_eq (i : grid0.Coords) : k0_off191 i = ![128 * (i 0).val + 95] := by off_arith k0_off191 i
theorem off193_eq (i : grid0.Coords) : k0_off193 i = ![128 * (i 0).val + 96] := by off_arith k0_off193 i
theorem off195_eq (i : grid0.Coords) : k0_off195 i = ![128 * (i 0).val + 97] := by off_arith k0_off195 i
theorem off197_eq (i : grid0.Coords) : k0_off197 i = ![128 * (i 0).val + 98] := by off_arith k0_off197 i
theorem off199_eq (i : grid0.Coords) : k0_off199 i = ![128 * (i 0).val + 99] := by off_arith k0_off199 i
theorem off201_eq (i : grid0.Coords) : k0_off201 i = ![128 * (i 0).val + 100] := by off_arith k0_off201 i
theorem off203_eq (i : grid0.Coords) : k0_off203 i = ![128 * (i 0).val + 101] := by off_arith k0_off203 i
theorem off205_eq (i : grid0.Coords) : k0_off205 i = ![128 * (i 0).val + 102] := by off_arith k0_off205 i
theorem off207_eq (i : grid0.Coords) : k0_off207 i = ![128 * (i 0).val + 103] := by off_arith k0_off207 i
theorem off209_eq (i : grid0.Coords) : k0_off209 i = ![128 * (i 0).val + 104] := by off_arith k0_off209 i
theorem off211_eq (i : grid0.Coords) : k0_off211 i = ![128 * (i 0).val + 105] := by off_arith k0_off211 i
theorem off213_eq (i : grid0.Coords) : k0_off213 i = ![128 * (i 0).val + 106] := by off_arith k0_off213 i
theorem off215_eq (i : grid0.Coords) : k0_off215 i = ![128 * (i 0).val + 107] := by off_arith k0_off215 i
theorem off217_eq (i : grid0.Coords) : k0_off217 i = ![128 * (i 0).val + 108] := by off_arith k0_off217 i
theorem off219_eq (i : grid0.Coords) : k0_off219 i = ![128 * (i 0).val + 109] := by off_arith k0_off219 i
theorem off221_eq (i : grid0.Coords) : k0_off221 i = ![128 * (i 0).val + 110] := by off_arith k0_off221 i
theorem off223_eq (i : grid0.Coords) : k0_off223 i = ![128 * (i 0).val + 111] := by off_arith k0_off223 i
theorem off225_eq (i : grid0.Coords) : k0_off225 i = ![128 * (i 0).val + 112] := by off_arith k0_off225 i
theorem off227_eq (i : grid0.Coords) : k0_off227 i = ![128 * (i 0).val + 113] := by off_arith k0_off227 i
theorem off229_eq (i : grid0.Coords) : k0_off229 i = ![128 * (i 0).val + 114] := by off_arith k0_off229 i
theorem off231_eq (i : grid0.Coords) : k0_off231 i = ![128 * (i 0).val + 115] := by off_arith k0_off231 i
theorem off233_eq (i : grid0.Coords) : k0_off233 i = ![128 * (i 0).val + 116] := by off_arith k0_off233 i
theorem off235_eq (i : grid0.Coords) : k0_off235 i = ![128 * (i 0).val + 117] := by off_arith k0_off235 i
theorem off237_eq (i : grid0.Coords) : k0_off237 i = ![128 * (i 0).val + 118] := by off_arith k0_off237 i
theorem off239_eq (i : grid0.Coords) : k0_off239 i = ![128 * (i 0).val + 119] := by off_arith k0_off239 i
theorem off241_eq (i : grid0.Coords) : k0_off241 i = ![128 * (i 0).val + 120] := by off_arith k0_off241 i
theorem off243_eq (i : grid0.Coords) : k0_off243 i = ![128 * (i 0).val + 121] := by off_arith k0_off243 i
theorem off245_eq (i : grid0.Coords) : k0_off245 i = ![128 * (i 0).val + 122] := by off_arith k0_off245 i
theorem off247_eq (i : grid0.Coords) : k0_off247 i = ![128 * (i 0).val + 123] := by off_arith k0_off247 i
theorem off249_eq (i : grid0.Coords) : k0_off249 i = ![128 * (i 0).val + 124] := by off_arith k0_off249 i
theorem off251_eq (i : grid0.Coords) : k0_off251 i = ![128 * (i 0).val + 125] := by off_arith k0_off251 i
theorem off253_eq (i : grid0.Coords) : k0_off253 i = ![128 * (i 0).val + 126] := by off_arith k0_off253 i
theorem off255_eq (i : grid0.Coords) : k0_off255 i = ![128 * (i 0).val + 127] := by off_arith k0_off255 i

end Cert.Kernel.Body

end
-- ==== Proof.BodyLaterBits.lean ====
/-
  The body at a grid point after the first, run once on any staging buffers: the column-sum accumulator is read and
  the sums of the block's eight rows are added to it; then the 128 rows the table names are copied one at
  a time into the two-slot buffer, each copy started while the previous row is being used, and for each
  the maximum over the 512 lanes of (row of the block + copied row) is taken; the 8 × 16 maxima are stored
  as the point's output block. The run hands back every buffer it was lent and names the pieces it left
  in the two output buffers.
-/
import proofs.«106441_j1580547974259_1_alg».proof.Proof.BodyCommonBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 0 in
set_option sl_exec.dmaWindow true in
set_option sl_exec.dmaWindowSet true in
/-- The pieces the body leaves in the output block's buffer and in the accumulator's, with the proof that
    it runs to the end from the buffers it is lent — the block, the two outputs, the two-slot buffer at
    whatever it holds (fs0), the table and the array of rows each at a share, its two copy counters at zero —
    and gives them back: every copy it starts it waits for within the point. -/
noncomputable def runLater (c : Dev nD) (i : grid0.Coords) (hc : ¬isFirst i)
    (arg3 : Memref sig .tc .vmem S8x512 .f32) (harg3 : arg3.IsWhole)
    (arg4 : Memref sig .tc .vmem S8x16 .f32) (harg4 : arg4.IsWhole)
    (arg5 : Memref sig .tc .vmem S1x512 .f32) (harg5 : arg5.IsWhole)
    (arg6 : Memref sig .tc .vmem S2x512 .f32) (harg6 : arg6.IsWhole)
    (q1 q2 : PosShare TreeShare)
    (xt : BufOf (F := F) c tbM) (x0 : Vec F S8x512 .f32) (a0 : Vec F S1x512 .f32) (fh : BufOf (F := F) c hbM) (fs0 : BufTy.Contents (Elt F) arg6.view.ty)
    (hrows : RowsBelow c xt) :
    { L : List (View.Piece (Elt F) S8x16 .f32) × List (View.Piece (Elt F) S1x512 .f32) //
      ∀ (W : Waits sig Unit) (K : PUnit → sProp 𝕄),
        iprop(heldAt c q1 tbM xt
            ∗ owns (c : Thread nD τ) arg3 fullShare x0
            ∗ (∃ d, owns (c : Thread nD τ) arg4 fullShare d)
            ∗ owns (c : Thread nD τ) arg5 fullShare a0
            ∗ (arg6.view.loc (c : Thread nD τ) ↦[arg6.view.set]{fullShare} fs0)
            ∗ semVal ((c : Thread nD τ), SemLoc.dma 5) 0
            ∗ semVal ((c : Thread nD τ), SemLoc.dma 6) 0
            ∗ heldAt c q2 hbM fh
            ∗ owes (c : Thread nD τ) 0 W
            ∗ (iprop(heldAt c q1 tbM xt
                ∗ owns (c : Thread nD τ) arg3 fullShare x0
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)
                ∗ (∃ d, owns (c : Thread nD τ) arg6 fullShare d)
                ∗ semVal ((c : Thread nD τ), SemLoc.dma 5) 0
                ∗ semVal ((c : Thread nD τ), SemLoc.dma 6) 0
                ∗ heldAt c q2 hbM fh
                ∗ (∃ W', owes (c : Thread nD τ) 0 W')) -∗ K ⟨⟩))
          ⊢ wp frame (wpE (defs₀ (F := F)) Variants.none c none) Set.univ
              (cc0_kernel i tbM htbM hbM hhbM arg3 harg3 arg4 harg4 arg5 harg5 arg6 harg6 cc0_scratch1) K } := by
  refine ⟨(?_, ?_), fun W K => ?run⟩
  case run =>
    simp only [cc0_kernel_eq_skeleton]; unfold cc0_kernel_skel
    unfold owns
    iintro ⟨HT, ⟨%f0, %hf0, H0⟩, ⟨%d1, %f1, -, H1⟩, ⟨%f2, %hf2, H2⟩, HS0, Hq0, Hq1, Hh0, HW, Hk⟩
    obtain rfl := harg3.eq_unread hf0; obtain rfl := harg5.eq_unread hf2
    sl_exec_parts (disch := first | sl_exact hc | exact row_inside _ (hrows _ _))
    sl_step
    iapply Hk
    isplitl [HT]; · iexact HT
    isplitl [H0]
    · iexists _; isplitr; · ipureintro; exact harg3.read_unread _
      iexact H0
    isplitl [H1]; · iexists _; iexact H1
    isplitl [H2]; · iexists _; iexact H2
    isplitl [HS0]
    · iexists _, _; isplitr; swap; · iexact HS0
      ipureintro; rfl
    isplitl [Hq0]; · iexact Hq0
    isplitl [Hq1]; · iexact Hq1
    isplitl [Hh0]; · iexact Hh0
    iexists _; iexact HW

end Cert.Kernel.Body

end
-- ==== Proof.BodyTableLaterBits.lean ====
/-
  The block of maxima the body leaves at a point after the first, read back.

  The run names every value it computes. Below, one equation per name, in the order the body computes them: each
  table word is word number `128·t + 16·b + k`; each copy is that row of the array; each load of the two-slot buffer
  reads the copy that was last made into the loaded row; each maximum is `pmax` of row `b` of the block and the
  copied row; each group of sixteen is one row of the block of maxima. The last equation reads the eight rows back
  as `maxBlock`.
-/
import proofs.«106441_j1580547974259_1_alg».proof.Proof.BodyLoadsBits
import proofs.«106441_j1580547974259_1_alg».proof.Proof.BodyLaterBits

set_option maxRecDepth 16384

noncomputable section

namespace Cert.Kernel.Body

open Cert.Kernel Cert.Kernel.Gen Cert.BodyMathBits
open Idealize.ShloMosaic Idealize.ShloMosaic.TcCoe Idealize.ShloMosaic.ValueIdx

variable {F : FTy → Type} [FloatOps F]

namespace Later

section Table

variable (c : Dev nD) (i : grid0.Coords) (arg3 : Memref sig .tc .vmem S8x512 .f32) (harg3 : arg3.IsWhole)
  (arg6 : Memref sig .tc .vmem S2x512 .f32) (xt : BufOf (F := F) c tbM) (x0 : Vec F S8x512 .f32) (fh : BufOf (F := F) c hbM)
  (fs0 : BufTy.Contents (Elt F) arg6.view.ty) (hrows : RowsBelow c xt)

theorem w_r : runLater.sl.r c i xt = word c i xt (xfer 0 0) := word_of_off c i xt (xfer 0 0) (off1_eq i)
theorem w_r_1 : runLater.sl.r_1 c i xt = word c i xt (xfer 0 1) := word_of_off c i xt (xfer 0 1) (off3_eq i)
theorem w_r_100 : runLater.sl.r_100 c i xt = word c i xt (xfer 2 13) := word_of_off c i xt (xfer 2 13) (off91_eq i)
theorem w_r_103 : runLater.sl.r_103 c i xt = word c i xt (xfer 2 14) := word_of_off c i xt (xfer 2 14) (off93_eq i)
theorem w_r_104 : runLater.sl.r_104 c i xt = word c i xt (xfer 2 15) := word_of_off c i xt (xfer 2 15) (off95_eq i)
theorem w_r_106 : runLater.sl.r_106 c i xt = word c i xt (xfer 3 0) := word_of_off c i xt (xfer 3 0) (off97_eq i)
theorem w_r_108 : runLater.sl.r_108 c i xt = word c i xt (xfer 3 1) := word_of_off c i xt (xfer 3 1) (off99_eq i)
theorem w_r_109 : runLater.sl.r_109 c i xt = word c i xt (xfer 3 2) := word_of_off c i xt (xfer 3 2) (off101_eq i)
theorem w_r_112 : runLater.sl.r_112 c i xt = word c i xt (xfer 3 3) := word_of_off c i xt (xfer 3 3) (off103_eq i)
theorem w_r_115 : runLater.sl.r_115 c i xt = word c i xt (xfer 3 4) := word_of_off c i xt (xfer 3 4) (off105_eq i)
theorem w_r_116 : runLater.sl.r_116 c i xt = word c i xt (xfer 3 5) := word_of_off c i xt (xfer 3 5) (off107_eq i)
theorem w_r_118 : runLater.sl.r_118 c i xt = word c i xt (xfer 3 6) := word_of_off c i xt (xfer 3 6) (off109_eq i)
theorem w_r_12 : runLater.sl.r_12 c i xt = word c i xt (xfer 0 6) := word_of_off c i xt (xfer 0 6) (off13_eq i)
theorem w_r_121 : runLater.sl.r_121 c i xt = word c i xt (xfer 3 7) := word_of_off c i xt (xfer 3 7) (off111_eq i)
theorem w_r_122 : runLater.sl.r_122 c i xt = word c i xt (xfer 3 8) := word_of_off c i xt (xfer 3 8) (off113_eq i)
theorem w_r_124 : runLater.sl.r_124 c i xt = word c i xt (xfer 3 9) := word_of_off c i xt (xfer 3 9) (off115_eq i)
theorem w_r_127 : runLater.sl.r_127 c i xt = word c i xt (xfer 3 10) := word_of_off c i xt (xfer 3 10) (off117_eq i)
theorem w_r_128 : runLater.sl.r_128 c i xt = word c i xt (xfer 3 11) := word_of_off c i xt (xfer 3 11) (off119_eq i)
theorem w_r_13 : runLater.sl.r_13 c i xt = word c i xt (xfer 0 7) := word_of_off c i xt (xfer 0 7) (off15_eq i)
theorem w_r_130 : runLater.sl.r_130 c i xt = word c i xt (xfer 3 12) := word_of_off c i xt (xfer 3 12) (off121_eq i)
theorem w_r_133 : runLater.sl.r_133 c i xt = word c i xt (xfer 3 13) := word_of_off c i xt (xfer 3 13) (off123_eq i)
theorem w_r_134 : runLater.sl.r_134 c i xt = word c i xt (xfer 3 14) := word_of_off c i xt (xfer 3 14) (off125_eq i)
theorem w_r_136 : runLater.sl.r_136 c i xt = word c i xt (xfer 3 15) := word_of_off c i xt (xfer 3 15) (off127_eq i)
theorem w_r_139 : runLater.sl.r_139 c i xt = word c i xt (xfer 4 0) := word_of_off c i xt (xfer 4 0) (off129_eq i)
theorem w_r_140 : runLater.sl.r_140 c i xt = word c i xt (xfer 4 1) := word_of_off c i xt (xfer 4 1) (off131_eq i)
theorem w_r_143 : runLater.sl.r_143 c i xt = word c i xt (xfer 4 2) := word_of_off c i xt (xfer 4 2) (off133_eq i)
theorem w_r_146 : runLater.sl.r_146 c i xt = word c i xt (xfer 4 3) := word_of_off c i xt (xfer 4 3) (off135_eq i)
theorem w_r_147 : runLater.sl.r_147 c i xt = word c i xt (xfer 4 4) := word_of_off c i xt (xfer 4 4) (off137_eq i)
theorem w_r_149 : runLater.sl.r_149 c i xt = word c i xt (xfer 4 5) := word_of_off c i xt (xfer 4 5) (off139_eq i)
theorem w_r_152 : runLater.sl.r_152 c i xt = word c i xt (xfer 4 6) := word_of_off c i xt (xfer 4 6) (off141_eq i)
theorem w_r_153 : runLater.sl.r_153 c i xt = word c i xt (xfer 4 7) := word_of_off c i xt (xfer 4 7) (off143_eq i)
theorem w_r_155 : runLater.sl.r_155 c i xt = word c i xt (xfer 4 8) := word_of_off c i xt (xfer 4 8) (off145_eq i)
theorem w_r_158 : runLater.sl.r_158 c i xt = word c i xt (xfer 4 9) := word_of_off c i xt (xfer 4 9) (off147_eq i)
theorem w_r_159 : runLater.sl.r_159 c i xt = word c i xt (xfer 4 10) := word_of_off c i xt (xfer 4 10) (off149_eq i)
theorem w_r_16 : runLater.sl.r_16 c i xt = word c i xt (xfer 0 8) := word_of_off c i xt (xfer 0 8) (off17_eq i)
theorem w_r_161 : runLater.sl.r_161 c i xt = word c i xt (xfer 4 11) := word_of_off c i xt (xfer 4 11) (off151_eq i)
theorem w_r_164 : runLater.sl.r_164 c i xt = word c i xt (xfer 4 12) := word_of_off c i xt (xfer 4 12) (off153_eq i)
theorem w_r_165 : runLater.sl.r_165 c i xt = word c i xt (xfer 4 13) := word_of_off c i xt (xfer 4 13) (off155_eq i)
theorem w_r_167 : runLater.sl.r_167 c i xt = word c i xt (xfer 4 14) := word_of_off c i xt (xfer 4 14) (off157_eq i)
theorem w_r_170 : runLater.sl.r_170 c i xt = word c i xt (xfer 4 15) := word_of_off c i xt (xfer 4 15) (off159_eq i)
theorem w_r_171 : runLater.sl.r_171 c i xt = word c i xt (xfer 5 0) := word_of_off c i xt (xfer 5 0) (off161_eq i)
theorem w_r_173 : runLater.sl.r_173 c i xt = word c i xt (xfer 5 1) := word_of_off c i xt (xfer 5 1) (off163_eq i)
theorem w_r_176 : runLater.sl.r_176 c i xt = word c i xt (xfer 5 2) := word_of_off c i xt (xfer 5 2) (off165_eq i)
theorem w_r_177 : runLater.sl.r_177 c i xt = word c i xt (xfer 5 3) := word_of_off c i xt (xfer 5 3) (off167_eq i)
theorem w_r_180 : runLater.sl.r_180 c i xt = word c i xt (xfer 5 4) := word_of_off c i xt (xfer 5 4) (off169_eq i)
theorem w_r_183 : runLater.sl.r_183 c i xt = word c i xt (xfer 5 5) := word_of_off c i xt (xfer 5 5) (off171_eq i)
theorem w_r_184 : runLater.sl.r_184 c i xt = word c i xt (xfer 5 6) := word_of_off c i xt (xfer 5 6) (off173_eq i)
theorem w_r_186 : runLater.sl.r_186 c i xt = word c i xt (xfer 5 7) := word_of_off c i xt (xfer 5 7) (off175_eq i)
theorem w_r_189 : runLater.sl.r_189 c i xt = word c i xt (xfer 5 8) := word_of_off c i xt (xfer 5 8) (off177_eq i)
theorem w_r_19 : runLater.sl.r_19 c i xt = word c i xt (xfer 0 9) := word_of_off c i xt (xfer 0 9) (off19_eq i)
theorem w_r_190 : runLater.sl.r_190 c i xt = word c i xt (xfer 5 9) := word_of_off c i xt (xfer 5 9) (off179_eq i)
theorem w_r_192 : runLater.sl.r_192 c i xt = word c i xt (xfer 5 10) := word_of_off c i xt (xfer 5 10) (off181_eq i)
theorem w_r_195 : runLater.sl.r_195 c i xt = word c i xt (xfer 5 11) := word_of_off c i xt (xfer 5 11) (off183_eq i)
theorem w_r_196 : runLater.sl.r_196 c i xt = word c i xt (xfer 5 12) := word_of_off c i xt (xfer 5 12) (off185_eq i)
theorem w_r_198 : runLater.sl.r_198 c i xt = word c i xt (xfer 5 13) := word_of_off c i xt (xfer 5 13) (off187_eq i)
theorem w_r_2 : runLater.sl.r_2 c i xt = word c i xt (xfer 0 2) := word_of_off c i xt (xfer 0 2) (off5_eq i)
theorem w_r_20 : runLater.sl.r_20 c i xt = word c i xt (xfer 0 10) := word_of_off c i xt (xfer 0 10) (off21_eq i)
theorem w_r_201 : runLater.sl.r_201 c i xt = word c i xt (xfer 5 14) := word_of_off c i xt (xfer 5 14) (off189_eq i)
theorem w_r_202 : runLater.sl.r_202 c i xt = word c i xt (xfer 5 15) := word_of_off c i xt (xfer 5 15) (off191_eq i)
theorem w_r_204 : runLater.sl.r_204 c i xt = word c i xt (xfer 6 0) := word_of_off c i xt (xfer 6 0) (off193_eq i)
theorem w_r_206 : runLater.sl.r_206 c i xt = word c i xt (xfer 6 1) := word_of_off c i xt (xfer 6 1) (off195_eq i)
theorem w_r_207 : runLater.sl.r_207 c i xt = word c i xt (xfer 6 2) := word_of_off c i xt (xfer 6 2) (off197_eq i)
theorem w_r_209 : runLater.sl.r_209 c i xt = word c i xt (xfer 6 3) := word_of_off c i xt (xfer 6 3) (off199_eq i)
theorem w_r_212 : runLater.sl.r_212 c i xt = word c i xt (xfer 6 4) := word_of_off c i xt (xfer 6 4) (off201_eq i)
theorem w_r_213 : runLater.sl.r_213 c i xt = word c i xt (xfer 6 5) := word_of_off c i xt (xfer 6 5) (off203_eq i)
theorem w_r_215 : runLater.sl.r_215 c i xt = word c i xt (xfer 6 6) := word_of_off c i xt (xfer 6 6) (off205_eq i)
theorem w_r_218 : runLater.sl.r_218 c i xt = word c i xt (xfer 6 7) := word_of_off c i xt (xfer 6 7) (off207_eq i)
theorem w_r_219 : runLater.sl.r_219 c i xt = word c i xt (xfer 6 8) := word_of_off c i xt (xfer 6 8) (off209_eq i)
theorem w_r_221 : runLater.sl.r_221 c i xt = word c i xt (xfer 6 9) := word_of_off c i xt (xfer 6 9) (off211_eq i)
theorem w_r_224 : runLater.sl.r_224 c i xt = word c i xt (xfer 6 10) := word_of_off c i xt (xfer 6 10) (off213_eq i)
theorem w_r_225 : runLater.sl.r_225 c i xt = word c i xt (xfer 6 11) := word_of_off c i xt (xfer 6 11) (off215_eq i)
theorem w_r_227 : runLater.sl.r_227 c i xt = word c i xt (xfer 6 12) := word_of_off c i xt (xfer 6 12) (off217_eq i)
theorem w_r_23 : runLater.sl.r_23 c i xt = word c i xt (xfer 0 11) := word_of_off c i xt (xfer 0 11) (off23_eq i)
theorem w_r_230 : runLater.sl.r_230 c i xt = word c i xt (xfer 6 13) := word_of_off c i xt (xfer 6 13) (off219_eq i)
theorem w_r_231 : runLater.sl.r_231 c i xt = word c i xt (xfer 6 14) := word_of_off c i xt (xfer 6 14) (off221_eq i)
theorem w_r_233 : runLater.sl.r_233 c i xt = word c i xt (xfer 6 15) := word_of_off c i xt (xfer 6 15) (off223_eq i)
theorem w_r_236 : runLater.sl.r_236 c i xt = word c i xt (xfer 7 0) := word_of_off c i xt (xfer 7 0) (off225_eq i)
theorem w_r_237 : runLater.sl.r_237 c i xt = word c i xt (xfer 7 1) := word_of_off c i xt (xfer 7 1) (off227_eq i)
theorem w_r_239 : runLater.sl.r_239 c i xt = word c i xt (xfer 7 2) := word_of_off c i xt (xfer 7 2) (off229_eq i)
theorem w_r_242 : runLater.sl.r_242 c i xt = word c i xt (xfer 7 3) := word_of_off c i xt (xfer 7 3) (off231_eq i)
theorem w_r_243 : runLater.sl.r_243 c i xt = word c i xt (xfer 7 4) := word_of_off c i xt (xfer 7 4) (off233_eq i)
theorem w_r_245 : runLater.sl.r_245 c i xt = word c i xt (xfer 7 5) := word_of_off c i xt (xfer 7 5) (off235_eq i)
theorem w_r_248 : runLater.sl.r_248 c i xt = word c i xt (xfer 7 6) := word_of_off c i xt (xfer 7 6) (off237_eq i)
theorem w_r_249 : runLater.sl.r_249 c i xt = word c i xt (xfer 7 7) := word_of_off c i xt (xfer 7 7) (off239_eq i)
theorem w_r_251 : runLater.sl.r_251 c i xt = word c i xt (xfer 7 8) := word_of_off c i xt (xfer 7 8) (off241_eq i)
theorem w_r_254 : runLater.sl.r_254 c i xt = word c i xt (xfer 7 9) := word_of_off c i xt (xfer 7 9) (off243_eq i)
theorem w_r_255 : runLater.sl.r_255 c i xt = word c i xt (xfer 7 10) := word_of_off c i xt (xfer 7 10) (off245_eq i)
theorem w_r_257 : runLater.sl.r_257 c i xt = word c i xt (xfer 7 11) := word_of_off c i xt (xfer 7 11) (off247_eq i)
theorem w_r_26 : runLater.sl.r_26 c i xt = word c i xt (xfer 0 12) := word_of_off c i xt (xfer 0 12) (off25_eq i)
theorem w_r_260 : runLater.sl.r_260 c i xt = word c i xt (xfer 7 12) := word_of_off c i xt (xfer 7 12) (off249_eq i)
theorem w_r_261 : runLater.sl.r_261 c i xt = word c i xt (xfer 7 13) := word_of_off c i xt (xfer 7 13) (off251_eq i)
theorem w_r_263 : runLater.sl.r_263 c i xt = word c i xt (xfer 7 14) := word_of_off c i xt (xfer 7 14) (off253_eq i)
theorem w_r_266 : runLater.sl.r_266 c i xt = word c i xt (xfer 7 15) := word_of_off c i xt (xfer 7 15) (off255_eq i)
theorem w_r_27 : runLater.sl.r_27 c i xt = word c i xt (xfer 0 13) := word_of_off c i xt (xfer 0 13) (off27_eq i)
theorem w_r_30 : runLater.sl.r_30 c i xt = word c i xt (xfer 0 14) := word_of_off c i xt (xfer 0 14) (off29_eq i)
theorem w_r_33 : runLater.sl.r_33 c i xt = word c i xt (xfer 0 15) := word_of_off c i xt (xfer 0 15) (off31_eq i)
theorem w_r_34 : runLater.sl.r_34 c i xt = word c i xt (xfer 1 0) := word_of_off c i xt (xfer 1 0) (off33_eq i)
theorem w_r_37 : runLater.sl.r_37 c i xt = word c i xt (xfer 1 1) := word_of_off c i xt (xfer 1 1) (off35_eq i)
theorem w_r_40 : runLater.sl.r_40 c i xt = word c i xt (xfer 1 2) := word_of_off c i xt (xfer 1 2) (off37_eq i)
theorem w_r_43 : runLater.sl.r_43 c i xt = word c i xt (xfer 1 3) := word_of_off c i xt (xfer 1 3) (off39_eq i)
theorem w_r_44 : runLater.sl.r_44 c i xt = word c i xt (xfer 1 4) := word_of_off c i xt (xfer 1 4) (off41_eq i)
theorem w_r_47 : runLater.sl.r_47 c i xt = word c i xt (xfer 1 5) := word_of_off c i xt (xfer 1 5) (off43_eq i)
theorem w_r_5 : runLater.sl.r_5 c i xt = word c i xt (xfer 0 3) := word_of_off c i xt (xfer 0 3) (off7_eq i)
theorem w_r_50 : runLater.sl.r_50 c i xt = word c i xt (xfer 1 6) := word_of_off c i xt (xfer 1 6) (off45_eq i)
theorem w_r_51 : runLater.sl.r_51 c i xt = word c i xt (xfer 1 7) := word_of_off c i xt (xfer 1 7) (off47_eq i)
theorem w_r_54 : runLater.sl.r_54 c i xt = word c i xt (xfer 1 8) := word_of_off c i xt (xfer 1 8) (off49_eq i)
theorem w_r_57 : runLater.sl.r_57 c i xt = word c i xt (xfer 1 9) := word_of_off c i xt (xfer 1 9) (off51_eq i)
theorem w_r_58 : runLater.sl.r_58 c i xt = word c i xt (xfer 1 10) := word_of_off c i xt (xfer 1 10) (off53_eq i)
theorem w_r_6 : runLater.sl.r_6 c i xt = word c i xt (xfer 0 4) := word_of_off c i xt (xfer 0 4) (off9_eq i)
theorem w_r_61 : runLater.sl.r_61 c i xt = word c i xt (xfer 1 11) := word_of_off c i xt (xfer 1 11) (off55_eq i)
theorem w_r_64 : runLater.sl.r_64 c i xt = word c i xt (xfer 1 12) := word_of_off c i xt (xfer 1 12) (off57_eq i)
theorem w_r_65 : runLater.sl.r_65 c i xt = word c i xt (xfer 1 13) := word_of_off c i xt (xfer 1 13) (off59_eq i)
theorem w_r_68 : runLater.sl.r_68 c i xt = word c i xt (xfer 1 14) := word_of_off c i xt (xfer 1 14) (off61_eq i)
theorem w_r_71 : runLater.sl.r_71 c i xt = word c i xt (xfer 1 15) := word_of_off c i xt (xfer 1 15) (off63_eq i)
theorem w_r_72 : runLater.sl.r_72 c i xt = word c i xt (xfer 2 0) := word_of_off c i xt (xfer 2 0) (off65_eq i)
theorem w_r_75 : runLater.sl.r_75 c i xt = word c i xt (xfer 2 1) := word_of_off c i xt (xfer 2 1) (off67_eq i)
theorem w_r_78 : runLater.sl.r_78 c i xt = word c i xt (xfer 2 2) := word_of_off c i xt (xfer 2 2) (off69_eq i)
theorem w_r_79 : runLater.sl.r_79 c i xt = word c i xt (xfer 2 3) := word_of_off c i xt (xfer 2 3) (off71_eq i)
theorem w_r_82 : runLater.sl.r_82 c i xt = word c i xt (xfer 2 4) := word_of_off c i xt (xfer 2 4) (off73_eq i)
theorem w_r_85 : runLater.sl.r_85 c i xt = word c i xt (xfer 2 5) := word_of_off c i xt (xfer 2 5) (off75_eq i)
theorem w_r_86 : runLater.sl.r_86 c i xt = word c i xt (xfer 2 6) := word_of_off c i xt (xfer 2 6) (off77_eq i)
theorem w_r_88 : runLater.sl.r_88 c i xt = word c i xt (xfer 2 7) := word_of_off c i xt (xfer 2 7) (off79_eq i)
theorem w_r_9 : runLater.sl.r_9 c i xt = word c i xt (xfer 0 5) := word_of_off c i xt (xfer 0 5) (off11_eq i)
theorem w_r_91 : runLater.sl.r_91 c i xt = word c i xt (xfer 2 8) := word_of_off c i xt (xfer 2 8) (off81_eq i)
theorem w_r_92 : runLater.sl.r_92 c i xt = word c i xt (xfer 2 9) := word_of_off c i xt (xfer 2 9) (off83_eq i)
theorem w_r_94 : runLater.sl.r_94 c i xt = word c i xt (xfer 2 10) := word_of_off c i xt (xfer 2 10) (off85_eq i)
theorem w_r_97 : runLater.sl.r_97 c i xt = word c i xt (xfer 2 11) := word_of_off c i xt (xfer 2 11) (off87_eq i)
theorem w_r_98 : runLater.sl.r_98 c i xt = word c i xt (xfer 2 12) := word_of_off c i xt (xfer 2 12) (off89_eq i)
theorem d_dma102 : runLater.sl.dma102 c i xt fh hrows = arrRow c fh (word c i xt (xfer 2 1)) (word_lt c i xt hrows (xfer 2 1)) := dma_of_word c fh _ _ (w_r_75 c i xt) _ rfl
theorem d_dma105 : runLater.sl.dma105 c i xt fh hrows = arrRow c fh (word c i xt (xfer 2 2)) (word_lt c i xt hrows (xfer 2 2)) := dma_of_word c fh _ _ (w_r_78 c i xt) _ rfl
theorem d_dma108 : runLater.sl.dma108 c i xt fh hrows = arrRow c fh (word c i xt (xfer 2 3)) (word_lt c i xt hrows (xfer 2 3)) := dma_of_word c fh _ _ (w_r_79 c i xt) _ rfl
theorem d_dma111 : runLater.sl.dma111 c i xt fh hrows = arrRow c fh (word c i xt (xfer 2 4)) (word_lt c i xt hrows (xfer 2 4)) := dma_of_word c fh _ _ (w_r_82 c i xt) _ rfl
theorem d_dma114 : runLater.sl.dma114 c i xt fh hrows = arrRow c fh (word c i xt (xfer 2 5)) (word_lt c i xt hrows (xfer 2 5)) := dma_of_word c fh _ _ (w_r_85 c i xt) _ rfl
theorem d_dma117 : runLater.sl.dma117 c i xt fh hrows = arrRow c fh (word c i xt (xfer 2 6)) (word_lt c i xt hrows (xfer 2 6)) := dma_of_word c fh _ _ (w_r_86 c i xt) _ rfl
theorem d_dma12 : runLater.sl.dma12 c i xt fh hrows = arrRow c fh (word c i xt (xfer 0 3)) (word_lt c i xt hrows (xfer 0 3)) := dma_of_word c fh _ _ (w_r_5 c i xt) _ rfl
theorem d_dma120 : runLater.sl.dma120 c i xt fh hrows = arrRow c fh (word c i xt (xfer 2 7)) (word_lt c i xt hrows (xfer 2 7)) := dma_of_word c fh _ _ (w_r_88 c i xt) _ rfl
theorem d_dma123 : runLater.sl.dma123 c i xt fh hrows = arrRow c fh (word c i xt (xfer 2 8)) (word_lt c i xt hrows (xfer 2 8)) := dma_of_word c fh _ _ (w_r_91 c i xt) _ rfl
theorem d_dma126 : runLater.sl.dma126 c i xt fh hrows = arrRow c fh (word c i xt (xfer 2 9)) (word_lt c i xt hrows (xfer 2 9)) := dma_of_word c fh _ _ (w_r_92 c i xt) _ rfl
theorem d_dma129 : runLater.sl.dma129 c i xt fh hrows = arrRow c fh (word c i xt (xfer 2 10)) (word_lt c i xt hrows (xfer 2 10)) := dma_of_word c fh _ _ (w_r_94 c i xt) _ rfl
theorem d_dma132 : runLater.sl.dma132 c i xt fh hrows = arrRow c fh (word c i xt (xfer 2 11)) (word_lt c i xt hrows (xfer 2 11)) := dma_of_word c fh _ _ (w_r_97 c i xt) _ rfl
theorem d_dma135 : runLater.sl.dma135 c i xt fh hrows = arrRow c fh (word c i xt (xfer 2 12)) (word_lt c i xt hrows (xfer 2 12)) := dma_of_word c fh _ _ (w_r_98 c i xt) _ rfl
theorem d_dma138 : runLater.sl.dma138 c i xt fh hrows = arrRow c fh (word c i xt (xfer 2 13)) (word_lt c i xt hrows (xfer 2 13)) := dma_of_word c fh _ _ (w_r_100 c i xt) _ rfl
theorem d_dma141 : runLater.sl.dma141 c i xt fh hrows = arrRow c fh (word c i xt (xfer 2 14)) (word_lt c i xt hrows (xfer 2 14)) := dma_of_word c fh _ _ (w_r_103 c i xt) _ rfl
theorem d_dma144 : runLater.sl.dma144 c i xt fh hrows = arrRow c fh (word c i xt (xfer 2 15)) (word_lt c i xt hrows (xfer 2 15)) := dma_of_word c fh _ _ (w_r_104 c i xt) _ rfl
theorem d_dma147 : runLater.sl.dma147 c i xt fh hrows = arrRow c fh (word c i xt (xfer 3 0)) (word_lt c i xt hrows (xfer 3 0)) := dma_of_word c fh _ _ (w_r_106 c i xt) _ rfl
theorem d_dma15 : runLater.sl.dma15 c i xt fh hrows = arrRow c fh (word c i xt (xfer 0 4)) (word_lt c i xt hrows (xfer 0 4)) := dma_of_word c fh _ _ (w_r_6 c i xt) _ rfl
theorem d_dma150 : runLater.sl.dma150 c i xt fh hrows = arrRow c fh (word c i xt (xfer 3 1)) (word_lt c i xt hrows (xfer 3 1)) := dma_of_word c fh _ _ (w_r_108 c i xt) _ rfl
theorem d_dma153 : runLater.sl.dma153 c i xt fh hrows = arrRow c fh (word c i xt (xfer 3 2)) (word_lt c i xt hrows (xfer 3 2)) := dma_of_word c fh _ _ (w_r_109 c i xt) _ rfl
theorem d_dma156 : runLater.sl.dma156 c i xt fh hrows = arrRow c fh (word c i xt (xfer 3 3)) (word_lt c i xt hrows (xfer 3 3)) := dma_of_word c fh _ _ (w_r_112 c i xt) _ rfl
theorem d_dma159 : runLater.sl.dma159 c i xt fh hrows = arrRow c fh (word c i xt (xfer 3 4)) (word_lt c i xt hrows (xfer 3 4)) := dma_of_word c fh _ _ (w_r_115 c i xt) _ rfl
theorem d_dma162 : runLater.sl.dma162 c i xt fh hrows = arrRow c fh (word c i xt (xfer 3 5)) (word_lt c i xt hrows (xfer 3 5)) := dma_of_word c fh _ _ (w_r_116 c i xt) _ rfl
theorem d_dma165 : runLater.sl.dma165 c i xt fh hrows = arrRow c fh (word c i xt (xfer 3 6)) (word_lt c i xt hrows (xfer 3 6)) := dma_of_word c fh _ _ (w_r_118 c i xt) _ rfl
theorem d_dma168 : runLater.sl.dma168 c i xt fh hrows = arrRow c fh (word c i xt (xfer 3 7)) (word_lt c i xt hrows (xfer 3 7)) := dma_of_word c fh _ _ (w_r_121 c i xt) _ rfl
theorem d_dma171 : runLater.sl.dma171 c i xt fh hrows = arrRow c fh (word c i xt (xfer 3 8)) (word_lt c i xt hrows (xfer 3 8)) := dma_of_word c fh _ _ (w_r_122 c i xt) _ rfl
theorem d_dma174 : runLater.sl.dma174 c i xt fh hrows = arrRow c fh (word c i xt (xfer 3 9)) (word_lt c i xt hrows (xfer 3 9)) := dma_of_word c fh _ _ (w_r_124 c i xt) _ rfl
theorem d_dma177 : runLater.sl.dma177 c i xt fh hrows = arrRow c fh (word c i xt (xfer 3 10)) (word_lt c i xt hrows (xfer 3 10)) := dma_of_word c fh _ _ (w_r_127 c i xt) _ rfl
theorem d_dma18 : runLater.sl.dma18 c i xt fh hrows = arrRow c fh (word c i xt (xfer 0 5)) (word_lt c i xt hrows (xfer 0 5)) := dma_of_word c fh _ _ (w_r_9 c i xt) _ rfl
theorem d_dma180 : runLater.sl.dma180 c i xt fh hrows = arrRow c fh (word c i xt (xfer 3 11)) (word_lt c i xt hrows (xfer 3 11)) := dma_of_word c fh _ _ (w_r_128 c i xt) _ rfl
theorem d_dma183 : runLater.sl.dma183 c i xt fh hrows = arrRow c fh (word c i xt (xfer 3 12)) (word_lt c i xt hrows (xfer 3 12)) := dma_of_word c fh _ _ (w_r_130 c i xt) _ rfl
theorem d_dma186 : runLater.sl.dma186 c i xt fh hrows = arrRow c fh (word c i xt (xfer 3 13)) (word_lt c i xt hrows (xfer 3 13)) := dma_of_word c fh _ _ (w_r_133 c i xt) _ rfl
theorem d_dma189 : runLater.sl.dma189 c i xt fh hrows = arrRow c fh (word c i xt (xfer 3 14)) (word_lt c i xt hrows (xfer 3 14)) := dma_of_word c fh _ _ (w_r_134 c i xt) _ rfl
theorem d_dma192 : runLater.sl.dma192 c i xt fh hrows = arrRow c fh (word c i xt (xfer 3 15)) (word_lt c i xt hrows (xfer 3 15)) := dma_of_word c fh _ _ (w_r_136 c i xt) _ rfl
theorem d_dma195 : runLater.sl.dma195 c i xt fh hrows = arrRow c fh (word c i xt (xfer 4 0)) (word_lt c i xt hrows (xfer 4 0)) := dma_of_word c fh _ _ (w_r_139 c i xt) _ rfl
theorem d_dma198 : runLater.sl.dma198 c i xt fh hrows = arrRow c fh (word c i xt (xfer 4 1)) (word_lt c i xt hrows (xfer 4 1)) := dma_of_word c fh _ _ (w_r_140 c i xt) _ rfl
theorem d_dma201 : runLater.sl.dma201 c i xt fh hrows = arrRow c fh (word c i xt (xfer 4 2)) (word_lt c i xt hrows (xfer 4 2)) := dma_of_word c fh _ _ (w_r_143 c i xt) _ rfl
theorem d_dma204 : runLater.sl.dma204 c i xt fh hrows = arrRow c fh (word c i xt (xfer 4 3)) (word_lt c i xt hrows (xfer 4 3)) := dma_of_word c fh _ _ (w_r_146 c i xt) _ rfl
theorem d_dma207 : runLater.sl.dma207 c i xt fh hrows = arrRow c fh (word c i xt (xfer 4 4)) (word_lt c i xt hrows (xfer 4 4)) := dma_of_word c fh _ _ (w_r_147 c i xt) _ rfl
theorem d_dma21 : runLater.sl.dma21 c i xt fh hrows = arrRow c fh (word c i xt (xfer 0 6)) (word_lt c i xt hrows (xfer 0 6)) := dma_of_word c fh _ _ (w_r_12 c i xt) _ rfl
theorem d_dma210 : runLater.sl.dma210 c i xt fh hrows = arrRow c fh (word c i xt (xfer 4 5)) (word_lt c i xt hrows (xfer 4 5)) := dma_of_word c fh _ _ (w_r_149 c i xt) _ rfl
theorem d_dma213 : runLater.sl.dma213 c i xt fh hrows = arrRow c fh (word c i xt (xfer 4 6)) (word_lt c i xt hrows (xfer 4 6)) := dma_of_word c fh _ _ (w_r_152 c i xt) _ rfl
theorem d_dma216 : runLater.sl.dma216 c i xt fh hrows = arrRow c fh (word c i xt (xfer 4 7)) (word_lt c i xt hrows (xfer 4 7)) := dma_of_word c fh _ _ (w_r_153 c i xt) _ rfl
theorem d_dma219 : runLater.sl.dma219 c i xt fh hrows = arrRow c fh (word c i xt (xfer 4 8)) (word_lt c i xt hrows (xfer 4 8)) := dma_of_word c fh _ _ (w_r_155 c i xt) _ rfl
theorem d_dma222 : runLater.sl.dma222 c i xt fh hrows = arrRow c fh (word c i xt (xfer 4 9)) (word_lt c i xt hrows (xfer 4 9)) := dma_of_word c fh _ _ (w_r_158 c i xt) _ rfl
theorem d_dma225 : runLater.sl.dma225 c i xt fh hrows = arrRow c fh (word c i xt (xfer 4 10)) (word_lt c i xt hrows (xfer 4 10)) := dma_of_word c fh _ _ (w_r_159 c i xt) _ rfl
theorem d_dma228 : runLater.sl.dma228 c i xt fh hrows = arrRow c fh (word c i xt (xfer 4 11)) (word_lt c i xt hrows (xfer 4 11)) := dma_of_word c fh _ _ (w_r_161 c i xt) _ rfl
theorem d_dma231 : runLater.sl.dma231 c i xt fh hrows = arrRow c fh (word c i xt (xfer 4 12)) (word_lt c i xt hrows (xfer 4 12)) := dma_of_word c fh _ _ (w_r_164 c i xt) _ rfl
theorem d_dma234 : runLater.sl.dma234 c i xt fh hrows = arrRow c fh (word c i xt (xfer 4 13)) (word_lt c i xt hrows (xfer 4 13)) := dma_of_word c fh _ _ (w_r_165 c i xt) _ rfl
theorem d_dma237 : runLater.sl.dma237 c i xt fh hrows = arrRow c fh (word c i xt (xfer 4 14)) (word_lt c i xt hrows (xfer 4 14)) := dma_of_word c fh _ _ (w_r_167 c i xt) _ rfl
theorem d_dma24 : runLater.sl.dma24 c i xt fh hrows = arrRow c fh (word c i xt (xfer 0 7)) (word_lt c i xt hrows (xfer 0 7)) := dma_of_word c fh _ _ (w_r_13 c i xt) _ rfl
theorem d_dma240 : runLater.sl.dma240 c i xt fh hrows = arrRow c fh (word c i xt (xfer 4 15)) (word_lt c i xt hrows (xfer 4 15)) := dma_of_word c fh _ _ (w_r_170 c i xt) _ rfl
theorem d_dma243 : runLater.sl.dma243 c i xt fh hrows = arrRow c fh (word c i xt (xfer 5 0)) (word_lt c i xt hrows (xfer 5 0)) := dma_of_word c fh _ _ (w_r_171 c i xt) _ rfl
theorem d_dma246 : runLater.sl.dma246 c i xt fh hrows = arrRow c fh (word c i xt (xfer 5 1)) (word_lt c i xt hrows (xfer 5 1)) := dma_of_word c fh _ _ (w_r_173 c i xt) _ rfl
theorem d_dma249 : runLater.sl.dma249 c i xt fh hrows = arrRow c fh (word c i xt (xfer 5 2)) (word_lt c i xt hrows (xfer 5 2)) := dma_of_word c fh _ _ (w_r_176 c i xt) _ rfl
theorem d_dma252 : runLater.sl.dma252 c i xt fh hrows = arrRow c fh (word c i xt (xfer 5 3)) (word_lt c i xt hrows (xfer 5 3)) := dma_of_word c fh _ _ (w_r_177 c i xt) _ rfl
theorem d_dma255 : runLater.sl.dma255 c i xt fh hrows = arrRow c fh (word c i xt (xfer 5 4)) (word_lt c i xt hrows (xfer 5 4)) := dma_of_word c fh _ _ (w_r_180 c i xt) _ rfl
theorem d_dma258 : runLater.sl.dma258 c i xt fh hrows = arrRow c fh (word c i xt (xfer 5 5)) (word_lt c i xt hrows (xfer 5 5)) := dma_of_word c fh _ _ (w_r_183 c i xt) _ rfl
theorem d_dma261 : runLater.sl.dma261 c i xt fh hrows = arrRow c fh (word c i xt (xfer 5 6)) (word_lt c i xt hrows (xfer 5 6)) := dma_of_word c fh _ _ (w_r_184 c i xt) _ rfl
theorem d_dma264 : runLater.sl.dma264 c i xt fh hrows = arrRow c fh (word c i xt (xfer 5 7)) (word_lt c i xt hrows (xfer 5 7)) := dma_of_word c fh _ _ (w_r_186 c i xt) _ rfl
theorem d_dma267 : runLater.sl.dma267 c i xt fh hrows = arrRow c fh (word c i xt (xfer 5 8)) (word_lt c i xt hrows (xfer 5 8)) := dma_of_word c fh _ _ (w_r_189 c i xt) _ rfl
theorem d_dma27 : runLater.sl.dma27 c i xt fh hrows = arrRow c fh (word c i xt (xfer 0 8)) (word_lt c i xt hrows (xfer 0 8)) := dma_of_word c fh _ _ (w_r_16 c i xt) _ rfl
theorem d_dma270 : runLater.sl.dma270 c i xt fh hrows = arrRow c fh (word c i xt (xfer 5 9)) (word_lt c i xt hrows (xfer 5 9)) := dma_of_word c fh _ _ (w_r_190 c i xt) _ rfl
theorem d_dma273 : runLater.sl.dma273 c i xt fh hrows = arrRow c fh (word c i xt (xfer 5 10)) (word_lt c i xt hrows (xfer 5 10)) := dma_of_word c fh _ _ (w_r_192 c i xt) _ rfl
theorem d_dma276 : runLater.sl.dma276 c i xt fh hrows = arrRow c fh (word c i xt (xfer 5 11)) (word_lt c i xt hrows (xfer 5 11)) := dma_of_word c fh _ _ (w_r_195 c i xt) _ rfl
theorem d_dma279 : runLater.sl.dma279 c i xt fh hrows = arrRow c fh (word c i xt (xfer 5 12)) (word_lt c i xt hrows (xfer 5 12)) := dma_of_word c fh _ _ (w_r_196 c i xt) _ rfl
theorem d_dma282 : runLater.sl.dma282 c i xt fh hrows = arrRow c fh (word c i xt (xfer 5 13)) (word_lt c i xt hrows (xfer 5 13)) := dma_of_word c fh _ _ (w_r_198 c i xt) _ rfl
theorem d_dma285 : runLater.sl.dma285 c i xt fh hrows = arrRow c fh (word c i xt (xfer 5 14)) (word_lt c i xt hrows (xfer 5 14)) := dma_of_word c fh _ _ (w_r_201 c i xt) _ rfl
theorem d_dma288 : runLater.sl.dma288 c i xt fh hrows = arrRow c fh (word c i xt (xfer 5 15)) (word_lt c i xt hrows (xfer 5 15)) := dma_of_word c fh _ _ (w_r_202 c i xt) _ rfl
theorem d_dma291 : runLater.sl.dma291 c i xt fh hrows = arrRow c fh (word c i xt (xfer 6 0)) (word_lt c i xt hrows (xfer 6 0)) := dma_of_word c fh _ _ (w_r_204 c i xt) _ rfl
theorem d_dma294 : runLater.sl.dma294 c i xt fh hrows = arrRow c fh (word c i xt (xfer 6 1)) (word_lt c i xt hrows (xfer 6 1)) := dma_of_word c fh _ _ (w_r_206 c i xt) _ rfl
theorem d_dma297 : runLater.sl.dma297 c i xt fh hrows = arrRow c fh (word c i xt (xfer 6 2)) (word_lt c i xt hrows (xfer 6 2)) := dma_of_word c fh _ _ (w_r_207 c i xt) _ rfl
theorem d_dma30 : runLater.sl.dma30 c i xt fh hrows = arrRow c fh (word c i xt (xfer 0 9)) (word_lt c i xt hrows (xfer 0 9)) := dma_of_word c fh _ _ (w_r_19 c i xt) _ rfl
theorem d_dma300 : runLater.sl.dma300 c i xt fh hrows = arrRow c fh (word c i xt (xfer 6 3)) (word_lt c i xt hrows (xfer 6 3)) := dma_of_word c fh _ _ (w_r_209 c i xt) _ rfl
theorem d_dma303 : runLater.sl.dma303 c i xt fh hrows = arrRow c fh (word c i xt (xfer 6 4)) (word_lt c i xt hrows (xfer 6 4)) := dma_of_word c fh _ _ (w_r_212 c i xt) _ rfl
theorem d_dma306 : runLater.sl.dma306 c i xt fh hrows = arrRow c fh (word c i xt (xfer 6 5)) (word_lt c i xt hrows (xfer 6 5)) := dma_of_word c fh _ _ (w_r_213 c i xt) _ rfl
theorem d_dma309 : runLater.sl.dma309 c i xt fh hrows = arrRow c fh (word c i xt (xfer 6 6)) (word_lt c i xt hrows (xfer 6 6)) := dma_of_word c fh _ _ (w_r_215 c i xt) _ rfl
theorem d_dma312 : runLater.sl.dma312 c i xt fh hrows = arrRow c fh (word c i xt (xfer 6 7)) (word_lt c i xt hrows (xfer 6 7)) := dma_of_word c fh _ _ (w_r_218 c i xt) _ rfl
theorem d_dma315 : runLater.sl.dma315 c i xt fh hrows = arrRow c fh (word c i xt (xfer 6 8)) (word_lt c i xt hrows (xfer 6 8)) := dma_of_word c fh _ _ (w_r_219 c i xt) _ rfl
theorem d_dma318 : runLater.sl.dma318 c i xt fh hrows = arrRow c fh (word c i xt (xfer 6 9)) (word_lt c i xt hrows (xfer 6 9)) := dma_of_word c fh _ _ (w_r_221 c i xt) _ rfl
theorem d_dma321 : runLater.sl.dma321 c i xt fh hrows = arrRow c fh (word c i xt (xfer 6 10)) (word_lt c i xt hrows (xfer 6 10)) := dma_of_word c fh _ _ (w_r_224 c i xt) _ rfl
theorem d_dma324 : runLater.sl.dma324 c i xt fh hrows = arrRow c fh (word c i xt (xfer 6 11)) (word_lt c i xt hrows (xfer 6 11)) := dma_of_word c fh _ _ (w_r_225 c i xt) _ rfl
theorem d_dma327 : runLater.sl.dma327 c i xt fh hrows = arrRow c fh (word c i xt (xfer 6 12)) (word_lt c i xt hrows (xfer 6 12)) := dma_of_word c fh _ _ (w_r_227 c i xt) _ rfl
theorem d_dma33 : runLater.sl.dma33 c i xt fh hrows = arrRow c fh (word c i xt (xfer 0 10)) (word_lt c i xt hrows (xfer 0 10)) := dma_of_word c fh _ _ (w_r_20 c i xt) _ rfl
theorem d_dma330 : runLater.sl.dma330 c i xt fh hrows = arrRow c fh (word c i xt (xfer 6 13)) (word_lt c i xt hrows (xfer 6 13)) := dma_of_word c fh _ _ (w_r_230 c i xt) _ rfl
theorem d_dma333 : runLater.sl.dma333 c i xt fh hrows = arrRow c fh (word c i xt (xfer 6 14)) (word_lt c i xt hrows (xfer 6 14)) := dma_of_word c fh _ _ (w_r_231 c i xt) _ rfl
theorem d_dma336 : runLater.sl.dma336 c i xt fh hrows = arrRow c fh (word c i xt (xfer 6 15)) (word_lt c i xt hrows (xfer 6 15)) := dma_of_word c fh _ _ (w_r_233 c i xt) _ rfl
theorem d_dma339 : runLater.sl.dma339 c i xt fh hrows = arrRow c fh (word c i xt (xfer 7 0)) (word_lt c i xt hrows (xfer 7 0)) := dma_of_word c fh _ _ (w_r_236 c i xt) _ rfl
theorem d_dma342 : runLater.sl.dma342 c i xt fh hrows = arrRow c fh (word c i xt (xfer 7 1)) (word_lt c i xt hrows (xfer 7 1)) := dma_of_word c fh _ _ (w_r_237 c i xt) _ rfl
theorem d_dma345 : runLater.sl.dma345 c i xt fh hrows = arrRow c fh (word c i xt (xfer 7 2)) (word_lt c i xt hrows (xfer 7 2)) := dma_of_word c fh _ _ (w_r_239 c i xt) _ rfl
theorem d_dma348 : runLater.sl.dma348 c i xt fh hrows = arrRow c fh (word c i xt (xfer 7 3)) (word_lt c i xt hrows (xfer 7 3)) := dma_of_word c fh _ _ (w_r_242 c i xt) _ rfl
theorem d_dma351 : runLater.sl.dma351 c i xt fh hrows = arrRow c fh (word c i xt (xfer 7 4)) (word_lt c i xt hrows (xfer 7 4)) := dma_of_word c fh _ _ (w_r_243 c i xt) _ rfl
theorem d_dma354 : runLater.sl.dma354 c i xt fh hrows = arrRow c fh (word c i xt (xfer 7 5)) (word_lt c i xt hrows (xfer 7 5)) := dma_of_word c fh _ _ (w_r_245 c i xt) _ rfl
theorem d_dma357 : runLater.sl.dma357 c i xt fh hrows = arrRow c fh (word c i xt (xfer 7 6)) (word_lt c i xt hrows (xfer 7 6)) := dma_of_word c fh _ _ (w_r_248 c i xt) _ rfl
theorem d_dma36 : runLater.sl.dma36 c i xt fh hrows = arrRow c fh (word c i xt (xfer 0 11)) (word_lt c i xt hrows (xfer 0 11)) := dma_of_word c fh _ _ (w_r_23 c i xt) _ rfl
theorem d_dma360 : runLater.sl.dma360 c i xt fh hrows = arrRow c fh (word c i xt (xfer 7 7)) (word_lt c i xt hrows (xfer 7 7)) := dma_of_word c fh _ _ (w_r_249 c i xt) _ rfl
theorem d_dma363 : runLater.sl.dma363 c i xt fh hrows = arrRow c fh (word c i xt (xfer 7 8)) (word_lt c i xt hrows (xfer 7 8)) := dma_of_word c fh _ _ (w_r_251 c i xt) _ rfl
theorem d_dma366 : runLater.sl.dma366 c i xt fh hrows = arrRow c fh (word c i xt (xfer 7 9)) (word_lt c i xt hrows (xfer 7 9)) := dma_of_word c fh _ _ (w_r_254 c i xt) _ rfl
theorem d_dma369 : runLater.sl.dma369 c i xt fh hrows = arrRow c fh (word c i xt (xfer 7 10)) (word_lt c i xt hrows (xfer 7 10)) := dma_of_word c fh _ _ (w_r_255 c i xt) _ rfl
theorem d_dma372 : runLater.sl.dma372 c i xt fh hrows = arrRow c fh (word c i xt (xfer 7 11)) (word_lt c i xt hrows (xfer 7 11)) := dma_of_word c fh _ _ (w_r_257 c i xt) _ rfl
theorem d_dma375 : runLater.sl.dma375 c i xt fh hrows = arrRow c fh (word c i xt (xfer 7 12)) (word_lt c i xt hrows (xfer 7 12)) := dma_of_word c fh _ _ (w_r_260 c i xt) _ rfl
theorem d_dma378 : runLater.sl.dma378 c i xt fh hrows = arrRow c fh (word c i xt (xfer 7 13)) (word_lt c i xt hrows (xfer 7 13)) := dma_of_word c fh _ _ (w_r_261 c i xt) _ rfl
theorem d_dma381 : runLater.sl.dma381 c i xt fh hrows = arrRow c fh (word c i xt (xfer 7 14)) (word_lt c i xt hrows (xfer 7 14)) := dma_of_word c fh _ _ (w_r_263 c i xt) _ rfl
theorem d_dma384 : runLater.sl.dma384 c i xt fh hrows = arrRow c fh (word c i xt (xfer 7 15)) (word_lt c i xt hrows (xfer 7 15)) := dma_of_word c fh _ _ (w_r_266 c i xt) _ rfl
theorem d_dma39 : runLater.sl.dma39 c i xt fh hrows = arrRow c fh (word c i xt (xfer 0 12)) (word_lt c i xt hrows (xfer 0 12)) := dma_of_word c fh _ _ (w_r_26 c i xt) _ rfl
theorem d_dma42 : runLater.sl.dma42 c i xt fh hrows = arrRow c fh (word c i xt (xfer 0 13)) (word_lt c i xt hrows (xfer 0 13)) := dma_of_word c fh _ _ (w_r_27 c i xt) _ rfl
theorem d_dma45 : runLater.sl.dma45 c i xt fh hrows = arrRow c fh (word c i xt (xfer 0 14)) (word_lt c i xt hrows (xfer 0 14)) := dma_of_word c fh _ _ (w_r_30 c i xt) _ rfl
theorem d_dma48 : runLater.sl.dma48 c i xt fh hrows = arrRow c fh (word c i xt (xfer 0 15)) (word_lt c i xt hrows (xfer 0 15)) := dma_of_word c fh _ _ (w_r_33 c i xt) _ rfl
theorem d_dma5 : runLater.sl.dma5 c i xt fh hrows = arrRow c fh (word c i xt (xfer 0 0)) (word_lt c i xt hrows (xfer 0 0)) := dma_of_word c fh _ _ (w_r c i xt) _ rfl
theorem d_dma51 : runLater.sl.dma51 c i xt fh hrows = arrRow c fh (word c i xt (xfer 1 0)) (word_lt c i xt hrows (xfer 1 0)) := dma_of_word c fh _ _ (w_r_34 c i xt) _ rfl
theorem d_dma54 : runLater.sl.dma54 c i xt fh hrows = arrRow c fh (word c i xt (xfer 1 1)) (word_lt c i xt hrows (xfer 1 1)) := dma_of_word c fh _ _ (w_r_37 c i xt) _ rfl
theorem d_dma57 : runLater.sl.dma57 c i xt fh hrows = arrRow c fh (word c i xt (xfer 1 2)) (word_lt c i xt hrows (xfer 1 2)) := dma_of_word c fh _ _ (w_r_40 c i xt) _ rfl
theorem d_dma6 : runLater.sl.dma6 c i xt fh hrows = arrRow c fh (word c i xt (xfer 0 1)) (word_lt c i xt hrows (xfer 0 1)) := dma_of_word c fh _ _ (w_r_1 c i xt) _ rfl
theorem d_dma60 : runLater.sl.dma60 c i xt fh hrows = arrRow c fh (word c i xt (xfer 1 3)) (word_lt c i xt hrows (xfer 1 3)) := dma_of_word c fh _ _ (w_r_43 c i xt) _ rfl
theorem d_dma63 : runLater.sl.dma63 c i xt fh hrows = arrRow c fh (word c i xt (xfer 1 4)) (word_lt c i xt hrows (xfer 1 4)) := dma_of_word c fh _ _ (w_r_44 c i xt) _ rfl
theorem d_dma66 : runLater.sl.dma66 c i xt fh hrows = arrRow c fh (word c i xt (xfer 1 5)) (word_lt c i xt hrows (xfer 1 5)) := dma_of_word c fh _ _ (w_r_47 c i xt) _ rfl
theorem d_dma69 : runLater.sl.dma69 c i xt fh hrows = arrRow c fh (word c i xt (xfer 1 6)) (word_lt c i xt hrows (xfer 1 6)) := dma_of_word c fh _ _ (w_r_50 c i xt) _ rfl
theorem d_dma72 : runLater.sl.dma72 c i xt fh hrows = arrRow c fh (word c i xt (xfer 1 7)) (word_lt c i xt hrows (xfer 1 7)) := dma_of_word c fh _ _ (w_r_51 c i xt) _ rfl
theorem d_dma75 : runLater.sl.dma75 c i xt fh hrows = arrRow c fh (word c i xt (xfer 1 8)) (word_lt c i xt hrows (xfer 1 8)) := dma_of_word c fh _ _ (w_r_54 c i xt) _ rfl
theorem d_dma78 : runLater.sl.dma78 c i xt fh hrows = arrRow c fh (word c i xt (xfer 1 9)) (word_lt c i xt hrows (xfer 1 9)) := dma_of_word c fh _ _ (w_r_57 c i xt) _ rfl
theorem d_dma81 : runLater.sl.dma81 c i xt fh hrows = arrRow c fh (word c i xt (xfer 1 10)) (word_lt c i xt hrows (xfer 1 10)) := dma_of_word c fh _ _ (w_r_58 c i xt) _ rfl
theorem d_dma84 : runLater.sl.dma84 c i xt fh hrows = arrRow c fh (word c i xt (xfer 1 11)) (word_lt c i xt hrows (xfer 1 11)) := dma_of_word c fh _ _ (w_r_61 c i xt) _ rfl
theorem d_dma87 : runLater.sl.dma87 c i xt fh hrows = arrRow c fh (word c i xt (xfer 1 12)) (word_lt c i xt hrows (xfer 1 12)) := dma_of_word c fh _ _ (w_r_64 c i xt) _ rfl
theorem d_dma9 : runLater.sl.dma9 c i xt fh hrows = arrRow c fh (word c i xt (xfer 0 2)) (word_lt c i xt hrows (xfer 0 2)) := dma_of_word c fh _ _ (w_r_2 c i xt) _ rfl
theorem d_dma90 : runLater.sl.dma90 c i xt fh hrows = arrRow c fh (word c i xt (xfer 1 13)) (word_lt c i xt hrows (xfer 1 13)) := dma_of_word c fh _ _ (w_r_65 c i xt) _ rfl
theorem d_dma93 : runLater.sl.dma93 c i xt fh hrows = arrRow c fh (word c i xt (xfer 1 14)) (word_lt c i xt hrows (xfer 1 14)) := dma_of_word c fh _ _ (w_r_68 c i xt) _ rfl
theorem d_dma96 : runLater.sl.dma96 c i xt fh hrows = arrRow c fh (word c i xt (xfer 1 15)) (word_lt c i xt hrows (xfer 1 15)) := dma_of_word c fh _ _ (w_r_71 c i xt) _ rfl
theorem d_dma99 : runLater.sl.dma99 c i xt fh hrows = arrRow c fh (word c i xt (xfer 2 0)) (word_lt c i xt hrows (xfer 2 0)) := dma_of_word c fh _ _ (w_r_72 c i xt) _ rfl
theorem l_v1006 : runLater.sl.v1006 c i arg6 xt fh fs0 hrows = asRow (runLater.sl.dma141 c i xt fh hrows) := load_second arg6 0 1 (by decide) rfl rfl rfl
theorem l_v101 : runLater.sl.v101 c i arg6 xt fh fs0 hrows = asRow (runLater.sl.dma12 c i xt fh hrows) := load_second arg6 1 0 (by decide) rfl rfl rfl
theorem l_v1027 : runLater.sl.v1027 c i arg6 xt fh fs0 hrows = asRow (runLater.sl.dma144 c i xt fh hrows) := load_second arg6 1 0 (by decide) rfl rfl rfl
theorem l_v1049 : runLater.sl.v1049 c i arg6 xt fh fs0 hrows = asRow (runLater.sl.dma147 c i xt fh hrows) := load_second arg6 0 1 (by decide) rfl rfl rfl
theorem l_v1070 : runLater.sl.v1070 c i arg6 xt fh fs0 hrows = asRow (runLater.sl.dma150 c i xt fh hrows) := load_second arg6 1 0 (by decide) rfl rfl rfl
theorem l_v1091 : runLater.sl.v1091 c i arg6 xt fh fs0 hrows = asRow (runLater.sl.dma153 c i xt fh hrows) := load_second arg6 0 1 (by decide) rfl rfl rfl
theorem l_v1112 : runLater.sl.v1112 c i arg6 xt fh fs0 hrows = asRow (runLater.sl.dma156 c i xt fh hrows) := load_second arg6 1 0 (by decide) rfl rfl rfl
theorem l_v1133 : runLater.sl.v1133 c i arg6 xt fh fs0 hrows = asRow (runLater.sl.dma159 c i xt fh hrows) := load_second arg6 0 1 (by decide) rfl rfl rfl
theorem l_v1154 : runLater.sl.v1154 c i arg6 xt fh fs0 hrows = asRow (runLater.sl.dma162 c i xt fh hrows) := load_second arg6 1 0 (by decide) rfl rfl rfl
theorem l_v1175 : runLater.sl.v1175 c i arg6 xt fh fs0 hrows = asRow (runLater.sl.dma165 c i xt fh hrows) := load_second arg6 0 1 (by decide) rfl rfl rfl
theorem l_v1196 : runLater.sl.v1196 c i arg6 xt fh fs0 hrows = asRow (runLater.sl.dma168 c i xt fh hrows) := load_second arg6 1 0 (by decide) rfl rfl rfl
theorem l_v1217 : runLater.sl.v1217 c i arg6 xt fh fs0 hrows = asRow (runLater.sl.dma171 c i xt fh hrows) := load_second arg6 0 1 (by decide) rfl rfl rfl
theorem l_v122 : runLater.sl.v122 c i arg6 xt fh fs0 hrows = asRow (runLater.sl.dma15 c i xt fh hrows) := load_second arg6 0 1 (by decide) rfl rfl rfl
theorem l_v1238 : runLater.sl.v1238 c i arg6 xt fh fs0 hrows = asRow (runLater.sl.dma174 c i xt fh hrows) := load_second arg6 1 0 (by decide) rfl rfl rfl
theorem l_v1259 : runLater.sl.v1259 c i arg6 xt fh fs0 hrows = asRow (runLater.sl.dma177 c i xt fh hrows) := load_second arg6 0 1 (by decide) rfl rfl rfl
theorem l_v1280 : runLater.sl.v1280 c i arg6 xt fh fs0 hrows = asRow (runLater.sl.dma180 c i xt fh hrows) := load_second arg6 1 0 (by decide) rfl rfl rfl
theorem l_v1301 : runLater.sl.v1301 c i arg6 xt fh fs0 hrows = asRow (runLater.sl.dma183 c i xt fh hrows) := load_second arg6 0 1 (by decide) rfl rfl rfl
theorem l_v1322 : runLater.sl.v1322 c i arg6 xt fh fs0 hrows = asRow (runLater.sl.dma186 c i xt fh hrows) := load_second arg6 1 0 (by decide) rfl rfl rfl
theorem l_v1343 : runLater.sl.v1343 c i arg6 xt fh fs0 hrows = asRow (runLater.sl.dma189 c i xt fh hrows) := load_second arg6 0 1 (by decide) rfl rfl rfl
theorem l_v1364 : runLater.sl.v1364 c i arg6 xt fh fs0 hrows = asRow (runLater.sl.dma192 c i xt fh hrows) := load_second arg6 1 0 (by decide) rfl rfl rfl
theorem l_v1386 : runLater.sl.v1386 c i arg6 xt fh fs0 hrows = asRow (runLater.sl.dma195 c i xt fh hrows) := load_second arg6 0 1 (by decide) rfl rfl rfl
theorem l_v1407 : runLater.sl.v1407 c i arg6 xt fh fs0 hrows = asRow (runLater.sl.dma198 c i xt fh hrows) := load_second arg6 1 0 (by decide) rfl rfl rfl
theorem l_v1428 : runLater.sl.v1428 c i arg6 xt fh fs0 hrows = asRow (runLater.sl.dma201 c i xt fh hrows) := load_second arg6 0 1 (by decide) rfl rfl rfl
theorem l_v143 : runLater.sl.v143 c i arg6 xt fh fs0 hrows = asRow (runLater.sl.dma18 c i xt fh hrows) := load_second arg6 1 0 (by decide) rfl rfl rfl
theorem l_v1449 : runLater.sl.v1449 c i arg6 xt fh fs0 hrows = asRow (runLater.sl.dma204 c i xt fh hrows) := load_second arg6 1 0 (by decide) rfl rfl rfl
theorem l_v1470 : runLater.sl.v1470 c i arg6 xt fh fs0 hrows = asRow (runLater.sl.dma207 c i xt fh hrows) := load_second arg6 0 1 (by decide) rfl rfl rfl
theorem l_v1491 : runLater.sl.v1491 c i arg6 xt fh fs0 hrows = asRow (runLater.sl.dma210 c i xt fh hrows) := load_second arg6 1 0 (by decide) rfl rfl rfl
theorem l_v1512 : runLater.sl.v1512 c i arg6 xt fh fs0 hrows = asRow (runLater.sl.dma213 c i xt fh hrows) := load_second arg6 0 1 (by decide) rfl rfl rfl
theorem l_v1533 : runLater.sl.v1533 c i arg6 xt fh fs0 hrows = asRow (runLater.sl.dma216 c i xt fh hrows) := load_second arg6 1 0 (by decide) rfl rfl rfl
theorem l_v1554 : runLater.sl.v1554 c i arg6 xt fh fs0 hrows = asRow (runLater.sl.dma219 c i xt fh hrows) := load_second arg6 0 1 (by decide) rfl rfl rfl
theorem l_v1575 : runLater.sl.v1575 c i arg6 xt fh fs0 hrows = asRow (runLater.sl.dma222 c i xt fh hrows) := load_second arg6 1 0 (by decide) rfl rfl rfl
theorem l_v1596 : runLater.sl.v1596 c i arg6 xt fh fs0 hrows = asRow (runLater.sl.dma225 c i xt fh hrows) := load_second arg6 0 1 (by decide) rfl rfl rfl
theorem l_v1617 : runLater.sl.v1617 c i arg6 xt fh fs0 hrows = asRow (runLater.sl.dma228 c i xt fh hrows) := load_second arg6 1 0 (by decide) rfl rfl rfl
theorem l_v1638 : runLater.sl.v1638 c i arg6 xt fh fs0 hrows = asRow (runLater.sl.dma231 c i xt fh hrows) := load_second arg6 0 1 (by decide) rfl rfl rfl
theorem l_v164 : runLater.sl.v164 c i arg6 xt fh fs0 hrows = asRow (runLater.sl.dma21 c i xt fh hrows) := load_second arg6 0 1 (by decide) rfl rfl rfl
theorem l_v1659 : runLater.sl.v1659 c i arg6 xt fh fs0 hrows = asRow (runLater.sl.dma234 c i xt fh hrows) := load_second arg6 1 0 (by decide) rfl rfl rfl
theorem l_v1680 : runLater.sl.v1680 c i arg6 xt fh fs0 hrows = asRow (runLater.sl.dma237 c i xt fh hrows) := load_second arg6 0 1 (by decide) rfl rfl rfl
theorem l_v1701 : runLater.sl.v1701 c i arg6 xt fh fs0 hrows = asRow (runLater.sl.dma240 c i xt fh hrows) := load_second arg6 1 0 (by decide) rfl rfl rfl
theorem l_v1723 : runLater.sl.v1723 c i arg6 xt fh fs0 hrows = asRow (runLater.sl.dma243 c i xt fh hrows) := load_second arg6 0 1 (by decide) rfl rfl rfl
theorem l_v1744 : runLater.sl.v1744 c i arg6 xt fh fs0 hrows = asRow (runLater.sl.dma246 c i xt fh hrows) := load_second arg6 1 0 (by decide) rfl rfl rfl
theorem l_v1765 : runLater.sl.v1765 c i arg6 xt fh fs0 hrows = asRow (runLater.sl.dma249 c i xt fh hrows) := load_second arg6 0 1 (by decide) rfl rfl rfl
theorem l_v1786 : runLater.sl.v1786 c i arg6 xt fh fs0 hrows = asRow (runLater.sl.dma252 c i xt fh hrows) := load_second arg6 1 0 (by decide) rfl rfl rfl
theorem l_v1807 : runLater.sl.v1807 c i arg6 xt fh fs0 hrows = asRow (runLater.sl.dma255 c i xt fh hrows) := load_second arg6 0 1 (by decide) rfl rfl rfl
theorem l_v1828 : runLater.sl.v1828 c i arg6 xt fh fs0 hrows = asRow (runLater.sl.dma258 c i xt fh hrows) := load_second arg6 1 0 (by decide) rfl rfl rfl
theorem l_v1849 : runLater.sl.v1849 c i arg6 xt fh fs0 hrows = asRow (runLater.sl.dma261 c i xt fh hrows) := load_second arg6 0 1 (by decide) rfl rfl rfl
theorem l_v185 : runLater.sl.v185 c i arg6 xt fh fs0 hrows = asRow (runLater.sl.dma24 c i xt fh hrows) := load_second arg6 1 0 (by decide) rfl rfl rfl
theorem l_v1870 : runLater.sl.v1870 c i arg6 xt fh fs0 hrows = asRow (runLater.sl.dma264 c i xt fh hrows) := load_second arg6 1 0 (by decide) rfl rfl rfl
theorem l_v1891 : runLater.sl.v1891 c i arg6 xt fh fs0 hrows = asRow (runLater.sl.dma267 c i xt fh hrows) := load_second arg6 0 1 (by decide) rfl rfl rfl
theorem l_v1912 : runLater.sl.v1912 c i arg6 xt fh fs0 hrows = asRow (runLater.sl.dma270 c i xt fh hrows) := load_second arg6 1 0 (by decide) rfl rfl rfl
theorem l_v1933 : runLater.sl.v1933 c i arg6 xt fh fs0 hrows = asRow (runLater.sl.dma273 c i xt fh hrows) := load_second arg6 0 1 (by decide) rfl rfl rfl
theorem l_v1954 : runLater.sl.v1954 c i arg6 xt fh fs0 hrows = asRow (runLater.sl.dma276 c i xt fh hrows) := load_second arg6 1 0 (by decide) rfl rfl rfl
theorem l_v1975 : runLater.sl.v1975 c i arg6 xt fh fs0 hrows = asRow (runLater.sl.dma279 c i xt fh hrows) := load_second arg6 0 1 (by decide) rfl rfl rfl
theorem l_v1996 : runLater.sl.v1996 c i arg6 xt fh fs0 hrows = asRow (runLater.sl.dma282 c i xt fh hrows) := load_second arg6 1 0 (by decide) rfl rfl rfl
theorem l_v2017 : runLater.sl.v2017 c i arg6 xt fh fs0 hrows = asRow (runLater.sl.dma285 c i xt fh hrows) := load_second arg6 0 1 (by decide) rfl rfl rfl
theorem l_v2038 : runLater.sl.v2038 c i arg6 xt fh fs0 hrows = asRow (runLater.sl.dma288 c i xt fh hrows) := load_second arg6 1 0 (by decide) rfl rfl rfl
theorem l_v206 : runLater.sl.v206 c i arg6 xt fh fs0 hrows = asRow (runLater.sl.dma27 c i xt fh hrows) := load_second arg6 0 1 (by decide) rfl rfl rfl
theorem l_v2060 : runLater.sl.v2060 c i arg6 xt fh fs0 hrows = asRow (runLater.sl.dma291 c i xt fh hrows) := load_second arg6 0 1 (by decide) rfl rfl rfl
theorem l_v2081 : runLater.sl.v2081 c i arg6 xt fh fs0 hrows = asRow (runLater.sl.dma294 c i xt fh hrows) := load_second arg6 1 0 (by decide) rfl rfl rfl
theorem l_v2102 : runLater.sl.v2102 c i arg6 xt fh fs0 hrows = asRow (runLater.sl.dma297 c i xt fh hrows) := load_second arg6 0 1 (by decide) rfl rfl rfl
theorem l_v2123 : runLater.sl.v2123 c i arg6 xt fh fs0 hrows = asRow (runLater.sl.dma300 c i xt fh hrows) := load_second arg6 1 0 (by decide) rfl rfl rfl
theorem l_v2144 : runLater.sl.v2144 c i arg6 xt fh fs0 hrows = asRow (runLater.sl.dma303 c i xt fh hrows) := load_second arg6 0 1 (by decide) rfl rfl rfl
theorem l_v2165 : runLater.sl.v2165 c i arg6 xt fh fs0 hrows = asRow (runLater.sl.dma306 c i xt fh hrows) := load_second arg6 1 0 (by decide) rfl rfl rfl
theorem l_v2186 : runLater.sl.v2186 c i arg6 xt fh fs0 hrows = asRow (runLater.sl.dma309 c i xt fh hrows) := load_second arg6 0 1 (by decide) rfl rfl rfl
theorem l_v2207 : runLater.sl.v2207 c i arg6 xt fh fs0 hrows = asRow (runLater.sl.dma312 c i xt fh hrows) := load_second arg6 1 0 (by decide) rfl rfl rfl
theorem l_v2228 : runLater.sl.v2228 c i arg6 xt fh fs0 hrows = asRow (runLater.sl.dma315 c i xt fh hrows) := load_second arg6 0 1 (by decide) rfl rfl rfl
theorem l_v2249 : runLater.sl.v2249 c i arg6 xt fh fs0 hrows = asRow (runLater.sl.dma318 c i xt fh hrows) := load_second arg6 1 0 (by decide) rfl rfl rfl
theorem l_v227 : runLater.sl.v227 c i arg6 xt fh fs0 hrows = asRow (runLater.sl.dma30 c i xt fh hrows) := load_second arg6 1 0 (by decide) rfl rfl rfl
theorem l_v2270 : runLater.sl.v2270 c i arg6 xt fh fs0 hrows = asRow (runLater.sl.dma321 c i xt fh hrows) := load_second arg6 0 1 (by decide) rfl rfl rfl
theorem l_v2291 : runLater.sl.v2291 c i arg6 xt fh fs0 hrows = asRow (runLater.sl.dma324 c i xt fh hrows) := load_second arg6 1 0 (by decide) rfl rfl rfl
theorem l_v2312 : runLater.sl.v2312 c i arg6 xt fh fs0 hrows = asRow (runLater.sl.dma327 c i xt fh hrows) := load_second arg6 0 1 (by decide) rfl rfl rfl
theorem l_v2333 : runLater.sl.v2333 c i arg6 xt fh fs0 hrows = asRow (runLater.sl.dma330 c i xt fh hrows) := load_second arg6 1 0 (by decide) rfl rfl rfl
theorem l_v2354 : runLater.sl.v2354 c i arg6 xt fh fs0 hrows = asRow (runLater.sl.dma333 c i xt fh hrows) := load_second arg6 0 1 (by decide) rfl rfl rfl
theorem l_v2375 : runLater.sl.v2375 c i arg6 xt fh fs0 hrows = asRow (runLater.sl.dma336 c i xt fh hrows) := load_second arg6 1 0 (by decide) rfl rfl rfl
theorem l_v2397 : runLater.sl.v2397 c i arg6 xt fh fs0 hrows = asRow (runLater.sl.dma339 c i xt fh hrows) := load_second arg6 0 1 (by decide) rfl rfl rfl
theorem l_v2418 : runLater.sl.v2418 c i arg6 xt fh fs0 hrows = asRow (runLater.sl.dma342 c i xt fh hrows) := load_second arg6 1 0 (by decide) rfl rfl rfl
theorem l_v2439 : runLater.sl.v2439 c i arg6 xt fh fs0 hrows = asRow (runLater.sl.dma345 c i xt fh hrows) := load_second arg6 0 1 (by decide) rfl rfl rfl
theorem l_v2460 : runLater.sl.v2460 c i arg6 xt fh fs0 hrows = asRow (runLater.sl.dma348 c i xt fh hrows) := load_second arg6 1 0 (by decide) rfl rfl rfl
theorem l_v248 : runLater.sl.v248 c i arg6 xt fh fs0 hrows = asRow (runLater.sl.dma33 c i xt fh hrows) := load_second arg6 0 1 (by decide) rfl rfl rfl
theorem l_v2481 : runLater.sl.v2481 c i arg6 xt fh fs0 hrows = asRow (runLater.sl.dma351 c i xt fh hrows) := load_second arg6 0 1 (by decide) rfl rfl rfl
theorem l_v2502 : runLater.sl.v2502 c i arg6 xt fh fs0 hrows = asRow (runLater.sl.dma354 c i xt fh hrows) := load_second arg6 1 0 (by decide) rfl rfl rfl
theorem l_v2523 : runLater.sl.v2523 c i arg6 xt fh fs0 hrows = asRow (runLater.sl.dma357 c i xt fh hrows) := load_second arg6 0 1 (by decide) rfl rfl rfl
theorem l_v2544 : runLater.sl.v2544 c i arg6 xt fh fs0 hrows = asRow (runLater.sl.dma360 c i xt fh hrows) := load_second arg6 1 0 (by decide) rfl rfl rfl
theorem l_v2565 : runLater.sl.v2565 c i arg6 xt fh fs0 hrows = asRow (runLater.sl.dma363 c i xt fh hrows) := load_second arg6 0 1 (by decide) rfl rfl rfl
theorem l_v2586 : runLater.sl.v2586 c i arg6 xt fh fs0 hrows = asRow (runLater.sl.dma366 c i xt fh hrows) := load_second arg6 1 0 (by decide) rfl rfl rfl
theorem l_v2607 : runLater.sl.v2607 c i arg6 xt fh fs0 hrows = asRow (runLater.sl.dma369 c i xt fh hrows) := load_second arg6 0 1 (by decide) rfl rfl rfl
theorem l_v2628 : runLater.sl.v2628 c i arg6 xt fh fs0 hrows = asRow (runLater.sl.dma372 c i xt fh hrows) := load_second arg6 1 0 (by decide) rfl rfl rfl
theorem l_v2649 : runLater.sl.v2649 c i arg6 xt fh fs0 hrows = asRow (runLater.sl.dma375 c i xt fh hrows) := load_second arg6 0 1 (by decide) rfl rfl rfl
theorem l_v2670 : runLater.sl.v2670 c i arg6 xt fh fs0 hrows = asRow (runLater.sl.dma378 c i xt fh hrows) := load_second arg6 1 0 (by decide) rfl rfl rfl
theorem l_v269 : runLater.sl.v269 c i arg6 xt fh fs0 hrows = asRow (runLater.sl.dma36 c i xt fh hrows) := load_second arg6 1 0 (by decide) rfl rfl rfl
theorem l_v2691 : runLater.sl.v2691 c i arg6 xt fh fs0 hrows = asRow (runLater.sl.dma381 c i xt fh hrows) := load_second arg6 0 1 (by decide) rfl rfl rfl
theorem l_v2702 : runLater.sl.v2702 c i arg6 xt fh fs0 hrows = asRow (runLater.sl.dma384 c i xt fh hrows) := load_top arg6 1 rfl rfl
theorem l_v290 : runLater.sl.v290 c i arg6 xt fh fs0 hrows = asRow (runLater.sl.dma39 c i xt fh hrows) := load_second arg6 0 1 (by decide) rfl rfl rfl
theorem l_v311 : runLater.sl.v311 c i arg6 xt fh fs0 hrows = asRow (runLater.sl.dma42 c i xt fh hrows) := load_second arg6 1 0 (by decide) rfl rfl rfl
theorem l_v332 : runLater.sl.v332 c i arg6 xt fh fs0 hrows = asRow (runLater.sl.dma45 c i xt fh hrows) := load_second arg6 0 1 (by decide) rfl rfl rfl
theorem l_v353 : runLater.sl.v353 c i arg6 xt fh fs0 hrows = asRow (runLater.sl.dma48 c i xt fh hrows) := load_second arg6 1 0 (by decide) rfl rfl rfl
theorem l_v375 : runLater.sl.v375 c i arg6 xt fh fs0 hrows = asRow (runLater.sl.dma51 c i xt fh hrows) := load_second arg6 0 1 (by decide) rfl rfl rfl
theorem l_v38 : runLater.sl.v38 c i arg6 xt fh fs0 hrows = asRow (runLater.sl.dma5 c i xt fh hrows) := load_second arg6 0 1 (by decide) rfl rfl rfl
theorem l_v396 : runLater.sl.v396 c i arg6 xt fh fs0 hrows = asRow (runLater.sl.dma54 c i xt fh hrows) := load_second arg6 1 0 (by decide) rfl rfl rfl
theorem l_v417 : runLater.sl.v417 c i arg6 xt fh fs0 hrows = asRow (runLater.sl.dma57 c i xt fh hrows) := load_second arg6 0 1 (by decide) rfl rfl rfl
theorem l_v438 : runLater.sl.v438 c i arg6 xt fh fs0 hrows = asRow (runLater.sl.dma60 c i xt fh hrows) := load_second arg6 1 0 (by decide) rfl rfl rfl
theorem l_v459 : runLater.sl.v459 c i arg6 xt fh fs0 hrows = asRow (runLater.sl.dma63 c i xt fh hrows) := load_second arg6 0 1 (by decide) rfl rfl rfl
theorem l_v480 : runLater.sl.v480 c i arg6 xt fh fs0 hrows = asRow (runLater.sl.dma66 c i xt fh hrows) := load_second arg6 1 0 (by decide) rfl rfl rfl
theorem l_v501 : runLater.sl.v501 c i arg6 xt fh fs0 hrows = asRow (runLater.sl.dma69 c i xt fh hrows) := load_second arg6 0 1 (by decide) rfl rfl rfl
theorem l_v522 : runLater.sl.v522 c i arg6 xt fh fs0 hrows = asRow (runLater.sl.dma72 c i xt fh hrows) := load_second arg6 1 0 (by decide) rfl rfl rfl
theorem l_v543 : runLater.sl.v543 c i arg6 xt fh fs0 hrows = asRow (runLater.sl.dma75 c i xt fh hrows) := load_second arg6 0 1 (by decide) rfl rfl rfl
theorem l_v564 : runLater.sl.v564 c i arg6 xt fh fs0 hrows = asRow (runLater.sl.dma78 c i xt fh hrows) := load_second arg6 1 0 (by decide) rfl rfl rfl
theorem l_v585 : runLater.sl.v585 c i arg6 xt fh fs0 hrows = asRow (runLater.sl.dma81 c i xt fh hrows) := load_second arg6 0 1 (by decide) rfl rfl rfl
theorem l_v59 : runLater.sl.v59 c i arg6 xt fh fs0 hrows = asRow (runLater.sl.dma6 c i xt fh hrows) := load_second arg6 1 0 (by decide) rfl rfl rfl
theorem l_v606 : runLater.sl.v606 c i arg6 xt fh fs0 hrows = asRow (runLater.sl.dma84 c i xt fh hrows) := load_second arg6 1 0 (by decide) rfl rfl rfl
theorem l_v627 : runLater.sl.v627 c i arg6 xt fh fs0 hrows = asRow (runLater.sl.dma87 c i xt fh hrows) := load_second arg6 0 1 (by decide) rfl rfl rfl
theorem l_v648 : runLater.sl.v648 c i arg6 xt fh fs0 hrows = asRow (runLater.sl.dma90 c i xt fh hrows) := load_second arg6 1 0 (by decide) rfl rfl rfl
theorem l_v669 : runLater.sl.v669 c i arg6 xt fh fs0 hrows = asRow (runLater.sl.dma93 c i xt fh hrows) := load_second arg6 0 1 (by decide) rfl rfl rfl
theorem l_v690 : runLater.sl.v690 c i arg6 xt fh fs0 hrows = asRow (runLater.sl.dma96 c i xt fh hrows) := load_second arg6 1 0 (by decide) rfl rfl rfl
theorem l_v712 : runLater.sl.v712 c i arg6 xt fh fs0 hrows = asRow (runLater.sl.dma99 c i xt fh hrows) := load_second arg6 0 1 (by decide) rfl rfl rfl
theorem l_v733 : runLater.sl.v733 c i arg6 xt fh fs0 hrows = asRow (runLater.sl.dma102 c i xt fh hrows) := load_second arg6 1 0 (by decide) rfl rfl rfl
theorem l_v754 : runLater.sl.v754 c i arg6 xt fh fs0 hrows = asRow (runLater.sl.dma105 c i xt fh hrows) := load_second arg6 0 1 (by decide) rfl rfl rfl
theorem l_v775 : runLater.sl.v775 c i arg6 xt fh fs0 hrows = asRow (runLater.sl.dma108 c i xt fh hrows) := load_second arg6 1 0 (by decide) rfl rfl rfl
theorem l_v796 : runLater.sl.v796 c i arg6 xt fh fs0 hrows = asRow (runLater.sl.dma111 c i xt fh hrows) := load_second arg6 0 1 (by decide) rfl rfl rfl
theorem l_v80 : runLater.sl.v80 c i arg6 xt fh fs0 hrows = asRow (runLater.sl.dma9 c i xt fh hrows) := load_second arg6 0 1 (by decide) rfl rfl rfl
theorem l_v817 : runLater.sl.v817 c i arg6 xt fh fs0 hrows = asRow (runLater.sl.dma114 c i xt fh hrows) := load_second arg6 1 0 (by decide) rfl rfl rfl
theorem l_v838 : runLater.sl.v838 c i arg6 xt fh fs0 hrows = asRow (runLater.sl.dma117 c i xt fh hrows) := load_second arg6 0 1 (by decide) rfl rfl rfl
theorem l_v859 : runLater.sl.v859 c i arg6 xt fh fs0 hrows = asRow (runLater.sl.dma120 c i xt fh hrows) := load_second arg6 1 0 (by decide) rfl rfl rfl
theorem l_v880 : runLater.sl.v880 c i arg6 xt fh fs0 hrows = asRow (runLater.sl.dma123 c i xt fh hrows) := load_second arg6 0 1 (by decide) rfl rfl rfl
theorem l_v901 : runLater.sl.v901 c i arg6 xt fh fs0 hrows = asRow (runLater.sl.dma126 c i xt fh hrows) := load_second arg6 1 0 (by decide) rfl rfl rfl
theorem l_v922 : runLater.sl.v922 c i arg6 xt fh fs0 hrows = asRow (runLater.sl.dma129 c i xt fh hrows) := load_second arg6 0 1 (by decide) rfl rfl rfl
theorem l_v943 : runLater.sl.v943 c i arg6 xt fh fs0 hrows = asRow (runLater.sl.dma132 c i xt fh hrows) := load_second arg6 1 0 (by decide) rfl rfl rfl
theorem l_v964 : runLater.sl.v964 c i arg6 xt fh fs0 hrows = asRow (runLater.sl.dma135 c i xt fh hrows) := load_second arg6 0 1 (by decide) rfl rfl rfl
theorem l_v985 : runLater.sl.v985 c i arg6 xt fh fs0 hrows = asRow (runLater.sl.dma138 c i xt fh hrows) := load_second arg6 1 0 (by decide) rfl rfl rfl
theorem e_r_111 : runLater.sl.r_111 c arg3 harg3 x0 = blockRow x0 3 := block_load arg3 harg3 3 rfl x0
theorem e_r_142 : runLater.sl.r_142 c arg3 harg3 x0 = blockRow x0 4 := block_load arg3 harg3 4 rfl x0
theorem e_r_179 : runLater.sl.r_179 c arg3 harg3 x0 = blockRow x0 5 := block_load arg3 harg3 5 rfl x0
theorem e_r_81 : runLater.sl.r_81 c arg3 harg3 x0 = blockRow x0 2 := block_load arg3 harg3 2 rfl x0
theorem row_0 : View.readAt (Elt F) arg3.view (Rect.unit (s := S8x512) ![0, 0] ![1, 512] inb_S8x512_S1x512_0_0).toLoadRect (harg3.unread x0) = blockRow x0 0 := block_load arg3 harg3 0 rfl x0
theorem row_0' : View.readAt (Elt F) arg3.view (Rect.unit (s := S8x512) ![0, 0] S1x512.size inb_S8x512_S1x512_0_0).toLoadRect (harg3.unread x0) = blockRow x0 0 := block_load arg3 harg3 0 rfl x0
theorem row_1 : View.readAt (Elt F) arg3.view (Rect.unit (s := S8x512) ![1, 0] ![1, 512] inb_S8x512_S1x512_1_0).toLoadRect (harg3.unread x0) = blockRow x0 1 := block_load arg3 harg3 1 rfl x0
theorem row_1' : View.readAt (Elt F) arg3.view (Rect.unit (s := S8x512) ![1, 0] S1x512.size inb_S8x512_S1x512_1_0).toLoadRect (harg3.unread x0) = blockRow x0 1 := block_load arg3 harg3 1 rfl x0
theorem row_2 : View.readAt (Elt F) arg3.view (Rect.unit (s := S8x512) ![2, 0] ![1, 512] inb_S8x512_S1x512_2_0).toLoadRect (harg3.unread x0) = blockRow x0 2 := block_load arg3 harg3 2 rfl x0
theorem row_2' : View.readAt (Elt F) arg3.view (Rect.unit (s := S8x512) ![2, 0] S1x512.size inb_S8x512_S1x512_2_0).toLoadRect (harg3.unread x0) = blockRow x0 2 := block_load arg3 harg3 2 rfl x0
theorem row_3 : View.readAt (Elt F) arg3.view (Rect.unit (s := S8x512) ![3, 0] ![1, 512] inb_S8x512_S1x512_3_0).toLoadRect (harg3.unread x0) = blockRow x0 3 := block_load arg3 harg3 3 rfl x0
theorem row_3' : View.readAt (Elt F) arg3.view (Rect.unit (s := S8x512) ![3, 0] S1x512.size inb_S8x512_S1x512_3_0).toLoadRect (harg3.unread x0) = blockRow x0 3 := block_load arg3 harg3 3 rfl x0
theorem row_4 : View.readAt (Elt F) arg3.view (Rect.unit (s := S8x512) ![4, 0] ![1, 512] inb_S8x512_S1x512_4_0).toLoadRect (harg3.unread x0) = blockRow x0 4 := block_load arg3 harg3 4 rfl x0
theorem row_4' : View.readAt (Elt F) arg3.view (Rect.unit (s := S8x512) ![4, 0] S1x512.size inb_S8x512_S1x512_4_0).toLoadRect (harg3.unread x0) = blockRow x0 4 := block_load arg3 harg3 4 rfl x0
theorem row_5 : View.readAt (Elt F) arg3.view (Rect.unit (s := S8x512) ![5, 0] ![1, 512] inb_S8x512_S1x512_5_0).toLoadRect (harg3.unread x0) = blockRow x0 5 := block_load arg3 harg3 5 rfl x0
theorem row_5' : View.readAt (Elt F) arg3.view (Rect.unit (s := S8x512) ![5, 0] S1x512.size inb_S8x512_S1x512_5_0).toLoadRect (harg3.unread x0) = blockRow x0 5 := block_load arg3 harg3 5 rfl x0
theorem row_6 : View.readAt (Elt F) arg3.view (Rect.unit (s := S8x512) ![6, 0] ![1, 512] inb_S8x512_S1x512_6_0).toLoadRect (harg3.unread x0) = blockRow x0 6 := block_load arg3 harg3 6 rfl x0
theorem row_6' : View.readAt (Elt F) arg3.view (Rect.unit (s := S8x512) ![6, 0] S1x512.size inb_S8x512_S1x512_6_0).toLoadRect (harg3.unread x0) = blockRow x0 6 := block_load arg3 harg3 6 rfl x0
theorem row_7 : View.readAt (Elt F) arg3.view (Rect.unit (s := S8x512) ![7, 0] ![1, 512] inb_S8x512_S1x512_7_0).toLoadRect (harg3.unread x0) = blockRow x0 7 := block_load arg3 harg3 7 rfl x0
theorem row_7' : View.readAt (Elt F) arg3.view (Rect.unit (s := S8x512) ![7, 0] S1x512.size inb_S8x512_S1x512_7_0).toLoadRect (harg3.unread x0) = blockRow x0 7 := block_load arg3 harg3 7 rfl x0
theorem e_r_3 : runLater.sl.r_3 c i arg3 harg3 arg6 xt x0 fh fs0 hrows = pmax (blockRow x0 0) (asRow (arrRow c fh (word c i xt (xfer 0 0)) (word_lt c i xt hrows (xfer 0 0)))) := by
  unfold runLater.sl.r_3
  simp only [pay5_eq, row_0, row_0', l_v38, d_dma5]
theorem e_r_4 : runLater.sl.r_4 c i arg3 harg3 arg6 xt x0 fh fs0 hrows = addf (blockRow x0 0) (asRow (arrRow c fh (word c i xt (xfer 0 1)) (word_lt c i xt hrows (xfer 0 1)))) := by
  unfold runLater.sl.r_4
  simp only [pay6_eq, row_0, row_0', l_v59, d_dma6]
theorem e_r_7 : runLater.sl.r_7 c i arg3 harg3 arg6 xt x0 fh fs0 hrows = pmax (blockRow x0 0) (asRow (arrRow c fh (word c i xt (xfer 0 1)) (word_lt c i xt hrows (xfer 0 1)))) := by
  unfold runLater.sl.r_7
  simp only [pay7_eq, e_r_4, smax_addf]
theorem e_r_8 : runLater.sl.r_8 c i arg3 harg3 arg6 xt x0 fh fs0 hrows = pmax (blockRow x0 0) (asRow (arrRow c fh (word c i xt (xfer 0 2)) (word_lt c i xt hrows (xfer 0 2)))) := by
  unfold runLater.sl.r_8
  simp only [pay8_eq, row_0, row_0', l_v80, d_dma9]
theorem e_r_10 : runLater.sl.r_10 c i arg3 harg3 arg6 xt x0 fh fs0 hrows = pmax (blockRow x0 0) (asRow (arrRow c fh (word c i xt (xfer 0 3)) (word_lt c i xt hrows (xfer 0 3)))) := by
  unfold runLater.sl.r_10
  simp only [pay9_eq, row_0, row_0', l_v101, d_dma12]
theorem e_r_11 : runLater.sl.r_11 c i arg3 harg3 arg6 xt x0 fh fs0 hrows = addf (blockRow x0 0) (asRow (arrRow c fh (word c i xt (xfer 0 4)) (word_lt c i xt hrows (xfer 0 4)))) := by
  unfold runLater.sl.r_11
  simp only [pay10_eq, row_0, row_0', l_v122, d_dma15]
theorem e_r_14 : runLater.sl.r_14 c i arg3 harg3 arg6 xt x0 fh fs0 hrows = pmax (blockRow x0 0) (asRow (arrRow c fh (word c i xt (xfer 0 4)) (word_lt c i xt hrows (xfer 0 4)))) := by
  unfold runLater.sl.r_14
  simp only [pay11_eq, e_r_11, smax_addf]
theorem e_r_15 : runLater.sl.r_15 c i arg3 harg3 arg6 xt x0 fh fs0 hrows = pmax (blockRow x0 0) (asRow (arrRow c fh (word c i xt (xfer 0 5)) (word_lt c i xt hrows (xfer 0 5)))) := by
  unfold runLater.sl.r_15
  simp only [pay12_eq, row_0, row_0', l_v143, d_dma18]
theorem e_r_17 : runLater.sl.r_17 c i arg3 harg3 arg6 xt x0 fh fs0 hrows = pmax (blockRow x0 0) (asRow (arrRow c fh (word c i xt (xfer 0 6)) (word_lt c i xt hrows (xfer 0 6)))) := by
  unfold runLater.sl.r_17
  simp only [pay13_eq, row_0, row_0', l_v164, d_dma21]
theorem e_r_18 : runLater.sl.r_18 c i arg3 harg3 arg6 xt x0 fh fs0 hrows = addf (blockRow x0 0) (asRow (arrRow c fh (word c i xt (xfer 0 7)) (word_lt c i xt hrows (xfer 0 7)))) := by
  unfold runLater.sl.r_18
  simp only [pay14_eq, row_0, row_0', l_v185, d_dma24]
theorem e_r_21 : runLater.sl.r_21 c i arg3 harg3 arg6 xt x0 fh fs0 hrows = pmax (blockRow x0 0) (asRow (arrRow c fh (word c i xt (xfer 0 7)) (word_lt c i xt hrows (xfer 0 7)))) := by
  unfold runLater.sl.r_21
  simp only [pay15_eq, e_r_18, smax_addf]
theorem e_r_22 : runLater.sl.r_22 c i arg3 harg3 arg6 xt x0 fh fs0 hrows = pmax (blockRow x0 0) (asRow (arrRow c fh (word c i xt (xfer 0 8)) (word_lt c i xt hrows (xfer 0 8)))) := by
  unfold runLater.sl.r_22
  simp only [pay16_eq, row_0, row_0', l_v206, d_dma27]
theorem e_r_24 : runLater.sl.r_24 c i arg3 harg3 arg6 xt x0 fh fs0 hrows = pmax (blockRow x0 0) (asRow (arrRow c fh (word c i xt (xfer 0 9)) (word_lt c i xt hrows (xfer 0 9)))) := by
  unfold runLater.sl.r_24
  simp only [pay17_eq, row_0, row_0', l_v227, d_dma30]
theorem e_r_25 : runLater.sl.r_25 c i arg3 harg3 arg6 xt x0 fh fs0 hrows = addf (blockRow x0 0) (asRow (arrRow c fh (word c i xt (xfer 0 10)) (word_lt c i xt hrows (xfer 0 10)))) := by
  unfold runLater.sl.r_25
  simp only [pay18_eq, row_0, row_0', l_v248, d_dma33]
theorem e_r_28 : runLater.sl.r_28 c i arg3 harg3 arg6 xt x0 fh fs0 hrows = pmax (blockRow x0 0) (asRow (arrRow c fh (word c i xt (xfer 0 10)) (word_lt c i xt hrows (xfer 0 10)))) := by
  unfold runLater.sl.r_28
  simp only [pay19_eq, e_r_25, smax_addf]
theorem e_r_29 : runLater.sl.r_29 c i arg3 harg3 arg6 xt x0 fh fs0 hrows = pmax (blockRow x0 0) (asRow (arrRow c fh (word c i xt (xfer 0 11)) (word_lt c i xt hrows (xfer 0 11)))) := by
  unfold runLater.sl.r_29
  simp only [pay20_eq, row_0, row_0', l_v269, d_dma36]
theorem e_r_31 : runLater.sl.r_31 c i arg3 harg3 arg6 xt x0 fh fs0 hrows = pmax (blockRow x0 0) (asRow (arrRow c fh (word c i xt (xfer 0 12)) (word_lt c i xt hrows (xfer 0 12)))) := by
  unfold runLater.sl.r_31
  simp only [pay21_eq, row_0, row_0', l_v290, d_dma39]
theorem e_r_32 : runLater.sl.r_32 c i arg3 harg3 arg6 xt x0 fh fs0 hrows = addf (blockRow x0 0) (asRow (arrRow c fh (word c i xt (xfer 0 13)) (word_lt c i xt hrows (xfer 0 13)))) := by
  unfold runLater.sl.r_32
  simp only [pay22_eq, row_0, row_0', l_v311, d_dma42]
theorem e_r_35 : runLater.sl.r_35 c i arg3 harg3 arg6 xt x0 fh fs0 hrows = pmax (blockRow x0 0) (asRow (arrRow c fh (word c i xt (xfer 0 13)) (word_lt c i xt hrows (xfer 0 13)))) := by
  unfold runLater.sl.r_35
  simp only [pay23_eq, e_r_32, smax_addf]
theorem e_r_36 : runLater.sl.r_36 c i arg3 harg3 arg6 xt x0 fh fs0 hrows = pmax (blockRow x0 0) (asRow (arrRow c fh (word c i xt (xfer 0 14)) (word_lt c i xt hrows (xfer 0 14)))) := by
  unfold runLater.sl.r_36
  simp only [pay24_eq, row_0, row_0', l_v332, d_dma45]
theorem e_r_38 : runLater.sl.r_38 c i arg3 harg3 arg6 xt x0 fh fs0 hrows = row16 fun k => pmax (blockRow x0 0) (asRow (arrRow c fh (word c i xt (xfer 0 k)) (word_lt c i xt hrows (xfer 0 k)))) := by
  unfold runLater.sl.r_38
  simp only [pay25_eq, e_r_3, e_r_7, e_r_8, e_r_10, e_r_14, e_r_15, e_r_17, e_r_21, e_r_22, e_r_24, e_r_28, e_r_29, e_r_31, e_r_35, e_r_36, row_0, row_0', l_v353, d_dma48]
  exact congrArg row16 (funext fun k => by fin_cases k <;> rfl)
theorem e_r_39 : runLater.sl.r_39 c i arg3 harg3 arg6 xt x0 fh fs0 hrows = addf (blockRow x0 1) (asRow (arrRow c fh (word c i xt (xfer 1 0)) (word_lt c i xt hrows (xfer 1 0)))) := by
  unfold runLater.sl.r_39
  simp only [pay26_eq, row_1, row_1', l_v375, d_dma51]
theorem e_r_41 : runLater.sl.r_41 c i arg3 harg3 arg6 xt x0 fh fs0 hrows = pmax (blockRow x0 1) (asRow (arrRow c fh (word c i xt (xfer 1 0)) (word_lt c i xt hrows (xfer 1 0)))) := by
  unfold runLater.sl.r_41
  simp only [pay27_eq, e_r_39, smax_addf]
theorem e_r_42 : runLater.sl.r_42 c i arg3 harg3 arg6 xt x0 fh fs0 hrows = pmax (blockRow x0 1) (asRow (arrRow c fh (word c i xt (xfer 1 1)) (word_lt c i xt hrows (xfer 1 1)))) := by
  unfold runLater.sl.r_42
  simp only [pay28_eq, row_1, row_1', l_v396, d_dma54]
theorem e_r_45 : runLater.sl.r_45 c i arg3 harg3 arg6 xt x0 fh fs0 hrows = pmax (blockRow x0 1) (asRow (arrRow c fh (word c i xt (xfer 1 2)) (word_lt c i xt hrows (xfer 1 2)))) := by
  unfold runLater.sl.r_45
  simp only [pay29_eq, row_1, row_1', l_v417, d_dma57]
theorem e_r_46 : runLater.sl.r_46 c i arg3 harg3 arg6 xt x0 fh fs0 hrows = addf (blockRow x0 1) (asRow (arrRow c fh (word c i xt (xfer 1 3)) (word_lt c i xt hrows (xfer 1 3)))) := by
  unfold runLater.sl.r_46
  simp only [pay30_eq, row_1, row_1', l_v438, d_dma60]
theorem e_r_48 : runLater.sl.r_48 c i arg3 harg3 arg6 xt x0 fh fs0 hrows = pmax (blockRow x0 1) (asRow (arrRow c fh (word c i xt (xfer 1 3)) (word_lt c i xt hrows (xfer 1 3)))) := by
  unfold runLater.sl.r_48
  simp only [pay31_eq, e_r_46, smax_addf]
theorem e_r_49 : runLater.sl.r_49 c i arg3 harg3 arg6 xt x0 fh fs0 hrows = pmax (blockRow x0 1) (asRow (arrRow c fh (word c i xt (xfer 1 4)) (word_lt c i xt hrows (xfer 1 4)))) := by
  unfold runLater.sl.r_49
  simp only [pay32_eq, row_1, row_1', l_v459, d_dma63]
theorem e_r_52 : runLater.sl.r_52 c i arg3 harg3 arg6 xt x0 fh fs0 hrows = pmax (blockRow x0 1) (asRow (arrRow c fh (word c i xt (xfer 1 5)) (word_lt c i xt hrows (xfer 1 5)))) := by
  unfold runLater.sl.r_52
  simp only [pay33_eq, row_1, row_1', l_v480, d_dma66]
theorem e_r_53 : runLater.sl.r_53 c i arg3 harg3 arg6 xt x0 fh fs0 hrows = addf (blockRow x0 1) (asRow (arrRow c fh (word c i xt (xfer 1 6)) (word_lt c i xt hrows (xfer 1 6)))) := by
  unfold runLater.sl.r_53
  simp only [pay34_eq, row_1, row_1', l_v501, d_dma69]
theorem e_r_55 : runLater.sl.r_55 c i arg3 harg3 arg6 xt x0 fh fs0 hrows = pmax (blockRow x0 1) (asRow (arrRow c fh (word c i xt (xfer 1 6)) (word_lt c i xt hrows (xfer 1 6)))) := by
  unfold runLater.sl.r_55
  simp only [pay35_eq, e_r_53, smax_addf]
theorem e_r_56 : runLater.sl.r_56 c i arg3 harg3 arg6 xt x0 fh fs0 hrows = pmax (blockRow x0 1) (asRow (arrRow c fh (word c i xt (xfer 1 7)) (word_lt c i xt hrows (xfer 1 7)))) := by
  unfold runLater.sl.r_56
  simp only [pay36_eq, row_1, row_1', l_v522, d_dma72]
theorem e_r_59 : runLater.sl.r_59 c i arg3 harg3 arg6 xt x0 fh fs0 hrows = pmax (blockRow x0 1) (asRow (arrRow c fh (word c i xt (xfer 1 8)) (word_lt c i xt hrows (xfer 1 8)))) := by
  unfold runLater.sl.r_59
  simp only [pay37_eq, row_1, row_1', l_v543, d_dma75]
theorem e_r_60 : runLater.sl.r_60 c i arg3 harg3 arg6 xt x0 fh fs0 hrows = addf (blockRow x0 1) (asRow (arrRow c fh (word c i xt (xfer 1 9)) (word_lt c i xt hrows (xfer 1 9)))) := by
  unfold runLater.sl.r_60
  simp only [pay38_eq, row_1, row_1', l_v564, d_dma78]
theorem e_r_62 : runLater.sl.r_62 c i arg3 harg3 arg6 xt x0 fh fs0 hrows = pmax (blockRow x0 1) (asRow (arrRow c fh (word c i xt (xfer 1 9)) (word_lt c i xt hrows (xfer 1 9)))) := by
  unfold runLater.sl.r_62
  simp only [pay39_eq, e_r_60, smax_addf]
theorem e_r_63 : runLater.sl.r_63 c i arg3 harg3 arg6 xt x0 fh fs0 hrows = pmax (blockRow x0 1) (asRow (arrRow c fh (word c i xt (xfer 1 10)) (word_lt c i xt hrows (xfer 1 10)))) := by
  unfold runLater.sl.r_63
  simp only [pay40_eq, row_1, row_1', l_v585, d_dma81]
theorem e_r_66 : runLater.sl.r_66 c i arg3 harg3 arg6 xt x0 fh fs0 hrows = pmax (blockRow x0 1) (asRow (arrRow c fh (word c i xt (xfer 1 11)) (word_lt c i xt hrows (xfer 1 11)))) := by
  unfold runLater.sl.r_66
  simp only [pay41_eq, row_1, row_1', l_v606, d_dma84]
theorem e_r_67 : runLater.sl.r_67 c i arg3 harg3 arg6 xt x0 fh fs0 hrows = addf (blockRow x0 1) (asRow (arrRow c fh (word c i xt (xfer 1 12)) (word_lt c i xt hrows (xfer 1 12)))) := by
  unfold runLater.sl.r_67
  simp only [pay42_eq, row_1, row_1', l_v627, d_dma87]
theorem e_r_69 : runLater.sl.r_69 c i arg3 harg3 arg6 xt x0 fh fs0 hrows = pmax (blockRow x0 1) (asRow (arrRow c fh (word c i xt (xfer 1 12)) (word_lt c i xt hrows (xfer 1 12)))) := by
  unfold runLater.sl.r_69
  simp only [pay43_eq, e_r_67, smax_addf]
theorem e_r_70 : runLater.sl.r_70 c i arg3 harg3 arg6 xt x0 fh fs0 hrows = pmax (blockRow x0 1) (asRow (arrRow c fh (word c i xt (xfer 1 13)) (word_lt c i xt hrows (xfer 1 13)))) := by
  unfold runLater.sl.r_70
  simp only [pay44_eq, row_1, row_1', l_v648, d_dma90]
theorem e_r_73 : runLater.sl.r_73 c i arg3 harg3 arg6 xt x0 fh fs0 hrows = pmax (blockRow x0 1) (asRow (arrRow c fh (word c i xt (xfer 1 14)) (word_lt c i xt hrows (xfer 1 14)))) := by
  unfold runLater.sl.r_73
  simp only [pay45_eq, row_1, row_1', l_v669, d_dma93]
theorem e_r_74 : runLater.sl.r_74 c i arg3 harg3 arg6 xt x0 fh fs0 hrows = addf (blockRow x0 1) (asRow (arrRow c fh (word c i xt (xfer 1 15)) (word_lt c i xt hrows (xfer 1 15)))) := by
  unfold runLater.sl.r_74
  simp only [pay46_eq, row_1, row_1', l_v690, d_dma96]
theorem e_r_76 : runLater.sl.r_76 c i arg3 harg3 arg6 xt x0 fh fs0 hrows = row16 fun k => pmax (blockRow x0 1) (asRow (arrRow c fh (word c i xt (xfer 1 k)) (word_lt c i xt hrows (xfer 1 k)))) := by
  unfold runLater.sl.r_76
  simp only [pay47_eq, e_r_41, e_r_42, e_r_45, e_r_48, e_r_49, e_r_52, e_r_55, e_r_56, e_r_59, e_r_62, e_r_63, e_r_66, e_r_69, e_r_70, e_r_73, e_r_74, smax_addf]
  exact congrArg row16 (funext fun k => by fin_cases k <;> rfl)
theorem e_r_77 : runLater.sl.r_77 c i arg3 harg3 arg6 xt x0 fh fs0 hrows = pmax (blockRow x0 2) (asRow (arrRow c fh (word c i xt (xfer 2 0)) (word_lt c i xt hrows (xfer 2 0)))) := by
  unfold runLater.sl.r_77
  simp only [pay48_eq, row_2, row_2', l_v712, d_dma99]
theorem e_r_80 : runLater.sl.r_80 c i arg3 harg3 arg6 xt x0 fh fs0 hrows = pmax (blockRow x0 2) (asRow (arrRow c fh (word c i xt (xfer 2 1)) (word_lt c i xt hrows (xfer 2 1)))) := by
  unfold runLater.sl.r_80
  simp only [pay49_eq, row_2, row_2', l_v733, d_dma102]
theorem e_r_83 : runLater.sl.r_83 c i arg3 harg3 arg6 xt x0 fh fs0 hrows = pmax (blockRow x0 2) (asRow (arrRow c fh (word c i xt (xfer 2 2)) (word_lt c i xt hrows (xfer 2 2)))) := by
  unfold runLater.sl.r_83
  simp only [pay50_eq, e_r_81, l_v754, d_dma105]
theorem e_r_84 : runLater.sl.r_84 c i arg3 harg3 arg6 xt x0 fh fs0 hrows = pmax (blockRow x0 2) (asRow (arrRow c fh (word c i xt (xfer 2 3)) (word_lt c i xt hrows (xfer 2 3)))) := by
  unfold runLater.sl.r_84
  simp only [pay51_eq, row_2, row_2', l_v775, d_dma108]
theorem e_r_87 : runLater.sl.r_87 c i arg3 harg3 arg6 xt x0 fh fs0 hrows = pmax (blockRow x0 2) (asRow (arrRow c fh (word c i xt (xfer 2 4)) (word_lt c i xt hrows (xfer 2 4)))) := by
  unfold runLater.sl.r_87
  simp only [pay52_eq, row_2, row_2', l_v796, d_dma111]
theorem e_r_89 : runLater.sl.r_89 c i arg3 harg3 arg6 xt x0 fh fs0 hrows = pmax (blockRow x0 2) (asRow (arrRow c fh (word c i xt (xfer 2 5)) (word_lt c i xt hrows (xfer 2 5)))) := by
  unfold runLater.sl.r_89
  simp only [pay53_eq, e_r_81, l_v817, d_dma114]
theorem e_r_90 : runLater.sl.r_90 c i arg3 harg3 arg6 xt x0 fh fs0 hrows = pmax (blockRow x0 2) (asRow (arrRow c fh (word c i xt (xfer 2 6)) (word_lt c i xt hrows (xfer 2 6)))) := by
  unfold runLater.sl.r_90
  simp only [pay54_eq, row_2, row_2', l_v838, d_dma117]
theorem e_r_93 : runLater.sl.r_93 c i arg3 harg3 arg6 xt x0 fh fs0 hrows = pmax (blockRow x0 2) (asRow (arrRow c fh (word c i xt (xfer 2 7)) (word_lt c i xt hrows (xfer 2 7)))) := by
  unfold runLater.sl.r_93
  simp only [pay55_eq, row_2, row_2', l_v859, d_dma120]
theorem e_r_95 : runLater.sl.r_95 c i arg3 harg3 arg6 xt x0 fh fs0 hrows = pmax (blockRow x0 2) (asRow (arrRow c fh (word c i xt (xfer 2 8)) (word_lt c i xt hrows (xfer 2 8)))) := by
  unfold runLater.sl.r_95
  simp only [pay56_eq, e_r_81, l_v880, d_dma123]
theorem e_r_96 : runLater.sl.r_96 c i arg3 harg3 arg6 xt x0 fh fs0 hrows = pmax (blockRow x0 2) (asRow (arrRow c fh (word c i xt (xfer 2 9)) (word_lt c i xt hrows (xfer 2 9)))) := by
  unfold runLater.sl.r_96
  simp only [pay57_eq, row_2, row_2', l_v901, d_dma126]
theorem e_r_99 : runLater.sl.r_99 c i arg3 harg3 arg6 xt x0 fh fs0 hrows = pmax (blockRow x0 2) (asRow (arrRow c fh (word c i xt (xfer 2 10)) (word_lt c i xt hrows (xfer 2 10)))) := by
  unfold runLater.sl.r_99
  simp only [pay58_eq, row_2, row_2', l_v922, d_dma129]
theorem e_r_101 : runLater.sl.r_101 c i arg3 harg3 arg6 xt x0 fh fs0 hrows = pmax (blockRow x0 2) (asRow (arrRow c fh (word c i xt (xfer 2 11)) (word_lt c i xt hrows (xfer 2 11)))) := by
  unfold runLater.sl.r_101
  simp only [pay59_eq, e_r_81, l_v943, d_dma132]
theorem e_r_102 : runLater.sl.r_102 c i arg3 harg3 arg6 xt x0 fh fs0 hrows = pmax (blockRow x0 2) (asRow (arrRow c fh (word c i xt (xfer 2 12)) (word_lt c i xt hrows (xfer 2 12)))) := by
  unfold runLater.sl.r_102
  simp only [pay60_eq, row_2, row_2', l_v964, d_dma135]
theorem e_r_105 : runLater.sl.r_105 c i arg3 harg3 arg6 xt x0 fh fs0 hrows = pmax (blockRow x0 2) (asRow (arrRow c fh (word c i xt (xfer 2 13)) (word_lt c i xt hrows (xfer 2 13)))) := by
  unfold runLater.sl.r_105
  simp only [pay61_eq, row_2, row_2', l_v985, d_dma138]
theorem e_r_107 : runLater.sl.r_107 c i arg3 harg3 arg6 xt x0 fh fs0 hrows = row16 fun k => pmax (blockRow x0 2) (asRow (arrRow c fh (word c i xt (xfer 2 k)) (word_lt c i xt hrows (xfer 2 k)))) := by
  unfold runLater.sl.r_107
  simp only [pay62_eq, e_r_77, e_r_80, e_r_83, e_r_84, e_r_87, e_r_89, e_r_90, e_r_93, e_r_95, e_r_96, e_r_99, e_r_101, e_r_102, e_r_105, e_r_81, l_v1006, d_dma141, row_2, row_2', l_v1027, d_dma144]
  exact congrArg row16 (funext fun k => by fin_cases k <;> rfl)
theorem e_r_110 : runLater.sl.r_110 c i arg3 harg3 arg6 xt x0 fh fs0 hrows = pmax (blockRow x0 3) (asRow (arrRow c fh (word c i xt (xfer 3 0)) (word_lt c i xt hrows (xfer 3 0)))) := by
  unfold runLater.sl.r_110
  simp only [pay63_eq, row_3, row_3', l_v1049, d_dma147]
theorem e_r_113 : runLater.sl.r_113 c i arg3 harg3 arg6 xt x0 fh fs0 hrows = pmax (blockRow x0 3) (asRow (arrRow c fh (word c i xt (xfer 3 1)) (word_lt c i xt hrows (xfer 3 1)))) := by
  unfold runLater.sl.r_113
  simp only [pay64_eq, e_r_111, l_v1070, d_dma150]
theorem e_r_114 : runLater.sl.r_114 c i arg3 harg3 arg6 xt x0 fh fs0 hrows = pmax (blockRow x0 3) (asRow (arrRow c fh (word c i xt (xfer 3 2)) (word_lt c i xt hrows (xfer 3 2)))) := by
  unfold runLater.sl.r_114
  simp only [pay65_eq, row_3, row_3', l_v1091, d_dma153]
theorem e_r_117 : runLater.sl.r_117 c i arg3 harg3 arg6 xt x0 fh fs0 hrows = pmax (blockRow x0 3) (asRow (arrRow c fh (word c i xt (xfer 3 3)) (word_lt c i xt hrows (xfer 3 3)))) := by
  unfold runLater.sl.r_117
  simp only [pay66_eq, row_3, row_3', l_v1112, d_dma156]
theorem e_r_119 : runLater.sl.r_119 c i arg3 harg3 arg6 xt x0 fh fs0 hrows = pmax (blockRow x0 3) (asRow (arrRow c fh (word c i xt (xfer 3 4)) (word_lt c i xt hrows (xfer 3 4)))) := by
  unfold runLater.sl.r_119
  simp only [pay67_eq, e_r_111, l_v1133, d_dma159]
theorem e_r_120 : runLater.sl.r_120 c i arg3 harg3 arg6 xt x0 fh fs0 hrows = pmax (blockRow x0 3) (asRow (arrRow c fh (word c i xt (xfer 3 5)) (word_lt c i xt hrows (xfer 3 5)))) := by
  unfold runLater.sl.r_120
  simp only [pay68_eq, row_3, row_3', l_v1154, d_dma162]
theorem e_r_123 : runLater.sl.r_123 c i arg3 harg3 arg6 xt x0 fh fs0 hrows = pmax (blockRow x0 3) (asRow (arrRow c fh (word c i xt (xfer 3 6)) (word_lt c i xt hrows (xfer 3 6)))) := by
  unfold runLater.sl.r_123
  simp only [pay69_eq, row_3, row_3', l_v1175, d_dma165]
theorem e_r_125 : runLater.sl.r_125 c i arg3 harg3 arg6 xt x0 fh fs0 hrows = pmax (blockRow x0 3) (asRow (arrRow c fh (word c i xt (xfer 3 7)) (word_lt c i xt hrows (xfer 3 7)))) := by
  unfold runLater.sl.r_125
  simp only [pay70_eq, e_r_111, l_v1196, d_dma168]
theorem e_r_126 : runLater.sl.r_126 c i arg3 harg3 arg6 xt x0 fh fs0 hrows = pmax (blockRow x0 3) (asRow (arrRow c fh (word c i xt (xfer 3 8)) (word_lt c i xt hrows (xfer 3 8)))) := by
  unfold runLater.sl.r_126
  simp only [pay71_eq, row_3, row_3', l_v1217, d_dma171]
theorem e_r_129 : runLater.sl.r_129 c i arg3 harg3 arg6 xt x0 fh fs0 hrows = pmax (blockRow x0 3) (asRow (arrRow c fh (word c i xt (xfer 3 9)) (word_lt c i xt hrows (xfer 3 9)))) := by
  unfold runLater.sl.r_129
  simp only [pay72_eq, row_3, row_3', l_v1238, d_dma174]
theorem e_r_131 : runLater.sl.r_131 c i arg3 harg3 arg6 xt x0 fh fs0 hrows = pmax (blockRow x0 3) (asRow (arrRow c fh (word c i xt (xfer 3 10)) (word_lt c i xt hrows (xfer 3 10)))) := by
  unfold runLater.sl.r_131
  simp only [pay73_eq, e_r_111, l_v1259, d_dma177]
theorem e_r_132 : runLater.sl.r_132 c i arg3 harg3 arg6 xt x0 fh fs0 hrows = pmax (blockRow x0 3) (asRow (arrRow c fh (word c i xt (xfer 3 11)) (word_lt c i xt hrows (xfer 3 11)))) := by
  unfold runLater.sl.r_132
  simp only [pay74_eq, row_3, row_3', l_v1280, d_dma180]
theorem e_r_135 : runLater.sl.r_135 c i arg3 harg3 arg6 xt x0 fh fs0 hrows = pmax (blockRow x0 3) (asRow (arrRow c fh (word c i xt (xfer 3 12)) (word_lt c i xt hrows (xfer 3 12)))) := by
  unfold runLater.sl.r_135
  simp only [pay75_eq, row_3, row_3', l_v1301, d_dma183]
theorem e_r_137 : runLater.sl.r_137 c i arg3 harg3 arg6 xt x0 fh fs0 hrows = pmax (blockRow x0 3) (asRow (arrRow c fh (word c i xt (xfer 3 13)) (word_lt c i xt hrows (xfer 3 13)))) := by
  unfold runLater.sl.r_137
  simp only [pay76_eq, e_r_111, l_v1322, d_dma186]
theorem e_r_138 : runLater.sl.r_138 c i arg3 harg3 arg6 xt x0 fh fs0 hrows = pmax (blockRow x0 3) (asRow (arrRow c fh (word c i xt (xfer 3 14)) (word_lt c i xt hrows (xfer 3 14)))) := by
  unfold runLater.sl.r_138
  simp only [pay77_eq, row_3, row_3', l_v1343, d_dma189]
theorem e_r_141 : runLater.sl.r_141 c i arg3 harg3 arg6 xt x0 fh fs0 hrows = row16 fun k => pmax (blockRow x0 3) (asRow (arrRow c fh (word c i xt (xfer 3 k)) (word_lt c i xt hrows (xfer 3 k)))) := by
  unfold runLater.sl.r_141
  simp only [pay78_eq, e_r_110, e_r_113, e_r_114, e_r_117, e_r_119, e_r_120, e_r_123, e_r_125, e_r_126, e_r_129, e_r_131, e_r_132, e_r_135, e_r_137, e_r_138, row_3, row_3', l_v1364, d_dma192]
  exact congrArg row16 (funext fun k => by fin_cases k <;> rfl)
theorem e_r_144 : runLater.sl.r_144 c i arg3 harg3 arg6 xt x0 fh fs0 hrows = pmax (blockRow x0 4) (asRow (arrRow c fh (word c i xt (xfer 4 0)) (word_lt c i xt hrows (xfer 4 0)))) := by
  unfold runLater.sl.r_144
  simp only [pay79_eq, e_r_142, l_v1386, d_dma195]
theorem e_r_145 : runLater.sl.r_145 c i arg3 harg3 arg6 xt x0 fh fs0 hrows = pmax (blockRow x0 4) (asRow (arrRow c fh (word c i xt (xfer 4 1)) (word_lt c i xt hrows (xfer 4 1)))) := by
  unfold runLater.sl.r_145
  simp only [pay80_eq, row_4, row_4', l_v1407, d_dma198]
theorem e_r_148 : runLater.sl.r_148 c i arg3 harg3 arg6 xt x0 fh fs0 hrows = pmax (blockRow x0 4) (asRow (arrRow c fh (word c i xt (xfer 4 2)) (word_lt c i xt hrows (xfer 4 2)))) := by
  unfold runLater.sl.r_148
  simp only [pay81_eq, row_4, row_4', l_v1428, d_dma201]
theorem e_r_150 : runLater.sl.r_150 c i arg3 harg3 arg6 xt x0 fh fs0 hrows = pmax (blockRow x0 4) (asRow (arrRow c fh (word c i xt (xfer 4 3)) (word_lt c i xt hrows (xfer 4 3)))) := by
  unfold runLater.sl.r_150
  simp only [pay82_eq, e_r_142, l_v1449, d_dma204]
theorem e_r_151 : runLater.sl.r_151 c i arg3 harg3 arg6 xt x0 fh fs0 hrows = pmax (blockRow x0 4) (asRow (arrRow c fh (word c i xt (xfer 4 4)) (word_lt c i xt hrows (xfer 4 4)))) := by
  unfold runLater.sl.r_151
  simp only [pay83_eq, row_4, row_4', l_v1470, d_dma207]
theorem e_r_154 : runLater.sl.r_154 c i arg3 harg3 arg6 xt x0 fh fs0 hrows = pmax (blockRow x0 4) (asRow (arrRow c fh (word c i xt (xfer 4 5)) (word_lt c i xt hrows (xfer 4 5)))) := by
  unfold runLater.sl.r_154
  simp only [pay84_eq, row_4, row_4', l_v1491, d_dma210]
theorem e_r_156 : runLater.sl.r_156 c i arg3 harg3 arg6 xt x0 fh fs0 hrows = pmax (blockRow x0 4) (asRow (arrRow c fh (word c i xt (xfer 4 6)) (word_lt c i xt hrows (xfer 4 6)))) := by
  unfold runLater.sl.r_156
  simp only [pay85_eq, e_r_142, l_v1512, d_dma213]
theorem e_r_157 : runLater.sl.r_157 c i arg3 harg3 arg6 xt x0 fh fs0 hrows = pmax (blockRow x0 4) (asRow (arrRow c fh (word c i xt (xfer 4 7)) (word_lt c i xt hrows (xfer 4 7)))) := by
  unfold runLater.sl.r_157
  simp only [pay86_eq, row_4, row_4', l_v1533, d_dma216]
theorem e_r_160 : runLater.sl.r_160 c i arg3 harg3 arg6 xt x0 fh fs0 hrows = pmax (blockRow x0 4) (asRow (arrRow c fh (word c i xt (xfer 4 8)) (word_lt c i xt hrows (xfer 4 8)))) := by
  unfold runLater.sl.r_160
  simp only [pay87_eq, row_4, row_4', l_v1554, d_dma219]
theorem e_r_162 : runLater.sl.r_162 c i arg3 harg3 arg6 xt x0 fh fs0 hrows = pmax (blockRow x0 4) (asRow (arrRow c fh (word c i xt (xfer 4 9)) (word_lt c i xt hrows (xfer 4 9)))) := by
  unfold runLater.sl.r_162
  simp only [pay88_eq, e_r_142, l_v1575, d_dma222]
theorem e_r_163 : runLater.sl.r_163 c i arg3 harg3 arg6 xt x0 fh fs0 hrows = pmax (blockRow x0 4) (asRow (arrRow c fh (word c i xt (xfer 4 10)) (word_lt c i xt hrows (xfer 4 10)))) := by
  unfold runLater.sl.r_163
  simp only [pay89_eq, row_4, row_4', l_v1596, d_dma225]
theorem e_r_166 : runLater.sl.r_166 c i arg3 harg3 arg6 xt x0 fh fs0 hrows = pmax (blockRow x0 4) (asRow (arrRow c fh (word c i xt (xfer 4 11)) (word_lt c i xt hrows (xfer 4 11)))) := by
  unfold runLater.sl.r_166
  simp only [pay90_eq, row_4, row_4', l_v1617, d_dma228]
theorem e_r_168 : runLater.sl.r_168 c i arg3 harg3 arg6 xt x0 fh fs0 hrows = pmax (blockRow x0 4) (asRow (arrRow c fh (word c i xt (xfer 4 12)) (word_lt c i xt hrows (xfer 4 12)))) := by
  unfold runLater.sl.r_168
  simp only [pay91_eq, e_r_142, l_v1638, d_dma231]
theorem e_r_169 : runLater.sl.r_169 c i arg3 harg3 arg6 xt x0 fh fs0 hrows = pmax (blockRow x0 4) (asRow (arrRow c fh (word c i xt (xfer 4 13)) (word_lt c i xt hrows (xfer 4 13)))) := by
  unfold runLater.sl.r_169
  simp only [pay92_eq, row_4, row_4', l_v1659, d_dma234]
theorem e_r_172 : runLater.sl.r_172 c i arg3 harg3 arg6 xt x0 fh fs0 hrows = pmax (blockRow x0 4) (asRow (arrRow c fh (word c i xt (xfer 4 14)) (word_lt c i xt hrows (xfer 4 14)))) := by
  unfold runLater.sl.r_172
  simp only [pay93_eq, row_4, row_4', l_v1680, d_dma237]
theorem e_r_174 : runLater.sl.r_174 c i arg3 harg3 arg6 xt x0 fh fs0 hrows = row16 fun k => pmax (blockRow x0 4) (asRow (arrRow c fh (word c i xt (xfer 4 k)) (word_lt c i xt hrows (xfer 4 k)))) := by
  unfold runLater.sl.r_174
  simp only [pay94_eq, e_r_144, e_r_145, e_r_148, e_r_150, e_r_151, e_r_154, e_r_156, e_r_157, e_r_160, e_r_162, e_r_163, e_r_166, e_r_168, e_r_169, e_r_172, e_r_142, l_v1701, d_dma240]
  exact congrArg row16 (funext fun k => by fin_cases k <;> rfl)
theorem e_r_175 : runLater.sl.r_175 c i arg3 harg3 arg6 xt x0 fh fs0 hrows = pmax (blockRow x0 5) (asRow (arrRow c fh (word c i xt (xfer 5 0)) (word_lt c i xt hrows (xfer 5 0)))) := by
  unfold runLater.sl.r_175
  simp only [pay95_eq, row_5, row_5', l_v1723, d_dma243]
theorem e_r_178 : runLater.sl.r_178 c i arg3 harg3 arg6 xt x0 fh fs0 hrows = pmax (blockRow x0 5) (asRow (arrRow c fh (word c i xt (xfer 5 1)) (word_lt c i xt hrows (xfer 5 1)))) := by
  unfold runLater.sl.r_178
  simp only [pay96_eq, row_5, row_5', l_v1744, d_dma246]
theorem e_r_181 : runLater.sl.r_181 c i arg3 harg3 arg6 xt x0 fh fs0 hrows = pmax (blockRow x0 5) (asRow (arrRow c fh (word c i xt (xfer 5 2)) (word_lt c i xt hrows (xfer 5 2)))) := by
  unfold runLater.sl.r_181
  simp only [pay97_eq, e_r_179, l_v1765, d_dma249]
theorem e_r_182 : runLater.sl.r_182 c i arg3 harg3 arg6 xt x0 fh fs0 hrows = pmax (blockRow x0 5) (asRow (arrRow c fh (word c i xt (xfer 5 3)) (word_lt c i xt hrows (xfer 5 3)))) := by
  unfold runLater.sl.r_182
  simp only [pay98_eq, row_5, row_5', l_v1786, d_dma252]
theorem e_r_185 : runLater.sl.r_185 c i arg3 harg3 arg6 xt x0 fh fs0 hrows = pmax (blockRow x0 5) (asRow (arrRow c fh (word c i xt (xfer 5 4)) (word_lt c i xt hrows (xfer 5 4)))) := by
  unfold runLater.sl.r_185
  simp only [pay99_eq, row_5, row_5', l_v1807, d_dma255]
theorem e_r_187 : runLater.sl.r_187 c i arg3 harg3 arg6 xt x0 fh fs0 hrows = pmax (blockRow x0 5) (asRow (arrRow c fh (word c i xt (xfer 5 5)) (word_lt c i xt hrows (xfer 5 5)))) := by
  unfold runLater.sl.r_187
  simp only [pay100_eq, e_r_179, l_v1828, d_dma258]
theorem e_r_188 : runLater.sl.r_188 c i arg3 harg3 arg6 xt x0 fh fs0 hrows = pmax (blockRow x0 5) (asRow (arrRow c fh (word c i xt (xfer 5 6)) (word_lt c i xt hrows (xfer 5 6)))) := by
  unfold runLater.sl.r_188
  simp only [pay101_eq, row_5, row_5', l_v1849, d_dma261]
theorem e_r_191 : runLater.sl.r_191 c i arg3 harg3 arg6 xt x0 fh fs0 hrows = pmax (blockRow x0 5) (asRow (arrRow c fh (word c i xt (xfer 5 7)) (word_lt c i xt hrows (xfer 5 7)))) := by
  unfold runLater.sl.r_191
  simp only [pay102_eq, row_5, row_5', l_v1870, d_dma264]
theorem e_r_193 : runLater.sl.r_193 c i arg3 harg3 arg6 xt x0 fh fs0 hrows = pmax (blockRow x0 5) (asRow (arrRow c fh (word c i xt (xfer 5 8)) (word_lt c i xt hrows (xfer 5 8)))) := by
  unfold runLater.sl.r_193
  simp only [pay103_eq, e_r_179, l_v1891, d_dma267]
theorem e_r_194 : runLater.sl.r_194 c i arg3 harg3 arg6 xt x0 fh fs0 hrows = pmax (blockRow x0 5) (asRow (arrRow c fh (word c i xt (xfer 5 9)) (word_lt c i xt hrows (xfer 5 9)))) := by
  unfold runLater.sl.r_194
  simp only [pay104_eq, row_5, row_5', l_v1912, d_dma270]
theorem e_r_197 : runLater.sl.r_197 c i arg3 harg3 arg6 xt x0 fh fs0 hrows = pmax (blockRow x0 5) (asRow (arrRow c fh (word c i xt (xfer 5 10)) (word_lt c i xt hrows (xfer 5 10)))) := by
  unfold runLater.sl.r_197
  simp only [pay105_eq, row_5, row_5', l_v1933, d_dma273]
theorem e_r_199 : runLater.sl.r_199 c i arg3 harg3 arg6 xt x0 fh fs0 hrows = pmax (blockRow x0 5) (asRow (arrRow c fh (word c i xt (xfer 5 11)) (word_lt c i xt hrows (xfer 5 11)))) := by
  unfold runLater.sl.r_199
  simp only [pay106_eq, e_r_179, l_v1954, d_dma276]
theorem e_r_200 : runLater.sl.r_200 c i arg3 harg3 arg6 xt x0 fh fs0 hrows = pmax (blockRow x0 5) (asRow (arrRow c fh (word c i xt (xfer 5 12)) (word_lt c i xt hrows (xfer 5 12)))) := by
  unfold runLater.sl.r_200
  simp only [pay107_eq, row_5, row_5', l_v1975, d_dma279]
theorem e_r_203 : runLater.sl.r_203 c i arg3 harg3 arg6 xt x0 fh fs0 hrows = pmax (blockRow x0 5) (asRow (arrRow c fh (word c i xt (xfer 5 13)) (word_lt c i xt hrows (xfer 5 13)))) := by
  unfold runLater.sl.r_203
  simp only [pay108_eq, row_5, row_5', l_v1996, d_dma282]
theorem e_r_205 : runLater.sl.r_205 c i arg3 harg3 arg6 xt x0 fh fs0 hrows = row16 fun k => pmax (blockRow x0 5) (asRow (arrRow c fh (word c i xt (xfer 5 k)) (word_lt c i xt hrows (xfer 5 k)))) := by
  unfold runLater.sl.r_205
  simp only [pay109_eq, e_r_175, e_r_178, e_r_181, e_r_182, e_r_185, e_r_187, e_r_188, e_r_191, e_r_193, e_r_194, e_r_197, e_r_199, e_r_200, e_r_203, e_r_179, l_v2017, d_dma285, row_5, row_5', l_v2038, d_dma288]
  exact congrArg row16 (funext fun k => by fin_cases k <;> rfl)
theorem e_r_208 : runLater.sl.r_208 c i arg3 harg3 arg6 xt x0 fh fs0 hrows = pmax (blockRow x0 6) (asRow (arrRow c fh (word c i xt (xfer 6 0)) (word_lt c i xt hrows (xfer 6 0)))) := by
  unfold runLater.sl.r_208
  simp only [pay110_eq, row_6, row_6', l_v2060, d_dma291]
theorem e_r_210 : runLater.sl.r_210 c i arg3 harg3 arg6 xt x0 fh fs0 hrows = pmax (blockRow x0 6) (asRow (arrRow c fh (word c i xt (xfer 6 1)) (word_lt c i xt hrows (xfer 6 1)))) := by
  unfold runLater.sl.r_210
  simp only [pay111_eq, row_6, row_6', l_v2081, d_dma294]
theorem e_r_211 : runLater.sl.r_211 c i arg3 harg3 arg6 xt x0 fh fs0 hrows = pmax (blockRow x0 6) (asRow (arrRow c fh (word c i xt (xfer 6 2)) (word_lt c i xt hrows (xfer 6 2)))) := by
  unfold runLater.sl.r_211
  simp only [pay112_eq, row_6, row_6', l_v2102, d_dma297]
theorem e_r_214 : runLater.sl.r_214 c i arg3 harg3 arg6 xt x0 fh fs0 hrows = pmax (blockRow x0 6) (asRow (arrRow c fh (word c i xt (xfer 6 3)) (word_lt c i xt hrows (xfer 6 3)))) := by
  unfold runLater.sl.r_214
  simp only [pay113_eq, row_6, row_6', l_v2123, d_dma300]
theorem e_r_216 : runLater.sl.r_216 c i arg3 harg3 arg6 xt x0 fh fs0 hrows = pmax (blockRow x0 6) (asRow (arrRow c fh (word c i xt (xfer 6 4)) (word_lt c i xt hrows (xfer 6 4)))) := by
  unfold runLater.sl.r_216
  simp only [pay114_eq, row_6, row_6', l_v2144, d_dma303]
theorem e_r_217 : runLater.sl.r_217 c i arg3 harg3 arg6 xt x0 fh fs0 hrows = pmax (blockRow x0 6) (asRow (arrRow c fh (word c i xt (xfer 6 5)) (word_lt c i xt hrows (xfer 6 5)))) := by
  unfold runLater.sl.r_217
  simp only [pay115_eq, row_6, row_6', l_v2165, d_dma306]
theorem e_r_220 : runLater.sl.r_220 c i arg3 harg3 arg6 xt x0 fh fs0 hrows = pmax (blockRow x0 6) (asRow (arrRow c fh (word c i xt (xfer 6 6)) (word_lt c i xt hrows (xfer 6 6)))) := by
  unfold runLater.sl.r_220
  simp only [pay116_eq, row_6, row_6', l_v2186, d_dma309]
theorem e_r_222 : runLater.sl.r_222 c i arg3 harg3 arg6 xt x0 fh fs0 hrows = pmax (blockRow x0 6) (asRow (arrRow c fh (word c i xt (xfer 6 7)) (word_lt c i xt hrows (xfer 6 7)))) := by
  unfold runLater.sl.r_222
  simp only [pay117_eq, row_6, row_6', l_v2207, d_dma312]
theorem e_r_223 : runLater.sl.r_223 c i arg3 harg3 arg6 xt x0 fh fs0 hrows = pmax (blockRow x0 6) (asRow (arrRow c fh (word c i xt (xfer 6 8)) (word_lt c i xt hrows (xfer 6 8)))) := by
  unfold runLater.sl.r_223
  simp only [pay118_eq, row_6, row_6', l_v2228, d_dma315]
theorem e_r_226 : runLater.sl.r_226 c i arg3 harg3 arg6 xt x0 fh fs0 hrows = pmax (blockRow x0 6) (asRow (arrRow c fh (word c i xt (xfer 6 9)) (word_lt c i xt hrows (xfer 6 9)))) := by
  unfold runLater.sl.r_226
  simp only [pay119_eq, row_6, row_6', l_v2249, d_dma318]
theorem e_r_228 : runLater.sl.r_228 c i arg3 harg3 arg6 xt x0 fh fs0 hrows = pmax (blockRow x0 6) (asRow (arrRow c fh (word c i xt (xfer 6 10)) (word_lt c i xt hrows (xfer 6 10)))) := by
  unfold runLater.sl.r_228
  simp only [pay120_eq, row_6, row_6', l_v2270, d_dma321]
theorem e_r_229 : runLater.sl.r_229 c i arg3 harg3 arg6 xt x0 fh fs0 hrows = pmax (blockRow x0 6) (asRow (arrRow c fh (word c i xt (xfer 6 11)) (word_lt c i xt hrows (xfer 6 11)))) := by
  unfold runLater.sl.r_229
  simp only [pay121_eq, row_6, row_6', l_v2291, d_dma324]
theorem e_r_232 : runLater.sl.r_232 c i arg3 harg3 arg6 xt x0 fh fs0 hrows = pmax (blockRow x0 6) (asRow (arrRow c fh (word c i xt (xfer 6 12)) (word_lt c i xt hrows (xfer 6 12)))) := by
  unfold runLater.sl.r_232
  simp only [pay122_eq, row_6, row_6', l_v2312, d_dma327]
theorem e_r_234 : runLater.sl.r_234 c i arg3 harg3 arg6 xt x0 fh fs0 hrows = pmax (blockRow x0 6) (asRow (arrRow c fh (word c i xt (xfer 6 13)) (word_lt c i xt hrows (xfer 6 13)))) := by
  unfold runLater.sl.r_234
  simp only [pay123_eq, row_6, row_6', l_v2333, d_dma330]
theorem e_r_235 : runLater.sl.r_235 c i arg3 harg3 arg6 xt x0 fh fs0 hrows = pmax (blockRow x0 6) (asRow (arrRow c fh (word c i xt (xfer 6 14)) (word_lt c i xt hrows (xfer 6 14)))) := by
  unfold runLater.sl.r_235
  simp only [pay124_eq, row_6, row_6', l_v2354, d_dma333]
theorem e_r_238 : runLater.sl.r_238 c i arg3 harg3 arg6 xt x0 fh fs0 hrows = row16 fun k => pmax (blockRow x0 6) (asRow (arrRow c fh (word c i xt (xfer 6 k)) (word_lt c i xt hrows (xfer 6 k)))) := by
  unfold runLater.sl.r_238
  simp only [pay125_eq, e_r_208, e_r_210, e_r_211, e_r_214, e_r_216, e_r_217, e_r_220, e_r_222, e_r_223, e_r_226, e_r_228, e_r_229, e_r_232, e_r_234, e_r_235, row_6, row_6', l_v2375, d_dma336]
  exact congrArg row16 (funext fun k => by fin_cases k <;> rfl)
theorem e_r_240 : runLater.sl.r_240 c i arg3 harg3 arg6 xt x0 fh fs0 hrows = pmax (blockRow x0 7) (asRow (arrRow c fh (word c i xt (xfer 7 0)) (word_lt c i xt hrows (xfer 7 0)))) := by
  unfold runLater.sl.r_240
  simp only [pay126_eq, row_7, row_7', l_v2397, d_dma339]
theorem e_r_241 : runLater.sl.r_241 c i arg3 harg3 arg6 xt x0 fh fs0 hrows = pmax (blockRow x0 7) (asRow (arrRow c fh (word c i xt (xfer 7 1)) (word_lt c i xt hrows (xfer 7 1)))) := by
  unfold runLater.sl.r_241
  simp only [pay127_eq, row_7, row_7', l_v2418, d_dma342]
theorem e_r_244 : runLater.sl.r_244 c i arg3 harg3 arg6 xt x0 fh fs0 hrows = pmax (blockRow x0 7) (asRow (arrRow c fh (word c i xt (xfer 7 2)) (word_lt c i xt hrows (xfer 7 2)))) := by
  unfold runLater.sl.r_244
  simp only [pay128_eq, row_7, row_7', l_v2439, d_dma345]
theorem e_r_246 : runLater.sl.r_246 c i arg3 harg3 arg6 xt x0 fh fs0 hrows = pmax (blockRow x0 7) (asRow (arrRow c fh (word c i xt (xfer 7 3)) (word_lt c i xt hrows (xfer 7 3)))) := by
  unfold runLater.sl.r_246
  simp only [pay129_eq, row_7, row_7', l_v2460, d_dma348]
theorem e_r_247 : runLater.sl.r_247 c i arg3 harg3 arg6 xt x0 fh fs0 hrows = pmax (blockRow x0 7) (asRow (arrRow c fh (word c i xt (xfer 7 4)) (word_lt c i xt hrows (xfer 7 4)))) := by
  unfold runLater.sl.r_247
  simp only [pay130_eq, row_7, row_7', l_v2481, d_dma351]
theorem e_r_250 : runLater.sl.r_250 c i arg3 harg3 arg6 xt x0 fh fs0 hrows = pmax (blockRow x0 7) (asRow (arrRow c fh (word c i xt (xfer 7 5)) (word_lt c i xt hrows (xfer 7 5)))) := by
  unfold runLater.sl.r_250
  simp only [pay131_eq, row_7, row_7', l_v2502, d_dma354]
theorem e_r_252 : runLater.sl.r_252 c i arg3 harg3 arg6 xt x0 fh fs0 hrows = pmax (blockRow x0 7) (asRow (arrRow c fh (word c i xt (xfer 7 6)) (word_lt c i xt hrows (xfer 7 6)))) := by
  unfold runLater.sl.r_252
  simp only [pay132_eq, row_7, row_7', l_v2523, d_dma357]
theorem e_r_253 : runLater.sl.r_253 c i arg3 harg3 arg6 xt x0 fh fs0 hrows = pmax (blockRow x0 7) (asRow (arrRow c fh (word c i xt (xfer 7 7)) (word_lt c i xt hrows (xfer 7 7)))) := by
  unfold runLater.sl.r_253
  simp only [pay133_eq, row_7, row_7', l_v2544, d_dma360]
theorem e_r_256 : runLater.sl.r_256 c i arg3 harg3 arg6 xt x0 fh fs0 hrows = pmax (blockRow x0 7) (asRow (arrRow c fh (word c i xt (xfer 7 8)) (word_lt c i xt hrows (xfer 7 8)))) := by
  unfold runLater.sl.r_256
  simp only [pay134_eq, row_7, row_7', l_v2565, d_dma363]
theorem e_r_258 : runLater.sl.r_258 c i arg3 harg3 arg6 xt x0 fh fs0 hrows = pmax (blockRow x0 7) (asRow (arrRow c fh (word c i xt (xfer 7 9)) (word_lt c i xt hrows (xfer 7 9)))) := by
  unfold runLater.sl.r_258
  simp only [pay135_eq, row_7, row_7', l_v2586, d_dma366]
theorem e_r_259 : runLater.sl.r_259 c i arg3 harg3 arg6 xt x0 fh fs0 hrows = pmax (blockRow x0 7) (asRow (arrRow c fh (word c i xt (xfer 7 10)) (word_lt c i xt hrows (xfer 7 10)))) := by
  unfold runLater.sl.r_259
  simp only [pay136_eq, row_7, row_7', l_v2607, d_dma369]
theorem e_r_262 : runLater.sl.r_262 c i arg3 harg3 arg6 xt x0 fh fs0 hrows = pmax (blockRow x0 7) (asRow (arrRow c fh (word c i xt (xfer 7 11)) (word_lt c i xt hrows (xfer 7 11)))) := by
  unfold runLater.sl.r_262
  simp only [pay137_eq, row_7, row_7', l_v2628, d_dma372]
theorem e_r_264 : runLater.sl.r_264 c i arg3 harg3 arg6 xt x0 fh fs0 hrows = pmax (blockRow x0 7) (asRow (arrRow c fh (word c i xt (xfer 7 12)) (word_lt c i xt hrows (xfer 7 12)))) := by
  unfold runLater.sl.r_264
  simp only [pay138_eq, row_7, row_7', l_v2649, d_dma375]
theorem e_r_265 : runLater.sl.r_265 c i arg3 harg3 arg6 xt x0 fh fs0 hrows = pmax (blockRow x0 7) (asRow (arrRow c fh (word c i xt (xfer 7 13)) (word_lt c i xt hrows (xfer 7 13)))) := by
  unfold runLater.sl.r_265
  simp only [pay139_eq, row_7, row_7', l_v2670, d_dma378]
theorem e_r_267 : runLater.sl.r_267 c i arg3 harg3 arg6 xt x0 fh fs0 hrows = pmax (blockRow x0 7) (asRow (arrRow c fh (word c i xt (xfer 7 14)) (word_lt c i xt hrows (xfer 7 14)))) := by
  unfold runLater.sl.r_267
  simp only [pay140_eq, row_7, row_7', l_v2691, d_dma381]
theorem e_v2703 : runLater.sl.v2703 c i arg3 harg3 arg6 xt x0 fh fs0 hrows = addf (blockRow x0 7) (asRow (arrRow c fh (word c i xt (xfer 7 15)) (word_lt c i xt hrows (xfer 7 15)))) := by
  unfold runLater.sl.v2703
  simp only [row_7, row_7', l_v2702, d_dma384]
theorem e_v2706 : runLater.sl.v2706 c i arg3 harg3 arg6 xt x0 fh fs0 hrows = row16 fun k => pmax (blockRow x0 7) (asRow (arrRow c fh (word c i xt (xfer 7 k)) (word_lt c i xt hrows (xfer 7 k)))) := by
  unfold runLater.sl.v2706
  simp only [pay1_eq, e_r_240, e_r_241, e_r_244, e_r_246, e_r_247, e_r_250, e_r_252, e_r_253, e_r_256, e_r_258, e_r_259, e_r_262, e_r_264, e_r_265, e_r_267, e_v2703, smax_addf]
  exact congrArg row16 (funext fun k => by fin_cases k <;> rfl)

end Table

end Later

/-- The block of maxima is `maxBlock`: what the two-slot buffer held before the point has dropped out. -/
theorem max_later [∀ e, Nonempty (Elt F e)] (c : Dev nD) (i : grid0.Coords) (hc : ¬isFirst i)
    (arg3 : Memref sig .tc .vmem S8x512 .f32) (harg3 : arg3.IsWhole) (arg4 : Memref sig .tc .vmem S8x16 .f32) (harg4 : arg4.IsWhole)
    (arg5 : Memref sig .tc .vmem S1x512 .f32) (harg5 : arg5.IsWhole) (arg6 : Memref sig .tc .vmem S2x512 .f32) (harg6 : arg6.IsWhole)
    (q1 q2 : Idealize.SL.RA.PosShare Idealize.SL.RA.TreeShare)
    (xt : BufOf (F := F) c tbM) (x0 : Vec F S8x512 .f32) (a0 : Vec F S1x512 .f32) (fh : BufOf (F := F) c hbM)
    (fs0 : BufTy.Contents (Elt F) arg6.view.ty) (hrows : RowsBelow c xt) :
    readMax (runLater c i hc arg3 harg3 arg4 harg4 arg5 harg5 arg6 harg6 q1 q2 xt x0 a0 fh fs0 hrows).1.1 = maxBlock c i xt x0 fh hrows := by
  unfold runLater
  dsimp only
  rw [readMax_whole _ zero2, pay2_eq]
  simp only [Later.e_r_38, Later.e_r_76, Later.e_r_107, Later.e_r_141, Later.e_r_174, Later.e_r_205, Later.e_r_238, Later.e_v2706]
  unfold maxBlock
  exact congrArg col8 (funext fun b => by fin_cases b <;> rfl)

end Cert.Kernel.Body

end
-- ==== Proof.BodyFirstBits.lean ====
/-
  The body at the first grid point, run once on any staging buffers: the column-sum accumulator is cleared and
  the sums of the block's eight rows are added to it; then the 128 rows the table names are copied one at
  a time into the two-slot buffer, each copy started while the previous row is being used, and for each
  the maximum over the 512 lanes of (row of the block + copied row) is taken; the 8 × 16 maxima are stored
  as the point's output block. The run hands back every buffer it was lent and names the pieces it left
  in the two output buffers.
-/
import proofs.«106441_j1580547974259_1_alg».proof.Proof.BodyCommonBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 0 in
set_option sl_exec.dmaWindow true in
set_option sl_exec.dmaWindowSet true in
/-- The pieces the body leaves in the output block's buffer and in the accumulator's, with the proof that
    it runs to the end from the buffers it is lent — the block, the two outputs, the two-slot buffer at
    whatever it holds (fs0), the table and the array of rows each at a share, its two copy counters at zero —
    and gives them back: every copy it starts it waits for within the point. -/
noncomputable def runFirst (c : Dev nD) (i : grid0.Coords) (hc : isFirst i)
    (arg3 : Memref sig .tc .vmem S8x512 .f32) (harg3 : arg3.IsWhole)
    (arg4 : Memref sig .tc .vmem S8x16 .f32) (harg4 : arg4.IsWhole)
    (arg5 : Memref sig .tc .vmem S1x512 .f32) (harg5 : arg5.IsWhole)
    (arg6 : Memref sig .tc .vmem S2x512 .f32) (harg6 : arg6.IsWhole)
    (q1 q2 : PosShare TreeShare)
    (xt : BufOf (F := F) c tbM) (x0 : Vec F S8x512 .f32) (fh : BufOf (F := F) c hbM) (fs0 : BufTy.Contents (Elt F) arg6.view.ty)
    (hrows : RowsBelow c xt) :
    { L : List (View.Piece (Elt F) S8x16 .f32) × List (View.Piece (Elt F) S1x512 .f32) //
      ∀ (W : Waits sig Unit) (K : PUnit → sProp 𝕄),
        iprop(heldAt c q1 tbM xt
            ∗ owns (c : Thread nD τ) arg3 fullShare x0
            ∗ (∃ d, owns (c : Thread nD τ) arg4 fullShare d)
            ∗ (∃ d, owns (c : Thread nD τ) arg5 fullShare d)
            ∗ (arg6.view.loc (c : Thread nD τ) ↦[arg6.view.set]{fullShare} fs0)
            ∗ semVal ((c : Thread nD τ), SemLoc.dma 5) 0
            ∗ semVal ((c : Thread nD τ), SemLoc.dma 6) 0
            ∗ heldAt c q2 hbM fh
            ∗ owes (c : Thread nD τ) 0 W
            ∗ (iprop(heldAt c q1 tbM xt
                ∗ owns (c : Thread nD τ) arg3 fullShare x0
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)
                ∗ (∃ d, owns (c : Thread nD τ) arg6 fullShare d)
                ∗ semVal ((c : Thread nD τ), SemLoc.dma 5) 0
                ∗ semVal ((c : Thread nD τ), SemLoc.dma 6) 0
                ∗ heldAt c q2 hbM fh
                ∗ (∃ W', owes (c : Thread nD τ) 0 W')) -∗ K ⟨⟩))
          ⊢ wp frame (wpE (defs₀ (F := F)) Variants.none c none) Set.univ
              (cc0_kernel i tbM htbM hbM hhbM arg3 harg3 arg4 harg4 arg5 harg5 arg6 harg6 cc0_scratch1) K } := by
  refine ⟨(?_, ?_), fun W K => ?run⟩
  case run =>
    simp only [cc0_kernel_eq_skeleton]; unfold cc0_kernel_skel
    unfold owns
    iintro ⟨HT, ⟨%f0, %hf0, H0⟩, ⟨%d1, %f1, -, H1⟩, ⟨%d2, %f2, -, H2⟩, HS0, Hq0, Hq1, Hh0, HW, Hk⟩
    obtain rfl := harg3.eq_unread hf0
    sl_exec_parts (disch := first | sl_exact hc | exact row_inside _ (hrows _ _))
    sl_step
    iapply Hk
    isplitl [HT]; · iexact HT
    isplitl [H0]
    · iexists _; isplitr; · ipureintro; exact harg3.read_unread _
      iexact H0
    isplitl [H1]; · iexists _; iexact H1
    isplitl [H2]; · iexists _; iexact H2
    isplitl [HS0]
    · iexists _, _; isplitr; swap; · iexact HS0
      ipureintro; rfl
    isplitl [Hq0]; · iexact Hq0
    isplitl [Hq1]; · iexact Hq1
    isplitl [Hh0]; · iexact Hh0
    iexists _; iexact HW

end Cert.Kernel.Body

end
-- ==== Proof.BodyTableFirstBits.lean ====
/-
  The block of maxima the body leaves at the first point, read back.

  The run names every value it computes. Below, one equation per name, in the order the body computes them: each
  table word is word number `128·t + 16·b + k`; each copy is that row of the array; each load of the two-slot buffer
  reads the copy that was last made into the loaded row; each maximum is `pmax` of row `b` of the block and the
  copied row; each group of sixteen is one row of the block of maxima. The last equation reads the eight rows back
  as `maxBlock`.
-/
import proofs.«106441_j1580547974259_1_alg».proof.Proof.BodyLoadsBits
import proofs.«106441_j1580547974259_1_alg».proof.Proof.BodyFirstBits

set_option maxRecDepth 16384

noncomputable section

namespace Cert.Kernel.Body

open Cert.Kernel Cert.Kernel.Gen Cert.BodyMathBits
open Idealize.ShloMosaic Idealize.ShloMosaic.TcCoe Idealize.ShloMosaic.ValueIdx

variable {F : FTy → Type} [FloatOps F]

namespace First

section Table

variable (c : Dev nD) (i : grid0.Coords) (arg3 : Memref sig .tc .vmem S8x512 .f32) (harg3 : arg3.IsWhole)
  (arg6 : Memref sig .tc .vmem S2x512 .f32) (xt : BufOf (F := F) c tbM) (x0 : Vec F S8x512 .f32) (fh : BufOf (F := F) c hbM)
  (fs0 : BufTy.Contents (Elt F) arg6.view.ty) (hrows : RowsBelow c xt)

theorem w_r : runFirst.sl.r c i xt = word c i xt (xfer 0 0) := word_of_off c i xt (xfer 0 0) (off1_eq i)
theorem w_r_1 : runFirst.sl.r_1 c i xt = word c i xt (xfer 0 1) := word_of_off c i xt (xfer 0 1) (off3_eq i)
theorem w_r_100 : runFirst.sl.r_100 c i xt = word c i xt (xfer 2 13) := word_of_off c i xt (xfer 2 13) (off91_eq i)
theorem w_r_103 : runFirst.sl.r_103 c i xt = word c i xt (xfer 2 14) := word_of_off c i xt (xfer 2 14) (off93_eq i)
theorem w_r_104 : runFirst.sl.r_104 c i xt = word c i xt (xfer 2 15) := word_of_off c i xt (xfer 2 15) (off95_eq i)
theorem w_r_106 : runFirst.sl.r_106 c i xt = word c i xt (xfer 3 0) := word_of_off c i xt (xfer 3 0) (off97_eq i)
theorem w_r_108 : runFirst.sl.r_108 c i xt = word c i xt (xfer 3 1) := word_of_off c i xt (xfer 3 1) (off99_eq i)
theorem w_r_109 : runFirst.sl.r_109 c i xt = word c i xt (xfer 3 2) := word_of_off c i xt (xfer 3 2) (off101_eq i)
theorem w_r_112 : runFirst.sl.r_112 c i xt = word c i xt (xfer 3 3) := word_of_off c i xt (xfer 3 3) (off103_eq i)
theorem w_r_115 : runFirst.sl.r_115 c i xt = word c i xt (xfer 3 4) := word_of_off c i xt (xfer 3 4) (off105_eq i)
theorem w_r_116 : runFirst.sl.r_116 c i xt = word c i xt (xfer 3 5) := word_of_off c i xt (xfer 3 5) (off107_eq i)
theorem w_r_118 : runFirst.sl.r_118 c i xt = word c i xt (xfer 3 6) := word_of_off c i xt (xfer 3 6) (off109_eq i)
theorem w_r_12 : runFirst.sl.r_12 c i xt = word c i xt (xfer 0 6) := word_of_off c i xt (xfer 0 6) (off13_eq i)
theorem w_r_121 : runFirst.sl.r_121 c i xt = word c i xt (xfer 3 7) := word_of_off c i xt (xfer 3 7) (off111_eq i)
theorem w_r_122 : runFirst.sl.r_122 c i xt = word c i xt (xfer 3 8) := word_of_off c i xt (xfer 3 8) (off113_eq i)
theorem w_r_124 : runFirst.sl.r_124 c i xt = word c i xt (xfer 3 9) := word_of_off c i xt (xfer 3 9) (off115_eq i)
theorem w_r_127 : runFirst.sl.r_127 c i xt = word c i xt (xfer 3 10) := word_of_off c i xt (xfer 3 10) (off117_eq i)
theorem w_r_128 : runFirst.sl.r_128 c i xt = word c i xt (xfer 3 11) := word_of_off c i xt (xfer 3 11) (off119_eq i)
theorem w_r_13 : runFirst.sl.r_13 c i xt = word c i xt (xfer 0 7) := word_of_off c i xt (xfer 0 7) (off15_eq i)
theorem w_r_130 : runFirst.sl.r_130 c i xt = word c i xt (xfer 3 12) := word_of_off c i xt (xfer 3 12) (off121_eq i)
theorem w_r_133 : runFirst.sl.r_133 c i xt = word c i xt (xfer 3 13) := word_of_off c i xt (xfer 3 13) (off123_eq i)
theorem w_r_134 : runFirst.sl.r_134 c i xt = word c i xt (xfer 3 14) := word_of_off c i xt (xfer 3 14) (off125_eq i)
theorem w_r_136 : runFirst.sl.r_136 c i xt = word c i xt (xfer 3 15) := word_of_off c i xt (xfer 3 15) (off127_eq i)
theorem w_r_139 : runFirst.sl.r_139 c i xt = word c i xt (xfer 4 0) := word_of_off c i xt (xfer 4 0) (off129_eq i)
theorem w_r_140 : runFirst.sl.r_140 c i xt = word c i xt (xfer 4 1) := word_of_off c i xt (xfer 4 1) (off131_eq i)
theorem w_r_143 : runFirst.sl.r_143 c i xt = word c i xt (xfer 4 2) := word_of_off c i xt (xfer 4 2) (off133_eq i)
theorem w_r_146 : runFirst.sl.r_146 c i xt = word c i xt (xfer 4 3) := word_of_off c i xt (xfer 4 3) (off135_eq i)
theorem w_r_147 : runFirst.sl.r_147 c i xt = word c i xt (xfer 4 4) := word_of_off c i xt (xfer 4 4) (off137_eq i)
theorem w_r_149 : runFirst.sl.r_149 c i xt = word c i xt (xfer 4 5) := word_of_off c i xt (xfer 4 5) (off139_eq i)
theorem w_r_152 : runFirst.sl.r_152 c i xt = word c i xt (xfer 4 6) := word_of_off c i xt (xfer 4 6) (off141_eq i)
theorem w_r_153 : runFirst.sl.r_153 c i xt = word c i xt (xfer 4 7) := word_of_off c i xt (xfer 4 7) (off143_eq i)
theorem w_r_155 : runFirst.sl.r_155 c i xt = word c i xt (xfer 4 8) := word_of_off c i xt (xfer 4 8) (off145_eq i)
theorem w_r_158 : runFirst.sl.r_158 c i xt = word c i xt (xfer 4 9) := word_of_off c i xt (xfer 4 9) (off147_eq i)
theorem w_r_159 : runFirst.sl.r_159 c i xt = word c i xt (xfer 4 10) := word_of_off c i xt (xfer 4 10) (off149_eq i)
theorem w_r_16 : runFirst.sl.r_16 c i xt = word c i xt (xfer 0 8) := word_of_off c i xt (xfer 0 8) (off17_eq i)
theorem w_r_161 : runFirst.sl.r_161 c i xt = word c i xt (xfer 4 11) := word_of_off c i xt (xfer 4 11) (off151_eq i)
theorem w_r_164 : runFirst.sl.r_164 c i xt = word c i xt (xfer 4 12) := word_of_off c i xt (xfer 4 12) (off153_eq i)
theorem w_r_165 : runFirst.sl.r_165 c i xt = word c i xt (xfer 4 13) := word_of_off c i xt (xfer 4 13) (off155_eq i)
theorem w_r_167 : runFirst.sl.r_167 c i xt = word c i xt (xfer 4 14) := word_of_off c i xt (xfer 4 14) (off157_eq i)
theorem w_r_170 : runFirst.sl.r_170 c i xt = word c i xt (xfer 4 15) := word_of_off c i xt (xfer 4 15) (off159_eq i)
theorem w_r_171 : runFirst.sl.r_171 c i xt = word c i xt (xfer 5 0) := word_of_off c i xt (xfer 5 0) (off161_eq i)
theorem w_r_173 : runFirst.sl.r_173 c i xt = word c i xt (xfer 5 1) := word_of_off c i xt (xfer 5 1) (off163_eq i)
theorem w_r_176 : runFirst.sl.r_176 c i xt = word c i xt (xfer 5 2) := word_of_off c i xt (xfer 5 2) (off165_eq i)
theorem w_r_177 : runFirst.sl.r_177 c i xt = word c i xt (xfer 5 3) := word_of_off c i xt (xfer 5 3) (off167_eq i)
theorem w_r_180 : runFirst.sl.r_180 c i xt = word c i xt (xfer 5 4) := word_of_off c i xt (xfer 5 4) (off169_eq i)
theorem w_r_183 : runFirst.sl.r_183 c i xt = word c i xt (xfer 5 5) := word_of_off c i xt (xfer 5 5) (off171_eq i)
theorem w_r_184 : runFirst.sl.r_184 c i xt = word c i xt (xfer 5 6) := word_of_off c i xt (xfer 5 6) (off173_eq i)
theorem w_r_186 : runFirst.sl.r_186 c i xt = word c i xt (xfer 5 7) := word_of_off c i xt (xfer 5 7) (off175_eq i)
theorem w_r_189 : runFirst.sl.r_189 c i xt = word c i xt (xfer 5 8) := word_of_off c i xt (xfer 5 8) (off177_eq i)
theorem w_r_19 : runFirst.sl.r_19 c i xt = word c i xt (xfer 0 9) := word_of_off c i xt (xfer 0 9) (off19_eq i)
theorem w_r_190 : runFirst.sl.r_190 c i xt = word c i xt (xfer 5 9) := word_of_off c i xt (xfer 5 9) (off179_eq i)
theorem w_r_192 : runFirst.sl.r_192 c i xt = word c i xt (xfer 5 10) := word_of_off c i xt (xfer 5 10) (off181_eq i)
theorem w_r_195 : runFirst.sl.r_195 c i xt = word c i xt (xfer 5 11) := word_of_off c i xt (xfer 5 11) (off183_eq i)
theorem w_r_196 : runFirst.sl.r_196 c i xt = word c i xt (xfer 5 12) := word_of_off c i xt (xfer 5 12) (off185_eq i)
theorem w_r_198 : runFirst.sl.r_198 c i xt = word c i xt (xfer 5 13) := word_of_off c i xt (xfer 5 13) (off187_eq i)
theorem w_r_2 : runFirst.sl.r_2 c i xt = word c i xt (xfer 0 2) := word_of_off c i xt (xfer 0 2) (off5_eq i)
theorem w_r_20 : runFirst.sl.r_20 c i xt = word c i xt (xfer 0 10) := word_of_off c i xt (xfer 0 10) (off21_eq i)
theorem w_r_201 : runFirst.sl.r_201 c i xt = word c i xt (xfer 5 14) := word_of_off c i xt (xfer 5 14) (off189_eq i)
theorem w_r_202 : runFirst.sl.r_202 c i xt = word c i xt (xfer 5 15) := word_of_off c i xt (xfer 5 15) (off191_eq i)
theorem w_r_204 : runFirst.sl.r_204 c i xt = word c i xt (xfer 6 0) := word_of_off c i xt (xfer 6 0) (off193_eq i)
theorem w_r_206 : runFirst.sl.r_206 c i xt = word c i xt (xfer 6 1) := word_of_off c i xt (xfer 6 1) (off195_eq i)
theorem w_r_207 : runFirst.sl.r_207 c i xt = word c i xt (xfer 6 2) := word_of_off c i xt (xfer 6 2) (off197_eq i)
theorem w_r_209 : runFirst.sl.r_209 c i xt = word c i xt (xfer 6 3) := word_of_off c i xt (xfer 6 3) (off199_eq i)
theorem w_r_212 : runFirst.sl.r_212 c i xt = word c i xt (xfer 6 4) := word_of_off c i xt (xfer 6 4) (off201_eq i)
theorem w_r_213 : runFirst.sl.r_213 c i xt = word c i xt (xfer 6 5) := word_of_off c i xt (xfer 6 5) (off203_eq i)
theorem w_r_215 : runFirst.sl.r_215 c i xt = word c i xt (xfer 6 6) := word_of_off c i xt (xfer 6 6) (off205_eq i)
theorem w_r_218 : runFirst.sl.r_218 c i xt = word c i xt (xfer 6 7) := word_of_off c i xt (xfer 6 7) (off207_eq i)
theorem w_r_219 : runFirst.sl.r_219 c i xt = word c i xt (xfer 6 8) := word_of_off c i xt (xfer 6 8) (off209_eq i)
theorem w_r_221 : runFirst.sl.r_221 c i xt = word c i xt (xfer 6 9) := word_of_off c i xt (xfer 6 9) (off211_eq i)
theorem w_r_224 : runFirst.sl.r_224 c i xt = word c i xt (xfer 6 10) := word_of_off c i xt (xfer 6 10) (off213_eq i)
theorem w_r_225 : runFirst.sl.r_225 c i xt = word c i xt (xfer 6 11) := word_of_off c i xt (xfer 6 11) (off215_eq i)
theorem w_r_227 : runFirst.sl.r_227 c i xt = word c i xt (xfer 6 12) := word_of_off c i xt (xfer 6 12) (off217_eq i)
theorem w_r_23 : runFirst.sl.r_23 c i xt = word c i xt (xfer 0 11) := word_of_off c i xt (xfer 0 11) (off23_eq i)
theorem w_r_230 : runFirst.sl.r_230 c i xt = word c i xt (xfer 6 13) := word_of_off c i xt (xfer 6 13) (off219_eq i)
theorem w_r_231 : runFirst.sl.r_231 c i xt = word c i xt (xfer 6 14) := word_of_off c i xt (xfer 6 14) (off221_eq i)
theorem w_r_233 : runFirst.sl.r_233 c i xt = word c i xt (xfer 6 15) := word_of_off c i xt (xfer 6 15) (off223_eq i)
theorem w_r_236 : runFirst.sl.r_236 c i xt = word c i xt (xfer 7 0) := word_of_off c i xt (xfer 7 0) (off225_eq i)
theorem w_r_237 : runFirst.sl.r_237 c i xt = word c i xt (xfer 7 1) := word_of_off c i xt (xfer 7 1) (off227_eq i)
theorem w_r_239 : runFirst.sl.r_239 c i xt = word c i xt (xfer 7 2) := word_of_off c i xt (xfer 7 2) (off229_eq i)
theorem w_r_242 : runFirst.sl.r_242 c i xt = word c i xt (xfer 7 3) := word_of_off c i xt (xfer 7 3) (off231_eq i)
theorem w_r_243 : runFirst.sl.r_243 c i xt = word c i xt (xfer 7 4) := word_of_off c i xt (xfer 7 4) (off233_eq i)
theorem w_r_245 : runFirst.sl.r_245 c i xt = word c i xt (xfer 7 5) := word_of_off c i xt (xfer 7 5) (off235_eq i)
theorem w_r_248 : runFirst.sl.r_248 c i xt = word c i xt (xfer 7 6) := word_of_off c i xt (xfer 7 6) (off237_eq i)
theorem w_r_249 : runFirst.sl.r_249 c i xt = word c i xt (xfer 7 7) := word_of_off c i xt (xfer 7 7) (off239_eq i)
theorem w_r_251 : runFirst.sl.r_251 c i xt = word c i xt (xfer 7 8) := word_of_off c i xt (xfer 7 8) (off241_eq i)
theorem w_r_254 : runFirst.sl.r_254 c i xt = word c i xt (xfer 7 9) := word_of_off c i xt (xfer 7 9) (off243_eq i)
theorem w_r_255 : runFirst.sl.r_255 c i xt = word c i xt (xfer 7 10) := word_of_off c i xt (xfer 7 10) (off245_eq i)
theorem w_r_257 : runFirst.sl.r_257 c i xt = word c i xt (xfer 7 11) := word_of_off c i xt (xfer 7 11) (off247_eq i)
theorem w_r_26 : runFirst.sl.r_26 c i xt = word c i xt (xfer 0 12) := word_of_off c i xt (xfer 0 12) (off25_eq i)
theorem w_r_260 : runFirst.sl.r_260 c i xt = word c i xt (xfer 7 12) := word_of_off c i xt (xfer 7 12) (off249_eq i)
theorem w_r_261 : runFirst.sl.r_261 c i xt = word c i xt (xfer 7 13) := word_of_off c i xt (xfer 7 13) (off251_eq i)
theorem w_r_263 : runFirst.sl.r_263 c i xt = word c i xt (xfer 7 14) := word_of_off c i xt (xfer 7 14) (off253_eq i)
theorem w_r_266 : runFirst.sl.r_266 c i xt = word c i xt (xfer 7 15) := word_of_off c i xt (xfer 7 15) (off255_eq i)
theorem w_r_27 : runFirst.sl.r_27 c i xt = word c i xt (xfer 0 13) := word_of_off c i xt (xfer 0 13) (off27_eq i)
theorem w_r_30 : runFirst.sl.r_30 c i xt = word c i xt (xfer 0 14) := word_of_off c i xt (xfer 0 14) (off29_eq i)
theorem w_r_33 : runFirst.sl.r_33 c i xt = word c i xt (xfer 0 15) := word_of_off c i xt (xfer 0 15) (off31_eq i)
theorem w_r_34 : runFirst.sl.r_34 c i xt = word c i xt (xfer 1 0) := word_of_off c i xt (xfer 1 0) (off33_eq i)
theorem w_r_37 : runFirst.sl.r_37 c i xt = word c i xt (xfer 1 1) := word_of_off c i xt (xfer 1 1) (off35_eq i)
theorem w_r_40 : runFirst.sl.r_40 c i xt = word c i xt (xfer 1 2) := word_of_off c i xt (xfer 1 2) (off37_eq i)
theorem w_r_43 : runFirst.sl.r_43 c i xt = word c i xt (xfer 1 3) := word_of_off c i xt (xfer 1 3) (off39_eq i)
theorem w_r_44 : runFirst.sl.r_44 c i xt = word c i xt (xfer 1 4) := word_of_off c i xt (xfer 1 4) (off41_eq i)
theorem w_r_47 : runFirst.sl.r_47 c i xt = word c i xt (xfer 1 5) := word_of_off c i xt (xfer 1 5) (off43_eq i)
theorem w_r_5 : runFirst.sl.r_5 c i xt = word c i xt (xfer 0 3) := word_of_off c i xt (xfer 0 3) (off7_eq i)
theorem w_r_50 : runFirst.sl.r_50 c i xt = word c i xt (xfer 1 6) := word_of_off c i xt (xfer 1 6) (off45_eq i)
theorem w_r_51 : runFirst.sl.r_51 c i xt = word c i xt (xfer 1 7) := word_of_off c i xt (xfer 1 7) (off47_eq i)
theorem w_r_54 : runFirst.sl.r_54 c i xt = word c i xt (xfer 1 8) := word_of_off c i xt (xfer 1 8) (off49_eq i)
theorem w_r_57 : runFirst.sl.r_57 c i xt = word c i xt (xfer 1 9) := word_of_off c i xt (xfer 1 9) (off51_eq i)
theorem w_r_58 : runFirst.sl.r_58 c i xt = word c i xt (xfer 1 10) := word_of_off c i xt (xfer 1 10) (off53_eq i)
theorem w_r_6 : runFirst.sl.r_6 c i xt = word c i xt (xfer 0 4) := word_of_off c i xt (xfer 0 4) (off9_eq i)
theorem w_r_61 : runFirst.sl.r_61 c i xt = word c i xt (xfer 1 11) := word_of_off c i xt (xfer 1 11) (off55_eq i)
theorem w_r_64 : runFirst.sl.r_64 c i xt = word c i xt (xfer 1 12) := word_of_off c i xt (xfer 1 12) (off57_eq i)
theorem w_r_65 : runFirst.sl.r_65 c i xt = word c i xt (xfer 1 13) := word_of_off c i xt (xfer 1 13) (off59_eq i)
theorem w_r_68 : runFirst.sl.r_68 c i xt = word c i xt (xfer 1 14) := word_of_off c i xt (xfer 1 14) (off61_eq i)
theorem w_r_71 : runFirst.sl.r_71 c i xt = word c i xt (xfer 1 15) := word_of_off c i xt (xfer 1 15) (off63_eq i)
theorem w_r_72 : runFirst.sl.r_72 c i xt = word c i xt (xfer 2 0) := word_of_off c i xt (xfer 2 0) (off65_eq i)
theorem w_r_75 : runFirst.sl.r_75 c i xt = word c i xt (xfer 2 1) := word_of_off c i xt (xfer 2 1) (off67_eq i)
theorem w_r_78 : runFirst.sl.r_78 c i xt = word c i xt (xfer 2 2) := word_of_off c i xt (xfer 2 2) (off69_eq i)
theorem w_r_79 : runFirst.sl.r_79 c i xt = word c i xt (xfer 2 3) := word_of_off c i xt (xfer 2 3) (off71_eq i)
theorem w_r_82 : runFirst.sl.r_82 c i xt = word c i xt (xfer 2 4) := word_of_off c i xt (xfer 2 4) (off73_eq i)
theorem w_r_85 : runFirst.sl.r_85 c i xt = word c i xt (xfer 2 5) := word_of_off c i xt (xfer 2 5) (off75_eq i)
theorem w_r_86 : runFirst.sl.r_86 c i xt = word c i xt (xfer 2 6) := word_of_off c i xt (xfer 2 6) (off77_eq i)
theorem w_r_88 : runFirst.sl.r_88 c i xt = word c i xt (xfer 2 7) := word_of_off c i xt (xfer 2 7) (off79_eq i)
theorem w_r_9 : runFirst.sl.r_9 c i xt = word c i xt (xfer 0 5) := word_of_off c i xt (xfer 0 5) (off11_eq i)
theorem w_r_91 : runFirst.sl.r_91 c i xt = word c i xt (xfer 2 8) := word_of_off c i xt (xfer 2 8) (off81_eq i)
theorem w_r_92 : runFirst.sl.r_92 c i xt = word c i xt (xfer 2 9) := word_of_off c i xt (xfer 2 9) (off83_eq i)
theorem w_r_94 : runFirst.sl.r_94 c i xt = word c i xt (xfer 2 10) := word_of_off c i xt (xfer 2 10) (off85_eq i)
theorem w_r_97 : runFirst.sl.r_97 c i xt = word c i xt (xfer 2 11) := word_of_off c i xt (xfer 2 11) (off87_eq i)
theorem w_r_98 : runFirst.sl.r_98 c i xt = word c i xt (xfer 2 12) := word_of_off c i xt (xfer 2 12) (off89_eq i)
theorem d_dma101 : runFirst.sl.dma101 c i xt fh hrows = arrRow c fh (word c i xt (xfer 2 0)) (word_lt c i xt hrows (xfer 2 0)) := dma_of_word c fh _ _ (w_r_72 c i xt) _ rfl
theorem d_dma104 : runFirst.sl.dma104 c i xt fh hrows = arrRow c fh (word c i xt (xfer 2 1)) (word_lt c i xt hrows (xfer 2 1)) := dma_of_word c fh _ _ (w_r_75 c i xt) _ rfl
theorem d_dma107 : runFirst.sl.dma107 c i xt fh hrows = arrRow c fh (word c i xt (xfer 2 2)) (word_lt c i xt hrows (xfer 2 2)) := dma_of_word c fh _ _ (w_r_78 c i xt) _ rfl
theorem d_dma11 : runFirst.sl.dma11 c i xt fh hrows = arrRow c fh (word c i xt (xfer 0 2)) (word_lt c i xt hrows (xfer 0 2)) := dma_of_word c fh _ _ (w_r_2 c i xt) _ rfl
theorem d_dma110 : runFirst.sl.dma110 c i xt fh hrows = arrRow c fh (word c i xt (xfer 2 3)) (word_lt c i xt hrows (xfer 2 3)) := dma_of_word c fh _ _ (w_r_79 c i xt) _ rfl
theorem d_dma113 : runFirst.sl.dma113 c i xt fh hrows = arrRow c fh (word c i xt (xfer 2 4)) (word_lt c i xt hrows (xfer 2 4)) := dma_of_word c fh _ _ (w_r_82 c i xt) _ rfl
theorem d_dma116 : runFirst.sl.dma116 c i xt fh hrows = arrRow c fh (word c i xt (xfer 2 5)) (word_lt c i xt hrows (xfer 2 5)) := dma_of_word c fh _ _ (w_r_85 c i xt) _ rfl
theorem d_dma119 : runFirst.sl.dma119 c i xt fh hrows = arrRow c fh (word c i xt (xfer 2 6)) (word_lt c i xt hrows (xfer 2 6)) := dma_of_word c fh _ _ (w_r_86 c i xt) _ rfl
theorem d_dma122 : runFirst.sl.dma122 c i xt fh hrows = arrRow c fh (word c i xt (xfer 2 7)) (word_lt c i xt hrows (xfer 2 7)) := dma_of_word c fh _ _ (w_r_88 c i xt) _ rfl
theorem d_dma125 : runFirst.sl.dma125 c i xt fh hrows = arrRow c fh (word c i xt (xfer 2 8)) (word_lt c i xt hrows (xfer 2 8)) := dma_of_word c fh _ _ (w_r_91 c i xt) _ rfl
theorem d_dma128 : runFirst.sl.dma128 c i xt fh hrows = arrRow c fh (word c i xt (xfer 2 9)) (word_lt c i xt hrows (xfer 2 9)) := dma_of_word c fh _ _ (w_r_92 c i xt) _ rfl
theorem d_dma131 : runFirst.sl.dma131 c i xt fh hrows = arrRow c fh (word c i xt (xfer 2 10)) (word_lt c i xt hrows (xfer 2 10)) := dma_of_word c fh _ _ (w_r_94 c i xt) _ rfl
theorem d_dma134 : runFirst.sl.dma134 c i xt fh hrows = arrRow c fh (word c i xt (xfer 2 11)) (word_lt c i xt hrows (xfer 2 11)) := dma_of_word c fh _ _ (w_r_97 c i xt) _ rfl
theorem d_dma137 : runFirst.sl.dma137 c i xt fh hrows = arrRow c fh (word c i xt (xfer 2 12)) (word_lt c i xt hrows (xfer 2 12)) := dma_of_word c fh _ _ (w_r_98 c i xt) _ rfl
theorem d_dma14 : runFirst.sl.dma14 c i xt fh hrows = arrRow c fh (word c i xt (xfer 0 3)) (word_lt c i xt hrows (xfer 0 3)) := dma_of_word c fh _ _ (w_r_5 c i xt) _ rfl
theorem d_dma140 : runFirst.sl.dma140 c i xt fh hrows = arrRow c fh (word c i xt (xfer 2 13)) (word_lt c i xt hrows (xfer 2 13)) := dma_of_word c fh _ _ (w_r_100 c i xt) _ rfl
theorem d_dma143 : runFirst.sl.dma143 c i xt fh hrows = arrRow c fh (word c i xt (xfer 2 14)) (word_lt c i xt hrows (xfer 2 14)) := dma_of_word c fh _ _ (w_r_103 c i xt) _ rfl
theorem d_dma146 : runFirst.sl.dma146 c i xt fh hrows = arrRow c fh (word c i xt (xfer 2 15)) (word_lt c i xt hrows (xfer 2 15)) := dma_of_word c fh _ _ (w_r_104 c i xt) _ rfl
theorem d_dma149 : runFirst.sl.dma149 c i xt fh hrows = arrRow c fh (word c i xt (xfer 3 0)) (word_lt c i xt hrows (xfer 3 0)) := dma_of_word c fh _ _ (w_r_106 c i xt) _ rfl
theorem d_dma152 : runFirst.sl.dma152 c i xt fh hrows = arrRow c fh (word c i xt (xfer 3 1)) (word_lt c i xt hrows (xfer 3 1)) := dma_of_word c fh _ _ (w_r_108 c i xt) _ rfl
theorem d_dma155 : runFirst.sl.dma155 c i xt fh hrows = arrRow c fh (word c i xt (xfer 3 2)) (word_lt c i xt hrows (xfer 3 2)) := dma_of_word c fh _ _ (w_r_109 c i xt) _ rfl
theorem d_dma158 : runFirst.sl.dma158 c i xt fh hrows = arrRow c fh (word c i xt (xfer 3 3)) (word_lt c i xt hrows (xfer 3 3)) := dma_of_word c fh _ _ (w_r_112 c i xt) _ rfl
theorem d_dma161 : runFirst.sl.dma161 c i xt fh hrows = arrRow c fh (word c i xt (xfer 3 4)) (word_lt c i xt hrows (xfer 3 4)) := dma_of_word c fh _ _ (w_r_115 c i xt) _ rfl
theorem d_dma164 : runFirst.sl.dma164 c i xt fh hrows = arrRow c fh (word c i xt (xfer 3 5)) (word_lt c i xt hrows (xfer 3 5)) := dma_of_word c fh _ _ (w_r_116 c i xt) _ rfl
theorem d_dma167 : runFirst.sl.dma167 c i xt fh hrows = arrRow c fh (word c i xt (xfer 3 6)) (word_lt c i xt hrows (xfer 3 6)) := dma_of_word c fh _ _ (w_r_118 c i xt) _ rfl
theorem d_dma17 : runFirst.sl.dma17 c i xt fh hrows = arrRow c fh (word c i xt (xfer 0 4)) (word_lt c i xt hrows (xfer 0 4)) := dma_of_word c fh _ _ (w_r_6 c i xt) _ rfl
theorem d_dma170 : runFirst.sl.dma170 c i xt fh hrows = arrRow c fh (word c i xt (xfer 3 7)) (word_lt c i xt hrows (xfer 3 7)) := dma_of_word c fh _ _ (w_r_121 c i xt) _ rfl
theorem d_dma173 : runFirst.sl.dma173 c i xt fh hrows = arrRow c fh (word c i xt (xfer 3 8)) (word_lt c i xt hrows (xfer 3 8)) := dma_of_word c fh _ _ (w_r_122 c i xt) _ rfl
theorem d_dma176 : runFirst.sl.dma176 c i xt fh hrows = arrRow c fh (word c i xt (xfer 3 9)) (word_lt c i xt hrows (xfer 3 9)) := dma_of_word c fh _ _ (w_r_124 c i xt) _ rfl
theorem d_dma179 : runFirst.sl.dma179 c i xt fh hrows = arrRow c fh (word c i xt (xfer 3 10)) (word_lt c i xt hrows (xfer 3 10)) := dma_of_word c fh _ _ (w_r_127 c i xt) _ rfl
theorem d_dma182 : runFirst.sl.dma182 c i xt fh hrows = arrRow c fh (word c i xt (xfer 3 11)) (word_lt c i xt hrows (xfer 3 11)) := dma_of_word c fh _ _ (w_r_128 c i xt) _ rfl
theorem d_dma185 : runFirst.sl.dma185 c i xt fh hrows = arrRow c fh (word c i xt (xfer 3 12)) (word_lt c i xt hrows (xfer 3 12)) := dma_of_word c fh _ _ (w_r_130 c i xt) _ rfl
theorem d_dma188 : runFirst.sl.dma188 c i xt fh hrows = arrRow c fh (word c i xt (xfer 3 13)) (word_lt c i xt hrows (xfer 3 13)) := dma_of_word c fh _ _ (w_r_133 c i xt) _ rfl
theorem d_dma191 : runFirst.sl.dma191 c i xt fh hrows = arrRow c fh (word c i xt (xfer 3 14)) (word_lt c i xt hrows (xfer 3 14)) := dma_of_word c fh _ _ (w_r_134 c i xt) _ rfl
theorem d_dma194 : runFirst.sl.dma194 c i xt fh hrows = arrRow c fh (word c i xt (xfer 3 15)) (word_lt c i xt hrows (xfer 3 15)) := dma_of_word c fh _ _ (w_r_136 c i xt) _ rfl
theorem d_dma197 : runFirst.sl.dma197 c i xt fh hrows = arrRow c fh (word c i xt (xfer 4 0)) (word_lt c i xt hrows (xfer 4 0)) := dma_of_word c fh _ _ (w_r_139 c i xt) _ rfl
theorem d_dma20 : runFirst.sl.dma20 c i xt fh hrows = arrRow c fh (word c i xt (xfer 0 5)) (word_lt c i xt hrows (xfer 0 5)) := dma_of_word c fh _ _ (w_r_9 c i xt) _ rfl
theorem d_dma200 : runFirst.sl.dma200 c i xt fh hrows = arrRow c fh (word c i xt (xfer 4 1)) (word_lt c i xt hrows (xfer 4 1)) := dma_of_word c fh _ _ (w_r_140 c i xt) _ rfl
theorem d_dma203 : runFirst.sl.dma203 c i xt fh hrows = arrRow c fh (word c i xt (xfer 4 2)) (word_lt c i xt hrows (xfer 4 2)) := dma_of_word c fh _ _ (w_r_143 c i xt) _ rfl
theorem d_dma206 : runFirst.sl.dma206 c i xt fh hrows = arrRow c fh (word c i xt (xfer 4 3)) (word_lt c i xt hrows (xfer 4 3)) := dma_of_word c fh _ _ (w_r_146 c i xt) _ rfl
theorem d_dma209 : runFirst.sl.dma209 c i xt fh hrows = arrRow c fh (word c i xt (xfer 4 4)) (word_lt c i xt hrows (xfer 4 4)) := dma_of_word c fh _ _ (w_r_147 c i xt) _ rfl
theorem d_dma212 : runFirst.sl.dma212 c i xt fh hrows = arrRow c fh (word c i xt (xfer 4 5)) (word_lt c i xt hrows (xfer 4 5)) := dma_of_word c fh _ _ (w_r_149 c i xt) _ rfl
theorem d_dma215 : runFirst.sl.dma215 c i xt fh hrows = arrRow c fh (word c i xt (xfer 4 6)) (word_lt c i xt hrows (xfer 4 6)) := dma_of_word c fh _ _ (w_r_152 c i xt) _ rfl
theorem d_dma218 : runFirst.sl.dma218 c i xt fh hrows = arrRow c fh (word c i xt (xfer 4 7)) (word_lt c i xt hrows (xfer 4 7)) := dma_of_word c fh _ _ (w_r_153 c i xt) _ rfl
theorem d_dma221 : runFirst.sl.dma221 c i xt fh hrows = arrRow c fh (word c i xt (xfer 4 8)) (word_lt c i xt hrows (xfer 4 8)) := dma_of_word c fh _ _ (w_r_155 c i xt) _ rfl
theorem d_dma224 : runFirst.sl.dma224 c i xt fh hrows = arrRow c fh (word c i xt (xfer 4 9)) (word_lt c i xt hrows (xfer 4 9)) := dma_of_word c fh _ _ (w_r_158 c i xt) _ rfl
theorem d_dma227 : runFirst.sl.dma227 c i xt fh hrows = arrRow c fh (word c i xt (xfer 4 10)) (word_lt c i xt hrows (xfer 4 10)) := dma_of_word c fh _ _ (w_r_159 c i xt) _ rfl
theorem d_dma23 : runFirst.sl.dma23 c i xt fh hrows = arrRow c fh (word c i xt (xfer 0 6)) (word_lt c i xt hrows (xfer 0 6)) := dma_of_word c fh _ _ (w_r_12 c i xt) _ rfl
theorem d_dma230 : runFirst.sl.dma230 c i xt fh hrows = arrRow c fh (word c i xt (xfer 4 11)) (word_lt c i xt hrows (xfer 4 11)) := dma_of_word c fh _ _ (w_r_161 c i xt) _ rfl
theorem d_dma233 : runFirst.sl.dma233 c i xt fh hrows = arrRow c fh (word c i xt (xfer 4 12)) (word_lt c i xt hrows (xfer 4 12)) := dma_of_word c fh _ _ (w_r_164 c i xt) _ rfl
theorem d_dma236 : runFirst.sl.dma236 c i xt fh hrows = arrRow c fh (word c i xt (xfer 4 13)) (word_lt c i xt hrows (xfer 4 13)) := dma_of_word c fh _ _ (w_r_165 c i xt) _ rfl
theorem d_dma239 : runFirst.sl.dma239 c i xt fh hrows = arrRow c fh (word c i xt (xfer 4 14)) (word_lt c i xt hrows (xfer 4 14)) := dma_of_word c fh _ _ (w_r_167 c i xt) _ rfl
theorem d_dma242 : runFirst.sl.dma242 c i xt fh hrows = arrRow c fh (word c i xt (xfer 4 15)) (word_lt c i xt hrows (xfer 4 15)) := dma_of_word c fh _ _ (w_r_170 c i xt) _ rfl
theorem d_dma245 : runFirst.sl.dma245 c i xt fh hrows = arrRow c fh (word c i xt (xfer 5 0)) (word_lt c i xt hrows (xfer 5 0)) := dma_of_word c fh _ _ (w_r_171 c i xt) _ rfl
theorem d_dma248 : runFirst.sl.dma248 c i xt fh hrows = arrRow c fh (word c i xt (xfer 5 1)) (word_lt c i xt hrows (xfer 5 1)) := dma_of_word c fh _ _ (w_r_173 c i xt) _ rfl
theorem d_dma251 : runFirst.sl.dma251 c i xt fh hrows = arrRow c fh (word c i xt (xfer 5 2)) (word_lt c i xt hrows (xfer 5 2)) := dma_of_word c fh _ _ (w_r_176 c i xt) _ rfl
theorem d_dma254 : runFirst.sl.dma254 c i xt fh hrows = arrRow c fh (word c i xt (xfer 5 3)) (word_lt c i xt hrows (xfer 5 3)) := dma_of_word c fh _ _ (w_r_177 c i xt) _ rfl
theorem d_dma257 : runFirst.sl.dma257 c i xt fh hrows = arrRow c fh (word c i xt (xfer 5 4)) (word_lt c i xt hrows (xfer 5 4)) := dma_of_word c fh _ _ (w_r_180 c i xt) _ rfl
theorem d_dma26 : runFirst.sl.dma26 c i xt fh hrows = arrRow c fh (word c i xt (xfer 0 7)) (word_lt c i xt hrows (xfer 0 7)) := dma_of_word c fh _ _ (w_r_13 c i xt) _ rfl
theorem d_dma260 : runFirst.sl.dma260 c i xt fh hrows = arrRow c fh (word c i xt (xfer 5 5)) (word_lt c i xt hrows (xfer 5 5)) := dma_of_word c fh _ _ (w_r_183 c i xt) _ rfl
theorem d_dma263 : runFirst.sl.dma263 c i xt fh hrows = arrRow c fh (word c i xt (xfer 5 6)) (word_lt c i xt hrows (xfer 5 6)) := dma_of_word c fh _ _ (w_r_184 c i xt) _ rfl
theorem d_dma266 : runFirst.sl.dma266 c i xt fh hrows = arrRow c fh (word c i xt (xfer 5 7)) (word_lt c i xt hrows (xfer 5 7)) := dma_of_word c fh _ _ (w_r_186 c i xt) _ rfl
theorem d_dma269 : runFirst.sl.dma269 c i xt fh hrows = arrRow c fh (word c i xt (xfer 5 8)) (word_lt c i xt hrows (xfer 5 8)) := dma_of_word c fh _ _ (w_r_189 c i xt) _ rfl
theorem d_dma272 : runFirst.sl.dma272 c i xt fh hrows = arrRow c fh (word c i xt (xfer 5 9)) (word_lt c i xt hrows (xfer 5 9)) := dma_of_word c fh _ _ (w_r_190 c i xt) _ rfl
theorem d_dma275 : runFirst.sl.dma275 c i xt fh hrows = arrRow c fh (word c i xt (xfer 5 10)) (word_lt c i xt hrows (xfer 5 10)) := dma_of_word c fh _ _ (w_r_192 c i xt) _ rfl
theorem d_dma278 : runFirst.sl.dma278 c i xt fh hrows = arrRow c fh (word c i xt (xfer 5 11)) (word_lt c i xt hrows (xfer 5 11)) := dma_of_word c fh _ _ (w_r_195 c i xt) _ rfl
theorem d_dma281 : runFirst.sl.dma281 c i xt fh hrows = arrRow c fh (word c i xt (xfer 5 12)) (word_lt c i xt hrows (xfer 5 12)) := dma_of_word c fh _ _ (w_r_196 c i xt) _ rfl
theorem d_dma284 : runFirst.sl.dma284 c i xt fh hrows = arrRow c fh (word c i xt (xfer 5 13)) (word_lt c i xt hrows (xfer 5 13)) := dma_of_word c fh _ _ (w_r_198 c i xt) _ rfl
theorem d_dma287 : runFirst.sl.dma287 c i xt fh hrows = arrRow c fh (word c i xt (xfer 5 14)) (word_lt c i xt hrows (xfer 5 14)) := dma_of_word c fh _ _ (w_r_201 c i xt) _ rfl
theorem d_dma29 : runFirst.sl.dma29 c i xt fh hrows = arrRow c fh (word c i xt (xfer 0 8)) (word_lt c i xt hrows (xfer 0 8)) := dma_of_word c fh _ _ (w_r_16 c i xt) _ rfl
theorem d_dma290 : runFirst.sl.dma290 c i xt fh hrows = arrRow c fh (word c i xt (xfer 5 15)) (word_lt c i xt hrows (xfer 5 15)) := dma_of_word c fh _ _ (w_r_202 c i xt) _ rfl
theorem d_dma293 : runFirst.sl.dma293 c i xt fh hrows = arrRow c fh (word c i xt (xfer 6 0)) (word_lt c i xt hrows (xfer 6 0)) := dma_of_word c fh _ _ (w_r_204 c i xt) _ rfl
theorem d_dma296 : runFirst.sl.dma296 c i xt fh hrows = arrRow c fh (word c i xt (xfer 6 1)) (word_lt c i xt hrows (xfer 6 1)) := dma_of_word c fh _ _ (w_r_206 c i xt) _ rfl
theorem d_dma299 : runFirst.sl.dma299 c i xt fh hrows = arrRow c fh (word c i xt (xfer 6 2)) (word_lt c i xt hrows (xfer 6 2)) := dma_of_word c fh _ _ (w_r_207 c i xt) _ rfl
theorem d_dma302 : runFirst.sl.dma302 c i xt fh hrows = arrRow c fh (word c i xt (xfer 6 3)) (word_lt c i xt hrows (xfer 6 3)) := dma_of_word c fh _ _ (w_r_209 c i xt) _ rfl
theorem d_dma305 : runFirst.sl.dma305 c i xt fh hrows = arrRow c fh (word c i xt (xfer 6 4)) (word_lt c i xt hrows (xfer 6 4)) := dma_of_word c fh _ _ (w_r_212 c i xt) _ rfl
theorem d_dma308 : runFirst.sl.dma308 c i xt fh hrows = arrRow c fh (word c i xt (xfer 6 5)) (word_lt c i xt hrows (xfer 6 5)) := dma_of_word c fh _ _ (w_r_213 c i xt) _ rfl
theorem d_dma311 : runFirst.sl.dma311 c i xt fh hrows = arrRow c fh (word c i xt (xfer 6 6)) (word_lt c i xt hrows (xfer 6 6)) := dma_of_word c fh _ _ (w_r_215 c i xt) _ rfl
theorem d_dma314 : runFirst.sl.dma314 c i xt fh hrows = arrRow c fh (word c i xt (xfer 6 7)) (word_lt c i xt hrows (xfer 6 7)) := dma_of_word c fh _ _ (w_r_218 c i xt) _ rfl
theorem d_dma317 : runFirst.sl.dma317 c i xt fh hrows = arrRow c fh (word c i xt (xfer 6 8)) (word_lt c i xt hrows (xfer 6 8)) := dma_of_word c fh _ _ (w_r_219 c i xt) _ rfl
theorem d_dma32 : runFirst.sl.dma32 c i xt fh hrows = arrRow c fh (word c i xt (xfer 0 9)) (word_lt c i xt hrows (xfer 0 9)) := dma_of_word c fh _ _ (w_r_19 c i xt) _ rfl
theorem d_dma320 : runFirst.sl.dma320 c i xt fh hrows = arrRow c fh (word c i xt (xfer 6 9)) (word_lt c i xt hrows (xfer 6 9)) := dma_of_word c fh _ _ (w_r_221 c i xt) _ rfl
theorem d_dma323 : runFirst.sl.dma323 c i xt fh hrows = arrRow c fh (word c i xt (xfer 6 10)) (word_lt c i xt hrows (xfer 6 10)) := dma_of_word c fh _ _ (w_r_224 c i xt) _ rfl
theorem d_dma326 : runFirst.sl.dma326 c i xt fh hrows = arrRow c fh (word c i xt (xfer 6 11)) (word_lt c i xt hrows (xfer 6 11)) := dma_of_word c fh _ _ (w_r_225 c i xt) _ rfl
theorem d_dma329 : runFirst.sl.dma329 c i xt fh hrows = arrRow c fh (word c i xt (xfer 6 12)) (word_lt c i xt hrows (xfer 6 12)) := dma_of_word c fh _ _ (w_r_227 c i xt) _ rfl
theorem d_dma332 : runFirst.sl.dma332 c i xt fh hrows = arrRow c fh (word c i xt (xfer 6 13)) (word_lt c i xt hrows (xfer 6 13)) := dma_of_word c fh _ _ (w_r_230 c i xt) _ rfl
theorem d_dma335 : runFirst.sl.dma335 c i xt fh hrows = arrRow c fh (word c i xt (xfer 6 14)) (word_lt c i xt hrows (xfer 6 14)) := dma_of_word c fh _ _ (w_r_231 c i xt) _ rfl
theorem d_dma338 : runFirst.sl.dma338 c i xt fh hrows = arrRow c fh (word c i xt (xfer 6 15)) (word_lt c i xt hrows (xfer 6 15)) := dma_of_word c fh _ _ (w_r_233 c i xt) _ rfl
theorem d_dma341 : runFirst.sl.dma341 c i xt fh hrows = arrRow c fh (word c i xt (xfer 7 0)) (word_lt c i xt hrows (xfer 7 0)) := dma_of_word c fh _ _ (w_r_236 c i xt) _ rfl
theorem d_dma344 : runFirst.sl.dma344 c i xt fh hrows = arrRow c fh (word c i xt (xfer 7 1)) (word_lt c i xt hrows (xfer 7 1)) := dma_of_word c fh _ _ (w_r_237 c i xt) _ rfl
theorem d_dma347 : runFirst.sl.dma347 c i xt fh hrows = arrRow c fh (word c i xt (xfer 7 2)) (word_lt c i xt hrows (xfer 7 2)) := dma_of_word c fh _ _ (w_r_239 c i xt) _ rfl
theorem d_dma35 : runFirst.sl.dma35 c i xt fh hrows = arrRow c fh (word c i xt (xfer 0 10)) (word_lt c i xt hrows (xfer 0 10)) := dma_of_word c fh _ _ (w_r_20 c i xt) _ rfl
theorem d_dma350 : runFirst.sl.dma350 c i xt fh hrows = arrRow c fh (word c i xt (xfer 7 3)) (word_lt c i xt hrows (xfer 7 3)) := dma_of_word c fh _ _ (w_r_242 c i xt) _ rfl
theorem d_dma353 : runFirst.sl.dma353 c i xt fh hrows = arrRow c fh (word c i xt (xfer 7 4)) (word_lt c i xt hrows (xfer 7 4)) := dma_of_word c fh _ _ (w_r_243 c i xt) _ rfl
theorem d_dma356 : runFirst.sl.dma356 c i xt fh hrows = arrRow c fh (word c i xt (xfer 7 5)) (word_lt c i xt hrows (xfer 7 5)) := dma_of_word c fh _ _ (w_r_245 c i xt) _ rfl
theorem d_dma359 : runFirst.sl.dma359 c i xt fh hrows = arrRow c fh (word c i xt (xfer 7 6)) (word_lt c i xt hrows (xfer 7 6)) := dma_of_word c fh _ _ (w_r_248 c i xt) _ rfl
theorem d_dma362 : runFirst.sl.dma362 c i xt fh hrows = arrRow c fh (word c i xt (xfer 7 7)) (word_lt c i xt hrows (xfer 7 7)) := dma_of_word c fh _ _ (w_r_249 c i xt) _ rfl
theorem d_dma365 : runFirst.sl.dma365 c i xt fh hrows = arrRow c fh (word c i xt (xfer 7 8)) (word_lt c i xt hrows (xfer 7 8)) := dma_of_word c fh _ _ (w_r_251 c i xt) _ rfl
theorem d_dma368 : runFirst.sl.dma368 c i xt fh hrows = arrRow c fh (word c i xt (xfer 7 9)) (word_lt c i xt hrows (xfer 7 9)) := dma_of_word c fh _ _ (w_r_254 c i xt) _ rfl
theorem d_dma371 : runFirst.sl.dma371 c i xt fh hrows = arrRow c fh (word c i xt (xfer 7 10)) (word_lt c i xt hrows (xfer 7 10)) := dma_of_word c fh _ _ (w_r_255 c i xt) _ rfl
theorem d_dma374 : runFirst.sl.dma374 c i xt fh hrows = arrRow c fh (word c i xt (xfer 7 11)) (word_lt c i xt hrows (xfer 7 11)) := dma_of_word c fh _ _ (w_r_257 c i xt) _ rfl
theorem d_dma377 : runFirst.sl.dma377 c i xt fh hrows = arrRow c fh (word c i xt (xfer 7 12)) (word_lt c i xt hrows (xfer 7 12)) := dma_of_word c fh _ _ (w_r_260 c i xt) _ rfl
theorem d_dma38 : runFirst.sl.dma38 c i xt fh hrows = arrRow c fh (word c i xt (xfer 0 11)) (word_lt c i xt hrows (xfer 0 11)) := dma_of_word c fh _ _ (w_r_23 c i xt) _ rfl
theorem d_dma380 : runFirst.sl.dma380 c i xt fh hrows = arrRow c fh (word c i xt (xfer 7 13)) (word_lt c i xt hrows (xfer 7 13)) := dma_of_word c fh _ _ (w_r_261 c i xt) _ rfl
theorem d_dma383 : runFirst.sl.dma383 c i xt fh hrows = arrRow c fh (word c i xt (xfer 7 14)) (word_lt c i xt hrows (xfer 7 14)) := dma_of_word c fh _ _ (w_r_263 c i xt) _ rfl
theorem d_dma386 : runFirst.sl.dma386 c i xt fh hrows = arrRow c fh (word c i xt (xfer 7 15)) (word_lt c i xt hrows (xfer 7 15)) := dma_of_word c fh _ _ (w_r_266 c i xt) _ rfl
theorem d_dma41 : runFirst.sl.dma41 c i xt fh hrows = arrRow c fh (word c i xt (xfer 0 12)) (word_lt c i xt hrows (xfer 0 12)) := dma_of_word c fh _ _ (w_r_26 c i xt) _ rfl
theorem d_dma44 : runFirst.sl.dma44 c i xt fh hrows = arrRow c fh (word c i xt (xfer 0 13)) (word_lt c i xt hrows (xfer 0 13)) := dma_of_word c fh _ _ (w_r_27 c i xt) _ rfl
theorem d_dma47 : runFirst.sl.dma47 c i xt fh hrows = arrRow c fh (word c i xt (xfer 0 14)) (word_lt c i xt hrows (xfer 0 14)) := dma_of_word c fh _ _ (w_r_30 c i xt) _ rfl
theorem d_dma50 : runFirst.sl.dma50 c i xt fh hrows = arrRow c fh (word c i xt (xfer 0 15)) (word_lt c i xt hrows (xfer 0 15)) := dma_of_word c fh _ _ (w_r_33 c i xt) _ rfl
theorem d_dma53 : runFirst.sl.dma53 c i xt fh hrows = arrRow c fh (word c i xt (xfer 1 0)) (word_lt c i xt hrows (xfer 1 0)) := dma_of_word c fh _ _ (w_r_34 c i xt) _ rfl
theorem d_dma56 : runFirst.sl.dma56 c i xt fh hrows = arrRow c fh (word c i xt (xfer 1 1)) (word_lt c i xt hrows (xfer 1 1)) := dma_of_word c fh _ _ (w_r_37 c i xt) _ rfl
theorem d_dma59 : runFirst.sl.dma59 c i xt fh hrows = arrRow c fh (word c i xt (xfer 1 2)) (word_lt c i xt hrows (xfer 1 2)) := dma_of_word c fh _ _ (w_r_40 c i xt) _ rfl
theorem d_dma62 : runFirst.sl.dma62 c i xt fh hrows = arrRow c fh (word c i xt (xfer 1 3)) (word_lt c i xt hrows (xfer 1 3)) := dma_of_word c fh _ _ (w_r_43 c i xt) _ rfl
theorem d_dma65 : runFirst.sl.dma65 c i xt fh hrows = arrRow c fh (word c i xt (xfer 1 4)) (word_lt c i xt hrows (xfer 1 4)) := dma_of_word c fh _ _ (w_r_44 c i xt) _ rfl
theorem d_dma68 : runFirst.sl.dma68 c i xt fh hrows = arrRow c fh (word c i xt (xfer 1 5)) (word_lt c i xt hrows (xfer 1 5)) := dma_of_word c fh _ _ (w_r_47 c i xt) _ rfl
theorem d_dma7 : runFirst.sl.dma7 c i xt fh hrows = arrRow c fh (word c i xt (xfer 0 0)) (word_lt c i xt hrows (xfer 0 0)) := dma_of_word c fh _ _ (w_r c i xt) _ rfl
theorem d_dma71 : runFirst.sl.dma71 c i xt fh hrows = arrRow c fh (word c i xt (xfer 1 6)) (word_lt c i xt hrows (xfer 1 6)) := dma_of_word c fh _ _ (w_r_50 c i xt) _ rfl
theorem d_dma74 : runFirst.sl.dma74 c i xt fh hrows = arrRow c fh (word c i xt (xfer 1 7)) (word_lt c i xt hrows (xfer 1 7)) := dma_of_word c fh _ _ (w_r_51 c i xt) _ rfl
theorem d_dma77 : runFirst.sl.dma77 c i xt fh hrows = arrRow c fh (word c i xt (xfer 1 8)) (word_lt c i xt hrows (xfer 1 8)) := dma_of_word c fh _ _ (w_r_54 c i xt) _ rfl
theorem d_dma8 : runFirst.sl.dma8 c i xt fh hrows = arrRow c fh (word c i xt (xfer 0 1)) (word_lt c i xt hrows (xfer 0 1)) := dma_of_word c fh _ _ (w_r_1 c i xt) _ rfl
theorem d_dma80 : runFirst.sl.dma80 c i xt fh hrows = arrRow c fh (word c i xt (xfer 1 9)) (word_lt c i xt hrows (xfer 1 9)) := dma_of_word c fh _ _ (w_r_57 c i xt) _ rfl
theorem d_dma83 : runFirst.sl.dma83 c i xt fh hrows = arrRow c fh (word c i xt (xfer 1 10)) (word_lt c i xt hrows (xfer 1 10)) := dma_of_word c fh _ _ (w_r_58 c i xt) _ rfl
theorem d_dma86 : runFirst.sl.dma86 c i xt fh hrows = arrRow c fh (word c i xt (xfer 1 11)) (word_lt c i xt hrows (xfer 1 11)) := dma_of_word c fh _ _ (w_r_61 c i xt) _ rfl
theorem d_dma89 : runFirst.sl.dma89 c i xt fh hrows = arrRow c fh (word c i xt (xfer 1 12)) (word_lt c i xt hrows (xfer 1 12)) := dma_of_word c fh _ _ (w_r_64 c i xt) _ rfl
theorem d_dma92 : runFirst.sl.dma92 c i xt fh hrows = arrRow c fh (word c i xt (xfer 1 13)) (word_lt c i xt hrows (xfer 1 13)) := dma_of_word c fh _ _ (w_r_65 c i xt) _ rfl
theorem d_dma95 : runFirst.sl.dma95 c i xt fh hrows = arrRow c fh (word c i xt (xfer 1 14)) (word_lt c i xt hrows (xfer 1 14)) := dma_of_word c fh _ _ (w_r_68 c i xt) _ rfl
theorem d_dma98 : runFirst.sl.dma98 c i xt fh hrows = arrRow c fh (word c i xt (xfer 1 15)) (word_lt c i xt hrows (xfer 1 15)) := dma_of_word c fh _ _ (w_r_71 c i xt) _ rfl
theorem l_v1006 : runFirst.sl.v1006 c i arg6 xt fh fs0 hrows = asRow (runFirst.sl.dma143 c i xt fh hrows) := load_second arg6 0 1 (by decide) rfl rfl rfl
theorem l_v101 : runFirst.sl.v101 c i arg6 xt fh fs0 hrows = asRow (runFirst.sl.dma14 c i xt fh hrows) := load_second arg6 1 0 (by decide) rfl rfl rfl
theorem l_v1027 : runFirst.sl.v1027 c i arg6 xt fh fs0 hrows = asRow (runFirst.sl.dma146 c i xt fh hrows) := load_second arg6 1 0 (by decide) rfl rfl rfl
theorem l_v1049 : runFirst.sl.v1049 c i arg6 xt fh fs0 hrows = asRow (runFirst.sl.dma149 c i xt fh hrows) := load_second arg6 0 1 (by decide) rfl rfl rfl
theorem l_v1070 : runFirst.sl.v1070 c i arg6 xt fh fs0 hrows = asRow (runFirst.sl.dma152 c i xt fh hrows) := load_second arg6 1 0 (by decide) rfl rfl rfl
theorem l_v1091 : runFirst.sl.v1091 c i arg6 xt fh fs0 hrows = asRow (runFirst.sl.dma155 c i xt fh hrows) := load_second arg6 0 1 (by decide) rfl rfl rfl
theorem l_v1112 : runFirst.sl.v1112 c i arg6 xt fh fs0 hrows = asRow (runFirst.sl.dma158 c i xt fh hrows) := load_second arg6 1 0 (by decide) rfl rfl rfl
theorem l_v1133 : runFirst.sl.v1133 c i arg6 xt fh fs0 hrows = asRow (runFirst.sl.dma161 c i xt fh hrows) := load_second arg6 0 1 (by decide) rfl rfl rfl
theorem l_v1154 : runFirst.sl.v1154 c i arg6 xt fh fs0 hrows = asRow (runFirst.sl.dma164 c i xt fh hrows) := load_second arg6 1 0 (by decide) rfl rfl rfl
theorem l_v1175 : runFirst.sl.v1175 c i arg6 xt fh fs0 hrows = asRow (runFirst.sl.dma167 c i xt fh hrows) := load_second arg6 0 1 (by decide) rfl rfl rfl
theorem l_v1196 : runFirst.sl.v1196 c i arg6 xt fh fs0 hrows = asRow (runFirst.sl.dma170 c i xt fh hrows) := load_second arg6 1 0 (by decide) rfl rfl rfl
theorem l_v1217 : runFirst.sl.v1217 c i arg6 xt fh fs0 hrows = asRow (runFirst.sl.dma173 c i xt fh hrows) := load_second arg6 0 1 (by decide) rfl rfl rfl
theorem l_v122 : runFirst.sl.v122 c i arg6 xt fh fs0 hrows = asRow (runFirst.sl.dma17 c i xt fh hrows) := load_second arg6 0 1 (by decide) rfl rfl rfl
theorem l_v1238 : runFirst.sl.v1238 c i arg6 xt fh fs0 hrows = asRow (runFirst.sl.dma176 c i xt fh hrows) := load_second arg6 1 0 (by decide) rfl rfl rfl
theorem l_v1259 : runFirst.sl.v1259 c i arg6 xt fh fs0 hrows = asRow (runFirst.sl.dma179 c i xt fh hrows) := load_second arg6 0 1 (by decide) rfl rfl rfl
theorem l_v1280 : runFirst.sl.v1280 c i arg6 xt fh fs0 hrows = asRow (runFirst.sl.dma182 c i xt fh hrows) := load_second arg6 1 0 (by decide) rfl rfl rfl
theorem l_v1301 : runFirst.sl.v1301 c i arg6 xt fh fs0 hrows = asRow (runFirst.sl.dma185 c i xt fh hrows) := load_second arg6 0 1 (by decide) rfl rfl rfl
theorem l_v1322 : runFirst.sl.v1322 c i arg6 xt fh fs0 hrows = asRow (runFirst.sl.dma188 c i xt fh hrows) := load_second arg6 1 0 (by decide) rfl rfl rfl
theorem l_v1343 : runFirst.sl.v1343 c i arg6 xt fh fs0 hrows = asRow (runFirst.sl.dma191 c i xt fh hrows) := load_second arg6 0 1 (by decide) rfl rfl rfl
theorem l_v1364 : runFirst.sl.v1364 c i arg6 xt fh fs0 hrows = asRow (runFirst.sl.dma194 c i xt fh hrows) := load_second arg6 1 0 (by decide) rfl rfl rfl
theorem l_v1386 : runFirst.sl.v1386 c i arg6 xt fh fs0 hrows = asRow (runFirst.sl.dma197 c i xt fh hrows) := load_second arg6 0 1 (by decide) rfl rfl rfl
theorem l_v1407 : runFirst.sl.v1407 c i arg6 xt fh fs0 hrows = asRow (runFirst.sl.dma200 c i xt fh hrows) := load_second arg6 1 0 (by decide) rfl rfl rfl
theorem l_v1428 : runFirst.sl.v1428 c i arg6 xt fh fs0 hrows = asRow (runFirst.sl.dma203 c i xt fh hrows) := load_second arg6 0 1 (by decide) rfl rfl rfl
theorem l_v143 : runFirst.sl.v143 c i arg6 xt fh fs0 hrows = asRow (runFirst.sl.dma20 c i xt fh hrows) := load_second arg6 1 0 (by decide) rfl rfl rfl
theorem l_v1449 : runFirst.sl.v1449 c i arg6 xt fh fs0 hrows = asRow (runFirst.sl.dma206 c i xt fh hrows) := load_second arg6 1 0 (by decide) rfl rfl rfl
theorem l_v1470 : runFirst.sl.v1470 c i arg6 xt fh fs0 hrows = asRow (runFirst.sl.dma209 c i xt fh hrows) := load_second arg6 0 1 (by decide) rfl rfl rfl
theorem l_v1491 : runFirst.sl.v1491 c i arg6 xt fh fs0 hrows = asRow (runFirst.sl.dma212 c i xt fh hrows) := load_second arg6 1 0 (by decide) rfl rfl rfl
theorem l_v1512 : runFirst.sl.v1512 c i arg6 xt fh fs0 hrows = asRow (runFirst.sl.dma215 c i xt fh hrows) := load_second arg6 0 1 (by decide) rfl rfl rfl
theorem l_v1533 : runFirst.sl.v1533 c i arg6 xt fh fs0 hrows = asRow (runFirst.sl.dma218 c i xt fh hrows) := load_second arg6 1 0 (by decide) rfl rfl rfl
theorem l_v1554 : runFirst.sl.v1554 c i arg6 xt fh fs0 hrows = asRow (runFirst.sl.dma221 c i xt fh hrows) := load_second arg6 0 1 (by decide) rfl rfl rfl
theorem l_v1575 : runFirst.sl.v1575 c i arg6 xt fh fs0 hrows = asRow (runFirst.sl.dma224 c i xt fh hrows) := load_second arg6 1 0 (by decide) rfl rfl rfl
theorem l_v1596 : runFirst.sl.v1596 c i arg6 xt fh fs0 hrows = asRow (runFirst.sl.dma227 c i xt fh hrows) := load_second arg6 0 1 (by decide) rfl rfl rfl
theorem l_v1617 : runFirst.sl.v1617 c i arg6 xt fh fs0 hrows = asRow (runFirst.sl.dma230 c i xt fh hrows) := load_second arg6 1 0 (by decide) rfl rfl rfl
theorem l_v1638 : runFirst.sl.v1638 c i arg6 xt fh fs0 hrows = asRow (runFirst.sl.dma233 c i xt fh hrows) := load_second arg6 0 1 (by decide) rfl rfl rfl
theorem l_v164 : runFirst.sl.v164 c i arg6 xt fh fs0 hrows = asRow (runFirst.sl.dma23 c i xt fh hrows) := load_second arg6 0 1 (by decide) rfl rfl rfl
theorem l_v1659 : runFirst.sl.v1659 c i arg6 xt fh fs0 hrows = asRow (runFirst.sl.dma236 c i xt fh hrows) := load_second arg6 1 0 (by decide) rfl rfl rfl
theorem l_v1680 : runFirst.sl.v1680 c i arg6 xt fh fs0 hrows = asRow (runFirst.sl.dma239 c i xt fh hrows) := load_second arg6 0 1 (by decide) rfl rfl rfl
theorem l_v1701 : runFirst.sl.v1701 c i arg6 xt fh fs0 hrows = asRow (runFirst.sl.dma242 c i xt fh hrows) := load_second arg6 1 0 (by decide) rfl rfl rfl
theorem l_v1723 : runFirst.sl.v1723 c i arg6 xt fh fs0 hrows = asRow (runFirst.sl.dma245 c i xt fh hrows) := load_second arg6 0 1 (by decide) rfl rfl rfl
theorem l_v1744 : runFirst.sl.v1744 c i arg6 xt fh fs0 hrows = asRow (runFirst.sl.dma248 c i xt fh hrows) := load_second arg6 1 0 (by decide) rfl rfl rfl
theorem l_v1765 : runFirst.sl.v1765 c i arg6 xt fh fs0 hrows = asRow (runFirst.sl.dma251 c i xt fh hrows) := load_second arg6 0 1 (by decide) rfl rfl rfl
theorem l_v1786 : runFirst.sl.v1786 c i arg6 xt fh fs0 hrows = asRow (runFirst.sl.dma254 c i xt fh hrows) := load_second arg6 1 0 (by decide) rfl rfl rfl
theorem l_v1807 : runFirst.sl.v1807 c i arg6 xt fh fs0 hrows = asRow (runFirst.sl.dma257 c i xt fh hrows) := load_second arg6 0 1 (by decide) rfl rfl rfl
theorem l_v1828 : runFirst.sl.v1828 c i arg6 xt fh fs0 hrows = asRow (runFirst.sl.dma260 c i xt fh hrows) := load_second arg6 1 0 (by decide) rfl rfl rfl
theorem l_v1849 : runFirst.sl.v1849 c i arg6 xt fh fs0 hrows = asRow (runFirst.sl.dma263 c i xt fh hrows) := load_second arg6 0 1 (by decide) rfl rfl rfl
theorem l_v185 : runFirst.sl.v185 c i arg6 xt fh fs0 hrows = asRow (runFirst.sl.dma26 c i xt fh hrows) := load_second arg6 1 0 (by decide) rfl rfl rfl
theorem l_v1870 : runFirst.sl.v1870 c i arg6 xt fh fs0 hrows = asRow (runFirst.sl.dma266 c i xt fh hrows) := load_second arg6 1 0 (by decide) rfl rfl rfl
theorem l_v1891 : runFirst.sl.v1891 c i arg6 xt fh fs0 hrows = asRow (runFirst.sl.dma269 c i xt fh hrows) := load_second arg6 0 1 (by decide) rfl rfl rfl
theorem l_v1912 : runFirst.sl.v1912 c i arg6 xt fh fs0 hrows = asRow (runFirst.sl.dma272 c i xt fh hrows) := load_second arg6 1 0 (by decide) rfl rfl rfl
theorem l_v1933 : runFirst.sl.v1933 c i arg6 xt fh fs0 hrows = asRow (runFirst.sl.dma275 c i xt fh hrows) := load_second arg6 0 1 (by decide) rfl rfl rfl
theorem l_v1954 : runFirst.sl.v1954 c i arg6 xt fh fs0 hrows = asRow (runFirst.sl.dma278 c i xt fh hrows) := load_second arg6 1 0 (by decide) rfl rfl rfl
theorem l_v1975 : runFirst.sl.v1975 c i arg6 xt fh fs0 hrows = asRow (runFirst.sl.dma281 c i xt fh hrows) := load_second arg6 0 1 (by decide) rfl rfl rfl
theorem l_v1996 : runFirst.sl.v1996 c i arg6 xt fh fs0 hrows = asRow (runFirst.sl.dma284 c i xt fh hrows) := load_second arg6 1 0 (by decide) rfl rfl rfl
theorem l_v2017 : runFirst.sl.v2017 c i arg6 xt fh fs0 hrows = asRow (runFirst.sl.dma287 c i xt fh hrows) := load_second arg6 0 1 (by decide) rfl rfl rfl
theorem l_v2038 : runFirst.sl.v2038 c i arg6 xt fh fs0 hrows = asRow (runFirst.sl.dma290 c i xt fh hrows) := load_second arg6 1 0 (by decide) rfl rfl rfl
theorem l_v206 : runFirst.sl.v206 c i arg6 xt fh fs0 hrows = asRow (runFirst.sl.dma29 c i xt fh hrows) := load_second arg6 0 1 (by decide) rfl rfl rfl
theorem l_v2060 : runFirst.sl.v2060 c i arg6 xt fh fs0 hrows = asRow (runFirst.sl.dma293 c i xt fh hrows) := load_second arg6 0 1 (by decide) rfl rfl rfl
theorem l_v2081 : runFirst.sl.v2081 c i arg6 xt fh fs0 hrows = asRow (runFirst.sl.dma296 c i xt fh hrows) := load_second arg6 1 0 (by decide) rfl rfl rfl
theorem l_v2102 : runFirst.sl.v2102 c i arg6 xt fh fs0 hrows = asRow (runFirst.sl.dma299 c i xt fh hrows) := load_second arg6 0 1 (by decide) rfl rfl rfl
theorem l_v2123 : runFirst.sl.v2123 c i arg6 xt fh fs0 hrows = asRow (runFirst.sl.dma302 c i xt fh hrows) := load_second arg6 1 0 (by decide) rfl rfl rfl
theorem l_v2144 : runFirst.sl.v2144 c i arg6 xt fh fs0 hrows = asRow (runFirst.sl.dma305 c i xt fh hrows) := load_second arg6 0 1 (by decide) rfl rfl rfl
theorem l_v2165 : runFirst.sl.v2165 c i arg6 xt fh fs0 hrows = asRow (runFirst.sl.dma308 c i xt fh hrows) := load_second arg6 1 0 (by decide) rfl rfl rfl
theorem l_v2186 : runFirst.sl.v2186 c i arg6 xt fh fs0 hrows = asRow (runFirst.sl.dma311 c i xt fh hrows) := load_second arg6 0 1 (by decide) rfl rfl rfl
theorem l_v2207 : runFirst.sl.v2207 c i arg6 xt fh fs0 hrows = asRow (runFirst.sl.dma314 c i xt fh hrows) := load_second arg6 1 0 (by decide) rfl rfl rfl
theorem l_v2228 : runFirst.sl.v2228 c i arg6 xt fh fs0 hrows = asRow (runFirst.sl.dma317 c i xt fh hrows) := load_second arg6 0 1 (by decide) rfl rfl rfl
theorem l_v2249 : runFirst.sl.v2249 c i arg6 xt fh fs0 hrows = asRow (runFirst.sl.dma320 c i xt fh hrows) := load_second arg6 1 0 (by decide) rfl rfl rfl
theorem l_v227 : runFirst.sl.v227 c i arg6 xt fh fs0 hrows = asRow (runFirst.sl.dma32 c i xt fh hrows) := load_second arg6 1 0 (by decide) rfl rfl rfl
theorem l_v2270 : runFirst.sl.v2270 c i arg6 xt fh fs0 hrows = asRow (runFirst.sl.dma323 c i xt fh hrows) := load_second arg6 0 1 (by decide) rfl rfl rfl
theorem l_v2291 : runFirst.sl.v2291 c i arg6 xt fh fs0 hrows = asRow (runFirst.sl.dma326 c i xt fh hrows) := load_second arg6 1 0 (by decide) rfl rfl rfl
theorem l_v2312 : runFirst.sl.v2312 c i arg6 xt fh fs0 hrows = asRow (runFirst.sl.dma329 c i xt fh hrows) := load_second arg6 0 1 (by decide) rfl rfl rfl
theorem l_v2333 : runFirst.sl.v2333 c i arg6 xt fh fs0 hrows = asRow (runFirst.sl.dma332 c i xt fh hrows) := load_second arg6 1 0 (by decide) rfl rfl rfl
theorem l_v2354 : runFirst.sl.v2354 c i arg6 xt fh fs0 hrows = asRow (runFirst.sl.dma335 c i xt fh hrows) := load_second arg6 0 1 (by decide) rfl rfl rfl
theorem l_v2375 : runFirst.sl.v2375 c i arg6 xt fh fs0 hrows = asRow (runFirst.sl.dma338 c i xt fh hrows) := load_second arg6 1 0 (by decide) rfl rfl rfl
theorem l_v2397 : runFirst.sl.v2397 c i arg6 xt fh fs0 hrows = asRow (runFirst.sl.dma341 c i xt fh hrows) := load_second arg6 0 1 (by decide) rfl rfl rfl
theorem l_v2418 : runFirst.sl.v2418 c i arg6 xt fh fs0 hrows = asRow (runFirst.sl.dma344 c i xt fh hrows) := load_second arg6 1 0 (by decide) rfl rfl rfl
theorem l_v2439 : runFirst.sl.v2439 c i arg6 xt fh fs0 hrows = asRow (runFirst.sl.dma347 c i xt fh hrows) := load_second arg6 0 1 (by decide) rfl rfl rfl
theorem l_v2460 : runFirst.sl.v2460 c i arg6 xt fh fs0 hrows = asRow (runFirst.sl.dma350 c i xt fh hrows) := load_second arg6 1 0 (by decide) rfl rfl rfl
theorem l_v248 : runFirst.sl.v248 c i arg6 xt fh fs0 hrows = asRow (runFirst.sl.dma35 c i xt fh hrows) := load_second arg6 0 1 (by decide) rfl rfl rfl
theorem l_v2481 : runFirst.sl.v2481 c i arg6 xt fh fs0 hrows = asRow (runFirst.sl.dma353 c i xt fh hrows) := load_second arg6 0 1 (by decide) rfl rfl rfl
theorem l_v2502 : runFirst.sl.v2502 c i arg6 xt fh fs0 hrows = asRow (runFirst.sl.dma356 c i xt fh hrows) := load_second arg6 1 0 (by decide) rfl rfl rfl
theorem l_v2523 : runFirst.sl.v2523 c i arg6 xt fh fs0 hrows = asRow (runFirst.sl.dma359 c i xt fh hrows) := load_second arg6 0 1 (by decide) rfl rfl rfl
theorem l_v2544 : runFirst.sl.v2544 c i arg6 xt fh fs0 hrows = asRow (runFirst.sl.dma362 c i xt fh hrows) := load_second arg6 1 0 (by decide) rfl rfl rfl
theorem l_v2565 : runFirst.sl.v2565 c i arg6 xt fh fs0 hrows = asRow (runFirst.sl.dma365 c i xt fh hrows) := load_second arg6 0 1 (by decide) rfl rfl rfl
theorem l_v2586 : runFirst.sl.v2586 c i arg6 xt fh fs0 hrows = asRow (runFirst.sl.dma368 c i xt fh hrows) := load_second arg6 1 0 (by decide) rfl rfl rfl
theorem l_v2607 : runFirst.sl.v2607 c i arg6 xt fh fs0 hrows = asRow (runFirst.sl.dma371 c i xt fh hrows) := load_second arg6 0 1 (by decide) rfl rfl rfl
theorem l_v2628 : runFirst.sl.v2628 c i arg6 xt fh fs0 hrows = asRow (runFirst.sl.dma374 c i xt fh hrows) := load_second arg6 1 0 (by decide) rfl rfl rfl
theorem l_v2649 : runFirst.sl.v2649 c i arg6 xt fh fs0 hrows = asRow (runFirst.sl.dma377 c i xt fh hrows) := load_second arg6 0 1 (by decide) rfl rfl rfl
theorem l_v2670 : runFirst.sl.v2670 c i arg6 xt fh fs0 hrows = asRow (runFirst.sl.dma380 c i xt fh hrows) := load_second arg6 1 0 (by decide) rfl rfl rfl
theorem l_v269 : runFirst.sl.v269 c i arg6 xt fh fs0 hrows = asRow (runFirst.sl.dma38 c i xt fh hrows) := load_second arg6 1 0 (by decide) rfl rfl rfl
theorem l_v2691 : runFirst.sl.v2691 c i arg6 xt fh fs0 hrows = asRow (runFirst.sl.dma383 c i xt fh hrows) := load_second arg6 0 1 (by decide) rfl rfl rfl
theorem l_v2702 : runFirst.sl.v2702 c i arg6 xt fh fs0 hrows = asRow (runFirst.sl.dma386 c i xt fh hrows) := load_top arg6 1 rfl rfl
theorem l_v290 : runFirst.sl.v290 c i arg6 xt fh fs0 hrows = asRow (runFirst.sl.dma41 c i xt fh hrows) := load_second arg6 0 1 (by decide) rfl rfl rfl
theorem l_v311 : runFirst.sl.v311 c i arg6 xt fh fs0 hrows = asRow (runFirst.sl.dma44 c i xt fh hrows) := load_second arg6 1 0 (by decide) rfl rfl rfl
theorem l_v332 : runFirst.sl.v332 c i arg6 xt fh fs0 hrows = asRow (runFirst.sl.dma47 c i xt fh hrows) := load_second arg6 0 1 (by decide) rfl rfl rfl
theorem l_v353 : runFirst.sl.v353 c i arg6 xt fh fs0 hrows = asRow (runFirst.sl.dma50 c i xt fh hrows) := load_second arg6 1 0 (by decide) rfl rfl rfl
theorem l_v375 : runFirst.sl.v375 c i arg6 xt fh fs0 hrows = asRow (runFirst.sl.dma53 c i xt fh hrows) := load_second arg6 0 1 (by decide) rfl rfl rfl
theorem l_v38 : runFirst.sl.v38 c i arg6 xt fh fs0 hrows = asRow (runFirst.sl.dma7 c i xt fh hrows) := load_second arg6 0 1 (by decide) rfl rfl rfl
theorem l_v396 : runFirst.sl.v396 c i arg6 xt fh fs0 hrows = asRow (runFirst.sl.dma56 c i xt fh hrows) := load_second arg6 1 0 (by decide) rfl rfl rfl
theorem l_v417 : runFirst.sl.v417 c i arg6 xt fh fs0 hrows = asRow (runFirst.sl.dma59 c i xt fh hrows) := load_second arg6 0 1 (by decide) rfl rfl rfl
theorem l_v438 : runFirst.sl.v438 c i arg6 xt fh fs0 hrows = asRow (runFirst.sl.dma62 c i xt fh hrows) := load_second arg6 1 0 (by decide) rfl rfl rfl
theorem l_v459 : runFirst.sl.v459 c i arg6 xt fh fs0 hrows = asRow (runFirst.sl.dma65 c i xt fh hrows) := load_second arg6 0 1 (by decide) rfl rfl rfl
theorem l_v480 : runFirst.sl.v480 c i arg6 xt fh fs0 hrows = asRow (runFirst.sl.dma68 c i xt fh hrows) := load_second arg6 1 0 (by decide) rfl rfl rfl
theorem l_v501 : runFirst.sl.v501 c i arg6 xt fh fs0 hrows = asRow (runFirst.sl.dma71 c i xt fh hrows) := load_second arg6 0 1 (by decide) rfl rfl rfl
theorem l_v522 : runFirst.sl.v522 c i arg6 xt fh fs0 hrows = asRow (runFirst.sl.dma74 c i xt fh hrows) := load_second arg6 1 0 (by decide) rfl rfl rfl
theorem l_v543 : runFirst.sl.v543 c i arg6 xt fh fs0 hrows = asRow (runFirst.sl.dma77 c i xt fh hrows) := load_second arg6 0 1 (by decide) rfl rfl rfl
theorem l_v564 : runFirst.sl.v564 c i arg6 xt fh fs0 hrows = asRow (runFirst.sl.dma80 c i xt fh hrows) := load_second arg6 1 0 (by decide) rfl rfl rfl
theorem l_v585 : runFirst.sl.v585 c i arg6 xt fh fs0 hrows = asRow (runFirst.sl.dma83 c i xt fh hrows) := load_second arg6 0 1 (by decide) rfl rfl rfl
theorem l_v59 : runFirst.sl.v59 c i arg6 xt fh fs0 hrows = asRow (runFirst.sl.dma8 c i xt fh hrows) := load_second arg6 1 0 (by decide) rfl rfl rfl
theorem l_v606 : runFirst.sl.v606 c i arg6 xt fh fs0 hrows = asRow (runFirst.sl.dma86 c i xt fh hrows) := load_second arg6 1 0 (by decide) rfl rfl rfl
theorem l_v627 : runFirst.sl.v627 c i arg6 xt fh fs0 hrows = asRow (runFirst.sl.dma89 c i xt fh hrows) := load_second arg6 0 1 (by decide) rfl rfl rfl
theorem l_v648 : runFirst.sl.v648 c i arg6 xt fh fs0 hrows = asRow (runFirst.sl.dma92 c i xt fh hrows) := load_second arg6 1 0 (by decide) rfl rfl rfl
theorem l_v669 : runFirst.sl.v669 c i arg6 xt fh fs0 hrows = asRow (runFirst.sl.dma95 c i xt fh hrows) := load_second arg6 0 1 (by decide) rfl rfl rfl
theorem l_v690 : runFirst.sl.v690 c i arg6 xt fh fs0 hrows = asRow (runFirst.sl.dma98 c i xt fh hrows) := load_second arg6 1 0 (by decide) rfl rfl rfl
theorem l_v712 : runFirst.sl.v712 c i arg6 xt fh fs0 hrows = asRow (runFirst.sl.dma101 c i xt fh hrows) := load_second arg6 0 1 (by decide) rfl rfl rfl
theorem l_v733 : runFirst.sl.v733 c i arg6 xt fh fs0 hrows = asRow (runFirst.sl.dma104 c i xt fh hrows) := load_second arg6 1 0 (by decide) rfl rfl rfl
theorem l_v754 : runFirst.sl.v754 c i arg6 xt fh fs0 hrows = asRow (runFirst.sl.dma107 c i xt fh hrows) := load_second arg6 0 1 (by decide) rfl rfl rfl
theorem l_v775 : runFirst.sl.v775 c i arg6 xt fh fs0 hrows = asRow (runFirst.sl.dma110 c i xt fh hrows) := load_second arg6 1 0 (by decide) rfl rfl rfl
theorem l_v796 : runFirst.sl.v796 c i arg6 xt fh fs0 hrows = asRow (runFirst.sl.dma113 c i xt fh hrows) := load_second arg6 0 1 (by decide) rfl rfl rfl
theorem l_v80 : runFirst.sl.v80 c i arg6 xt fh fs0 hrows = asRow (runFirst.sl.dma11 c i xt fh hrows) := load_second arg6 0 1 (by decide) rfl rfl rfl
theorem l_v817 : runFirst.sl.v817 c i arg6 xt fh fs0 hrows = asRow (runFirst.sl.dma116 c i xt fh hrows) := load_second arg6 1 0 (by decide) rfl rfl rfl
theorem l_v838 : runFirst.sl.v838 c i arg6 xt fh fs0 hrows = asRow (runFirst.sl.dma119 c i xt fh hrows) := load_second arg6 0 1 (by decide) rfl rfl rfl
theorem l_v859 : runFirst.sl.v859 c i arg6 xt fh fs0 hrows = asRow (runFirst.sl.dma122 c i xt fh hrows) := load_second arg6 1 0 (by decide) rfl rfl rfl
theorem l_v880 : runFirst.sl.v880 c i arg6 xt fh fs0 hrows = asRow (runFirst.sl.dma125 c i xt fh hrows) := load_second arg6 0 1 (by decide) rfl rfl rfl
theorem l_v901 : runFirst.sl.v901 c i arg6 xt fh fs0 hrows = asRow (runFirst.sl.dma128 c i xt fh hrows) := load_second arg6 1 0 (by decide) rfl rfl rfl
theorem l_v922 : runFirst.sl.v922 c i arg6 xt fh fs0 hrows = asRow (runFirst.sl.dma131 c i xt fh hrows) := load_second arg6 0 1 (by decide) rfl rfl rfl
theorem l_v943 : runFirst.sl.v943 c i arg6 xt fh fs0 hrows = asRow (runFirst.sl.dma134 c i xt fh hrows) := load_second arg6 1 0 (by decide) rfl rfl rfl
theorem l_v964 : runFirst.sl.v964 c i arg6 xt fh fs0 hrows = asRow (runFirst.sl.dma137 c i xt fh hrows) := load_second arg6 0 1 (by decide) rfl rfl rfl
theorem l_v985 : runFirst.sl.v985 c i arg6 xt fh fs0 hrows = asRow (runFirst.sl.dma140 c i xt fh hrows) := load_second arg6 1 0 (by decide) rfl rfl rfl
theorem e_r_111 : runFirst.sl.r_111 c arg3 harg3 x0 = blockRow x0 3 := block_load arg3 harg3 3 rfl x0
theorem e_r_142 : runFirst.sl.r_142 c arg3 harg3 x0 = blockRow x0 4 := block_load arg3 harg3 4 rfl x0
theorem e_r_179 : runFirst.sl.r_179 c arg3 harg3 x0 = blockRow x0 5 := block_load arg3 harg3 5 rfl x0
theorem e_r_81 : runFirst.sl.r_81 c arg3 harg3 x0 = blockRow x0 2 := block_load arg3 harg3 2 rfl x0
theorem row_0 : View.readAt (Elt F) arg3.view (Rect.unit (s := S8x512) ![0, 0] ![1, 512] inb_S8x512_S1x512_0_0).toLoadRect (harg3.unread x0) = blockRow x0 0 := block_load arg3 harg3 0 rfl x0
theorem row_0' : View.readAt (Elt F) arg3.view (Rect.unit (s := S8x512) ![0, 0] S1x512.size inb_S8x512_S1x512_0_0).toLoadRect (harg3.unread x0) = blockRow x0 0 := block_load arg3 harg3 0 rfl x0
theorem row_1 : View.readAt (Elt F) arg3.view (Rect.unit (s := S8x512) ![1, 0] ![1, 512] inb_S8x512_S1x512_1_0).toLoadRect (harg3.unread x0) = blockRow x0 1 := block_load arg3 harg3 1 rfl x0
theorem row_1' : View.readAt (Elt F) arg3.view (Rect.unit (s := S8x512) ![1, 0] S1x512.size inb_S8x512_S1x512_1_0).toLoadRect (harg3.unread x0) = blockRow x0 1 := block_load arg3 harg3 1 rfl x0
theorem row_2 : View.readAt (Elt F) arg3.view (Rect.unit (s := S8x512) ![2, 0] ![1, 512] inb_S8x512_S1x512_2_0).toLoadRect (harg3.unread x0) = blockRow x0 2 := block_load arg3 harg3 2 rfl x0
theorem row_2' : View.readAt (Elt F) arg3.view (Rect.unit (s := S8x512) ![2, 0] S1x512.size inb_S8x512_S1x512_2_0).toLoadRect (harg3.unread x0) = blockRow x0 2 := block_load arg3 harg3 2 rfl x0
theorem row_3 : View.readAt (Elt F) arg3.view (Rect.unit (s := S8x512) ![3, 0] ![1, 512] inb_S8x512_S1x512_3_0).toLoadRect (harg3.unread x0) = blockRow x0 3 := block_load arg3 harg3 3 rfl x0
theorem row_3' : View.readAt (Elt F) arg3.view (Rect.unit (s := S8x512) ![3, 0] S1x512.size inb_S8x512_S1x512_3_0).toLoadRect (harg3.unread x0) = blockRow x0 3 := block_load arg3 harg3 3 rfl x0
theorem row_4 : View.readAt (Elt F) arg3.view (Rect.unit (s := S8x512) ![4, 0] ![1, 512] inb_S8x512_S1x512_4_0).toLoadRect (harg3.unread x0) = blockRow x0 4 := block_load arg3 harg3 4 rfl x0
theorem row_4' : View.readAt (Elt F) arg3.view (Rect.unit (s := S8x512) ![4, 0] S1x512.size inb_S8x512_S1x512_4_0).toLoadRect (harg3.unread x0) = blockRow x0 4 := block_load arg3 harg3 4 rfl x0
theorem row_5 : View.readAt (Elt F) arg3.view (Rect.unit (s := S8x512) ![5, 0] ![1, 512] inb_S8x512_S1x512_5_0).toLoadRect (harg3.unread x0) = blockRow x0 5 := block_load arg3 harg3 5 rfl x0
theorem row_5' : View.readAt (Elt F) arg3.view (Rect.unit (s := S8x512) ![5, 0] S1x512.size inb_S8x512_S1x512_5_0).toLoadRect (harg3.unread x0) = blockRow x0 5 := block_load arg3 harg3 5 rfl x0
theorem row_6 : View.readAt (Elt F) arg3.view (Rect.unit (s := S8x512) ![6, 0] ![1, 512] inb_S8x512_S1x512_6_0).toLoadRect (harg3.unread x0) = blockRow x0 6 := block_load arg3 harg3 6 rfl x0
theorem row_6' : View.readAt (Elt F) arg3.view (Rect.unit (s := S8x512) ![6, 0] S1x512.size inb_S8x512_S1x512_6_0).toLoadRect (harg3.unread x0) = blockRow x0 6 := block_load arg3 harg3 6 rfl x0
theorem row_7 : View.readAt (Elt F) arg3.view (Rect.unit (s := S8x512) ![7, 0] ![1, 512] inb_S8x512_S1x512_7_0).toLoadRect (harg3.unread x0) = blockRow x0 7 := block_load arg3 harg3 7 rfl x0
theorem row_7' : View.readAt (Elt F) arg3.view (Rect.unit (s := S8x512) ![7, 0] S1x512.size inb_S8x512_S1x512_7_0).toLoadRect (harg3.unread x0) = blockRow x0 7 := block_load arg3 harg3 7 rfl x0
theorem e_r_3 : runFirst.sl.r_3 c i arg3 harg3 arg6 xt x0 fh fs0 hrows = pmax (blockRow x0 0) (asRow (arrRow c fh (word c i xt (xfer 0 0)) (word_lt c i xt hrows (xfer 0 0)))) := by
  unfold runFirst.sl.r_3
  simp only [pay5_eq, row_0, row_0', l_v38, d_dma7]
theorem e_r_4 : runFirst.sl.r_4 c i arg3 harg3 arg6 xt x0 fh fs0 hrows = addf (blockRow x0 0) (asRow (arrRow c fh (word c i xt (xfer 0 1)) (word_lt c i xt hrows (xfer 0 1)))) := by
  unfold runFirst.sl.r_4
  simp only [pay6_eq, row_0, row_0', l_v59, d_dma8]
theorem e_r_7 : runFirst.sl.r_7 c i arg3 harg3 arg6 xt x0 fh fs0 hrows = pmax (blockRow x0 0) (asRow (arrRow c fh (word c i xt (xfer 0 1)) (word_lt c i xt hrows (xfer 0 1)))) := by
  unfold runFirst.sl.r_7
  simp only [pay7_eq, e_r_4, smax_addf]
theorem e_r_8 : runFirst.sl.r_8 c i arg3 harg3 arg6 xt x0 fh fs0 hrows = pmax (blockRow x0 0) (asRow (arrRow c fh (word c i xt (xfer 0 2)) (word_lt c i xt hrows (xfer 0 2)))) := by
  unfold runFirst.sl.r_8
  simp only [pay8_eq, row_0, row_0', l_v80, d_dma11]
theorem e_r_10 : runFirst.sl.r_10 c i arg3 harg3 arg6 xt x0 fh fs0 hrows = pmax (blockRow x0 0) (asRow (arrRow c fh (word c i xt (xfer 0 3)) (word_lt c i xt hrows (xfer 0 3)))) := by
  unfold runFirst.sl.r_10
  simp only [pay9_eq, row_0, row_0', l_v101, d_dma14]
theorem e_r_11 : runFirst.sl.r_11 c i arg3 harg3 arg6 xt x0 fh fs0 hrows = addf (blockRow x0 0) (asRow (arrRow c fh (word c i xt (xfer 0 4)) (word_lt c i xt hrows (xfer 0 4)))) := by
  unfold runFirst.sl.r_11
  simp only [pay10_eq, row_0, row_0', l_v122, d_dma17]
theorem e_r_14 : runFirst.sl.r_14 c i arg3 harg3 arg6 xt x0 fh fs0 hrows = pmax (blockRow x0 0) (asRow (arrRow c fh (word c i xt (xfer 0 4)) (word_lt c i xt hrows (xfer 0 4)))) := by
  unfold runFirst.sl.r_14
  simp only [pay11_eq, e_r_11, smax_addf]
theorem e_r_15 : runFirst.sl.r_15 c i arg3 harg3 arg6 xt x0 fh fs0 hrows = pmax (blockRow x0 0) (asRow (arrRow c fh (word c i xt (xfer 0 5)) (word_lt c i xt hrows (xfer 0 5)))) := by
  unfold runFirst.sl.r_15
  simp only [pay12_eq, row_0, row_0', l_v143, d_dma20]
theorem e_r_17 : runFirst.sl.r_17 c i arg3 harg3 arg6 xt x0 fh fs0 hrows = pmax (blockRow x0 0) (asRow (arrRow c fh (word c i xt (xfer 0 6)) (word_lt c i xt hrows (xfer 0 6)))) := by
  unfold runFirst.sl.r_17
  simp only [pay13_eq, row_0, row_0', l_v164, d_dma23]
theorem e_r_18 : runFirst.sl.r_18 c i arg3 harg3 arg6 xt x0 fh fs0 hrows = addf (blockRow x0 0) (asRow (arrRow c fh (word c i xt (xfer 0 7)) (word_lt c i xt hrows (xfer 0 7)))) := by
  unfold runFirst.sl.r_18
  simp only [pay14_eq, row_0, row_0', l_v185, d_dma26]
theorem e_r_21 : runFirst.sl.r_21 c i arg3 harg3 arg6 xt x0 fh fs0 hrows = pmax (blockRow x0 0) (asRow (arrRow c fh (word c i xt (xfer 0 7)) (word_lt c i xt hrows (xfer 0 7)))) := by
  unfold runFirst.sl.r_21
  simp only [pay15_eq, e_r_18, smax_addf]
theorem e_r_22 : runFirst.sl.r_22 c i arg3 harg3 arg6 xt x0 fh fs0 hrows = pmax (blockRow x0 0) (asRow (arrRow c fh (word c i xt (xfer 0 8)) (word_lt c i xt hrows (xfer 0 8)))) := by
  unfold runFirst.sl.r_22
  simp only [pay16_eq, row_0, row_0', l_v206, d_dma29]
theorem e_r_24 : runFirst.sl.r_24 c i arg3 harg3 arg6 xt x0 fh fs0 hrows = pmax (blockRow x0 0) (asRow (arrRow c fh (word c i xt (xfer 0 9)) (word_lt c i xt hrows (xfer 0 9)))) := by
  unfold runFirst.sl.r_24
  simp only [pay17_eq, row_0, row_0', l_v227, d_dma32]
theorem e_r_25 : runFirst.sl.r_25 c i arg3 harg3 arg6 xt x0 fh fs0 hrows = addf (blockRow x0 0) (asRow (arrRow c fh (word c i xt (xfer 0 10)) (word_lt c i xt hrows (xfer 0 10)))) := by
  unfold runFirst.sl.r_25
  simp only [pay18_eq, row_0, row_0', l_v248, d_dma35]
theorem e_r_28 : runFirst.sl.r_28 c i arg3 harg3 arg6 xt x0 fh fs0 hrows = pmax (blockRow x0 0) (asRow (arrRow c fh (word c i xt (xfer 0 10)) (word_lt c i xt hrows (xfer 0 10)))) := by
  unfold runFirst.sl.r_28
  simp only [pay19_eq, e_r_25, smax_addf]
theorem e_r_29 : runFirst.sl.r_29 c i arg3 harg3 arg6 xt x0 fh fs0 hrows = pmax (blockRow x0 0) (asRow (arrRow c fh (word c i xt (xfer 0 11)) (word_lt c i xt hrows (xfer 0 11)))) := by
  unfold runFirst.sl.r_29
  simp only [pay20_eq, row_0, row_0', l_v269, d_dma38]
theorem e_r_31 : runFirst.sl.r_31 c i arg3 harg3 arg6 xt x0 fh fs0 hrows = pmax (blockRow x0 0) (asRow (arrRow c fh (word c i xt (xfer 0 12)) (word_lt c i xt hrows (xfer 0 12)))) := by
  unfold runFirst.sl.r_31
  simp only [pay21_eq, row_0, row_0', l_v290, d_dma41]
theorem e_r_32 : runFirst.sl.r_32 c i arg3 harg3 arg6 xt x0 fh fs0 hrows = addf (blockRow x0 0) (asRow (arrRow c fh (word c i xt (xfer 0 13)) (word_lt c i xt hrows (xfer 0 13)))) := by
  unfold runFirst.sl.r_32
  simp only [pay22_eq, row_0, row_0', l_v311, d_dma44]
theorem e_r_35 : runFirst.sl.r_35 c i arg3 harg3 arg6 xt x0 fh fs0 hrows = pmax (blockRow x0 0) (asRow (arrRow c fh (word c i xt (xfer 0 13)) (word_lt c i xt hrows (xfer 0 13)))) := by
  unfold runFirst.sl.r_35
  simp only [pay23_eq, e_r_32, smax_addf]
theorem e_r_36 : runFirst.sl.r_36 c i arg3 harg3 arg6 xt x0 fh fs0 hrows = pmax (blockRow x0 0) (asRow (arrRow c fh (word c i xt (xfer 0 14)) (word_lt c i xt hrows (xfer 0 14)))) := by
  unfold runFirst.sl.r_36
  simp only [pay24_eq, row_0, row_0', l_v332, d_dma47]
theorem e_r_38 : runFirst.sl.r_38 c i arg3 harg3 arg6 xt x0 fh fs0 hrows = row16 fun k => pmax (blockRow x0 0) (asRow (arrRow c fh (word c i xt (xfer 0 k)) (word_lt c i xt hrows (xfer 0 k)))) := by
  unfold runFirst.sl.r_38
  simp only [pay25_eq, e_r_3, e_r_7, e_r_8, e_r_10, e_r_14, e_r_15, e_r_17, e_r_21, e_r_22, e_r_24, e_r_28, e_r_29, e_r_31, e_r_35, e_r_36, row_0, row_0', l_v353, d_dma50]
  exact congrArg row16 (funext fun k => by fin_cases k <;> rfl)
theorem e_r_39 : runFirst.sl.r_39 c i arg3 harg3 arg6 xt x0 fh fs0 hrows = addf (blockRow x0 1) (asRow (arrRow c fh (word c i xt (xfer 1 0)) (word_lt c i xt hrows (xfer 1 0)))) := by
  unfold runFirst.sl.r_39
  simp only [pay26_eq, row_1, row_1', l_v375, d_dma53]
theorem e_r_41 : runFirst.sl.r_41 c i arg3 harg3 arg6 xt x0 fh fs0 hrows = pmax (blockRow x0 1) (asRow (arrRow c fh (word c i xt (xfer 1 0)) (word_lt c i xt hrows (xfer 1 0)))) := by
  unfold runFirst.sl.r_41
  simp only [pay27_eq, e_r_39, smax_addf]
theorem e_r_42 : runFirst.sl.r_42 c i arg3 harg3 arg6 xt x0 fh fs0 hrows = pmax (blockRow x0 1) (asRow (arrRow c fh (word c i xt (xfer 1 1)) (word_lt c i xt hrows (xfer 1 1)))) := by
  unfold runFirst.sl.r_42
  simp only [pay28_eq, row_1, row_1', l_v396, d_dma56]
theorem e_r_45 : runFirst.sl.r_45 c i arg3 harg3 arg6 xt x0 fh fs0 hrows = pmax (blockRow x0 1) (asRow (arrRow c fh (word c i xt (xfer 1 2)) (word_lt c i xt hrows (xfer 1 2)))) := by
  unfold runFirst.sl.r_45
  simp only [pay29_eq, row_1, row_1', l_v417, d_dma59]
theorem e_r_46 : runFirst.sl.r_46 c i arg3 harg3 arg6 xt x0 fh fs0 hrows = addf (blockRow x0 1) (asRow (arrRow c fh (word c i xt (xfer 1 3)) (word_lt c i xt hrows (xfer 1 3)))) := by
  unfold runFirst.sl.r_46
  simp only [pay30_eq, row_1, row_1', l_v438, d_dma62]
theorem e_r_48 : runFirst.sl.r_48 c i arg3 harg3 arg6 xt x0 fh fs0 hrows = pmax (blockRow x0 1) (asRow (arrRow c fh (word c i xt (xfer 1 3)) (word_lt c i xt hrows (xfer 1 3)))) := by
  unfold runFirst.sl.r_48
  simp only [pay31_eq, e_r_46, smax_addf]
theorem e_r_49 : runFirst.sl.r_49 c i arg3 harg3 arg6 xt x0 fh fs0 hrows = pmax (blockRow x0 1) (asRow (arrRow c fh (word c i xt (xfer 1 4)) (word_lt c i xt hrows (xfer 1 4)))) := by
  unfold runFirst.sl.r_49
  simp only [pay32_eq, row_1, row_1', l_v459, d_dma65]
theorem e_r_52 : runFirst.sl.r_52 c i arg3 harg3 arg6 xt x0 fh fs0 hrows = pmax (blockRow x0 1) (asRow (arrRow c fh (word c i xt (xfer 1 5)) (word_lt c i xt hrows (xfer 1 5)))) := by
  unfold runFirst.sl.r_52
  simp only [pay33_eq, row_1, row_1', l_v480, d_dma68]
theorem e_r_53 : runFirst.sl.r_53 c i arg3 harg3 arg6 xt x0 fh fs0 hrows = addf (blockRow x0 1) (asRow (arrRow c fh (word c i xt (xfer 1 6)) (word_lt c i xt hrows (xfer 1 6)))) := by
  unfold runFirst.sl.r_53
  simp only [pay34_eq, row_1, row_1', l_v501, d_dma71]
theorem e_r_55 : runFirst.sl.r_55 c i arg3 harg3 arg6 xt x0 fh fs0 hrows = pmax (blockRow x0 1) (asRow (arrRow c fh (word c i xt (xfer 1 6)) (word_lt c i xt hrows (xfer 1 6)))) := by
  unfold runFirst.sl.r_55
  simp only [pay35_eq, e_r_53, smax_addf]
theorem e_r_56 : runFirst.sl.r_56 c i arg3 harg3 arg6 xt x0 fh fs0 hrows = pmax (blockRow x0 1) (asRow (arrRow c fh (word c i xt (xfer 1 7)) (word_lt c i xt hrows (xfer 1 7)))) := by
  unfold runFirst.sl.r_56
  simp only [pay36_eq, row_1, row_1', l_v522, d_dma74]
theorem e_r_59 : runFirst.sl.r_59 c i arg3 harg3 arg6 xt x0 fh fs0 hrows = pmax (blockRow x0 1) (asRow (arrRow c fh (word c i xt (xfer 1 8)) (word_lt c i xt hrows (xfer 1 8)))) := by
  unfold runFirst.sl.r_59
  simp only [pay37_eq, row_1, row_1', l_v543, d_dma77]
theorem e_r_60 : runFirst.sl.r_60 c i arg3 harg3 arg6 xt x0 fh fs0 hrows = addf (blockRow x0 1) (asRow (arrRow c fh (word c i xt (xfer 1 9)) (word_lt c i xt hrows (xfer 1 9)))) := by
  unfold runFirst.sl.r_60
  simp only [pay38_eq, row_1, row_1', l_v564, d_dma80]
theorem e_r_62 : runFirst.sl.r_62 c i arg3 harg3 arg6 xt x0 fh fs0 hrows = pmax (blockRow x0 1) (asRow (arrRow c fh (word c i xt (xfer 1 9)) (word_lt c i xt hrows (xfer 1 9)))) := by
  unfold runFirst.sl.r_62
  simp only [pay39_eq, e_r_60, smax_addf]
theorem e_r_63 : runFirst.sl.r_63 c i arg3 harg3 arg6 xt x0 fh fs0 hrows = pmax (blockRow x0 1) (asRow (arrRow c fh (word c i xt (xfer 1 10)) (word_lt c i xt hrows (xfer 1 10)))) := by
  unfold runFirst.sl.r_63
  simp only [pay40_eq, row_1, row_1', l_v585, d_dma83]
theorem e_r_66 : runFirst.sl.r_66 c i arg3 harg3 arg6 xt x0 fh fs0 hrows = pmax (blockRow x0 1) (asRow (arrRow c fh (word c i xt (xfer 1 11)) (word_lt c i xt hrows (xfer 1 11)))) := by
  unfold runFirst.sl.r_66
  simp only [pay41_eq, row_1, row_1', l_v606, d_dma86]
theorem e_r_67 : runFirst.sl.r_67 c i arg3 harg3 arg6 xt x0 fh fs0 hrows = addf (blockRow x0 1) (asRow (arrRow c fh (word c i xt (xfer 1 12)) (word_lt c i xt hrows (xfer 1 12)))) := by
  unfold runFirst.sl.r_67
  simp only [pay42_eq, row_1, row_1', l_v627, d_dma89]
theorem e_r_69 : runFirst.sl.r_69 c i arg3 harg3 arg6 xt x0 fh fs0 hrows = pmax (blockRow x0 1) (asRow (arrRow c fh (word c i xt (xfer 1 12)) (word_lt c i xt hrows (xfer 1 12)))) := by
  unfold runFirst.sl.r_69
  simp only [pay43_eq, e_r_67, smax_addf]
theorem e_r_70 : runFirst.sl.r_70 c i arg3 harg3 arg6 xt x0 fh fs0 hrows = pmax (blockRow x0 1) (asRow (arrRow c fh (word c i xt (xfer 1 13)) (word_lt c i xt hrows (xfer 1 13)))) := by
  unfold runFirst.sl.r_70
  simp only [pay44_eq, row_1, row_1', l_v648, d_dma92]
theorem e_r_73 : runFirst.sl.r_73 c i arg3 harg3 arg6 xt x0 fh fs0 hrows = pmax (blockRow x0 1) (asRow (arrRow c fh (word c i xt (xfer 1 14)) (word_lt c i xt hrows (xfer 1 14)))) := by
  unfold runFirst.sl.r_73
  simp only [pay45_eq, row_1, row_1', l_v669, d_dma95]
theorem e_r_74 : runFirst.sl.r_74 c i arg3 harg3 arg6 xt x0 fh fs0 hrows = addf (blockRow x0 1) (asRow (arrRow c fh (word c i xt (xfer 1 15)) (word_lt c i xt hrows (xfer 1 15)))) := by
  unfold runFirst.sl.r_74
  simp only [pay46_eq, row_1, row_1', l_v690, d_dma98]
theorem e_r_76 : runFirst.sl.r_76 c i arg3 harg3 arg6 xt x0 fh fs0 hrows = row16 fun k => pmax (blockRow x0 1) (asRow (arrRow c fh (word c i xt (xfer 1 k)) (word_lt c i xt hrows (xfer 1 k)))) := by
  unfold runFirst.sl.r_76
  simp only [pay47_eq, e_r_41, e_r_42, e_r_45, e_r_48, e_r_49, e_r_52, e_r_55, e_r_56, e_r_59, e_r_62, e_r_63, e_r_66, e_r_69, e_r_70, e_r_73, e_r_74, smax_addf]
  exact congrArg row16 (funext fun k => by fin_cases k <;> rfl)
theorem e_r_77 : runFirst.sl.r_77 c i arg3 harg3 arg6 xt x0 fh fs0 hrows = pmax (blockRow x0 2) (asRow (arrRow c fh (word c i xt (xfer 2 0)) (word_lt c i xt hrows (xfer 2 0)))) := by
  unfold runFirst.sl.r_77
  simp only [pay48_eq, row_2, row_2', l_v712, d_dma101]
theorem e_r_80 : runFirst.sl.r_80 c i arg3 harg3 arg6 xt x0 fh fs0 hrows = pmax (blockRow x0 2) (asRow (arrRow c fh (word c i xt (xfer 2 1)) (word_lt c i xt hrows (xfer 2 1)))) := by
  unfold runFirst.sl.r_80
  simp only [pay49_eq, row_2, row_2', l_v733, d_dma104]
theorem e_r_83 : runFirst.sl.r_83 c i arg3 harg3 arg6 xt x0 fh fs0 hrows = pmax (blockRow x0 2) (asRow (arrRow c fh (word c i xt (xfer 2 2)) (word_lt c i xt hrows (xfer 2 2)))) := by
  unfold runFirst.sl.r_83
  simp only [pay50_eq, e_r_81, l_v754, d_dma107]
theorem e_r_84 : runFirst.sl.r_84 c i arg3 harg3 arg6 xt x0 fh fs0 hrows = pmax (blockRow x0 2) (asRow (arrRow c fh (word c i xt (xfer 2 3)) (word_lt c i xt hrows (xfer 2 3)))) := by
  unfold runFirst.sl.r_84
  simp only [pay51_eq, row_2, row_2', l_v775, d_dma110]
theorem e_r_87 : runFirst.sl.r_87 c i arg3 harg3 arg6 xt x0 fh fs0 hrows = pmax (blockRow x0 2) (asRow (arrRow c fh (word c i xt (xfer 2 4)) (word_lt c i xt hrows (xfer 2 4)))) := by
  unfold runFirst.sl.r_87
  simp only [pay52_eq, row_2, row_2', l_v796, d_dma113]
theorem e_r_89 : runFirst.sl.r_89 c i arg3 harg3 arg6 xt x0 fh fs0 hrows = pmax (blockRow x0 2) (asRow (arrRow c fh (word c i xt (xfer 2 5)) (word_lt c i xt hrows (xfer 2 5)))) := by
  unfold runFirst.sl.r_89
  simp only [pay53_eq, e_r_81, l_v817, d_dma116]
theorem e_r_90 : runFirst.sl.r_90 c i arg3 harg3 arg6 xt x0 fh fs0 hrows = pmax (blockRow x0 2) (asRow (arrRow c fh (word c i xt (xfer 2 6)) (word_lt c i xt hrows (xfer 2 6)))) := by
  unfold runFirst.sl.r_90
  simp only [pay54_eq, row_2, row_2', l_v838, d_dma119]
theorem e_r_93 : runFirst.sl.r_93 c i arg3 harg3 arg6 xt x0 fh fs0 hrows = pmax (blockRow x0 2) (asRow (arrRow c fh (word c i xt (xfer 2 7)) (word_lt c i xt hrows (xfer 2 7)))) := by
  unfold runFirst.sl.r_93
  simp only [pay55_eq, row_2, row_2', l_v859, d_dma122]
theorem e_r_95 : runFirst.sl.r_95 c i arg3 harg3 arg6 xt x0 fh fs0 hrows = pmax (blockRow x0 2) (asRow (arrRow c fh (word c i xt (xfer 2 8)) (word_lt c i xt hrows (xfer 2 8)))) := by
  unfold runFirst.sl.r_95
  simp only [pay56_eq, e_r_81, l_v880, d_dma125]
theorem e_r_96 : runFirst.sl.r_96 c i arg3 harg3 arg6 xt x0 fh fs0 hrows = pmax (blockRow x0 2) (asRow (arrRow c fh (word c i xt (xfer 2 9)) (word_lt c i xt hrows (xfer 2 9)))) := by
  unfold runFirst.sl.r_96
  simp only [pay57_eq, row_2, row_2', l_v901, d_dma128]
theorem e_r_99 : runFirst.sl.r_99 c i arg3 harg3 arg6 xt x0 fh fs0 hrows = pmax (blockRow x0 2) (asRow (arrRow c fh (word c i xt (xfer 2 10)) (word_lt c i xt hrows (xfer 2 10)))) := by
  unfold runFirst.sl.r_99
  simp only [pay58_eq, row_2, row_2', l_v922, d_dma131]
theorem e_r_101 : runFirst.sl.r_101 c i arg3 harg3 arg6 xt x0 fh fs0 hrows = pmax (blockRow x0 2) (asRow (arrRow c fh (word c i xt (xfer 2 11)) (word_lt c i xt hrows (xfer 2 11)))) := by
  unfold runFirst.sl.r_101
  simp only [pay59_eq, e_r_81, l_v943, d_dma134]
theorem e_r_102 : runFirst.sl.r_102 c i arg3 harg3 arg6 xt x0 fh fs0 hrows = pmax (blockRow x0 2) (asRow (arrRow c fh (word c i xt (xfer 2 12)) (word_lt c i xt hrows (xfer 2 12)))) := by
  unfold runFirst.sl.r_102
  simp only [pay60_eq, row_2, row_2', l_v964, d_dma137]
theorem e_r_105 : runFirst.sl.r_105 c i arg3 harg3 arg6 xt x0 fh fs0 hrows = pmax (blockRow x0 2) (asRow (arrRow c fh (word c i xt (xfer 2 13)) (word_lt c i xt hrows (xfer 2 13)))) := by
  unfold runFirst.sl.r_105
  simp only [pay61_eq, row_2, row_2', l_v985, d_dma140]
theorem e_r_107 : runFirst.sl.r_107 c i arg3 harg3 arg6 xt x0 fh fs0 hrows = row16 fun k => pmax (blockRow x0 2) (asRow (arrRow c fh (word c i xt (xfer 2 k)) (word_lt c i xt hrows (xfer 2 k)))) := by
  unfold runFirst.sl.r_107
  simp only [pay62_eq, e_r_77, e_r_80, e_r_83, e_r_84, e_r_87, e_r_89, e_r_90, e_r_93, e_r_95, e_r_96, e_r_99, e_r_101, e_r_102, e_r_105, e_r_81, l_v1006, d_dma143, row_2, row_2', l_v1027, d_dma146]
  exact congrArg row16 (funext fun k => by fin_cases k <;> rfl)
theorem e_r_110 : runFirst.sl.r_110 c i arg3 harg3 arg6 xt x0 fh fs0 hrows = pmax (blockRow x0 3) (asRow (arrRow c fh (word c i xt (xfer 3 0)) (word_lt c i xt hrows (xfer 3 0)))) := by
  unfold runFirst.sl.r_110
  simp only [pay63_eq, row_3, row_3', l_v1049, d_dma149]
theorem e_r_113 : runFirst.sl.r_113 c i arg3 harg3 arg6 xt x0 fh fs0 hrows = pmax (blockRow x0 3) (asRow (arrRow c fh (word c i xt (xfer 3 1)) (word_lt c i xt hrows (xfer 3 1)))) := by
  unfold runFirst.sl.r_113
  simp only [pay64_eq, e_r_111, l_v1070, d_dma152]
theorem e_r_114 : runFirst.sl.r_114 c i arg3 harg3 arg6 xt x0 fh fs0 hrows = pmax (blockRow x0 3) (asRow (arrRow c fh (word c i xt (xfer 3 2)) (word_lt c i xt hrows (xfer 3 2)))) := by
  unfold runFirst.sl.r_114
  simp only [pay65_eq, row_3, row_3', l_v1091, d_dma155]
theorem e_r_117 : runFirst.sl.r_117 c i arg3 harg3 arg6 xt x0 fh fs0 hrows = pmax (blockRow x0 3) (asRow (arrRow c fh (word c i xt (xfer 3 3)) (word_lt c i xt hrows (xfer 3 3)))) := by
  unfold runFirst.sl.r_117
  simp only [pay66_eq, row_3, row_3', l_v1112, d_dma158]
theorem e_r_119 : runFirst.sl.r_119 c i arg3 harg3 arg6 xt x0 fh fs0 hrows = pmax (blockRow x0 3) (asRow (arrRow c fh (word c i xt (xfer 3 4)) (word_lt c i xt hrows (xfer 3 4)))) := by
  unfold runFirst.sl.r_119
  simp only [pay67_eq, e_r_111, l_v1133, d_dma161]
theorem e_r_120 : runFirst.sl.r_120 c i arg3 harg3 arg6 xt x0 fh fs0 hrows = pmax (blockRow x0 3) (asRow (arrRow c fh (word c i xt (xfer 3 5)) (word_lt c i xt hrows (xfer 3 5)))) := by
  unfold runFirst.sl.r_120
  simp only [pay68_eq, row_3, row_3', l_v1154, d_dma164]
theorem e_r_123 : runFirst.sl.r_123 c i arg3 harg3 arg6 xt x0 fh fs0 hrows = pmax (blockRow x0 3) (asRow (arrRow c fh (word c i xt (xfer 3 6)) (word_lt c i xt hrows (xfer 3 6)))) := by
  unfold runFirst.sl.r_123
  simp only [pay69_eq, row_3, row_3', l_v1175, d_dma167]
theorem e_r_125 : runFirst.sl.r_125 c i arg3 harg3 arg6 xt x0 fh fs0 hrows = pmax (blockRow x0 3) (asRow (arrRow c fh (word c i xt (xfer 3 7)) (word_lt c i xt hrows (xfer 3 7)))) := by
  unfold runFirst.sl.r_125
  simp only [pay70_eq, e_r_111, l_v1196, d_dma170]
theorem e_r_126 : runFirst.sl.r_126 c i arg3 harg3 arg6 xt x0 fh fs0 hrows = pmax (blockRow x0 3) (asRow (arrRow c fh (word c i xt (xfer 3 8)) (word_lt c i xt hrows (xfer 3 8)))) := by
  unfold runFirst.sl.r_126
  simp only [pay71_eq, row_3, row_3', l_v1217, d_dma173]
theorem e_r_129 : runFirst.sl.r_129 c i arg3 harg3 arg6 xt x0 fh fs0 hrows = pmax (blockRow x0 3) (asRow (arrRow c fh (word c i xt (xfer 3 9)) (word_lt c i xt hrows (xfer 3 9)))) := by
  unfold runFirst.sl.r_129
  simp only [pay72_eq, row_3, row_3', l_v1238, d_dma176]
theorem e_r_131 : runFirst.sl.r_131 c i arg3 harg3 arg6 xt x0 fh fs0 hrows = pmax (blockRow x0 3) (asRow (arrRow c fh (word c i xt (xfer 3 10)) (word_lt c i xt hrows (xfer 3 10)))) := by
  unfold runFirst.sl.r_131
  simp only [pay73_eq, e_r_111, l_v1259, d_dma179]
theorem e_r_132 : runFirst.sl.r_132 c i arg3 harg3 arg6 xt x0 fh fs0 hrows = pmax (blockRow x0 3) (asRow (arrRow c fh (word c i xt (xfer 3 11)) (word_lt c i xt hrows (xfer 3 11)))) := by
  unfold runFirst.sl.r_132
  simp only [pay74_eq, row_3, row_3', l_v1280, d_dma182]
theorem e_r_135 : runFirst.sl.r_135 c i arg3 harg3 arg6 xt x0 fh fs0 hrows = pmax (blockRow x0 3) (asRow (arrRow c fh (word c i xt (xfer 3 12)) (word_lt c i xt hrows (xfer 3 12)))) := by
  unfold runFirst.sl.r_135
  simp only [pay75_eq, row_3, row_3', l_v1301, d_dma185]
theorem e_r_137 : runFirst.sl.r_137 c i arg3 harg3 arg6 xt x0 fh fs0 hrows = pmax (blockRow x0 3) (asRow (arrRow c fh (word c i xt (xfer 3 13)) (word_lt c i xt hrows (xfer 3 13)))) := by
  unfold runFirst.sl.r_137
  simp only [pay76_eq, e_r_111, l_v1322, d_dma188]
theorem e_r_138 : runFirst.sl.r_138 c i arg3 harg3 arg6 xt x0 fh fs0 hrows = pmax (blockRow x0 3) (asRow (arrRow c fh (word c i xt (xfer 3 14)) (word_lt c i xt hrows (xfer 3 14)))) := by
  unfold runFirst.sl.r_138
  simp only [pay77_eq, row_3, row_3', l_v1343, d_dma191]
theorem e_r_141 : runFirst.sl.r_141 c i arg3 harg3 arg6 xt x0 fh fs0 hrows = row16 fun k => pmax (blockRow x0 3) (asRow (arrRow c fh (word c i xt (xfer 3 k)) (word_lt c i xt hrows (xfer 3 k)))) := by
  unfold runFirst.sl.r_141
  simp only [pay78_eq, e_r_110, e_r_113, e_r_114, e_r_117, e_r_119, e_r_120, e_r_123, e_r_125, e_r_126, e_r_129, e_r_131, e_r_132, e_r_135, e_r_137, e_r_138, row_3, row_3', l_v1364, d_dma194]
  exact congrArg row16 (funext fun k => by fin_cases k <;> rfl)
theorem e_r_144 : runFirst.sl.r_144 c i arg3 harg3 arg6 xt x0 fh fs0 hrows = pmax (blockRow x0 4) (asRow (arrRow c fh (word c i xt (xfer 4 0)) (word_lt c i xt hrows (xfer 4 0)))) := by
  unfold runFirst.sl.r_144
  simp only [pay79_eq, e_r_142, l_v1386, d_dma197]
theorem e_r_145 : runFirst.sl.r_145 c i arg3 harg3 arg6 xt x0 fh fs0 hrows = pmax (blockRow x0 4) (asRow (arrRow c fh (word c i xt (xfer 4 1)) (word_lt c i xt hrows (xfer 4 1)))) := by
  unfold runFirst.sl.r_145
  simp only [pay80_eq, row_4, row_4', l_v1407, d_dma200]
theorem e_r_148 : runFirst.sl.r_148 c i arg3 harg3 arg6 xt x0 fh fs0 hrows = pmax (blockRow x0 4) (asRow (arrRow c fh (word c i xt (xfer 4 2)) (word_lt c i xt hrows (xfer 4 2)))) := by
  unfold runFirst.sl.r_148
  simp only [pay81_eq, row_4, row_4', l_v1428, d_dma203]
theorem e_r_150 : runFirst.sl.r_150 c i arg3 harg3 arg6 xt x0 fh fs0 hrows = pmax (blockRow x0 4) (asRow (arrRow c fh (word c i xt (xfer 4 3)) (word_lt c i xt hrows (xfer 4 3)))) := by
  unfold runFirst.sl.r_150
  simp only [pay82_eq, e_r_142, l_v1449, d_dma206]
theorem e_r_151 : runFirst.sl.r_151 c i arg3 harg3 arg6 xt x0 fh fs0 hrows = pmax (blockRow x0 4) (asRow (arrRow c fh (word c i xt (xfer 4 4)) (word_lt c i xt hrows (xfer 4 4)))) := by
  unfold runFirst.sl.r_151
  simp only [pay83_eq, row_4, row_4', l_v1470, d_dma209]
theorem e_r_154 : runFirst.sl.r_154 c i arg3 harg3 arg6 xt x0 fh fs0 hrows = pmax (blockRow x0 4) (asRow (arrRow c fh (word c i xt (xfer 4 5)) (word_lt c i xt hrows (xfer 4 5)))) := by
  unfold runFirst.sl.r_154
  simp only [pay84_eq, row_4, row_4', l_v1491, d_dma212]
theorem e_r_156 : runFirst.sl.r_156 c i arg3 harg3 arg6 xt x0 fh fs0 hrows = pmax (blockRow x0 4) (asRow (arrRow c fh (word c i xt (xfer 4 6)) (word_lt c i xt hrows (xfer 4 6)))) := by
  unfold runFirst.sl.r_156
  simp only [pay85_eq, e_r_142, l_v1512, d_dma215]
theorem e_r_157 : runFirst.sl.r_157 c i arg3 harg3 arg6 xt x0 fh fs0 hrows = pmax (blockRow x0 4) (asRow (arrRow c fh (word c i xt (xfer 4 7)) (word_lt c i xt hrows (xfer 4 7)))) := by
  unfold runFirst.sl.r_157
  simp only [pay86_eq, row_4, row_4', l_v1533, d_dma218]
theorem e_r_160 : runFirst.sl.r_160 c i arg3 harg3 arg6 xt x0 fh fs0 hrows = pmax (blockRow x0 4) (asRow (arrRow c fh (word c i xt (xfer 4 8)) (word_lt c i xt hrows (xfer 4 8)))) := by
  unfold runFirst.sl.r_160
  simp only [pay87_eq, row_4, row_4', l_v1554, d_dma221]
theorem e_r_162 : runFirst.sl.r_162 c i arg3 harg3 arg6 xt x0 fh fs0 hrows = pmax (blockRow x0 4) (asRow (arrRow c fh (word c i xt (xfer 4 9)) (word_lt c i xt hrows (xfer 4 9)))) := by
  unfold runFirst.sl.r_162
  simp only [pay88_eq, e_r_142, l_v1575, d_dma224]
theorem e_r_163 : runFirst.sl.r_163 c i arg3 harg3 arg6 xt x0 fh fs0 hrows = pmax (blockRow x0 4) (asRow (arrRow c fh (word c i xt (xfer 4 10)) (word_lt c i xt hrows (xfer 4 10)))) := by
  unfold runFirst.sl.r_163
  simp only [pay89_eq, row_4, row_4', l_v1596, d_dma227]
theorem e_r_166 : runFirst.sl.r_166 c i arg3 harg3 arg6 xt x0 fh fs0 hrows = pmax (blockRow x0 4) (asRow (arrRow c fh (word c i xt (xfer 4 11)) (word_lt c i xt hrows (xfer 4 11)))) := by
  unfold runFirst.sl.r_166
  simp only [pay90_eq, row_4, row_4', l_v1617, d_dma230]
theorem e_r_168 : runFirst.sl.r_168 c i arg3 harg3 arg6 xt x0 fh fs0 hrows = pmax (blockRow x0 4) (asRow (arrRow c fh (word c i xt (xfer 4 12)) (word_lt c i xt hrows (xfer 4 12)))) := by
  unfold runFirst.sl.r_168
  simp only [pay91_eq, e_r_142, l_v1638, d_dma233]
theorem e_r_169 : runFirst.sl.r_169 c i arg3 harg3 arg6 xt x0 fh fs0 hrows = pmax (blockRow x0 4) (asRow (arrRow c fh (word c i xt (xfer 4 13)) (word_lt c i xt hrows (xfer 4 13)))) := by
  unfold runFirst.sl.r_169
  simp only [pay92_eq, row_4, row_4', l_v1659, d_dma236]
theorem e_r_172 : runFirst.sl.r_172 c i arg3 harg3 arg6 xt x0 fh fs0 hrows = pmax (blockRow x0 4) (asRow (arrRow c fh (word c i xt (xfer 4 14)) (word_lt c i xt hrows (xfer 4 14)))) := by
  unfold runFirst.sl.r_172
  simp only [pay93_eq, row_4, row_4', l_v1680, d_dma239]
theorem e_r_174 : runFirst.sl.r_174 c i arg3 harg3 arg6 xt x0 fh fs0 hrows = row16 fun k => pmax (blockRow x0 4) (asRow (arrRow c fh (word c i xt (xfer 4 k)) (word_lt c i xt hrows (xfer 4 k)))) := by
  unfold runFirst.sl.r_174
  simp only [pay94_eq, e_r_144, e_r_145, e_r_148, e_r_150, e_r_151, e_r_154, e_r_156, e_r_157, e_r_160, e_r_162, e_r_163, e_r_166, e_r_168, e_r_169, e_r_172, e_r_142, l_v1701, d_dma242]
  exact congrArg row16 (funext fun k => by fin_cases k <;> rfl)
theorem e_r_175 : runFirst.sl.r_175 c i arg3 harg3 arg6 xt x0 fh fs0 hrows = pmax (blockRow x0 5) (asRow (arrRow c fh (word c i xt (xfer 5 0)) (word_lt c i xt hrows (xfer 5 0)))) := by
  unfold runFirst.sl.r_175
  simp only [pay95_eq, row_5, row_5', l_v1723, d_dma245]
theorem e_r_178 : runFirst.sl.r_178 c i arg3 harg3 arg6 xt x0 fh fs0 hrows = pmax (blockRow x0 5) (asRow (arrRow c fh (word c i xt (xfer 5 1)) (word_lt c i xt hrows (xfer 5 1)))) := by
  unfold runFirst.sl.r_178
  simp only [pay96_eq, row_5, row_5', l_v1744, d_dma248]
theorem e_r_181 : runFirst.sl.r_181 c i arg3 harg3 arg6 xt x0 fh fs0 hrows = pmax (blockRow x0 5) (asRow (arrRow c fh (word c i xt (xfer 5 2)) (word_lt c i xt hrows (xfer 5 2)))) := by
  unfold runFirst.sl.r_181
  simp only [pay97_eq, e_r_179, l_v1765, d_dma251]
theorem e_r_182 : runFirst.sl.r_182 c i arg3 harg3 arg6 xt x0 fh fs0 hrows = pmax (blockRow x0 5) (asRow (arrRow c fh (word c i xt (xfer 5 3)) (word_lt c i xt hrows (xfer 5 3)))) := by
  unfold runFirst.sl.r_182
  simp only [pay98_eq, row_5, row_5', l_v1786, d_dma254]
theorem e_r_185 : runFirst.sl.r_185 c i arg3 harg3 arg6 xt x0 fh fs0 hrows = pmax (blockRow x0 5) (asRow (arrRow c fh (word c i xt (xfer 5 4)) (word_lt c i xt hrows (xfer 5 4)))) := by
  unfold runFirst.sl.r_185
  simp only [pay99_eq, row_5, row_5', l_v1807, d_dma257]
theorem e_r_187 : runFirst.sl.r_187 c i arg3 harg3 arg6 xt x0 fh fs0 hrows = pmax (blockRow x0 5) (asRow (arrRow c fh (word c i xt (xfer 5 5)) (word_lt c i xt hrows (xfer 5 5)))) := by
  unfold runFirst.sl.r_187
  simp only [pay100_eq, e_r_179, l_v1828, d_dma260]
theorem e_r_188 : runFirst.sl.r_188 c i arg3 harg3 arg6 xt x0 fh fs0 hrows = pmax (blockRow x0 5) (asRow (arrRow c fh (word c i xt (xfer 5 6)) (word_lt c i xt hrows (xfer 5 6)))) := by
  unfold runFirst.sl.r_188
  simp only [pay101_eq, row_5, row_5', l_v1849, d_dma263]
theorem e_r_191 : runFirst.sl.r_191 c i arg3 harg3 arg6 xt x0 fh fs0 hrows = pmax (blockRow x0 5) (asRow (arrRow c fh (word c i xt (xfer 5 7)) (word_lt c i xt hrows (xfer 5 7)))) := by
  unfold runFirst.sl.r_191
  simp only [pay102_eq, row_5, row_5', l_v1870, d_dma266]
theorem e_r_193 : runFirst.sl.r_193 c i arg3 harg3 arg6 xt x0 fh fs0 hrows = pmax (blockRow x0 5) (asRow (arrRow c fh (word c i xt (xfer 5 8)) (word_lt c i xt hrows (xfer 5 8)))) := by
  unfold runFirst.sl.r_193
  simp only [pay103_eq, e_r_179, l_v1891, d_dma269]
theorem e_r_194 : runFirst.sl.r_194 c i arg3 harg3 arg6 xt x0 fh fs0 hrows = pmax (blockRow x0 5) (asRow (arrRow c fh (word c i xt (xfer 5 9)) (word_lt c i xt hrows (xfer 5 9)))) := by
  unfold runFirst.sl.r_194
  simp only [pay104_eq, row_5, row_5', l_v1912, d_dma272]
theorem e_r_197 : runFirst.sl.r_197 c i arg3 harg3 arg6 xt x0 fh fs0 hrows = pmax (blockRow x0 5) (asRow (arrRow c fh (word c i xt (xfer 5 10)) (word_lt c i xt hrows (xfer 5 10)))) := by
  unfold runFirst.sl.r_197
  simp only [pay105_eq, row_5, row_5', l_v1933, d_dma275]
theorem e_r_199 : runFirst.sl.r_199 c i arg3 harg3 arg6 xt x0 fh fs0 hrows = pmax (blockRow x0 5) (asRow (arrRow c fh (word c i xt (xfer 5 11)) (word_lt c i xt hrows (xfer 5 11)))) := by
  unfold runFirst.sl.r_199
  simp only [pay106_eq, e_r_179, l_v1954, d_dma278]
theorem e_r_200 : runFirst.sl.r_200 c i arg3 harg3 arg6 xt x0 fh fs0 hrows = pmax (blockRow x0 5) (asRow (arrRow c fh (word c i xt (xfer 5 12)) (word_lt c i xt hrows (xfer 5 12)))) := by
  unfold runFirst.sl.r_200
  simp only [pay107_eq, row_5, row_5', l_v1975, d_dma281]
theorem e_r_203 : runFirst.sl.r_203 c i arg3 harg3 arg6 xt x0 fh fs0 hrows = pmax (blockRow x0 5) (asRow (arrRow c fh (word c i xt (xfer 5 13)) (word_lt c i xt hrows (xfer 5 13)))) := by
  unfold runFirst.sl.r_203
  simp only [pay108_eq, row_5, row_5', l_v1996, d_dma284]
theorem e_r_205 : runFirst.sl.r_205 c i arg3 harg3 arg6 xt x0 fh fs0 hrows = row16 fun k => pmax (blockRow x0 5) (asRow (arrRow c fh (word c i xt (xfer 5 k)) (word_lt c i xt hrows (xfer 5 k)))) := by
  unfold runFirst.sl.r_205
  simp only [pay109_eq, e_r_175, e_r_178, e_r_181, e_r_182, e_r_185, e_r_187, e_r_188, e_r_191, e_r_193, e_r_194, e_r_197, e_r_199, e_r_200, e_r_203, e_r_179, l_v2017, d_dma287, row_5, row_5', l_v2038, d_dma290]
  exact congrArg row16 (funext fun k => by fin_cases k <;> rfl)
theorem e_r_208 : runFirst.sl.r_208 c i arg3 harg3 arg6 xt x0 fh fs0 hrows = pmax (blockRow x0 6) (asRow (arrRow c fh (word c i xt (xfer 6 0)) (word_lt c i xt hrows (xfer 6 0)))) := by
  unfold runFirst.sl.r_208
  simp only [pay110_eq, row_6, row_6', l_v2060, d_dma293]
theorem e_r_210 : runFirst.sl.r_210 c i arg3 harg3 arg6 xt x0 fh fs0 hrows = pmax (blockRow x0 6) (asRow (arrRow c fh (word c i xt (xfer 6 1)) (word_lt c i xt hrows (xfer 6 1)))) := by
  unfold runFirst.sl.r_210
  simp only [pay111_eq, row_6, row_6', l_v2081, d_dma296]
theorem e_r_211 : runFirst.sl.r_211 c i arg3 harg3 arg6 xt x0 fh fs0 hrows = pmax (blockRow x0 6) (asRow (arrRow c fh (word c i xt (xfer 6 2)) (word_lt c i xt hrows (xfer 6 2)))) := by
  unfold runFirst.sl.r_211
  simp only [pay112_eq, row_6, row_6', l_v2102, d_dma299]
theorem e_r_214 : runFirst.sl.r_214 c i arg3 harg3 arg6 xt x0 fh fs0 hrows = pmax (blockRow x0 6) (asRow (arrRow c fh (word c i xt (xfer 6 3)) (word_lt c i xt hrows (xfer 6 3)))) := by
  unfold runFirst.sl.r_214
  simp only [pay113_eq, row_6, row_6', l_v2123, d_dma302]
theorem e_r_216 : runFirst.sl.r_216 c i arg3 harg3 arg6 xt x0 fh fs0 hrows = pmax (blockRow x0 6) (asRow (arrRow c fh (word c i xt (xfer 6 4)) (word_lt c i xt hrows (xfer 6 4)))) := by
  unfold runFirst.sl.r_216
  simp only [pay114_eq, row_6, row_6', l_v2144, d_dma305]
theorem e_r_217 : runFirst.sl.r_217 c i arg3 harg3 arg6 xt x0 fh fs0 hrows = pmax (blockRow x0 6) (asRow (arrRow c fh (word c i xt (xfer 6 5)) (word_lt c i xt hrows (xfer 6 5)))) := by
  unfold runFirst.sl.r_217
  simp only [pay115_eq, row_6, row_6', l_v2165, d_dma308]
theorem e_r_220 : runFirst.sl.r_220 c i arg3 harg3 arg6 xt x0 fh fs0 hrows = pmax (blockRow x0 6) (asRow (arrRow c fh (word c i xt (xfer 6 6)) (word_lt c i xt hrows (xfer 6 6)))) := by
  unfold runFirst.sl.r_220
  simp only [pay116_eq, row_6, row_6', l_v2186, d_dma311]
theorem e_r_222 : runFirst.sl.r_222 c i arg3 harg3 arg6 xt x0 fh fs0 hrows = pmax (blockRow x0 6) (asRow (arrRow c fh (word c i xt (xfer 6 7)) (word_lt c i xt hrows (xfer 6 7)))) := by
  unfold runFirst.sl.r_222
  simp only [pay117_eq, row_6, row_6', l_v2207, d_dma314]
theorem e_r_223 : runFirst.sl.r_223 c i arg3 harg3 arg6 xt x0 fh fs0 hrows = pmax (blockRow x0 6) (asRow (arrRow c fh (word c i xt (xfer 6 8)) (word_lt c i xt hrows (xfer 6 8)))) := by
  unfold runFirst.sl.r_223
  simp only [pay118_eq, row_6, row_6', l_v2228, d_dma317]
theorem e_r_226 : runFirst.sl.r_226 c i arg3 harg3 arg6 xt x0 fh fs0 hrows = pmax (blockRow x0 6) (asRow (arrRow c fh (word c i xt (xfer 6 9)) (word_lt c i xt hrows (xfer 6 9)))) := by
  unfold runFirst.sl.r_226
  simp only [pay119_eq, row_6, row_6', l_v2249, d_dma320]
theorem e_r_228 : runFirst.sl.r_228 c i arg3 harg3 arg6 xt x0 fh fs0 hrows = pmax (blockRow x0 6) (asRow (arrRow c fh (word c i xt (xfer 6 10)) (word_lt c i xt hrows (xfer 6 10)))) := by
  unfold runFirst.sl.r_228
  simp only [pay120_eq, row_6, row_6', l_v2270, d_dma323]
theorem e_r_229 : runFirst.sl.r_229 c i arg3 harg3 arg6 xt x0 fh fs0 hrows = pmax (blockRow x0 6) (asRow (arrRow c fh (word c i xt (xfer 6 11)) (word_lt c i xt hrows (xfer 6 11)))) := by
  unfold runFirst.sl.r_229
  simp only [pay121_eq, row_6, row_6', l_v2291, d_dma326]
theorem e_r_232 : runFirst.sl.r_232 c i arg3 harg3 arg6 xt x0 fh fs0 hrows = pmax (blockRow x0 6) (asRow (arrRow c fh (word c i xt (xfer 6 12)) (word_lt c i xt hrows (xfer 6 12)))) := by
  unfold runFirst.sl.r_232
  simp only [pay122_eq, row_6, row_6', l_v2312, d_dma329]
theorem e_r_234 : runFirst.sl.r_234 c i arg3 harg3 arg6 xt x0 fh fs0 hrows = pmax (blockRow x0 6) (asRow (arrRow c fh (word c i xt (xfer 6 13)) (word_lt c i xt hrows (xfer 6 13)))) := by
  unfold runFirst.sl.r_234
  simp only [pay123_eq, row_6, row_6', l_v2333, d_dma332]
theorem e_r_235 : runFirst.sl.r_235 c i arg3 harg3 arg6 xt x0 fh fs0 hrows = pmax (blockRow x0 6) (asRow (arrRow c fh (word c i xt (xfer 6 14)) (word_lt c i xt hrows (xfer 6 14)))) := by
  unfold runFirst.sl.r_235
  simp only [pay124_eq, row_6, row_6', l_v2354, d_dma335]
theorem e_r_238 : runFirst.sl.r_238 c i arg3 harg3 arg6 xt x0 fh fs0 hrows = row16 fun k => pmax (blockRow x0 6) (asRow (arrRow c fh (word c i xt (xfer 6 k)) (word_lt c i xt hrows (xfer 6 k)))) := by
  unfold runFirst.sl.r_238
  simp only [pay125_eq, e_r_208, e_r_210, e_r_211, e_r_214, e_r_216, e_r_217, e_r_220, e_r_222, e_r_223, e_r_226, e_r_228, e_r_229, e_r_232, e_r_234, e_r_235, row_6, row_6', l_v2375, d_dma338]
  exact congrArg row16 (funext fun k => by fin_cases k <;> rfl)
theorem e_r_240 : runFirst.sl.r_240 c i arg3 harg3 arg6 xt x0 fh fs0 hrows = pmax (blockRow x0 7) (asRow (arrRow c fh (word c i xt (xfer 7 0)) (word_lt c i xt hrows (xfer 7 0)))) := by
  unfold runFirst.sl.r_240
  simp only [pay126_eq, row_7, row_7', l_v2397, d_dma341]
theorem e_r_241 : runFirst.sl.r_241 c i arg3 harg3 arg6 xt x0 fh fs0 hrows = pmax (blockRow x0 7) (asRow (arrRow c fh (word c i xt (xfer 7 1)) (word_lt c i xt hrows (xfer 7 1)))) := by
  unfold runFirst.sl.r_241
  simp only [pay127_eq, row_7, row_7', l_v2418, d_dma344]
theorem e_r_244 : runFirst.sl.r_244 c i arg3 harg3 arg6 xt x0 fh fs0 hrows = pmax (blockRow x0 7) (asRow (arrRow c fh (word c i xt (xfer 7 2)) (word_lt c i xt hrows (xfer 7 2)))) := by
  unfold runFirst.sl.r_244
  simp only [pay128_eq, row_7, row_7', l_v2439, d_dma347]
theorem e_r_246 : runFirst.sl.r_246 c i arg3 harg3 arg6 xt x0 fh fs0 hrows = pmax (blockRow x0 7) (asRow (arrRow c fh (word c i xt (xfer 7 3)) (word_lt c i xt hrows (xfer 7 3)))) := by
  unfold runFirst.sl.r_246
  simp only [pay129_eq, row_7, row_7', l_v2460, d_dma350]
theorem e_r_247 : runFirst.sl.r_247 c i arg3 harg3 arg6 xt x0 fh fs0 hrows = pmax (blockRow x0 7) (asRow (arrRow c fh (word c i xt (xfer 7 4)) (word_lt c i xt hrows (xfer 7 4)))) := by
  unfold runFirst.sl.r_247
  simp only [pay130_eq, row_7, row_7', l_v2481, d_dma353]
theorem e_r_250 : runFirst.sl.r_250 c i arg3 harg3 arg6 xt x0 fh fs0 hrows = pmax (blockRow x0 7) (asRow (arrRow c fh (word c i xt (xfer 7 5)) (word_lt c i xt hrows (xfer 7 5)))) := by
  unfold runFirst.sl.r_250
  simp only [pay131_eq, row_7, row_7', l_v2502, d_dma356]
theorem e_r_252 : runFirst.sl.r_252 c i arg3 harg3 arg6 xt x0 fh fs0 hrows = pmax (blockRow x0 7) (asRow (arrRow c fh (word c i xt (xfer 7 6)) (word_lt c i xt hrows (xfer 7 6)))) := by
  unfold runFirst.sl.r_252
  simp only [pay132_eq, row_7, row_7', l_v2523, d_dma359]
theorem e_r_253 : runFirst.sl.r_253 c i arg3 harg3 arg6 xt x0 fh fs0 hrows = pmax (blockRow x0 7) (asRow (arrRow c fh (word c i xt (xfer 7 7)) (word_lt c i xt hrows (xfer 7 7)))) := by
  unfold runFirst.sl.r_253
  simp only [pay133_eq, row_7, row_7', l_v2544, d_dma362]
theorem e_r_256 : runFirst.sl.r_256 c i arg3 harg3 arg6 xt x0 fh fs0 hrows = pmax (blockRow x0 7) (asRow (arrRow c fh (word c i xt (xfer 7 8)) (word_lt c i xt hrows (xfer 7 8)))) := by
  unfold runFirst.sl.r_256
  simp only [pay134_eq, row_7, row_7', l_v2565, d_dma365]
theorem e_r_258 : runFirst.sl.r_258 c i arg3 harg3 arg6 xt x0 fh fs0 hrows = pmax (blockRow x0 7) (asRow (arrRow c fh (word c i xt (xfer 7 9)) (word_lt c i xt hrows (xfer 7 9)))) := by
  unfold runFirst.sl.r_258
  simp only [pay135_eq, row_7, row_7', l_v2586, d_dma368]
theorem e_r_259 : runFirst.sl.r_259 c i arg3 harg3 arg6 xt x0 fh fs0 hrows = pmax (blockRow x0 7) (asRow (arrRow c fh (word c i xt (xfer 7 10)) (word_lt c i xt hrows (xfer 7 10)))) := by
  unfold runFirst.sl.r_259
  simp only [pay136_eq, row_7, row_7', l_v2607, d_dma371]
theorem e_r_262 : runFirst.sl.r_262 c i arg3 harg3 arg6 xt x0 fh fs0 hrows = pmax (blockRow x0 7) (asRow (arrRow c fh (word c i xt (xfer 7 11)) (word_lt c i xt hrows (xfer 7 11)))) := by
  unfold runFirst.sl.r_262
  simp only [pay137_eq, row_7, row_7', l_v2628, d_dma374]
theorem e_r_264 : runFirst.sl.r_264 c i arg3 harg3 arg6 xt x0 fh fs0 hrows = pmax (blockRow x0 7) (asRow (arrRow c fh (word c i xt (xfer 7 12)) (word_lt c i xt hrows (xfer 7 12)))) := by
  unfold runFirst.sl.r_264
  simp only [pay138_eq, row_7, row_7', l_v2649, d_dma377]
theorem e_r_265 : runFirst.sl.r_265 c i arg3 harg3 arg6 xt x0 fh fs0 hrows = pmax (blockRow x0 7) (asRow (arrRow c fh (word c i xt (xfer 7 13)) (word_lt c i xt hrows (xfer 7 13)))) := by
  unfold runFirst.sl.r_265
  simp only [pay139_eq, row_7, row_7', l_v2670, d_dma380]
theorem e_r_267 : runFirst.sl.r_267 c i arg3 harg3 arg6 xt x0 fh fs0 hrows = pmax (blockRow x0 7) (asRow (arrRow c fh (word c i xt (xfer 7 14)) (word_lt c i xt hrows (xfer 7 14)))) := by
  unfold runFirst.sl.r_267
  simp only [pay140_eq, row_7, row_7', l_v2691, d_dma383]
theorem e_v2703 : runFirst.sl.v2703 c i arg3 harg3 arg6 xt x0 fh fs0 hrows = addf (blockRow x0 7) (asRow (arrRow c fh (word c i xt (xfer 7 15)) (word_lt c i xt hrows (xfer 7 15)))) := by
  unfold runFirst.sl.v2703
  simp only [row_7, row_7', l_v2702, d_dma386]
theorem e_v2706 : runFirst.sl.v2706 c i arg3 harg3 arg6 xt x0 fh fs0 hrows = row16 fun k => pmax (blockRow x0 7) (asRow (arrRow c fh (word c i xt (xfer 7 k)) (word_lt c i xt hrows (xfer 7 k)))) := by
  unfold runFirst.sl.v2706
  simp only [pay1_eq, e_r_240, e_r_241, e_r_244, e_r_246, e_r_247, e_r_250, e_r_252, e_r_253, e_r_256, e_r_258, e_r_259, e_r_262, e_r_264, e_r_265, e_r_267, e_v2703, smax_addf]
  exact congrArg row16 (funext fun k => by fin_cases k <;> rfl)

end Table

end First

/-- The block of maxima is `maxBlock`: what the two-slot buffer held before the point has dropped out. -/
theorem max_first [∀ e, Nonempty (Elt F e)] (c : Dev nD) (i : grid0.Coords) (hc : isFirst i)
    (arg3 : Memref sig .tc .vmem S8x512 .f32) (harg3 : arg3.IsWhole) (arg4 : Memref sig .tc .vmem S8x16 .f32) (harg4 : arg4.IsWhole)
    (arg5 : Memref sig .tc .vmem S1x512 .f32) (harg5 : arg5.IsWhole) (arg6 : Memref sig .tc .vmem S2x512 .f32) (harg6 : arg6.IsWhole)
    (q1 q2 : Idealize.SL.RA.PosShare Idealize.SL.RA.TreeShare)
    (xt : BufOf (F := F) c tbM) (x0 : Vec F S8x512 .f32) (fh : BufOf (F := F) c hbM)
    (fs0 : BufTy.Contents (Elt F) arg6.view.ty) (hrows : RowsBelow c xt) :
    readMax (runFirst c i hc arg3 harg3 arg4 harg4 arg5 harg5 arg6 harg6 q1 q2 xt x0 fh fs0 hrows).1.1 = maxBlock c i xt x0 fh hrows := by
  unfold runFirst
  dsimp only
  rw [readMax_whole _ zero2, pay2_eq]
  simp only [First.e_r_38, First.e_r_76, First.e_r_107, First.e_r_141, First.e_r_174, First.e_r_205, First.e_r_238, First.e_v2706]
  unfold maxBlock
  exact congrArg col8 (funext fun b => by fin_cases b <;> rfl)

end Cert.Kernel.Body

end
-- ==== Proof.BodyValueBits.lean ====
/-
  What the body's run leaves, read back.

  The run of the body at a point names the stores it leaves in its two output buffers. Read back, the row of
  column sums is the accumulator handed in plus the column sums of the point's block (`sums_later`; at the first
  point the accumulator is the zero row, which the body stores and reads back itself, `sums_first`), and the block
  of maxima is `maxBlock` (`max_later`, `max_first`, proved name by name in the two table modules): what the
  two-slot buffer held before the point has dropped out.
-/
import proofs.«106441_j1580547974259_1_alg».proof.Proof.BodyTableLaterBits
import proofs.«106441_j1580547974259_1_alg».proof.Proof.BodyTableFirstBits

set_option maxRecDepth 16384

noncomputable section

namespace Cert.Kernel.Body

open Cert.Kernel Cert.Kernel.Gen Cert.BodyMathBits
open Idealize.ShloMosaic Idealize.ShloMosaic.TcCoe Idealize.ShloMosaic.ValueIdx

variable {F : FTy → Type} [FloatOps F]

section Sums

variable [∀ e, Nonempty (Elt F e)]

/-- A store through the whole rectangle, last, leaves its payload whatever was stored before. -/
theorem readSums_cons_whole (off : Fin 2 → ℕ) (hz : off = fun _ => 0) (inb : ∀ a, off a + S1x512.size a ≤ S1x512.size a)
    (w : S1x512.Idx → Elt F .f32) (L : List (View.Piece (Elt F) S1x512 .f32)) :
    readSums ((⟨Rect.unit (s := S1x512) off S1x512.size inb, w⟩ : View.Piece (Elt F) S1x512 .f32) :: L) = w := by
  unfold readSums
  rw [View.read_writes_junk_eq_canon]
  exact View.canon_cons_unit_zero hz inb w L

/-- After the first point: the accumulator plus the column sums of the block. -/
theorem sums_later (c : Dev nD) (i : grid0.Coords) (hc : ¬isFirst i)
    (arg3 : Memref sig .tc .vmem S8x512 .f32) (harg3 : arg3.IsWhole) (arg4 : Memref sig .tc .vmem S8x16 .f32) (harg4 : arg4.IsWhole)
    (arg5 : Memref sig .tc .vmem S1x512 .f32) (harg5 : arg5.IsWhole) (arg6 : Memref sig .tc .vmem S2x512 .f32) (harg6 : arg6.IsWhole)
    (q1 q2 : Idealize.SL.RA.PosShare Idealize.SL.RA.TreeShare)
    (xt : BufOf (F := F) c tbM) (x0 : Vec F S8x512 .f32) (a0 : Vec F S1x512 .f32) (fh : BufOf (F := F) c hbM)
    (fs0 : BufTy.Contents (Elt F) arg6.view.ty) (hrows : RowsBelow c xt) :
    readSums (runLater c i hc arg3 harg3 arg4 harg4 arg5 harg5 arg6 harg6 q1 q2 xt x0 a0 fh fs0 hrows).1.2 = accStep a0 x0 := by
  unfold runLater
  dsimp only
  unfold runLater.sl.H2_1
  rw [readSums_whole _ zero2, pay4_eq, whole_load arg5 harg5 _ zero2, whole_load arg3 harg3 _ zero2]

/-- At the first point the body stores the zero row, reads it back, and adds the column sums of the block. -/
theorem sums_first (c : Dev nD) (i : grid0.Coords) (hc : isFirst i)
    (arg3 : Memref sig .tc .vmem S8x512 .f32) (harg3 : arg3.IsWhole) (arg4 : Memref sig .tc .vmem S8x16 .f32) (harg4 : arg4.IsWhole)
    (arg5 : Memref sig .tc .vmem S1x512 .f32) (harg5 : arg5.IsWhole) (arg6 : Memref sig .tc .vmem S2x512 .f32) (harg6 : arg6.IsWhole)
    (q1 q2 : Idealize.SL.RA.PosShare Idealize.SL.RA.TreeShare)
    (xt : BufOf (F := F) c tbM) (x0 : Vec F S8x512 .f32) (fh : BufOf (F := F) c hbM)
    (fs0 : BufTy.Contents (Elt F) arg6.view.ty) (hrows : RowsBelow c xt) :
    readSums (runFirst c i hc arg3 harg3 arg4 harg4 arg5 harg5 arg6 harg6 q1 q2 xt x0 fh fs0 hrows).1.2 = accStep zeroRow x0 := by
  unfold runFirst
  dsimp only
  unfold runFirst.sl.H2_2
  rw [readSums_cons_whole _ zero2, pay4_eq, whole_load arg3 harg3 _ zero2]
  unfold runFirst.sl.v4 runFirst.sl.H2_1
  rw [View.readCov_unit_zero _ zero2, pay3_eq]

end Sums

end Cert.Kernel.Body

end
-- ==== Proof.RegionDataBits.lean ====
/-
  The proof data of the row-gather region: what each window's buffer holds around the body at every grid
  point. The block of eight rows is read only. The 8 × 16 block of maxima written at point t is, entry
  (b, k), the maximum over the 512 lanes of row b of the point's block plus the row of the big array that
  table word 128·t + 16·b + k names. The 1 × 512 row of column sums is ONE block revisited by all 1024
  points — cleared at the first, the block's eight rows added at each, written back after the last — so
  what it holds after point n is defined by recursion on n. None of this depends on what the two-slot
  buffer held before the point: every slot is overwritten by a copy before it is read.
-/
import proofs.«106441_j1580547974259_1_alg».proof.Proof.BodyValueBits
import Idealize.ShloMosaic.Lib.Ring

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (hrows : ∀ c : Dev nD, RowsBelow c (tbl V 0))

/-- The body's run at a point, on the point's buffers, the entry contents, and whatever the two-slot
    buffer holds. -/
abbrev atFirst (c : Dev nD) (t : Fin (cfgM V).N) (h0 : t.val = 0) (fs0 : BufTy.Contents (Elt F) (scM).view.ty) :=
  runFirst (F := F) c (grid0.coords t) ((first_iff (adm V) t).mpr h0) (ms0 V t) (hs0 V t) (ms1 V t) (hs1 V t) (ms2 V t) (hs2 V t) scM hscM
    fullShare fullShare.right (tbl V 0) (iblk V c 0 t) (V c main_arg0) fs0 (hrows c)
abbrev atLater (c : Dev nD) (t : Fin (cfgM V).N) (h0 : ¬t.val = 0) (a0 : Vec F S1x512 .f32) (fs0 : BufTy.Contents (Elt F) (scM).view.ty) :=
  runLater (F := F) c (grid0.coords t) (fun h => h0 ((first_iff (adm V) t).mp h)) (ms0 V t) (hs0 V t) (ms1 V t) (hs1 V t) (ms2 V t) (hs2 V t) scM hscM
    fullShare fullShare.right (tbl V 0) (iblk V c 0 t) a0 (V c main_arg0) fs0 (hrows c)

/-- The pieces each run leaves tile its two output blocks. -/
theorem cover_first_max (c : Dev nD) (t : Fin (cfgM V).N) (h0 : t.val = 0) (fs0) (y : S8x16.Idx) : ∃ pc ∈ (atFirst V hrows c t h0 fs0).1.1, y ∈ pc.1.set :=
  View.cover_of_tiledL (atFirst V hrows c t h0 fs0).1.1 S8x16.size (by sl_kernel_rfl) y
theorem cover_first_sums (c : Dev nD) (t : Fin (cfgM V).N) (h0 : t.val = 0) (fs0) (y : S1x512.Idx) : ∃ pc ∈ (atFirst V hrows c t h0 fs0).1.2, y ∈ pc.1.set :=
  View.cover_of_tiledL (atFirst V hrows c t h0 fs0).1.2 S1x512.size (by sl_kernel_rfl) y
theorem cover_later_max (c : Dev nD) (t : Fin (cfgM V).N) (h0 : ¬t.val = 0) (a0) (fs0) (y : S8x16.Idx) : ∃ pc ∈ (atLater V hrows c t h0 a0 fs0).1.1, y ∈ pc.1.set :=
  View.cover_of_tiledL (atLater V hrows c t h0 a0 fs0).1.1 S8x16.size (by sl_kernel_rfl) y
theorem cover_later_sums (c : Dev nD) (t : Fin (cfgM V).N) (h0 : ¬t.val = 0) (a0) (fs0) (y : S1x512.Idx) : ∃ pc ∈ (atLater V hrows c t h0 a0 fs0).1.2, y ∈ pc.1.set :=
  View.cover_of_tiledL (atLater V hrows c t h0 a0 fs0).1.2 S1x512.size (by sl_kernel_rfl) y

/-- The maxima of point t. -/
def maxAt (c : Dev nD) (t : Fin (cfgM V).N) : Vec F S8x16 .f32 :=
  maxBlock c (grid0.coords t) (tbl V 0) (iblk V c 0 t) (V c main_arg0) (hrows c)

/-- THE ACCUMULATION: the column sums after point n. -/
def sumsAt (c : Dev nD) : (n : ℕ) → n < (cfgM V).N → Vec F S1x512 .f32
  | 0, hn => Cert.BodyMathBits.accStep Cert.BodyMathBits.zeroRow (iblk V c 0 ⟨0, hn⟩)
  | n + 1, hn => Cert.BodyMathBits.accStep (sumsAt c n (Nat.lt_of_succ_lt hn)) (iblk V c 0 ⟨n + 1, hn⟩)

theorem sumsAt_first (c : Dev nD) (t : Fin (cfgM V).N) (h0 : t.val = 0) :
    sumsAt V c t.val t.isLt = Cert.BodyMathBits.accStep Cert.BodyMathBits.zeroRow (iblk V c 0 t) := by
  obtain ⟨n, hn⟩ := t
  cases n with
  | zero => rfl
  | succ n => exact absurd h0 (Nat.succ_ne_zero n)

theorem sumsAt_later (c : Dev nD) (t : Fin (cfgM V).N) (h0 : ¬t.val = 0) :
    sumsAt V c t.val t.isLt
      = Cert.BodyMathBits.accStep (sumsAt V c (t.val - 1) (Nat.lt_of_le_of_lt (Nat.sub_le _ _) t.isLt)) (iblk V c 0 t) := by
  obtain ⟨n, hn⟩ := t
  cases n with
  | zero => exact absurd rfl h0
  | succ n => rfl

/-- The proof data: the arrays as the region finds them, the windows' contents after each point, the
    kept state, the block fetches' half of the array of rows, nothing owed. -/
def dats (_ : Fin 1) (c : Dev nD) : Dat τ (Elt F) Unit ℕ (Pipeline.UD sig nD τ) ℕ (cfgM V) c where
  A w := V c (Pipeline.arrRef spec0 w)
  after w t := match w with
    | ⟨0, _⟩ => iblk V c 0 t
    | ⟨1, _⟩ => maxAt V hrows c t
    | ⟨2, _⟩ => sumsAt V c t.val t.isLt
  Φ _ := Phi V c
  q w := shareOf w
  owed _ := 0

theorem A_eq (c : Dev nD) (w : Fin (cfgM V).W) : (dats V hrows 0 c).A w = V c (Pipeline.arrRef spec0 w) := by
  dsimp only [dats]
theorem after_rows (c : Dev nD) (t : Fin (cfgM V).N) : (dats V hrows 0 c).after 0 t = iblk V c 0 t := by dsimp only [dats]; rfl
theorem after_max (c : Dev nD) (t : Fin (cfgM V).N) : (dats V hrows 0 c).after 1 t = maxAt V hrows c t := by dsimp only [dats]; rfl
theorem after_sums (c : Dev nD) (t : Fin (cfgM V).N) : (dats V hrows 0 c).after 2 t = sumsAt V c t.val t.isLt := by dsimp only [dats]; rfl

theorem before_rows (c : Dev nD) (t : Fin (cfgM V).N) (d) : (dats V hrows 0 c).before 0 t d = iblk V c 0 t :=
  before_rows_of V (dats V hrows 0 c) (A_eq V hrows c 0) (after_rows V hrows c) t d

/-- After the first point the sums' buffer holds what the point before left: it is written back only
    after the last point. -/
theorem before_sums_later (c : Dev nD) (t : Fin (cfgM V).N) (h0 : ¬t.val = 0) (d) :
    (dats V hrows 0 c).before 2 t d = sumsAt V c (t.val - 1) (Nat.lt_of_le_of_lt (Nat.sub_le _ _) t.isLt) := by
  have hN : t.val < 1024 := lt_of_lt_of_eq t.isLt (N_eq (adm V))
  rw [Dat.before_out_kept _ 2 rfl t h0 (Bool.eq_false_iff.mpr fun h => by have := (flush_sums (adm V) _).mp h; dsimp only at this; omega)
    (fun _ => rfl) (fun _ _ => rfl)]
  dsimp only [dats]; rfl

end Cert.Kernel.Body

end
-- ==== Proof.RegionBodyBits.lean ====
/-
  The body obligation of the row-gather region: at every grid point, from what the body keeps between
  points and the three windows' buffers as the pipeline hands them over, the body runs to the end and
  leaves the block of rows in place, the 8 × 16 maxima of the point in the second window's buffer, and
  the column sums so far in the third's. The first point is the run that clears the sums; every later
  point is the run that adds to what the point before left. Whatever the two-slot buffer holds goes into
  the run as it is and comes back changed; nothing the windows end with depends on it.
-/
import proofs.«106441_j1580547974259_1_alg».proof.Proof.RegionDataBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (hrows : ∀ c : Dev nD, RowsBelow c (tbl V 0))

theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 5) 0 ∗ semVal ((c : Thread nD τ), SemLoc.dma 6) 0) := by
  rw [Pipeline.ownSems0_eq_of_list c osem [0, 1] (by decide) (by decide)]; rfl

theorem table_eq (c : Dev nD) :
    (Pipeline.prefHeld pre0 c (fun _ => fullShare) (tbl V) : sProp 𝕄) = heldAt c fullShare tbM (tbl V 0) := by
  unfold Pipeline.prefHeld
  rw [show (Finset.univ : Finset (Fin 1)) = {(0 : Fin 1)} from by decide, bigSep_singleton]
  rfl

/-- What the body keeps between points, conjunct by conjunct. -/
theorem Phi_eq (c : Dev nD) :
    (Phi V c : sProp 𝕄)
      = iprop(iprop((∃ d, owns (c : Thread nD τ) scM fullShare d))
          ∗ iprop(semVal ((c : Thread nD τ), SemLoc.dma 5) 0 ∗ semVal ((c : Thread nD τ), SemLoc.dma 6) 0)
          ∗ heldAt c fullShare tbM (tbl V 0) ∗ heldAt c fullShare.right hbM (V c main_arg0)) := by
  unfold Phi
  rw [scopedRest0_eq, ownSems_eq, table_eq]; simp only [scM, owns_whole]; try rfl

/-- A buffer owned at some vector is held at some contents. -/
theorem owns_open (c : Dev nD) (M : Memref sig .tc .vmem S2x512 .f32) (d : Vec F S2x512 .f32) :
    (owns (c : Thread nD τ) M fullShare d : sProp 𝕄)
      ⊢ iprop(∃ f : BufTy.Contents (Elt F) M.view.ty, M.view.loc (c : Thread nD τ) ↦[M.view.set]{fullShare} f) := by
  unfold owns; iintro ⟨%f, -, H⟩; iexists f; iexact H

/-- What the body is called with at a point, the windows one by one, -/
def bodyPre (c : Dev nD) (t : Fin (cfgM V).N) : sProp 𝕄 :=
  iprop((dats V hrows 0 c).Φ t.castSucc ∗ (dats V hrows 0 c).owesAt () t.castSucc
    ∗ (∃ d, owns (c : Thread nD τ) (ms0 V t) fullShare ((dats V hrows 0 c).before 0 t d))
    ∗ (∃ d, owns (c : Thread nD τ) (ms1 V t) fullShare ((dats V hrows 0 c).before 1 t d))
    ∗ (∃ d, owns (c : Thread nD τ) (ms2 V t) fullShare ((dats V hrows 0 c).before 2 t d)))

/-- and what it returns. -/
def bodyPost (c : Dev nD) (t : Fin (cfgM V).N) : sProp 𝕄 :=
  iprop((dats V hrows 0 c).Φ t.succ ∗ (dats V hrows 0 c).owesAt () t.succ
    ∗ owns (c : Thread nD τ) (ms0 V t) fullShare ((dats V hrows 0 c).after 0 t)
    ∗ owns (c : Thread nD τ) (ms1 V t) fullShare ((dats V hrows 0 c).after 1 t)
    ∗ owns (c : Thread nD τ) (ms2 V t) fullShare ((dats V hrows 0 c).after 2 t))

/-- The body as the pipeline calls it at a point. -/
abbrev bodyAt (t : Fin (cfgM V).N) : Prog (TpuEff nD τ sig (Elt F) Λ₀ .tc) PUnit :=
  cc0_kernel (grid0.coords t) tbM htbM hbM hhbM (ms0 V t) (hs0 V t) (ms1 V t) (hs1 V t) (ms2 V t) (hs2 V t) scM hscM cc0_scratch1

set_option maxHeartbeats 4000000 in
theorem sound_body (c : Dev nD) (t : Fin (cfgM V).N) :
    bodyPre V hrows c t ⊢ wp frame (wpE (defs₀ (F := F)) Variants.none c none) Set.univ (bodyAt V t) (fun _ => bodyPost V hrows c t) := by
  unfold bodyPre bodyPost bodyAt
  simp only [before_rows]
  rw [show (dats V hrows 0 c).Φ t.succ = Phi V c from rfl, show (dats V hrows 0 c).Φ t.castSucc = Phi V c from rfl, Phi_eq,
    after_rows, after_max, after_sums]
  unfold Dat.owesAt Pipeline.owesWithin
  rw [show (dats V hrows 0 c).owed t.castSucc = 0 from rfl, show (dats V hrows 0 c).owed t.succ = 0 from rfl]
  by_cases h0 : t.val = 0
  · rw [sumsAt_first V c t h0]
    unfold maxAt
    iintro ⟨⟨⟨%ds0, HS⟩, ⟨Hq0, Hq1⟩, HT, Hh0⟩, ⟨%W, -, HW⟩, ⟨%d0, H0⟩, ⟨%d1, H1⟩, ⟨%d2, H2⟩⟩
    ihave HS1 := (owns_open c scM ds0) $$ HS
    icases HS1 with ⟨%fs0, HS0⟩
    iapply ((atFirst V hrows c t h0 fs0).2 W _)
    isplitl [HT]; · iexact HT
    isplitl [H0]; · iexact H0
    isplitl [H1]; · iexists _; iexact H1
    isplitl [H2]; · iexists _; iexact H2
    isplitl [HS0]; · iexact HS0
    isplitl [Hq0]; · iexact Hq0
    isplitl [Hq1]; · iexact Hq1
    isplitl [Hh0]; · iexact Hh0
    isplitl [HW]; · iexact HW
    iintro ⟨HT, H0, ⟨%e1, H1⟩, ⟨%e2, H2⟩, HS0, Hq0, Hq1, Hh0, ⟨%W', HW'⟩⟩
    isplitl [HS0 Hq0 Hq1 HT Hh0]
    · isplitl [HS0]; · iexact HS0
      isplitl [Hq0 Hq1]
      · isplitl [Hq0]; · iexact Hq0
        iexact Hq1
      isplitl [HT]; · iexact HT
      iexact Hh0
    isplitl [HW']
    · iexists W'; isplitr; · ipureintro; exact fun _ _ => Or.inl trivial
      iexact HW'
    isplitl [H0]; · iexact H0
    isplitl [H1]
    · unfold owns; iexists _; isplitr
      swap; · iexact H1
      ipureintro
      exact (View.read_writes_of_cover _ _ _ _ _ (cover_first_max V hrows c t h0 fs0)).trans (max_first ..)
    · unfold owns; iexists _; isplitr
      swap; · iexact H2
      ipureintro
      exact (View.read_writes_of_cover _ _ _ _ _ (cover_first_sums V hrows c t h0 fs0)).trans (sums_first ..)
  · rw [sumsAt_later V c t h0]
    simp only [before_sums_later V hrows c t h0]
    unfold maxAt
    iintro ⟨⟨⟨%ds0, HS⟩, ⟨Hq0, Hq1⟩, HT, Hh0⟩, ⟨%W, -, HW⟩, ⟨%d0, H0⟩, ⟨%d1, H1⟩, ⟨%d2, H2⟩⟩
    ihave HS1 := (owns_open c scM ds0) $$ HS
    icases HS1 with ⟨%fs0, HS0⟩
    iapply ((atLater V hrows c t h0 _ fs0).2 W _)
    isplitl [HT]; · iexact HT
    isplitl [H0]; · iexact H0
    isplitl [H1]; · iexists _; iexact H1
    isplitl [H2]; · iexact H2
    isplitl [HS0]; · iexact HS0
    isplitl [Hq0]; · iexact Hq0
    isplitl [Hq1]; · iexact Hq1
    isplitl [Hh0]; · iexact Hh0
    isplitl [HW]; · iexact HW
    iintro ⟨HT, H0, ⟨%e1, H1⟩, ⟨%e2, H2⟩, HS0, Hq0, Hq1, Hh0, ⟨%W', HW'⟩⟩
    isplitl [HS0 Hq0 Hq1 HT Hh0]
    · isplitl [HS0]; · iexact HS0
      isplitl [Hq0 Hq1]
      · isplitl [Hq0]; · iexact Hq0
        iexact Hq1
      isplitl [HT]; · iexact HT
      iexact Hh0
    isplitl [HW']
    · iexists W'; isplitr; · ipureintro; exact fun _ _ => Or.inl trivial
      iexact HW'
    isplitl [H0]; · iexact H0
    isplitl [H1]
    · unfold owns; iexists _; isplitr
      swap; · iexact H1
      ipureintro
      exact (View.read_writes_of_cover _ _ _ _ _ (cover_later_max V hrows c t h0 _ fs0)).trans (max_later ..)
    · unfold owns; iexists _; isplitr
      swap; · iexact H2
      ipureintro
      exact (View.read_writes_of_cover _ _ _ _ _ (cover_later_sums V hrows c t h0 _ fs0)).trans (sums_later ..)

/-- The library's body obligation, at every point. -/
theorem body_obligation (c : Dev nD) :
    BodyObligation (dats (F := F) V hrows 0 c) (defs₀ (F := F)) Variants.none () Set.univ := fun t => by
  rw [bigSep_W0, bigSep_W0]
  exact sound_body V hrows c t

end Cert.Kernel.Body

end
-- ==== Proof.BodyMath.lean ====
/-
  The kernel body's arithmetic, named and read at an index.

  The body computes with a handful of functions, each occurring many times over different values:

    * `smax s : f32[1, 1]`, the maximum of the 512 entries of a row `s : f32[1, 512]`, from `-∞`;
    * `pmax q g = smax (q + g)`, the maximum over the 512 lanes of the sum of two rows;
    * `row16 v : f32[1, 16]`, sixteen `1 × 1` values laid side by side;
    * `col8 r : f32[8, 16]`, eight rows of sixteen stacked;
    * `accStep acc x : f32[1, 512]`, a row plus the column sums of an `8 × 512` block;
    * `zeroRow`, the row of zeros.

  Every named payload of the body is one of these applied to the payload's own arguments (`payN_eq`, each by
  unfolding; `pay_eqs` is their conjunction, usable as one rewriting set). At the ideal values (floats extended reals,
  operations exact): `smax s` is the fold of `max` from `⊥` over the 512 lanes, and equally their supremum; `pmax` is
  symmetric in its two rows; entry `k` of `row16 v` is `v k`, row `b` of `col8 r` is `r b`; `accStep acc x` at column
  `q` is `acc` there plus `∑ b : Fin 8, x[b, q]`; `zeroRow` is `0` everywhere.
-/
import proofs.«106441_j1580547974259_1_alg».proof.Proof.Gen.KernelIdeal.Skeleton
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

open scoped BigOperators

namespace Cert.BodyMath

open Cert.KernelIdeal Cert.KernelIdeal.Gen Idealize.ShloMosaic Idealize.ShloMosaic.ValueIdx

/-! ## The functions -/

section Functions

variable {F : FTy → Type} [FloatOps F] {α : Type}

/-- The maximum of a row's 512 entries, from `-∞`, as a `1 × 1` value. -/
def smax (s : FVec F S1x512 .f32) : FVec F S1x1 .f32 :=
  shapeCast S1x1 (multiReduction .maximumf [1] S1 s 0xFF800000#32 reduces_S1x512_S1 (.inl rfl) rfl) shapeCasts_S1_S1x1

/-- The maximum over the lanes of the sum of two rows. -/
def pmax (q g : FVec F S1x512 .f32) : FVec F S1x1 .f32 :=
  smax (addf q g)

/-- Sixteen `1 × 1` values side by side. -/
def row16 (v : Fin 16 → S1x1.Idx → α) : S1x16.Idx → α :=
  concatenate S1x16 1 [⟨S1x1, v 0⟩, ⟨S1x1, v 1⟩, ⟨S1x1, v 2⟩, ⟨S1x1, v 3⟩, ⟨S1x1, v 4⟩, ⟨S1x1, v 5⟩, ⟨S1x1, v 6⟩, ⟨S1x1, v 7⟩, ⟨S1x1, v 8⟩, ⟨S1x1, v 9⟩, ⟨S1x1, v 10⟩, ⟨S1x1, v 11⟩, ⟨S1x1, v 12⟩, ⟨S1x1, v 13⟩, ⟨S1x1, v 14⟩, ⟨S1x1, v 15⟩] concatenates_S1x1_S1x1_S1x1_S1x1_S1x1_S1x1_S1x1_S1x1_S1x1_S1x1_S1x1_S1x1_S1x1_S1x1_S1x1_S1x1_S1x16_d1

/-- Eight rows of sixteen, stacked. -/
def col8 (r : Fin 8 → S1x16.Idx → α) : S8x16.Idx → α :=
  concatenate S8x16 0 [⟨S1x16, r 0⟩, ⟨S1x16, r 1⟩, ⟨S1x16, r 2⟩, ⟨S1x16, r 3⟩, ⟨S1x16, r 4⟩, ⟨S1x16, r 5⟩, ⟨S1x16, r 6⟩, ⟨S1x16, r 7⟩] concatenates_S1x16_S1x16_S1x16_S1x16_S1x16_S1x16_S1x16_S1x16_S8x16_d0

/-- A row plus the column sums of an `8 × 512` block. -/
def accStep (acc : FVec F S1x512 .f32) (x : FVec F S8x512 .f32) : FVec F S1x512 .f32 :=
  addf (shapeCast S1x512 acc shapeCasts_S1x512_S1x512)
    (shapeCast S1x512 (multiReduction .add [0] S512 x 0x00000000#32 reduces_S8x512_S512 (.inl rfl) rfl) shapeCasts_S512_S1x512)

/-- The row of zeros. -/
def zeroRow : FVec F S1x512 .f32 :=
  broadcast S1x512 (Scalar.ofBits .f32 0x00000000#32)

/-- `smax` of a sum is `pmax`. -/
theorem smax_addf (q g : FVec F S1x512 .f32) : smax (addf q g) = pmax q g := rfl

/-! ## Every payload is one of them -/

theorem pay1_eq (v2400 : FVec F S1x1 .f32) (v2421 : FVec F S1x1 .f32) (v2442 : FVec F S1x1 .f32) (v2463 : FVec F S1x1 .f32) (v2484 : FVec F S1x1 .f32) (v2505 : FVec F S1x1 .f32) (v2526 : FVec F S1x1 .f32) (v2547 : FVec F S1x1 .f32) (v2568 : FVec F S1x1 .f32) (v2589 : FVec F S1x1 .f32) (v2610 : FVec F S1x1 .f32) (v2631 : FVec F S1x1 .f32) (v2652 : FVec F S1x1 .f32) (v2673 : FVec F S1x1 .f32) (v2694 : FVec F S1x1 .f32) (v2703 : FVec F S1x512 .f32) : k0_pay1 v2400 v2421 v2442 v2463 v2484 v2505 v2526 v2547 v2568 v2589 v2610 v2631 v2652 v2673 v2694 v2703 = row16 ![v2400, v2421, v2442, v2463, v2484, v2505, v2526, v2547, v2568, v2589, v2610, v2631, v2652, v2673, v2694, smax v2703] := rfl
theorem pay2_eq (v357 : FVec F S1x16 .f32) (v694 : FVec F S1x16 .f32) (v1031 : FVec F S1x16 .f32) (v1368 : FVec F S1x16 .f32) (v1705 : FVec F S1x16 .f32) (v2042 : FVec F S1x16 .f32) (v2379 : FVec F S1x16 .f32) (v2706 : FVec F S1x16 .f32) : k0_pay2 v357 v694 v1031 v1368 v1705 v2042 v2379 v2706 = col8 ![v357, v694, v1031, v1368, v1705, v2042, v2379, v2706] := rfl
theorem pay3_eq : (k0_pay3 : FVec F S1x512 .f32) = zeroRow := rfl
theorem pay4_eq (v4 : FVec F S1x512 .f32) (v6 : FVec F S8x512 .f32) : k0_pay4 v4 v6 = accStep v4 v6 := rfl
theorem pay5_eq (v37 : FVec F S1x512 .f32) (v38 : FVec F S1x512 .f32) : k0_pay5 v37 v38 = pmax v37 v38 := rfl
theorem pay6_eq (v58 : FVec F S1x512 .f32) (v59 : FVec F S1x512 .f32) : k0_pay6 v58 v59 = addf v58 v59 := rfl
theorem pay7_eq (v60 : FVec F S1x512 .f32) : k0_pay7 v60 = smax v60 := rfl
theorem pay8_eq (v79 : FVec F S1x512 .f32) (v80 : FVec F S1x512 .f32) : k0_pay8 v79 v80 = pmax v79 v80 := rfl
theorem pay9_eq (v100 : FVec F S1x512 .f32) (v101 : FVec F S1x512 .f32) : k0_pay9 v100 v101 = pmax v100 v101 := rfl
theorem pay10_eq (v121 : FVec F S1x512 .f32) (v122 : FVec F S1x512 .f32) : k0_pay10 v121 v122 = addf v121 v122 := rfl
theorem pay11_eq (v123 : FVec F S1x512 .f32) : k0_pay11 v123 = smax v123 := rfl
theorem pay12_eq (v142 : FVec F S1x512 .f32) (v143 : FVec F S1x512 .f32) : k0_pay12 v142 v143 = pmax v142 v143 := rfl
theorem pay13_eq (v163 : FVec F S1x512 .f32) (v164 : FVec F S1x512 .f32) : k0_pay13 v163 v164 = pmax v163 v164 := rfl
theorem pay14_eq (v184 : FVec F S1x512 .f32) (v185 : FVec F S1x512 .f32) : k0_pay14 v184 v185 = addf v184 v185 := rfl
theorem pay15_eq (v186 : FVec F S1x512 .f32) : k0_pay15 v186 = smax v186 := rfl
theorem pay16_eq (v205 : FVec F S1x512 .f32) (v206 : FVec F S1x512 .f32) : k0_pay16 v205 v206 = pmax v205 v206 := rfl
theorem pay17_eq (v226 : FVec F S1x512 .f32) (v227 : FVec F S1x512 .f32) : k0_pay17 v226 v227 = pmax v226 v227 := rfl
theorem pay18_eq (v247 : FVec F S1x512 .f32) (v248 : FVec F S1x512 .f32) : k0_pay18 v247 v248 = addf v247 v248 := rfl
theorem pay19_eq (v249 : FVec F S1x512 .f32) : k0_pay19 v249 = smax v249 := rfl
theorem pay20_eq (v268 : FVec F S1x512 .f32) (v269 : FVec F S1x512 .f32) : k0_pay20 v268 v269 = pmax v268 v269 := rfl
theorem pay21_eq (v289 : FVec F S1x512 .f32) (v290 : FVec F S1x512 .f32) : k0_pay21 v289 v290 = pmax v289 v290 := rfl
theorem pay22_eq (v310 : FVec F S1x512 .f32) (v311 : FVec F S1x512 .f32) : k0_pay22 v310 v311 = addf v310 v311 := rfl
theorem pay23_eq (v312 : FVec F S1x512 .f32) : k0_pay23 v312 = smax v312 := rfl
theorem pay24_eq (v331 : FVec F S1x512 .f32) (v332 : FVec F S1x512 .f32) : k0_pay24 v331 v332 = pmax v331 v332 := rfl
theorem pay25_eq (v41 : FVec F S1x1 .f32) (v62 : FVec F S1x1 .f32) (v83 : FVec F S1x1 .f32) (v104 : FVec F S1x1 .f32) (v125 : FVec F S1x1 .f32) (v146 : FVec F S1x1 .f32) (v167 : FVec F S1x1 .f32) (v188 : FVec F S1x1 .f32) (v209 : FVec F S1x1 .f32) (v230 : FVec F S1x1 .f32) (v251 : FVec F S1x1 .f32) (v272 : FVec F S1x1 .f32) (v293 : FVec F S1x1 .f32) (v314 : FVec F S1x1 .f32) (v335 : FVec F S1x1 .f32) (v352 : FVec F S1x512 .f32) (v353 : FVec F S1x512 .f32) : k0_pay25 v41 v62 v83 v104 v125 v146 v167 v188 v209 v230 v251 v272 v293 v314 v335 v352 v353 = row16 ![v41, v62, v83, v104, v125, v146, v167, v188, v209, v230, v251, v272, v293, v314, v335, pmax v352 v353] := rfl
theorem pay26_eq (v374 : FVec F S1x512 .f32) (v375 : FVec F S1x512 .f32) : k0_pay26 v374 v375 = addf v374 v375 := rfl
theorem pay27_eq (v376 : FVec F S1x512 .f32) : k0_pay27 v376 = smax v376 := rfl
theorem pay28_eq (v395 : FVec F S1x512 .f32) (v396 : FVec F S1x512 .f32) : k0_pay28 v395 v396 = pmax v395 v396 := rfl
theorem pay29_eq (v416 : FVec F S1x512 .f32) (v417 : FVec F S1x512 .f32) : k0_pay29 v416 v417 = pmax v416 v417 := rfl
theorem pay30_eq (v437 : FVec F S1x512 .f32) (v438 : FVec F S1x512 .f32) : k0_pay30 v437 v438 = addf v437 v438 := rfl
theorem pay31_eq (v439 : FVec F S1x512 .f32) : k0_pay31 v439 = smax v439 := rfl
theorem pay32_eq (v458 : FVec F S1x512 .f32) (v459 : FVec F S1x512 .f32) : k0_pay32 v458 v459 = pmax v458 v459 := rfl
theorem pay33_eq (v479 : FVec F S1x512 .f32) (v480 : FVec F S1x512 .f32) : k0_pay33 v479 v480 = pmax v479 v480 := rfl
theorem pay34_eq (v500 : FVec F S1x512 .f32) (v501 : FVec F S1x512 .f32) : k0_pay34 v500 v501 = addf v500 v501 := rfl
theorem pay35_eq (v502 : FVec F S1x512 .f32) : k0_pay35 v502 = smax v502 := rfl
theorem pay36_eq (v521 : FVec F S1x512 .f32) (v522 : FVec F S1x512 .f32) : k0_pay36 v521 v522 = pmax v521 v522 := rfl
theorem pay37_eq (v542 : FVec F S1x512 .f32) (v543 : FVec F S1x512 .f32) : k0_pay37 v542 v543 = pmax v542 v543 := rfl
theorem pay38_eq (v563 : FVec F S1x512 .f32) (v564 : FVec F S1x512 .f32) : k0_pay38 v563 v564 = addf v563 v564 := rfl
theorem pay39_eq (v565 : FVec F S1x512 .f32) : k0_pay39 v565 = smax v565 := rfl
theorem pay40_eq (v584 : FVec F S1x512 .f32) (v585 : FVec F S1x512 .f32) : k0_pay40 v584 v585 = pmax v584 v585 := rfl
theorem pay41_eq (v605 : FVec F S1x512 .f32) (v606 : FVec F S1x512 .f32) : k0_pay41 v605 v606 = pmax v605 v606 := rfl
theorem pay42_eq (v626 : FVec F S1x512 .f32) (v627 : FVec F S1x512 .f32) : k0_pay42 v626 v627 = addf v626 v627 := rfl
theorem pay43_eq (v628 : FVec F S1x512 .f32) : k0_pay43 v628 = smax v628 := rfl
theorem pay44_eq (v647 : FVec F S1x512 .f32) (v648 : FVec F S1x512 .f32) : k0_pay44 v647 v648 = pmax v647 v648 := rfl
theorem pay45_eq (v668 : FVec F S1x512 .f32) (v669 : FVec F S1x512 .f32) : k0_pay45 v668 v669 = pmax v668 v669 := rfl
theorem pay46_eq (v689 : FVec F S1x512 .f32) (v690 : FVec F S1x512 .f32) : k0_pay46 v689 v690 = addf v689 v690 := rfl
theorem pay47_eq (v378 : FVec F S1x1 .f32) (v399 : FVec F S1x1 .f32) (v420 : FVec F S1x1 .f32) (v441 : FVec F S1x1 .f32) (v462 : FVec F S1x1 .f32) (v483 : FVec F S1x1 .f32) (v504 : FVec F S1x1 .f32) (v525 : FVec F S1x1 .f32) (v546 : FVec F S1x1 .f32) (v567 : FVec F S1x1 .f32) (v588 : FVec F S1x1 .f32) (v609 : FVec F S1x1 .f32) (v630 : FVec F S1x1 .f32) (v651 : FVec F S1x1 .f32) (v672 : FVec F S1x1 .f32) (v691 : FVec F S1x512 .f32) : k0_pay47 v378 v399 v420 v441 v462 v483 v504 v525 v546 v567 v588 v609 v630 v651 v672 v691 = row16 ![v378, v399, v420, v441, v462, v483, v504, v525, v546, v567, v588, v609, v630, v651, v672, smax v691] := rfl
theorem pay48_eq (v711 : FVec F S1x512 .f32) (v712 : FVec F S1x512 .f32) : k0_pay48 v711 v712 = pmax v711 v712 := rfl
theorem pay49_eq (v732 : FVec F S1x512 .f32) (v733 : FVec F S1x512 .f32) : k0_pay49 v732 v733 = pmax v732 v733 := rfl
theorem pay50_eq (v753 : FVec F S1x512 .f32) (v754 : FVec F S1x512 .f32) : k0_pay50 v753 v754 = pmax v753 v754 := rfl
theorem pay51_eq (v774 : FVec F S1x512 .f32) (v775 : FVec F S1x512 .f32) : k0_pay51 v774 v775 = pmax v774 v775 := rfl
theorem pay52_eq (v795 : FVec F S1x512 .f32) (v796 : FVec F S1x512 .f32) : k0_pay52 v795 v796 = pmax v795 v796 := rfl
theorem pay53_eq (v816 : FVec F S1x512 .f32) (v817 : FVec F S1x512 .f32) : k0_pay53 v816 v817 = pmax v816 v817 := rfl
theorem pay54_eq (v837 : FVec F S1x512 .f32) (v838 : FVec F S1x512 .f32) : k0_pay54 v837 v838 = pmax v837 v838 := rfl
theorem pay55_eq (v858 : FVec F S1x512 .f32) (v859 : FVec F S1x512 .f32) : k0_pay55 v858 v859 = pmax v858 v859 := rfl
theorem pay56_eq (v879 : FVec F S1x512 .f32) (v880 : FVec F S1x512 .f32) : k0_pay56 v879 v880 = pmax v879 v880 := rfl
theorem pay57_eq (v900 : FVec F S1x512 .f32) (v901 : FVec F S1x512 .f32) : k0_pay57 v900 v901 = pmax v900 v901 := rfl
theorem pay58_eq (v921 : FVec F S1x512 .f32) (v922 : FVec F S1x512 .f32) : k0_pay58 v921 v922 = pmax v921 v922 := rfl
theorem pay59_eq (v942 : FVec F S1x512 .f32) (v943 : FVec F S1x512 .f32) : k0_pay59 v942 v943 = pmax v942 v943 := rfl
theorem pay60_eq (v963 : FVec F S1x512 .f32) (v964 : FVec F S1x512 .f32) : k0_pay60 v963 v964 = pmax v963 v964 := rfl
theorem pay61_eq (v984 : FVec F S1x512 .f32) (v985 : FVec F S1x512 .f32) : k0_pay61 v984 v985 = pmax v984 v985 := rfl
theorem pay62_eq (v715 : FVec F S1x1 .f32) (v736 : FVec F S1x1 .f32) (v757 : FVec F S1x1 .f32) (v778 : FVec F S1x1 .f32) (v799 : FVec F S1x1 .f32) (v820 : FVec F S1x1 .f32) (v841 : FVec F S1x1 .f32) (v862 : FVec F S1x1 .f32) (v883 : FVec F S1x1 .f32) (v904 : FVec F S1x1 .f32) (v925 : FVec F S1x1 .f32) (v946 : FVec F S1x1 .f32) (v967 : FVec F S1x1 .f32) (v988 : FVec F S1x1 .f32) (v1005 : FVec F S1x512 .f32) (v1006 : FVec F S1x512 .f32) (v1026 : FVec F S1x512 .f32) (v1027 : FVec F S1x512 .f32) : k0_pay62 v715 v736 v757 v778 v799 v820 v841 v862 v883 v904 v925 v946 v967 v988 v1005 v1006 v1026 v1027 = row16 ![v715, v736, v757, v778, v799, v820, v841, v862, v883, v904, v925, v946, v967, v988, pmax v1005 v1006, pmax v1026 v1027] := rfl
theorem pay63_eq (v1048 : FVec F S1x512 .f32) (v1049 : FVec F S1x512 .f32) : k0_pay63 v1048 v1049 = pmax v1048 v1049 := rfl
theorem pay64_eq (v1069 : FVec F S1x512 .f32) (v1070 : FVec F S1x512 .f32) : k0_pay64 v1069 v1070 = pmax v1069 v1070 := rfl
theorem pay65_eq (v1090 : FVec F S1x512 .f32) (v1091 : FVec F S1x512 .f32) : k0_pay65 v1090 v1091 = pmax v1090 v1091 := rfl
theorem pay66_eq (v1111 : FVec F S1x512 .f32) (v1112 : FVec F S1x512 .f32) : k0_pay66 v1111 v1112 = pmax v1111 v1112 := rfl
theorem pay67_eq (v1132 : FVec F S1x512 .f32) (v1133 : FVec F S1x512 .f32) : k0_pay67 v1132 v1133 = pmax v1132 v1133 := rfl
theorem pay68_eq (v1153 : FVec F S1x512 .f32) (v1154 : FVec F S1x512 .f32) : k0_pay68 v1153 v1154 = pmax v1153 v1154 := rfl
theorem pay69_eq (v1174 : FVec F S1x512 .f32) (v1175 : FVec F S1x512 .f32) : k0_pay69 v1174 v1175 = pmax v1174 v1175 := rfl
theorem pay70_eq (v1195 : FVec F S1x512 .f32) (v1196 : FVec F S1x512 .f32) : k0_pay70 v1195 v1196 = pmax v1195 v1196 := rfl
theorem pay71_eq (v1216 : FVec F S1x512 .f32) (v1217 : FVec F S1x512 .f32) : k0_pay71 v1216 v1217 = pmax v1216 v1217 := rfl
theorem pay72_eq (v1237 : FVec F S1x512 .f32) (v1238 : FVec F S1x512 .f32) : k0_pay72 v1237 v1238 = pmax v1237 v1238 := rfl
theorem pay73_eq (v1258 : FVec F S1x512 .f32) (v1259 : FVec F S1x512 .f32) : k0_pay73 v1258 v1259 = pmax v1258 v1259 := rfl
theorem pay74_eq (v1279 : FVec F S1x512 .f32) (v1280 : FVec F S1x512 .f32) : k0_pay74 v1279 v1280 = pmax v1279 v1280 := rfl
theorem pay75_eq (v1300 : FVec F S1x512 .f32) (v1301 : FVec F S1x512 .f32) : k0_pay75 v1300 v1301 = pmax v1300 v1301 := rfl
theorem pay76_eq (v1321 : FVec F S1x512 .f32) (v1322 : FVec F S1x512 .f32) : k0_pay76 v1321 v1322 = pmax v1321 v1322 := rfl
theorem pay77_eq (v1342 : FVec F S1x512 .f32) (v1343 : FVec F S1x512 .f32) : k0_pay77 v1342 v1343 = pmax v1342 v1343 := rfl
theorem pay78_eq (v1052 : FVec F S1x1 .f32) (v1073 : FVec F S1x1 .f32) (v1094 : FVec F S1x1 .f32) (v1115 : FVec F S1x1 .f32) (v1136 : FVec F S1x1 .f32) (v1157 : FVec F S1x1 .f32) (v1178 : FVec F S1x1 .f32) (v1199 : FVec F S1x1 .f32) (v1220 : FVec F S1x1 .f32) (v1241 : FVec F S1x1 .f32) (v1262 : FVec F S1x1 .f32) (v1283 : FVec F S1x1 .f32) (v1304 : FVec F S1x1 .f32) (v1325 : FVec F S1x1 .f32) (v1346 : FVec F S1x1 .f32) (v1363 : FVec F S1x512 .f32) (v1364 : FVec F S1x512 .f32) : k0_pay78 v1052 v1073 v1094 v1115 v1136 v1157 v1178 v1199 v1220 v1241 v1262 v1283 v1304 v1325 v1346 v1363 v1364 = row16 ![v1052, v1073, v1094, v1115, v1136, v1157, v1178, v1199, v1220, v1241, v1262, v1283, v1304, v1325, v1346, pmax v1363 v1364] := rfl
theorem pay79_eq (v1385 : FVec F S1x512 .f32) (v1386 : FVec F S1x512 .f32) : k0_pay79 v1385 v1386 = pmax v1385 v1386 := rfl
theorem pay80_eq (v1406 : FVec F S1x512 .f32) (v1407 : FVec F S1x512 .f32) : k0_pay80 v1406 v1407 = pmax v1406 v1407 := rfl
theorem pay81_eq (v1427 : FVec F S1x512 .f32) (v1428 : FVec F S1x512 .f32) : k0_pay81 v1427 v1428 = pmax v1427 v1428 := rfl
theorem pay82_eq (v1448 : FVec F S1x512 .f32) (v1449 : FVec F S1x512 .f32) : k0_pay82 v1448 v1449 = pmax v1448 v1449 := rfl
theorem pay83_eq (v1469 : FVec F S1x512 .f32) (v1470 : FVec F S1x512 .f32) : k0_pay83 v1469 v1470 = pmax v1469 v1470 := rfl
theorem pay84_eq (v1490 : FVec F S1x512 .f32) (v1491 : FVec F S1x512 .f32) : k0_pay84 v1490 v1491 = pmax v1490 v1491 := rfl
theorem pay85_eq (v1511 : FVec F S1x512 .f32) (v1512 : FVec F S1x512 .f32) : k0_pay85 v1511 v1512 = pmax v1511 v1512 := rfl
theorem pay86_eq (v1532 : FVec F S1x512 .f32) (v1533 : FVec F S1x512 .f32) : k0_pay86 v1532 v1533 = pmax v1532 v1533 := rfl
theorem pay87_eq (v1553 : FVec F S1x512 .f32) (v1554 : FVec F S1x512 .f32) : k0_pay87 v1553 v1554 = pmax v1553 v1554 := rfl
theorem pay88_eq (v1574 : FVec F S1x512 .f32) (v1575 : FVec F S1x512 .f32) : k0_pay88 v1574 v1575 = pmax v1574 v1575 := rfl
theorem pay89_eq (v1595 : FVec F S1x512 .f32) (v1596 : FVec F S1x512 .f32) : k0_pay89 v1595 v1596 = pmax v1595 v1596 := rfl
theorem pay90_eq (v1616 : FVec F S1x512 .f32) (v1617 : FVec F S1x512 .f32) : k0_pay90 v1616 v1617 = pmax v1616 v1617 := rfl
theorem pay91_eq (v1637 : FVec F S1x512 .f32) (v1638 : FVec F S1x512 .f32) : k0_pay91 v1637 v1638 = pmax v1637 v1638 := rfl
theorem pay92_eq (v1658 : FVec F S1x512 .f32) (v1659 : FVec F S1x512 .f32) : k0_pay92 v1658 v1659 = pmax v1658 v1659 := rfl
theorem pay93_eq (v1679 : FVec F S1x512 .f32) (v1680 : FVec F S1x512 .f32) : k0_pay93 v1679 v1680 = pmax v1679 v1680 := rfl
theorem pay94_eq (v1389 : FVec F S1x1 .f32) (v1410 : FVec F S1x1 .f32) (v1431 : FVec F S1x1 .f32) (v1452 : FVec F S1x1 .f32) (v1473 : FVec F S1x1 .f32) (v1494 : FVec F S1x1 .f32) (v1515 : FVec F S1x1 .f32) (v1536 : FVec F S1x1 .f32) (v1557 : FVec F S1x1 .f32) (v1578 : FVec F S1x1 .f32) (v1599 : FVec F S1x1 .f32) (v1620 : FVec F S1x1 .f32) (v1641 : FVec F S1x1 .f32) (v1662 : FVec F S1x1 .f32) (v1683 : FVec F S1x1 .f32) (v1700 : FVec F S1x512 .f32) (v1701 : FVec F S1x512 .f32) : k0_pay94 v1389 v1410 v1431 v1452 v1473 v1494 v1515 v1536 v1557 v1578 v1599 v1620 v1641 v1662 v1683 v1700 v1701 = row16 ![v1389, v1410, v1431, v1452, v1473, v1494, v1515, v1536, v1557, v1578, v1599, v1620, v1641, v1662, v1683, pmax v1700 v1701] := rfl
theorem pay95_eq (v1722 : FVec F S1x512 .f32) (v1723 : FVec F S1x512 .f32) : k0_pay95 v1722 v1723 = pmax v1722 v1723 := rfl
theorem pay96_eq (v1743 : FVec F S1x512 .f32) (v1744 : FVec F S1x512 .f32) : k0_pay96 v1743 v1744 = pmax v1743 v1744 := rfl
theorem pay97_eq (v1764 : FVec F S1x512 .f32) (v1765 : FVec F S1x512 .f32) : k0_pay97 v1764 v1765 = pmax v1764 v1765 := rfl
theorem pay98_eq (v1785 : FVec F S1x512 .f32) (v1786 : FVec F S1x512 .f32) : k0_pay98 v1785 v1786 = pmax v1785 v1786 := rfl
theorem pay99_eq (v1806 : FVec F S1x512 .f32) (v1807 : FVec F S1x512 .f32) : k0_pay99 v1806 v1807 = pmax v1806 v1807 := rfl
theorem pay100_eq (v1827 : FVec F S1x512 .f32) (v1828 : FVec F S1x512 .f32) : k0_pay100 v1827 v1828 = pmax v1827 v1828 := rfl
theorem pay101_eq (v1848 : FVec F S1x512 .f32) (v1849 : FVec F S1x512 .f32) : k0_pay101 v1848 v1849 = pmax v1848 v1849 := rfl
theorem pay102_eq (v1869 : FVec F S1x512 .f32) (v1870 : FVec F S1x512 .f32) : k0_pay102 v1869 v1870 = pmax v1869 v1870 := rfl
theorem pay103_eq (v1890 : FVec F S1x512 .f32) (v1891 : FVec F S1x512 .f32) : k0_pay103 v1890 v1891 = pmax v1890 v1891 := rfl
theorem pay104_eq (v1911 : FVec F S1x512 .f32) (v1912 : FVec F S1x512 .f32) : k0_pay104 v1911 v1912 = pmax v1911 v1912 := rfl
theorem pay105_eq (v1932 : FVec F S1x512 .f32) (v1933 : FVec F S1x512 .f32) : k0_pay105 v1932 v1933 = pmax v1932 v1933 := rfl
theorem pay106_eq (v1953 : FVec F S1x512 .f32) (v1954 : FVec F S1x512 .f32) : k0_pay106 v1953 v1954 = pmax v1953 v1954 := rfl
theorem pay107_eq (v1974 : FVec F S1x512 .f32) (v1975 : FVec F S1x512 .f32) : k0_pay107 v1974 v1975 = pmax v1974 v1975 := rfl
theorem pay108_eq (v1995 : FVec F S1x512 .f32) (v1996 : FVec F S1x512 .f32) : k0_pay108 v1995 v1996 = pmax v1995 v1996 := rfl
theorem pay109_eq (v1726 : FVec F S1x1 .f32) (v1747 : FVec F S1x1 .f32) (v1768 : FVec F S1x1 .f32) (v1789 : FVec F S1x1 .f32) (v1810 : FVec F S1x1 .f32) (v1831 : FVec F S1x1 .f32) (v1852 : FVec F S1x1 .f32) (v1873 : FVec F S1x1 .f32) (v1894 : FVec F S1x1 .f32) (v1915 : FVec F S1x1 .f32) (v1936 : FVec F S1x1 .f32) (v1957 : FVec F S1x1 .f32) (v1978 : FVec F S1x1 .f32) (v1999 : FVec F S1x1 .f32) (v2016 : FVec F S1x512 .f32) (v2017 : FVec F S1x512 .f32) (v2037 : FVec F S1x512 .f32) (v2038 : FVec F S1x512 .f32) : k0_pay109 v1726 v1747 v1768 v1789 v1810 v1831 v1852 v1873 v1894 v1915 v1936 v1957 v1978 v1999 v2016 v2017 v2037 v2038 = row16 ![v1726, v1747, v1768, v1789, v1810, v1831, v1852, v1873, v1894, v1915, v1936, v1957, v1978, v1999, pmax v2016 v2017, pmax v2037 v2038] := rfl
theorem pay110_eq (v2059 : FVec F S1x512 .f32) (v2060 : FVec F S1x512 .f32) : k0_pay110 v2059 v2060 = pmax v2059 v2060 := rfl
theorem pay111_eq (v2080 : FVec F S1x512 .f32) (v2081 : FVec F S1x512 .f32) : k0_pay111 v2080 v2081 = pmax v2080 v2081 := rfl
theorem pay112_eq (v2101 : FVec F S1x512 .f32) (v2102 : FVec F S1x512 .f32) : k0_pay112 v2101 v2102 = pmax v2101 v2102 := rfl
theorem pay113_eq (v2122 : FVec F S1x512 .f32) (v2123 : FVec F S1x512 .f32) : k0_pay113 v2122 v2123 = pmax v2122 v2123 := rfl
theorem pay114_eq (v2143 : FVec F S1x512 .f32) (v2144 : FVec F S1x512 .f32) : k0_pay114 v2143 v2144 = pmax v2143 v2144 := rfl
theorem pay115_eq (v2164 : FVec F S1x512 .f32) (v2165 : FVec F S1x512 .f32) : k0_pay115 v2164 v2165 = pmax v2164 v2165 := rfl
theorem pay116_eq (v2185 : FVec F S1x512 .f32) (v2186 : FVec F S1x512 .f32) : k0_pay116 v2185 v2186 = pmax v2185 v2186 := rfl
theorem pay117_eq (v2206 : FVec F S1x512 .f32) (v2207 : FVec F S1x512 .f32) : k0_pay117 v2206 v2207 = pmax v2206 v2207 := rfl
theorem pay118_eq (v2227 : FVec F S1x512 .f32) (v2228 : FVec F S1x512 .f32) : k0_pay118 v2227 v2228 = pmax v2227 v2228 := rfl
theorem pay119_eq (v2248 : FVec F S1x512 .f32) (v2249 : FVec F S1x512 .f32) : k0_pay119 v2248 v2249 = pmax v2248 v2249 := rfl
theorem pay120_eq (v2269 : FVec F S1x512 .f32) (v2270 : FVec F S1x512 .f32) : k0_pay120 v2269 v2270 = pmax v2269 v2270 := rfl
theorem pay121_eq (v2290 : FVec F S1x512 .f32) (v2291 : FVec F S1x512 .f32) : k0_pay121 v2290 v2291 = pmax v2290 v2291 := rfl
theorem pay122_eq (v2311 : FVec F S1x512 .f32) (v2312 : FVec F S1x512 .f32) : k0_pay122 v2311 v2312 = pmax v2311 v2312 := rfl
theorem pay123_eq (v2332 : FVec F S1x512 .f32) (v2333 : FVec F S1x512 .f32) : k0_pay123 v2332 v2333 = pmax v2332 v2333 := rfl
theorem pay124_eq (v2353 : FVec F S1x512 .f32) (v2354 : FVec F S1x512 .f32) : k0_pay124 v2353 v2354 = pmax v2353 v2354 := rfl
theorem pay125_eq (v2063 : FVec F S1x1 .f32) (v2084 : FVec F S1x1 .f32) (v2105 : FVec F S1x1 .f32) (v2126 : FVec F S1x1 .f32) (v2147 : FVec F S1x1 .f32) (v2168 : FVec F S1x1 .f32) (v2189 : FVec F S1x1 .f32) (v2210 : FVec F S1x1 .f32) (v2231 : FVec F S1x1 .f32) (v2252 : FVec F S1x1 .f32) (v2273 : FVec F S1x1 .f32) (v2294 : FVec F S1x1 .f32) (v2315 : FVec F S1x1 .f32) (v2336 : FVec F S1x1 .f32) (v2357 : FVec F S1x1 .f32) (v2374 : FVec F S1x512 .f32) (v2375 : FVec F S1x512 .f32) : k0_pay125 v2063 v2084 v2105 v2126 v2147 v2168 v2189 v2210 v2231 v2252 v2273 v2294 v2315 v2336 v2357 v2374 v2375 = row16 ![v2063, v2084, v2105, v2126, v2147, v2168, v2189, v2210, v2231, v2252, v2273, v2294, v2315, v2336, v2357, pmax v2374 v2375] := rfl
theorem pay126_eq (v2396 : FVec F S1x512 .f32) (v2397 : FVec F S1x512 .f32) : k0_pay126 v2396 v2397 = pmax v2396 v2397 := rfl
theorem pay127_eq (v2417 : FVec F S1x512 .f32) (v2418 : FVec F S1x512 .f32) : k0_pay127 v2417 v2418 = pmax v2417 v2418 := rfl
theorem pay128_eq (v2438 : FVec F S1x512 .f32) (v2439 : FVec F S1x512 .f32) : k0_pay128 v2438 v2439 = pmax v2438 v2439 := rfl
theorem pay129_eq (v2459 : FVec F S1x512 .f32) (v2460 : FVec F S1x512 .f32) : k0_pay129 v2459 v2460 = pmax v2459 v2460 := rfl
theorem pay130_eq (v2480 : FVec F S1x512 .f32) (v2481 : FVec F S1x512 .f32) : k0_pay130 v2480 v2481 = pmax v2480 v2481 := rfl
theorem pay131_eq (v2501 : FVec F S1x512 .f32) (v2502 : FVec F S1x512 .f32) : k0_pay131 v2501 v2502 = pmax v2501 v2502 := rfl
theorem pay132_eq (v2522 : FVec F S1x512 .f32) (v2523 : FVec F S1x512 .f32) : k0_pay132 v2522 v2523 = pmax v2522 v2523 := rfl
theorem pay133_eq (v2543 : FVec F S1x512 .f32) (v2544 : FVec F S1x512 .f32) : k0_pay133 v2543 v2544 = pmax v2543 v2544 := rfl
theorem pay134_eq (v2564 : FVec F S1x512 .f32) (v2565 : FVec F S1x512 .f32) : k0_pay134 v2564 v2565 = pmax v2564 v2565 := rfl
theorem pay135_eq (v2585 : FVec F S1x512 .f32) (v2586 : FVec F S1x512 .f32) : k0_pay135 v2585 v2586 = pmax v2585 v2586 := rfl
theorem pay136_eq (v2606 : FVec F S1x512 .f32) (v2607 : FVec F S1x512 .f32) : k0_pay136 v2606 v2607 = pmax v2606 v2607 := rfl
theorem pay137_eq (v2627 : FVec F S1x512 .f32) (v2628 : FVec F S1x512 .f32) : k0_pay137 v2627 v2628 = pmax v2627 v2628 := rfl
theorem pay138_eq (v2648 : FVec F S1x512 .f32) (v2649 : FVec F S1x512 .f32) : k0_pay138 v2648 v2649 = pmax v2648 v2649 := rfl
theorem pay139_eq (v2669 : FVec F S1x512 .f32) (v2670 : FVec F S1x512 .f32) : k0_pay139 v2669 v2670 = pmax v2669 v2670 := rfl
theorem pay140_eq (v2690 : FVec F S1x512 .f32) (v2691 : FVec F S1x512 .f32) : k0_pay140 v2690 v2691 = pmax v2690 v2691 := rfl

/-- All of them at once. -/
theorem pay_eqs :
    (∀ (v2400 : FVec F S1x1 .f32) (v2421 : FVec F S1x1 .f32) (v2442 : FVec F S1x1 .f32) (v2463 : FVec F S1x1 .f32) (v2484 : FVec F S1x1 .f32) (v2505 : FVec F S1x1 .f32) (v2526 : FVec F S1x1 .f32) (v2547 : FVec F S1x1 .f32) (v2568 : FVec F S1x1 .f32) (v2589 : FVec F S1x1 .f32) (v2610 : FVec F S1x1 .f32) (v2631 : FVec F S1x1 .f32) (v2652 : FVec F S1x1 .f32) (v2673 : FVec F S1x1 .f32) (v2694 : FVec F S1x1 .f32) (v2703 : FVec F S1x512 .f32), k0_pay1 v2400 v2421 v2442 v2463 v2484 v2505 v2526 v2547 v2568 v2589 v2610 v2631 v2652 v2673 v2694 v2703 = row16 ![v2400, v2421, v2442, v2463, v2484, v2505, v2526, v2547, v2568, v2589, v2610, v2631, v2652, v2673, v2694, smax v2703]) ∧
    (∀ (v357 : FVec F S1x16 .f32) (v694 : FVec F S1x16 .f32) (v1031 : FVec F S1x16 .f32) (v1368 : FVec F S1x16 .f32) (v1705 : FVec F S1x16 .f32) (v2042 : FVec F S1x16 .f32) (v2379 : FVec F S1x16 .f32) (v2706 : FVec F S1x16 .f32), k0_pay2 v357 v694 v1031 v1368 v1705 v2042 v2379 v2706 = col8 ![v357, v694, v1031, v1368, v1705, v2042, v2379, v2706]) ∧
    ((k0_pay3 : FVec F S1x512 .f32) = zeroRow) ∧
    (∀ (v4 : FVec F S1x512 .f32) (v6 : FVec F S8x512 .f32), k0_pay4 v4 v6 = accStep v4 v6) ∧
    (∀ (v37 : FVec F S1x512 .f32) (v38 : FVec F S1x512 .f32), k0_pay5 v37 v38 = pmax v37 v38) ∧
    (∀ (v58 : FVec F S1x512 .f32) (v59 : FVec F S1x512 .f32), k0_pay6 v58 v59 = addf v58 v59) ∧
    (∀ (v60 : FVec F S1x512 .f32), k0_pay7 v60 = smax v60) ∧
    (∀ (v79 : FVec F S1x512 .f32) (v80 : FVec F S1x512 .f32), k0_pay8 v79 v80 = pmax v79 v80) ∧
    (∀ (v100 : FVec F S1x512 .f32) (v101 : FVec F S1x512 .f32), k0_pay9 v100 v101 = pmax v100 v101) ∧
    (∀ (v121 : FVec F S1x512 .f32) (v122 : FVec F S1x512 .f32), k0_pay10 v121 v122 = addf v121 v122) ∧
    (∀ (v123 : FVec F S1x512 .f32), k0_pay11 v123 = smax v123) ∧
    (∀ (v142 : FVec F S1x512 .f32) (v143 : FVec F S1x512 .f32), k0_pay12 v142 v143 = pmax v142 v143) ∧
    (∀ (v163 : FVec F S1x512 .f32) (v164 : FVec F S1x512 .f32), k0_pay13 v163 v164 = pmax v163 v164) ∧
    (∀ (v184 : FVec F S1x512 .f32) (v185 : FVec F S1x512 .f32), k0_pay14 v184 v185 = addf v184 v185) ∧
    (∀ (v186 : FVec F S1x512 .f32), k0_pay15 v186 = smax v186) ∧
    (∀ (v205 : FVec F S1x512 .f32) (v206 : FVec F S1x512 .f32), k0_pay16 v205 v206 = pmax v205 v206) ∧
    (∀ (v226 : FVec F S1x512 .f32) (v227 : FVec F S1x512 .f32), k0_pay17 v226 v227 = pmax v226 v227) ∧
    (∀ (v247 : FVec F S1x512 .f32) (v248 : FVec F S1x512 .f32), k0_pay18 v247 v248 = addf v247 v248) ∧
    (∀ (v249 : FVec F S1x512 .f32), k0_pay19 v249 = smax v249) ∧
    (∀ (v268 : FVec F S1x512 .f32) (v269 : FVec F S1x512 .f32), k0_pay20 v268 v269 = pmax v268 v269) ∧
    (∀ (v289 : FVec F S1x512 .f32) (v290 : FVec F S1x512 .f32), k0_pay21 v289 v290 = pmax v289 v290) ∧
    (∀ (v310 : FVec F S1x512 .f32) (v311 : FVec F S1x512 .f32), k0_pay22 v310 v311 = addf v310 v311) ∧
    (∀ (v312 : FVec F S1x512 .f32), k0_pay23 v312 = smax v312) ∧
    (∀ (v331 : FVec F S1x512 .f32) (v332 : FVec F S1x512 .f32), k0_pay24 v331 v332 = pmax v331 v332) ∧
    (∀ (v41 : FVec F S1x1 .f32) (v62 : FVec F S1x1 .f32) (v83 : FVec F S1x1 .f32) (v104 : FVec F S1x1 .f32) (v125 : FVec F S1x1 .f32) (v146 : FVec F S1x1 .f32) (v167 : FVec F S1x1 .f32) (v188 : FVec F S1x1 .f32) (v209 : FVec F S1x1 .f32) (v230 : FVec F S1x1 .f32) (v251 : FVec F S1x1 .f32) (v272 : FVec F S1x1 .f32) (v293 : FVec F S1x1 .f32) (v314 : FVec F S1x1 .f32) (v335 : FVec F S1x1 .f32) (v352 : FVec F S1x512 .f32) (v353 : FVec F S1x512 .f32), k0_pay25 v41 v62 v83 v104 v125 v146 v167 v188 v209 v230 v251 v272 v293 v314 v335 v352 v353 = row16 ![v41, v62, v83, v104, v125, v146, v167, v188, v209, v230, v251, v272, v293, v314, v335, pmax v352 v353]) ∧
    (∀ (v374 : FVec F S1x512 .f32) (v375 : FVec F S1x512 .f32), k0_pay26 v374 v375 = addf v374 v375) ∧
    (∀ (v376 : FVec F S1x512 .f32), k0_pay27 v376 = smax v376) ∧
    (∀ (v395 : FVec F S1x512 .f32) (v396 : FVec F S1x512 .f32), k0_pay28 v395 v396 = pmax v395 v396) ∧
    (∀ (v416 : FVec F S1x512 .f32) (v417 : FVec F S1x512 .f32), k0_pay29 v416 v417 = pmax v416 v417) ∧
    (∀ (v437 : FVec F S1x512 .f32) (v438 : FVec F S1x512 .f32), k0_pay30 v437 v438 = addf v437 v438) ∧
    (∀ (v439 : FVec F S1x512 .f32), k0_pay31 v439 = smax v439) ∧
    (∀ (v458 : FVec F S1x512 .f32) (v459 : FVec F S1x512 .f32), k0_pay32 v458 v459 = pmax v458 v459) ∧
    (∀ (v479 : FVec F S1x512 .f32) (v480 : FVec F S1x512 .f32), k0_pay33 v479 v480 = pmax v479 v480) ∧
    (∀ (v500 : FVec F S1x512 .f32) (v501 : FVec F S1x512 .f32), k0_pay34 v500 v501 = addf v500 v501) ∧
    (∀ (v502 : FVec F S1x512 .f32), k0_pay35 v502 = smax v502) ∧
    (∀ (v521 : FVec F S1x512 .f32) (v522 : FVec F S1x512 .f32), k0_pay36 v521 v522 = pmax v521 v522) ∧
    (∀ (v542 : FVec F S1x512 .f32) (v543 : FVec F S1x512 .f32), k0_pay37 v542 v543 = pmax v542 v543) ∧
    (∀ (v563 : FVec F S1x512 .f32) (v564 : FVec F S1x512 .f32), k0_pay38 v563 v564 = addf v563 v564) ∧
    (∀ (v565 : FVec F S1x512 .f32), k0_pay39 v565 = smax v565) ∧
    (∀ (v584 : FVec F S1x512 .f32) (v585 : FVec F S1x512 .f32), k0_pay40 v584 v585 = pmax v584 v585) ∧
    (∀ (v605 : FVec F S1x512 .f32) (v606 : FVec F S1x512 .f32), k0_pay41 v605 v606 = pmax v605 v606) ∧
    (∀ (v626 : FVec F S1x512 .f32) (v627 : FVec F S1x512 .f32), k0_pay42 v626 v627 = addf v626 v627) ∧
    (∀ (v628 : FVec F S1x512 .f32), k0_pay43 v628 = smax v628) ∧
    (∀ (v647 : FVec F S1x512 .f32) (v648 : FVec F S1x512 .f32), k0_pay44 v647 v648 = pmax v647 v648) ∧
    (∀ (v668 : FVec F S1x512 .f32) (v669 : FVec F S1x512 .f32), k0_pay45 v668 v669 = pmax v668 v669) ∧
    (∀ (v689 : FVec F S1x512 .f32) (v690 : FVec F S1x512 .f32), k0_pay46 v689 v690 = addf v689 v690) ∧
    (∀ (v378 : FVec F S1x1 .f32) (v399 : FVec F S1x1 .f32) (v420 : FVec F S1x1 .f32) (v441 : FVec F S1x1 .f32) (v462 : FVec F S1x1 .f32) (v483 : FVec F S1x1 .f32) (v504 : FVec F S1x1 .f32) (v525 : FVec F S1x1 .f32) (v546 : FVec F S1x1 .f32) (v567 : FVec F S1x1 .f32) (v588 : FVec F S1x1 .f32) (v609 : FVec F S1x1 .f32) (v630 : FVec F S1x1 .f32) (v651 : FVec F S1x1 .f32) (v672 : FVec F S1x1 .f32) (v691 : FVec F S1x512 .f32), k0_pay47 v378 v399 v420 v441 v462 v483 v504 v525 v546 v567 v588 v609 v630 v651 v672 v691 = row16 ![v378, v399, v420, v441, v462, v483, v504, v525, v546, v567, v588, v609, v630, v651, v672, smax v691]) ∧
    (∀ (v711 : FVec F S1x512 .f32) (v712 : FVec F S1x512 .f32), k0_pay48 v711 v712 = pmax v711 v712) ∧
    (∀ (v732 : FVec F S1x512 .f32) (v733 : FVec F S1x512 .f32), k0_pay49 v732 v733 = pmax v732 v733) ∧
    (∀ (v753 : FVec F S1x512 .f32) (v754 : FVec F S1x512 .f32), k0_pay50 v753 v754 = pmax v753 v754) ∧
    (∀ (v774 : FVec F S1x512 .f32) (v775 : FVec F S1x512 .f32), k0_pay51 v774 v775 = pmax v774 v775) ∧
    (∀ (v795 : FVec F S1x512 .f32) (v796 : FVec F S1x512 .f32), k0_pay52 v795 v796 = pmax v795 v796) ∧
    (∀ (v816 : FVec F S1x512 .f32) (v817 : FVec F S1x512 .f32), k0_pay53 v816 v817 = pmax v816 v817) ∧
    (∀ (v837 : FVec F S1x512 .f32) (v838 : FVec F S1x512 .f32), k0_pay54 v837 v838 = pmax v837 v838) ∧
    (∀ (v858 : FVec F S1x512 .f32) (v859 : FVec F S1x512 .f32), k0_pay55 v858 v859 = pmax v858 v859) ∧
    (∀ (v879 : FVec F S1x512 .f32) (v880 : FVec F S1x512 .f32), k0_pay56 v879 v880 = pmax v879 v880) ∧
    (∀ (v900 : FVec F S1x512 .f32) (v901 : FVec F S1x512 .f32), k0_pay57 v900 v901 = pmax v900 v901) ∧
    (∀ (v921 : FVec F S1x512 .f32) (v922 : FVec F S1x512 .f32), k0_pay58 v921 v922 = pmax v921 v922) ∧
    (∀ (v942 : FVec F S1x512 .f32) (v943 : FVec F S1x512 .f32), k0_pay59 v942 v943 = pmax v942 v943) ∧
    (∀ (v963 : FVec F S1x512 .f32) (v964 : FVec F S1x512 .f32), k0_pay60 v963 v964 = pmax v963 v964) ∧
    (∀ (v984 : FVec F S1x512 .f32) (v985 : FVec F S1x512 .f32), k0_pay61 v984 v985 = pmax v984 v985) ∧
    (∀ (v715 : FVec F S1x1 .f32) (v736 : FVec F S1x1 .f32) (v757 : FVec F S1x1 .f32) (v778 : FVec F S1x1 .f32) (v799 : FVec F S1x1 .f32) (v820 : FVec F S1x1 .f32) (v841 : FVec F S1x1 .f32) (v862 : FVec F S1x1 .f32) (v883 : FVec F S1x1 .f32) (v904 : FVec F S1x1 .f32) (v925 : FVec F S1x1 .f32) (v946 : FVec F S1x1 .f32) (v967 : FVec F S1x1 .f32) (v988 : FVec F S1x1 .f32) (v1005 : FVec F S1x512 .f32) (v1006 : FVec F S1x512 .f32) (v1026 : FVec F S1x512 .f32) (v1027 : FVec F S1x512 .f32), k0_pay62 v715 v736 v757 v778 v799 v820 v841 v862 v883 v904 v925 v946 v967 v988 v1005 v1006 v1026 v1027 = row16 ![v715, v736, v757, v778, v799, v820, v841, v862, v883, v904, v925, v946, v967, v988, pmax v1005 v1006, pmax v1026 v1027]) ∧
    (∀ (v1048 : FVec F S1x512 .f32) (v1049 : FVec F S1x512 .f32), k0_pay63 v1048 v1049 = pmax v1048 v1049) ∧
    (∀ (v1069 : FVec F S1x512 .f32) (v1070 : FVec F S1x512 .f32), k0_pay64 v1069 v1070 = pmax v1069 v1070) ∧
    (∀ (v1090 : FVec F S1x512 .f32) (v1091 : FVec F S1x512 .f32), k0_pay65 v1090 v1091 = pmax v1090 v1091) ∧
    (∀ (v1111 : FVec F S1x512 .f32) (v1112 : FVec F S1x512 .f32), k0_pay66 v1111 v1112 = pmax v1111 v1112) ∧
    (∀ (v1132 : FVec F S1x512 .f32) (v1133 : FVec F S1x512 .f32), k0_pay67 v1132 v1133 = pmax v1132 v1133) ∧
    (∀ (v1153 : FVec F S1x512 .f32) (v1154 : FVec F S1x512 .f32), k0_pay68 v1153 v1154 = pmax v1153 v1154) ∧
    (∀ (v1174 : FVec F S1x512 .f32) (v1175 : FVec F S1x512 .f32), k0_pay69 v1174 v1175 = pmax v1174 v1175) ∧
    (∀ (v1195 : FVec F S1x512 .f32) (v1196 : FVec F S1x512 .f32), k0_pay70 v1195 v1196 = pmax v1195 v1196) ∧
    (∀ (v1216 : FVec F S1x512 .f32) (v1217 : FVec F S1x512 .f32), k0_pay71 v1216 v1217 = pmax v1216 v1217) ∧
    (∀ (v1237 : FVec F S1x512 .f32) (v1238 : FVec F S1x512 .f32), k0_pay72 v1237 v1238 = pmax v1237 v1238) ∧
    (∀ (v1258 : FVec F S1x512 .f32) (v1259 : FVec F S1x512 .f32), k0_pay73 v1258 v1259 = pmax v1258 v1259) ∧
    (∀ (v1279 : FVec F S1x512 .f32) (v1280 : FVec F S1x512 .f32), k0_pay74 v1279 v1280 = pmax v1279 v1280) ∧
    (∀ (v1300 : FVec F S1x512 .f32) (v1301 : FVec F S1x512 .f32), k0_pay75 v1300 v1301 = pmax v1300 v1301) ∧
    (∀ (v1321 : FVec F S1x512 .f32) (v1322 : FVec F S1x512 .f32), k0_pay76 v1321 v1322 = pmax v1321 v1322) ∧
    (∀ (v1342 : FVec F S1x512 .f32) (v1343 : FVec F S1x512 .f32), k0_pay77 v1342 v1343 = pmax v1342 v1343) ∧
    (∀ (v1052 : FVec F S1x1 .f32) (v1073 : FVec F S1x1 .f32) (v1094 : FVec F S1x1 .f32) (v1115 : FVec F S1x1 .f32) (v1136 : FVec F S1x1 .f32) (v1157 : FVec F S1x1 .f32) (v1178 : FVec F S1x1 .f32) (v1199 : FVec F S1x1 .f32) (v1220 : FVec F S1x1 .f32) (v1241 : FVec F S1x1 .f32) (v1262 : FVec F S1x1 .f32) (v1283 : FVec F S1x1 .f32) (v1304 : FVec F S1x1 .f32) (v1325 : FVec F S1x1 .f32) (v1346 : FVec F S1x1 .f32) (v1363 : FVec F S1x512 .f32) (v1364 : FVec F S1x512 .f32), k0_pay78 v1052 v1073 v1094 v1115 v1136 v1157 v1178 v1199 v1220 v1241 v1262 v1283 v1304 v1325 v1346 v1363 v1364 = row16 ![v1052, v1073, v1094, v1115, v1136, v1157, v1178, v1199, v1220, v1241, v1262, v1283, v1304, v1325, v1346, pmax v1363 v1364]) ∧
    (∀ (v1385 : FVec F S1x512 .f32) (v1386 : FVec F S1x512 .f32), k0_pay79 v1385 v1386 = pmax v1385 v1386) ∧
    (∀ (v1406 : FVec F S1x512 .f32) (v1407 : FVec F S1x512 .f32), k0_pay80 v1406 v1407 = pmax v1406 v1407) ∧
    (∀ (v1427 : FVec F S1x512 .f32) (v1428 : FVec F S1x512 .f32), k0_pay81 v1427 v1428 = pmax v1427 v1428) ∧
    (∀ (v1448 : FVec F S1x512 .f32) (v1449 : FVec F S1x512 .f32), k0_pay82 v1448 v1449 = pmax v1448 v1449) ∧
    (∀ (v1469 : FVec F S1x512 .f32) (v1470 : FVec F S1x512 .f32), k0_pay83 v1469 v1470 = pmax v1469 v1470) ∧
    (∀ (v1490 : FVec F S1x512 .f32) (v1491 : FVec F S1x512 .f32), k0_pay84 v1490 v1491 = pmax v1490 v1491) ∧
    (∀ (v1511 : FVec F S1x512 .f32) (v1512 : FVec F S1x512 .f32), k0_pay85 v1511 v1512 = pmax v1511 v1512) ∧
    (∀ (v1532 : FVec F S1x512 .f32) (v1533 : FVec F S1x512 .f32), k0_pay86 v1532 v1533 = pmax v1532 v1533) ∧
    (∀ (v1553 : FVec F S1x512 .f32) (v1554 : FVec F S1x512 .f32), k0_pay87 v1553 v1554 = pmax v1553 v1554) ∧
    (∀ (v1574 : FVec F S1x512 .f32) (v1575 : FVec F S1x512 .f32), k0_pay88 v1574 v1575 = pmax v1574 v1575) ∧
    (∀ (v1595 : FVec F S1x512 .f32) (v1596 : FVec F S1x512 .f32), k0_pay89 v1595 v1596 = pmax v1595 v1596) ∧
    (∀ (v1616 : FVec F S1x512 .f32) (v1617 : FVec F S1x512 .f32), k0_pay90 v1616 v1617 = pmax v1616 v1617) ∧
    (∀ (v1637 : FVec F S1x512 .f32) (v1638 : FVec F S1x512 .f32), k0_pay91 v1637 v1638 = pmax v1637 v1638) ∧
    (∀ (v1658 : FVec F S1x512 .f32) (v1659 : FVec F S1x512 .f32), k0_pay92 v1658 v1659 = pmax v1658 v1659) ∧
    (∀ (v1679 : FVec F S1x512 .f32) (v1680 : FVec F S1x512 .f32), k0_pay93 v1679 v1680 = pmax v1679 v1680) ∧
    (∀ (v1389 : FVec F S1x1 .f32) (v1410 : FVec F S1x1 .f32) (v1431 : FVec F S1x1 .f32) (v1452 : FVec F S1x1 .f32) (v1473 : FVec F S1x1 .f32) (v1494 : FVec F S1x1 .f32) (v1515 : FVec F S1x1 .f32) (v1536 : FVec F S1x1 .f32) (v1557 : FVec F S1x1 .f32) (v1578 : FVec F S1x1 .f32) (v1599 : FVec F S1x1 .f32) (v1620 : FVec F S1x1 .f32) (v1641 : FVec F S1x1 .f32) (v1662 : FVec F S1x1 .f32) (v1683 : FVec F S1x1 .f32) (v1700 : FVec F S1x512 .f32) (v1701 : FVec F S1x512 .f32), k0_pay94 v1389 v1410 v1431 v1452 v1473 v1494 v1515 v1536 v1557 v1578 v1599 v1620 v1641 v1662 v1683 v1700 v1701 = row16 ![v1389, v1410, v1431, v1452, v1473, v1494, v1515, v1536, v1557, v1578, v1599, v1620, v1641, v1662, v1683, pmax v1700 v1701]) ∧
    (∀ (v1722 : FVec F S1x512 .f32) (v1723 : FVec F S1x512 .f32), k0_pay95 v1722 v1723 = pmax v1722 v1723) ∧
    (∀ (v1743 : FVec F S1x512 .f32) (v1744 : FVec F S1x512 .f32), k0_pay96 v1743 v1744 = pmax v1743 v1744) ∧
    (∀ (v1764 : FVec F S1x512 .f32) (v1765 : FVec F S1x512 .f32), k0_pay97 v1764 v1765 = pmax v1764 v1765) ∧
    (∀ (v1785 : FVec F S1x512 .f32) (v1786 : FVec F S1x512 .f32), k0_pay98 v1785 v1786 = pmax v1785 v1786) ∧
    (∀ (v1806 : FVec F S1x512 .f32) (v1807 : FVec F S1x512 .f32), k0_pay99 v1806 v1807 = pmax v1806 v1807) ∧
    (∀ (v1827 : FVec F S1x512 .f32) (v1828 : FVec F S1x512 .f32), k0_pay100 v1827 v1828 = pmax v1827 v1828) ∧
    (∀ (v1848 : FVec F S1x512 .f32) (v1849 : FVec F S1x512 .f32), k0_pay101 v1848 v1849 = pmax v1848 v1849) ∧
    (∀ (v1869 : FVec F S1x512 .f32) (v1870 : FVec F S1x512 .f32), k0_pay102 v1869 v1870 = pmax v1869 v1870) ∧
    (∀ (v1890 : FVec F S1x512 .f32) (v1891 : FVec F S1x512 .f32), k0_pay103 v1890 v1891 = pmax v1890 v1891) ∧
    (∀ (v1911 : FVec F S1x512 .f32) (v1912 : FVec F S1x512 .f32), k0_pay104 v1911 v1912 = pmax v1911 v1912) ∧
    (∀ (v1932 : FVec F S1x512 .f32) (v1933 : FVec F S1x512 .f32), k0_pay105 v1932 v1933 = pmax v1932 v1933) ∧
    (∀ (v1953 : FVec F S1x512 .f32) (v1954 : FVec F S1x512 .f32), k0_pay106 v1953 v1954 = pmax v1953 v1954) ∧
    (∀ (v1974 : FVec F S1x512 .f32) (v1975 : FVec F S1x512 .f32), k0_pay107 v1974 v1975 = pmax v1974 v1975) ∧
    (∀ (v1995 : FVec F S1x512 .f32) (v1996 : FVec F S1x512 .f32), k0_pay108 v1995 v1996 = pmax v1995 v1996) ∧
    (∀ (v1726 : FVec F S1x1 .f32) (v1747 : FVec F S1x1 .f32) (v1768 : FVec F S1x1 .f32) (v1789 : FVec F S1x1 .f32) (v1810 : FVec F S1x1 .f32) (v1831 : FVec F S1x1 .f32) (v1852 : FVec F S1x1 .f32) (v1873 : FVec F S1x1 .f32) (v1894 : FVec F S1x1 .f32) (v1915 : FVec F S1x1 .f32) (v1936 : FVec F S1x1 .f32) (v1957 : FVec F S1x1 .f32) (v1978 : FVec F S1x1 .f32) (v1999 : FVec F S1x1 .f32) (v2016 : FVec F S1x512 .f32) (v2017 : FVec F S1x512 .f32) (v2037 : FVec F S1x512 .f32) (v2038 : FVec F S1x512 .f32), k0_pay109 v1726 v1747 v1768 v1789 v1810 v1831 v1852 v1873 v1894 v1915 v1936 v1957 v1978 v1999 v2016 v2017 v2037 v2038 = row16 ![v1726, v1747, v1768, v1789, v1810, v1831, v1852, v1873, v1894, v1915, v1936, v1957, v1978, v1999, pmax v2016 v2017, pmax v2037 v2038]) ∧
    (∀ (v2059 : FVec F S1x512 .f32) (v2060 : FVec F S1x512 .f32), k0_pay110 v2059 v2060 = pmax v2059 v2060) ∧
    (∀ (v2080 : FVec F S1x512 .f32) (v2081 : FVec F S1x512 .f32), k0_pay111 v2080 v2081 = pmax v2080 v2081) ∧
    (∀ (v2101 : FVec F S1x512 .f32) (v2102 : FVec F S1x512 .f32), k0_pay112 v2101 v2102 = pmax v2101 v2102) ∧
    (∀ (v2122 : FVec F S1x512 .f32) (v2123 : FVec F S1x512 .f32), k0_pay113 v2122 v2123 = pmax v2122 v2123) ∧
    (∀ (v2143 : FVec F S1x512 .f32) (v2144 : FVec F S1x512 .f32), k0_pay114 v2143 v2144 = pmax v2143 v2144) ∧
    (∀ (v2164 : FVec F S1x512 .f32) (v2165 : FVec F S1x512 .f32), k0_pay115 v2164 v2165 = pmax v2164 v2165) ∧
    (∀ (v2185 : FVec F S1x512 .f32) (v2186 : FVec F S1x512 .f32), k0_pay116 v2185 v2186 = pmax v2185 v2186) ∧
    (∀ (v2206 : FVec F S1x512 .f32) (v2207 : FVec F S1x512 .f32), k0_pay117 v2206 v2207 = pmax v2206 v2207) ∧
    (∀ (v2227 : FVec F S1x512 .f32) (v2228 : FVec F S1x512 .f32), k0_pay118 v2227 v2228 = pmax v2227 v2228) ∧
    (∀ (v2248 : FVec F S1x512 .f32) (v2249 : FVec F S1x512 .f32), k0_pay119 v2248 v2249 = pmax v2248 v2249) ∧
    (∀ (v2269 : FVec F S1x512 .f32) (v2270 : FVec F S1x512 .f32), k0_pay120 v2269 v2270 = pmax v2269 v2270) ∧
    (∀ (v2290 : FVec F S1x512 .f32) (v2291 : FVec F S1x512 .f32), k0_pay121 v2290 v2291 = pmax v2290 v2291) ∧
    (∀ (v2311 : FVec F S1x512 .f32) (v2312 : FVec F S1x512 .f32), k0_pay122 v2311 v2312 = pmax v2311 v2312) ∧
    (∀ (v2332 : FVec F S1x512 .f32) (v2333 : FVec F S1x512 .f32), k0_pay123 v2332 v2333 = pmax v2332 v2333) ∧
    (∀ (v2353 : FVec F S1x512 .f32) (v2354 : FVec F S1x512 .f32), k0_pay124 v2353 v2354 = pmax v2353 v2354) ∧
    (∀ (v2063 : FVec F S1x1 .f32) (v2084 : FVec F S1x1 .f32) (v2105 : FVec F S1x1 .f32) (v2126 : FVec F S1x1 .f32) (v2147 : FVec F S1x1 .f32) (v2168 : FVec F S1x1 .f32) (v2189 : FVec F S1x1 .f32) (v2210 : FVec F S1x1 .f32) (v2231 : FVec F S1x1 .f32) (v2252 : FVec F S1x1 .f32) (v2273 : FVec F S1x1 .f32) (v2294 : FVec F S1x1 .f32) (v2315 : FVec F S1x1 .f32) (v2336 : FVec F S1x1 .f32) (v2357 : FVec F S1x1 .f32) (v2374 : FVec F S1x512 .f32) (v2375 : FVec F S1x512 .f32), k0_pay125 v2063 v2084 v2105 v2126 v2147 v2168 v2189 v2210 v2231 v2252 v2273 v2294 v2315 v2336 v2357 v2374 v2375 = row16 ![v2063, v2084, v2105, v2126, v2147, v2168, v2189, v2210, v2231, v2252, v2273, v2294, v2315, v2336, v2357, pmax v2374 v2375]) ∧
    (∀ (v2396 : FVec F S1x512 .f32) (v2397 : FVec F S1x512 .f32), k0_pay126 v2396 v2397 = pmax v2396 v2397) ∧
    (∀ (v2417 : FVec F S1x512 .f32) (v2418 : FVec F S1x512 .f32), k0_pay127 v2417 v2418 = pmax v2417 v2418) ∧
    (∀ (v2438 : FVec F S1x512 .f32) (v2439 : FVec F S1x512 .f32), k0_pay128 v2438 v2439 = pmax v2438 v2439) ∧
    (∀ (v2459 : FVec F S1x512 .f32) (v2460 : FVec F S1x512 .f32), k0_pay129 v2459 v2460 = pmax v2459 v2460) ∧
    (∀ (v2480 : FVec F S1x512 .f32) (v2481 : FVec F S1x512 .f32), k0_pay130 v2480 v2481 = pmax v2480 v2481) ∧
    (∀ (v2501 : FVec F S1x512 .f32) (v2502 : FVec F S1x512 .f32), k0_pay131 v2501 v2502 = pmax v2501 v2502) ∧
    (∀ (v2522 : FVec F S1x512 .f32) (v2523 : FVec F S1x512 .f32), k0_pay132 v2522 v2523 = pmax v2522 v2523) ∧
    (∀ (v2543 : FVec F S1x512 .f32) (v2544 : FVec F S1x512 .f32), k0_pay133 v2543 v2544 = pmax v2543 v2544) ∧
    (∀ (v2564 : FVec F S1x512 .f32) (v2565 : FVec F S1x512 .f32), k0_pay134 v2564 v2565 = pmax v2564 v2565) ∧
    (∀ (v2585 : FVec F S1x512 .f32) (v2586 : FVec F S1x512 .f32), k0_pay135 v2585 v2586 = pmax v2585 v2586) ∧
    (∀ (v2606 : FVec F S1x512 .f32) (v2607 : FVec F S1x512 .f32), k0_pay136 v2606 v2607 = pmax v2606 v2607) ∧
    (∀ (v2627 : FVec F S1x512 .f32) (v2628 : FVec F S1x512 .f32), k0_pay137 v2627 v2628 = pmax v2627 v2628) ∧
    (∀ (v2648 : FVec F S1x512 .f32) (v2649 : FVec F S1x512 .f32), k0_pay138 v2648 v2649 = pmax v2648 v2649) ∧
    (∀ (v2669 : FVec F S1x512 .f32) (v2670 : FVec F S1x512 .f32), k0_pay139 v2669 v2670 = pmax v2669 v2670) ∧
    (∀ (v2690 : FVec F S1x512 .f32) (v2691 : FVec F S1x512 .f32), k0_pay140 v2690 v2691 = pmax v2690 v2691) :=
  ⟨pay1_eq, pay2_eq, pay3_eq, pay4_eq, pay5_eq, pay6_eq, pay7_eq, pay8_eq, pay9_eq, pay10_eq,
   pay11_eq, pay12_eq, pay13_eq, pay14_eq, pay15_eq, pay16_eq, pay17_eq, pay18_eq, pay19_eq, pay20_eq,
   pay21_eq, pay22_eq, pay23_eq, pay24_eq, pay25_eq, pay26_eq, pay27_eq, pay28_eq, pay29_eq, pay30_eq,
   pay31_eq, pay32_eq, pay33_eq, pay34_eq, pay35_eq, pay36_eq, pay37_eq, pay38_eq, pay39_eq, pay40_eq,
   pay41_eq, pay42_eq, pay43_eq, pay44_eq, pay45_eq, pay46_eq, pay47_eq, pay48_eq, pay49_eq, pay50_eq,
   pay51_eq, pay52_eq, pay53_eq, pay54_eq, pay55_eq, pay56_eq, pay57_eq, pay58_eq, pay59_eq, pay60_eq,
   pay61_eq, pay62_eq, pay63_eq, pay64_eq, pay65_eq, pay66_eq, pay67_eq, pay68_eq, pay69_eq, pay70_eq,
   pay71_eq, pay72_eq, pay73_eq, pay74_eq, pay75_eq, pay76_eq, pay77_eq, pay78_eq, pay79_eq, pay80_eq,
   pay81_eq, pay82_eq, pay83_eq, pay84_eq, pay85_eq, pay86_eq, pay87_eq, pay88_eq, pay89_eq, pay90_eq,
   pay91_eq, pay92_eq, pay93_eq, pay94_eq, pay95_eq, pay96_eq, pay97_eq, pay98_eq, pay99_eq, pay100_eq,
   pay101_eq, pay102_eq, pay103_eq, pay104_eq, pay105_eq, pay106_eq, pay107_eq, pay108_eq, pay109_eq, pay110_eq,
   pay111_eq, pay112_eq, pay113_eq, pay114_eq, pay115_eq, pay116_eq, pay117_eq, pay118_eq, pay119_eq, pay120_eq,
   pay121_eq, pay122_eq, pay123_eq, pay124_eq, pay125_eq, pay126_eq, pay127_eq, pay128_eq, pay129_eq, pay130_eq,
   pay131_eq, pay132_eq, pay133_eq, pay134_eq, pay135_eq, pay136_eq, pay137_eq, pay138_eq, pay139_eq, pay140_eq⟩

end Functions

/-! ## Read at an index -/

section Layout

variable {α : Type}

/-- Entry `k` of sixteen values side by side is the `k`-th value. -/
theorem row16_apply (v : Fin 16 → S1x1.Idx → α) (k : Fin 16) :
    row16 v (ix2 (0 : Fin 1) k) = v k (ix2 (0 : Fin 1) (0 : Fin 1)) := by
  unfold row16
  exact concatenate_ofFn_unit_apply (t := S1x16) (s₁ := S1x1) 1 v concatenates_S1x1_S1x1_S1x1_S1x1_S1x1_S1x1_S1x1_S1x1_S1x1_S1x1_S1x1_S1x1_S1x1_S1x1_S1x1_S1x1_S1x16_d1 rfl rfl
    (ix2 (0 : Fin 1) k) k rfl (ix2 (0 : Fin 1) (0 : Fin 1)) fun b hb => by
      match b with
      | ⟨0, _⟩ => rfl
      | ⟨1, _⟩ => exact absurd rfl hb

/-- Row `b` of eight stacked rows is the `b`-th row. -/
theorem col8_apply (r : Fin 8 → S1x16.Idx → α) (b : Fin 8) (k : Fin 16) :
    col8 r (ix2 b k) = r b (ix2 (0 : Fin 1) k) := by
  unfold col8
  exact concatenate_ofFn_unit_apply (t := S8x16) (s₁ := S1x16) 0 r concatenates_S1x16_S1x16_S1x16_S1x16_S1x16_S1x16_S1x16_S1x16_S8x16_d0 rfl rfl
    (ix2 b k) b rfl (ix2 (0 : Fin 1) k) fun c hc => by
      match c with
      | ⟨0, _⟩ => exact absurd rfl hc
      | ⟨1, _⟩ => rfl

end Layout

section AtIdeal

/-- The initial value of a maximum, `-∞`, is the bottom of the extended reals. -/
theorem neg_inf_eq_bot : Ideal.ofBits .f32 0xFF800000#32 = (⊥ : EReal) := by
  simp [Ideal.ofBits, Ideal.ieee]

/-- The reduced index with lane `j` put back is `(0, j)`. -/
theorem lift_lane (i : S1.Idx) (j : Fin (S1x512.size 1)) :
    reduces_S1x512_S1.lift i j = ix2 (0 : Fin 1) (⟨j.val, j.isLt⟩ : Fin 512) := by
  funext c; apply Fin.ext
  match c with
  | ⟨0, _⟩ =>
    have h0 : (reduces_S1x512_S1.lift i j (0 : Fin 2)).val < 1 := (reduces_S1x512_S1.lift i j (0 : Fin 2)).isLt
    exact Nat.lt_one_iff.mp h0
  | ⟨1, _⟩ => rfl

/-- `smax s` is the fold of `max` from `⊥` over the 512 lanes. -/
theorem smax_apply (s : FVec Ideal S1x512 .f32) (i : S1x1.Idx) :
    smax s i = (Finset.univ : Finset (Fin 512)).fold max (⊥ : EReal) (fun j => s (ix2 (0 : Fin 1) j)) := by
  unfold smax
  refine (shapeCast_addUnit_apply ![1] _ shapeCasts_S1_S1x1 i).trans ?_
  refine (Ideal.multiReduction_maximumf_single s 0xFF800000#32 reduces_S1x512_S1 (.inl rfl) rfl _).trans ?_
  have hf : (s ∘ reduces_S1x512_S1.lift (fun a => i a.succ)) = fun j : Fin 512 => s (ix2 (0 : Fin 1) j) :=
    funext fun j => congrArg s (lift_lane _ j)
  have hi : FloatOps.ofBits (F := Ideal) .f32 0xFF800000#32 = (⊥ : EReal) := neg_inf_eq_bot
  rw [hi]
  exact congrArg (fun f => Finset.fold max (⊥ : EReal) f (Finset.univ : Finset (Fin 512))) hf

/-- `pmax q g` is the fold of `max` from `⊥` over the lanes `j` of `q[0, j] + g[0, j]`. -/
theorem pmax_apply (q g : FVec Ideal S1x512 .f32) (i : S1x1.Idx) :
    pmax q g i = (Finset.univ : Finset (Fin 512)).fold max (⊥ : EReal)
      (fun j => q (ix2 (0 : Fin 1) j) + g (ix2 (0 : Fin 1) j)) :=
  smax_apply (addf q g) i

/-- A fold of `max` from `⊥` over every index is the supremum. -/
theorem fold_max_bot_eq_iSup {n : Nat} (f : Fin n → EReal) :
    (Finset.univ : Finset (Fin n)).fold max (⊥ : EReal) f = ⨆ j, f j := by
  refine le_antisymm ?_ ?_
  · exact (Finset.fold_max_le _).mpr ⟨bot_le, fun j _ => le_iSup f j⟩
  · exact iSup_le fun j => ((Finset.fold_max_le _).mp le_rfl).2 j (Finset.mem_univ j)

/-- The same as a supremum. -/
theorem pmax_apply_iSup (q g : FVec Ideal S1x512 .f32) (i : S1x1.Idx) :
    pmax q g i = ⨆ j : Fin 512, (q (ix2 (0 : Fin 1) j) + g (ix2 (0 : Fin 1) j) : EReal) :=
  (pmax_apply q g i).trans (fold_max_bot_eq_iSup _)

/-- The sum of two rows does not depend on their order, so neither does `pmax`. -/
theorem pmax_comm (q g : FVec Ideal S1x512 .f32) : pmax q g = pmax g q := by
  have h : (addf q g : FVec Ideal S1x512 .f32) = addf g q := funext fun i => by
    show q i + g i = g i + q i
    exact add_comm _ _
  unfold pmax
  rw [h]

/-- The reduced index `q` with row `b` put back is `(b, q)`. -/
theorem lift_row (i : S512.Idx) (q : Fin 512) (hq : (i ⟨0, by decide⟩).val = q.val) (b : Fin (S8x512.size 0)) :
    reduces_S8x512_S512.lift i b = ix2 (⟨b.val, b.isLt⟩ : Fin 8) q := by
  funext c; apply Fin.ext
  match c with
  | ⟨0, _⟩ => rfl
  | ⟨1, _⟩ => exact hq

/-- `accStep acc x` at column `q`: `acc` there plus the sum down column `q` of the eight rows of `x`. -/
theorem accStep_apply (acc : FVec Ideal S1x512 .f32) (x : FVec Ideal S8x512 .f32) (q : Fin 512) :
    accStep acc x (ix2 (0 : Fin 1) q) = acc (ix2 (0 : Fin 1) q) + ∑ b : Fin 8, (x (ix2 b q) : EReal) := by
  unfold accStep
  rw [shapeCast_self]
  show acc (ix2 (0 : Fin 1) q) + _ = _
  congr 1
  refine (shapeCast_addUnit_apply ![512] _ shapeCasts_S512_S1x512 (ix2 (0 : Fin 1) q)).trans ?_
  refine (Ideal.multiReduction_add_single x 0x00000000#32 reduces_S8x512_S512 (.inl rfl) rfl _).trans ?_
  refine Finset.sum_congr rfl fun b _ => congrArg x ?_
  exact lift_row _ q rfl b

/-- The same for the payload itself. -/
theorem pay4_apply (acc : FVec Ideal S1x512 .f32) (x : FVec Ideal S8x512 .f32) (q : Fin 512) :
    k0_pay4 acc x (ix2 (0 : Fin 1) q) = acc (ix2 (0 : Fin 1) q) + ∑ b : Fin 8, (x (ix2 b q) : EReal) :=
  accStep_apply acc x q

/-- The row of zeros is `0` everywhere. -/
theorem zeroRow_apply (i : S1x512.Idx) : (zeroRow : FVec Ideal S1x512 .f32) i = (0 : EReal) :=
  Ideal.ofBits_zero_f32

end AtIdeal

/-! ## Closed from here on

What is known of the functions is the lemmas above. Their bodies are reductions over every index of a 512-entry row;
an equation that could be decided by unfolding them would have that fold evaluated, so they are not unfolded. -/

attribute [irreducible] smax pmax row16 col8 accStep

end Cert.BodyMath

end
-- ==== Proof.BodyOutIdeal.lean ====
/-
  What the body leaves at a grid point, in closed form.

  At a point the body stores one 8 × 16 block of maxima and one row of 512 column sums. `readMax` and `readSums`
  read what a list of stores leaves in a buffer of each shape. `maxBlock` is the block of maxima as a function of
  what the body is handed and nothing else: entry `(b, k)` is the maximum over the 512 lanes of row `b` of the
  point's 8 × 512 block plus row `w` of the 100000 × 512 array, `w` being word number `128·t + 16·b + k` of the
  table of row indices (`t` the point). The two-slot buffer the rows pass through does not appear in it.

  That it does not is the content of the three slot lemmas: a buffer of two rows of 512, each row reached through
  its own one-row view with the unit axis dropped. A read of row `s` through the whole buffer is a read through
  row `s`'s view (`slot_read`); so a row written whole through its own view reads back as what was written
  (`slot_hit`), and a write through the other row's view is not seen (`slot_miss`).
-/
import proofs.«106441_j1580547974259_1_alg».proof.Proof.RegionStateIdeal
import proofs.«106441_j1580547974259_1_alg».proof.Proof.BodyMath
import Idealize.ShloMosaic.Lib.ValueIdx
import Idealize.ShloMosaic.Lib.WholeRead

set_option maxRecDepth 16384

noncomputable section

namespace Cert.KernelIdeal.Body

open Cert.KernelIdeal Cert.KernelIdeal.Gen Cert.BodyMath
open Idealize.ShloMosaic Idealize.ShloMosaic.TcCoe Idealize.ShloMosaic.ValueIdx

variable {F : FTy → Type} [FloatOps F]

/-! ## Rows -/

/-- A vector of 512 as one row. -/
def asRow {α : Type} (w : S512.Idx → α) : S1x512.Idx → α :=
  fun x => w (ix1 (⟨(x 1).val, idx2_lt1 x⟩ : Fin 512))

theorem asRow_apply {α : Type} (w : S512.Idx → α) (j : Fin 512) : asRow w (ix2 (0 : Fin 1) j) = w (ix1 j) := rfl

/-- Row `b` of an 8 × 512 block as one row. -/
def blockRow {α : Type} (x0 : S8x512.Idx → α) (b : Fin 8) : S1x512.Idx → α :=
  fun x => x0 (ix2 b (⟨(x 1).val, idx2_lt1 x⟩ : Fin 512))

theorem blockRow_apply {α : Type} (x0 : S8x512.Idx → α) (b : Fin 8) (j : Fin 512) :
    blockRow x0 b (ix2 (0 : Fin 1) j) = x0 (ix2 b j) := rfl

/-! ## The two-slot buffer -/

section Slots

variable {Val : EltTy → Type}

/-- A read of row `s` through its own view is a read of the whole buffer at row `s`. -/
theorem slot_read (M : Memref sig .tc .vmem S2x512 .f32) (s : Fin 2) (off : Fin 2 → ℕ) (h : off = ![s.val, 0])
    (inb : ∀ a, off a + S1x512.size a ≤ S2x512.size a) (hr) (hq : S1x512.Squeezes S512) (f : M.view.ty.Contents Val) (j : Fin 512) :
    ((M.slice (Rect.unit (s := S2x512) off S1x512.size inb) hr).squeeze S512 hq).view.read Val f (ix1 j)
      = M.view.read Val f (ix2 s j) := by
  subst h
  have h1 : ((M.slice (Rect.unit (s := S2x512) ![s.val, 0] S1x512.size inb) hr).squeeze S512 hq).view.read Val f (ix1 j)
      = M.view.read Val f ((Rect.unit (s := S2x512) ![s.val, 0] S1x512.size inb).emb (Shape.reshapeEquiv hq.numel_eq (ix1 j))) := rfl
  rw [h1, Shape.reshapeEquiv_cons_one]
  congr 1
  funext a
  apply Fin.ext
  rw [Rect.emb_apply]
  match a with
  | ⟨0, _⟩ => show s.val + 1 * 0 = s.val; omega
  | ⟨1, _⟩ => show 0 + 1 * j.val = j.val; omega

/-- A row written whole through its own view reads back, through the whole buffer, as what was written. -/
theorem slot_hit (M : Memref sig .tc .vmem S2x512 .f32) (s : Fin 2) (off : Fin 2 → ℕ) (h : off = ![s.val, 0])
    (inb : ∀ a, off a + S1x512.size a ≤ S2x512.size a) (hr) (hq : S1x512.Squeezes S512) (f : M.view.ty.Contents Val)
    (w : S512.Idx → Val .f32) (j : Fin 512) :
    M.view.read Val (((M.slice (Rect.unit (s := S2x512) off S1x512.size inb) hr).squeeze S512 hq).view.write Val f w Finset.univ) (ix2 s j)
      = w (ix1 j) := by
  rw [← slot_read M s off h inb hr hq]
  exact View.read_write_of_mem _ _ (Finset.mem_univ _)

/-- A write through the other row's view is not seen. -/
theorem slot_miss (M : Memref sig .tc .vmem S2x512 .f32) (s s' : Fin 2) (hs : s ≠ s') (off : Fin 2 → ℕ) (h : off = ![s'.val, 0])
    (inb : ∀ a, off a + S1x512.size a ≤ S2x512.size a) (hr) (hq : S1x512.Squeezes S512) (f : M.view.ty.Contents Val)
    (w : S512.Idx → Val .f32) (Ms : Finset S512.Idx) (j : Fin 512) :
    M.view.read Val (((M.slice (Rect.unit (s := S2x512) off S1x512.size inb) hr).squeeze S512 hq).view.write Val f w Ms) (ix2 s j)
      = M.view.read Val f (ix2 s j) := by
  subst h
  apply View.read_congr_at
  apply View.write_of_not_mem
  intro hm
  obtain ⟨x, _, hx⟩ := Finset.mem_map.mp hm
  have e : ((M.slice (Rect.unit (s := S2x512) ![s'.val, 0] S1x512.size inb) hr).squeeze S512 hq).view.emb x
      = M.view.emb ((Rect.unit (s := S2x512) ![s'.val, 0] S1x512.size inb).emb (Shape.reshapeEquiv hq.numel_eq x)) := rfl
  rw [e, Shape.reshapeEquiv_cons_one] at hx
  have h := M.view.emb.injective hx
  have h0 := congrArg (fun i : S2x512.Idx => (i 0 : ℕ)) h
  simp only [Rect.emb_apply] at h0
  have h4 : (s' : ℕ) + 1 * 0 = (s : ℕ) := h0
  exact hs (Fin.ext (by omega))

end Slots

/-! ## The table and the array -/

/-- Where word number `128·t + n` of the table sits. -/
theorem tab_lt (i : grid0.Coords) (n : Fin 128) : 128 * (i 0).val + n.val < 131072 := by
  have h : (i 0).val < 1024 := (i 0).isLt
  omega

/-- Word number `128·t + n` of the table, `t` the point. -/
def word (c : Dev nD) (i : grid0.Coords) (xt : BufOf (F := F) c tbM) (n : Fin 128) : BitVec 32 :=
  (tbM).view.read (Elt F) xt (ix1 (⟨128 * (i 0).val + n.val, tab_lt i n⟩ : Fin 131072))

/-- It names a row of the array. -/
theorem word_lt (c : Dev nD) (i : grid0.Coords) (xt : BufOf (F := F) c tbM) (hrows : RowsBelow c xt) (n : Fin 128) :
    (word c i xt n).toNat < 100000 := by
  have h := hrows (LoadRect.whole S131072) (ix1 (⟨128 * (i 0).val + n.val, tab_lt i n⟩ : Fin 131072))
  rw [View.readAt_apply, LoadRect.idx_whole] at h
  exact h

/-- Row `w` of the array, as a vector of 512: read through the one-row view with the unit axis dropped. -/
def arrRow (c : Dev nD) (fh : BufOf (F := F) c hbM) (w : BitVec 32) (hw : w.toNat < 100000) : Vec F S512 .f32 :=
  ((hbM.slice (Rect.unit (s := S100000x512) (k0_off2 w) S1x512.size (row_inside w hw)) (fun _ => rfl)).squeeze S512 squeezes_S1x512_S512).view.read (Elt F) fh

/-! ## The block of maxima -/

/-- The transfer that serves entry `(b, k)`. -/
abbrev xfer (b : Fin 8) (k : Fin 16) : Fin 128 := ⟨16 * b.val + k.val, by omega⟩

/-- The block of maxima the body leaves at a point, in closed form. -/
def maxBlock (c : Dev nD) (i : grid0.Coords) (xt : BufOf (F := F) c tbM) (x0 : Vec F S8x512 .f32) (fh : BufOf (F := F) c hbM)
    (hrows : RowsBelow c xt) : Vec F S8x16 .f32 :=
  col8 fun b => row16 fun k =>
    pmax (blockRow x0 b) (asRow (arrRow c fh (word c i xt (xfer b k)) (word_lt c i xt hrows (xfer b k))))

/-! ## What a list of stores leaves -/

section Reads

variable [∀ e, Nonempty (Elt F e)]

/-- What the stores `L` leave in a buffer of the block's shape. -/
def readMax (L : List (View.Piece (Elt F) S8x16 .f32)) : Vec F S8x16 .f32 :=
  VO1.read (Elt F) (VO1.writes (Elt F) VO1.junk L)

/-- What the stores `L` leave in a buffer of the row's shape. -/
def readSums (L : List (View.Piece (Elt F) S1x512 .f32)) : Vec F S1x512 .f32 :=
  VO2.read (Elt F) (VO2.writes (Elt F) VO2.junk L)

end Reads

end Cert.KernelIdeal.Body

end
-- ==== Proof.BodyLoadsIdeal.lean ====
/-
  The body's loads, one at a time.

  Every value the body computes with is loaded from one of three places, and each load has a closed form.
    * A row of the point's block: a load of row `b` through a buffer holding the block reads `blockRow x0 b`.
    * A word of the table: transfer `n` of a point reads the table at an offset the body computes with 32-bit
      arithmetic from the point's coordinate `t`, `(t · 8 + b) · 16 + k` for `n = 16·b + k`; as `t < 1024` nothing
      wraps, and the offset is `128·t + n` (`offN_eq`, one equation per transfer).
    * A row of the two-slot buffer. When it is loaded, the last store into the buffer went either into the loaded
      row (`load_top`: the load reads what was stored) or into the other row, the one before it into the loaded
      row (`load_second`: the later store is not seen, the load reads the earlier one). What the buffer held before
      does not matter in either case.
-/
import proofs.«106441_j1580547974259_1_alg».proof.Proof.BodyOutIdeal

set_option maxRecDepth 16384

noncomputable section

namespace Cert.KernelIdeal.Body

open Cert.KernelIdeal Cert.KernelIdeal.Gen Cert.BodyMath
open Idealize.ShloMosaic Idealize.ShloMosaic.TcCoe Idealize.ShloMosaic.ValueIdx

variable {F : FTy → Type} [FloatOps F]

/-! ## A one-row rectangle -/

/-- Index `x` of the one-row rectangle at row `s` is `(s, x 1)`. -/
theorem rowRect_emb {R : ℕ} (s : Fin R) (off : Fin 2 → ℕ) (h : off = ![s.val, 0])
    (inb : ∀ a, off a + S1x512.size a ≤ (⟨2, ![R, 512]⟩ : Shape).size a)
    (x : (Rect.unit (s := (⟨2, ![R, 512]⟩ : Shape)) off S1x512.size inb).shape.Idx) :
    (Rect.unit (s := (⟨2, ![R, 512]⟩ : Shape)) off S1x512.size inb).emb x
      = ix2 s (⟨(x (1 : Fin 2)).val, (x (1 : Fin 2)).isLt⟩ : Fin 512) := by
  subst h
  funext a
  apply Fin.ext
  rw [Rect.emb_apply]
  match a with
  | ⟨0, _⟩ =>
    have h0 : (x (0 : Fin 2)).val < 1 := (x (0 : Fin 2)).isLt
    show s.val + 1 * (x (0 : Fin 2)).val = s.val
    omega
  | ⟨1, _⟩ =>
    show 0 + 1 * (x (1 : Fin 2)).val = (x (1 : Fin 2)).val
    omega

/-! ## The two-slot buffer -/

section Loads

variable {Val : EltTy → Type}

/-- A load of row `s` of a buffer that reads `w` along row `s` reads `w` as a row. -/
theorem load_row (M : Memref sig .tc .vmem S2x512 .f32) (s : Fin 2) {off : Fin 2 → ℕ} (h : off = ![s.val, 0])
    {inb : ∀ a, off a + S1x512.size a ≤ S2x512.size a} (g : M.view.ty.Contents Val) (w : S512.Idx → Val .f32)
    (hg : ∀ j : Fin 512, M.view.read Val g (ix2 s j) = w (ix1 j)) :
    View.readAt Val M.view (Rect.unit (s := S2x512) off S1x512.size inb).toLoadRect g = asRow w := by
  funext x
  show M.view.read Val g ((Rect.unit (s := S2x512) off S1x512.size inb).emb x) = _
  rw [rowRect_emb s off h inb x]
  exact hg _

/-- The last store went into the loaded row. -/
theorem load_top (M : Memref sig .tc .vmem S2x512 .f32) (s : Fin 2) {off offw : Fin 2 → ℕ} (h : off = ![s.val, 0]) (hw : offw = ![s.val, 0])
    {inb : ∀ a, off a + S1x512.size a ≤ S2x512.size a} {inbw : ∀ a, offw a + S1x512.size a ≤ S2x512.size a} {hr} {hq : S1x512.Squeezes S512}
    {f : M.view.ty.Contents Val} {w : S512.Idx → Val .f32} :
    View.readAt Val M.view (Rect.unit (s := S2x512) off S1x512.size inb).toLoadRect
        (((M.slice (Rect.unit (s := S2x512) offw S1x512.size inbw) hr).squeeze S512 hq).view.write Val f w Finset.univ)
      = asRow w :=
  load_row M s h _ w fun j => slot_hit M s offw hw inbw hr hq f w j

/-- The last store went into the other row, the one before it into the loaded row. -/
theorem load_second (M : Memref sig .tc .vmem S2x512 .f32) (s s' : Fin 2) (hs : s ≠ s') {off offw offw' : Fin 2 → ℕ}
    (h : off = ![s.val, 0]) (hw' : offw' = ![s'.val, 0]) (hw : offw = ![s.val, 0])
    {inb : ∀ a, off a + S1x512.size a ≤ S2x512.size a} {inbw : ∀ a, offw a + S1x512.size a ≤ S2x512.size a}
    {inbw' : ∀ a, offw' a + S1x512.size a ≤ S2x512.size a} {hr hr'} {hq hq' : S1x512.Squeezes S512}
    {f : M.view.ty.Contents Val} {w w' : S512.Idx → Val .f32} {Ms : Finset S512.Idx} :
    View.readAt Val M.view (Rect.unit (s := S2x512) off S1x512.size inb).toLoadRect
        (((M.slice (Rect.unit (s := S2x512) offw' S1x512.size inbw') hr').squeeze S512 hq').view.write Val
          (((M.slice (Rect.unit (s := S2x512) offw S1x512.size inbw) hr).squeeze S512 hq).view.write Val f w Finset.univ) w' Ms)
      = asRow w :=
  load_row M s h _ w fun j =>
    (slot_miss M s s' hs offw' hw' inbw' hr' hq' _ w' Ms j).trans (slot_hit M s offw hw inbw hr hq f w j)

end Loads

/-! ## The block, the table, the array -/

/-- A load of row `b` of the point's block. -/
theorem block_load (M : Memref sig .tc .vmem S8x512 .f32) (hM : M.IsWhole) (b : Fin 8) {off : Fin 2 → ℕ} (h : off = ![b.val, 0])
    {inb : ∀ a, off a + S1x512.size a ≤ S8x512.size a} (x0 : Vec F S8x512 .f32) :
    View.readAt (Elt F) M.view (Rect.unit (s := S8x512) off S1x512.size inb).toLoadRect (hM.unread x0) = blockRow x0 b := by
  funext x
  show M.view.read (Elt F) (hM.unread x0) ((Rect.unit (s := S8x512) off S1x512.size inb).emb x) = _
  rw [hM.read_unread, rowRect_emb b off h inb x]
  rfl

/-- A load of the table at offset `128·t + n` is word number `128·t + n`. -/
theorem word_of_off (c : Dev nD) (i : grid0.Coords) (xt : BufOf (F := F) c tbM) (n : Fin 128) {off : Fin 1 → ℕ}
    (h : off = ![128 * (i 0).val + n.val]) {inb : ∀ a, off a + S1.size a ≤ S131072.size a} {hf} :
    View.readAt (Elt F) (tbM).view (Rect.unit (s := S131072) off S1.size inb).toLoadRect xt (Shape.Idx.first hf) = word c i xt n := by
  subst h
  show (tbM).view.read (Elt F) xt ((Rect.unit (s := S131072) ![128 * (i 0).val + n.val] S1.size inb).emb (Shape.Idx.first hf)) = _
  unfold word
  congr 1
  funext a
  apply Fin.ext
  rw [Rect.emb_apply]
  match a with
  | ⟨0, _⟩ =>
    have h0 : ((Shape.Idx.first hf : (Rect.unit (s := S131072) ![128 * (i 0).val + n.val] S1.size inb).shape.Idx) (0 : Fin 1)).val < 1 :=
      ((Shape.Idx.first hf : (Rect.unit (s := S131072) ![128 * (i 0).val + n.val] S1.size inb).shape.Idx) (0 : Fin 1)).isLt
    show 128 * (i 0).val + n.val + 1 * ((Shape.Idx.first hf : (Rect.unit (s := S131072) ![128 * (i 0).val + n.val] S1.size inb).shape.Idx) (0 : Fin 1)).val
        = 128 * (i 0).val + n.val
    omega

/-- A copy of the row a word names is that row of the array. -/
theorem dma_of_word (c : Dev nD) (fh : BufOf (F := F) c hbM) (w w' : BitVec 32) (hw : w = w') (h' : w'.toNat < 100000)
    {off : Fin 2 → ℕ} (hoff : off = ![w.toNat, 0]) {inb : ∀ a, off a + S1x512.size a ≤ S100000x512.size a} {hr} :
    ReadAs.same.apply (View.read (Elt F)
        ((hbM.slice (Rect.unit (s := S100000x512) off S1x512.size inb) hr).squeeze S512 squeezes_S1x512_S512).view fh)
      = arrRow c fh w' h' := by
  subst hw hoff
  rfl

/-! ## Whole loads and whole stores -/

theorem zero2 : (![0, 0] : Fin 2 → ℕ) = fun _ => 0 := by
  funext a; fin_cases a <;> rfl

/-- A load through the whole rectangle of a buffer holding `X` reads `X`. -/
theorem whole_load {S : Shape} (M : Memref sig .tc .vmem S .f32) (hM : M.IsWhole) (off : Fin S.rank → ℕ) (hz : off = fun _ => 0)
    (inb : ∀ a, off a + S.size a ≤ S.size a) (X : S.Idx → Elt F .f32) :
    View.readAt (Elt F) M.view (Rect.unit (s := S) off S.size inb).toLoadRect (hM.unread X) = X := by
  rw [View.readAt_eq_ld, hM.read_unread]
  exact View.ld_unit_zero hz inb X

section WholeStores

variable [∀ e, Nonempty (Elt F e)]

/-- One store through the whole rectangle leaves its payload. -/
theorem readSums_whole (off : Fin 2 → ℕ) (hz : off = fun _ => 0) (inb : ∀ a, off a + S1x512.size a ≤ S1x512.size a)
    (w : S1x512.Idx → Elt F .f32) :
    readSums [(⟨Rect.unit (s := S1x512) off S1x512.size inb, w⟩ : View.Piece (Elt F) S1x512 .f32)] = w := by
  unfold readSums
  rw [View.read_writes_junk_eq_canon]
  exact View.canon_unit_zero hz inb w

theorem readMax_whole (off : Fin 2 → ℕ) (hz : off = fun _ => 0) (inb : ∀ a, off a + S8x16.size a ≤ S8x16.size a)
    (w : S8x16.Idx → Elt F .f32) :
    readMax [(⟨Rect.unit (s := S8x16) off S8x16.size inb, w⟩ : View.Piece (Elt F) S8x16 .f32)] = w := by
  unfold readMax
  rw [View.read_writes_junk_eq_canon]
  exact View.canon_unit_zero hz inb w

end WholeStores

/-! ## The table offsets -/

/-- The point's coordinate is below 1024, so the body's 32-bit arithmetic on it does not wrap. -/
macro "off_arith " f:ident i:ident : tactic =>
  `(tactic| (
    have ht : ($i 0).val < 1024 := ($i 0).isLt
    unfold $f
    simp only [Scalar.muli, Scalar.addi, Scalar.indexCast, IntOp.muli, IntOp.addi]
    congr 1
    simp only [BitVec.toNat_add, BitVec.toNat_mul, BitVec.toNat_ofNat]
    omega))

theorem off1_eq (i : grid0.Coords) : k0_off1 i = ![128 * (i 0).val + 0] := by off_arith k0_off1 i
theorem off3_eq (i : grid0.Coords) : k0_off3 i = ![128 * (i 0).val + 1] := by off_arith k0_off3 i
theorem off5_eq (i : grid0.Coords) : k0_off5 i = ![128 * (i 0).val + 2] := by off_arith k0_off5 i
theorem off7_eq (i : grid0.Coords) : k0_off7 i = ![128 * (i 0).val + 3] := by off_arith k0_off7 i
theorem off9_eq (i : grid0.Coords) : k0_off9 i = ![128 * (i 0).val + 4] := by off_arith k0_off9 i
theorem off11_eq (i : grid0.Coords) : k0_off11 i = ![128 * (i 0).val + 5] := by off_arith k0_off11 i
theorem off13_eq (i : grid0.Coords) : k0_off13 i = ![128 * (i 0).val + 6] := by off_arith k0_off13 i
theorem off15_eq (i : grid0.Coords) : k0_off15 i = ![128 * (i 0).val + 7] := by off_arith k0_off15 i
theorem off17_eq (i : grid0.Coords) : k0_off17 i = ![128 * (i 0).val + 8] := by off_arith k0_off17 i
theorem off19_eq (i : grid0.Coords) : k0_off19 i = ![128 * (i 0).val + 9] := by off_arith k0_off19 i
theorem off21_eq (i : grid0.Coords) : k0_off21 i = ![128 * (i 0).val + 10] := by off_arith k0_off21 i
theorem off23_eq (i : grid0.Coords) : k0_off23 i = ![128 * (i 0).val + 11] := by off_arith k0_off23 i
theorem off25_eq (i : grid0.Coords) : k0_off25 i = ![128 * (i 0).val + 12] := by off_arith k0_off25 i
theorem off27_eq (i : grid0.Coords) : k0_off27 i = ![128 * (i 0).val + 13] := by off_arith k0_off27 i
theorem off29_eq (i : grid0.Coords) : k0_off29 i = ![128 * (i 0).val + 14] := by off_arith k0_off29 i
theorem off31_eq (i : grid0.Coords) : k0_off31 i = ![128 * (i 0).val + 15] := by off_arith k0_off31 i
theorem off33_eq (i : grid0.Coords) : k0_off33 i = ![128 * (i 0).val + 16] := by off_arith k0_off33 i
theorem off35_eq (i : grid0.Coords) : k0_off35 i = ![128 * (i 0).val + 17] := by off_arith k0_off35 i
theorem off37_eq (i : grid0.Coords) : k0_off37 i = ![128 * (i 0).val + 18] := by off_arith k0_off37 i
theorem off39_eq (i : grid0.Coords) : k0_off39 i = ![128 * (i 0).val + 19] := by off_arith k0_off39 i
theorem off41_eq (i : grid0.Coords) : k0_off41 i = ![128 * (i 0).val + 20] := by off_arith k0_off41 i
theorem off43_eq (i : grid0.Coords) : k0_off43 i = ![128 * (i 0).val + 21] := by off_arith k0_off43 i
theorem off45_eq (i : grid0.Coords) : k0_off45 i = ![128 * (i 0).val + 22] := by off_arith k0_off45 i
theorem off47_eq (i : grid0.Coords) : k0_off47 i = ![128 * (i 0).val + 23] := by off_arith k0_off47 i
theorem off49_eq (i : grid0.Coords) : k0_off49 i = ![128 * (i 0).val + 24] := by off_arith k0_off49 i
theorem off51_eq (i : grid0.Coords) : k0_off51 i = ![128 * (i 0).val + 25] := by off_arith k0_off51 i
theorem off53_eq (i : grid0.Coords) : k0_off53 i = ![128 * (i 0).val + 26] := by off_arith k0_off53 i
theorem off55_eq (i : grid0.Coords) : k0_off55 i = ![128 * (i 0).val + 27] := by off_arith k0_off55 i
theorem off57_eq (i : grid0.Coords) : k0_off57 i = ![128 * (i 0).val + 28] := by off_arith k0_off57 i
theorem off59_eq (i : grid0.Coords) : k0_off59 i = ![128 * (i 0).val + 29] := by off_arith k0_off59 i
theorem off61_eq (i : grid0.Coords) : k0_off61 i = ![128 * (i 0).val + 30] := by off_arith k0_off61 i
theorem off63_eq (i : grid0.Coords) : k0_off63 i = ![128 * (i 0).val + 31] := by off_arith k0_off63 i
theorem off65_eq (i : grid0.Coords) : k0_off65 i = ![128 * (i 0).val + 32] := by off_arith k0_off65 i
theorem off67_eq (i : grid0.Coords) : k0_off67 i = ![128 * (i 0).val + 33] := by off_arith k0_off67 i
theorem off69_eq (i : grid0.Coords) : k0_off69 i = ![128 * (i 0).val + 34] := by off_arith k0_off69 i
theorem off71_eq (i : grid0.Coords) : k0_off71 i = ![128 * (i 0).val + 35] := by off_arith k0_off71 i
theorem off73_eq (i : grid0.Coords) : k0_off73 i = ![128 * (i 0).val + 36] := by off_arith k0_off73 i
theorem off75_eq (i : grid0.Coords) : k0_off75 i = ![128 * (i 0).val + 37] := by off_arith k0_off75 i
theorem off77_eq (i : grid0.Coords) : k0_off77 i = ![128 * (i 0).val + 38] := by off_arith k0_off77 i
theorem off79_eq (i : grid0.Coords) : k0_off79 i = ![128 * (i 0).val + 39] := by off_arith k0_off79 i
theorem off81_eq (i : grid0.Coords) : k0_off81 i = ![128 * (i 0).val + 40] := by off_arith k0_off81 i
theorem off83_eq (i : grid0.Coords) : k0_off83 i = ![128 * (i 0).val + 41] := by off_arith k0_off83 i
theorem off85_eq (i : grid0.Coords) : k0_off85 i = ![128 * (i 0).val + 42] := by off_arith k0_off85 i
theorem off87_eq (i : grid0.Coords) : k0_off87 i = ![128 * (i 0).val + 43] := by off_arith k0_off87 i
theorem off89_eq (i : grid0.Coords) : k0_off89 i = ![128 * (i 0).val + 44] := by off_arith k0_off89 i
theorem off91_eq (i : grid0.Coords) : k0_off91 i = ![128 * (i 0).val + 45] := by off_arith k0_off91 i
theorem off93_eq (i : grid0.Coords) : k0_off93 i = ![128 * (i 0).val + 46] := by off_arith k0_off93 i
theorem off95_eq (i : grid0.Coords) : k0_off95 i = ![128 * (i 0).val + 47] := by off_arith k0_off95 i
theorem off97_eq (i : grid0.Coords) : k0_off97 i = ![128 * (i 0).val + 48] := by off_arith k0_off97 i
theorem off99_eq (i : grid0.Coords) : k0_off99 i = ![128 * (i 0).val + 49] := by off_arith k0_off99 i
theorem off101_eq (i : grid0.Coords) : k0_off101 i = ![128 * (i 0).val + 50] := by off_arith k0_off101 i
theorem off103_eq (i : grid0.Coords) : k0_off103 i = ![128 * (i 0).val + 51] := by off_arith k0_off103 i
theorem off105_eq (i : grid0.Coords) : k0_off105 i = ![128 * (i 0).val + 52] := by off_arith k0_off105 i
theorem off107_eq (i : grid0.Coords) : k0_off107 i = ![128 * (i 0).val + 53] := by off_arith k0_off107 i
theorem off109_eq (i : grid0.Coords) : k0_off109 i = ![128 * (i 0).val + 54] := by off_arith k0_off109 i
theorem off111_eq (i : grid0.Coords) : k0_off111 i = ![128 * (i 0).val + 55] := by off_arith k0_off111 i
theorem off113_eq (i : grid0.Coords) : k0_off113 i = ![128 * (i 0).val + 56] := by off_arith k0_off113 i
theorem off115_eq (i : grid0.Coords) : k0_off115 i = ![128 * (i 0).val + 57] := by off_arith k0_off115 i
theorem off117_eq (i : grid0.Coords) : k0_off117 i = ![128 * (i 0).val + 58] := by off_arith k0_off117 i
theorem off119_eq (i : grid0.Coords) : k0_off119 i = ![128 * (i 0).val + 59] := by off_arith k0_off119 i
theorem off121_eq (i : grid0.Coords) : k0_off121 i = ![128 * (i 0).val + 60] := by off_arith k0_off121 i
theorem off123_eq (i : grid0.Coords) : k0_off123 i = ![128 * (i 0).val + 61] := by off_arith k0_off123 i
theorem off125_eq (i : grid0.Coords) : k0_off125 i = ![128 * (i 0).val + 62] := by off_arith k0_off125 i
theorem off127_eq (i : grid0.Coords) : k0_off127 i = ![128 * (i 0).val + 63] := by off_arith k0_off127 i
theorem off129_eq (i : grid0.Coords) : k0_off129 i = ![128 * (i 0).val + 64] := by off_arith k0_off129 i
theorem off131_eq (i : grid0.Coords) : k0_off131 i = ![128 * (i 0).val + 65] := by off_arith k0_off131 i
theorem off133_eq (i : grid0.Coords) : k0_off133 i = ![128 * (i 0).val + 66] := by off_arith k0_off133 i
theorem off135_eq (i : grid0.Coords) : k0_off135 i = ![128 * (i 0).val + 67] := by off_arith k0_off135 i
theorem off137_eq (i : grid0.Coords) : k0_off137 i = ![128 * (i 0).val + 68] := by off_arith k0_off137 i
theorem off139_eq (i : grid0.Coords) : k0_off139 i = ![128 * (i 0).val + 69] := by off_arith k0_off139 i
theorem off141_eq (i : grid0.Coords) : k0_off141 i = ![128 * (i 0).val + 70] := by off_arith k0_off141 i
theorem off143_eq (i : grid0.Coords) : k0_off143 i = ![128 * (i 0).val + 71] := by off_arith k0_off143 i
theorem off145_eq (i : grid0.Coords) : k0_off145 i = ![128 * (i 0).val + 72] := by off_arith k0_off145 i
theorem off147_eq (i : grid0.Coords) : k0_off147 i = ![128 * (i 0).val + 73] := by off_arith k0_off147 i
theorem off149_eq (i : grid0.Coords) : k0_off149 i = ![128 * (i 0).val + 74] := by off_arith k0_off149 i
theorem off151_eq (i : grid0.Coords) : k0_off151 i = ![128 * (i 0).val + 75] := by off_arith k0_off151 i
theorem off153_eq (i : grid0.Coords) : k0_off153 i = ![128 * (i 0).val + 76] := by off_arith k0_off153 i
theorem off155_eq (i : grid0.Coords) : k0_off155 i = ![128 * (i 0).val + 77] := by off_arith k0_off155 i
theorem off157_eq (i : grid0.Coords) : k0_off157 i = ![128 * (i 0).val + 78] := by off_arith k0_off157 i
theorem off159_eq (i : grid0.Coords) : k0_off159 i = ![128 * (i 0).val + 79] := by off_arith k0_off159 i
theorem off161_eq (i : grid0.Coords) : k0_off161 i = ![128 * (i 0).val + 80] := by off_arith k0_off161 i
theorem off163_eq (i : grid0.Coords) : k0_off163 i = ![128 * (i 0).val + 81] := by off_arith k0_off163 i
theorem off165_eq (i : grid0.Coords) : k0_off165 i = ![128 * (i 0).val + 82] := by off_arith k0_off165 i
theorem off167_eq (i : grid0.Coords) : k0_off167 i = ![128 * (i 0).val + 83] := by off_arith k0_off167 i
theorem off169_eq (i : grid0.Coords) : k0_off169 i = ![128 * (i 0).val + 84] := by off_arith k0_off169 i
theorem off171_eq (i : grid0.Coords) : k0_off171 i = ![128 * (i 0).val + 85] := by off_arith k0_off171 i
theorem off173_eq (i : grid0.Coords) : k0_off173 i = ![128 * (i 0).val + 86] := by off_arith k0_off173 i
theorem off175_eq (i : grid0.Coords) : k0_off175 i = ![128 * (i 0).val + 87] := by off_arith k0_off175 i
theorem off177_eq (i : grid0.Coords) : k0_off177 i = ![128 * (i 0).val + 88] := by off_arith k0_off177 i
theorem off179_eq (i : grid0.Coords) : k0_off179 i = ![128 * (i 0).val + 89] := by off_arith k0_off179 i
theorem off181_eq (i : grid0.Coords) : k0_off181 i = ![128 * (i 0).val + 90] := by off_arith k0_off181 i
theorem off183_eq (i : grid0.Coords) : k0_off183 i = ![128 * (i 0).val + 91] := by off_arith k0_off183 i
theorem off185_eq (i : grid0.Coords) : k0_off185 i = ![128 * (i 0).val + 92] := by off_arith k0_off185 i
theorem off187_eq (i : grid0.Coords) : k0_off187 i = ![128 * (i 0).val + 93] := by off_arith k0_off187 i
theorem off189_eq (i : grid0.Coords) : k0_off189 i = ![128 * (i 0).val + 94] := by off_arith k0_off189 i
theorem off191_eq (i : grid0.Coords) : k0_off191 i = ![128 * (i 0).val + 95] := by off_arith k0_off191 i
theorem off193_eq (i : grid0.Coords) : k0_off193 i = ![128 * (i 0).val + 96] := by off_arith k0_off193 i
theorem off195_eq (i : grid0.Coords) : k0_off195 i = ![128 * (i 0).val + 97] := by off_arith k0_off195 i
theorem off197_eq (i : grid0.Coords) : k0_off197 i = ![128 * (i 0).val + 98] := by off_arith k0_off197 i
theorem off199_eq (i : grid0.Coords) : k0_off199 i = ![128 * (i 0).val + 99] := by off_arith k0_off199 i
theorem off201_eq (i : grid0.Coords) : k0_off201 i = ![128 * (i 0).val + 100] := by off_arith k0_off201 i
theorem off203_eq (i : grid0.Coords) : k0_off203 i = ![128 * (i 0).val + 101] := by off_arith k0_off203 i
theorem off205_eq (i : grid0.Coords) : k0_off205 i = ![128 * (i 0).val + 102] := by off_arith k0_off205 i
theorem off207_eq (i : grid0.Coords) : k0_off207 i = ![128 * (i 0).val + 103] := by off_arith k0_off207 i
theorem off209_eq (i : grid0.Coords) : k0_off209 i = ![128 * (i 0).val + 104] := by off_arith k0_off209 i
theorem off211_eq (i : grid0.Coords) : k0_off211 i = ![128 * (i 0).val + 105] := by off_arith k0_off211 i
theorem off213_eq (i : grid0.Coords) : k0_off213 i = ![128 * (i 0).val + 106] := by off_arith k0_off213 i
theorem off215_eq (i : grid0.Coords) : k0_off215 i = ![128 * (i 0).val + 107] := by off_arith k0_off215 i
theorem off217_eq (i : grid0.Coords) : k0_off217 i = ![128 * (i 0).val + 108] := by off_arith k0_off217 i
theorem off219_eq (i : grid0.Coords) : k0_off219 i = ![128 * (i 0).val + 109] := by off_arith k0_off219 i
theorem off221_eq (i : grid0.Coords) : k0_off221 i = ![128 * (i 0).val + 110] := by off_arith k0_off221 i
theorem off223_eq (i : grid0.Coords) : k0_off223 i = ![128 * (i 0).val + 111] := by off_arith k0_off223 i
theorem off225_eq (i : grid0.Coords) : k0_off225 i = ![128 * (i 0).val + 112] := by off_arith k0_off225 i
theorem off227_eq (i : grid0.Coords) : k0_off227 i = ![128 * (i 0).val + 113] := by off_arith k0_off227 i
theorem off229_eq (i : grid0.Coords) : k0_off229 i = ![128 * (i 0).val + 114] := by off_arith k0_off229 i
theorem off231_eq (i : grid0.Coords) : k0_off231 i = ![128 * (i 0).val + 115] := by off_arith k0_off231 i
theorem off233_eq (i : grid0.Coords) : k0_off233 i = ![128 * (i 0).val + 116] := by off_arith k0_off233 i
theorem off235_eq (i : grid0.Coords) : k0_off235 i = ![128 * (i 0).val + 117] := by off_arith k0_off235 i
theorem off237_eq (i : grid0.Coords) : k0_off237 i = ![128 * (i 0).val + 118] := by off_arith k0_off237 i
theorem off239_eq (i : grid0.Coords) : k0_off239 i = ![128 * (i 0).val + 119] := by off_arith k0_off239 i
theorem off241_eq (i : grid0.Coords) : k0_off241 i = ![128 * (i 0).val + 120] := by off_arith k0_off241 i
theorem off243_eq (i : grid0.Coords) : k0_off243 i = ![128 * (i 0).val + 121] := by off_arith k0_off243 i
theorem off245_eq (i : grid0.Coords) : k0_off245 i = ![128 * (i 0).val + 122] := by off_arith k0_off245 i
theorem off247_eq (i : grid0.Coords) : k0_off247 i = ![128 * (i 0).val + 123] := by off_arith k0_off247 i
theorem off249_eq (i : grid0.Coords) : k0_off249 i = ![128 * (i 0).val + 124] := by off_arith k0_off249 i
theorem off251_eq (i : grid0.Coords) : k0_off251 i = ![128 * (i 0).val + 125] := by off_arith k0_off251 i
theorem off253_eq (i : grid0.Coords) : k0_off253 i = ![128 * (i 0).val + 126] := by off_arith k0_off253 i
theorem off255_eq (i : grid0.Coords) : k0_off255 i = ![128 * (i 0).val + 127] := by off_arith k0_off255 i

end Cert.KernelIdeal.Body

end
-- ==== Proof.BodyLaterIdeal.lean ====
/-
  The body at a grid point after the first, run once on any staging buffers: the column-sum accumulator is read and
  the sums of the block's eight rows are added to it; then the 128 rows the table names are copied one at
  a time into the two-slot buffer, each copy started while the previous row is being used, and for each
  the maximum over the 512 lanes of (row of the block + copied row) is taken; the 8 × 16 maxima are stored
  as the point's output block. The run hands back every buffer it was lent and names the pieces it left
  in the two output buffers.
-/
import proofs.«106441_j1580547974259_1_alg».proof.Proof.BodyCommonIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 0 in
set_option sl_exec.dmaWindow true in
set_option sl_exec.dmaWindowSet true in
/-- The pieces the body leaves in the output block's buffer and in the accumulator's, with the proof that
    it runs to the end from the buffers it is lent — the block, the two outputs, the two-slot buffer at
    whatever it holds (fs0), the table and the array of rows each at a share, its two copy counters at zero —
    and gives them back: every copy it starts it waits for within the point. -/
noncomputable def runLater (c : Dev nD) (i : grid0.Coords) (hc : ¬isFirst i)
    (arg3 : Memref sig .tc .vmem S8x512 .f32) (harg3 : arg3.IsWhole)
    (arg4 : Memref sig .tc .vmem S8x16 .f32) (harg4 : arg4.IsWhole)
    (arg5 : Memref sig .tc .vmem S1x512 .f32) (harg5 : arg5.IsWhole)
    (arg6 : Memref sig .tc .vmem S2x512 .f32) (harg6 : arg6.IsWhole)
    (q1 q2 : PosShare TreeShare)
    (xt : BufOf (F := F) c tbM) (x0 : Vec F S8x512 .f32) (a0 : Vec F S1x512 .f32) (fh : BufOf (F := F) c hbM) (fs0 : BufTy.Contents (Elt F) arg6.view.ty)
    (hrows : RowsBelow c xt) :
    { L : List (View.Piece (Elt F) S8x16 .f32) × List (View.Piece (Elt F) S1x512 .f32) //
      ∀ (W : Waits sig Unit) (K : PUnit → sProp 𝕄),
        iprop(heldAt c q1 tbM xt
            ∗ owns (c : Thread nD τ) arg3 fullShare x0
            ∗ (∃ d, owns (c : Thread nD τ) arg4 fullShare d)
            ∗ owns (c : Thread nD τ) arg5 fullShare a0
            ∗ (arg6.view.loc (c : Thread nD τ) ↦[arg6.view.set]{fullShare} fs0)
            ∗ semVal ((c : Thread nD τ), SemLoc.dma 5) 0
            ∗ semVal ((c : Thread nD τ), SemLoc.dma 6) 0
            ∗ heldAt c q2 hbM fh
            ∗ owes (c : Thread nD τ) 0 W
            ∗ (iprop(heldAt c q1 tbM xt
                ∗ owns (c : Thread nD τ) arg3 fullShare x0
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)
                ∗ (∃ d, owns (c : Thread nD τ) arg6 fullShare d)
                ∗ semVal ((c : Thread nD τ), SemLoc.dma 5) 0
                ∗ semVal ((c : Thread nD τ), SemLoc.dma 6) 0
                ∗ heldAt c q2 hbM fh
                ∗ (∃ W', owes (c : Thread nD τ) 0 W')) -∗ K ⟨⟩))
          ⊢ wp frame (wpE (defs₀ (F := F)) Variants.none c none) Set.univ
              (cc0_kernel i tbM htbM hbM hhbM arg3 harg3 arg4 harg4 arg5 harg5 arg6 harg6 cc0_scratch1) K } := by
  refine ⟨(?_, ?_), fun W K => ?run⟩
  case run =>
    simp only [cc0_kernel_eq_skeleton]; unfold cc0_kernel_skel
    unfold owns
    iintro ⟨HT, ⟨%f0, %hf0, H0⟩, ⟨%d1, %f1, -, H1⟩, ⟨%f2, %hf2, H2⟩, HS0, Hq0, Hq1, Hh0, HW, Hk⟩
    obtain rfl := harg3.eq_unread hf0; obtain rfl := harg5.eq_unread hf2
    sl_exec_parts (disch := first | sl_exact hc | exact row_inside _ (hrows _ _))
    sl_step
    iapply Hk
    isplitl [HT]; · iexact HT
    isplitl [H0]
    · iexists _; isplitr; · ipureintro; exact harg3.read_unread _
      iexact H0
    isplitl [H1]; · iexists _; iexact H1
    isplitl [H2]; · iexists _; iexact H2
    isplitl [HS0]
    · iexists _, _; isplitr; swap; · iexact HS0
      ipureintro; rfl
    isplitl [Hq0]; · iexact Hq0
    isplitl [Hq1]; · iexact Hq1
    isplitl [Hh0]; · iexact Hh0
    iexists _; iexact HW

end Cert.KernelIdeal.Body

end
-- ==== Proof.BodyTableLaterIdeal.lean ====
/-
  The block of maxima the body leaves at a point after the first, read back.

  The run names every value it computes. Below, one equation per name, in the order the body computes them: each
  table word is word number `128·t + 16·b + k`; each copy is that row of the array; each load of the two-slot buffer
  reads the copy that was last made into the loaded row; each maximum is `pmax` of row `b` of the block and the
  copied row; each group of sixteen is one row of the block of maxima. The last equation reads the eight rows back
  as `maxBlock`.
-/
import proofs.«106441_j1580547974259_1_alg».proof.Proof.BodyLoadsIdeal
import proofs.«106441_j1580547974259_1_alg».proof.Proof.BodyLaterIdeal

set_option maxRecDepth 16384

noncomputable section

namespace Cert.KernelIdeal.Body

open Cert.KernelIdeal Cert.KernelIdeal.Gen Cert.BodyMath
open Idealize.ShloMosaic Idealize.ShloMosaic.TcCoe Idealize.ShloMosaic.ValueIdx

variable {F : FTy → Type} [FloatOps F]

namespace Later

section Table

variable (c : Dev nD) (i : grid0.Coords) (arg3 : Memref sig .tc .vmem S8x512 .f32) (harg3 : arg3.IsWhole)
  (arg6 : Memref sig .tc .vmem S2x512 .f32) (xt : BufOf (F := F) c tbM) (x0 : Vec F S8x512 .f32) (fh : BufOf (F := F) c hbM)
  (fs0 : BufTy.Contents (Elt F) arg6.view.ty) (hrows : RowsBelow c xt)

theorem w_r : runLater.sl.r c i xt = word c i xt (xfer 0 0) := word_of_off c i xt (xfer 0 0) (off1_eq i)
theorem w_r_1 : runLater.sl.r_1 c i xt = word c i xt (xfer 0 1) := word_of_off c i xt (xfer 0 1) (off3_eq i)
theorem w_r_100 : runLater.sl.r_100 c i xt = word c i xt (xfer 2 13) := word_of_off c i xt (xfer 2 13) (off91_eq i)
theorem w_r_103 : runLater.sl.r_103 c i xt = word c i xt (xfer 2 14) := word_of_off c i xt (xfer 2 14) (off93_eq i)
theorem w_r_104 : runLater.sl.r_104 c i xt = word c i xt (xfer 2 15) := word_of_off c i xt (xfer 2 15) (off95_eq i)
theorem w_r_106 : runLater.sl.r_106 c i xt = word c i xt (xfer 3 0) := word_of_off c i xt (xfer 3 0) (off97_eq i)
theorem w_r_108 : runLater.sl.r_108 c i xt = word c i xt (xfer 3 1) := word_of_off c i xt (xfer 3 1) (off99_eq i)
theorem w_r_109 : runLater.sl.r_109 c i xt = word c i xt (xfer 3 2) := word_of_off c i xt (xfer 3 2) (off101_eq i)
theorem w_r_112 : runLater.sl.r_112 c i xt = word c i xt (xfer 3 3) := word_of_off c i xt (xfer 3 3) (off103_eq i)
theorem w_r_115 : runLater.sl.r_115 c i xt = word c i xt (xfer 3 4) := word_of_off c i xt (xfer 3 4) (off105_eq i)
theorem w_r_116 : runLater.sl.r_116 c i xt = word c i xt (xfer 3 5) := word_of_off c i xt (xfer 3 5) (off107_eq i)
theorem w_r_118 : runLater.sl.r_118 c i xt = word c i xt (xfer 3 6) := word_of_off c i xt (xfer 3 6) (off109_eq i)
theorem w_r_12 : runLater.sl.r_12 c i xt = word c i xt (xfer 0 6) := word_of_off c i xt (xfer 0 6) (off13_eq i)
theorem w_r_121 : runLater.sl.r_121 c i xt = word c i xt (xfer 3 7) := word_of_off c i xt (xfer 3 7) (off111_eq i)
theorem w_r_122 : runLater.sl.r_122 c i xt = word c i xt (xfer 3 8) := word_of_off c i xt (xfer 3 8) (off113_eq i)
theorem w_r_124 : runLater.sl.r_124 c i xt = word c i xt (xfer 3 9) := word_of_off c i xt (xfer 3 9) (off115_eq i)
theorem w_r_127 : runLater.sl.r_127 c i xt = word c i xt (xfer 3 10) := word_of_off c i xt (xfer 3 10) (off117_eq i)
theorem w_r_128 : runLater.sl.r_128 c i xt = word c i xt (xfer 3 11) := word_of_off c i xt (xfer 3 11) (off119_eq i)
theorem w_r_13 : runLater.sl.r_13 c i xt = word c i xt (xfer 0 7) := word_of_off c i xt (xfer 0 7) (off15_eq i)
theorem w_r_130 : runLater.sl.r_130 c i xt = word c i xt (xfer 3 12) := word_of_off c i xt (xfer 3 12) (off121_eq i)
theorem w_r_133 : runLater.sl.r_133 c i xt = word c i xt (xfer 3 13) := word_of_off c i xt (xfer 3 13) (off123_eq i)
theorem w_r_134 : runLater.sl.r_134 c i xt = word c i xt (xfer 3 14) := word_of_off c i xt (xfer 3 14) (off125_eq i)
theorem w_r_136 : runLater.sl.r_136 c i xt = word c i xt (xfer 3 15) := word_of_off c i xt (xfer 3 15) (off127_eq i)
theorem w_r_139 : runLater.sl.r_139 c i xt = word c i xt (xfer 4 0) := word_of_off c i xt (xfer 4 0) (off129_eq i)
theorem w_r_140 : runLater.sl.r_140 c i xt = word c i xt (xfer 4 1) := word_of_off c i xt (xfer 4 1) (off131_eq i)
theorem w_r_143 : runLater.sl.r_143 c i xt = word c i xt (xfer 4 2) := word_of_off c i xt (xfer 4 2) (off133_eq i)
theorem w_r_146 : runLater.sl.r_146 c i xt = word c i xt (xfer 4 3) := word_of_off c i xt (xfer 4 3) (off135_eq i)
theorem w_r_147 : runLater.sl.r_147 c i xt = word c i xt (xfer 4 4) := word_of_off c i xt (xfer 4 4) (off137_eq i)
theorem w_r_149 : runLater.sl.r_149 c i xt = word c i xt (xfer 4 5) := word_of_off c i xt (xfer 4 5) (off139_eq i)
theorem w_r_152 : runLater.sl.r_152 c i xt = word c i xt (xfer 4 6) := word_of_off c i xt (xfer 4 6) (off141_eq i)
theorem w_r_153 : runLater.sl.r_153 c i xt = word c i xt (xfer 4 7) := word_of_off c i xt (xfer 4 7) (off143_eq i)
theorem w_r_155 : runLater.sl.r_155 c i xt = word c i xt (xfer 4 8) := word_of_off c i xt (xfer 4 8) (off145_eq i)
theorem w_r_158 : runLater.sl.r_158 c i xt = word c i xt (xfer 4 9) := word_of_off c i xt (xfer 4 9) (off147_eq i)
theorem w_r_159 : runLater.sl.r_159 c i xt = word c i xt (xfer 4 10) := word_of_off c i xt (xfer 4 10) (off149_eq i)
theorem w_r_16 : runLater.sl.r_16 c i xt = word c i xt (xfer 0 8) := word_of_off c i xt (xfer 0 8) (off17_eq i)
theorem w_r_161 : runLater.sl.r_161 c i xt = word c i xt (xfer 4 11) := word_of_off c i xt (xfer 4 11) (off151_eq i)
theorem w_r_164 : runLater.sl.r_164 c i xt = word c i xt (xfer 4 12) := word_of_off c i xt (xfer 4 12) (off153_eq i)
theorem w_r_165 : runLater.sl.r_165 c i xt = word c i xt (xfer 4 13) := word_of_off c i xt (xfer 4 13) (off155_eq i)
theorem w_r_167 : runLater.sl.r_167 c i xt = word c i xt (xfer 4 14) := word_of_off c i xt (xfer 4 14) (off157_eq i)
theorem w_r_170 : runLater.sl.r_170 c i xt = word c i xt (xfer 4 15) := word_of_off c i xt (xfer 4 15) (off159_eq i)
theorem w_r_171 : runLater.sl.r_171 c i xt = word c i xt (xfer 5 0) := word_of_off c i xt (xfer 5 0) (off161_eq i)
theorem w_r_173 : runLater.sl.r_173 c i xt = word c i xt (xfer 5 1) := word_of_off c i xt (xfer 5 1) (off163_eq i)
theorem w_r_176 : runLater.sl.r_176 c i xt = word c i xt (xfer 5 2) := word_of_off c i xt (xfer 5 2) (off165_eq i)
theorem w_r_177 : runLater.sl.r_177 c i xt = word c i xt (xfer 5 3) := word_of_off c i xt (xfer 5 3) (off167_eq i)
theorem w_r_180 : runLater.sl.r_180 c i xt = word c i xt (xfer 5 4) := word_of_off c i xt (xfer 5 4) (off169_eq i)
theorem w_r_183 : runLater.sl.r_183 c i xt = word c i xt (xfer 5 5) := word_of_off c i xt (xfer 5 5) (off171_eq i)
theorem w_r_184 : runLater.sl.r_184 c i xt = word c i xt (xfer 5 6) := word_of_off c i xt (xfer 5 6) (off173_eq i)
theorem w_r_186 : runLater.sl.r_186 c i xt = word c i xt (xfer 5 7) := word_of_off c i xt (xfer 5 7) (off175_eq i)
theorem w_r_189 : runLater.sl.r_189 c i xt = word c i xt (xfer 5 8) := word_of_off c i xt (xfer 5 8) (off177_eq i)
theorem w_r_19 : runLater.sl.r_19 c i xt = word c i xt (xfer 0 9) := word_of_off c i xt (xfer 0 9) (off19_eq i)
theorem w_r_190 : runLater.sl.r_190 c i xt = word c i xt (xfer 5 9) := word_of_off c i xt (xfer 5 9) (off179_eq i)
theorem w_r_192 : runLater.sl.r_192 c i xt = word c i xt (xfer 5 10) := word_of_off c i xt (xfer 5 10) (off181_eq i)
theorem w_r_195 : runLater.sl.r_195 c i xt = word c i xt (xfer 5 11) := word_of_off c i xt (xfer 5 11) (off183_eq i)
theorem w_r_196 : runLater.sl.r_196 c i xt = word c i xt (xfer 5 12) := word_of_off c i xt (xfer 5 12) (off185_eq i)
theorem w_r_198 : runLater.sl.r_198 c i xt = word c i xt (xfer 5 13) := word_of_off c i xt (xfer 5 13) (off187_eq i)
theorem w_r_2 : runLater.sl.r_2 c i xt = word c i xt (xfer 0 2) := word_of_off c i xt (xfer 0 2) (off5_eq i)
theorem w_r_20 : runLater.sl.r_20 c i xt = word c i xt (xfer 0 10) := word_of_off c i xt (xfer 0 10) (off21_eq i)
theorem w_r_201 : runLater.sl.r_201 c i xt = word c i xt (xfer 5 14) := word_of_off c i xt (xfer 5 14) (off189_eq i)
theorem w_r_202 : runLater.sl.r_202 c i xt = word c i xt (xfer 5 15) := word_of_off c i xt (xfer 5 15) (off191_eq i)
theorem w_r_204 : runLater.sl.r_204 c i xt = word c i xt (xfer 6 0) := word_of_off c i xt (xfer 6 0) (off193_eq i)
theorem w_r_206 : runLater.sl.r_206 c i xt = word c i xt (xfer 6 1) := word_of_off c i xt (xfer 6 1) (off195_eq i)
theorem w_r_207 : runLater.sl.r_207 c i xt = word c i xt (xfer 6 2) := word_of_off c i xt (xfer 6 2) (off197_eq i)
theorem w_r_209 : runLater.sl.r_209 c i xt = word c i xt (xfer 6 3) := word_of_off c i xt (xfer 6 3) (off199_eq i)
theorem w_r_212 : runLater.sl.r_212 c i xt = word c i xt (xfer 6 4) := word_of_off c i xt (xfer 6 4) (off201_eq i)
theorem w_r_213 : runLater.sl.r_213 c i xt = word c i xt (xfer 6 5) := word_of_off c i xt (xfer 6 5) (off203_eq i)
theorem w_r_215 : runLater.sl.r_215 c i xt = word c i xt (xfer 6 6) := word_of_off c i xt (xfer 6 6) (off205_eq i)
theorem w_r_218 : runLater.sl.r_218 c i xt = word c i xt (xfer 6 7) := word_of_off c i xt (xfer 6 7) (off207_eq i)
theorem w_r_219 : runLater.sl.r_219 c i xt = word c i xt (xfer 6 8) := word_of_off c i xt (xfer 6 8) (off209_eq i)
theorem w_r_221 : runLater.sl.r_221 c i xt = word c i xt (xfer 6 9) := word_of_off c i xt (xfer 6 9) (off211_eq i)
theorem w_r_224 : runLater.sl.r_224 c i xt = word c i xt (xfer 6 10) := word_of_off c i xt (xfer 6 10) (off213_eq i)
theorem w_r_225 : runLater.sl.r_225 c i xt = word c i xt (xfer 6 11) := word_of_off c i xt (xfer 6 11) (off215_eq i)
theorem w_r_227 : runLater.sl.r_227 c i xt = word c i xt (xfer 6 12) := word_of_off c i xt (xfer 6 12) (off217_eq i)
theorem w_r_23 : runLater.sl.r_23 c i xt = word c i xt (xfer 0 11) := word_of_off c i xt (xfer 0 11) (off23_eq i)
theorem w_r_230 : runLater.sl.r_230 c i xt = word c i xt (xfer 6 13) := word_of_off c i xt (xfer 6 13) (off219_eq i)
theorem w_r_231 : runLater.sl.r_231 c i xt = word c i xt (xfer 6 14) := word_of_off c i xt (xfer 6 14) (off221_eq i)
theorem w_r_233 : runLater.sl.r_233 c i xt = word c i xt (xfer 6 15) := word_of_off c i xt (xfer 6 15) (off223_eq i)
theorem w_r_236 : runLater.sl.r_236 c i xt = word c i xt (xfer 7 0) := word_of_off c i xt (xfer 7 0) (off225_eq i)
theorem w_r_237 : runLater.sl.r_237 c i xt = word c i xt (xfer 7 1) := word_of_off c i xt (xfer 7 1) (off227_eq i)
theorem w_r_239 : runLater.sl.r_239 c i xt = word c i xt (xfer 7 2) := word_of_off c i xt (xfer 7 2) (off229_eq i)
theorem w_r_242 : runLater.sl.r_242 c i xt = word c i xt (xfer 7 3) := word_of_off c i xt (xfer 7 3) (off231_eq i)
theorem w_r_243 : runLater.sl.r_243 c i xt = word c i xt (xfer 7 4) := word_of_off c i xt (xfer 7 4) (off233_eq i)
theorem w_r_245 : runLater.sl.r_245 c i xt = word c i xt (xfer 7 5) := word_of_off c i xt (xfer 7 5) (off235_eq i)
theorem w_r_248 : runLater.sl.r_248 c i xt = word c i xt (xfer 7 6) := word_of_off c i xt (xfer 7 6) (off237_eq i)
theorem w_r_249 : runLater.sl.r_249 c i xt = word c i xt (xfer 7 7) := word_of_off c i xt (xfer 7 7) (off239_eq i)
theorem w_r_251 : runLater.sl.r_251 c i xt = word c i xt (xfer 7 8) := word_of_off c i xt (xfer 7 8) (off241_eq i)
theorem w_r_254 : runLater.sl.r_254 c i xt = word c i xt (xfer 7 9) := word_of_off c i xt (xfer 7 9) (off243_eq i)
theorem w_r_255 : runLater.sl.r_255 c i xt = word c i xt (xfer 7 10) := word_of_off c i xt (xfer 7 10) (off245_eq i)
theorem w_r_257 : runLater.sl.r_257 c i xt = word c i xt (xfer 7 11) := word_of_off c i xt (xfer 7 11) (off247_eq i)
theorem w_r_26 : runLater.sl.r_26 c i xt = word c i xt (xfer 0 12) := word_of_off c i xt (xfer 0 12) (off25_eq i)
theorem w_r_260 : runLater.sl.r_260 c i xt = word c i xt (xfer 7 12) := word_of_off c i xt (xfer 7 12) (off249_eq i)
theorem w_r_261 : runLater.sl.r_261 c i xt = word c i xt (xfer 7 13) := word_of_off c i xt (xfer 7 13) (off251_eq i)
theorem w_r_263 : runLater.sl.r_263 c i xt = word c i xt (xfer 7 14) := word_of_off c i xt (xfer 7 14) (off253_eq i)
theorem w_r_266 : runLater.sl.r_266 c i xt = word c i xt (xfer 7 15) := word_of_off c i xt (xfer 7 15) (off255_eq i)
theorem w_r_27 : runLater.sl.r_27 c i xt = word c i xt (xfer 0 13) := word_of_off c i xt (xfer 0 13) (off27_eq i)
theorem w_r_30 : runLater.sl.r_30 c i xt = word c i xt (xfer 0 14) := word_of_off c i xt (xfer 0 14) (off29_eq i)
theorem w_r_33 : runLater.sl.r_33 c i xt = word c i xt (xfer 0 15) := word_of_off c i xt (xfer 0 15) (off31_eq i)
theorem w_r_34 : runLater.sl.r_34 c i xt = word c i xt (xfer 1 0) := word_of_off c i xt (xfer 1 0) (off33_eq i)
theorem w_r_37 : runLater.sl.r_37 c i xt = word c i xt (xfer 1 1) := word_of_off c i xt (xfer 1 1) (off35_eq i)
theorem w_r_40 : runLater.sl.r_40 c i xt = word c i xt (xfer 1 2) := word_of_off c i xt (xfer 1 2) (off37_eq i)
theorem w_r_43 : runLater.sl.r_43 c i xt = word c i xt (xfer 1 3) := word_of_off c i xt (xfer 1 3) (off39_eq i)
theorem w_r_44 : runLater.sl.r_44 c i xt = word c i xt (xfer 1 4) := word_of_off c i xt (xfer 1 4) (off41_eq i)
theorem w_r_47 : runLater.sl.r_47 c i xt = word c i xt (xfer 1 5) := word_of_off c i xt (xfer 1 5) (off43_eq i)
theorem w_r_5 : runLater.sl.r_5 c i xt = word c i xt (xfer 0 3) := word_of_off c i xt (xfer 0 3) (off7_eq i)
theorem w_r_50 : runLater.sl.r_50 c i xt = word c i xt (xfer 1 6) := word_of_off c i xt (xfer 1 6) (off45_eq i)
theorem w_r_51 : runLater.sl.r_51 c i xt = word c i xt (xfer 1 7) := word_of_off c i xt (xfer 1 7) (off47_eq i)
theorem w_r_54 : runLater.sl.r_54 c i xt = word c i xt (xfer 1 8) := word_of_off c i xt (xfer 1 8) (off49_eq i)
theorem w_r_57 : runLater.sl.r_57 c i xt = word c i xt (xfer 1 9) := word_of_off c i xt (xfer 1 9) (off51_eq i)
theorem w_r_58 : runLater.sl.r_58 c i xt = word c i xt (xfer 1 10) := word_of_off c i xt (xfer 1 10) (off53_eq i)
theorem w_r_6 : runLater.sl.r_6 c i xt = word c i xt (xfer 0 4) := word_of_off c i xt (xfer 0 4) (off9_eq i)
theorem w_r_61 : runLater.sl.r_61 c i xt = word c i xt (xfer 1 11) := word_of_off c i xt (xfer 1 11) (off55_eq i)
theorem w_r_64 : runLater.sl.r_64 c i xt = word c i xt (xfer 1 12) := word_of_off c i xt (xfer 1 12) (off57_eq i)
theorem w_r_65 : runLater.sl.r_65 c i xt = word c i xt (xfer 1 13) := word_of_off c i xt (xfer 1 13) (off59_eq i)
theorem w_r_68 : runLater.sl.r_68 c i xt = word c i xt (xfer 1 14) := word_of_off c i xt (xfer 1 14) (off61_eq i)
theorem w_r_71 : runLater.sl.r_71 c i xt = word c i xt (xfer 1 15) := word_of_off c i xt (xfer 1 15) (off63_eq i)
theorem w_r_72 : runLater.sl.r_72 c i xt = word c i xt (xfer 2 0) := word_of_off c i xt (xfer 2 0) (off65_eq i)
theorem w_r_75 : runLater.sl.r_75 c i xt = word c i xt (xfer 2 1) := word_of_off c i xt (xfer 2 1) (off67_eq i)
theorem w_r_78 : runLater.sl.r_78 c i xt = word c i xt (xfer 2 2) := word_of_off c i xt (xfer 2 2) (off69_eq i)
theorem w_r_79 : runLater.sl.r_79 c i xt = word c i xt (xfer 2 3) := word_of_off c i xt (xfer 2 3) (off71_eq i)
theorem w_r_82 : runLater.sl.r_82 c i xt = word c i xt (xfer 2 4) := word_of_off c i xt (xfer 2 4) (off73_eq i)
theorem w_r_85 : runLater.sl.r_85 c i xt = word c i xt (xfer 2 5) := word_of_off c i xt (xfer 2 5) (off75_eq i)
theorem w_r_86 : runLater.sl.r_86 c i xt = word c i xt (xfer 2 6) := word_of_off c i xt (xfer 2 6) (off77_eq i)
theorem w_r_88 : runLater.sl.r_88 c i xt = word c i xt (xfer 2 7) := word_of_off c i xt (xfer 2 7) (off79_eq i)
theorem w_r_9 : runLater.sl.r_9 c i xt = word c i xt (xfer 0 5) := word_of_off c i xt (xfer 0 5) (off11_eq i)
theorem w_r_91 : runLater.sl.r_91 c i xt = word c i xt (xfer 2 8) := word_of_off c i xt (xfer 2 8) (off81_eq i)
theorem w_r_92 : runLater.sl.r_92 c i xt = word c i xt (xfer 2 9) := word_of_off c i xt (xfer 2 9) (off83_eq i)
theorem w_r_94 : runLater.sl.r_94 c i xt = word c i xt (xfer 2 10) := word_of_off c i xt (xfer 2 10) (off85_eq i)
theorem w_r_97 : runLater.sl.r_97 c i xt = word c i xt (xfer 2 11) := word_of_off c i xt (xfer 2 11) (off87_eq i)
theorem w_r_98 : runLater.sl.r_98 c i xt = word c i xt (xfer 2 12) := word_of_off c i xt (xfer 2 12) (off89_eq i)
theorem d_dma102 : runLater.sl.dma102 c i xt fh hrows = arrRow c fh (word c i xt (xfer 2 1)) (word_lt c i xt hrows (xfer 2 1)) := dma_of_word c fh _ _ (w_r_75 c i xt) _ rfl
theorem d_dma105 : runLater.sl.dma105 c i xt fh hrows = arrRow c fh (word c i xt (xfer 2 2)) (word_lt c i xt hrows (xfer 2 2)) := dma_of_word c fh _ _ (w_r_78 c i xt) _ rfl
theorem d_dma108 : runLater.sl.dma108 c i xt fh hrows = arrRow c fh (word c i xt (xfer 2 3)) (word_lt c i xt hrows (xfer 2 3)) := dma_of_word c fh _ _ (w_r_79 c i xt) _ rfl
theorem d_dma111 : runLater.sl.dma111 c i xt fh hrows = arrRow c fh (word c i xt (xfer 2 4)) (word_lt c i xt hrows (xfer 2 4)) := dma_of_word c fh _ _ (w_r_82 c i xt) _ rfl
theorem d_dma114 : runLater.sl.dma114 c i xt fh hrows = arrRow c fh (word c i xt (xfer 2 5)) (word_lt c i xt hrows (xfer 2 5)) := dma_of_word c fh _ _ (w_r_85 c i xt) _ rfl
theorem d_dma117 : runLater.sl.dma117 c i xt fh hrows = arrRow c fh (word c i xt (xfer 2 6)) (word_lt c i xt hrows (xfer 2 6)) := dma_of_word c fh _ _ (w_r_86 c i xt) _ rfl
theorem d_dma12 : runLater.sl.dma12 c i xt fh hrows = arrRow c fh (word c i xt (xfer 0 3)) (word_lt c i xt hrows (xfer 0 3)) := dma_of_word c fh _ _ (w_r_5 c i xt) _ rfl
theorem d_dma120 : runLater.sl.dma120 c i xt fh hrows = arrRow c fh (word c i xt (xfer 2 7)) (word_lt c i xt hrows (xfer 2 7)) := dma_of_word c fh _ _ (w_r_88 c i xt) _ rfl
theorem d_dma123 : runLater.sl.dma123 c i xt fh hrows = arrRow c fh (word c i xt (xfer 2 8)) (word_lt c i xt hrows (xfer 2 8)) := dma_of_word c fh _ _ (w_r_91 c i xt) _ rfl
theorem d_dma126 : runLater.sl.dma126 c i xt fh hrows = arrRow c fh (word c i xt (xfer 2 9)) (word_lt c i xt hrows (xfer 2 9)) := dma_of_word c fh _ _ (w_r_92 c i xt) _ rfl
theorem d_dma129 : runLater.sl.dma129 c i xt fh hrows = arrRow c fh (word c i xt (xfer 2 10)) (word_lt c i xt hrows (xfer 2 10)) := dma_of_word c fh _ _ (w_r_94 c i xt) _ rfl
theorem d_dma132 : runLater.sl.dma132 c i xt fh hrows = arrRow c fh (word c i xt (xfer 2 11)) (word_lt c i xt hrows (xfer 2 11)) := dma_of_word c fh _ _ (w_r_97 c i xt) _ rfl
theorem d_dma135 : runLater.sl.dma135 c i xt fh hrows = arrRow c fh (word c i xt (xfer 2 12)) (word_lt c i xt hrows (xfer 2 12)) := dma_of_word c fh _ _ (w_r_98 c i xt) _ rfl
theorem d_dma138 : runLater.sl.dma138 c i xt fh hrows = arrRow c fh (word c i xt (xfer 2 13)) (word_lt c i xt hrows (xfer 2 13)) := dma_of_word c fh _ _ (w_r_100 c i xt) _ rfl
theorem d_dma141 : runLater.sl.dma141 c i xt fh hrows = arrRow c fh (word c i xt (xfer 2 14)) (word_lt c i xt hrows (xfer 2 14)) := dma_of_word c fh _ _ (w_r_103 c i xt) _ rfl
theorem d_dma144 : runLater.sl.dma144 c i xt fh hrows = arrRow c fh (word c i xt (xfer 2 15)) (word_lt c i xt hrows (xfer 2 15)) := dma_of_word c fh _ _ (w_r_104 c i xt) _ rfl
theorem d_dma147 : runLater.sl.dma147 c i xt fh hrows = arrRow c fh (word c i xt (xfer 3 0)) (word_lt c i xt hrows (xfer 3 0)) := dma_of_word c fh _ _ (w_r_106 c i xt) _ rfl
theorem d_dma15 : runLater.sl.dma15 c i xt fh hrows = arrRow c fh (word c i xt (xfer 0 4)) (word_lt c i xt hrows (xfer 0 4)) := dma_of_word c fh _ _ (w_r_6 c i xt) _ rfl
theorem d_dma150 : runLater.sl.dma150 c i xt fh hrows = arrRow c fh (word c i xt (xfer 3 1)) (word_lt c i xt hrows (xfer 3 1)) := dma_of_word c fh _ _ (w_r_108 c i xt) _ rfl
theorem d_dma153 : runLater.sl.dma153 c i xt fh hrows = arrRow c fh (word c i xt (xfer 3 2)) (word_lt c i xt hrows (xfer 3 2)) := dma_of_word c fh _ _ (w_r_109 c i xt) _ rfl
theorem d_dma156 : runLater.sl.dma156 c i xt fh hrows = arrRow c fh (word c i xt (xfer 3 3)) (word_lt c i xt hrows (xfer 3 3)) := dma_of_word c fh _ _ (w_r_112 c i xt) _ rfl
theorem d_dma159 : runLater.sl.dma159 c i xt fh hrows = arrRow c fh (word c i xt (xfer 3 4)) (word_lt c i xt hrows (xfer 3 4)) := dma_of_word c fh _ _ (w_r_115 c i xt) _ rfl
theorem d_dma162 : runLater.sl.dma162 c i xt fh hrows = arrRow c fh (word c i xt (xfer 3 5)) (word_lt c i xt hrows (xfer 3 5)) := dma_of_word c fh _ _ (w_r_116 c i xt) _ rfl
theorem d_dma165 : runLater.sl.dma165 c i xt fh hrows = arrRow c fh (word c i xt (xfer 3 6)) (word_lt c i xt hrows (xfer 3 6)) := dma_of_word c fh _ _ (w_r_118 c i xt) _ rfl
theorem d_dma168 : runLater.sl.dma168 c i xt fh hrows = arrRow c fh (word c i xt (xfer 3 7)) (word_lt c i xt hrows (xfer 3 7)) := dma_of_word c fh _ _ (w_r_121 c i xt) _ rfl
theorem d_dma171 : runLater.sl.dma171 c i xt fh hrows = arrRow c fh (word c i xt (xfer 3 8)) (word_lt c i xt hrows (xfer 3 8)) := dma_of_word c fh _ _ (w_r_122 c i xt) _ rfl
theorem d_dma174 : runLater.sl.dma174 c i xt fh hrows = arrRow c fh (word c i xt (xfer 3 9)) (word_lt c i xt hrows (xfer 3 9)) := dma_of_word c fh _ _ (w_r_124 c i xt) _ rfl
theorem d_dma177 : runLater.sl.dma177 c i xt fh hrows = arrRow c fh (word c i xt (xfer 3 10)) (word_lt c i xt hrows (xfer 3 10)) := dma_of_word c fh _ _ (w_r_127 c i xt) _ rfl
theorem d_dma18 : runLater.sl.dma18 c i xt fh hrows = arrRow c fh (word c i xt (xfer 0 5)) (word_lt c i xt hrows (xfer 0 5)) := dma_of_word c fh _ _ (w_r_9 c i xt) _ rfl
theorem d_dma180 : runLater.sl.dma180 c i xt fh hrows = arrRow c fh (word c i xt (xfer 3 11)) (word_lt c i xt hrows (xfer 3 11)) := dma_of_word c fh _ _ (w_r_128 c i xt) _ rfl
theorem d_dma183 : runLater.sl.dma183 c i xt fh hrows = arrRow c fh (word c i xt (xfer 3 12)) (word_lt c i xt hrows (xfer 3 12)) := dma_of_word c fh _ _ (w_r_130 c i xt) _ rfl
theorem d_dma186 : runLater.sl.dma186 c i xt fh hrows = arrRow c fh (word c i xt (xfer 3 13)) (word_lt c i xt hrows (xfer 3 13)) := dma_of_word c fh _ _ (w_r_133 c i xt) _ rfl
theorem d_dma189 : runLater.sl.dma189 c i xt fh hrows = arrRow c fh (word c i xt (xfer 3 14)) (word_lt c i xt hrows (xfer 3 14)) := dma_of_word c fh _ _ (w_r_134 c i xt) _ rfl
theorem d_dma192 : runLater.sl.dma192 c i xt fh hrows = arrRow c fh (word c i xt (xfer 3 15)) (word_lt c i xt hrows (xfer 3 15)) := dma_of_word c fh _ _ (w_r_136 c i xt) _ rfl
theorem d_dma195 : runLater.sl.dma195 c i xt fh hrows = arrRow c fh (word c i xt (xfer 4 0)) (word_lt c i xt hrows (xfer 4 0)) := dma_of_word c fh _ _ (w_r_139 c i xt) _ rfl
theorem d_dma198 : runLater.sl.dma198 c i xt fh hrows = arrRow c fh (word c i xt (xfer 4 1)) (word_lt c i xt hrows (xfer 4 1)) := dma_of_word c fh _ _ (w_r_140 c i xt) _ rfl
theorem d_dma201 : runLater.sl.dma201 c i xt fh hrows = arrRow c fh (word c i xt (xfer 4 2)) (word_lt c i xt hrows (xfer 4 2)) := dma_of_word c fh _ _ (w_r_143 c i xt) _ rfl
theorem d_dma204 : runLater.sl.dma204 c i xt fh hrows = arrRow c fh (word c i xt (xfer 4 3)) (word_lt c i xt hrows (xfer 4 3)) := dma_of_word c fh _ _ (w_r_146 c i xt) _ rfl
theorem d_dma207 : runLater.sl.dma207 c i xt fh hrows = arrRow c fh (word c i xt (xfer 4 4)) (word_lt c i xt hrows (xfer 4 4)) := dma_of_word c fh _ _ (w_r_147 c i xt) _ rfl
theorem d_dma21 : runLater.sl.dma21 c i xt fh hrows = arrRow c fh (word c i xt (xfer 0 6)) (word_lt c i xt hrows (xfer 0 6)) := dma_of_word c fh _ _ (w_r_12 c i xt) _ rfl
theorem d_dma210 : runLater.sl.dma210 c i xt fh hrows = arrRow c fh (word c i xt (xfer 4 5)) (word_lt c i xt hrows (xfer 4 5)) := dma_of_word c fh _ _ (w_r_149 c i xt) _ rfl
theorem d_dma213 : runLater.sl.dma213 c i xt fh hrows = arrRow c fh (word c i xt (xfer 4 6)) (word_lt c i xt hrows (xfer 4 6)) := dma_of_word c fh _ _ (w_r_152 c i xt) _ rfl
theorem d_dma216 : runLater.sl.dma216 c i xt fh hrows = arrRow c fh (word c i xt (xfer 4 7)) (word_lt c i xt hrows (xfer 4 7)) := dma_of_word c fh _ _ (w_r_153 c i xt) _ rfl
theorem d_dma219 : runLater.sl.dma219 c i xt fh hrows = arrRow c fh (word c i xt (xfer 4 8)) (word_lt c i xt hrows (xfer 4 8)) := dma_of_word c fh _ _ (w_r_155 c i xt) _ rfl
theorem d_dma222 : runLater.sl.dma222 c i xt fh hrows = arrRow c fh (word c i xt (xfer 4 9)) (word_lt c i xt hrows (xfer 4 9)) := dma_of_word c fh _ _ (w_r_158 c i xt) _ rfl
theorem d_dma225 : runLater.sl.dma225 c i xt fh hrows = arrRow c fh (word c i xt (xfer 4 10)) (word_lt c i xt hrows (xfer 4 10)) := dma_of_word c fh _ _ (w_r_159 c i xt) _ rfl
theorem d_dma228 : runLater.sl.dma228 c i xt fh hrows = arrRow c fh (word c i xt (xfer 4 11)) (word_lt c i xt hrows (xfer 4 11)) := dma_of_word c fh _ _ (w_r_161 c i xt) _ rfl
theorem d_dma231 : runLater.sl.dma231 c i xt fh hrows = arrRow c fh (word c i xt (xfer 4 12)) (word_lt c i xt hrows (xfer 4 12)) := dma_of_word c fh _ _ (w_r_164 c i xt) _ rfl
theorem d_dma234 : runLater.sl.dma234 c i xt fh hrows = arrRow c fh (word c i xt (xfer 4 13)) (word_lt c i xt hrows (xfer 4 13)) := dma_of_word c fh _ _ (w_r_165 c i xt) _ rfl
theorem d_dma237 : runLater.sl.dma237 c i xt fh hrows = arrRow c fh (word c i xt (xfer 4 14)) (word_lt c i xt hrows (xfer 4 14)) := dma_of_word c fh _ _ (w_r_167 c i xt) _ rfl
theorem d_dma24 : runLater.sl.dma24 c i xt fh hrows = arrRow c fh (word c i xt (xfer 0 7)) (word_lt c i xt hrows (xfer 0 7)) := dma_of_word c fh _ _ (w_r_13 c i xt) _ rfl
theorem d_dma240 : runLater.sl.dma240 c i xt fh hrows = arrRow c fh (word c i xt (xfer 4 15)) (word_lt c i xt hrows (xfer 4 15)) := dma_of_word c fh _ _ (w_r_170 c i xt) _ rfl
theorem d_dma243 : runLater.sl.dma243 c i xt fh hrows = arrRow c fh (word c i xt (xfer 5 0)) (word_lt c i xt hrows (xfer 5 0)) := dma_of_word c fh _ _ (w_r_171 c i xt) _ rfl
theorem d_dma246 : runLater.sl.dma246 c i xt fh hrows = arrRow c fh (word c i xt (xfer 5 1)) (word_lt c i xt hrows (xfer 5 1)) := dma_of_word c fh _ _ (w_r_173 c i xt) _ rfl
theorem d_dma249 : runLater.sl.dma249 c i xt fh hrows = arrRow c fh (word c i xt (xfer 5 2)) (word_lt c i xt hrows (xfer 5 2)) := dma_of_word c fh _ _ (w_r_176 c i xt) _ rfl
theorem d_dma252 : runLater.sl.dma252 c i xt fh hrows = arrRow c fh (word c i xt (xfer 5 3)) (word_lt c i xt hrows (xfer 5 3)) := dma_of_word c fh _ _ (w_r_177 c i xt) _ rfl
theorem d_dma255 : runLater.sl.dma255 c i xt fh hrows = arrRow c fh (word c i xt (xfer 5 4)) (word_lt c i xt hrows (xfer 5 4)) := dma_of_word c fh _ _ (w_r_180 c i xt) _ rfl
theorem d_dma258 : runLater.sl.dma258 c i xt fh hrows = arrRow c fh (word c i xt (xfer 5 5)) (word_lt c i xt hrows (xfer 5 5)) := dma_of_word c fh _ _ (w_r_183 c i xt) _ rfl
theorem d_dma261 : runLater.sl.dma261 c i xt fh hrows = arrRow c fh (word c i xt (xfer 5 6)) (word_lt c i xt hrows (xfer 5 6)) := dma_of_word c fh _ _ (w_r_184 c i xt) _ rfl
theorem d_dma264 : runLater.sl.dma264 c i xt fh hrows = arrRow c fh (word c i xt (xfer 5 7)) (word_lt c i xt hrows (xfer 5 7)) := dma_of_word c fh _ _ (w_r_186 c i xt) _ rfl
theorem d_dma267 : runLater.sl.dma267 c i xt fh hrows = arrRow c fh (word c i xt (xfer 5 8)) (word_lt c i xt hrows (xfer 5 8)) := dma_of_word c fh _ _ (w_r_189 c i xt) _ rfl
theorem d_dma27 : runLater.sl.dma27 c i xt fh hrows = arrRow c fh (word c i xt (xfer 0 8)) (word_lt c i xt hrows (xfer 0 8)) := dma_of_word c fh _ _ (w_r_16 c i xt) _ rfl
theorem d_dma270 : runLater.sl.dma270 c i xt fh hrows = arrRow c fh (word c i xt (xfer 5 9)) (word_lt c i xt hrows (xfer 5 9)) := dma_of_word c fh _ _ (w_r_190 c i xt) _ rfl
theorem d_dma273 : runLater.sl.dma273 c i xt fh hrows = arrRow c fh (word c i xt (xfer 5 10)) (word_lt c i xt hrows (xfer 5 10)) := dma_of_word c fh _ _ (w_r_192 c i xt) _ rfl
theorem d_dma276 : runLater.sl.dma276 c i xt fh hrows = arrRow c fh (word c i xt (xfer 5 11)) (word_lt c i xt hrows (xfer 5 11)) := dma_of_word c fh _ _ (w_r_195 c i xt) _ rfl
theorem d_dma279 : runLater.sl.dma279 c i xt fh hrows = arrRow c fh (word c i xt (xfer 5 12)) (word_lt c i xt hrows (xfer 5 12)) := dma_of_word c fh _ _ (w_r_196 c i xt) _ rfl
theorem d_dma282 : runLater.sl.dma282 c i xt fh hrows = arrRow c fh (word c i xt (xfer 5 13)) (word_lt c i xt hrows (xfer 5 13)) := dma_of_word c fh _ _ (w_r_198 c i xt) _ rfl
theorem d_dma285 : runLater.sl.dma285 c i xt fh hrows = arrRow c fh (word c i xt (xfer 5 14)) (word_lt c i xt hrows (xfer 5 14)) := dma_of_word c fh _ _ (w_r_201 c i xt) _ rfl
theorem d_dma288 : runLater.sl.dma288 c i xt fh hrows = arrRow c fh (word c i xt (xfer 5 15)) (word_lt c i xt hrows (xfer 5 15)) := dma_of_word c fh _ _ (w_r_202 c i xt) _ rfl
theorem d_dma291 : runLater.sl.dma291 c i xt fh hrows = arrRow c fh (word c i xt (xfer 6 0)) (word_lt c i xt hrows (xfer 6 0)) := dma_of_word c fh _ _ (w_r_204 c i xt) _ rfl
theorem d_dma294 : runLater.sl.dma294 c i xt fh hrows = arrRow c fh (word c i xt (xfer 6 1)) (word_lt c i xt hrows (xfer 6 1)) := dma_of_word c fh _ _ (w_r_206 c i xt) _ rfl
theorem d_dma297 : runLater.sl.dma297 c i xt fh hrows = arrRow c fh (word c i xt (xfer 6 2)) (word_lt c i xt hrows (xfer 6 2)) := dma_of_word c fh _ _ (w_r_207 c i xt) _ rfl
theorem d_dma30 : runLater.sl.dma30 c i xt fh hrows = arrRow c fh (word c i xt (xfer 0 9)) (word_lt c i xt hrows (xfer 0 9)) := dma_of_word c fh _ _ (w_r_19 c i xt) _ rfl
theorem d_dma300 : runLater.sl.dma300 c i xt fh hrows = arrRow c fh (word c i xt (xfer 6 3)) (word_lt c i xt hrows (xfer 6 3)) := dma_of_word c fh _ _ (w_r_209 c i xt) _ rfl
theorem d_dma303 : runLater.sl.dma303 c i xt fh hrows = arrRow c fh (word c i xt (xfer 6 4)) (word_lt c i xt hrows (xfer 6 4)) := dma_of_word c fh _ _ (w_r_212 c i xt) _ rfl
theorem d_dma306 : runLater.sl.dma306 c i xt fh hrows = arrRow c fh (word c i xt (xfer 6 5)) (word_lt c i xt hrows (xfer 6 5)) := dma_of_word c fh _ _ (w_r_213 c i xt) _ rfl
theorem d_dma309 : runLater.sl.dma309 c i xt fh hrows = arrRow c fh (word c i xt (xfer 6 6)) (word_lt c i xt hrows (xfer 6 6)) := dma_of_word c fh _ _ (w_r_215 c i xt) _ rfl
theorem d_dma312 : runLater.sl.dma312 c i xt fh hrows = arrRow c fh (word c i xt (xfer 6 7)) (word_lt c i xt hrows (xfer 6 7)) := dma_of_word c fh _ _ (w_r_218 c i xt) _ rfl
theorem d_dma315 : runLater.sl.dma315 c i xt fh hrows = arrRow c fh (word c i xt (xfer 6 8)) (word_lt c i xt hrows (xfer 6 8)) := dma_of_word c fh _ _ (w_r_219 c i xt) _ rfl
theorem d_dma318 : runLater.sl.dma318 c i xt fh hrows = arrRow c fh (word c i xt (xfer 6 9)) (word_lt c i xt hrows (xfer 6 9)) := dma_of_word c fh _ _ (w_r_221 c i xt) _ rfl
theorem d_dma321 : runLater.sl.dma321 c i xt fh hrows = arrRow c fh (word c i xt (xfer 6 10)) (word_lt c i xt hrows (xfer 6 10)) := dma_of_word c fh _ _ (w_r_224 c i xt) _ rfl
theorem d_dma324 : runLater.sl.dma324 c i xt fh hrows = arrRow c fh (word c i xt (xfer 6 11)) (word_lt c i xt hrows (xfer 6 11)) := dma_of_word c fh _ _ (w_r_225 c i xt) _ rfl
theorem d_dma327 : runLater.sl.dma327 c i xt fh hrows = arrRow c fh (word c i xt (xfer 6 12)) (word_lt c i xt hrows (xfer 6 12)) := dma_of_word c fh _ _ (w_r_227 c i xt) _ rfl
theorem d_dma33 : runLater.sl.dma33 c i xt fh hrows = arrRow c fh (word c i xt (xfer 0 10)) (word_lt c i xt hrows (xfer 0 10)) := dma_of_word c fh _ _ (w_r_20 c i xt) _ rfl
theorem d_dma330 : runLater.sl.dma330 c i xt fh hrows = arrRow c fh (word c i xt (xfer 6 13)) (word_lt c i xt hrows (xfer 6 13)) := dma_of_word c fh _ _ (w_r_230 c i xt) _ rfl
theorem d_dma333 : runLater.sl.dma333 c i xt fh hrows = arrRow c fh (word c i xt (xfer 6 14)) (word_lt c i xt hrows (xfer 6 14)) := dma_of_word c fh _ _ (w_r_231 c i xt) _ rfl
theorem d_dma336 : runLater.sl.dma336 c i xt fh hrows = arrRow c fh (word c i xt (xfer 6 15)) (word_lt c i xt hrows (xfer 6 15)) := dma_of_word c fh _ _ (w_r_233 c i xt) _ rfl
theorem d_dma339 : runLater.sl.dma339 c i xt fh hrows = arrRow c fh (word c i xt (xfer 7 0)) (word_lt c i xt hrows (xfer 7 0)) := dma_of_word c fh _ _ (w_r_236 c i xt) _ rfl
theorem d_dma342 : runLater.sl.dma342 c i xt fh hrows = arrRow c fh (word c i xt (xfer 7 1)) (word_lt c i xt hrows (xfer 7 1)) := dma_of_word c fh _ _ (w_r_237 c i xt) _ rfl
theorem d_dma345 : runLater.sl.dma345 c i xt fh hrows = arrRow c fh (word c i xt (xfer 7 2)) (word_lt c i xt hrows (xfer 7 2)) := dma_of_word c fh _ _ (w_r_239 c i xt) _ rfl
theorem d_dma348 : runLater.sl.dma348 c i xt fh hrows = arrRow c fh (word c i xt (xfer 7 3)) (word_lt c i xt hrows (xfer 7 3)) := dma_of_word c fh _ _ (w_r_242 c i xt) _ rfl
theorem d_dma351 : runLater.sl.dma351 c i xt fh hrows = arrRow c fh (word c i xt (xfer 7 4)) (word_lt c i xt hrows (xfer 7 4)) := dma_of_word c fh _ _ (w_r_243 c i xt) _ rfl
theorem d_dma354 : runLater.sl.dma354 c i xt fh hrows = arrRow c fh (word c i xt (xfer 7 5)) (word_lt c i xt hrows (xfer 7 5)) := dma_of_word c fh _ _ (w_r_245 c i xt) _ rfl
theorem d_dma357 : runLater.sl.dma357 c i xt fh hrows = arrRow c fh (word c i xt (xfer 7 6)) (word_lt c i xt hrows (xfer 7 6)) := dma_of_word c fh _ _ (w_r_248 c i xt) _ rfl
theorem d_dma36 : runLater.sl.dma36 c i xt fh hrows = arrRow c fh (word c i xt (xfer 0 11)) (word_lt c i xt hrows (xfer 0 11)) := dma_of_word c fh _ _ (w_r_23 c i xt) _ rfl
theorem d_dma360 : runLater.sl.dma360 c i xt fh hrows = arrRow c fh (word c i xt (xfer 7 7)) (word_lt c i xt hrows (xfer 7 7)) := dma_of_word c fh _ _ (w_r_249 c i xt) _ rfl
theorem d_dma363 : runLater.sl.dma363 c i xt fh hrows = arrRow c fh (word c i xt (xfer 7 8)) (word_lt c i xt hrows (xfer 7 8)) := dma_of_word c fh _ _ (w_r_251 c i xt) _ rfl
theorem d_dma366 : runLater.sl.dma366 c i xt fh hrows = arrRow c fh (word c i xt (xfer 7 9)) (word_lt c i xt hrows (xfer 7 9)) := dma_of_word c fh _ _ (w_r_254 c i xt) _ rfl
theorem d_dma369 : runLater.sl.dma369 c i xt fh hrows = arrRow c fh (word c i xt (xfer 7 10)) (word_lt c i xt hrows (xfer 7 10)) := dma_of_word c fh _ _ (w_r_255 c i xt) _ rfl
theorem d_dma372 : runLater.sl.dma372 c i xt fh hrows = arrRow c fh (word c i xt (xfer 7 11)) (word_lt c i xt hrows (xfer 7 11)) := dma_of_word c fh _ _ (w_r_257 c i xt) _ rfl
theorem d_dma375 : runLater.sl.dma375 c i xt fh hrows = arrRow c fh (word c i xt (xfer 7 12)) (word_lt c i xt hrows (xfer 7 12)) := dma_of_word c fh _ _ (w_r_260 c i xt) _ rfl
theorem d_dma378 : runLater.sl.dma378 c i xt fh hrows = arrRow c fh (word c i xt (xfer 7 13)) (word_lt c i xt hrows (xfer 7 13)) := dma_of_word c fh _ _ (w_r_261 c i xt) _ rfl
theorem d_dma381 : runLater.sl.dma381 c i xt fh hrows = arrRow c fh (word c i xt (xfer 7 14)) (word_lt c i xt hrows (xfer 7 14)) := dma_of_word c fh _ _ (w_r_263 c i xt) _ rfl
theorem d_dma384 : runLater.sl.dma384 c i xt fh hrows = arrRow c fh (word c i xt (xfer 7 15)) (word_lt c i xt hrows (xfer 7 15)) := dma_of_word c fh _ _ (w_r_266 c i xt) _ rfl
theorem d_dma39 : runLater.sl.dma39 c i xt fh hrows = arrRow c fh (word c i xt (xfer 0 12)) (word_lt c i xt hrows (xfer 0 12)) := dma_of_word c fh _ _ (w_r_26 c i xt) _ rfl
theorem d_dma42 : runLater.sl.dma42 c i xt fh hrows = arrRow c fh (word c i xt (xfer 0 13)) (word_lt c i xt hrows (xfer 0 13)) := dma_of_word c fh _ _ (w_r_27 c i xt) _ rfl
theorem d_dma45 : runLater.sl.dma45 c i xt fh hrows = arrRow c fh (word c i xt (xfer 0 14)) (word_lt c i xt hrows (xfer 0 14)) := dma_of_word c fh _ _ (w_r_30 c i xt) _ rfl
theorem d_dma48 : runLater.sl.dma48 c i xt fh hrows = arrRow c fh (word c i xt (xfer 0 15)) (word_lt c i xt hrows (xfer 0 15)) := dma_of_word c fh _ _ (w_r_33 c i xt) _ rfl
theorem d_dma5 : runLater.sl.dma5 c i xt fh hrows = arrRow c fh (word c i xt (xfer 0 0)) (word_lt c i xt hrows (xfer 0 0)) := dma_of_word c fh _ _ (w_r c i xt) _ rfl
theorem d_dma51 : runLater.sl.dma51 c i xt fh hrows = arrRow c fh (word c i xt (xfer 1 0)) (word_lt c i xt hrows (xfer 1 0)) := dma_of_word c fh _ _ (w_r_34 c i xt) _ rfl
theorem d_dma54 : runLater.sl.dma54 c i xt fh hrows = arrRow c fh (word c i xt (xfer 1 1)) (word_lt c i xt hrows (xfer 1 1)) := dma_of_word c fh _ _ (w_r_37 c i xt) _ rfl
theorem d_dma57 : runLater.sl.dma57 c i xt fh hrows = arrRow c fh (word c i xt (xfer 1 2)) (word_lt c i xt hrows (xfer 1 2)) := dma_of_word c fh _ _ (w_r_40 c i xt) _ rfl
theorem d_dma6 : runLater.sl.dma6 c i xt fh hrows = arrRow c fh (word c i xt (xfer 0 1)) (word_lt c i xt hrows (xfer 0 1)) := dma_of_word c fh _ _ (w_r_1 c i xt) _ rfl
theorem d_dma60 : runLater.sl.dma60 c i xt fh hrows = arrRow c fh (word c i xt (xfer 1 3)) (word_lt c i xt hrows (xfer 1 3)) := dma_of_word c fh _ _ (w_r_43 c i xt) _ rfl
theorem d_dma63 : runLater.sl.dma63 c i xt fh hrows = arrRow c fh (word c i xt (xfer 1 4)) (word_lt c i xt hrows (xfer 1 4)) := dma_of_word c fh _ _ (w_r_44 c i xt) _ rfl
theorem d_dma66 : runLater.sl.dma66 c i xt fh hrows = arrRow c fh (word c i xt (xfer 1 5)) (word_lt c i xt hrows (xfer 1 5)) := dma_of_word c fh _ _ (w_r_47 c i xt) _ rfl
theorem d_dma69 : runLater.sl.dma69 c i xt fh hrows = arrRow c fh (word c i xt (xfer 1 6)) (word_lt c i xt hrows (xfer 1 6)) := dma_of_word c fh _ _ (w_r_50 c i xt) _ rfl
theorem d_dma72 : runLater.sl.dma72 c i xt fh hrows = arrRow c fh (word c i xt (xfer 1 7)) (word_lt c i xt hrows (xfer 1 7)) := dma_of_word c fh _ _ (w_r_51 c i xt) _ rfl
theorem d_dma75 : runLater.sl.dma75 c i xt fh hrows = arrRow c fh (word c i xt (xfer 1 8)) (word_lt c i xt hrows (xfer 1 8)) := dma_of_word c fh _ _ (w_r_54 c i xt) _ rfl
theorem d_dma78 : runLater.sl.dma78 c i xt fh hrows = arrRow c fh (word c i xt (xfer 1 9)) (word_lt c i xt hrows (xfer 1 9)) := dma_of_word c fh _ _ (w_r_57 c i xt) _ rfl
theorem d_dma81 : runLater.sl.dma81 c i xt fh hrows = arrRow c fh (word c i xt (xfer 1 10)) (word_lt c i xt hrows (xfer 1 10)) := dma_of_word c fh _ _ (w_r_58 c i xt) _ rfl
theorem d_dma84 : runLater.sl.dma84 c i xt fh hrows = arrRow c fh (word c i xt (xfer 1 11)) (word_lt c i xt hrows (xfer 1 11)) := dma_of_word c fh _ _ (w_r_61 c i xt) _ rfl
theorem d_dma87 : runLater.sl.dma87 c i xt fh hrows = arrRow c fh (word c i xt (xfer 1 12)) (word_lt c i xt hrows (xfer 1 12)) := dma_of_word c fh _ _ (w_r_64 c i xt) _ rfl
theorem d_dma9 : runLater.sl.dma9 c i xt fh hrows = arrRow c fh (word c i xt (xfer 0 2)) (word_lt c i xt hrows (xfer 0 2)) := dma_of_word c fh _ _ (w_r_2 c i xt) _ rfl
theorem d_dma90 : runLater.sl.dma90 c i xt fh hrows = arrRow c fh (word c i xt (xfer 1 13)) (word_lt c i xt hrows (xfer 1 13)) := dma_of_word c fh _ _ (w_r_65 c i xt) _ rfl
theorem d_dma93 : runLater.sl.dma93 c i xt fh hrows = arrRow c fh (word c i xt (xfer 1 14)) (word_lt c i xt hrows (xfer 1 14)) := dma_of_word c fh _ _ (w_r_68 c i xt) _ rfl
theorem d_dma96 : runLater.sl.dma96 c i xt fh hrows = arrRow c fh (word c i xt (xfer 1 15)) (word_lt c i xt hrows (xfer 1 15)) := dma_of_word c fh _ _ (w_r_71 c i xt) _ rfl
theorem d_dma99 : runLater.sl.dma99 c i xt fh hrows = arrRow c fh (word c i xt (xfer 2 0)) (word_lt c i xt hrows (xfer 2 0)) := dma_of_word c fh _ _ (w_r_72 c i xt) _ rfl
theorem l_v1006 : runLater.sl.v1006 c i arg6 xt fh fs0 hrows = asRow (runLater.sl.dma141 c i xt fh hrows) := load_second arg6 0 1 (by decide) rfl rfl rfl
theorem l_v101 : runLater.sl.v101 c i arg6 xt fh fs0 hrows = asRow (runLater.sl.dma12 c i xt fh hrows) := load_second arg6 1 0 (by decide) rfl rfl rfl
theorem l_v1027 : runLater.sl.v1027 c i arg6 xt fh fs0 hrows = asRow (runLater.sl.dma144 c i xt fh hrows) := load_second arg6 1 0 (by decide) rfl rfl rfl
theorem l_v1049 : runLater.sl.v1049 c i arg6 xt fh fs0 hrows = asRow (runLater.sl.dma147 c i xt fh hrows) := load_second arg6 0 1 (by decide) rfl rfl rfl
theorem l_v1070 : runLater.sl.v1070 c i arg6 xt fh fs0 hrows = asRow (runLater.sl.dma150 c i xt fh hrows) := load_second arg6 1 0 (by decide) rfl rfl rfl
theorem l_v1091 : runLater.sl.v1091 c i arg6 xt fh fs0 hrows = asRow (runLater.sl.dma153 c i xt fh hrows) := load_second arg6 0 1 (by decide) rfl rfl rfl
theorem l_v1112 : runLater.sl.v1112 c i arg6 xt fh fs0 hrows = asRow (runLater.sl.dma156 c i xt fh hrows) := load_second arg6 1 0 (by decide) rfl rfl rfl
theorem l_v1133 : runLater.sl.v1133 c i arg6 xt fh fs0 hrows = asRow (runLater.sl.dma159 c i xt fh hrows) := load_second arg6 0 1 (by decide) rfl rfl rfl
theorem l_v1154 : runLater.sl.v1154 c i arg6 xt fh fs0 hrows = asRow (runLater.sl.dma162 c i xt fh hrows) := load_second arg6 1 0 (by decide) rfl rfl rfl
theorem l_v1175 : runLater.sl.v1175 c i arg6 xt fh fs0 hrows = asRow (runLater.sl.dma165 c i xt fh hrows) := load_second arg6 0 1 (by decide) rfl rfl rfl
theorem l_v1196 : runLater.sl.v1196 c i arg6 xt fh fs0 hrows = asRow (runLater.sl.dma168 c i xt fh hrows) := load_second arg6 1 0 (by decide) rfl rfl rfl
theorem l_v1217 : runLater.sl.v1217 c i arg6 xt fh fs0 hrows = asRow (runLater.sl.dma171 c i xt fh hrows) := load_second arg6 0 1 (by decide) rfl rfl rfl
theorem l_v122 : runLater.sl.v122 c i arg6 xt fh fs0 hrows = asRow (runLater.sl.dma15 c i xt fh hrows) := load_second arg6 0 1 (by decide) rfl rfl rfl
theorem l_v1238 : runLater.sl.v1238 c i arg6 xt fh fs0 hrows = asRow (runLater.sl.dma174 c i xt fh hrows) := load_second arg6 1 0 (by decide) rfl rfl rfl
theorem l_v1259 : runLater.sl.v1259 c i arg6 xt fh fs0 hrows = asRow (runLater.sl.dma177 c i xt fh hrows) := load_second arg6 0 1 (by decide) rfl rfl rfl
theorem l_v1280 : runLater.sl.v1280 c i arg6 xt fh fs0 hrows = asRow (runLater.sl.dma180 c i xt fh hrows) := load_second arg6 1 0 (by decide) rfl rfl rfl
theorem l_v1301 : runLater.sl.v1301 c i arg6 xt fh fs0 hrows = asRow (runLater.sl.dma183 c i xt fh hrows) := load_second arg6 0 1 (by decide) rfl rfl rfl
theorem l_v1322 : runLater.sl.v1322 c i arg6 xt fh fs0 hrows = asRow (runLater.sl.dma186 c i xt fh hrows) := load_second arg6 1 0 (by decide) rfl rfl rfl
theorem l_v1343 : runLater.sl.v1343 c i arg6 xt fh fs0 hrows = asRow (runLater.sl.dma189 c i xt fh hrows) := load_second arg6 0 1 (by decide) rfl rfl rfl
theorem l_v1364 : runLater.sl.v1364 c i arg6 xt fh fs0 hrows = asRow (runLater.sl.dma192 c i xt fh hrows) := load_second arg6 1 0 (by decide) rfl rfl rfl
theorem l_v1386 : runLater.sl.v1386 c i arg6 xt fh fs0 hrows = asRow (runLater.sl.dma195 c i xt fh hrows) := load_second arg6 0 1 (by decide) rfl rfl rfl
theorem l_v1407 : runLater.sl.v1407 c i arg6 xt fh fs0 hrows = asRow (runLater.sl.dma198 c i xt fh hrows) := load_second arg6 1 0 (by decide) rfl rfl rfl
theorem l_v1428 : runLater.sl.v1428 c i arg6 xt fh fs0 hrows = asRow (runLater.sl.dma201 c i xt fh hrows) := load_second arg6 0 1 (by decide) rfl rfl rfl
theorem l_v143 : runLater.sl.v143 c i arg6 xt fh fs0 hrows = asRow (runLater.sl.dma18 c i xt fh hrows) := load_second arg6 1 0 (by decide) rfl rfl rfl
theorem l_v1449 : runLater.sl.v1449 c i arg6 xt fh fs0 hrows = asRow (runLater.sl.dma204 c i xt fh hrows) := load_second arg6 1 0 (by decide) rfl rfl rfl
theorem l_v1470 : runLater.sl.v1470 c i arg6 xt fh fs0 hrows = asRow (runLater.sl.dma207 c i xt fh hrows) := load_second arg6 0 1 (by decide) rfl rfl rfl
theorem l_v1491 : runLater.sl.v1491 c i arg6 xt fh fs0 hrows = asRow (runLater.sl.dma210 c i xt fh hrows) := load_second arg6 1 0 (by decide) rfl rfl rfl
theorem l_v1512 : runLater.sl.v1512 c i arg6 xt fh fs0 hrows = asRow (runLater.sl.dma213 c i xt fh hrows) := load_second arg6 0 1 (by decide) rfl rfl rfl
theorem l_v1533 : runLater.sl.v1533 c i arg6 xt fh fs0 hrows = asRow (runLater.sl.dma216 c i xt fh hrows) := load_second arg6 1 0 (by decide) rfl rfl rfl
theorem l_v1554 : runLater.sl.v1554 c i arg6 xt fh fs0 hrows = asRow (runLater.sl.dma219 c i xt fh hrows) := load_second arg6 0 1 (by decide) rfl rfl rfl
theorem l_v1575 : runLater.sl.v1575 c i arg6 xt fh fs0 hrows = asRow (runLater.sl.dma222 c i xt fh hrows) := load_second arg6 1 0 (by decide) rfl rfl rfl
theorem l_v1596 : runLater.sl.v1596 c i arg6 xt fh fs0 hrows = asRow (runLater.sl.dma225 c i xt fh hrows) := load_second arg6 0 1 (by decide) rfl rfl rfl
theorem l_v1617 : runLater.sl.v1617 c i arg6 xt fh fs0 hrows = asRow (runLater.sl.dma228 c i xt fh hrows) := load_second arg6 1 0 (by decide) rfl rfl rfl
theorem l_v1638 : runLater.sl.v1638 c i arg6 xt fh fs0 hrows = asRow (runLater.sl.dma231 c i xt fh hrows) := load_second arg6 0 1 (by decide) rfl rfl rfl
theorem l_v164 : runLater.sl.v164 c i arg6 xt fh fs0 hrows = asRow (runLater.sl.dma21 c i xt fh hrows) := load_second arg6 0 1 (by decide) rfl rfl rfl
theorem l_v1659 : runLater.sl.v1659 c i arg6 xt fh fs0 hrows = asRow (runLater.sl.dma234 c i xt fh hrows) := load_second arg6 1 0 (by decide) rfl rfl rfl
theorem l_v1680 : runLater.sl.v1680 c i arg6 xt fh fs0 hrows = asRow (runLater.sl.dma237 c i xt fh hrows) := load_second arg6 0 1 (by decide) rfl rfl rfl
theorem l_v1701 : runLater.sl.v1701 c i arg6 xt fh fs0 hrows = asRow (runLater.sl.dma240 c i xt fh hrows) := load_second arg6 1 0 (by decide) rfl rfl rfl
theorem l_v1723 : runLater.sl.v1723 c i arg6 xt fh fs0 hrows = asRow (runLater.sl.dma243 c i xt fh hrows) := load_second arg6 0 1 (by decide) rfl rfl rfl
theorem l_v1744 : runLater.sl.v1744 c i arg6 xt fh fs0 hrows = asRow (runLater.sl.dma246 c i xt fh hrows) := load_second arg6 1 0 (by decide) rfl rfl rfl
theorem l_v1765 : runLater.sl.v1765 c i arg6 xt fh fs0 hrows = asRow (runLater.sl.dma249 c i xt fh hrows) := load_second arg6 0 1 (by decide) rfl rfl rfl
theorem l_v1786 : runLater.sl.v1786 c i arg6 xt fh fs0 hrows = asRow (runLater.sl.dma252 c i xt fh hrows) := load_second arg6 1 0 (by decide) rfl rfl rfl
theorem l_v1807 : runLater.sl.v1807 c i arg6 xt fh fs0 hrows = asRow (runLater.sl.dma255 c i xt fh hrows) := load_second arg6 0 1 (by decide) rfl rfl rfl
theorem l_v1828 : runLater.sl.v1828 c i arg6 xt fh fs0 hrows = asRow (runLater.sl.dma258 c i xt fh hrows) := load_second arg6 1 0 (by decide) rfl rfl rfl
theorem l_v1849 : runLater.sl.v1849 c i arg6 xt fh fs0 hrows = asRow (runLater.sl.dma261 c i xt fh hrows) := load_second arg6 0 1 (by decide) rfl rfl rfl
theorem l_v185 : runLater.sl.v185 c i arg6 xt fh fs0 hrows = asRow (runLater.sl.dma24 c i xt fh hrows) := load_second arg6 1 0 (by decide) rfl rfl rfl
theorem l_v1870 : runLater.sl.v1870 c i arg6 xt fh fs0 hrows = asRow (runLater.sl.dma264 c i xt fh hrows) := load_second arg6 1 0 (by decide) rfl rfl rfl
theorem l_v1891 : runLater.sl.v1891 c i arg6 xt fh fs0 hrows = asRow (runLater.sl.dma267 c i xt fh hrows) := load_second arg6 0 1 (by decide) rfl rfl rfl
theorem l_v1912 : runLater.sl.v1912 c i arg6 xt fh fs0 hrows = asRow (runLater.sl.dma270 c i xt fh hrows) := load_second arg6 1 0 (by decide) rfl rfl rfl
theorem l_v1933 : runLater.sl.v1933 c i arg6 xt fh fs0 hrows = asRow (runLater.sl.dma273 c i xt fh hrows) := load_second arg6 0 1 (by decide) rfl rfl rfl
theorem l_v1954 : runLater.sl.v1954 c i arg6 xt fh fs0 hrows = asRow (runLater.sl.dma276 c i xt fh hrows) := load_second arg6 1 0 (by decide) rfl rfl rfl
theorem l_v1975 : runLater.sl.v1975 c i arg6 xt fh fs0 hrows = asRow (runLater.sl.dma279 c i xt fh hrows) := load_second arg6 0 1 (by decide) rfl rfl rfl
theorem l_v1996 : runLater.sl.v1996 c i arg6 xt fh fs0 hrows = asRow (runLater.sl.dma282 c i xt fh hrows) := load_second arg6 1 0 (by decide) rfl rfl rfl
theorem l_v2017 : runLater.sl.v2017 c i arg6 xt fh fs0 hrows = asRow (runLater.sl.dma285 c i xt fh hrows) := load_second arg6 0 1 (by decide) rfl rfl rfl
theorem l_v2038 : runLater.sl.v2038 c i arg6 xt fh fs0 hrows = asRow (runLater.sl.dma288 c i xt fh hrows) := load_second arg6 1 0 (by decide) rfl rfl rfl
theorem l_v206 : runLater.sl.v206 c i arg6 xt fh fs0 hrows = asRow (runLater.sl.dma27 c i xt fh hrows) := load_second arg6 0 1 (by decide) rfl rfl rfl
theorem l_v2060 : runLater.sl.v2060 c i arg6 xt fh fs0 hrows = asRow (runLater.sl.dma291 c i xt fh hrows) := load_second arg6 0 1 (by decide) rfl rfl rfl
theorem l_v2081 : runLater.sl.v2081 c i arg6 xt fh fs0 hrows = asRow (runLater.sl.dma294 c i xt fh hrows) := load_second arg6 1 0 (by decide) rfl rfl rfl
theorem l_v2102 : runLater.sl.v2102 c i arg6 xt fh fs0 hrows = asRow (runLater.sl.dma297 c i xt fh hrows) := load_second arg6 0 1 (by decide) rfl rfl rfl
theorem l_v2123 : runLater.sl.v2123 c i arg6 xt fh fs0 hrows = asRow (runLater.sl.dma300 c i xt fh hrows) := load_second arg6 1 0 (by decide) rfl rfl rfl
theorem l_v2144 : runLater.sl.v2144 c i arg6 xt fh fs0 hrows = asRow (runLater.sl.dma303 c i xt fh hrows) := load_second arg6 0 1 (by decide) rfl rfl rfl
theorem l_v2165 : runLater.sl.v2165 c i arg6 xt fh fs0 hrows = asRow (runLater.sl.dma306 c i xt fh hrows) := load_second arg6 1 0 (by decide) rfl rfl rfl
theorem l_v2186 : runLater.sl.v2186 c i arg6 xt fh fs0 hrows = asRow (runLater.sl.dma309 c i xt fh hrows) := load_second arg6 0 1 (by decide) rfl rfl rfl
theorem l_v2207 : runLater.sl.v2207 c i arg6 xt fh fs0 hrows = asRow (runLater.sl.dma312 c i xt fh hrows) := load_second arg6 1 0 (by decide) rfl rfl rfl
theorem l_v2228 : runLater.sl.v2228 c i arg6 xt fh fs0 hrows = asRow (runLater.sl.dma315 c i xt fh hrows) := load_second arg6 0 1 (by decide) rfl rfl rfl
theorem l_v2249 : runLater.sl.v2249 c i arg6 xt fh fs0 hrows = asRow (runLater.sl.dma318 c i xt fh hrows) := load_second arg6 1 0 (by decide) rfl rfl rfl
theorem l_v227 : runLater.sl.v227 c i arg6 xt fh fs0 hrows = asRow (runLater.sl.dma30 c i xt fh hrows) := load_second arg6 1 0 (by decide) rfl rfl rfl
theorem l_v2270 : runLater.sl.v2270 c i arg6 xt fh fs0 hrows = asRow (runLater.sl.dma321 c i xt fh hrows) := load_second arg6 0 1 (by decide) rfl rfl rfl
theorem l_v2291 : runLater.sl.v2291 c i arg6 xt fh fs0 hrows = asRow (runLater.sl.dma324 c i xt fh hrows) := load_second arg6 1 0 (by decide) rfl rfl rfl
theorem l_v2312 : runLater.sl.v2312 c i arg6 xt fh fs0 hrows = asRow (runLater.sl.dma327 c i xt fh hrows) := load_second arg6 0 1 (by decide) rfl rfl rfl
theorem l_v2333 : runLater.sl.v2333 c i arg6 xt fh fs0 hrows = asRow (runLater.sl.dma330 c i xt fh hrows) := load_second arg6 1 0 (by decide) rfl rfl rfl
theorem l_v2354 : runLater.sl.v2354 c i arg6 xt fh fs0 hrows = asRow (runLater.sl.dma333 c i xt fh hrows) := load_second arg6 0 1 (by decide) rfl rfl rfl
theorem l_v2375 : runLater.sl.v2375 c i arg6 xt fh fs0 hrows = asRow (runLater.sl.dma336 c i xt fh hrows) := load_second arg6 1 0 (by decide) rfl rfl rfl
theorem l_v2397 : runLater.sl.v2397 c i arg6 xt fh fs0 hrows = asRow (runLater.sl.dma339 c i xt fh hrows) := load_second arg6 0 1 (by decide) rfl rfl rfl
theorem l_v2418 : runLater.sl.v2418 c i arg6 xt fh fs0 hrows = asRow (runLater.sl.dma342 c i xt fh hrows) := load_second arg6 1 0 (by decide) rfl rfl rfl
theorem l_v2439 : runLater.sl.v2439 c i arg6 xt fh fs0 hrows = asRow (runLater.sl.dma345 c i xt fh hrows) := load_second arg6 0 1 (by decide) rfl rfl rfl
theorem l_v2460 : runLater.sl.v2460 c i arg6 xt fh fs0 hrows = asRow (runLater.sl.dma348 c i xt fh hrows) := load_second arg6 1 0 (by decide) rfl rfl rfl
theorem l_v248 : runLater.sl.v248 c i arg6 xt fh fs0 hrows = asRow (runLater.sl.dma33 c i xt fh hrows) := load_second arg6 0 1 (by decide) rfl rfl rfl
theorem l_v2481 : runLater.sl.v2481 c i arg6 xt fh fs0 hrows = asRow (runLater.sl.dma351 c i xt fh hrows) := load_second arg6 0 1 (by decide) rfl rfl rfl
theorem l_v2502 : runLater.sl.v2502 c i arg6 xt fh fs0 hrows = asRow (runLater.sl.dma354 c i xt fh hrows) := load_second arg6 1 0 (by decide) rfl rfl rfl
theorem l_v2523 : runLater.sl.v2523 c i arg6 xt fh fs0 hrows = asRow (runLater.sl.dma357 c i xt fh hrows) := load_second arg6 0 1 (by decide) rfl rfl rfl
theorem l_v2544 : runLater.sl.v2544 c i arg6 xt fh fs0 hrows = asRow (runLater.sl.dma360 c i xt fh hrows) := load_second arg6 1 0 (by decide) rfl rfl rfl
theorem l_v2565 : runLater.sl.v2565 c i arg6 xt fh fs0 hrows = asRow (runLater.sl.dma363 c i xt fh hrows) := load_second arg6 0 1 (by decide) rfl rfl rfl
theorem l_v2586 : runLater.sl.v2586 c i arg6 xt fh fs0 hrows = asRow (runLater.sl.dma366 c i xt fh hrows) := load_second arg6 1 0 (by decide) rfl rfl rfl
theorem l_v2607 : runLater.sl.v2607 c i arg6 xt fh fs0 hrows = asRow (runLater.sl.dma369 c i xt fh hrows) := load_second arg6 0 1 (by decide) rfl rfl rfl
theorem l_v2628 : runLater.sl.v2628 c i arg6 xt fh fs0 hrows = asRow (runLater.sl.dma372 c i xt fh hrows) := load_second arg6 1 0 (by decide) rfl rfl rfl
theorem l_v2649 : runLater.sl.v2649 c i arg6 xt fh fs0 hrows = asRow (runLater.sl.dma375 c i xt fh hrows) := load_second arg6 0 1 (by decide) rfl rfl rfl
theorem l_v2670 : runLater.sl.v2670 c i arg6 xt fh fs0 hrows = asRow (runLater.sl.dma378 c i xt fh hrows) := load_second arg6 1 0 (by decide) rfl rfl rfl
theorem l_v269 : runLater.sl.v269 c i arg6 xt fh fs0 hrows = asRow (runLater.sl.dma36 c i xt fh hrows) := load_second arg6 1 0 (by decide) rfl rfl rfl
theorem l_v2691 : runLater.sl.v2691 c i arg6 xt fh fs0 hrows = asRow (runLater.sl.dma381 c i xt fh hrows) := load_second arg6 0 1 (by decide) rfl rfl rfl
theorem l_v2702 : runLater.sl.v2702 c i arg6 xt fh fs0 hrows = asRow (runLater.sl.dma384 c i xt fh hrows) := load_top arg6 1 rfl rfl
theorem l_v290 : runLater.sl.v290 c i arg6 xt fh fs0 hrows = asRow (runLater.sl.dma39 c i xt fh hrows) := load_second arg6 0 1 (by decide) rfl rfl rfl
theorem l_v311 : runLater.sl.v311 c i arg6 xt fh fs0 hrows = asRow (runLater.sl.dma42 c i xt fh hrows) := load_second arg6 1 0 (by decide) rfl rfl rfl
theorem l_v332 : runLater.sl.v332 c i arg6 xt fh fs0 hrows = asRow (runLater.sl.dma45 c i xt fh hrows) := load_second arg6 0 1 (by decide) rfl rfl rfl
theorem l_v353 : runLater.sl.v353 c i arg6 xt fh fs0 hrows = asRow (runLater.sl.dma48 c i xt fh hrows) := load_second arg6 1 0 (by decide) rfl rfl rfl
theorem l_v375 : runLater.sl.v375 c i arg6 xt fh fs0 hrows = asRow (runLater.sl.dma51 c i xt fh hrows) := load_second arg6 0 1 (by decide) rfl rfl rfl
theorem l_v38 : runLater.sl.v38 c i arg6 xt fh fs0 hrows = asRow (runLater.sl.dma5 c i xt fh hrows) := load_second arg6 0 1 (by decide) rfl rfl rfl
theorem l_v396 : runLater.sl.v396 c i arg6 xt fh fs0 hrows = asRow (runLater.sl.dma54 c i xt fh hrows) := load_second arg6 1 0 (by decide) rfl rfl rfl
theorem l_v417 : runLater.sl.v417 c i arg6 xt fh fs0 hrows = asRow (runLater.sl.dma57 c i xt fh hrows) := load_second arg6 0 1 (by decide) rfl rfl rfl
theorem l_v438 : runLater.sl.v438 c i arg6 xt fh fs0 hrows = asRow (runLater.sl.dma60 c i xt fh hrows) := load_second arg6 1 0 (by decide) rfl rfl rfl
theorem l_v459 : runLater.sl.v459 c i arg6 xt fh fs0 hrows = asRow (runLater.sl.dma63 c i xt fh hrows) := load_second arg6 0 1 (by decide) rfl rfl rfl
theorem l_v480 : runLater.sl.v480 c i arg6 xt fh fs0 hrows = asRow (runLater.sl.dma66 c i xt fh hrows) := load_second arg6 1 0 (by decide) rfl rfl rfl
theorem l_v501 : runLater.sl.v501 c i arg6 xt fh fs0 hrows = asRow (runLater.sl.dma69 c i xt fh hrows) := load_second arg6 0 1 (by decide) rfl rfl rfl
theorem l_v522 : runLater.sl.v522 c i arg6 xt fh fs0 hrows = asRow (runLater.sl.dma72 c i xt fh hrows) := load_second arg6 1 0 (by decide) rfl rfl rfl
theorem l_v543 : runLater.sl.v543 c i arg6 xt fh fs0 hrows = asRow (runLater.sl.dma75 c i xt fh hrows) := load_second arg6 0 1 (by decide) rfl rfl rfl
theorem l_v564 : runLater.sl.v564 c i arg6 xt fh fs0 hrows = asRow (runLater.sl.dma78 c i xt fh hrows) := load_second arg6 1 0 (by decide) rfl rfl rfl
theorem l_v585 : runLater.sl.v585 c i arg6 xt fh fs0 hrows = asRow (runLater.sl.dma81 c i xt fh hrows) := load_second arg6 0 1 (by decide) rfl rfl rfl
theorem l_v59 : runLater.sl.v59 c i arg6 xt fh fs0 hrows = asRow (runLater.sl.dma6 c i xt fh hrows) := load_second arg6 1 0 (by decide) rfl rfl rfl
theorem l_v606 : runLater.sl.v606 c i arg6 xt fh fs0 hrows = asRow (runLater.sl.dma84 c i xt fh hrows) := load_second arg6 1 0 (by decide) rfl rfl rfl
theorem l_v627 : runLater.sl.v627 c i arg6 xt fh fs0 hrows = asRow (runLater.sl.dma87 c i xt fh hrows) := load_second arg6 0 1 (by decide) rfl rfl rfl
theorem l_v648 : runLater.sl.v648 c i arg6 xt fh fs0 hrows = asRow (runLater.sl.dma90 c i xt fh hrows) := load_second arg6 1 0 (by decide) rfl rfl rfl
theorem l_v669 : runLater.sl.v669 c i arg6 xt fh fs0 hrows = asRow (runLater.sl.dma93 c i xt fh hrows) := load_second arg6 0 1 (by decide) rfl rfl rfl
theorem l_v690 : runLater.sl.v690 c i arg6 xt fh fs0 hrows = asRow (runLater.sl.dma96 c i xt fh hrows) := load_second arg6 1 0 (by decide) rfl rfl rfl
theorem l_v712 : runLater.sl.v712 c i arg6 xt fh fs0 hrows = asRow (runLater.sl.dma99 c i xt fh hrows) := load_second arg6 0 1 (by decide) rfl rfl rfl
theorem l_v733 : runLater.sl.v733 c i arg6 xt fh fs0 hrows = asRow (runLater.sl.dma102 c i xt fh hrows) := load_second arg6 1 0 (by decide) rfl rfl rfl
theorem l_v754 : runLater.sl.v754 c i arg6 xt fh fs0 hrows = asRow (runLater.sl.dma105 c i xt fh hrows) := load_second arg6 0 1 (by decide) rfl rfl rfl
theorem l_v775 : runLater.sl.v775 c i arg6 xt fh fs0 hrows = asRow (runLater.sl.dma108 c i xt fh hrows) := load_second arg6 1 0 (by decide) rfl rfl rfl
theorem l_v796 : runLater.sl.v796 c i arg6 xt fh fs0 hrows = asRow (runLater.sl.dma111 c i xt fh hrows) := load_second arg6 0 1 (by decide) rfl rfl rfl
theorem l_v80 : runLater.sl.v80 c i arg6 xt fh fs0 hrows = asRow (runLater.sl.dma9 c i xt fh hrows) := load_second arg6 0 1 (by decide) rfl rfl rfl
theorem l_v817 : runLater.sl.v817 c i arg6 xt fh fs0 hrows = asRow (runLater.sl.dma114 c i xt fh hrows) := load_second arg6 1 0 (by decide) rfl rfl rfl
theorem l_v838 : runLater.sl.v838 c i arg6 xt fh fs0 hrows = asRow (runLater.sl.dma117 c i xt fh hrows) := load_second arg6 0 1 (by decide) rfl rfl rfl
theorem l_v859 : runLater.sl.v859 c i arg6 xt fh fs0 hrows = asRow (runLater.sl.dma120 c i xt fh hrows) := load_second arg6 1 0 (by decide) rfl rfl rfl
theorem l_v880 : runLater.sl.v880 c i arg6 xt fh fs0 hrows = asRow (runLater.sl.dma123 c i xt fh hrows) := load_second arg6 0 1 (by decide) rfl rfl rfl
theorem l_v901 : runLater.sl.v901 c i arg6 xt fh fs0 hrows = asRow (runLater.sl.dma126 c i xt fh hrows) := load_second arg6 1 0 (by decide) rfl rfl rfl
theorem l_v922 : runLater.sl.v922 c i arg6 xt fh fs0 hrows = asRow (runLater.sl.dma129 c i xt fh hrows) := load_second arg6 0 1 (by decide) rfl rfl rfl
theorem l_v943 : runLater.sl.v943 c i arg6 xt fh fs0 hrows = asRow (runLater.sl.dma132 c i xt fh hrows) := load_second arg6 1 0 (by decide) rfl rfl rfl
theorem l_v964 : runLater.sl.v964 c i arg6 xt fh fs0 hrows = asRow (runLater.sl.dma135 c i xt fh hrows) := load_second arg6 0 1 (by decide) rfl rfl rfl
theorem l_v985 : runLater.sl.v985 c i arg6 xt fh fs0 hrows = asRow (runLater.sl.dma138 c i xt fh hrows) := load_second arg6 1 0 (by decide) rfl rfl rfl
theorem e_r_111 : runLater.sl.r_111 c arg3 harg3 x0 = blockRow x0 3 := block_load arg3 harg3 3 rfl x0
theorem e_r_142 : runLater.sl.r_142 c arg3 harg3 x0 = blockRow x0 4 := block_load arg3 harg3 4 rfl x0
theorem e_r_179 : runLater.sl.r_179 c arg3 harg3 x0 = blockRow x0 5 := block_load arg3 harg3 5 rfl x0
theorem e_r_81 : runLater.sl.r_81 c arg3 harg3 x0 = blockRow x0 2 := block_load arg3 harg3 2 rfl x0
theorem row_0 : View.readAt (Elt F) arg3.view (Rect.unit (s := S8x512) ![0, 0] ![1, 512] inb_S8x512_S1x512_0_0).toLoadRect (harg3.unread x0) = blockRow x0 0 := block_load arg3 harg3 0 rfl x0
theorem row_0' : View.readAt (Elt F) arg3.view (Rect.unit (s := S8x512) ![0, 0] S1x512.size inb_S8x512_S1x512_0_0).toLoadRect (harg3.unread x0) = blockRow x0 0 := block_load arg3 harg3 0 rfl x0
theorem row_1 : View.readAt (Elt F) arg3.view (Rect.unit (s := S8x512) ![1, 0] ![1, 512] inb_S8x512_S1x512_1_0).toLoadRect (harg3.unread x0) = blockRow x0 1 := block_load arg3 harg3 1 rfl x0
theorem row_1' : View.readAt (Elt F) arg3.view (Rect.unit (s := S8x512) ![1, 0] S1x512.size inb_S8x512_S1x512_1_0).toLoadRect (harg3.unread x0) = blockRow x0 1 := block_load arg3 harg3 1 rfl x0
theorem row_2 : View.readAt (Elt F) arg3.view (Rect.unit (s := S8x512) ![2, 0] ![1, 512] inb_S8x512_S1x512_2_0).toLoadRect (harg3.unread x0) = blockRow x0 2 := block_load arg3 harg3 2 rfl x0
theorem row_2' : View.readAt (Elt F) arg3.view (Rect.unit (s := S8x512) ![2, 0] S1x512.size inb_S8x512_S1x512_2_0).toLoadRect (harg3.unread x0) = blockRow x0 2 := block_load arg3 harg3 2 rfl x0
theorem row_3 : View.readAt (Elt F) arg3.view (Rect.unit (s := S8x512) ![3, 0] ![1, 512] inb_S8x512_S1x512_3_0).toLoadRect (harg3.unread x0) = blockRow x0 3 := block_load arg3 harg3 3 rfl x0
theorem row_3' : View.readAt (Elt F) arg3.view (Rect.unit (s := S8x512) ![3, 0] S1x512.size inb_S8x512_S1x512_3_0).toLoadRect (harg3.unread x0) = blockRow x0 3 := block_load arg3 harg3 3 rfl x0
theorem row_4 : View.readAt (Elt F) arg3.view (Rect.unit (s := S8x512) ![4, 0] ![1, 512] inb_S8x512_S1x512_4_0).toLoadRect (harg3.unread x0) = blockRow x0 4 := block_load arg3 harg3 4 rfl x0
theorem row_4' : View.readAt (Elt F) arg3.view (Rect.unit (s := S8x512) ![4, 0] S1x512.size inb_S8x512_S1x512_4_0).toLoadRect (harg3.unread x0) = blockRow x0 4 := block_load arg3 harg3 4 rfl x0
theorem row_5 : View.readAt (Elt F) arg3.view (Rect.unit (s := S8x512) ![5, 0] ![1, 512] inb_S8x512_S1x512_5_0).toLoadRect (harg3.unread x0) = blockRow x0 5 := block_load arg3 harg3 5 rfl x0
theorem row_5' : View.readAt (Elt F) arg3.view (Rect.unit (s := S8x512) ![5, 0] S1x512.size inb_S8x512_S1x512_5_0).toLoadRect (harg3.unread x0) = blockRow x0 5 := block_load arg3 harg3 5 rfl x0
theorem row_6 : View.readAt (Elt F) arg3.view (Rect.unit (s := S8x512) ![6, 0] ![1, 512] inb_S8x512_S1x512_6_0).toLoadRect (harg3.unread x0) = blockRow x0 6 := block_load arg3 harg3 6 rfl x0
theorem row_6' : View.readAt (Elt F) arg3.view (Rect.unit (s := S8x512) ![6, 0] S1x512.size inb_S8x512_S1x512_6_0).toLoadRect (harg3.unread x0) = blockRow x0 6 := block_load arg3 harg3 6 rfl x0
theorem row_7 : View.readAt (Elt F) arg3.view (Rect.unit (s := S8x512) ![7, 0] ![1, 512] inb_S8x512_S1x512_7_0).toLoadRect (harg3.unread x0) = blockRow x0 7 := block_load arg3 harg3 7 rfl x0
theorem row_7' : View.readAt (Elt F) arg3.view (Rect.unit (s := S8x512) ![7, 0] S1x512.size inb_S8x512_S1x512_7_0).toLoadRect (harg3.unread x0) = blockRow x0 7 := block_load arg3 harg3 7 rfl x0
theorem e_r_3 : runLater.sl.r_3 c i arg3 harg3 arg6 xt x0 fh fs0 hrows = pmax (blockRow x0 0) (asRow (arrRow c fh (word c i xt (xfer 0 0)) (word_lt c i xt hrows (xfer 0 0)))) := by
  unfold runLater.sl.r_3
  simp only [pay5_eq, row_0, row_0', l_v38, d_dma5]
theorem e_r_4 : runLater.sl.r_4 c i arg3 harg3 arg6 xt x0 fh fs0 hrows = addf (blockRow x0 0) (asRow (arrRow c fh (word c i xt (xfer 0 1)) (word_lt c i xt hrows (xfer 0 1)))) := by
  unfold runLater.sl.r_4
  simp only [pay6_eq, row_0, row_0', l_v59, d_dma6]
theorem e_r_7 : runLater.sl.r_7 c i arg3 harg3 arg6 xt x0 fh fs0 hrows = pmax (blockRow x0 0) (asRow (arrRow c fh (word c i xt (xfer 0 1)) (word_lt c i xt hrows (xfer 0 1)))) := by
  unfold runLater.sl.r_7
  simp only [pay7_eq, e_r_4, smax_addf]
theorem e_r_8 : runLater.sl.r_8 c i arg3 harg3 arg6 xt x0 fh fs0 hrows = pmax (blockRow x0 0) (asRow (arrRow c fh (word c i xt (xfer 0 2)) (word_lt c i xt hrows (xfer 0 2)))) := by
  unfold runLater.sl.r_8
  simp only [pay8_eq, row_0, row_0', l_v80, d_dma9]
theorem e_r_10 : runLater.sl.r_10 c i arg3 harg3 arg6 xt x0 fh fs0 hrows = pmax (blockRow x0 0) (asRow (arrRow c fh (word c i xt (xfer 0 3)) (word_lt c i xt hrows (xfer 0 3)))) := by
  unfold runLater.sl.r_10
  simp only [pay9_eq, row_0, row_0', l_v101, d_dma12]
theorem e_r_11 : runLater.sl.r_11 c i arg3 harg3 arg6 xt x0 fh fs0 hrows = addf (blockRow x0 0) (asRow (arrRow c fh (word c i xt (xfer 0 4)) (word_lt c i xt hrows (xfer 0 4)))) := by
  unfold runLater.sl.r_11
  simp only [pay10_eq, row_0, row_0', l_v122, d_dma15]
theorem e_r_14 : runLater.sl.r_14 c i arg3 harg3 arg6 xt x0 fh fs0 hrows = pmax (blockRow x0 0) (asRow (arrRow c fh (word c i xt (xfer 0 4)) (word_lt c i xt hrows (xfer 0 4)))) := by
  unfold runLater.sl.r_14
  simp only [pay11_eq, e_r_11, smax_addf]
theorem e_r_15 : runLater.sl.r_15 c i arg3 harg3 arg6 xt x0 fh fs0 hrows = pmax (blockRow x0 0) (asRow (arrRow c fh (word c i xt (xfer 0 5)) (word_lt c i xt hrows (xfer 0 5)))) := by
  unfold runLater.sl.r_15
  simp only [pay12_eq, row_0, row_0', l_v143, d_dma18]
theorem e_r_17 : runLater.sl.r_17 c i arg3 harg3 arg6 xt x0 fh fs0 hrows = pmax (blockRow x0 0) (asRow (arrRow c fh (word c i xt (xfer 0 6)) (word_lt c i xt hrows (xfer 0 6)))) := by
  unfold runLater.sl.r_17
  simp only [pay13_eq, row_0, row_0', l_v164, d_dma21]
theorem e_r_18 : runLater.sl.r_18 c i arg3 harg3 arg6 xt x0 fh fs0 hrows = addf (blockRow x0 0) (asRow (arrRow c fh (word c i xt (xfer 0 7)) (word_lt c i xt hrows (xfer 0 7)))) := by
  unfold runLater.sl.r_18
  simp only [pay14_eq, row_0, row_0', l_v185, d_dma24]
theorem e_r_21 : runLater.sl.r_21 c i arg3 harg3 arg6 xt x0 fh fs0 hrows = pmax (blockRow x0 0) (asRow (arrRow c fh (word c i xt (xfer 0 7)) (word_lt c i xt hrows (xfer 0 7)))) := by
  unfold runLater.sl.r_21
  simp only [pay15_eq, e_r_18, smax_addf]
theorem e_r_22 : runLater.sl.r_22 c i arg3 harg3 arg6 xt x0 fh fs0 hrows = pmax (blockRow x0 0) (asRow (arrRow c fh (word c i xt (xfer 0 8)) (word_lt c i xt hrows (xfer 0 8)))) := by
  unfold runLater.sl.r_22
  simp only [pay16_eq, row_0, row_0', l_v206, d_dma27]
theorem e_r_24 : runLater.sl.r_24 c i arg3 harg3 arg6 xt x0 fh fs0 hrows = pmax (blockRow x0 0) (asRow (arrRow c fh (word c i xt (xfer 0 9)) (word_lt c i xt hrows (xfer 0 9)))) := by
  unfold runLater.sl.r_24
  simp only [pay17_eq, row_0, row_0', l_v227, d_dma30]
theorem e_r_25 : runLater.sl.r_25 c i arg3 harg3 arg6 xt x0 fh fs0 hrows = addf (blockRow x0 0) (asRow (arrRow c fh (word c i xt (xfer 0 10)) (word_lt c i xt hrows (xfer 0 10)))) := by
  unfold runLater.sl.r_25
  simp only [pay18_eq, row_0, row_0', l_v248, d_dma33]
theorem e_r_28 : runLater.sl.r_28 c i arg3 harg3 arg6 xt x0 fh fs0 hrows = pmax (blockRow x0 0) (asRow (arrRow c fh (word c i xt (xfer 0 10)) (word_lt c i xt hrows (xfer 0 10)))) := by
  unfold runLater.sl.r_28
  simp only [pay19_eq, e_r_25, smax_addf]
theorem e_r_29 : runLater.sl.r_29 c i arg3 harg3 arg6 xt x0 fh fs0 hrows = pmax (blockRow x0 0) (asRow (arrRow c fh (word c i xt (xfer 0 11)) (word_lt c i xt hrows (xfer 0 11)))) := by
  unfold runLater.sl.r_29
  simp only [pay20_eq, row_0, row_0', l_v269, d_dma36]
theorem e_r_31 : runLater.sl.r_31 c i arg3 harg3 arg6 xt x0 fh fs0 hrows = pmax (blockRow x0 0) (asRow (arrRow c fh (word c i xt (xfer 0 12)) (word_lt c i xt hrows (xfer 0 12)))) := by
  unfold runLater.sl.r_31
  simp only [pay21_eq, row_0, row_0', l_v290, d_dma39]
theorem e_r_32 : runLater.sl.r_32 c i arg3 harg3 arg6 xt x0 fh fs0 hrows = addf (blockRow x0 0) (asRow (arrRow c fh (word c i xt (xfer 0 13)) (word_lt c i xt hrows (xfer 0 13)))) := by
  unfold runLater.sl.r_32
  simp only [pay22_eq, row_0, row_0', l_v311, d_dma42]
theorem e_r_35 : runLater.sl.r_35 c i arg3 harg3 arg6 xt x0 fh fs0 hrows = pmax (blockRow x0 0) (asRow (arrRow c fh (word c i xt (xfer 0 13)) (word_lt c i xt hrows (xfer 0 13)))) := by
  unfold runLater.sl.r_35
  simp only [pay23_eq, e_r_32, smax_addf]
theorem e_r_36 : runLater.sl.r_36 c i arg3 harg3 arg6 xt x0 fh fs0 hrows = pmax (blockRow x0 0) (asRow (arrRow c fh (word c i xt (xfer 0 14)) (word_lt c i xt hrows (xfer 0 14)))) := by
  unfold runLater.sl.r_36
  simp only [pay24_eq, row_0, row_0', l_v332, d_dma45]
theorem e_r_38 : runLater.sl.r_38 c i arg3 harg3 arg6 xt x0 fh fs0 hrows = row16 fun k => pmax (blockRow x0 0) (asRow (arrRow c fh (word c i xt (xfer 0 k)) (word_lt c i xt hrows (xfer 0 k)))) := by
  unfold runLater.sl.r_38
  simp only [pay25_eq, e_r_3, e_r_7, e_r_8, e_r_10, e_r_14, e_r_15, e_r_17, e_r_21, e_r_22, e_r_24, e_r_28, e_r_29, e_r_31, e_r_35, e_r_36, row_0, row_0', l_v353, d_dma48]
  exact congrArg row16 (funext fun k => by fin_cases k <;> rfl)
theorem e_r_39 : runLater.sl.r_39 c i arg3 harg3 arg6 xt x0 fh fs0 hrows = addf (blockRow x0 1) (asRow (arrRow c fh (word c i xt (xfer 1 0)) (word_lt c i xt hrows (xfer 1 0)))) := by
  unfold runLater.sl.r_39
  simp only [pay26_eq, row_1, row_1', l_v375, d_dma51]
theorem e_r_41 : runLater.sl.r_41 c i arg3 harg3 arg6 xt x0 fh fs0 hrows = pmax (blockRow x0 1) (asRow (arrRow c fh (word c i xt (xfer 1 0)) (word_lt c i xt hrows (xfer 1 0)))) := by
  unfold runLater.sl.r_41
  simp only [pay27_eq, e_r_39, smax_addf]
theorem e_r_42 : runLater.sl.r_42 c i arg3 harg3 arg6 xt x0 fh fs0 hrows = pmax (blockRow x0 1) (asRow (arrRow c fh (word c i xt (xfer 1 1)) (word_lt c i xt hrows (xfer 1 1)))) := by
  unfold runLater.sl.r_42
  simp only [pay28_eq, row_1, row_1', l_v396, d_dma54]
theorem e_r_45 : runLater.sl.r_45 c i arg3 harg3 arg6 xt x0 fh fs0 hrows = pmax (blockRow x0 1) (asRow (arrRow c fh (word c i xt (xfer 1 2)) (word_lt c i xt hrows (xfer 1 2)))) := by
  unfold runLater.sl.r_45
  simp only [pay29_eq, row_1, row_1', l_v417, d_dma57]
theorem e_r_46 : runLater.sl.r_46 c i arg3 harg3 arg6 xt x0 fh fs0 hrows = addf (blockRow x0 1) (asRow (arrRow c fh (word c i xt (xfer 1 3)) (word_lt c i xt hrows (xfer 1 3)))) := by
  unfold runLater.sl.r_46
  simp only [pay30_eq, row_1, row_1', l_v438, d_dma60]
theorem e_r_48 : runLater.sl.r_48 c i arg3 harg3 arg6 xt x0 fh fs0 hrows = pmax (blockRow x0 1) (asRow (arrRow c fh (word c i xt (xfer 1 3)) (word_lt c i xt hrows (xfer 1 3)))) := by
  unfold runLater.sl.r_48
  simp only [pay31_eq, e_r_46, smax_addf]
theorem e_r_49 : runLater.sl.r_49 c i arg3 harg3 arg6 xt x0 fh fs0 hrows = pmax (blockRow x0 1) (asRow (arrRow c fh (word c i xt (xfer 1 4)) (word_lt c i xt hrows (xfer 1 4)))) := by
  unfold runLater.sl.r_49
  simp only [pay32_eq, row_1, row_1', l_v459, d_dma63]
theorem e_r_52 : runLater.sl.r_52 c i arg3 harg3 arg6 xt x0 fh fs0 hrows = pmax (blockRow x0 1) (asRow (arrRow c fh (word c i xt (xfer 1 5)) (word_lt c i xt hrows (xfer 1 5)))) := by
  unfold runLater.sl.r_52
  simp only [pay33_eq, row_1, row_1', l_v480, d_dma66]
theorem e_r_53 : runLater.sl.r_53 c i arg3 harg3 arg6 xt x0 fh fs0 hrows = addf (blockRow x0 1) (asRow (arrRow c fh (word c i xt (xfer 1 6)) (word_lt c i xt hrows (xfer 1 6)))) := by
  unfold runLater.sl.r_53
  simp only [pay34_eq, row_1, row_1', l_v501, d_dma69]
theorem e_r_55 : runLater.sl.r_55 c i arg3 harg3 arg6 xt x0 fh fs0 hrows = pmax (blockRow x0 1) (asRow (arrRow c fh (word c i xt (xfer 1 6)) (word_lt c i xt hrows (xfer 1 6)))) := by
  unfold runLater.sl.r_55
  simp only [pay35_eq, e_r_53, smax_addf]
theorem e_r_56 : runLater.sl.r_56 c i arg3 harg3 arg6 xt x0 fh fs0 hrows = pmax (blockRow x0 1) (asRow (arrRow c fh (word c i xt (xfer 1 7)) (word_lt c i xt hrows (xfer 1 7)))) := by
  unfold runLater.sl.r_56
  simp only [pay36_eq, row_1, row_1', l_v522, d_dma72]
theorem e_r_59 : runLater.sl.r_59 c i arg3 harg3 arg6 xt x0 fh fs0 hrows = pmax (blockRow x0 1) (asRow (arrRow c fh (word c i xt (xfer 1 8)) (word_lt c i xt hrows (xfer 1 8)))) := by
  unfold runLater.sl.r_59
  simp only [pay37_eq, row_1, row_1', l_v543, d_dma75]
theorem e_r_60 : runLater.sl.r_60 c i arg3 harg3 arg6 xt x0 fh fs0 hrows = addf (blockRow x0 1) (asRow (arrRow c fh (word c i xt (xfer 1 9)) (word_lt c i xt hrows (xfer 1 9)))) := by
  unfold runLater.sl.r_60
  simp only [pay38_eq, row_1, row_1', l_v564, d_dma78]
theorem e_r_62 : runLater.sl.r_62 c i arg3 harg3 arg6 xt x0 fh fs0 hrows = pmax (blockRow x0 1) (asRow (arrRow c fh (word c i xt (xfer 1 9)) (word_lt c i xt hrows (xfer 1 9)))) := by
  unfold runLater.sl.r_62
  simp only [pay39_eq, e_r_60, smax_addf]
theorem e_r_63 : runLater.sl.r_63 c i arg3 harg3 arg6 xt x0 fh fs0 hrows = pmax (blockRow x0 1) (asRow (arrRow c fh (word c i xt (xfer 1 10)) (word_lt c i xt hrows (xfer 1 10)))) := by
  unfold runLater.sl.r_63
  simp only [pay40_eq, row_1, row_1', l_v585, d_dma81]
theorem e_r_66 : runLater.sl.r_66 c i arg3 harg3 arg6 xt x0 fh fs0 hrows = pmax (blockRow x0 1) (asRow (arrRow c fh (word c i xt (xfer 1 11)) (word_lt c i xt hrows (xfer 1 11)))) := by
  unfold runLater.sl.r_66
  simp only [pay41_eq, row_1, row_1', l_v606, d_dma84]
theorem e_r_67 : runLater.sl.r_67 c i arg3 harg3 arg6 xt x0 fh fs0 hrows = addf (blockRow x0 1) (asRow (arrRow c fh (word c i xt (xfer 1 12)) (word_lt c i xt hrows (xfer 1 12)))) := by
  unfold runLater.sl.r_67
  simp only [pay42_eq, row_1, row_1', l_v627, d_dma87]
theorem e_r_69 : runLater.sl.r_69 c i arg3 harg3 arg6 xt x0 fh fs0 hrows = pmax (blockRow x0 1) (asRow (arrRow c fh (word c i xt (xfer 1 12)) (word_lt c i xt hrows (xfer 1 12)))) := by
  unfold runLater.sl.r_69
  simp only [pay43_eq, e_r_67, smax_addf]
theorem e_r_70 : runLater.sl.r_70 c i arg3 harg3 arg6 xt x0 fh fs0 hrows = pmax (blockRow x0 1) (asRow (arrRow c fh (word c i xt (xfer 1 13)) (word_lt c i xt hrows (xfer 1 13)))) := by
  unfold runLater.sl.r_70
  simp only [pay44_eq, row_1, row_1', l_v648, d_dma90]
theorem e_r_73 : runLater.sl.r_73 c i arg3 harg3 arg6 xt x0 fh fs0 hrows = pmax (blockRow x0 1) (asRow (arrRow c fh (word c i xt (xfer 1 14)) (word_lt c i xt hrows (xfer 1 14)))) := by
  unfold runLater.sl.r_73
  simp only [pay45_eq, row_1, row_1', l_v669, d_dma93]
theorem e_r_74 : runLater.sl.r_74 c i arg3 harg3 arg6 xt x0 fh fs0 hrows = addf (blockRow x0 1) (asRow (arrRow c fh (word c i xt (xfer 1 15)) (word_lt c i xt hrows (xfer 1 15)))) := by
  unfold runLater.sl.r_74
  simp only [pay46_eq, row_1, row_1', l_v690, d_dma96]
theorem e_r_76 : runLater.sl.r_76 c i arg3 harg3 arg6 xt x0 fh fs0 hrows = row16 fun k => pmax (blockRow x0 1) (asRow (arrRow c fh (word c i xt (xfer 1 k)) (word_lt c i xt hrows (xfer 1 k)))) := by
  unfold runLater.sl.r_76
  simp only [pay47_eq, e_r_41, e_r_42, e_r_45, e_r_48, e_r_49, e_r_52, e_r_55, e_r_56, e_r_59, e_r_62, e_r_63, e_r_66, e_r_69, e_r_70, e_r_73, e_r_74, smax_addf]
  exact congrArg row16 (funext fun k => by fin_cases k <;> rfl)
theorem e_r_77 : runLater.sl.r_77 c i arg3 harg3 arg6 xt x0 fh fs0 hrows = pmax (blockRow x0 2) (asRow (arrRow c fh (word c i xt (xfer 2 0)) (word_lt c i xt hrows (xfer 2 0)))) := by
  unfold runLater.sl.r_77
  simp only [pay48_eq, row_2, row_2', l_v712, d_dma99]
theorem e_r_80 : runLater.sl.r_80 c i arg3 harg3 arg6 xt x0 fh fs0 hrows = pmax (blockRow x0 2) (asRow (arrRow c fh (word c i xt (xfer 2 1)) (word_lt c i xt hrows (xfer 2 1)))) := by
  unfold runLater.sl.r_80
  simp only [pay49_eq, row_2, row_2', l_v733, d_dma102]
theorem e_r_83 : runLater.sl.r_83 c i arg3 harg3 arg6 xt x0 fh fs0 hrows = pmax (blockRow x0 2) (asRow (arrRow c fh (word c i xt (xfer 2 2)) (word_lt c i xt hrows (xfer 2 2)))) := by
  unfold runLater.sl.r_83
  simp only [pay50_eq, e_r_81, l_v754, d_dma105]
theorem e_r_84 : runLater.sl.r_84 c i arg3 harg3 arg6 xt x0 fh fs0 hrows = pmax (blockRow x0 2) (asRow (arrRow c fh (word c i xt (xfer 2 3)) (word_lt c i xt hrows (xfer 2 3)))) := by
  unfold runLater.sl.r_84
  simp only [pay51_eq, row_2, row_2', l_v775, d_dma108]
theorem e_r_87 : runLater.sl.r_87 c i arg3 harg3 arg6 xt x0 fh fs0 hrows = pmax (blockRow x0 2) (asRow (arrRow c fh (word c i xt (xfer 2 4)) (word_lt c i xt hrows (xfer 2 4)))) := by
  unfold runLater.sl.r_87
  simp only [pay52_eq, row_2, row_2', l_v796, d_dma111]
theorem e_r_89 : runLater.sl.r_89 c i arg3 harg3 arg6 xt x0 fh fs0 hrows = pmax (blockRow x0 2) (asRow (arrRow c fh (word c i xt (xfer 2 5)) (word_lt c i xt hrows (xfer 2 5)))) := by
  unfold runLater.sl.r_89
  simp only [pay53_eq, e_r_81, l_v817, d_dma114]
theorem e_r_90 : runLater.sl.r_90 c i arg3 harg3 arg6 xt x0 fh fs0 hrows = pmax (blockRow x0 2) (asRow (arrRow c fh (word c i xt (xfer 2 6)) (word_lt c i xt hrows (xfer 2 6)))) := by
  unfold runLater.sl.r_90
  simp only [pay54_eq, row_2, row_2', l_v838, d_dma117]
theorem e_r_93 : runLater.sl.r_93 c i arg3 harg3 arg6 xt x0 fh fs0 hrows = pmax (blockRow x0 2) (asRow (arrRow c fh (word c i xt (xfer 2 7)) (word_lt c i xt hrows (xfer 2 7)))) := by
  unfold runLater.sl.r_93
  simp only [pay55_eq, row_2, row_2', l_v859, d_dma120]
theorem e_r_95 : runLater.sl.r_95 c i arg3 harg3 arg6 xt x0 fh fs0 hrows = pmax (blockRow x0 2) (asRow (arrRow c fh (word c i xt (xfer 2 8)) (word_lt c i xt hrows (xfer 2 8)))) := by
  unfold runLater.sl.r_95
  simp only [pay56_eq, e_r_81, l_v880, d_dma123]
theorem e_r_96 : runLater.sl.r_96 c i arg3 harg3 arg6 xt x0 fh fs0 hrows = pmax (blockRow x0 2) (asRow (arrRow c fh (word c i xt (xfer 2 9)) (word_lt c i xt hrows (xfer 2 9)))) := by
  unfold runLater.sl.r_96
  simp only [pay57_eq, row_2, row_2', l_v901, d_dma126]
theorem e_r_99 : runLater.sl.r_99 c i arg3 harg3 arg6 xt x0 fh fs0 hrows = pmax (blockRow x0 2) (asRow (arrRow c fh (word c i xt (xfer 2 10)) (word_lt c i xt hrows (xfer 2 10)))) := by
  unfold runLater.sl.r_99
  simp only [pay58_eq, row_2, row_2', l_v922, d_dma129]
theorem e_r_101 : runLater.sl.r_101 c i arg3 harg3 arg6 xt x0 fh fs0 hrows = pmax (blockRow x0 2) (asRow (arrRow c fh (word c i xt (xfer 2 11)) (word_lt c i xt hrows (xfer 2 11)))) := by
  unfold runLater.sl.r_101
  simp only [pay59_eq, e_r_81, l_v943, d_dma132]
theorem e_r_102 : runLater.sl.r_102 c i arg3 harg3 arg6 xt x0 fh fs0 hrows = pmax (blockRow x0 2) (asRow (arrRow c fh (word c i xt (xfer 2 12)) (word_lt c i xt hrows (xfer 2 12)))) := by
  unfold runLater.sl.r_102
  simp only [pay60_eq, row_2, row_2', l_v964, d_dma135]
theorem e_r_105 : runLater.sl.r_105 c i arg3 harg3 arg6 xt x0 fh fs0 hrows = pmax (blockRow x0 2) (asRow (arrRow c fh (word c i xt (xfer 2 13)) (word_lt c i xt hrows (xfer 2 13)))) := by
  unfold runLater.sl.r_105
  simp only [pay61_eq, row_2, row_2', l_v985, d_dma138]
theorem e_r_107 : runLater.sl.r_107 c i arg3 harg3 arg6 xt x0 fh fs0 hrows = row16 fun k => pmax (blockRow x0 2) (asRow (arrRow c fh (word c i xt (xfer 2 k)) (word_lt c i xt hrows (xfer 2 k)))) := by
  unfold runLater.sl.r_107
  simp only [pay62_eq, e_r_77, e_r_80, e_r_83, e_r_84, e_r_87, e_r_89, e_r_90, e_r_93, e_r_95, e_r_96, e_r_99, e_r_101, e_r_102, e_r_105, e_r_81, l_v1006, d_dma141, row_2, row_2', l_v1027, d_dma144]
  exact congrArg row16 (funext fun k => by fin_cases k <;> rfl)
theorem e_r_110 : runLater.sl.r_110 c i arg3 harg3 arg6 xt x0 fh fs0 hrows = pmax (blockRow x0 3) (asRow (arrRow c fh (word c i xt (xfer 3 0)) (word_lt c i xt hrows (xfer 3 0)))) := by
  unfold runLater.sl.r_110
  simp only [pay63_eq, row_3, row_3', l_v1049, d_dma147]
theorem e_r_113 : runLater.sl.r_113 c i arg3 harg3 arg6 xt x0 fh fs0 hrows = pmax (blockRow x0 3) (asRow (arrRow c fh (word c i xt (xfer 3 1)) (word_lt c i xt hrows (xfer 3 1)))) := by
  unfold runLater.sl.r_113
  simp only [pay64_eq, e_r_111, l_v1070, d_dma150]
theorem e_r_114 : runLater.sl.r_114 c i arg3 harg3 arg6 xt x0 fh fs0 hrows = pmax (blockRow x0 3) (asRow (arrRow c fh (word c i xt (xfer 3 2)) (word_lt c i xt hrows (xfer 3 2)))) := by
  unfold runLater.sl.r_114
  simp only [pay65_eq, row_3, row_3', l_v1091, d_dma153]
theorem e_r_117 : runLater.sl.r_117 c i arg3 harg3 arg6 xt x0 fh fs0 hrows = pmax (blockRow x0 3) (asRow (arrRow c fh (word c i xt (xfer 3 3)) (word_lt c i xt hrows (xfer 3 3)))) := by
  unfold runLater.sl.r_117
  simp only [pay66_eq, row_3, row_3', l_v1112, d_dma156]
theorem e_r_119 : runLater.sl.r_119 c i arg3 harg3 arg6 xt x0 fh fs0 hrows = pmax (blockRow x0 3) (asRow (arrRow c fh (word c i xt (xfer 3 4)) (word_lt c i xt hrows (xfer 3 4)))) := by
  unfold runLater.sl.r_119
  simp only [pay67_eq, e_r_111, l_v1133, d_dma159]
theorem e_r_120 : runLater.sl.r_120 c i arg3 harg3 arg6 xt x0 fh fs0 hrows = pmax (blockRow x0 3) (asRow (arrRow c fh (word c i xt (xfer 3 5)) (word_lt c i xt hrows (xfer 3 5)))) := by
  unfold runLater.sl.r_120
  simp only [pay68_eq, row_3, row_3', l_v1154, d_dma162]
theorem e_r_123 : runLater.sl.r_123 c i arg3 harg3 arg6 xt x0 fh fs0 hrows = pmax (blockRow x0 3) (asRow (arrRow c fh (word c i xt (xfer 3 6)) (word_lt c i xt hrows (xfer 3 6)))) := by
  unfold runLater.sl.r_123
  simp only [pay69_eq, row_3, row_3', l_v1175, d_dma165]
theorem e_r_125 : runLater.sl.r_125 c i arg3 harg3 arg6 xt x0 fh fs0 hrows = pmax (blockRow x0 3) (asRow (arrRow c fh (word c i xt (xfer 3 7)) (word_lt c i xt hrows (xfer 3 7)))) := by
  unfold runLater.sl.r_125
  simp only [pay70_eq, e_r_111, l_v1196, d_dma168]
theorem e_r_126 : runLater.sl.r_126 c i arg3 harg3 arg6 xt x0 fh fs0 hrows = pmax (blockRow x0 3) (asRow (arrRow c fh (word c i xt (xfer 3 8)) (word_lt c i xt hrows (xfer 3 8)))) := by
  unfold runLater.sl.r_126
  simp only [pay71_eq, row_3, row_3', l_v1217, d_dma171]
theorem e_r_129 : runLater.sl.r_129 c i arg3 harg3 arg6 xt x0 fh fs0 hrows = pmax (blockRow x0 3) (asRow (arrRow c fh (word c i xt (xfer 3 9)) (word_lt c i xt hrows (xfer 3 9)))) := by
  unfold runLater.sl.r_129
  simp only [pay72_eq, row_3, row_3', l_v1238, d_dma174]
theorem e_r_131 : runLater.sl.r_131 c i arg3 harg3 arg6 xt x0 fh fs0 hrows = pmax (blockRow x0 3) (asRow (arrRow c fh (word c i xt (xfer 3 10)) (word_lt c i xt hrows (xfer 3 10)))) := by
  unfold runLater.sl.r_131
  simp only [pay73_eq, e_r_111, l_v1259, d_dma177]
theorem e_r_132 : runLater.sl.r_132 c i arg3 harg3 arg6 xt x0 fh fs0 hrows = pmax (blockRow x0 3) (asRow (arrRow c fh (word c i xt (xfer 3 11)) (word_lt c i xt hrows (xfer 3 11)))) := by
  unfold runLater.sl.r_132
  simp only [pay74_eq, row_3, row_3', l_v1280, d_dma180]
theorem e_r_135 : runLater.sl.r_135 c i arg3 harg3 arg6 xt x0 fh fs0 hrows = pmax (blockRow x0 3) (asRow (arrRow c fh (word c i xt (xfer 3 12)) (word_lt c i xt hrows (xfer 3 12)))) := by
  unfold runLater.sl.r_135
  simp only [pay75_eq, row_3, row_3', l_v1301, d_dma183]
theorem e_r_137 : runLater.sl.r_137 c i arg3 harg3 arg6 xt x0 fh fs0 hrows = pmax (blockRow x0 3) (asRow (arrRow c fh (word c i xt (xfer 3 13)) (word_lt c i xt hrows (xfer 3 13)))) := by
  unfold runLater.sl.r_137
  simp only [pay76_eq, e_r_111, l_v1322, d_dma186]
theorem e_r_138 : runLater.sl.r_138 c i arg3 harg3 arg6 xt x0 fh fs0 hrows = pmax (blockRow x0 3) (asRow (arrRow c fh (word c i xt (xfer 3 14)) (word_lt c i xt hrows (xfer 3 14)))) := by
  unfold runLater.sl.r_138
  simp only [pay77_eq, row_3, row_3', l_v1343, d_dma189]
theorem e_r_141 : runLater.sl.r_141 c i arg3 harg3 arg6 xt x0 fh fs0 hrows = row16 fun k => pmax (blockRow x0 3) (asRow (arrRow c fh (word c i xt (xfer 3 k)) (word_lt c i xt hrows (xfer 3 k)))) := by
  unfold runLater.sl.r_141
  simp only [pay78_eq, e_r_110, e_r_113, e_r_114, e_r_117, e_r_119, e_r_120, e_r_123, e_r_125, e_r_126, e_r_129, e_r_131, e_r_132, e_r_135, e_r_137, e_r_138, row_3, row_3', l_v1364, d_dma192]
  exact congrArg row16 (funext fun k => by fin_cases k <;> rfl)
theorem e_r_144 : runLater.sl.r_144 c i arg3 harg3 arg6 xt x0 fh fs0 hrows = pmax (blockRow x0 4) (asRow (arrRow c fh (word c i xt (xfer 4 0)) (word_lt c i xt hrows (xfer 4 0)))) := by
  unfold runLater.sl.r_144
  simp only [pay79_eq, e_r_142, l_v1386, d_dma195]
theorem e_r_145 : runLater.sl.r_145 c i arg3 harg3 arg6 xt x0 fh fs0 hrows = pmax (blockRow x0 4) (asRow (arrRow c fh (word c i xt (xfer 4 1)) (word_lt c i xt hrows (xfer 4 1)))) := by
  unfold runLater.sl.r_145
  simp only [pay80_eq, row_4, row_4', l_v1407, d_dma198]
theorem e_r_148 : runLater.sl.r_148 c i arg3 harg3 arg6 xt x0 fh fs0 hrows = pmax (blockRow x0 4) (asRow (arrRow c fh (word c i xt (xfer 4 2)) (word_lt c i xt hrows (xfer 4 2)))) := by
  unfold runLater.sl.r_148
  simp only [pay81_eq, row_4, row_4', l_v1428, d_dma201]
theorem e_r_150 : runLater.sl.r_150 c i arg3 harg3 arg6 xt x0 fh fs0 hrows = pmax (blockRow x0 4) (asRow (arrRow c fh (word c i xt (xfer 4 3)) (word_lt c i xt hrows (xfer 4 3)))) := by
  unfold runLater.sl.r_150
  simp only [pay82_eq, e_r_142, l_v1449, d_dma204]
theorem e_r_151 : runLater.sl.r_151 c i arg3 harg3 arg6 xt x0 fh fs0 hrows = pmax (blockRow x0 4) (asRow (arrRow c fh (word c i xt (xfer 4 4)) (word_lt c i xt hrows (xfer 4 4)))) := by
  unfold runLater.sl.r_151
  simp only [pay83_eq, row_4, row_4', l_v1470, d_dma207]
theorem e_r_154 : runLater.sl.r_154 c i arg3 harg3 arg6 xt x0 fh fs0 hrows = pmax (blockRow x0 4) (asRow (arrRow c fh (word c i xt (xfer 4 5)) (word_lt c i xt hrows (xfer 4 5)))) := by
  unfold runLater.sl.r_154
  simp only [pay84_eq, row_4, row_4', l_v1491, d_dma210]
theorem e_r_156 : runLater.sl.r_156 c i arg3 harg3 arg6 xt x0 fh fs0 hrows = pmax (blockRow x0 4) (asRow (arrRow c fh (word c i xt (xfer 4 6)) (word_lt c i xt hrows (xfer 4 6)))) := by
  unfold runLater.sl.r_156
  simp only [pay85_eq, e_r_142, l_v1512, d_dma213]
theorem e_r_157 : runLater.sl.r_157 c i arg3 harg3 arg6 xt x0 fh fs0 hrows = pmax (blockRow x0 4) (asRow (arrRow c fh (word c i xt (xfer 4 7)) (word_lt c i xt hrows (xfer 4 7)))) := by
  unfold runLater.sl.r_157
  simp only [pay86_eq, row_4, row_4', l_v1533, d_dma216]
theorem e_r_160 : runLater.sl.r_160 c i arg3 harg3 arg6 xt x0 fh fs0 hrows = pmax (blockRow x0 4) (asRow (arrRow c fh (word c i xt (xfer 4 8)) (word_lt c i xt hrows (xfer 4 8)))) := by
  unfold runLater.sl.r_160
  simp only [pay87_eq, row_4, row_4', l_v1554, d_dma219]
theorem e_r_162 : runLater.sl.r_162 c i arg3 harg3 arg6 xt x0 fh fs0 hrows = pmax (blockRow x0 4) (asRow (arrRow c fh (word c i xt (xfer 4 9)) (word_lt c i xt hrows (xfer 4 9)))) := by
  unfold runLater.sl.r_162
  simp only [pay88_eq, e_r_142, l_v1575, d_dma222]
theorem e_r_163 : runLater.sl.r_163 c i arg3 harg3 arg6 xt x0 fh fs0 hrows = pmax (blockRow x0 4) (asRow (arrRow c fh (word c i xt (xfer 4 10)) (word_lt c i xt hrows (xfer 4 10)))) := by
  unfold runLater.sl.r_163
  simp only [pay89_eq, row_4, row_4', l_v1596, d_dma225]
theorem e_r_166 : runLater.sl.r_166 c i arg3 harg3 arg6 xt x0 fh fs0 hrows = pmax (blockRow x0 4) (asRow (arrRow c fh (word c i xt (xfer 4 11)) (word_lt c i xt hrows (xfer 4 11)))) := by
  unfold runLater.sl.r_166
  simp only [pay90_eq, row_4, row_4', l_v1617, d_dma228]
theorem e_r_168 : runLater.sl.r_168 c i arg3 harg3 arg6 xt x0 fh fs0 hrows = pmax (blockRow x0 4) (asRow (arrRow c fh (word c i xt (xfer 4 12)) (word_lt c i xt hrows (xfer 4 12)))) := by
  unfold runLater.sl.r_168
  simp only [pay91_eq, e_r_142, l_v1638, d_dma231]
theorem e_r_169 : runLater.sl.r_169 c i arg3 harg3 arg6 xt x0 fh fs0 hrows = pmax (blockRow x0 4) (asRow (arrRow c fh (word c i xt (xfer 4 13)) (word_lt c i xt hrows (xfer 4 13)))) := by
  unfold runLater.sl.r_169
  simp only [pay92_eq, row_4, row_4', l_v1659, d_dma234]
theorem e_r_172 : runLater.sl.r_172 c i arg3 harg3 arg6 xt x0 fh fs0 hrows = pmax (blockRow x0 4) (asRow (arrRow c fh (word c i xt (xfer 4 14)) (word_lt c i xt hrows (xfer 4 14)))) := by
  unfold runLater.sl.r_172
  simp only [pay93_eq, row_4, row_4', l_v1680, d_dma237]
theorem e_r_174 : runLater.sl.r_174 c i arg3 harg3 arg6 xt x0 fh fs0 hrows = row16 fun k => pmax (blockRow x0 4) (asRow (arrRow c fh (word c i xt (xfer 4 k)) (word_lt c i xt hrows (xfer 4 k)))) := by
  unfold runLater.sl.r_174
  simp only [pay94_eq, e_r_144, e_r_145, e_r_148, e_r_150, e_r_151, e_r_154, e_r_156, e_r_157, e_r_160, e_r_162, e_r_163, e_r_166, e_r_168, e_r_169, e_r_172, e_r_142, l_v1701, d_dma240]
  exact congrArg row16 (funext fun k => by fin_cases k <;> rfl)
theorem e_r_175 : runLater.sl.r_175 c i arg3 harg3 arg6 xt x0 fh fs0 hrows = pmax (blockRow x0 5) (asRow (arrRow c fh (word c i xt (xfer 5 0)) (word_lt c i xt hrows (xfer 5 0)))) := by
  unfold runLater.sl.r_175
  simp only [pay95_eq, row_5, row_5', l_v1723, d_dma243]
theorem e_r_178 : runLater.sl.r_178 c i arg3 harg3 arg6 xt x0 fh fs0 hrows = pmax (blockRow x0 5) (asRow (arrRow c fh (word c i xt (xfer 5 1)) (word_lt c i xt hrows (xfer 5 1)))) := by
  unfold runLater.sl.r_178
  simp only [pay96_eq, row_5, row_5', l_v1744, d_dma246]
theorem e_r_181 : runLater.sl.r_181 c i arg3 harg3 arg6 xt x0 fh fs0 hrows = pmax (blockRow x0 5) (asRow (arrRow c fh (word c i xt (xfer 5 2)) (word_lt c i xt hrows (xfer 5 2)))) := by
  unfold runLater.sl.r_181
  simp only [pay97_eq, e_r_179, l_v1765, d_dma249]
theorem e_r_182 : runLater.sl.r_182 c i arg3 harg3 arg6 xt x0 fh fs0 hrows = pmax (blockRow x0 5) (asRow (arrRow c fh (word c i xt (xfer 5 3)) (word_lt c i xt hrows (xfer 5 3)))) := by
  unfold runLater.sl.r_182
  simp only [pay98_eq, row_5, row_5', l_v1786, d_dma252]
theorem e_r_185 : runLater.sl.r_185 c i arg3 harg3 arg6 xt x0 fh fs0 hrows = pmax (blockRow x0 5) (asRow (arrRow c fh (word c i xt (xfer 5 4)) (word_lt c i xt hrows (xfer 5 4)))) := by
  unfold runLater.sl.r_185
  simp only [pay99_eq, row_5, row_5', l_v1807, d_dma255]
theorem e_r_187 : runLater.sl.r_187 c i arg3 harg3 arg6 xt x0 fh fs0 hrows = pmax (blockRow x0 5) (asRow (arrRow c fh (word c i xt (xfer 5 5)) (word_lt c i xt hrows (xfer 5 5)))) := by
  unfold runLater.sl.r_187
  simp only [pay100_eq, e_r_179, l_v1828, d_dma258]
theorem e_r_188 : runLater.sl.r_188 c i arg3 harg3 arg6 xt x0 fh fs0 hrows = pmax (blockRow x0 5) (asRow (arrRow c fh (word c i xt (xfer 5 6)) (word_lt c i xt hrows (xfer 5 6)))) := by
  unfold runLater.sl.r_188
  simp only [pay101_eq, row_5, row_5', l_v1849, d_dma261]
theorem e_r_191 : runLater.sl.r_191 c i arg3 harg3 arg6 xt x0 fh fs0 hrows = pmax (blockRow x0 5) (asRow (arrRow c fh (word c i xt (xfer 5 7)) (word_lt c i xt hrows (xfer 5 7)))) := by
  unfold runLater.sl.r_191
  simp only [pay102_eq, row_5, row_5', l_v1870, d_dma264]
theorem e_r_193 : runLater.sl.r_193 c i arg3 harg3 arg6 xt x0 fh fs0 hrows = pmax (blockRow x0 5) (asRow (arrRow c fh (word c i xt (xfer 5 8)) (word_lt c i xt hrows (xfer 5 8)))) := by
  unfold runLater.sl.r_193
  simp only [pay103_eq, e_r_179, l_v1891, d_dma267]
theorem e_r_194 : runLater.sl.r_194 c i arg3 harg3 arg6 xt x0 fh fs0 hrows = pmax (blockRow x0 5) (asRow (arrRow c fh (word c i xt (xfer 5 9)) (word_lt c i xt hrows (xfer 5 9)))) := by
  unfold runLater.sl.r_194
  simp only [pay104_eq, row_5, row_5', l_v1912, d_dma270]
theorem e_r_197 : runLater.sl.r_197 c i arg3 harg3 arg6 xt x0 fh fs0 hrows = pmax (blockRow x0 5) (asRow (arrRow c fh (word c i xt (xfer 5 10)) (word_lt c i xt hrows (xfer 5 10)))) := by
  unfold runLater.sl.r_197
  simp only [pay105_eq, row_5, row_5', l_v1933, d_dma273]
theorem e_r_199 : runLater.sl.r_199 c i arg3 harg3 arg6 xt x0 fh fs0 hrows = pmax (blockRow x0 5) (asRow (arrRow c fh (word c i xt (xfer 5 11)) (word_lt c i xt hrows (xfer 5 11)))) := by
  unfold runLater.sl.r_199
  simp only [pay106_eq, e_r_179, l_v1954, d_dma276]
theorem e_r_200 : runLater.sl.r_200 c i arg3 harg3 arg6 xt x0 fh fs0 hrows = pmax (blockRow x0 5) (asRow (arrRow c fh (word c i xt (xfer 5 12)) (word_lt c i xt hrows (xfer 5 12)))) := by
  unfold runLater.sl.r_200
  simp only [pay107_eq, row_5, row_5', l_v1975, d_dma279]
theorem e_r_203 : runLater.sl.r_203 c i arg3 harg3 arg6 xt x0 fh fs0 hrows = pmax (blockRow x0 5) (asRow (arrRow c fh (word c i xt (xfer 5 13)) (word_lt c i xt hrows (xfer 5 13)))) := by
  unfold runLater.sl.r_203
  simp only [pay108_eq, row_5, row_5', l_v1996, d_dma282]
theorem e_r_205 : runLater.sl.r_205 c i arg3 harg3 arg6 xt x0 fh fs0 hrows = row16 fun k => pmax (blockRow x0 5) (asRow (arrRow c fh (word c i xt (xfer 5 k)) (word_lt c i xt hrows (xfer 5 k)))) := by
  unfold runLater.sl.r_205
  simp only [pay109_eq, e_r_175, e_r_178, e_r_181, e_r_182, e_r_185, e_r_187, e_r_188, e_r_191, e_r_193, e_r_194, e_r_197, e_r_199, e_r_200, e_r_203, e_r_179, l_v2017, d_dma285, row_5, row_5', l_v2038, d_dma288]
  exact congrArg row16 (funext fun k => by fin_cases k <;> rfl)
theorem e_r_208 : runLater.sl.r_208 c i arg3 harg3 arg6 xt x0 fh fs0 hrows = pmax (blockRow x0 6) (asRow (arrRow c fh (word c i xt (xfer 6 0)) (word_lt c i xt hrows (xfer 6 0)))) := by
  unfold runLater.sl.r_208
  simp only [pay110_eq, row_6, row_6', l_v2060, d_dma291]
theorem e_r_210 : runLater.sl.r_210 c i arg3 harg3 arg6 xt x0 fh fs0 hrows = pmax (blockRow x0 6) (asRow (arrRow c fh (word c i xt (xfer 6 1)) (word_lt c i xt hrows (xfer 6 1)))) := by
  unfold runLater.sl.r_210
  simp only [pay111_eq, row_6, row_6', l_v2081, d_dma294]
theorem e_r_211 : runLater.sl.r_211 c i arg3 harg3 arg6 xt x0 fh fs0 hrows = pmax (blockRow x0 6) (asRow (arrRow c fh (word c i xt (xfer 6 2)) (word_lt c i xt hrows (xfer 6 2)))) := by
  unfold runLater.sl.r_211
  simp only [pay112_eq, row_6, row_6', l_v2102, d_dma297]
theorem e_r_214 : runLater.sl.r_214 c i arg3 harg3 arg6 xt x0 fh fs0 hrows = pmax (blockRow x0 6) (asRow (arrRow c fh (word c i xt (xfer 6 3)) (word_lt c i xt hrows (xfer 6 3)))) := by
  unfold runLater.sl.r_214
  simp only [pay113_eq, row_6, row_6', l_v2123, d_dma300]
theorem e_r_216 : runLater.sl.r_216 c i arg3 harg3 arg6 xt x0 fh fs0 hrows = pmax (blockRow x0 6) (asRow (arrRow c fh (word c i xt (xfer 6 4)) (word_lt c i xt hrows (xfer 6 4)))) := by
  unfold runLater.sl.r_216
  simp only [pay114_eq, row_6, row_6', l_v2144, d_dma303]
theorem e_r_217 : runLater.sl.r_217 c i arg3 harg3 arg6 xt x0 fh fs0 hrows = pmax (blockRow x0 6) (asRow (arrRow c fh (word c i xt (xfer 6 5)) (word_lt c i xt hrows (xfer 6 5)))) := by
  unfold runLater.sl.r_217
  simp only [pay115_eq, row_6, row_6', l_v2165, d_dma306]
theorem e_r_220 : runLater.sl.r_220 c i arg3 harg3 arg6 xt x0 fh fs0 hrows = pmax (blockRow x0 6) (asRow (arrRow c fh (word c i xt (xfer 6 6)) (word_lt c i xt hrows (xfer 6 6)))) := by
  unfold runLater.sl.r_220
  simp only [pay116_eq, row_6, row_6', l_v2186, d_dma309]
theorem e_r_222 : runLater.sl.r_222 c i arg3 harg3 arg6 xt x0 fh fs0 hrows = pmax (blockRow x0 6) (asRow (arrRow c fh (word c i xt (xfer 6 7)) (word_lt c i xt hrows (xfer 6 7)))) := by
  unfold runLater.sl.r_222
  simp only [pay117_eq, row_6, row_6', l_v2207, d_dma312]
theorem e_r_223 : runLater.sl.r_223 c i arg3 harg3 arg6 xt x0 fh fs0 hrows = pmax (blockRow x0 6) (asRow (arrRow c fh (word c i xt (xfer 6 8)) (word_lt c i xt hrows (xfer 6 8)))) := by
  unfold runLater.sl.r_223
  simp only [pay118_eq, row_6, row_6', l_v2228, d_dma315]
theorem e_r_226 : runLater.sl.r_226 c i arg3 harg3 arg6 xt x0 fh fs0 hrows = pmax (blockRow x0 6) (asRow (arrRow c fh (word c i xt (xfer 6 9)) (word_lt c i xt hrows (xfer 6 9)))) := by
  unfold runLater.sl.r_226
  simp only [pay119_eq, row_6, row_6', l_v2249, d_dma318]
theorem e_r_228 : runLater.sl.r_228 c i arg3 harg3 arg6 xt x0 fh fs0 hrows = pmax (blockRow x0 6) (asRow (arrRow c fh (word c i xt (xfer 6 10)) (word_lt c i xt hrows (xfer 6 10)))) := by
  unfold runLater.sl.r_228
  simp only [pay120_eq, row_6, row_6', l_v2270, d_dma321]
theorem e_r_229 : runLater.sl.r_229 c i arg3 harg3 arg6 xt x0 fh fs0 hrows = pmax (blockRow x0 6) (asRow (arrRow c fh (word c i xt (xfer 6 11)) (word_lt c i xt hrows (xfer 6 11)))) := by
  unfold runLater.sl.r_229
  simp only [pay121_eq, row_6, row_6', l_v2291, d_dma324]
theorem e_r_232 : runLater.sl.r_232 c i arg3 harg3 arg6 xt x0 fh fs0 hrows = pmax (blockRow x0 6) (asRow (arrRow c fh (word c i xt (xfer 6 12)) (word_lt c i xt hrows (xfer 6 12)))) := by
  unfold runLater.sl.r_232
  simp only [pay122_eq, row_6, row_6', l_v2312, d_dma327]
theorem e_r_234 : runLater.sl.r_234 c i arg3 harg3 arg6 xt x0 fh fs0 hrows = pmax (blockRow x0 6) (asRow (arrRow c fh (word c i xt (xfer 6 13)) (word_lt c i xt hrows (xfer 6 13)))) := by
  unfold runLater.sl.r_234
  simp only [pay123_eq, row_6, row_6', l_v2333, d_dma330]
theorem e_r_235 : runLater.sl.r_235 c i arg3 harg3 arg6 xt x0 fh fs0 hrows = pmax (blockRow x0 6) (asRow (arrRow c fh (word c i xt (xfer 6 14)) (word_lt c i xt hrows (xfer 6 14)))) := by
  unfold runLater.sl.r_235
  simp only [pay124_eq, row_6, row_6', l_v2354, d_dma333]
theorem e_r_238 : runLater.sl.r_238 c i arg3 harg3 arg6 xt x0 fh fs0 hrows = row16 fun k => pmax (blockRow x0 6) (asRow (arrRow c fh (word c i xt (xfer 6 k)) (word_lt c i xt hrows (xfer 6 k)))) := by
  unfold runLater.sl.r_238
  simp only [pay125_eq, e_r_208, e_r_210, e_r_211, e_r_214, e_r_216, e_r_217, e_r_220, e_r_222, e_r_223, e_r_226, e_r_228, e_r_229, e_r_232, e_r_234, e_r_235, row_6, row_6', l_v2375, d_dma336]
  exact congrArg row16 (funext fun k => by fin_cases k <;> rfl)
theorem e_r_240 : runLater.sl.r_240 c i arg3 harg3 arg6 xt x0 fh fs0 hrows = pmax (blockRow x0 7) (asRow (arrRow c fh (word c i xt (xfer 7 0)) (word_lt c i xt hrows (xfer 7 0)))) := by
  unfold runLater.sl.r_240
  simp only [pay126_eq, row_7, row_7', l_v2397, d_dma339]
theorem e_r_241 : runLater.sl.r_241 c i arg3 harg3 arg6 xt x0 fh fs0 hrows = pmax (blockRow x0 7) (asRow (arrRow c fh (word c i xt (xfer 7 1)) (word_lt c i xt hrows (xfer 7 1)))) := by
  unfold runLater.sl.r_241
  simp only [pay127_eq, row_7, row_7', l_v2418, d_dma342]
theorem e_r_244 : runLater.sl.r_244 c i arg3 harg3 arg6 xt x0 fh fs0 hrows = pmax (blockRow x0 7) (asRow (arrRow c fh (word c i xt (xfer 7 2)) (word_lt c i xt hrows (xfer 7 2)))) := by
  unfold runLater.sl.r_244
  simp only [pay128_eq, row_7, row_7', l_v2439, d_dma345]
theorem e_r_246 : runLater.sl.r_246 c i arg3 harg3 arg6 xt x0 fh fs0 hrows = pmax (blockRow x0 7) (asRow (arrRow c fh (word c i xt (xfer 7 3)) (word_lt c i xt hrows (xfer 7 3)))) := by
  unfold runLater.sl.r_246
  simp only [pay129_eq, row_7, row_7', l_v2460, d_dma348]
theorem e_r_247 : runLater.sl.r_247 c i arg3 harg3 arg6 xt x0 fh fs0 hrows = pmax (blockRow x0 7) (asRow (arrRow c fh (word c i xt (xfer 7 4)) (word_lt c i xt hrows (xfer 7 4)))) := by
  unfold runLater.sl.r_247
  simp only [pay130_eq, row_7, row_7', l_v2481, d_dma351]
theorem e_r_250 : runLater.sl.r_250 c i arg3 harg3 arg6 xt x0 fh fs0 hrows = pmax (blockRow x0 7) (asRow (arrRow c fh (word c i xt (xfer 7 5)) (word_lt c i xt hrows (xfer 7 5)))) := by
  unfold runLater.sl.r_250
  simp only [pay131_eq, row_7, row_7', l_v2502, d_dma354]
theorem e_r_252 : runLater.sl.r_252 c i arg3 harg3 arg6 xt x0 fh fs0 hrows = pmax (blockRow x0 7) (asRow (arrRow c fh (word c i xt (xfer 7 6)) (word_lt c i xt hrows (xfer 7 6)))) := by
  unfold runLater.sl.r_252
  simp only [pay132_eq, row_7, row_7', l_v2523, d_dma357]
theorem e_r_253 : runLater.sl.r_253 c i arg3 harg3 arg6 xt x0 fh fs0 hrows = pmax (blockRow x0 7) (asRow (arrRow c fh (word c i xt (xfer 7 7)) (word_lt c i xt hrows (xfer 7 7)))) := by
  unfold runLater.sl.r_253
  simp only [pay133_eq, row_7, row_7', l_v2544, d_dma360]
theorem e_r_256 : runLater.sl.r_256 c i arg3 harg3 arg6 xt x0 fh fs0 hrows = pmax (blockRow x0 7) (asRow (arrRow c fh (word c i xt (xfer 7 8)) (word_lt c i xt hrows (xfer 7 8)))) := by
  unfold runLater.sl.r_256
  simp only [pay134_eq, row_7, row_7', l_v2565, d_dma363]
theorem e_r_258 : runLater.sl.r_258 c i arg3 harg3 arg6 xt x0 fh fs0 hrows = pmax (blockRow x0 7) (asRow (arrRow c fh (word c i xt (xfer 7 9)) (word_lt c i xt hrows (xfer 7 9)))) := by
  unfold runLater.sl.r_258
  simp only [pay135_eq, row_7, row_7', l_v2586, d_dma366]
theorem e_r_259 : runLater.sl.r_259 c i arg3 harg3 arg6 xt x0 fh fs0 hrows = pmax (blockRow x0 7) (asRow (arrRow c fh (word c i xt (xfer 7 10)) (word_lt c i xt hrows (xfer 7 10)))) := by
  unfold runLater.sl.r_259
  simp only [pay136_eq, row_7, row_7', l_v2607, d_dma369]
theorem e_r_262 : runLater.sl.r_262 c i arg3 harg3 arg6 xt x0 fh fs0 hrows = pmax (blockRow x0 7) (asRow (arrRow c fh (word c i xt (xfer 7 11)) (word_lt c i xt hrows (xfer 7 11)))) := by
  unfold runLater.sl.r_262
  simp only [pay137_eq, row_7, row_7', l_v2628, d_dma372]
theorem e_r_264 : runLater.sl.r_264 c i arg3 harg3 arg6 xt x0 fh fs0 hrows = pmax (blockRow x0 7) (asRow (arrRow c fh (word c i xt (xfer 7 12)) (word_lt c i xt hrows (xfer 7 12)))) := by
  unfold runLater.sl.r_264
  simp only [pay138_eq, row_7, row_7', l_v2649, d_dma375]
theorem e_r_265 : runLater.sl.r_265 c i arg3 harg3 arg6 xt x0 fh fs0 hrows = pmax (blockRow x0 7) (asRow (arrRow c fh (word c i xt (xfer 7 13)) (word_lt c i xt hrows (xfer 7 13)))) := by
  unfold runLater.sl.r_265
  simp only [pay139_eq, row_7, row_7', l_v2670, d_dma378]
theorem e_r_267 : runLater.sl.r_267 c i arg3 harg3 arg6 xt x0 fh fs0 hrows = pmax (blockRow x0 7) (asRow (arrRow c fh (word c i xt (xfer 7 14)) (word_lt c i xt hrows (xfer 7 14)))) := by
  unfold runLater.sl.r_267
  simp only [pay140_eq, row_7, row_7', l_v2691, d_dma381]
theorem e_v2703 : runLater.sl.v2703 c i arg3 harg3 arg6 xt x0 fh fs0 hrows = addf (blockRow x0 7) (asRow (arrRow c fh (word c i xt (xfer 7 15)) (word_lt c i xt hrows (xfer 7 15)))) := by
  unfold runLater.sl.v2703
  simp only [row_7, row_7', l_v2702, d_dma384]
theorem e_v2706 : runLater.sl.v2706 c i arg3 harg3 arg6 xt x0 fh fs0 hrows = row16 fun k => pmax (blockRow x0 7) (asRow (arrRow c fh (word c i xt (xfer 7 k)) (word_lt c i xt hrows (xfer 7 k)))) := by
  unfold runLater.sl.v2706
  simp only [pay1_eq, e_r_240, e_r_241, e_r_244, e_r_246, e_r_247, e_r_250, e_r_252, e_r_253, e_r_256, e_r_258, e_r_259, e_r_262, e_r_264, e_r_265, e_r_267, e_v2703, smax_addf]
  exact congrArg row16 (funext fun k => by fin_cases k <;> rfl)

end Table

end Later

/-- The block of maxima is `maxBlock`: what the two-slot buffer held before the point has dropped out. -/
theorem max_later [∀ e, Nonempty (Elt F e)] (c : Dev nD) (i : grid0.Coords) (hc : ¬isFirst i)
    (arg3 : Memref sig .tc .vmem S8x512 .f32) (harg3 : arg3.IsWhole) (arg4 : Memref sig .tc .vmem S8x16 .f32) (harg4 : arg4.IsWhole)
    (arg5 : Memref sig .tc .vmem S1x512 .f32) (harg5 : arg5.IsWhole) (arg6 : Memref sig .tc .vmem S2x512 .f32) (harg6 : arg6.IsWhole)
    (q1 q2 : Idealize.SL.RA.PosShare Idealize.SL.RA.TreeShare)
    (xt : BufOf (F := F) c tbM) (x0 : Vec F S8x512 .f32) (a0 : Vec F S1x512 .f32) (fh : BufOf (F := F) c hbM)
    (fs0 : BufTy.Contents (Elt F) arg6.view.ty) (hrows : RowsBelow c xt) :
    readMax (runLater c i hc arg3 harg3 arg4 harg4 arg5 harg5 arg6 harg6 q1 q2 xt x0 a0 fh fs0 hrows).1.1 = maxBlock c i xt x0 fh hrows := by
  unfold runLater
  dsimp only
  rw [readMax_whole _ zero2, pay2_eq]
  simp only [Later.e_r_38, Later.e_r_76, Later.e_r_107, Later.e_r_141, Later.e_r_174, Later.e_r_205, Later.e_r_238, Later.e_v2706]
  unfold maxBlock
  exact congrArg col8 (funext fun b => by fin_cases b <;> rfl)

end Cert.KernelIdeal.Body

end
-- ==== Proof.BodyFirstIdeal.lean ====
/-
  The body at the first grid point, run once on any staging buffers: the column-sum accumulator is cleared and
  the sums of the block's eight rows are added to it; then the 128 rows the table names are copied one at
  a time into the two-slot buffer, each copy started while the previous row is being used, and for each
  the maximum over the 512 lanes of (row of the block + copied row) is taken; the 8 × 16 maxima are stored
  as the point's output block. The run hands back every buffer it was lent and names the pieces it left
  in the two output buffers.
-/
import proofs.«106441_j1580547974259_1_alg».proof.Proof.BodyCommonIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 0 in
set_option sl_exec.dmaWindow true in
set_option sl_exec.dmaWindowSet true in
/-- The pieces the body leaves in the output block's buffer and in the accumulator's, with the proof that
    it runs to the end from the buffers it is lent — the block, the two outputs, the two-slot buffer at
    whatever it holds (fs0), the table and the array of rows each at a share, its two copy counters at zero —
    and gives them back: every copy it starts it waits for within the point. -/
noncomputable def runFirst (c : Dev nD) (i : grid0.Coords) (hc : isFirst i)
    (arg3 : Memref sig .tc .vmem S8x512 .f32) (harg3 : arg3.IsWhole)
    (arg4 : Memref sig .tc .vmem S8x16 .f32) (harg4 : arg4.IsWhole)
    (arg5 : Memref sig .tc .vmem S1x512 .f32) (harg5 : arg5.IsWhole)
    (arg6 : Memref sig .tc .vmem S2x512 .f32) (harg6 : arg6.IsWhole)
    (q1 q2 : PosShare TreeShare)
    (xt : BufOf (F := F) c tbM) (x0 : Vec F S8x512 .f32) (fh : BufOf (F := F) c hbM) (fs0 : BufTy.Contents (Elt F) arg6.view.ty)
    (hrows : RowsBelow c xt) :
    { L : List (View.Piece (Elt F) S8x16 .f32) × List (View.Piece (Elt F) S1x512 .f32) //
      ∀ (W : Waits sig Unit) (K : PUnit → sProp 𝕄),
        iprop(heldAt c q1 tbM xt
            ∗ owns (c : Thread nD τ) arg3 fullShare x0
            ∗ (∃ d, owns (c : Thread nD τ) arg4 fullShare d)
            ∗ (∃ d, owns (c : Thread nD τ) arg5 fullShare d)
            ∗ (arg6.view.loc (c : Thread nD τ) ↦[arg6.view.set]{fullShare} fs0)
            ∗ semVal ((c : Thread nD τ), SemLoc.dma 5) 0
            ∗ semVal ((c : Thread nD τ), SemLoc.dma 6) 0
            ∗ heldAt c q2 hbM fh
            ∗ owes (c : Thread nD τ) 0 W
            ∗ (iprop(heldAt c q1 tbM xt
                ∗ owns (c : Thread nD τ) arg3 fullShare x0
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)
                ∗ (∃ d, owns (c : Thread nD τ) arg6 fullShare d)
                ∗ semVal ((c : Thread nD τ), SemLoc.dma 5) 0
                ∗ semVal ((c : Thread nD τ), SemLoc.dma 6) 0
                ∗ heldAt c q2 hbM fh
                ∗ (∃ W', owes (c : Thread nD τ) 0 W')) -∗ K ⟨⟩))
          ⊢ wp frame (wpE (defs₀ (F := F)) Variants.none c none) Set.univ
              (cc0_kernel i tbM htbM hbM hhbM arg3 harg3 arg4 harg4 arg5 harg5 arg6 harg6 cc0_scratch1) K } := by
  refine ⟨(?_, ?_), fun W K => ?run⟩
  case run =>
    simp only [cc0_kernel_eq_skeleton]; unfold cc0_kernel_skel
    unfold owns
    iintro ⟨HT, ⟨%f0, %hf0, H0⟩, ⟨%d1, %f1, -, H1⟩, ⟨%d2, %f2, -, H2⟩, HS0, Hq0, Hq1, Hh0, HW, Hk⟩
    obtain rfl := harg3.eq_unread hf0
    sl_exec_parts (disch := first | sl_exact hc | exact row_inside _ (hrows _ _))
    sl_step
    iapply Hk
    isplitl [HT]; · iexact HT
    isplitl [H0]
    · iexists _; isplitr; · ipureintro; exact harg3.read_unread _
      iexact H0
    isplitl [H1]; · iexists _; iexact H1
    isplitl [H2]; · iexists _; iexact H2
    isplitl [HS0]
    · iexists _, _; isplitr; swap; · iexact HS0
      ipureintro; rfl
    isplitl [Hq0]; · iexact Hq0
    isplitl [Hq1]; · iexact Hq1
    isplitl [Hh0]; · iexact Hh0
    iexists _; iexact HW

end Cert.KernelIdeal.Body

end
-- ==== Proof.BodyTableFirstIdeal.lean ====
/-
  The block of maxima the body leaves at the first point, read back.

  The run names every value it computes. Below, one equation per name, in the order the body computes them: each
  table word is word number `128·t + 16·b + k`; each copy is that row of the array; each load of the two-slot buffer
  reads the copy that was last made into the loaded row; each maximum is `pmax` of row `b` of the block and the
  copied row; each group of sixteen is one row of the block of maxima. The last equation reads the eight rows back
  as `maxBlock`.
-/
import proofs.«106441_j1580547974259_1_alg».proof.Proof.BodyLoadsIdeal
import proofs.«106441_j1580547974259_1_alg».proof.Proof.BodyFirstIdeal

set_option maxRecDepth 16384

noncomputable section

namespace Cert.KernelIdeal.Body

open Cert.KernelIdeal Cert.KernelIdeal.Gen Cert.BodyMath
open Idealize.ShloMosaic Idealize.ShloMosaic.TcCoe Idealize.ShloMosaic.ValueIdx

variable {F : FTy → Type} [FloatOps F]

namespace First

section Table

variable (c : Dev nD) (i : grid0.Coords) (arg3 : Memref sig .tc .vmem S8x512 .f32) (harg3 : arg3.IsWhole)
  (arg6 : Memref sig .tc .vmem S2x512 .f32) (xt : BufOf (F := F) c tbM) (x0 : Vec F S8x512 .f32) (fh : BufOf (F := F) c hbM)
  (fs0 : BufTy.Contents (Elt F) arg6.view.ty) (hrows : RowsBelow c xt)

theorem w_r : runFirst.sl.r c i xt = word c i xt (xfer 0 0) := word_of_off c i xt (xfer 0 0) (off1_eq i)
theorem w_r_1 : runFirst.sl.r_1 c i xt = word c i xt (xfer 0 1) := word_of_off c i xt (xfer 0 1) (off3_eq i)
theorem w_r_100 : runFirst.sl.r_100 c i xt = word c i xt (xfer 2 13) := word_of_off c i xt (xfer 2 13) (off91_eq i)
theorem w_r_103 : runFirst.sl.r_103 c i xt = word c i xt (xfer 2 14) := word_of_off c i xt (xfer 2 14) (off93_eq i)
theorem w_r_104 : runFirst.sl.r_104 c i xt = word c i xt (xfer 2 15) := word_of_off c i xt (xfer 2 15) (off95_eq i)
theorem w_r_106 : runFirst.sl.r_106 c i xt = word c i xt (xfer 3 0) := word_of_off c i xt (xfer 3 0) (off97_eq i)
theorem w_r_108 : runFirst.sl.r_108 c i xt = word c i xt (xfer 3 1) := word_of_off c i xt (xfer 3 1) (off99_eq i)
theorem w_r_109 : runFirst.sl.r_109 c i xt = word c i xt (xfer 3 2) := word_of_off c i xt (xfer 3 2) (off101_eq i)
theorem w_r_112 : runFirst.sl.r_112 c i xt = word c i xt (xfer 3 3) := word_of_off c i xt (xfer 3 3) (off103_eq i)
theorem w_r_115 : runFirst.sl.r_115 c i xt = word c i xt (xfer 3 4) := word_of_off c i xt (xfer 3 4) (off105_eq i)
theorem w_r_116 : runFirst.sl.r_116 c i xt = word c i xt (xfer 3 5) := word_of_off c i xt (xfer 3 5) (off107_eq i)
theorem w_r_118 : runFirst.sl.r_118 c i xt = word c i xt (xfer 3 6) := word_of_off c i xt (xfer 3 6) (off109_eq i)
theorem w_r_12 : runFirst.sl.r_12 c i xt = word c i xt (xfer 0 6) := word_of_off c i xt (xfer 0 6) (off13_eq i)
theorem w_r_121 : runFirst.sl.r_121 c i xt = word c i xt (xfer 3 7) := word_of_off c i xt (xfer 3 7) (off111_eq i)
theorem w_r_122 : runFirst.sl.r_122 c i xt = word c i xt (xfer 3 8) := word_of_off c i xt (xfer 3 8) (off113_eq i)
theorem w_r_124 : runFirst.sl.r_124 c i xt = word c i xt (xfer 3 9) := word_of_off c i xt (xfer 3 9) (off115_eq i)
theorem w_r_127 : runFirst.sl.r_127 c i xt = word c i xt (xfer 3 10) := word_of_off c i xt (xfer 3 10) (off117_eq i)
theorem w_r_128 : runFirst.sl.r_128 c i xt = word c i xt (xfer 3 11) := word_of_off c i xt (xfer 3 11) (off119_eq i)
theorem w_r_13 : runFirst.sl.r_13 c i xt = word c i xt (xfer 0 7) := word_of_off c i xt (xfer 0 7) (off15_eq i)
theorem w_r_130 : runFirst.sl.r_130 c i xt = word c i xt (xfer 3 12) := word_of_off c i xt (xfer 3 12) (off121_eq i)
theorem w_r_133 : runFirst.sl.r_133 c i xt = word c i xt (xfer 3 13) := word_of_off c i xt (xfer 3 13) (off123_eq i)
theorem w_r_134 : runFirst.sl.r_134 c i xt = word c i xt (xfer 3 14) := word_of_off c i xt (xfer 3 14) (off125_eq i)
theorem w_r_136 : runFirst.sl.r_136 c i xt = word c i xt (xfer 3 15) := word_of_off c i xt (xfer 3 15) (off127_eq i)
theorem w_r_139 : runFirst.sl.r_139 c i xt = word c i xt (xfer 4 0) := word_of_off c i xt (xfer 4 0) (off129_eq i)
theorem w_r_140 : runFirst.sl.r_140 c i xt = word c i xt (xfer 4 1) := word_of_off c i xt (xfer 4 1) (off131_eq i)
theorem w_r_143 : runFirst.sl.r_143 c i xt = word c i xt (xfer 4 2) := word_of_off c i xt (xfer 4 2) (off133_eq i)
theorem w_r_146 : runFirst.sl.r_146 c i xt = word c i xt (xfer 4 3) := word_of_off c i xt (xfer 4 3) (off135_eq i)
theorem w_r_147 : runFirst.sl.r_147 c i xt = word c i xt (xfer 4 4) := word_of_off c i xt (xfer 4 4) (off137_eq i)
theorem w_r_149 : runFirst.sl.r_149 c i xt = word c i xt (xfer 4 5) := word_of_off c i xt (xfer 4 5) (off139_eq i)
theorem w_r_152 : runFirst.sl.r_152 c i xt = word c i xt (xfer 4 6) := word_of_off c i xt (xfer 4 6) (off141_eq i)
theorem w_r_153 : runFirst.sl.r_153 c i xt = word c i xt (xfer 4 7) := word_of_off c i xt (xfer 4 7) (off143_eq i)
theorem w_r_155 : runFirst.sl.r_155 c i xt = word c i xt (xfer 4 8) := word_of_off c i xt (xfer 4 8) (off145_eq i)
theorem w_r_158 : runFirst.sl.r_158 c i xt = word c i xt (xfer 4 9) := word_of_off c i xt (xfer 4 9) (off147_eq i)
theorem w_r_159 : runFirst.sl.r_159 c i xt = word c i xt (xfer 4 10) := word_of_off c i xt (xfer 4 10) (off149_eq i)
theorem w_r_16 : runFirst.sl.r_16 c i xt = word c i xt (xfer 0 8) := word_of_off c i xt (xfer 0 8) (off17_eq i)
theorem w_r_161 : runFirst.sl.r_161 c i xt = word c i xt (xfer 4 11) := word_of_off c i xt (xfer 4 11) (off151_eq i)
theorem w_r_164 : runFirst.sl.r_164 c i xt = word c i xt (xfer 4 12) := word_of_off c i xt (xfer 4 12) (off153_eq i)
theorem w_r_165 : runFirst.sl.r_165 c i xt = word c i xt (xfer 4 13) := word_of_off c i xt (xfer 4 13) (off155_eq i)
theorem w_r_167 : runFirst.sl.r_167 c i xt = word c i xt (xfer 4 14) := word_of_off c i xt (xfer 4 14) (off157_eq i)
theorem w_r_170 : runFirst.sl.r_170 c i xt = word c i xt (xfer 4 15) := word_of_off c i xt (xfer 4 15) (off159_eq i)
theorem w_r_171 : runFirst.sl.r_171 c i xt = word c i xt (xfer 5 0) := word_of_off c i xt (xfer 5 0) (off161_eq i)
theorem w_r_173 : runFirst.sl.r_173 c i xt = word c i xt (xfer 5 1) := word_of_off c i xt (xfer 5 1) (off163_eq i)
theorem w_r_176 : runFirst.sl.r_176 c i xt = word c i xt (xfer 5 2) := word_of_off c i xt (xfer 5 2) (off165_eq i)
theorem w_r_177 : runFirst.sl.r_177 c i xt = word c i xt (xfer 5 3) := word_of_off c i xt (xfer 5 3) (off167_eq i)
theorem w_r_180 : runFirst.sl.r_180 c i xt = word c i xt (xfer 5 4) := word_of_off c i xt (xfer 5 4) (off169_eq i)
theorem w_r_183 : runFirst.sl.r_183 c i xt = word c i xt (xfer 5 5) := word_of_off c i xt (xfer 5 5) (off171_eq i)
theorem w_r_184 : runFirst.sl.r_184 c i xt = word c i xt (xfer 5 6) := word_of_off c i xt (xfer 5 6) (off173_eq i)
theorem w_r_186 : runFirst.sl.r_186 c i xt = word c i xt (xfer 5 7) := word_of_off c i xt (xfer 5 7) (off175_eq i)
theorem w_r_189 : runFirst.sl.r_189 c i xt = word c i xt (xfer 5 8) := word_of_off c i xt (xfer 5 8) (off177_eq i)
theorem w_r_19 : runFirst.sl.r_19 c i xt = word c i xt (xfer 0 9) := word_of_off c i xt (xfer 0 9) (off19_eq i)
theorem w_r_190 : runFirst.sl.r_190 c i xt = word c i xt (xfer 5 9) := word_of_off c i xt (xfer 5 9) (off179_eq i)
theorem w_r_192 : runFirst.sl.r_192 c i xt = word c i xt (xfer 5 10) := word_of_off c i xt (xfer 5 10) (off181_eq i)
theorem w_r_195 : runFirst.sl.r_195 c i xt = word c i xt (xfer 5 11) := word_of_off c i xt (xfer 5 11) (off183_eq i)
theorem w_r_196 : runFirst.sl.r_196 c i xt = word c i xt (xfer 5 12) := word_of_off c i xt (xfer 5 12) (off185_eq i)
theorem w_r_198 : runFirst.sl.r_198 c i xt = word c i xt (xfer 5 13) := word_of_off c i xt (xfer 5 13) (off187_eq i)
theorem w_r_2 : runFirst.sl.r_2 c i xt = word c i xt (xfer 0 2) := word_of_off c i xt (xfer 0 2) (off5_eq i)
theorem w_r_20 : runFirst.sl.r_20 c i xt = word c i xt (xfer 0 10) := word_of_off c i xt (xfer 0 10) (off21_eq i)
theorem w_r_201 : runFirst.sl.r_201 c i xt = word c i xt (xfer 5 14) := word_of_off c i xt (xfer 5 14) (off189_eq i)
theorem w_r_202 : runFirst.sl.r_202 c i xt = word c i xt (xfer 5 15) := word_of_off c i xt (xfer 5 15) (off191_eq i)
theorem w_r_204 : runFirst.sl.r_204 c i xt = word c i xt (xfer 6 0) := word_of_off c i xt (xfer 6 0) (off193_eq i)
theorem w_r_206 : runFirst.sl.r_206 c i xt = word c i xt (xfer 6 1) := word_of_off c i xt (xfer 6 1) (off195_eq i)
theorem w_r_207 : runFirst.sl.r_207 c i xt = word c i xt (xfer 6 2) := word_of_off c i xt (xfer 6 2) (off197_eq i)
theorem w_r_209 : runFirst.sl.r_209 c i xt = word c i xt (xfer 6 3) := word_of_off c i xt (xfer 6 3) (off199_eq i)
theorem w_r_212 : runFirst.sl.r_212 c i xt = word c i xt (xfer 6 4) := word_of_off c i xt (xfer 6 4) (off201_eq i)
theorem w_r_213 : runFirst.sl.r_213 c i xt = word c i xt (xfer 6 5) := word_of_off c i xt (xfer 6 5) (off203_eq i)
theorem w_r_215 : runFirst.sl.r_215 c i xt = word c i xt (xfer 6 6) := word_of_off c i xt (xfer 6 6) (off205_eq i)
theorem w_r_218 : runFirst.sl.r_218 c i xt = word c i xt (xfer 6 7) := word_of_off c i xt (xfer 6 7) (off207_eq i)
theorem w_r_219 : runFirst.sl.r_219 c i xt = word c i xt (xfer 6 8) := word_of_off c i xt (xfer 6 8) (off209_eq i)
theorem w_r_221 : runFirst.sl.r_221 c i xt = word c i xt (xfer 6 9) := word_of_off c i xt (xfer 6 9) (off211_eq i)
theorem w_r_224 : runFirst.sl.r_224 c i xt = word c i xt (xfer 6 10) := word_of_off c i xt (xfer 6 10) (off213_eq i)
theorem w_r_225 : runFirst.sl.r_225 c i xt = word c i xt (xfer 6 11) := word_of_off c i xt (xfer 6 11) (off215_eq i)
theorem w_r_227 : runFirst.sl.r_227 c i xt = word c i xt (xfer 6 12) := word_of_off c i xt (xfer 6 12) (off217_eq i)
theorem w_r_23 : runFirst.sl.r_23 c i xt = word c i xt (xfer 0 11) := word_of_off c i xt (xfer 0 11) (off23_eq i)
theorem w_r_230 : runFirst.sl.r_230 c i xt = word c i xt (xfer 6 13) := word_of_off c i xt (xfer 6 13) (off219_eq i)
theorem w_r_231 : runFirst.sl.r_231 c i xt = word c i xt (xfer 6 14) := word_of_off c i xt (xfer 6 14) (off221_eq i)
theorem w_r_233 : runFirst.sl.r_233 c i xt = word c i xt (xfer 6 15) := word_of_off c i xt (xfer 6 15) (off223_eq i)
theorem w_r_236 : runFirst.sl.r_236 c i xt = word c i xt (xfer 7 0) := word_of_off c i xt (xfer 7 0) (off225_eq i)
theorem w_r_237 : runFirst.sl.r_237 c i xt = word c i xt (xfer 7 1) := word_of_off c i xt (xfer 7 1) (off227_eq i)
theorem w_r_239 : runFirst.sl.r_239 c i xt = word c i xt (xfer 7 2) := word_of_off c i xt (xfer 7 2) (off229_eq i)
theorem w_r_242 : runFirst.sl.r_242 c i xt = word c i xt (xfer 7 3) := word_of_off c i xt (xfer 7 3) (off231_eq i)
theorem w_r_243 : runFirst.sl.r_243 c i xt = word c i xt (xfer 7 4) := word_of_off c i xt (xfer 7 4) (off233_eq i)
theorem w_r_245 : runFirst.sl.r_245 c i xt = word c i xt (xfer 7 5) := word_of_off c i xt (xfer 7 5) (off235_eq i)
theorem w_r_248 : runFirst.sl.r_248 c i xt = word c i xt (xfer 7 6) := word_of_off c i xt (xfer 7 6) (off237_eq i)
theorem w_r_249 : runFirst.sl.r_249 c i xt = word c i xt (xfer 7 7) := word_of_off c i xt (xfer 7 7) (off239_eq i)
theorem w_r_251 : runFirst.sl.r_251 c i xt = word c i xt (xfer 7 8) := word_of_off c i xt (xfer 7 8) (off241_eq i)
theorem w_r_254 : runFirst.sl.r_254 c i xt = word c i xt (xfer 7 9) := word_of_off c i xt (xfer 7 9) (off243_eq i)
theorem w_r_255 : runFirst.sl.r_255 c i xt = word c i xt (xfer 7 10) := word_of_off c i xt (xfer 7 10) (off245_eq i)
theorem w_r_257 : runFirst.sl.r_257 c i xt = word c i xt (xfer 7 11) := word_of_off c i xt (xfer 7 11) (off247_eq i)
theorem w_r_26 : runFirst.sl.r_26 c i xt = word c i xt (xfer 0 12) := word_of_off c i xt (xfer 0 12) (off25_eq i)
theorem w_r_260 : runFirst.sl.r_260 c i xt = word c i xt (xfer 7 12) := word_of_off c i xt (xfer 7 12) (off249_eq i)
theorem w_r_261 : runFirst.sl.r_261 c i xt = word c i xt (xfer 7 13) := word_of_off c i xt (xfer 7 13) (off251_eq i)
theorem w_r_263 : runFirst.sl.r_263 c i xt = word c i xt (xfer 7 14) := word_of_off c i xt (xfer 7 14) (off253_eq i)
theorem w_r_266 : runFirst.sl.r_266 c i xt = word c i xt (xfer 7 15) := word_of_off c i xt (xfer 7 15) (off255_eq i)
theorem w_r_27 : runFirst.sl.r_27 c i xt = word c i xt (xfer 0 13) := word_of_off c i xt (xfer 0 13) (off27_eq i)
theorem w_r_30 : runFirst.sl.r_30 c i xt = word c i xt (xfer 0 14) := word_of_off c i xt (xfer 0 14) (off29_eq i)
theorem w_r_33 : runFirst.sl.r_33 c i xt = word c i xt (xfer 0 15) := word_of_off c i xt (xfer 0 15) (off31_eq i)
theorem w_r_34 : runFirst.sl.r_34 c i xt = word c i xt (xfer 1 0) := word_of_off c i xt (xfer 1 0) (off33_eq i)
theorem w_r_37 : runFirst.sl.r_37 c i xt = word c i xt (xfer 1 1) := word_of_off c i xt (xfer 1 1) (off35_eq i)
theorem w_r_40 : runFirst.sl.r_40 c i xt = word c i xt (xfer 1 2) := word_of_off c i xt (xfer 1 2) (off37_eq i)
theorem w_r_43 : runFirst.sl.r_43 c i xt = word c i xt (xfer 1 3) := word_of_off c i xt (xfer 1 3) (off39_eq i)
theorem w_r_44 : runFirst.sl.r_44 c i xt = word c i xt (xfer 1 4) := word_of_off c i xt (xfer 1 4) (off41_eq i)
theorem w_r_47 : runFirst.sl.r_47 c i xt = word c i xt (xfer 1 5) := word_of_off c i xt (xfer 1 5) (off43_eq i)
theorem w_r_5 : runFirst.sl.r_5 c i xt = word c i xt (xfer 0 3) := word_of_off c i xt (xfer 0 3) (off7_eq i)
theorem w_r_50 : runFirst.sl.r_50 c i xt = word c i xt (xfer 1 6) := word_of_off c i xt (xfer 1 6) (off45_eq i)
theorem w_r_51 : runFirst.sl.r_51 c i xt = word c i xt (xfer 1 7) := word_of_off c i xt (xfer 1 7) (off47_eq i)
theorem w_r_54 : runFirst.sl.r_54 c i xt = word c i xt (xfer 1 8) := word_of_off c i xt (xfer 1 8) (off49_eq i)
theorem w_r_57 : runFirst.sl.r_57 c i xt = word c i xt (xfer 1 9) := word_of_off c i xt (xfer 1 9) (off51_eq i)
theorem w_r_58 : runFirst.sl.r_58 c i xt = word c i xt (xfer 1 10) := word_of_off c i xt (xfer 1 10) (off53_eq i)
theorem w_r_6 : runFirst.sl.r_6 c i xt = word c i xt (xfer 0 4) := word_of_off c i xt (xfer 0 4) (off9_eq i)
theorem w_r_61 : runFirst.sl.r_61 c i xt = word c i xt (xfer 1 11) := word_of_off c i xt (xfer 1 11) (off55_eq i)
theorem w_r_64 : runFirst.sl.r_64 c i xt = word c i xt (xfer 1 12) := word_of_off c i xt (xfer 1 12) (off57_eq i)
theorem w_r_65 : runFirst.sl.r_65 c i xt = word c i xt (xfer 1 13) := word_of_off c i xt (xfer 1 13) (off59_eq i)
theorem w_r_68 : runFirst.sl.r_68 c i xt = word c i xt (xfer 1 14) := word_of_off c i xt (xfer 1 14) (off61_eq i)
theorem w_r_71 : runFirst.sl.r_71 c i xt = word c i xt (xfer 1 15) := word_of_off c i xt (xfer 1 15) (off63_eq i)
theorem w_r_72 : runFirst.sl.r_72 c i xt = word c i xt (xfer 2 0) := word_of_off c i xt (xfer 2 0) (off65_eq i)
theorem w_r_75 : runFirst.sl.r_75 c i xt = word c i xt (xfer 2 1) := word_of_off c i xt (xfer 2 1) (off67_eq i)
theorem w_r_78 : runFirst.sl.r_78 c i xt = word c i xt (xfer 2 2) := word_of_off c i xt (xfer 2 2) (off69_eq i)
theorem w_r_79 : runFirst.sl.r_79 c i xt = word c i xt (xfer 2 3) := word_of_off c i xt (xfer 2 3) (off71_eq i)
theorem w_r_82 : runFirst.sl.r_82 c i xt = word c i xt (xfer 2 4) := word_of_off c i xt (xfer 2 4) (off73_eq i)
theorem w_r_85 : runFirst.sl.r_85 c i xt = word c i xt (xfer 2 5) := word_of_off c i xt (xfer 2 5) (off75_eq i)
theorem w_r_86 : runFirst.sl.r_86 c i xt = word c i xt (xfer 2 6) := word_of_off c i xt (xfer 2 6) (off77_eq i)
theorem w_r_88 : runFirst.sl.r_88 c i xt = word c i xt (xfer 2 7) := word_of_off c i xt (xfer 2 7) (off79_eq i)
theorem w_r_9 : runFirst.sl.r_9 c i xt = word c i xt (xfer 0 5) := word_of_off c i xt (xfer 0 5) (off11_eq i)
theorem w_r_91 : runFirst.sl.r_91 c i xt = word c i xt (xfer 2 8) := word_of_off c i xt (xfer 2 8) (off81_eq i)
theorem w_r_92 : runFirst.sl.r_92 c i xt = word c i xt (xfer 2 9) := word_of_off c i xt (xfer 2 9) (off83_eq i)
theorem w_r_94 : runFirst.sl.r_94 c i xt = word c i xt (xfer 2 10) := word_of_off c i xt (xfer 2 10) (off85_eq i)
theorem w_r_97 : runFirst.sl.r_97 c i xt = word c i xt (xfer 2 11) := word_of_off c i xt (xfer 2 11) (off87_eq i)
theorem w_r_98 : runFirst.sl.r_98 c i xt = word c i xt (xfer 2 12) := word_of_off c i xt (xfer 2 12) (off89_eq i)
theorem d_dma101 : runFirst.sl.dma101 c i xt fh hrows = arrRow c fh (word c i xt (xfer 2 0)) (word_lt c i xt hrows (xfer 2 0)) := dma_of_word c fh _ _ (w_r_72 c i xt) _ rfl
theorem d_dma104 : runFirst.sl.dma104 c i xt fh hrows = arrRow c fh (word c i xt (xfer 2 1)) (word_lt c i xt hrows (xfer 2 1)) := dma_of_word c fh _ _ (w_r_75 c i xt) _ rfl
theorem d_dma107 : runFirst.sl.dma107 c i xt fh hrows = arrRow c fh (word c i xt (xfer 2 2)) (word_lt c i xt hrows (xfer 2 2)) := dma_of_word c fh _ _ (w_r_78 c i xt) _ rfl
theorem d_dma11 : runFirst.sl.dma11 c i xt fh hrows = arrRow c fh (word c i xt (xfer 0 2)) (word_lt c i xt hrows (xfer 0 2)) := dma_of_word c fh _ _ (w_r_2 c i xt) _ rfl
theorem d_dma110 : runFirst.sl.dma110 c i xt fh hrows = arrRow c fh (word c i xt (xfer 2 3)) (word_lt c i xt hrows (xfer 2 3)) := dma_of_word c fh _ _ (w_r_79 c i xt) _ rfl
theorem d_dma113 : runFirst.sl.dma113 c i xt fh hrows = arrRow c fh (word c i xt (xfer 2 4)) (word_lt c i xt hrows (xfer 2 4)) := dma_of_word c fh _ _ (w_r_82 c i xt) _ rfl
theorem d_dma116 : runFirst.sl.dma116 c i xt fh hrows = arrRow c fh (word c i xt (xfer 2 5)) (word_lt c i xt hrows (xfer 2 5)) := dma_of_word c fh _ _ (w_r_85 c i xt) _ rfl
theorem d_dma119 : runFirst.sl.dma119 c i xt fh hrows = arrRow c fh (word c i xt (xfer 2 6)) (word_lt c i xt hrows (xfer 2 6)) := dma_of_word c fh _ _ (w_r_86 c i xt) _ rfl
theorem d_dma122 : runFirst.sl.dma122 c i xt fh hrows = arrRow c fh (word c i xt (xfer 2 7)) (word_lt c i xt hrows (xfer 2 7)) := dma_of_word c fh _ _ (w_r_88 c i xt) _ rfl
theorem d_dma125 : runFirst.sl.dma125 c i xt fh hrows = arrRow c fh (word c i xt (xfer 2 8)) (word_lt c i xt hrows (xfer 2 8)) := dma_of_word c fh _ _ (w_r_91 c i xt) _ rfl
theorem d_dma128 : runFirst.sl.dma128 c i xt fh hrows = arrRow c fh (word c i xt (xfer 2 9)) (word_lt c i xt hrows (xfer 2 9)) := dma_of_word c fh _ _ (w_r_92 c i xt) _ rfl
theorem d_dma131 : runFirst.sl.dma131 c i xt fh hrows = arrRow c fh (word c i xt (xfer 2 10)) (word_lt c i xt hrows (xfer 2 10)) := dma_of_word c fh _ _ (w_r_94 c i xt) _ rfl
theorem d_dma134 : runFirst.sl.dma134 c i xt fh hrows = arrRow c fh (word c i xt (xfer 2 11)) (word_lt c i xt hrows (xfer 2 11)) := dma_of_word c fh _ _ (w_r_97 c i xt) _ rfl
theorem d_dma137 : runFirst.sl.dma137 c i xt fh hrows = arrRow c fh (word c i xt (xfer 2 12)) (word_lt c i xt hrows (xfer 2 12)) := dma_of_word c fh _ _ (w_r_98 c i xt) _ rfl
theorem d_dma14 : runFirst.sl.dma14 c i xt fh hrows = arrRow c fh (word c i xt (xfer 0 3)) (word_lt c i xt hrows (xfer 0 3)) := dma_of_word c fh _ _ (w_r_5 c i xt) _ rfl
theorem d_dma140 : runFirst.sl.dma140 c i xt fh hrows = arrRow c fh (word c i xt (xfer 2 13)) (word_lt c i xt hrows (xfer 2 13)) := dma_of_word c fh _ _ (w_r_100 c i xt) _ rfl
theorem d_dma143 : runFirst.sl.dma143 c i xt fh hrows = arrRow c fh (word c i xt (xfer 2 14)) (word_lt c i xt hrows (xfer 2 14)) := dma_of_word c fh _ _ (w_r_103 c i xt) _ rfl
theorem d_dma146 : runFirst.sl.dma146 c i xt fh hrows = arrRow c fh (word c i xt (xfer 2 15)) (word_lt c i xt hrows (xfer 2 15)) := dma_of_word c fh _ _ (w_r_104 c i xt) _ rfl
theorem d_dma149 : runFirst.sl.dma149 c i xt fh hrows = arrRow c fh (word c i xt (xfer 3 0)) (word_lt c i xt hrows (xfer 3 0)) := dma_of_word c fh _ _ (w_r_106 c i xt) _ rfl
theorem d_dma152 : runFirst.sl.dma152 c i xt fh hrows = arrRow c fh (word c i xt (xfer 3 1)) (word_lt c i xt hrows (xfer 3 1)) := dma_of_word c fh _ _ (w_r_108 c i xt) _ rfl
theorem d_dma155 : runFirst.sl.dma155 c i xt fh hrows = arrRow c fh (word c i xt (xfer 3 2)) (word_lt c i xt hrows (xfer 3 2)) := dma_of_word c fh _ _ (w_r_109 c i xt) _ rfl
theorem d_dma158 : runFirst.sl.dma158 c i xt fh hrows = arrRow c fh (word c i xt (xfer 3 3)) (word_lt c i xt hrows (xfer 3 3)) := dma_of_word c fh _ _ (w_r_112 c i xt) _ rfl
theorem d_dma161 : runFirst.sl.dma161 c i xt fh hrows = arrRow c fh (word c i xt (xfer 3 4)) (word_lt c i xt hrows (xfer 3 4)) := dma_of_word c fh _ _ (w_r_115 c i xt) _ rfl
theorem d_dma164 : runFirst.sl.dma164 c i xt fh hrows = arrRow c fh (word c i xt (xfer 3 5)) (word_lt c i xt hrows (xfer 3 5)) := dma_of_word c fh _ _ (w_r_116 c i xt) _ rfl
theorem d_dma167 : runFirst.sl.dma167 c i xt fh hrows = arrRow c fh (word c i xt (xfer 3 6)) (word_lt c i xt hrows (xfer 3 6)) := dma_of_word c fh _ _ (w_r_118 c i xt) _ rfl
theorem d_dma17 : runFirst.sl.dma17 c i xt fh hrows = arrRow c fh (word c i xt (xfer 0 4)) (word_lt c i xt hrows (xfer 0 4)) := dma_of_word c fh _ _ (w_r_6 c i xt) _ rfl
theorem d_dma170 : runFirst.sl.dma170 c i xt fh hrows = arrRow c fh (word c i xt (xfer 3 7)) (word_lt c i xt hrows (xfer 3 7)) := dma_of_word c fh _ _ (w_r_121 c i xt) _ rfl
theorem d_dma173 : runFirst.sl.dma173 c i xt fh hrows = arrRow c fh (word c i xt (xfer 3 8)) (word_lt c i xt hrows (xfer 3 8)) := dma_of_word c fh _ _ (w_r_122 c i xt) _ rfl
theorem d_dma176 : runFirst.sl.dma176 c i xt fh hrows = arrRow c fh (word c i xt (xfer 3 9)) (word_lt c i xt hrows (xfer 3 9)) := dma_of_word c fh _ _ (w_r_124 c i xt) _ rfl
theorem d_dma179 : runFirst.sl.dma179 c i xt fh hrows = arrRow c fh (word c i xt (xfer 3 10)) (word_lt c i xt hrows (xfer 3 10)) := dma_of_word c fh _ _ (w_r_127 c i xt) _ rfl
theorem d_dma182 : runFirst.sl.dma182 c i xt fh hrows = arrRow c fh (word c i xt (xfer 3 11)) (word_lt c i xt hrows (xfer 3 11)) := dma_of_word c fh _ _ (w_r_128 c i xt) _ rfl
theorem d_dma185 : runFirst.sl.dma185 c i xt fh hrows = arrRow c fh (word c i xt (xfer 3 12)) (word_lt c i xt hrows (xfer 3 12)) := dma_of_word c fh _ _ (w_r_130 c i xt) _ rfl
theorem d_dma188 : runFirst.sl.dma188 c i xt fh hrows = arrRow c fh (word c i xt (xfer 3 13)) (word_lt c i xt hrows (xfer 3 13)) := dma_of_word c fh _ _ (w_r_133 c i xt) _ rfl
theorem d_dma191 : runFirst.sl.dma191 c i xt fh hrows = arrRow c fh (word c i xt (xfer 3 14)) (word_lt c i xt hrows (xfer 3 14)) := dma_of_word c fh _ _ (w_r_134 c i xt) _ rfl
theorem d_dma194 : runFirst.sl.dma194 c i xt fh hrows = arrRow c fh (word c i xt (xfer 3 15)) (word_lt c i xt hrows (xfer 3 15)) := dma_of_word c fh _ _ (w_r_136 c i xt) _ rfl
theorem d_dma197 : runFirst.sl.dma197 c i xt fh hrows = arrRow c fh (word c i xt (xfer 4 0)) (word_lt c i xt hrows (xfer 4 0)) := dma_of_word c fh _ _ (w_r_139 c i xt) _ rfl
theorem d_dma20 : runFirst.sl.dma20 c i xt fh hrows = arrRow c fh (word c i xt (xfer 0 5)) (word_lt c i xt hrows (xfer 0 5)) := dma_of_word c fh _ _ (w_r_9 c i xt) _ rfl
theorem d_dma200 : runFirst.sl.dma200 c i xt fh hrows = arrRow c fh (word c i xt (xfer 4 1)) (word_lt c i xt hrows (xfer 4 1)) := dma_of_word c fh _ _ (w_r_140 c i xt) _ rfl
theorem d_dma203 : runFirst.sl.dma203 c i xt fh hrows = arrRow c fh (word c i xt (xfer 4 2)) (word_lt c i xt hrows (xfer 4 2)) := dma_of_word c fh _ _ (w_r_143 c i xt) _ rfl
theorem d_dma206 : runFirst.sl.dma206 c i xt fh hrows = arrRow c fh (word c i xt (xfer 4 3)) (word_lt c i xt hrows (xfer 4 3)) := dma_of_word c fh _ _ (w_r_146 c i xt) _ rfl
theorem d_dma209 : runFirst.sl.dma209 c i xt fh hrows = arrRow c fh (word c i xt (xfer 4 4)) (word_lt c i xt hrows (xfer 4 4)) := dma_of_word c fh _ _ (w_r_147 c i xt) _ rfl
theorem d_dma212 : runFirst.sl.dma212 c i xt fh hrows = arrRow c fh (word c i xt (xfer 4 5)) (word_lt c i xt hrows (xfer 4 5)) := dma_of_word c fh _ _ (w_r_149 c i xt) _ rfl
theorem d_dma215 : runFirst.sl.dma215 c i xt fh hrows = arrRow c fh (word c i xt (xfer 4 6)) (word_lt c i xt hrows (xfer 4 6)) := dma_of_word c fh _ _ (w_r_152 c i xt) _ rfl
theorem d_dma218 : runFirst.sl.dma218 c i xt fh hrows = arrRow c fh (word c i xt (xfer 4 7)) (word_lt c i xt hrows (xfer 4 7)) := dma_of_word c fh _ _ (w_r_153 c i xt) _ rfl
theorem d_dma221 : runFirst.sl.dma221 c i xt fh hrows = arrRow c fh (word c i xt (xfer 4 8)) (word_lt c i xt hrows (xfer 4 8)) := dma_of_word c fh _ _ (w_r_155 c i xt) _ rfl
theorem d_dma224 : runFirst.sl.dma224 c i xt fh hrows = arrRow c fh (word c i xt (xfer 4 9)) (word_lt c i xt hrows (xfer 4 9)) := dma_of_word c fh _ _ (w_r_158 c i xt) _ rfl
theorem d_dma227 : runFirst.sl.dma227 c i xt fh hrows = arrRow c fh (word c i xt (xfer 4 10)) (word_lt c i xt hrows (xfer 4 10)) := dma_of_word c fh _ _ (w_r_159 c i xt) _ rfl
theorem d_dma23 : runFirst.sl.dma23 c i xt fh hrows = arrRow c fh (word c i xt (xfer 0 6)) (word_lt c i xt hrows (xfer 0 6)) := dma_of_word c fh _ _ (w_r_12 c i xt) _ rfl
theorem d_dma230 : runFirst.sl.dma230 c i xt fh hrows = arrRow c fh (word c i xt (xfer 4 11)) (word_lt c i xt hrows (xfer 4 11)) := dma_of_word c fh _ _ (w_r_161 c i xt) _ rfl
theorem d_dma233 : runFirst.sl.dma233 c i xt fh hrows = arrRow c fh (word c i xt (xfer 4 12)) (word_lt c i xt hrows (xfer 4 12)) := dma_of_word c fh _ _ (w_r_164 c i xt) _ rfl
theorem d_dma236 : runFirst.sl.dma236 c i xt fh hrows = arrRow c fh (word c i xt (xfer 4 13)) (word_lt c i xt hrows (xfer 4 13)) := dma_of_word c fh _ _ (w_r_165 c i xt) _ rfl
theorem d_dma239 : runFirst.sl.dma239 c i xt fh hrows = arrRow c fh (word c i xt (xfer 4 14)) (word_lt c i xt hrows (xfer 4 14)) := dma_of_word c fh _ _ (w_r_167 c i xt) _ rfl
theorem d_dma242 : runFirst.sl.dma242 c i xt fh hrows = arrRow c fh (word c i xt (xfer 4 15)) (word_lt c i xt hrows (xfer 4 15)) := dma_of_word c fh _ _ (w_r_170 c i xt) _ rfl
theorem d_dma245 : runFirst.sl.dma245 c i xt fh hrows = arrRow c fh (word c i xt (xfer 5 0)) (word_lt c i xt hrows (xfer 5 0)) := dma_of_word c fh _ _ (w_r_171 c i xt) _ rfl
theorem d_dma248 : runFirst.sl.dma248 c i xt fh hrows = arrRow c fh (word c i xt (xfer 5 1)) (word_lt c i xt hrows (xfer 5 1)) := dma_of_word c fh _ _ (w_r_173 c i xt) _ rfl
theorem d_dma251 : runFirst.sl.dma251 c i xt fh hrows = arrRow c fh (word c i xt (xfer 5 2)) (word_lt c i xt hrows (xfer 5 2)) := dma_of_word c fh _ _ (w_r_176 c i xt) _ rfl
theorem d_dma254 : runFirst.sl.dma254 c i xt fh hrows = arrRow c fh (word c i xt (xfer 5 3)) (word_lt c i xt hrows (xfer 5 3)) := dma_of_word c fh _ _ (w_r_177 c i xt) _ rfl
theorem d_dma257 : runFirst.sl.dma257 c i xt fh hrows = arrRow c fh (word c i xt (xfer 5 4)) (word_lt c i xt hrows (xfer 5 4)) := dma_of_word c fh _ _ (w_r_180 c i xt) _ rfl
theorem d_dma26 : runFirst.sl.dma26 c i xt fh hrows = arrRow c fh (word c i xt (xfer 0 7)) (word_lt c i xt hrows (xfer 0 7)) := dma_of_word c fh _ _ (w_r_13 c i xt) _ rfl
theorem d_dma260 : runFirst.sl.dma260 c i xt fh hrows = arrRow c fh (word c i xt (xfer 5 5)) (word_lt c i xt hrows (xfer 5 5)) := dma_of_word c fh _ _ (w_r_183 c i xt) _ rfl
theorem d_dma263 : runFirst.sl.dma263 c i xt fh hrows = arrRow c fh (word c i xt (xfer 5 6)) (word_lt c i xt hrows (xfer 5 6)) := dma_of_word c fh _ _ (w_r_184 c i xt) _ rfl
theorem d_dma266 : runFirst.sl.dma266 c i xt fh hrows = arrRow c fh (word c i xt (xfer 5 7)) (word_lt c i xt hrows (xfer 5 7)) := dma_of_word c fh _ _ (w_r_186 c i xt) _ rfl
theorem d_dma269 : runFirst.sl.dma269 c i xt fh hrows = arrRow c fh (word c i xt (xfer 5 8)) (word_lt c i xt hrows (xfer 5 8)) := dma_of_word c fh _ _ (w_r_189 c i xt) _ rfl
theorem d_dma272 : runFirst.sl.dma272 c i xt fh hrows = arrRow c fh (word c i xt (xfer 5 9)) (word_lt c i xt hrows (xfer 5 9)) := dma_of_word c fh _ _ (w_r_190 c i xt) _ rfl
theorem d_dma275 : runFirst.sl.dma275 c i xt fh hrows = arrRow c fh (word c i xt (xfer 5 10)) (word_lt c i xt hrows (xfer 5 10)) := dma_of_word c fh _ _ (w_r_192 c i xt) _ rfl
theorem d_dma278 : runFirst.sl.dma278 c i xt fh hrows = arrRow c fh (word c i xt (xfer 5 11)) (word_lt c i xt hrows (xfer 5 11)) := dma_of_word c fh _ _ (w_r_195 c i xt) _ rfl
theorem d_dma281 : runFirst.sl.dma281 c i xt fh hrows = arrRow c fh (word c i xt (xfer 5 12)) (word_lt c i xt hrows (xfer 5 12)) := dma_of_word c fh _ _ (w_r_196 c i xt) _ rfl
theorem d_dma284 : runFirst.sl.dma284 c i xt fh hrows = arrRow c fh (word c i xt (xfer 5 13)) (word_lt c i xt hrows (xfer 5 13)) := dma_of_word c fh _ _ (w_r_198 c i xt) _ rfl
theorem d_dma287 : runFirst.sl.dma287 c i xt fh hrows = arrRow c fh (word c i xt (xfer 5 14)) (word_lt c i xt hrows (xfer 5 14)) := dma_of_word c fh _ _ (w_r_201 c i xt) _ rfl
theorem d_dma29 : runFirst.sl.dma29 c i xt fh hrows = arrRow c fh (word c i xt (xfer 0 8)) (word_lt c i xt hrows (xfer 0 8)) := dma_of_word c fh _ _ (w_r_16 c i xt) _ rfl
theorem d_dma290 : runFirst.sl.dma290 c i xt fh hrows = arrRow c fh (word c i xt (xfer 5 15)) (word_lt c i xt hrows (xfer 5 15)) := dma_of_word c fh _ _ (w_r_202 c i xt) _ rfl
theorem d_dma293 : runFirst.sl.dma293 c i xt fh hrows = arrRow c fh (word c i xt (xfer 6 0)) (word_lt c i xt hrows (xfer 6 0)) := dma_of_word c fh _ _ (w_r_204 c i xt) _ rfl
theorem d_dma296 : runFirst.sl.dma296 c i xt fh hrows = arrRow c fh (word c i xt (xfer 6 1)) (word_lt c i xt hrows (xfer 6 1)) := dma_of_word c fh _ _ (w_r_206 c i xt) _ rfl
theorem d_dma299 : runFirst.sl.dma299 c i xt fh hrows = arrRow c fh (word c i xt (xfer 6 2)) (word_lt c i xt hrows (xfer 6 2)) := dma_of_word c fh _ _ (w_r_207 c i xt) _ rfl
theorem d_dma302 : runFirst.sl.dma302 c i xt fh hrows = arrRow c fh (word c i xt (xfer 6 3)) (word_lt c i xt hrows (xfer 6 3)) := dma_of_word c fh _ _ (w_r_209 c i xt) _ rfl
theorem d_dma305 : runFirst.sl.dma305 c i xt fh hrows = arrRow c fh (word c i xt (xfer 6 4)) (word_lt c i xt hrows (xfer 6 4)) := dma_of_word c fh _ _ (w_r_212 c i xt) _ rfl
theorem d_dma308 : runFirst.sl.dma308 c i xt fh hrows = arrRow c fh (word c i xt (xfer 6 5)) (word_lt c i xt hrows (xfer 6 5)) := dma_of_word c fh _ _ (w_r_213 c i xt) _ rfl
theorem d_dma311 : runFirst.sl.dma311 c i xt fh hrows = arrRow c fh (word c i xt (xfer 6 6)) (word_lt c i xt hrows (xfer 6 6)) := dma_of_word c fh _ _ (w_r_215 c i xt) _ rfl
theorem d_dma314 : runFirst.sl.dma314 c i xt fh hrows = arrRow c fh (word c i xt (xfer 6 7)) (word_lt c i xt hrows (xfer 6 7)) := dma_of_word c fh _ _ (w_r_218 c i xt) _ rfl
theorem d_dma317 : runFirst.sl.dma317 c i xt fh hrows = arrRow c fh (word c i xt (xfer 6 8)) (word_lt c i xt hrows (xfer 6 8)) := dma_of_word c fh _ _ (w_r_219 c i xt) _ rfl
theorem d_dma32 : runFirst.sl.dma32 c i xt fh hrows = arrRow c fh (word c i xt (xfer 0 9)) (word_lt c i xt hrows (xfer 0 9)) := dma_of_word c fh _ _ (w_r_19 c i xt) _ rfl
theorem d_dma320 : runFirst.sl.dma320 c i xt fh hrows = arrRow c fh (word c i xt (xfer 6 9)) (word_lt c i xt hrows (xfer 6 9)) := dma_of_word c fh _ _ (w_r_221 c i xt) _ rfl
theorem d_dma323 : runFirst.sl.dma323 c i xt fh hrows = arrRow c fh (word c i xt (xfer 6 10)) (word_lt c i xt hrows (xfer 6 10)) := dma_of_word c fh _ _ (w_r_224 c i xt) _ rfl
theorem d_dma326 : runFirst.sl.dma326 c i xt fh hrows = arrRow c fh (word c i xt (xfer 6 11)) (word_lt c i xt hrows (xfer 6 11)) := dma_of_word c fh _ _ (w_r_225 c i xt) _ rfl
theorem d_dma329 : runFirst.sl.dma329 c i xt fh hrows = arrRow c fh (word c i xt (xfer 6 12)) (word_lt c i xt hrows (xfer 6 12)) := dma_of_word c fh _ _ (w_r_227 c i xt) _ rfl
theorem d_dma332 : runFirst.sl.dma332 c i xt fh hrows = arrRow c fh (word c i xt (xfer 6 13)) (word_lt c i xt hrows (xfer 6 13)) := dma_of_word c fh _ _ (w_r_230 c i xt) _ rfl
theorem d_dma335 : runFirst.sl.dma335 c i xt fh hrows = arrRow c fh (word c i xt (xfer 6 14)) (word_lt c i xt hrows (xfer 6 14)) := dma_of_word c fh _ _ (w_r_231 c i xt) _ rfl
theorem d_dma338 : runFirst.sl.dma338 c i xt fh hrows = arrRow c fh (word c i xt (xfer 6 15)) (word_lt c i xt hrows (xfer 6 15)) := dma_of_word c fh _ _ (w_r_233 c i xt) _ rfl
theorem d_dma341 : runFirst.sl.dma341 c i xt fh hrows = arrRow c fh (word c i xt (xfer 7 0)) (word_lt c i xt hrows (xfer 7 0)) := dma_of_word c fh _ _ (w_r_236 c i xt) _ rfl
theorem d_dma344 : runFirst.sl.dma344 c i xt fh hrows = arrRow c fh (word c i xt (xfer 7 1)) (word_lt c i xt hrows (xfer 7 1)) := dma_of_word c fh _ _ (w_r_237 c i xt) _ rfl
theorem d_dma347 : runFirst.sl.dma347 c i xt fh hrows = arrRow c fh (word c i xt (xfer 7 2)) (word_lt c i xt hrows (xfer 7 2)) := dma_of_word c fh _ _ (w_r_239 c i xt) _ rfl
theorem d_dma35 : runFirst.sl.dma35 c i xt fh hrows = arrRow c fh (word c i xt (xfer 0 10)) (word_lt c i xt hrows (xfer 0 10)) := dma_of_word c fh _ _ (w_r_20 c i xt) _ rfl
theorem d_dma350 : runFirst.sl.dma350 c i xt fh hrows = arrRow c fh (word c i xt (xfer 7 3)) (word_lt c i xt hrows (xfer 7 3)) := dma_of_word c fh _ _ (w_r_242 c i xt) _ rfl
theorem d_dma353 : runFirst.sl.dma353 c i xt fh hrows = arrRow c fh (word c i xt (xfer 7 4)) (word_lt c i xt hrows (xfer 7 4)) := dma_of_word c fh _ _ (w_r_243 c i xt) _ rfl
theorem d_dma356 : runFirst.sl.dma356 c i xt fh hrows = arrRow c fh (word c i xt (xfer 7 5)) (word_lt c i xt hrows (xfer 7 5)) := dma_of_word c fh _ _ (w_r_245 c i xt) _ rfl
theorem d_dma359 : runFirst.sl.dma359 c i xt fh hrows = arrRow c fh (word c i xt (xfer 7 6)) (word_lt c i xt hrows (xfer 7 6)) := dma_of_word c fh _ _ (w_r_248 c i xt) _ rfl
theorem d_dma362 : runFirst.sl.dma362 c i xt fh hrows = arrRow c fh (word c i xt (xfer 7 7)) (word_lt c i xt hrows (xfer 7 7)) := dma_of_word c fh _ _ (w_r_249 c i xt) _ rfl
theorem d_dma365 : runFirst.sl.dma365 c i xt fh hrows = arrRow c fh (word c i xt (xfer 7 8)) (word_lt c i xt hrows (xfer 7 8)) := dma_of_word c fh _ _ (w_r_251 c i xt) _ rfl
theorem d_dma368 : runFirst.sl.dma368 c i xt fh hrows = arrRow c fh (word c i xt (xfer 7 9)) (word_lt c i xt hrows (xfer 7 9)) := dma_of_word c fh _ _ (w_r_254 c i xt) _ rfl
theorem d_dma371 : runFirst.sl.dma371 c i xt fh hrows = arrRow c fh (word c i xt (xfer 7 10)) (word_lt c i xt hrows (xfer 7 10)) := dma_of_word c fh _ _ (w_r_255 c i xt) _ rfl
theorem d_dma374 : runFirst.sl.dma374 c i xt fh hrows = arrRow c fh (word c i xt (xfer 7 11)) (word_lt c i xt hrows (xfer 7 11)) := dma_of_word c fh _ _ (w_r_257 c i xt) _ rfl
theorem d_dma377 : runFirst.sl.dma377 c i xt fh hrows = arrRow c fh (word c i xt (xfer 7 12)) (word_lt c i xt hrows (xfer 7 12)) := dma_of_word c fh _ _ (w_r_260 c i xt) _ rfl
theorem d_dma38 : runFirst.sl.dma38 c i xt fh hrows = arrRow c fh (word c i xt (xfer 0 11)) (word_lt c i xt hrows (xfer 0 11)) := dma_of_word c fh _ _ (w_r_23 c i xt) _ rfl
theorem d_dma380 : runFirst.sl.dma380 c i xt fh hrows = arrRow c fh (word c i xt (xfer 7 13)) (word_lt c i xt hrows (xfer 7 13)) := dma_of_word c fh _ _ (w_r_261 c i xt) _ rfl
theorem d_dma383 : runFirst.sl.dma383 c i xt fh hrows = arrRow c fh (word c i xt (xfer 7 14)) (word_lt c i xt hrows (xfer 7 14)) := dma_of_word c fh _ _ (w_r_263 c i xt) _ rfl
theorem d_dma386 : runFirst.sl.dma386 c i xt fh hrows = arrRow c fh (word c i xt (xfer 7 15)) (word_lt c i xt hrows (xfer 7 15)) := dma_of_word c fh _ _ (w_r_266 c i xt) _ rfl
theorem d_dma41 : runFirst.sl.dma41 c i xt fh hrows = arrRow c fh (word c i xt (xfer 0 12)) (word_lt c i xt hrows (xfer 0 12)) := dma_of_word c fh _ _ (w_r_26 c i xt) _ rfl
theorem d_dma44 : runFirst.sl.dma44 c i xt fh hrows = arrRow c fh (word c i xt (xfer 0 13)) (word_lt c i xt hrows (xfer 0 13)) := dma_of_word c fh _ _ (w_r_27 c i xt) _ rfl
theorem d_dma47 : runFirst.sl.dma47 c i xt fh hrows = arrRow c fh (word c i xt (xfer 0 14)) (word_lt c i xt hrows (xfer 0 14)) := dma_of_word c fh _ _ (w_r_30 c i xt) _ rfl
theorem d_dma50 : runFirst.sl.dma50 c i xt fh hrows = arrRow c fh (word c i xt (xfer 0 15)) (word_lt c i xt hrows (xfer 0 15)) := dma_of_word c fh _ _ (w_r_33 c i xt) _ rfl
theorem d_dma53 : runFirst.sl.dma53 c i xt fh hrows = arrRow c fh (word c i xt (xfer 1 0)) (word_lt c i xt hrows (xfer 1 0)) := dma_of_word c fh _ _ (w_r_34 c i xt) _ rfl
theorem d_dma56 : runFirst.sl.dma56 c i xt fh hrows = arrRow c fh (word c i xt (xfer 1 1)) (word_lt c i xt hrows (xfer 1 1)) := dma_of_word c fh _ _ (w_r_37 c i xt) _ rfl
theorem d_dma59 : runFirst.sl.dma59 c i xt fh hrows = arrRow c fh (word c i xt (xfer 1 2)) (word_lt c i xt hrows (xfer 1 2)) := dma_of_word c fh _ _ (w_r_40 c i xt) _ rfl
theorem d_dma62 : runFirst.sl.dma62 c i xt fh hrows = arrRow c fh (word c i xt (xfer 1 3)) (word_lt c i xt hrows (xfer 1 3)) := dma_of_word c fh _ _ (w_r_43 c i xt) _ rfl
theorem d_dma65 : runFirst.sl.dma65 c i xt fh hrows = arrRow c fh (word c i xt (xfer 1 4)) (word_lt c i xt hrows (xfer 1 4)) := dma_of_word c fh _ _ (w_r_44 c i xt) _ rfl
theorem d_dma68 : runFirst.sl.dma68 c i xt fh hrows = arrRow c fh (word c i xt (xfer 1 5)) (word_lt c i xt hrows (xfer 1 5)) := dma_of_word c fh _ _ (w_r_47 c i xt) _ rfl
theorem d_dma7 : runFirst.sl.dma7 c i xt fh hrows = arrRow c fh (word c i xt (xfer 0 0)) (word_lt c i xt hrows (xfer 0 0)) := dma_of_word c fh _ _ (w_r c i xt) _ rfl
theorem d_dma71 : runFirst.sl.dma71 c i xt fh hrows = arrRow c fh (word c i xt (xfer 1 6)) (word_lt c i xt hrows (xfer 1 6)) := dma_of_word c fh _ _ (w_r_50 c i xt) _ rfl
theorem d_dma74 : runFirst.sl.dma74 c i xt fh hrows = arrRow c fh (word c i xt (xfer 1 7)) (word_lt c i xt hrows (xfer 1 7)) := dma_of_word c fh _ _ (w_r_51 c i xt) _ rfl
theorem d_dma77 : runFirst.sl.dma77 c i xt fh hrows = arrRow c fh (word c i xt (xfer 1 8)) (word_lt c i xt hrows (xfer 1 8)) := dma_of_word c fh _ _ (w_r_54 c i xt) _ rfl
theorem d_dma8 : runFirst.sl.dma8 c i xt fh hrows = arrRow c fh (word c i xt (xfer 0 1)) (word_lt c i xt hrows (xfer 0 1)) := dma_of_word c fh _ _ (w_r_1 c i xt) _ rfl
theorem d_dma80 : runFirst.sl.dma80 c i xt fh hrows = arrRow c fh (word c i xt (xfer 1 9)) (word_lt c i xt hrows (xfer 1 9)) := dma_of_word c fh _ _ (w_r_57 c i xt) _ rfl
theorem d_dma83 : runFirst.sl.dma83 c i xt fh hrows = arrRow c fh (word c i xt (xfer 1 10)) (word_lt c i xt hrows (xfer 1 10)) := dma_of_word c fh _ _ (w_r_58 c i xt) _ rfl
theorem d_dma86 : runFirst.sl.dma86 c i xt fh hrows = arrRow c fh (word c i xt (xfer 1 11)) (word_lt c i xt hrows (xfer 1 11)) := dma_of_word c fh _ _ (w_r_61 c i xt) _ rfl
theorem d_dma89 : runFirst.sl.dma89 c i xt fh hrows = arrRow c fh (word c i xt (xfer 1 12)) (word_lt c i xt hrows (xfer 1 12)) := dma_of_word c fh _ _ (w_r_64 c i xt) _ rfl
theorem d_dma92 : runFirst.sl.dma92 c i xt fh hrows = arrRow c fh (word c i xt (xfer 1 13)) (word_lt c i xt hrows (xfer 1 13)) := dma_of_word c fh _ _ (w_r_65 c i xt) _ rfl
theorem d_dma95 : runFirst.sl.dma95 c i xt fh hrows = arrRow c fh (word c i xt (xfer 1 14)) (word_lt c i xt hrows (xfer 1 14)) := dma_of_word c fh _ _ (w_r_68 c i xt) _ rfl
theorem d_dma98 : runFirst.sl.dma98 c i xt fh hrows = arrRow c fh (word c i xt (xfer 1 15)) (word_lt c i xt hrows (xfer 1 15)) := dma_of_word c fh _ _ (w_r_71 c i xt) _ rfl
theorem l_v1006 : runFirst.sl.v1006 c i arg6 xt fh fs0 hrows = asRow (runFirst.sl.dma143 c i xt fh hrows) := load_second arg6 0 1 (by decide) rfl rfl rfl
theorem l_v101 : runFirst.sl.v101 c i arg6 xt fh fs0 hrows = asRow (runFirst.sl.dma14 c i xt fh hrows) := load_second arg6 1 0 (by decide) rfl rfl rfl
theorem l_v1027 : runFirst.sl.v1027 c i arg6 xt fh fs0 hrows = asRow (runFirst.sl.dma146 c i xt fh hrows) := load_second arg6 1 0 (by decide) rfl rfl rfl
theorem l_v1049 : runFirst.sl.v1049 c i arg6 xt fh fs0 hrows = asRow (runFirst.sl.dma149 c i xt fh hrows) := load_second arg6 0 1 (by decide) rfl rfl rfl
theorem l_v1070 : runFirst.sl.v1070 c i arg6 xt fh fs0 hrows = asRow (runFirst.sl.dma152 c i xt fh hrows) := load_second arg6 1 0 (by decide) rfl rfl rfl
theorem l_v1091 : runFirst.sl.v1091 c i arg6 xt fh fs0 hrows = asRow (runFirst.sl.dma155 c i xt fh hrows) := load_second arg6 0 1 (by decide) rfl rfl rfl
theorem l_v1112 : runFirst.sl.v1112 c i arg6 xt fh fs0 hrows = asRow (runFirst.sl.dma158 c i xt fh hrows) := load_second arg6 1 0 (by decide) rfl rfl rfl
theorem l_v1133 : runFirst.sl.v1133 c i arg6 xt fh fs0 hrows = asRow (runFirst.sl.dma161 c i xt fh hrows) := load_second arg6 0 1 (by decide) rfl rfl rfl
theorem l_v1154 : runFirst.sl.v1154 c i arg6 xt fh fs0 hrows = asRow (runFirst.sl.dma164 c i xt fh hrows) := load_second arg6 1 0 (by decide) rfl rfl rfl
theorem l_v1175 : runFirst.sl.v1175 c i arg6 xt fh fs0 hrows = asRow (runFirst.sl.dma167 c i xt fh hrows) := load_second arg6 0 1 (by decide) rfl rfl rfl
theorem l_v1196 : runFirst.sl.v1196 c i arg6 xt fh fs0 hrows = asRow (runFirst.sl.dma170 c i xt fh hrows) := load_second arg6 1 0 (by decide) rfl rfl rfl
theorem l_v1217 : runFirst.sl.v1217 c i arg6 xt fh fs0 hrows = asRow (runFirst.sl.dma173 c i xt fh hrows) := load_second arg6 0 1 (by decide) rfl rfl rfl
theorem l_v122 : runFirst.sl.v122 c i arg6 xt fh fs0 hrows = asRow (runFirst.sl.dma17 c i xt fh hrows) := load_second arg6 0 1 (by decide) rfl rfl rfl
theorem l_v1238 : runFirst.sl.v1238 c i arg6 xt fh fs0 hrows = asRow (runFirst.sl.dma176 c i xt fh hrows) := load_second arg6 1 0 (by decide) rfl rfl rfl
theorem l_v1259 : runFirst.sl.v1259 c i arg6 xt fh fs0 hrows = asRow (runFirst.sl.dma179 c i xt fh hrows) := load_second arg6 0 1 (by decide) rfl rfl rfl
theorem l_v1280 : runFirst.sl.v1280 c i arg6 xt fh fs0 hrows = asRow (runFirst.sl.dma182 c i xt fh hrows) := load_second arg6 1 0 (by decide) rfl rfl rfl
theorem l_v1301 : runFirst.sl.v1301 c i arg6 xt fh fs0 hrows = asRow (runFirst.sl.dma185 c i xt fh hrows) := load_second arg6 0 1 (by decide) rfl rfl rfl
theorem l_v1322 : runFirst.sl.v1322 c i arg6 xt fh fs0 hrows = asRow (runFirst.sl.dma188 c i xt fh hrows) := load_second arg6 1 0 (by decide) rfl rfl rfl
theorem l_v1343 : runFirst.sl.v1343 c i arg6 xt fh fs0 hrows = asRow (runFirst.sl.dma191 c i xt fh hrows) := load_second arg6 0 1 (by decide) rfl rfl rfl
theorem l_v1364 : runFirst.sl.v1364 c i arg6 xt fh fs0 hrows = asRow (runFirst.sl.dma194 c i xt fh hrows) := load_second arg6 1 0 (by decide) rfl rfl rfl
theorem l_v1386 : runFirst.sl.v1386 c i arg6 xt fh fs0 hrows = asRow (runFirst.sl.dma197 c i xt fh hrows) := load_second arg6 0 1 (by decide) rfl rfl rfl
theorem l_v1407 : runFirst.sl.v1407 c i arg6 xt fh fs0 hrows = asRow (runFirst.sl.dma200 c i xt fh hrows) := load_second arg6 1 0 (by decide) rfl rfl rfl
theorem l_v1428 : runFirst.sl.v1428 c i arg6 xt fh fs0 hrows = asRow (runFirst.sl.dma203 c i xt fh hrows) := load_second arg6 0 1 (by decide) rfl rfl rfl
theorem l_v143 : runFirst.sl.v143 c i arg6 xt fh fs0 hrows = asRow (runFirst.sl.dma20 c i xt fh hrows) := load_second arg6 1 0 (by decide) rfl rfl rfl
theorem l_v1449 : runFirst.sl.v1449 c i arg6 xt fh fs0 hrows = asRow (runFirst.sl.dma206 c i xt fh hrows) := load_second arg6 1 0 (by decide) rfl rfl rfl
theorem l_v1470 : runFirst.sl.v1470 c i arg6 xt fh fs0 hrows = asRow (runFirst.sl.dma209 c i xt fh hrows) := load_second arg6 0 1 (by decide) rfl rfl rfl
theorem l_v1491 : runFirst.sl.v1491 c i arg6 xt fh fs0 hrows = asRow (runFirst.sl.dma212 c i xt fh hrows) := load_second arg6 1 0 (by decide) rfl rfl rfl
theorem l_v1512 : runFirst.sl.v1512 c i arg6 xt fh fs0 hrows = asRow (runFirst.sl.dma215 c i xt fh hrows) := load_second arg6 0 1 (by decide) rfl rfl rfl
theorem l_v1533 : runFirst.sl.v1533 c i arg6 xt fh fs0 hrows = asRow (runFirst.sl.dma218 c i xt fh hrows) := load_second arg6 1 0 (by decide) rfl rfl rfl
theorem l_v1554 : runFirst.sl.v1554 c i arg6 xt fh fs0 hrows = asRow (runFirst.sl.dma221 c i xt fh hrows) := load_second arg6 0 1 (by decide) rfl rfl rfl
theorem l_v1575 : runFirst.sl.v1575 c i arg6 xt fh fs0 hrows = asRow (runFirst.sl.dma224 c i xt fh hrows) := load_second arg6 1 0 (by decide) rfl rfl rfl
theorem l_v1596 : runFirst.sl.v1596 c i arg6 xt fh fs0 hrows = asRow (runFirst.sl.dma227 c i xt fh hrows) := load_second arg6 0 1 (by decide) rfl rfl rfl
theorem l_v1617 : runFirst.sl.v1617 c i arg6 xt fh fs0 hrows = asRow (runFirst.sl.dma230 c i xt fh hrows) := load_second arg6 1 0 (by decide) rfl rfl rfl
theorem l_v1638 : runFirst.sl.v1638 c i arg6 xt fh fs0 hrows = asRow (runFirst.sl.dma233 c i xt fh hrows) := load_second arg6 0 1 (by decide) rfl rfl rfl
theorem l_v164 : runFirst.sl.v164 c i arg6 xt fh fs0 hrows = asRow (runFirst.sl.dma23 c i xt fh hrows) := load_second arg6 0 1 (by decide) rfl rfl rfl
theorem l_v1659 : runFirst.sl.v1659 c i arg6 xt fh fs0 hrows = asRow (runFirst.sl.dma236 c i xt fh hrows) := load_second arg6 1 0 (by decide) rfl rfl rfl
theorem l_v1680 : runFirst.sl.v1680 c i arg6 xt fh fs0 hrows = asRow (runFirst.sl.dma239 c i xt fh hrows) := load_second arg6 0 1 (by decide) rfl rfl rfl
theorem l_v1701 : runFirst.sl.v1701 c i arg6 xt fh fs0 hrows = asRow (runFirst.sl.dma242 c i xt fh hrows) := load_second arg6 1 0 (by decide) rfl rfl rfl
theorem l_v1723 : runFirst.sl.v1723 c i arg6 xt fh fs0 hrows = asRow (runFirst.sl.dma245 c i xt fh hrows) := load_second arg6 0 1 (by decide) rfl rfl rfl
theorem l_v1744 : runFirst.sl.v1744 c i arg6 xt fh fs0 hrows = asRow (runFirst.sl.dma248 c i xt fh hrows) := load_second arg6 1 0 (by decide) rfl rfl rfl
theorem l_v1765 : runFirst.sl.v1765 c i arg6 xt fh fs0 hrows = asRow (runFirst.sl.dma251 c i xt fh hrows) := load_second arg6 0 1 (by decide) rfl rfl rfl
theorem l_v1786 : runFirst.sl.v1786 c i arg6 xt fh fs0 hrows = asRow (runFirst.sl.dma254 c i xt fh hrows) := load_second arg6 1 0 (by decide) rfl rfl rfl
theorem l_v1807 : runFirst.sl.v1807 c i arg6 xt fh fs0 hrows = asRow (runFirst.sl.dma257 c i xt fh hrows) := load_second arg6 0 1 (by decide) rfl rfl rfl
theorem l_v1828 : runFirst.sl.v1828 c i arg6 xt fh fs0 hrows = asRow (runFirst.sl.dma260 c i xt fh hrows) := load_second arg6 1 0 (by decide) rfl rfl rfl
theorem l_v1849 : runFirst.sl.v1849 c i arg6 xt fh fs0 hrows = asRow (runFirst.sl.dma263 c i xt fh hrows) := load_second arg6 0 1 (by decide) rfl rfl rfl
theorem l_v185 : runFirst.sl.v185 c i arg6 xt fh fs0 hrows = asRow (runFirst.sl.dma26 c i xt fh hrows) := load_second arg6 1 0 (by decide) rfl rfl rfl
theorem l_v1870 : runFirst.sl.v1870 c i arg6 xt fh fs0 hrows = asRow (runFirst.sl.dma266 c i xt fh hrows) := load_second arg6 1 0 (by decide) rfl rfl rfl
theorem l_v1891 : runFirst.sl.v1891 c i arg6 xt fh fs0 hrows = asRow (runFirst.sl.dma269 c i xt fh hrows) := load_second arg6 0 1 (by decide) rfl rfl rfl
theorem l_v1912 : runFirst.sl.v1912 c i arg6 xt fh fs0 hrows = asRow (runFirst.sl.dma272 c i xt fh hrows) := load_second arg6 1 0 (by decide) rfl rfl rfl
theorem l_v1933 : runFirst.sl.v1933 c i arg6 xt fh fs0 hrows = asRow (runFirst.sl.dma275 c i xt fh hrows) := load_second arg6 0 1 (by decide) rfl rfl rfl
theorem l_v1954 : runFirst.sl.v1954 c i arg6 xt fh fs0 hrows = asRow (runFirst.sl.dma278 c i xt fh hrows) := load_second arg6 1 0 (by decide) rfl rfl rfl
theorem l_v1975 : runFirst.sl.v1975 c i arg6 xt fh fs0 hrows = asRow (runFirst.sl.dma281 c i xt fh hrows) := load_second arg6 0 1 (by decide) rfl rfl rfl
theorem l_v1996 : runFirst.sl.v1996 c i arg6 xt fh fs0 hrows = asRow (runFirst.sl.dma284 c i xt fh hrows) := load_second arg6 1 0 (by decide) rfl rfl rfl
theorem l_v2017 : runFirst.sl.v2017 c i arg6 xt fh fs0 hrows = asRow (runFirst.sl.dma287 c i xt fh hrows) := load_second arg6 0 1 (by decide) rfl rfl rfl
theorem l_v2038 : runFirst.sl.v2038 c i arg6 xt fh fs0 hrows = asRow (runFirst.sl.dma290 c i xt fh hrows) := load_second arg6 1 0 (by decide) rfl rfl rfl
theorem l_v206 : runFirst.sl.v206 c i arg6 xt fh fs0 hrows = asRow (runFirst.sl.dma29 c i xt fh hrows) := load_second arg6 0 1 (by decide) rfl rfl rfl
theorem l_v2060 : runFirst.sl.v2060 c i arg6 xt fh fs0 hrows = asRow (runFirst.sl.dma293 c i xt fh hrows) := load_second arg6 0 1 (by decide) rfl rfl rfl
theorem l_v2081 : runFirst.sl.v2081 c i arg6 xt fh fs0 hrows = asRow (runFirst.sl.dma296 c i xt fh hrows) := load_second arg6 1 0 (by decide) rfl rfl rfl
theorem l_v2102 : runFirst.sl.v2102 c i arg6 xt fh fs0 hrows = asRow (runFirst.sl.dma299 c i xt fh hrows) := load_second arg6 0 1 (by decide) rfl rfl rfl
theorem l_v2123 : runFirst.sl.v2123 c i arg6 xt fh fs0 hrows = asRow (runFirst.sl.dma302 c i xt fh hrows) := load_second arg6 1 0 (by decide) rfl rfl rfl
theorem l_v2144 : runFirst.sl.v2144 c i arg6 xt fh fs0 hrows = asRow (runFirst.sl.dma305 c i xt fh hrows) := load_second arg6 0 1 (by decide) rfl rfl rfl
theorem l_v2165 : runFirst.sl.v2165 c i arg6 xt fh fs0 hrows = asRow (runFirst.sl.dma308 c i xt fh hrows) := load_second arg6 1 0 (by decide) rfl rfl rfl
theorem l_v2186 : runFirst.sl.v2186 c i arg6 xt fh fs0 hrows = asRow (runFirst.sl.dma311 c i xt fh hrows) := load_second arg6 0 1 (by decide) rfl rfl rfl
theorem l_v2207 : runFirst.sl.v2207 c i arg6 xt fh fs0 hrows = asRow (runFirst.sl.dma314 c i xt fh hrows) := load_second arg6 1 0 (by decide) rfl rfl rfl
theorem l_v2228 : runFirst.sl.v2228 c i arg6 xt fh fs0 hrows = asRow (runFirst.sl.dma317 c i xt fh hrows) := load_second arg6 0 1 (by decide) rfl rfl rfl
theorem l_v2249 : runFirst.sl.v2249 c i arg6 xt fh fs0 hrows = asRow (runFirst.sl.dma320 c i xt fh hrows) := load_second arg6 1 0 (by decide) rfl rfl rfl
theorem l_v227 : runFirst.sl.v227 c i arg6 xt fh fs0 hrows = asRow (runFirst.sl.dma32 c i xt fh hrows) := load_second arg6 1 0 (by decide) rfl rfl rfl
theorem l_v2270 : runFirst.sl.v2270 c i arg6 xt fh fs0 hrows = asRow (runFirst.sl.dma323 c i xt fh hrows) := load_second arg6 0 1 (by decide) rfl rfl rfl
theorem l_v2291 : runFirst.sl.v2291 c i arg6 xt fh fs0 hrows = asRow (runFirst.sl.dma326 c i xt fh hrows) := load_second arg6 1 0 (by decide) rfl rfl rfl
theorem l_v2312 : runFirst.sl.v2312 c i arg6 xt fh fs0 hrows = asRow (runFirst.sl.dma329 c i xt fh hrows) := load_second arg6 0 1 (by decide) rfl rfl rfl
theorem l_v2333 : runFirst.sl.v2333 c i arg6 xt fh fs0 hrows = asRow (runFirst.sl.dma332 c i xt fh hrows) := load_second arg6 1 0 (by decide) rfl rfl rfl
theorem l_v2354 : runFirst.sl.v2354 c i arg6 xt fh fs0 hrows = asRow (runFirst.sl.dma335 c i xt fh hrows) := load_second arg6 0 1 (by decide) rfl rfl rfl
theorem l_v2375 : runFirst.sl.v2375 c i arg6 xt fh fs0 hrows = asRow (runFirst.sl.dma338 c i xt fh hrows) := load_second arg6 1 0 (by decide) rfl rfl rfl
theorem l_v2397 : runFirst.sl.v2397 c i arg6 xt fh fs0 hrows = asRow (runFirst.sl.dma341 c i xt fh hrows) := load_second arg6 0 1 (by decide) rfl rfl rfl
theorem l_v2418 : runFirst.sl.v2418 c i arg6 xt fh fs0 hrows = asRow (runFirst.sl.dma344 c i xt fh hrows) := load_second arg6 1 0 (by decide) rfl rfl rfl
theorem l_v2439 : runFirst.sl.v2439 c i arg6 xt fh fs0 hrows = asRow (runFirst.sl.dma347 c i xt fh hrows) := load_second arg6 0 1 (by decide) rfl rfl rfl
theorem l_v2460 : runFirst.sl.v2460 c i arg6 xt fh fs0 hrows = asRow (runFirst.sl.dma350 c i xt fh hrows) := load_second arg6 1 0 (by decide) rfl rfl rfl
theorem l_v248 : runFirst.sl.v248 c i arg6 xt fh fs0 hrows = asRow (runFirst.sl.dma35 c i xt fh hrows) := load_second arg6 0 1 (by decide) rfl rfl rfl
theorem l_v2481 : runFirst.sl.v2481 c i arg6 xt fh fs0 hrows = asRow (runFirst.sl.dma353 c i xt fh hrows) := load_second arg6 0 1 (by decide) rfl rfl rfl
theorem l_v2502 : runFirst.sl.v2502 c i arg6 xt fh fs0 hrows = asRow (runFirst.sl.dma356 c i xt fh hrows) := load_second arg6 1 0 (by decide) rfl rfl rfl
theorem l_v2523 : runFirst.sl.v2523 c i arg6 xt fh fs0 hrows = asRow (runFirst.sl.dma359 c i xt fh hrows) := load_second arg6 0 1 (by decide) rfl rfl rfl
theorem l_v2544 : runFirst.sl.v2544 c i arg6 xt fh fs0 hrows = asRow (runFirst.sl.dma362 c i xt fh hrows) := load_second arg6 1 0 (by decide) rfl rfl rfl
theorem l_v2565 : runFirst.sl.v2565 c i arg6 xt fh fs0 hrows = asRow (runFirst.sl.dma365 c i xt fh hrows) := load_second arg6 0 1 (by decide) rfl rfl rfl
theorem l_v2586 : runFirst.sl.v2586 c i arg6 xt fh fs0 hrows = asRow (runFirst.sl.dma368 c i xt fh hrows) := load_second arg6 1 0 (by decide) rfl rfl rfl
theorem l_v2607 : runFirst.sl.v2607 c i arg6 xt fh fs0 hrows = asRow (runFirst.sl.dma371 c i xt fh hrows) := load_second arg6 0 1 (by decide) rfl rfl rfl
theorem l_v2628 : runFirst.sl.v2628 c i arg6 xt fh fs0 hrows = asRow (runFirst.sl.dma374 c i xt fh hrows) := load_second arg6 1 0 (by decide) rfl rfl rfl
theorem l_v2649 : runFirst.sl.v2649 c i arg6 xt fh fs0 hrows = asRow (runFirst.sl.dma377 c i xt fh hrows) := load_second arg6 0 1 (by decide) rfl rfl rfl
theorem l_v2670 : runFirst.sl.v2670 c i arg6 xt fh fs0 hrows = asRow (runFirst.sl.dma380 c i xt fh hrows) := load_second arg6 1 0 (by decide) rfl rfl rfl
theorem l_v269 : runFirst.sl.v269 c i arg6 xt fh fs0 hrows = asRow (runFirst.sl.dma38 c i xt fh hrows) := load_second arg6 1 0 (by decide) rfl rfl rfl
theorem l_v2691 : runFirst.sl.v2691 c i arg6 xt fh fs0 hrows = asRow (runFirst.sl.dma383 c i xt fh hrows) := load_second arg6 0 1 (by decide) rfl rfl rfl
theorem l_v2702 : runFirst.sl.v2702 c i arg6 xt fh fs0 hrows = asRow (runFirst.sl.dma386 c i xt fh hrows) := load_top arg6 1 rfl rfl
theorem l_v290 : runFirst.sl.v290 c i arg6 xt fh fs0 hrows = asRow (runFirst.sl.dma41 c i xt fh hrows) := load_second arg6 0 1 (by decide) rfl rfl rfl
theorem l_v311 : runFirst.sl.v311 c i arg6 xt fh fs0 hrows = asRow (runFirst.sl.dma44 c i xt fh hrows) := load_second arg6 1 0 (by decide) rfl rfl rfl
theorem l_v332 : runFirst.sl.v332 c i arg6 xt fh fs0 hrows = asRow (runFirst.sl.dma47 c i xt fh hrows) := load_second arg6 0 1 (by decide) rfl rfl rfl
theorem l_v353 : runFirst.sl.v353 c i arg6 xt fh fs0 hrows = asRow (runFirst.sl.dma50 c i xt fh hrows) := load_second arg6 1 0 (by decide) rfl rfl rfl
theorem l_v375 : runFirst.sl.v375 c i arg6 xt fh fs0 hrows = asRow (runFirst.sl.dma53 c i xt fh hrows) := load_second arg6 0 1 (by decide) rfl rfl rfl
theorem l_v38 : runFirst.sl.v38 c i arg6 xt fh fs0 hrows = asRow (runFirst.sl.dma7 c i xt fh hrows) := load_second arg6 0 1 (by decide) rfl rfl rfl
theorem l_v396 : runFirst.sl.v396 c i arg6 xt fh fs0 hrows = asRow (runFirst.sl.dma56 c i xt fh hrows) := load_second arg6 1 0 (by decide) rfl rfl rfl
theorem l_v417 : runFirst.sl.v417 c i arg6 xt fh fs0 hrows = asRow (runFirst.sl.dma59 c i xt fh hrows) := load_second arg6 0 1 (by decide) rfl rfl rfl
theorem l_v438 : runFirst.sl.v438 c i arg6 xt fh fs0 hrows = asRow (runFirst.sl.dma62 c i xt fh hrows) := load_second arg6 1 0 (by decide) rfl rfl rfl
theorem l_v459 : runFirst.sl.v459 c i arg6 xt fh fs0 hrows = asRow (runFirst.sl.dma65 c i xt fh hrows) := load_second arg6 0 1 (by decide) rfl rfl rfl
theorem l_v480 : runFirst.sl.v480 c i arg6 xt fh fs0 hrows = asRow (runFirst.sl.dma68 c i xt fh hrows) := load_second arg6 1 0 (by decide) rfl rfl rfl
theorem l_v501 : runFirst.sl.v501 c i arg6 xt fh fs0 hrows = asRow (runFirst.sl.dma71 c i xt fh hrows) := load_second arg6 0 1 (by decide) rfl rfl rfl
theorem l_v522 : runFirst.sl.v522 c i arg6 xt fh fs0 hrows = asRow (runFirst.sl.dma74 c i xt fh hrows) := load_second arg6 1 0 (by decide) rfl rfl rfl
theorem l_v543 : runFirst.sl.v543 c i arg6 xt fh fs0 hrows = asRow (runFirst.sl.dma77 c i xt fh hrows) := load_second arg6 0 1 (by decide) rfl rfl rfl
theorem l_v564 : runFirst.sl.v564 c i arg6 xt fh fs0 hrows = asRow (runFirst.sl.dma80 c i xt fh hrows) := load_second arg6 1 0 (by decide) rfl rfl rfl
theorem l_v585 : runFirst.sl.v585 c i arg6 xt fh fs0 hrows = asRow (runFirst.sl.dma83 c i xt fh hrows) := load_second arg6 0 1 (by decide) rfl rfl rfl
theorem l_v59 : runFirst.sl.v59 c i arg6 xt fh fs0 hrows = asRow (runFirst.sl.dma8 c i xt fh hrows) := load_second arg6 1 0 (by decide) rfl rfl rfl
theorem l_v606 : runFirst.sl.v606 c i arg6 xt fh fs0 hrows = asRow (runFirst.sl.dma86 c i xt fh hrows) := load_second arg6 1 0 (by decide) rfl rfl rfl
theorem l_v627 : runFirst.sl.v627 c i arg6 xt fh fs0 hrows = asRow (runFirst.sl.dma89 c i xt fh hrows) := load_second arg6 0 1 (by decide) rfl rfl rfl
theorem l_v648 : runFirst.sl.v648 c i arg6 xt fh fs0 hrows = asRow (runFirst.sl.dma92 c i xt fh hrows) := load_second arg6 1 0 (by decide) rfl rfl rfl
theorem l_v669 : runFirst.sl.v669 c i arg6 xt fh fs0 hrows = asRow (runFirst.sl.dma95 c i xt fh hrows) := load_second arg6 0 1 (by decide) rfl rfl rfl
theorem l_v690 : runFirst.sl.v690 c i arg6 xt fh fs0 hrows = asRow (runFirst.sl.dma98 c i xt fh hrows) := load_second arg6 1 0 (by decide) rfl rfl rfl
theorem l_v712 : runFirst.sl.v712 c i arg6 xt fh fs0 hrows = asRow (runFirst.sl.dma101 c i xt fh hrows) := load_second arg6 0 1 (by decide) rfl rfl rfl
theorem l_v733 : runFirst.sl.v733 c i arg6 xt fh fs0 hrows = asRow (runFirst.sl.dma104 c i xt fh hrows) := load_second arg6 1 0 (by decide) rfl rfl rfl
theorem l_v754 : runFirst.sl.v754 c i arg6 xt fh fs0 hrows = asRow (runFirst.sl.dma107 c i xt fh hrows) := load_second arg6 0 1 (by decide) rfl rfl rfl
theorem l_v775 : runFirst.sl.v775 c i arg6 xt fh fs0 hrows = asRow (runFirst.sl.dma110 c i xt fh hrows) := load_second arg6 1 0 (by decide) rfl rfl rfl
theorem l_v796 : runFirst.sl.v796 c i arg6 xt fh fs0 hrows = asRow (runFirst.sl.dma113 c i xt fh hrows) := load_second arg6 0 1 (by decide) rfl rfl rfl
theorem l_v80 : runFirst.sl.v80 c i arg6 xt fh fs0 hrows = asRow (runFirst.sl.dma11 c i xt fh hrows) := load_second arg6 0 1 (by decide) rfl rfl rfl
theorem l_v817 : runFirst.sl.v817 c i arg6 xt fh fs0 hrows = asRow (runFirst.sl.dma116 c i xt fh hrows) := load_second arg6 1 0 (by decide) rfl rfl rfl
theorem l_v838 : runFirst.sl.v838 c i arg6 xt fh fs0 hrows = asRow (runFirst.sl.dma119 c i xt fh hrows) := load_second arg6 0 1 (by decide) rfl rfl rfl
theorem l_v859 : runFirst.sl.v859 c i arg6 xt fh fs0 hrows = asRow (runFirst.sl.dma122 c i xt fh hrows) := load_second arg6 1 0 (by decide) rfl rfl rfl
theorem l_v880 : runFirst.sl.v880 c i arg6 xt fh fs0 hrows = asRow (runFirst.sl.dma125 c i xt fh hrows) := load_second arg6 0 1 (by decide) rfl rfl rfl
theorem l_v901 : runFirst.sl.v901 c i arg6 xt fh fs0 hrows = asRow (runFirst.sl.dma128 c i xt fh hrows) := load_second arg6 1 0 (by decide) rfl rfl rfl
theorem l_v922 : runFirst.sl.v922 c i arg6 xt fh fs0 hrows = asRow (runFirst.sl.dma131 c i xt fh hrows) := load_second arg6 0 1 (by decide) rfl rfl rfl
theorem l_v943 : runFirst.sl.v943 c i arg6 xt fh fs0 hrows = asRow (runFirst.sl.dma134 c i xt fh hrows) := load_second arg6 1 0 (by decide) rfl rfl rfl
theorem l_v964 : runFirst.sl.v964 c i arg6 xt fh fs0 hrows = asRow (runFirst.sl.dma137 c i xt fh hrows) := load_second arg6 0 1 (by decide) rfl rfl rfl
theorem l_v985 : runFirst.sl.v985 c i arg6 xt fh fs0 hrows = asRow (runFirst.sl.dma140 c i xt fh hrows) := load_second arg6 1 0 (by decide) rfl rfl rfl
theorem e_r_111 : runFirst.sl.r_111 c arg3 harg3 x0 = blockRow x0 3 := block_load arg3 harg3 3 rfl x0
theorem e_r_142 : runFirst.sl.r_142 c arg3 harg3 x0 = blockRow x0 4 := block_load arg3 harg3 4 rfl x0
theorem e_r_179 : runFirst.sl.r_179 c arg3 harg3 x0 = blockRow x0 5 := block_load arg3 harg3 5 rfl x0
theorem e_r_81 : runFirst.sl.r_81 c arg3 harg3 x0 = blockRow x0 2 := block_load arg3 harg3 2 rfl x0
theorem row_0 : View.readAt (Elt F) arg3.view (Rect.unit (s := S8x512) ![0, 0] ![1, 512] inb_S8x512_S1x512_0_0).toLoadRect (harg3.unread x0) = blockRow x0 0 := block_load arg3 harg3 0 rfl x0
theorem row_0' : View.readAt (Elt F) arg3.view (Rect.unit (s := S8x512) ![0, 0] S1x512.size inb_S8x512_S1x512_0_0).toLoadRect (harg3.unread x0) = blockRow x0 0 := block_load arg3 harg3 0 rfl x0
theorem row_1 : View.readAt (Elt F) arg3.view (Rect.unit (s := S8x512) ![1, 0] ![1, 512] inb_S8x512_S1x512_1_0).toLoadRect (harg3.unread x0) = blockRow x0 1 := block_load arg3 harg3 1 rfl x0
theorem row_1' : View.readAt (Elt F) arg3.view (Rect.unit (s := S8x512) ![1, 0] S1x512.size inb_S8x512_S1x512_1_0).toLoadRect (harg3.unread x0) = blockRow x0 1 := block_load arg3 harg3 1 rfl x0
theorem row_2 : View.readAt (Elt F) arg3.view (Rect.unit (s := S8x512) ![2, 0] ![1, 512] inb_S8x512_S1x512_2_0).toLoadRect (harg3.unread x0) = blockRow x0 2 := block_load arg3 harg3 2 rfl x0
theorem row_2' : View.readAt (Elt F) arg3.view (Rect.unit (s := S8x512) ![2, 0] S1x512.size inb_S8x512_S1x512_2_0).toLoadRect (harg3.unread x0) = blockRow x0 2 := block_load arg3 harg3 2 rfl x0
theorem row_3 : View.readAt (Elt F) arg3.view (Rect.unit (s := S8x512) ![3, 0] ![1, 512] inb_S8x512_S1x512_3_0).toLoadRect (harg3.unread x0) = blockRow x0 3 := block_load arg3 harg3 3 rfl x0
theorem row_3' : View.readAt (Elt F) arg3.view (Rect.unit (s := S8x512) ![3, 0] S1x512.size inb_S8x512_S1x512_3_0).toLoadRect (harg3.unread x0) = blockRow x0 3 := block_load arg3 harg3 3 rfl x0
theorem row_4 : View.readAt (Elt F) arg3.view (Rect.unit (s := S8x512) ![4, 0] ![1, 512] inb_S8x512_S1x512_4_0).toLoadRect (harg3.unread x0) = blockRow x0 4 := block_load arg3 harg3 4 rfl x0
theorem row_4' : View.readAt (Elt F) arg3.view (Rect.unit (s := S8x512) ![4, 0] S1x512.size inb_S8x512_S1x512_4_0).toLoadRect (harg3.unread x0) = blockRow x0 4 := block_load arg3 harg3 4 rfl x0
theorem row_5 : View.readAt (Elt F) arg3.view (Rect.unit (s := S8x512) ![5, 0] ![1, 512] inb_S8x512_S1x512_5_0).toLoadRect (harg3.unread x0) = blockRow x0 5 := block_load arg3 harg3 5 rfl x0
theorem row_5' : View.readAt (Elt F) arg3.view (Rect.unit (s := S8x512) ![5, 0] S1x512.size inb_S8x512_S1x512_5_0).toLoadRect (harg3.unread x0) = blockRow x0 5 := block_load arg3 harg3 5 rfl x0
theorem row_6 : View.readAt (Elt F) arg3.view (Rect.unit (s := S8x512) ![6, 0] ![1, 512] inb_S8x512_S1x512_6_0).toLoadRect (harg3.unread x0) = blockRow x0 6 := block_load arg3 harg3 6 rfl x0
theorem row_6' : View.readAt (Elt F) arg3.view (Rect.unit (s := S8x512) ![6, 0] S1x512.size inb_S8x512_S1x512_6_0).toLoadRect (harg3.unread x0) = blockRow x0 6 := block_load arg3 harg3 6 rfl x0
theorem row_7 : View.readAt (Elt F) arg3.view (Rect.unit (s := S8x512) ![7, 0] ![1, 512] inb_S8x512_S1x512_7_0).toLoadRect (harg3.unread x0) = blockRow x0 7 := block_load arg3 harg3 7 rfl x0
theorem row_7' : View.readAt (Elt F) arg3.view (Rect.unit (s := S8x512) ![7, 0] S1x512.size inb_S8x512_S1x512_7_0).toLoadRect (harg3.unread x0) = blockRow x0 7 := block_load arg3 harg3 7 rfl x0
theorem e_r_3 : runFirst.sl.r_3 c i arg3 harg3 arg6 xt x0 fh fs0 hrows = pmax (blockRow x0 0) (asRow (arrRow c fh (word c i xt (xfer 0 0)) (word_lt c i xt hrows (xfer 0 0)))) := by
  unfold runFirst.sl.r_3
  simp only [pay5_eq, row_0, row_0', l_v38, d_dma7]
theorem e_r_4 : runFirst.sl.r_4 c i arg3 harg3 arg6 xt x0 fh fs0 hrows = addf (blockRow x0 0) (asRow (arrRow c fh (word c i xt (xfer 0 1)) (word_lt c i xt hrows (xfer 0 1)))) := by
  unfold runFirst.sl.r_4
  simp only [pay6_eq, row_0, row_0', l_v59, d_dma8]
theorem e_r_7 : runFirst.sl.r_7 c i arg3 harg3 arg6 xt x0 fh fs0 hrows = pmax (blockRow x0 0) (asRow (arrRow c fh (word c i xt (xfer 0 1)) (word_lt c i xt hrows (xfer 0 1)))) := by
  unfold runFirst.sl.r_7
  simp only [pay7_eq, e_r_4, smax_addf]
theorem e_r_8 : runFirst.sl.r_8 c i arg3 harg3 arg6 xt x0 fh fs0 hrows = pmax (blockRow x0 0) (asRow (arrRow c fh (word c i xt (xfer 0 2)) (word_lt c i xt hrows (xfer 0 2)))) := by
  unfold runFirst.sl.r_8
  simp only [pay8_eq, row_0, row_0', l_v80, d_dma11]
theorem e_r_10 : runFirst.sl.r_10 c i arg3 harg3 arg6 xt x0 fh fs0 hrows = pmax (blockRow x0 0) (asRow (arrRow c fh (word c i xt (xfer 0 3)) (word_lt c i xt hrows (xfer 0 3)))) := by
  unfold runFirst.sl.r_10
  simp only [pay9_eq, row_0, row_0', l_v101, d_dma14]
theorem e_r_11 : runFirst.sl.r_11 c i arg3 harg3 arg6 xt x0 fh fs0 hrows = addf (blockRow x0 0) (asRow (arrRow c fh (word c i xt (xfer 0 4)) (word_lt c i xt hrows (xfer 0 4)))) := by
  unfold runFirst.sl.r_11
  simp only [pay10_eq, row_0, row_0', l_v122, d_dma17]
theorem e_r_14 : runFirst.sl.r_14 c i arg3 harg3 arg6 xt x0 fh fs0 hrows = pmax (blockRow x0 0) (asRow (arrRow c fh (word c i xt (xfer 0 4)) (word_lt c i xt hrows (xfer 0 4)))) := by
  unfold runFirst.sl.r_14
  simp only [pay11_eq, e_r_11, smax_addf]
theorem e_r_15 : runFirst.sl.r_15 c i arg3 harg3 arg6 xt x0 fh fs0 hrows = pmax (blockRow x0 0) (asRow (arrRow c fh (word c i xt (xfer 0 5)) (word_lt c i xt hrows (xfer 0 5)))) := by
  unfold runFirst.sl.r_15
  simp only [pay12_eq, row_0, row_0', l_v143, d_dma20]
theorem e_r_17 : runFirst.sl.r_17 c i arg3 harg3 arg6 xt x0 fh fs0 hrows = pmax (blockRow x0 0) (asRow (arrRow c fh (word c i xt (xfer 0 6)) (word_lt c i xt hrows (xfer 0 6)))) := by
  unfold runFirst.sl.r_17
  simp only [pay13_eq, row_0, row_0', l_v164, d_dma23]
theorem e_r_18 : runFirst.sl.r_18 c i arg3 harg3 arg6 xt x0 fh fs0 hrows = addf (blockRow x0 0) (asRow (arrRow c fh (word c i xt (xfer 0 7)) (word_lt c i xt hrows (xfer 0 7)))) := by
  unfold runFirst.sl.r_18
  simp only [pay14_eq, row_0, row_0', l_v185, d_dma26]
theorem e_r_21 : runFirst.sl.r_21 c i arg3 harg3 arg6 xt x0 fh fs0 hrows = pmax (blockRow x0 0) (asRow (arrRow c fh (word c i xt (xfer 0 7)) (word_lt c i xt hrows (xfer 0 7)))) := by
  unfold runFirst.sl.r_21
  simp only [pay15_eq, e_r_18, smax_addf]
theorem e_r_22 : runFirst.sl.r_22 c i arg3 harg3 arg6 xt x0 fh fs0 hrows = pmax (blockRow x0 0) (asRow (arrRow c fh (word c i xt (xfer 0 8)) (word_lt c i xt hrows (xfer 0 8)))) := by
  unfold runFirst.sl.r_22
  simp only [pay16_eq, row_0, row_0', l_v206, d_dma29]
theorem e_r_24 : runFirst.sl.r_24 c i arg3 harg3 arg6 xt x0 fh fs0 hrows = pmax (blockRow x0 0) (asRow (arrRow c fh (word c i xt (xfer 0 9)) (word_lt c i xt hrows (xfer 0 9)))) := by
  unfold runFirst.sl.r_24
  simp only [pay17_eq, row_0, row_0', l_v227, d_dma32]
theorem e_r_25 : runFirst.sl.r_25 c i arg3 harg3 arg6 xt x0 fh fs0 hrows = addf (blockRow x0 0) (asRow (arrRow c fh (word c i xt (xfer 0 10)) (word_lt c i xt hrows (xfer 0 10)))) := by
  unfold runFirst.sl.r_25
  simp only [pay18_eq, row_0, row_0', l_v248, d_dma35]
theorem e_r_28 : runFirst.sl.r_28 c i arg3 harg3 arg6 xt x0 fh fs0 hrows = pmax (blockRow x0 0) (asRow (arrRow c fh (word c i xt (xfer 0 10)) (word_lt c i xt hrows (xfer 0 10)))) := by
  unfold runFirst.sl.r_28
  simp only [pay19_eq, e_r_25, smax_addf]
theorem e_r_29 : runFirst.sl.r_29 c i arg3 harg3 arg6 xt x0 fh fs0 hrows = pmax (blockRow x0 0) (asRow (arrRow c fh (word c i xt (xfer 0 11)) (word_lt c i xt hrows (xfer 0 11)))) := by
  unfold runFirst.sl.r_29
  simp only [pay20_eq, row_0, row_0', l_v269, d_dma38]
theorem e_r_31 : runFirst.sl.r_31 c i arg3 harg3 arg6 xt x0 fh fs0 hrows = pmax (blockRow x0 0) (asRow (arrRow c fh (word c i xt (xfer 0 12)) (word_lt c i xt hrows (xfer 0 12)))) := by
  unfold runFirst.sl.r_31
  simp only [pay21_eq, row_0, row_0', l_v290, d_dma41]
theorem e_r_32 : runFirst.sl.r_32 c i arg3 harg3 arg6 xt x0 fh fs0 hrows = addf (blockRow x0 0) (asRow (arrRow c fh (word c i xt (xfer 0 13)) (word_lt c i xt hrows (xfer 0 13)))) := by
  unfold runFirst.sl.r_32
  simp only [pay22_eq, row_0, row_0', l_v311, d_dma44]
theorem e_r_35 : runFirst.sl.r_35 c i arg3 harg3 arg6 xt x0 fh fs0 hrows = pmax (blockRow x0 0) (asRow (arrRow c fh (word c i xt (xfer 0 13)) (word_lt c i xt hrows (xfer 0 13)))) := by
  unfold runFirst.sl.r_35
  simp only [pay23_eq, e_r_32, smax_addf]
theorem e_r_36 : runFirst.sl.r_36 c i arg3 harg3 arg6 xt x0 fh fs0 hrows = pmax (blockRow x0 0) (asRow (arrRow c fh (word c i xt (xfer 0 14)) (word_lt c i xt hrows (xfer 0 14)))) := by
  unfold runFirst.sl.r_36
  simp only [pay24_eq, row_0, row_0', l_v332, d_dma47]
theorem e_r_38 : runFirst.sl.r_38 c i arg3 harg3 arg6 xt x0 fh fs0 hrows = row16 fun k => pmax (blockRow x0 0) (asRow (arrRow c fh (word c i xt (xfer 0 k)) (word_lt c i xt hrows (xfer 0 k)))) := by
  unfold runFirst.sl.r_38
  simp only [pay25_eq, e_r_3, e_r_7, e_r_8, e_r_10, e_r_14, e_r_15, e_r_17, e_r_21, e_r_22, e_r_24, e_r_28, e_r_29, e_r_31, e_r_35, e_r_36, row_0, row_0', l_v353, d_dma50]
  exact congrArg row16 (funext fun k => by fin_cases k <;> rfl)
theorem e_r_39 : runFirst.sl.r_39 c i arg3 harg3 arg6 xt x0 fh fs0 hrows = addf (blockRow x0 1) (asRow (arrRow c fh (word c i xt (xfer 1 0)) (word_lt c i xt hrows (xfer 1 0)))) := by
  unfold runFirst.sl.r_39
  simp only [pay26_eq, row_1, row_1', l_v375, d_dma53]
theorem e_r_41 : runFirst.sl.r_41 c i arg3 harg3 arg6 xt x0 fh fs0 hrows = pmax (blockRow x0 1) (asRow (arrRow c fh (word c i xt (xfer 1 0)) (word_lt c i xt hrows (xfer 1 0)))) := by
  unfold runFirst.sl.r_41
  simp only [pay27_eq, e_r_39, smax_addf]
theorem e_r_42 : runFirst.sl.r_42 c i arg3 harg3 arg6 xt x0 fh fs0 hrows = pmax (blockRow x0 1) (asRow (arrRow c fh (word c i xt (xfer 1 1)) (word_lt c i xt hrows (xfer 1 1)))) := by
  unfold runFirst.sl.r_42
  simp only [pay28_eq, row_1, row_1', l_v396, d_dma56]
theorem e_r_45 : runFirst.sl.r_45 c i arg3 harg3 arg6 xt x0 fh fs0 hrows = pmax (blockRow x0 1) (asRow (arrRow c fh (word c i xt (xfer 1 2)) (word_lt c i xt hrows (xfer 1 2)))) := by
  unfold runFirst.sl.r_45
  simp only [pay29_eq, row_1, row_1', l_v417, d_dma59]
theorem e_r_46 : runFirst.sl.r_46 c i arg3 harg3 arg6 xt x0 fh fs0 hrows = addf (blockRow x0 1) (asRow (arrRow c fh (word c i xt (xfer 1 3)) (word_lt c i xt hrows (xfer 1 3)))) := by
  unfold runFirst.sl.r_46
  simp only [pay30_eq, row_1, row_1', l_v438, d_dma62]
theorem e_r_48 : runFirst.sl.r_48 c i arg3 harg3 arg6 xt x0 fh fs0 hrows = pmax (blockRow x0 1) (asRow (arrRow c fh (word c i xt (xfer 1 3)) (word_lt c i xt hrows (xfer 1 3)))) := by
  unfold runFirst.sl.r_48
  simp only [pay31_eq, e_r_46, smax_addf]
theorem e_r_49 : runFirst.sl.r_49 c i arg3 harg3 arg6 xt x0 fh fs0 hrows = pmax (blockRow x0 1) (asRow (arrRow c fh (word c i xt (xfer 1 4)) (word_lt c i xt hrows (xfer 1 4)))) := by
  unfold runFirst.sl.r_49
  simp only [pay32_eq, row_1, row_1', l_v459, d_dma65]
theorem e_r_52 : runFirst.sl.r_52 c i arg3 harg3 arg6 xt x0 fh fs0 hrows = pmax (blockRow x0 1) (asRow (arrRow c fh (word c i xt (xfer 1 5)) (word_lt c i xt hrows (xfer 1 5)))) := by
  unfold runFirst.sl.r_52
  simp only [pay33_eq, row_1, row_1', l_v480, d_dma68]
theorem e_r_53 : runFirst.sl.r_53 c i arg3 harg3 arg6 xt x0 fh fs0 hrows = addf (blockRow x0 1) (asRow (arrRow c fh (word c i xt (xfer 1 6)) (word_lt c i xt hrows (xfer 1 6)))) := by
  unfold runFirst.sl.r_53
  simp only [pay34_eq, row_1, row_1', l_v501, d_dma71]
theorem e_r_55 : runFirst.sl.r_55 c i arg3 harg3 arg6 xt x0 fh fs0 hrows = pmax (blockRow x0 1) (asRow (arrRow c fh (word c i xt (xfer 1 6)) (word_lt c i xt hrows (xfer 1 6)))) := by
  unfold runFirst.sl.r_55
  simp only [pay35_eq, e_r_53, smax_addf]
theorem e_r_56 : runFirst.sl.r_56 c i arg3 harg3 arg6 xt x0 fh fs0 hrows = pmax (blockRow x0 1) (asRow (arrRow c fh (word c i xt (xfer 1 7)) (word_lt c i xt hrows (xfer 1 7)))) := by
  unfold runFirst.sl.r_56
  simp only [pay36_eq, row_1, row_1', l_v522, d_dma74]
theorem e_r_59 : runFirst.sl.r_59 c i arg3 harg3 arg6 xt x0 fh fs0 hrows = pmax (blockRow x0 1) (asRow (arrRow c fh (word c i xt (xfer 1 8)) (word_lt c i xt hrows (xfer 1 8)))) := by
  unfold runFirst.sl.r_59
  simp only [pay37_eq, row_1, row_1', l_v543, d_dma77]
theorem e_r_60 : runFirst.sl.r_60 c i arg3 harg3 arg6 xt x0 fh fs0 hrows = addf (blockRow x0 1) (asRow (arrRow c fh (word c i xt (xfer 1 9)) (word_lt c i xt hrows (xfer 1 9)))) := by
  unfold runFirst.sl.r_60
  simp only [pay38_eq, row_1, row_1', l_v564, d_dma80]
theorem e_r_62 : runFirst.sl.r_62 c i arg3 harg3 arg6 xt x0 fh fs0 hrows = pmax (blockRow x0 1) (asRow (arrRow c fh (word c i xt (xfer 1 9)) (word_lt c i xt hrows (xfer 1 9)))) := by
  unfold runFirst.sl.r_62
  simp only [pay39_eq, e_r_60, smax_addf]
theorem e_r_63 : runFirst.sl.r_63 c i arg3 harg3 arg6 xt x0 fh fs0 hrows = pmax (blockRow x0 1) (asRow (arrRow c fh (word c i xt (xfer 1 10)) (word_lt c i xt hrows (xfer 1 10)))) := by
  unfold runFirst.sl.r_63
  simp only [pay40_eq, row_1, row_1', l_v585, d_dma83]
theorem e_r_66 : runFirst.sl.r_66 c i arg3 harg3 arg6 xt x0 fh fs0 hrows = pmax (blockRow x0 1) (asRow (arrRow c fh (word c i xt (xfer 1 11)) (word_lt c i xt hrows (xfer 1 11)))) := by
  unfold runFirst.sl.r_66
  simp only [pay41_eq, row_1, row_1', l_v606, d_dma86]
theorem e_r_67 : runFirst.sl.r_67 c i arg3 harg3 arg6 xt x0 fh fs0 hrows = addf (blockRow x0 1) (asRow (arrRow c fh (word c i xt (xfer 1 12)) (word_lt c i xt hrows (xfer 1 12)))) := by
  unfold runFirst.sl.r_67
  simp only [pay42_eq, row_1, row_1', l_v627, d_dma89]
theorem e_r_69 : runFirst.sl.r_69 c i arg3 harg3 arg6 xt x0 fh fs0 hrows = pmax (blockRow x0 1) (asRow (arrRow c fh (word c i xt (xfer 1 12)) (word_lt c i xt hrows (xfer 1 12)))) := by
  unfold runFirst.sl.r_69
  simp only [pay43_eq, e_r_67, smax_addf]
theorem e_r_70 : runFirst.sl.r_70 c i arg3 harg3 arg6 xt x0 fh fs0 hrows = pmax (blockRow x0 1) (asRow (arrRow c fh (word c i xt (xfer 1 13)) (word_lt c i xt hrows (xfer 1 13)))) := by
  unfold runFirst.sl.r_70
  simp only [pay44_eq, row_1, row_1', l_v648, d_dma92]
theorem e_r_73 : runFirst.sl.r_73 c i arg3 harg3 arg6 xt x0 fh fs0 hrows = pmax (blockRow x0 1) (asRow (arrRow c fh (word c i xt (xfer 1 14)) (word_lt c i xt hrows (xfer 1 14)))) := by
  unfold runFirst.sl.r_73
  simp only [pay45_eq, row_1, row_1', l_v669, d_dma95]
theorem e_r_74 : runFirst.sl.r_74 c i arg3 harg3 arg6 xt x0 fh fs0 hrows = addf (blockRow x0 1) (asRow (arrRow c fh (word c i xt (xfer 1 15)) (word_lt c i xt hrows (xfer 1 15)))) := by
  unfold runFirst.sl.r_74
  simp only [pay46_eq, row_1, row_1', l_v690, d_dma98]
theorem e_r_76 : runFirst.sl.r_76 c i arg3 harg3 arg6 xt x0 fh fs0 hrows = row16 fun k => pmax (blockRow x0 1) (asRow (arrRow c fh (word c i xt (xfer 1 k)) (word_lt c i xt hrows (xfer 1 k)))) := by
  unfold runFirst.sl.r_76
  simp only [pay47_eq, e_r_41, e_r_42, e_r_45, e_r_48, e_r_49, e_r_52, e_r_55, e_r_56, e_r_59, e_r_62, e_r_63, e_r_66, e_r_69, e_r_70, e_r_73, e_r_74, smax_addf]
  exact congrArg row16 (funext fun k => by fin_cases k <;> rfl)
theorem e_r_77 : runFirst.sl.r_77 c i arg3 harg3 arg6 xt x0 fh fs0 hrows = pmax (blockRow x0 2) (asRow (arrRow c fh (word c i xt (xfer 2 0)) (word_lt c i xt hrows (xfer 2 0)))) := by
  unfold runFirst.sl.r_77
  simp only [pay48_eq, row_2, row_2', l_v712, d_dma101]
theorem e_r_80 : runFirst.sl.r_80 c i arg3 harg3 arg6 xt x0 fh fs0 hrows = pmax (blockRow x0 2) (asRow (arrRow c fh (word c i xt (xfer 2 1)) (word_lt c i xt hrows (xfer 2 1)))) := by
  unfold runFirst.sl.r_80
  simp only [pay49_eq, row_2, row_2', l_v733, d_dma104]
theorem e_r_83 : runFirst.sl.r_83 c i arg3 harg3 arg6 xt x0 fh fs0 hrows = pmax (blockRow x0 2) (asRow (arrRow c fh (word c i xt (xfer 2 2)) (word_lt c i xt hrows (xfer 2 2)))) := by
  unfold runFirst.sl.r_83
  simp only [pay50_eq, e_r_81, l_v754, d_dma107]
theorem e_r_84 : runFirst.sl.r_84 c i arg3 harg3 arg6 xt x0 fh fs0 hrows = pmax (blockRow x0 2) (asRow (arrRow c fh (word c i xt (xfer 2 3)) (word_lt c i xt hrows (xfer 2 3)))) := by
  unfold runFirst.sl.r_84
  simp only [pay51_eq, row_2, row_2', l_v775, d_dma110]
theorem e_r_87 : runFirst.sl.r_87 c i arg3 harg3 arg6 xt x0 fh fs0 hrows = pmax (blockRow x0 2) (asRow (arrRow c fh (word c i xt (xfer 2 4)) (word_lt c i xt hrows (xfer 2 4)))) := by
  unfold runFirst.sl.r_87
  simp only [pay52_eq, row_2, row_2', l_v796, d_dma113]
theorem e_r_89 : runFirst.sl.r_89 c i arg3 harg3 arg6 xt x0 fh fs0 hrows = pmax (blockRow x0 2) (asRow (arrRow c fh (word c i xt (xfer 2 5)) (word_lt c i xt hrows (xfer 2 5)))) := by
  unfold runFirst.sl.r_89
  simp only [pay53_eq, e_r_81, l_v817, d_dma116]
theorem e_r_90 : runFirst.sl.r_90 c i arg3 harg3 arg6 xt x0 fh fs0 hrows = pmax (blockRow x0 2) (asRow (arrRow c fh (word c i xt (xfer 2 6)) (word_lt c i xt hrows (xfer 2 6)))) := by
  unfold runFirst.sl.r_90
  simp only [pay54_eq, row_2, row_2', l_v838, d_dma119]
theorem e_r_93 : runFirst.sl.r_93 c i arg3 harg3 arg6 xt x0 fh fs0 hrows = pmax (blockRow x0 2) (asRow (arrRow c fh (word c i xt (xfer 2 7)) (word_lt c i xt hrows (xfer 2 7)))) := by
  unfold runFirst.sl.r_93
  simp only [pay55_eq, row_2, row_2', l_v859, d_dma122]
theorem e_r_95 : runFirst.sl.r_95 c i arg3 harg3 arg6 xt x0 fh fs0 hrows = pmax (blockRow x0 2) (asRow (arrRow c fh (word c i xt (xfer 2 8)) (word_lt c i xt hrows (xfer 2 8)))) := by
  unfold runFirst.sl.r_95
  simp only [pay56_eq, e_r_81, l_v880, d_dma125]
theorem e_r_96 : runFirst.sl.r_96 c i arg3 harg3 arg6 xt x0 fh fs0 hrows = pmax (blockRow x0 2) (asRow (arrRow c fh (word c i xt (xfer 2 9)) (word_lt c i xt hrows (xfer 2 9)))) := by
  unfold runFirst.sl.r_96
  simp only [pay57_eq, row_2, row_2', l_v901, d_dma128]
theorem e_r_99 : runFirst.sl.r_99 c i arg3 harg3 arg6 xt x0 fh fs0 hrows = pmax (blockRow x0 2) (asRow (arrRow c fh (word c i xt (xfer 2 10)) (word_lt c i xt hrows (xfer 2 10)))) := by
  unfold runFirst.sl.r_99
  simp only [pay58_eq, row_2, row_2', l_v922, d_dma131]
theorem e_r_101 : runFirst.sl.r_101 c i arg3 harg3 arg6 xt x0 fh fs0 hrows = pmax (blockRow x0 2) (asRow (arrRow c fh (word c i xt (xfer 2 11)) (word_lt c i xt hrows (xfer 2 11)))) := by
  unfold runFirst.sl.r_101
  simp only [pay59_eq, e_r_81, l_v943, d_dma134]
theorem e_r_102 : runFirst.sl.r_102 c i arg3 harg3 arg6 xt x0 fh fs0 hrows = pmax (blockRow x0 2) (asRow (arrRow c fh (word c i xt (xfer 2 12)) (word_lt c i xt hrows (xfer 2 12)))) := by
  unfold runFirst.sl.r_102
  simp only [pay60_eq, row_2, row_2', l_v964, d_dma137]
theorem e_r_105 : runFirst.sl.r_105 c i arg3 harg3 arg6 xt x0 fh fs0 hrows = pmax (blockRow x0 2) (asRow (arrRow c fh (word c i xt (xfer 2 13)) (word_lt c i xt hrows (xfer 2 13)))) := by
  unfold runFirst.sl.r_105
  simp only [pay61_eq, row_2, row_2', l_v985, d_dma140]
theorem e_r_107 : runFirst.sl.r_107 c i arg3 harg3 arg6 xt x0 fh fs0 hrows = row16 fun k => pmax (blockRow x0 2) (asRow (arrRow c fh (word c i xt (xfer 2 k)) (word_lt c i xt hrows (xfer 2 k)))) := by
  unfold runFirst.sl.r_107
  simp only [pay62_eq, e_r_77, e_r_80, e_r_83, e_r_84, e_r_87, e_r_89, e_r_90, e_r_93, e_r_95, e_r_96, e_r_99, e_r_101, e_r_102, e_r_105, e_r_81, l_v1006, d_dma143, row_2, row_2', l_v1027, d_dma146]
  exact congrArg row16 (funext fun k => by fin_cases k <;> rfl)
theorem e_r_110 : runFirst.sl.r_110 c i arg3 harg3 arg6 xt x0 fh fs0 hrows = pmax (blockRow x0 3) (asRow (arrRow c fh (word c i xt (xfer 3 0)) (word_lt c i xt hrows (xfer 3 0)))) := by
  unfold runFirst.sl.r_110
  simp only [pay63_eq, row_3, row_3', l_v1049, d_dma149]
theorem e_r_113 : runFirst.sl.r_113 c i arg3 harg3 arg6 xt x0 fh fs0 hrows = pmax (blockRow x0 3) (asRow (arrRow c fh (word c i xt (xfer 3 1)) (word_lt c i xt hrows (xfer 3 1)))) := by
  unfold runFirst.sl.r_113
  simp only [pay64_eq, e_r_111, l_v1070, d_dma152]
theorem e_r_114 : runFirst.sl.r_114 c i arg3 harg3 arg6 xt x0 fh fs0 hrows = pmax (blockRow x0 3) (asRow (arrRow c fh (word c i xt (xfer 3 2)) (word_lt c i xt hrows (xfer 3 2)))) := by
  unfold runFirst.sl.r_114
  simp only [pay65_eq, row_3, row_3', l_v1091, d_dma155]
theorem e_r_117 : runFirst.sl.r_117 c i arg3 harg3 arg6 xt x0 fh fs0 hrows = pmax (blockRow x0 3) (asRow (arrRow c fh (word c i xt (xfer 3 3)) (word_lt c i xt hrows (xfer 3 3)))) := by
  unfold runFirst.sl.r_117
  simp only [pay66_eq, row_3, row_3', l_v1112, d_dma158]
theorem e_r_119 : runFirst.sl.r_119 c i arg3 harg3 arg6 xt x0 fh fs0 hrows = pmax (blockRow x0 3) (asRow (arrRow c fh (word c i xt (xfer 3 4)) (word_lt c i xt hrows (xfer 3 4)))) := by
  unfold runFirst.sl.r_119
  simp only [pay67_eq, e_r_111, l_v1133, d_dma161]
theorem e_r_120 : runFirst.sl.r_120 c i arg3 harg3 arg6 xt x0 fh fs0 hrows = pmax (blockRow x0 3) (asRow (arrRow c fh (word c i xt (xfer 3 5)) (word_lt c i xt hrows (xfer 3 5)))) := by
  unfold runFirst.sl.r_120
  simp only [pay68_eq, row_3, row_3', l_v1154, d_dma164]
theorem e_r_123 : runFirst.sl.r_123 c i arg3 harg3 arg6 xt x0 fh fs0 hrows = pmax (blockRow x0 3) (asRow (arrRow c fh (word c i xt (xfer 3 6)) (word_lt c i xt hrows (xfer 3 6)))) := by
  unfold runFirst.sl.r_123
  simp only [pay69_eq, row_3, row_3', l_v1175, d_dma167]
theorem e_r_125 : runFirst.sl.r_125 c i arg3 harg3 arg6 xt x0 fh fs0 hrows = pmax (blockRow x0 3) (asRow (arrRow c fh (word c i xt (xfer 3 7)) (word_lt c i xt hrows (xfer 3 7)))) := by
  unfold runFirst.sl.r_125
  simp only [pay70_eq, e_r_111, l_v1196, d_dma170]
theorem e_r_126 : runFirst.sl.r_126 c i arg3 harg3 arg6 xt x0 fh fs0 hrows = pmax (blockRow x0 3) (asRow (arrRow c fh (word c i xt (xfer 3 8)) (word_lt c i xt hrows (xfer 3 8)))) := by
  unfold runFirst.sl.r_126
  simp only [pay71_eq, row_3, row_3', l_v1217, d_dma173]
theorem e_r_129 : runFirst.sl.r_129 c i arg3 harg3 arg6 xt x0 fh fs0 hrows = pmax (blockRow x0 3) (asRow (arrRow c fh (word c i xt (xfer 3 9)) (word_lt c i xt hrows (xfer 3 9)))) := by
  unfold runFirst.sl.r_129
  simp only [pay72_eq, row_3, row_3', l_v1238, d_dma176]
theorem e_r_131 : runFirst.sl.r_131 c i arg3 harg3 arg6 xt x0 fh fs0 hrows = pmax (blockRow x0 3) (asRow (arrRow c fh (word c i xt (xfer 3 10)) (word_lt c i xt hrows (xfer 3 10)))) := by
  unfold runFirst.sl.r_131
  simp only [pay73_eq, e_r_111, l_v1259, d_dma179]
theorem e_r_132 : runFirst.sl.r_132 c i arg3 harg3 arg6 xt x0 fh fs0 hrows = pmax (blockRow x0 3) (asRow (arrRow c fh (word c i xt (xfer 3 11)) (word_lt c i xt hrows (xfer 3 11)))) := by
  unfold runFirst.sl.r_132
  simp only [pay74_eq, row_3, row_3', l_v1280, d_dma182]
theorem e_r_135 : runFirst.sl.r_135 c i arg3 harg3 arg6 xt x0 fh fs0 hrows = pmax (blockRow x0 3) (asRow (arrRow c fh (word c i xt (xfer 3 12)) (word_lt c i xt hrows (xfer 3 12)))) := by
  unfold runFirst.sl.r_135
  simp only [pay75_eq, row_3, row_3', l_v1301, d_dma185]
theorem e_r_137 : runFirst.sl.r_137 c i arg3 harg3 arg6 xt x0 fh fs0 hrows = pmax (blockRow x0 3) (asRow (arrRow c fh (word c i xt (xfer 3 13)) (word_lt c i xt hrows (xfer 3 13)))) := by
  unfold runFirst.sl.r_137
  simp only [pay76_eq, e_r_111, l_v1322, d_dma188]
theorem e_r_138 : runFirst.sl.r_138 c i arg3 harg3 arg6 xt x0 fh fs0 hrows = pmax (blockRow x0 3) (asRow (arrRow c fh (word c i xt (xfer 3 14)) (word_lt c i xt hrows (xfer 3 14)))) := by
  unfold runFirst.sl.r_138
  simp only [pay77_eq, row_3, row_3', l_v1343, d_dma191]
theorem e_r_141 : runFirst.sl.r_141 c i arg3 harg3 arg6 xt x0 fh fs0 hrows = row16 fun k => pmax (blockRow x0 3) (asRow (arrRow c fh (word c i xt (xfer 3 k)) (word_lt c i xt hrows (xfer 3 k)))) := by
  unfold runFirst.sl.r_141
  simp only [pay78_eq, e_r_110, e_r_113, e_r_114, e_r_117, e_r_119, e_r_120, e_r_123, e_r_125, e_r_126, e_r_129, e_r_131, e_r_132, e_r_135, e_r_137, e_r_138, row_3, row_3', l_v1364, d_dma194]
  exact congrArg row16 (funext fun k => by fin_cases k <;> rfl)
theorem e_r_144 : runFirst.sl.r_144 c i arg3 harg3 arg6 xt x0 fh fs0 hrows = pmax (blockRow x0 4) (asRow (arrRow c fh (word c i xt (xfer 4 0)) (word_lt c i xt hrows (xfer 4 0)))) := by
  unfold runFirst.sl.r_144
  simp only [pay79_eq, e_r_142, l_v1386, d_dma197]
theorem e_r_145 : runFirst.sl.r_145 c i arg3 harg3 arg6 xt x0 fh fs0 hrows = pmax (blockRow x0 4) (asRow (arrRow c fh (word c i xt (xfer 4 1)) (word_lt c i xt hrows (xfer 4 1)))) := by
  unfold runFirst.sl.r_145
  simp only [pay80_eq, row_4, row_4', l_v1407, d_dma200]
theorem e_r_148 : runFirst.sl.r_148 c i arg3 harg3 arg6 xt x0 fh fs0 hrows = pmax (blockRow x0 4) (asRow (arrRow c fh (word c i xt (xfer 4 2)) (word_lt c i xt hrows (xfer 4 2)))) := by
  unfold runFirst.sl.r_148
  simp only [pay81_eq, row_4, row_4', l_v1428, d_dma203]
theorem e_r_150 : runFirst.sl.r_150 c i arg3 harg3 arg6 xt x0 fh fs0 hrows = pmax (blockRow x0 4) (asRow (arrRow c fh (word c i xt (xfer 4 3)) (word_lt c i xt hrows (xfer 4 3)))) := by
  unfold runFirst.sl.r_150
  simp only [pay82_eq, e_r_142, l_v1449, d_dma206]
theorem e_r_151 : runFirst.sl.r_151 c i arg3 harg3 arg6 xt x0 fh fs0 hrows = pmax (blockRow x0 4) (asRow (arrRow c fh (word c i xt (xfer 4 4)) (word_lt c i xt hrows (xfer 4 4)))) := by
  unfold runFirst.sl.r_151
  simp only [pay83_eq, row_4, row_4', l_v1470, d_dma209]
theorem e_r_154 : runFirst.sl.r_154 c i arg3 harg3 arg6 xt x0 fh fs0 hrows = pmax (blockRow x0 4) (asRow (arrRow c fh (word c i xt (xfer 4 5)) (word_lt c i xt hrows (xfer 4 5)))) := by
  unfold runFirst.sl.r_154
  simp only [pay84_eq, row_4, row_4', l_v1491, d_dma212]
theorem e_r_156 : runFirst.sl.r_156 c i arg3 harg3 arg6 xt x0 fh fs0 hrows = pmax (blockRow x0 4) (asRow (arrRow c fh (word c i xt (xfer 4 6)) (word_lt c i xt hrows (xfer 4 6)))) := by
  unfold runFirst.sl.r_156
  simp only [pay85_eq, e_r_142, l_v1512, d_dma215]
theorem e_r_157 : runFirst.sl.r_157 c i arg3 harg3 arg6 xt x0 fh fs0 hrows = pmax (blockRow x0 4) (asRow (arrRow c fh (word c i xt (xfer 4 7)) (word_lt c i xt hrows (xfer 4 7)))) := by
  unfold runFirst.sl.r_157
  simp only [pay86_eq, row_4, row_4', l_v1533, d_dma218]
theorem e_r_160 : runFirst.sl.r_160 c i arg3 harg3 arg6 xt x0 fh fs0 hrows = pmax (blockRow x0 4) (asRow (arrRow c fh (word c i xt (xfer 4 8)) (word_lt c i xt hrows (xfer 4 8)))) := by
  unfold runFirst.sl.r_160
  simp only [pay87_eq, row_4, row_4', l_v1554, d_dma221]
theorem e_r_162 : runFirst.sl.r_162 c i arg3 harg3 arg6 xt x0 fh fs0 hrows = pmax (blockRow x0 4) (asRow (arrRow c fh (word c i xt (xfer 4 9)) (word_lt c i xt hrows (xfer 4 9)))) := by
  unfold runFirst.sl.r_162
  simp only [pay88_eq, e_r_142, l_v1575, d_dma224]
theorem e_r_163 : runFirst.sl.r_163 c i arg3 harg3 arg6 xt x0 fh fs0 hrows = pmax (blockRow x0 4) (asRow (arrRow c fh (word c i xt (xfer 4 10)) (word_lt c i xt hrows (xfer 4 10)))) := by
  unfold runFirst.sl.r_163
  simp only [pay89_eq, row_4, row_4', l_v1596, d_dma227]
theorem e_r_166 : runFirst.sl.r_166 c i arg3 harg3 arg6 xt x0 fh fs0 hrows = pmax (blockRow x0 4) (asRow (arrRow c fh (word c i xt (xfer 4 11)) (word_lt c i xt hrows (xfer 4 11)))) := by
  unfold runFirst.sl.r_166
  simp only [pay90_eq, row_4, row_4', l_v1617, d_dma230]
theorem e_r_168 : runFirst.sl.r_168 c i arg3 harg3 arg6 xt x0 fh fs0 hrows = pmax (blockRow x0 4) (asRow (arrRow c fh (word c i xt (xfer 4 12)) (word_lt c i xt hrows (xfer 4 12)))) := by
  unfold runFirst.sl.r_168
  simp only [pay91_eq, e_r_142, l_v1638, d_dma233]
theorem e_r_169 : runFirst.sl.r_169 c i arg3 harg3 arg6 xt x0 fh fs0 hrows = pmax (blockRow x0 4) (asRow (arrRow c fh (word c i xt (xfer 4 13)) (word_lt c i xt hrows (xfer 4 13)))) := by
  unfold runFirst.sl.r_169
  simp only [pay92_eq, row_4, row_4', l_v1659, d_dma236]
theorem e_r_172 : runFirst.sl.r_172 c i arg3 harg3 arg6 xt x0 fh fs0 hrows = pmax (blockRow x0 4) (asRow (arrRow c fh (word c i xt (xfer 4 14)) (word_lt c i xt hrows (xfer 4 14)))) := by
  unfold runFirst.sl.r_172
  simp only [pay93_eq, row_4, row_4', l_v1680, d_dma239]
theorem e_r_174 : runFirst.sl.r_174 c i arg3 harg3 arg6 xt x0 fh fs0 hrows = row16 fun k => pmax (blockRow x0 4) (asRow (arrRow c fh (word c i xt (xfer 4 k)) (word_lt c i xt hrows (xfer 4 k)))) := by
  unfold runFirst.sl.r_174
  simp only [pay94_eq, e_r_144, e_r_145, e_r_148, e_r_150, e_r_151, e_r_154, e_r_156, e_r_157, e_r_160, e_r_162, e_r_163, e_r_166, e_r_168, e_r_169, e_r_172, e_r_142, l_v1701, d_dma242]
  exact congrArg row16 (funext fun k => by fin_cases k <;> rfl)
theorem e_r_175 : runFirst.sl.r_175 c i arg3 harg3 arg6 xt x0 fh fs0 hrows = pmax (blockRow x0 5) (asRow (arrRow c fh (word c i xt (xfer 5 0)) (word_lt c i xt hrows (xfer 5 0)))) := by
  unfold runFirst.sl.r_175
  simp only [pay95_eq, row_5, row_5', l_v1723, d_dma245]
theorem e_r_178 : runFirst.sl.r_178 c i arg3 harg3 arg6 xt x0 fh fs0 hrows = pmax (blockRow x0 5) (asRow (arrRow c fh (word c i xt (xfer 5 1)) (word_lt c i xt hrows (xfer 5 1)))) := by
  unfold runFirst.sl.r_178
  simp only [pay96_eq, row_5, row_5', l_v1744, d_dma248]
theorem e_r_181 : runFirst.sl.r_181 c i arg3 harg3 arg6 xt x0 fh fs0 hrows = pmax (blockRow x0 5) (asRow (arrRow c fh (word c i xt (xfer 5 2)) (word_lt c i xt hrows (xfer 5 2)))) := by
  unfold runFirst.sl.r_181
  simp only [pay97_eq, e_r_179, l_v1765, d_dma251]
theorem e_r_182 : runFirst.sl.r_182 c i arg3 harg3 arg6 xt x0 fh fs0 hrows = pmax (blockRow x0 5) (asRow (arrRow c fh (word c i xt (xfer 5 3)) (word_lt c i xt hrows (xfer 5 3)))) := by
  unfold runFirst.sl.r_182
  simp only [pay98_eq, row_5, row_5', l_v1786, d_dma254]
theorem e_r_185 : runFirst.sl.r_185 c i arg3 harg3 arg6 xt x0 fh fs0 hrows = pmax (blockRow x0 5) (asRow (arrRow c fh (word c i xt (xfer 5 4)) (word_lt c i xt hrows (xfer 5 4)))) := by
  unfold runFirst.sl.r_185
  simp only [pay99_eq, row_5, row_5', l_v1807, d_dma257]
theorem e_r_187 : runFirst.sl.r_187 c i arg3 harg3 arg6 xt x0 fh fs0 hrows = pmax (blockRow x0 5) (asRow (arrRow c fh (word c i xt (xfer 5 5)) (word_lt c i xt hrows (xfer 5 5)))) := by
  unfold runFirst.sl.r_187
  simp only [pay100_eq, e_r_179, l_v1828, d_dma260]
theorem e_r_188 : runFirst.sl.r_188 c i arg3 harg3 arg6 xt x0 fh fs0 hrows = pmax (blockRow x0 5) (asRow (arrRow c fh (word c i xt (xfer 5 6)) (word_lt c i xt hrows (xfer 5 6)))) := by
  unfold runFirst.sl.r_188
  simp only [pay101_eq, row_5, row_5', l_v1849, d_dma263]
theorem e_r_191 : runFirst.sl.r_191 c i arg3 harg3 arg6 xt x0 fh fs0 hrows = pmax (blockRow x0 5) (asRow (arrRow c fh (word c i xt (xfer 5 7)) (word_lt c i xt hrows (xfer 5 7)))) := by
  unfold runFirst.sl.r_191
  simp only [pay102_eq, row_5, row_5', l_v1870, d_dma266]
theorem e_r_193 : runFirst.sl.r_193 c i arg3 harg3 arg6 xt x0 fh fs0 hrows = pmax (blockRow x0 5) (asRow (arrRow c fh (word c i xt (xfer 5 8)) (word_lt c i xt hrows (xfer 5 8)))) := by
  unfold runFirst.sl.r_193
  simp only [pay103_eq, e_r_179, l_v1891, d_dma269]
theorem e_r_194 : runFirst.sl.r_194 c i arg3 harg3 arg6 xt x0 fh fs0 hrows = pmax (blockRow x0 5) (asRow (arrRow c fh (word c i xt (xfer 5 9)) (word_lt c i xt hrows (xfer 5 9)))) := by
  unfold runFirst.sl.r_194
  simp only [pay104_eq, row_5, row_5', l_v1912, d_dma272]
theorem e_r_197 : runFirst.sl.r_197 c i arg3 harg3 arg6 xt x0 fh fs0 hrows = pmax (blockRow x0 5) (asRow (arrRow c fh (word c i xt (xfer 5 10)) (word_lt c i xt hrows (xfer 5 10)))) := by
  unfold runFirst.sl.r_197
  simp only [pay105_eq, row_5, row_5', l_v1933, d_dma275]
theorem e_r_199 : runFirst.sl.r_199 c i arg3 harg3 arg6 xt x0 fh fs0 hrows = pmax (blockRow x0 5) (asRow (arrRow c fh (word c i xt (xfer 5 11)) (word_lt c i xt hrows (xfer 5 11)))) := by
  unfold runFirst.sl.r_199
  simp only [pay106_eq, e_r_179, l_v1954, d_dma278]
theorem e_r_200 : runFirst.sl.r_200 c i arg3 harg3 arg6 xt x0 fh fs0 hrows = pmax (blockRow x0 5) (asRow (arrRow c fh (word c i xt (xfer 5 12)) (word_lt c i xt hrows (xfer 5 12)))) := by
  unfold runFirst.sl.r_200
  simp only [pay107_eq, row_5, row_5', l_v1975, d_dma281]
theorem e_r_203 : runFirst.sl.r_203 c i arg3 harg3 arg6 xt x0 fh fs0 hrows = pmax (blockRow x0 5) (asRow (arrRow c fh (word c i xt (xfer 5 13)) (word_lt c i xt hrows (xfer 5 13)))) := by
  unfold runFirst.sl.r_203
  simp only [pay108_eq, row_5, row_5', l_v1996, d_dma284]
theorem e_r_205 : runFirst.sl.r_205 c i arg3 harg3 arg6 xt x0 fh fs0 hrows = row16 fun k => pmax (blockRow x0 5) (asRow (arrRow c fh (word c i xt (xfer 5 k)) (word_lt c i xt hrows (xfer 5 k)))) := by
  unfold runFirst.sl.r_205
  simp only [pay109_eq, e_r_175, e_r_178, e_r_181, e_r_182, e_r_185, e_r_187, e_r_188, e_r_191, e_r_193, e_r_194, e_r_197, e_r_199, e_r_200, e_r_203, e_r_179, l_v2017, d_dma287, row_5, row_5', l_v2038, d_dma290]
  exact congrArg row16 (funext fun k => by fin_cases k <;> rfl)
theorem e_r_208 : runFirst.sl.r_208 c i arg3 harg3 arg6 xt x0 fh fs0 hrows = pmax (blockRow x0 6) (asRow (arrRow c fh (word c i xt (xfer 6 0)) (word_lt c i xt hrows (xfer 6 0)))) := by
  unfold runFirst.sl.r_208
  simp only [pay110_eq, row_6, row_6', l_v2060, d_dma293]
theorem e_r_210 : runFirst.sl.r_210 c i arg3 harg3 arg6 xt x0 fh fs0 hrows = pmax (blockRow x0 6) (asRow (arrRow c fh (word c i xt (xfer 6 1)) (word_lt c i xt hrows (xfer 6 1)))) := by
  unfold runFirst.sl.r_210
  simp only [pay111_eq, row_6, row_6', l_v2081, d_dma296]
theorem e_r_211 : runFirst.sl.r_211 c i arg3 harg3 arg6 xt x0 fh fs0 hrows = pmax (blockRow x0 6) (asRow (arrRow c fh (word c i xt (xfer 6 2)) (word_lt c i xt hrows (xfer 6 2)))) := by
  unfold runFirst.sl.r_211
  simp only [pay112_eq, row_6, row_6', l_v2102, d_dma299]
theorem e_r_214 : runFirst.sl.r_214 c i arg3 harg3 arg6 xt x0 fh fs0 hrows = pmax (blockRow x0 6) (asRow (arrRow c fh (word c i xt (xfer 6 3)) (word_lt c i xt hrows (xfer 6 3)))) := by
  unfold runFirst.sl.r_214
  simp only [pay113_eq, row_6, row_6', l_v2123, d_dma302]
theorem e_r_216 : runFirst.sl.r_216 c i arg3 harg3 arg6 xt x0 fh fs0 hrows = pmax (blockRow x0 6) (asRow (arrRow c fh (word c i xt (xfer 6 4)) (word_lt c i xt hrows (xfer 6 4)))) := by
  unfold runFirst.sl.r_216
  simp only [pay114_eq, row_6, row_6', l_v2144, d_dma305]
theorem e_r_217 : runFirst.sl.r_217 c i arg3 harg3 arg6 xt x0 fh fs0 hrows = pmax (blockRow x0 6) (asRow (arrRow c fh (word c i xt (xfer 6 5)) (word_lt c i xt hrows (xfer 6 5)))) := by
  unfold runFirst.sl.r_217
  simp only [pay115_eq, row_6, row_6', l_v2165, d_dma308]
theorem e_r_220 : runFirst.sl.r_220 c i arg3 harg3 arg6 xt x0 fh fs0 hrows = pmax (blockRow x0 6) (asRow (arrRow c fh (word c i xt (xfer 6 6)) (word_lt c i xt hrows (xfer 6 6)))) := by
  unfold runFirst.sl.r_220
  simp only [pay116_eq, row_6, row_6', l_v2186, d_dma311]
theorem e_r_222 : runFirst.sl.r_222 c i arg3 harg3 arg6 xt x0 fh fs0 hrows = pmax (blockRow x0 6) (asRow (arrRow c fh (word c i xt (xfer 6 7)) (word_lt c i xt hrows (xfer 6 7)))) := by
  unfold runFirst.sl.r_222
  simp only [pay117_eq, row_6, row_6', l_v2207, d_dma314]
theorem e_r_223 : runFirst.sl.r_223 c i arg3 harg3 arg6 xt x0 fh fs0 hrows = pmax (blockRow x0 6) (asRow (arrRow c fh (word c i xt (xfer 6 8)) (word_lt c i xt hrows (xfer 6 8)))) := by
  unfold runFirst.sl.r_223
  simp only [pay118_eq, row_6, row_6', l_v2228, d_dma317]
theorem e_r_226 : runFirst.sl.r_226 c i arg3 harg3 arg6 xt x0 fh fs0 hrows = pmax (blockRow x0 6) (asRow (arrRow c fh (word c i xt (xfer 6 9)) (word_lt c i xt hrows (xfer 6 9)))) := by
  unfold runFirst.sl.r_226
  simp only [pay119_eq, row_6, row_6', l_v2249, d_dma320]
theorem e_r_228 : runFirst.sl.r_228 c i arg3 harg3 arg6 xt x0 fh fs0 hrows = pmax (blockRow x0 6) (asRow (arrRow c fh (word c i xt (xfer 6 10)) (word_lt c i xt hrows (xfer 6 10)))) := by
  unfold runFirst.sl.r_228
  simp only [pay120_eq, row_6, row_6', l_v2270, d_dma323]
theorem e_r_229 : runFirst.sl.r_229 c i arg3 harg3 arg6 xt x0 fh fs0 hrows = pmax (blockRow x0 6) (asRow (arrRow c fh (word c i xt (xfer 6 11)) (word_lt c i xt hrows (xfer 6 11)))) := by
  unfold runFirst.sl.r_229
  simp only [pay121_eq, row_6, row_6', l_v2291, d_dma326]
theorem e_r_232 : runFirst.sl.r_232 c i arg3 harg3 arg6 xt x0 fh fs0 hrows = pmax (blockRow x0 6) (asRow (arrRow c fh (word c i xt (xfer 6 12)) (word_lt c i xt hrows (xfer 6 12)))) := by
  unfold runFirst.sl.r_232
  simp only [pay122_eq, row_6, row_6', l_v2312, d_dma329]
theorem e_r_234 : runFirst.sl.r_234 c i arg3 harg3 arg6 xt x0 fh fs0 hrows = pmax (blockRow x0 6) (asRow (arrRow c fh (word c i xt (xfer 6 13)) (word_lt c i xt hrows (xfer 6 13)))) := by
  unfold runFirst.sl.r_234
  simp only [pay123_eq, row_6, row_6', l_v2333, d_dma332]
theorem e_r_235 : runFirst.sl.r_235 c i arg3 harg3 arg6 xt x0 fh fs0 hrows = pmax (blockRow x0 6) (asRow (arrRow c fh (word c i xt (xfer 6 14)) (word_lt c i xt hrows (xfer 6 14)))) := by
  unfold runFirst.sl.r_235
  simp only [pay124_eq, row_6, row_6', l_v2354, d_dma335]
theorem e_r_238 : runFirst.sl.r_238 c i arg3 harg3 arg6 xt x0 fh fs0 hrows = row16 fun k => pmax (blockRow x0 6) (asRow (arrRow c fh (word c i xt (xfer 6 k)) (word_lt c i xt hrows (xfer 6 k)))) := by
  unfold runFirst.sl.r_238
  simp only [pay125_eq, e_r_208, e_r_210, e_r_211, e_r_214, e_r_216, e_r_217, e_r_220, e_r_222, e_r_223, e_r_226, e_r_228, e_r_229, e_r_232, e_r_234, e_r_235, row_6, row_6', l_v2375, d_dma338]
  exact congrArg row16 (funext fun k => by fin_cases k <;> rfl)
theorem e_r_240 : runFirst.sl.r_240 c i arg3 harg3 arg6 xt x0 fh fs0 hrows = pmax (blockRow x0 7) (asRow (arrRow c fh (word c i xt (xfer 7 0)) (word_lt c i xt hrows (xfer 7 0)))) := by
  unfold runFirst.sl.r_240
  simp only [pay126_eq, row_7, row_7', l_v2397, d_dma341]
theorem e_r_241 : runFirst.sl.r_241 c i arg3 harg3 arg6 xt x0 fh fs0 hrows = pmax (blockRow x0 7) (asRow (arrRow c fh (word c i xt (xfer 7 1)) (word_lt c i xt hrows (xfer 7 1)))) := by
  unfold runFirst.sl.r_241
  simp only [pay127_eq, row_7, row_7', l_v2418, d_dma344]
theorem e_r_244 : runFirst.sl.r_244 c i arg3 harg3 arg6 xt x0 fh fs0 hrows = pmax (blockRow x0 7) (asRow (arrRow c fh (word c i xt (xfer 7 2)) (word_lt c i xt hrows (xfer 7 2)))) := by
  unfold runFirst.sl.r_244
  simp only [pay128_eq, row_7, row_7', l_v2439, d_dma347]
theorem e_r_246 : runFirst.sl.r_246 c i arg3 harg3 arg6 xt x0 fh fs0 hrows = pmax (blockRow x0 7) (asRow (arrRow c fh (word c i xt (xfer 7 3)) (word_lt c i xt hrows (xfer 7 3)))) := by
  unfold runFirst.sl.r_246
  simp only [pay129_eq, row_7, row_7', l_v2460, d_dma350]
theorem e_r_247 : runFirst.sl.r_247 c i arg3 harg3 arg6 xt x0 fh fs0 hrows = pmax (blockRow x0 7) (asRow (arrRow c fh (word c i xt (xfer 7 4)) (word_lt c i xt hrows (xfer 7 4)))) := by
  unfold runFirst.sl.r_247
  simp only [pay130_eq, row_7, row_7', l_v2481, d_dma353]
theorem e_r_250 : runFirst.sl.r_250 c i arg3 harg3 arg6 xt x0 fh fs0 hrows = pmax (blockRow x0 7) (asRow (arrRow c fh (word c i xt (xfer 7 5)) (word_lt c i xt hrows (xfer 7 5)))) := by
  unfold runFirst.sl.r_250
  simp only [pay131_eq, row_7, row_7', l_v2502, d_dma356]
theorem e_r_252 : runFirst.sl.r_252 c i arg3 harg3 arg6 xt x0 fh fs0 hrows = pmax (blockRow x0 7) (asRow (arrRow c fh (word c i xt (xfer 7 6)) (word_lt c i xt hrows (xfer 7 6)))) := by
  unfold runFirst.sl.r_252
  simp only [pay132_eq, row_7, row_7', l_v2523, d_dma359]
theorem e_r_253 : runFirst.sl.r_253 c i arg3 harg3 arg6 xt x0 fh fs0 hrows = pmax (blockRow x0 7) (asRow (arrRow c fh (word c i xt (xfer 7 7)) (word_lt c i xt hrows (xfer 7 7)))) := by
  unfold runFirst.sl.r_253
  simp only [pay133_eq, row_7, row_7', l_v2544, d_dma362]
theorem e_r_256 : runFirst.sl.r_256 c i arg3 harg3 arg6 xt x0 fh fs0 hrows = pmax (blockRow x0 7) (asRow (arrRow c fh (word c i xt (xfer 7 8)) (word_lt c i xt hrows (xfer 7 8)))) := by
  unfold runFirst.sl.r_256
  simp only [pay134_eq, row_7, row_7', l_v2565, d_dma365]
theorem e_r_258 : runFirst.sl.r_258 c i arg3 harg3 arg6 xt x0 fh fs0 hrows = pmax (blockRow x0 7) (asRow (arrRow c fh (word c i xt (xfer 7 9)) (word_lt c i xt hrows (xfer 7 9)))) := by
  unfold runFirst.sl.r_258
  simp only [pay135_eq, row_7, row_7', l_v2586, d_dma368]
theorem e_r_259 : runFirst.sl.r_259 c i arg3 harg3 arg6 xt x0 fh fs0 hrows = pmax (blockRow x0 7) (asRow (arrRow c fh (word c i xt (xfer 7 10)) (word_lt c i xt hrows (xfer 7 10)))) := by
  unfold runFirst.sl.r_259
  simp only [pay136_eq, row_7, row_7', l_v2607, d_dma371]
theorem e_r_262 : runFirst.sl.r_262 c i arg3 harg3 arg6 xt x0 fh fs0 hrows = pmax (blockRow x0 7) (asRow (arrRow c fh (word c i xt (xfer 7 11)) (word_lt c i xt hrows (xfer 7 11)))) := by
  unfold runFirst.sl.r_262
  simp only [pay137_eq, row_7, row_7', l_v2628, d_dma374]
theorem e_r_264 : runFirst.sl.r_264 c i arg3 harg3 arg6 xt x0 fh fs0 hrows = pmax (blockRow x0 7) (asRow (arrRow c fh (word c i xt (xfer 7 12)) (word_lt c i xt hrows (xfer 7 12)))) := by
  unfold runFirst.sl.r_264
  simp only [pay138_eq, row_7, row_7', l_v2649, d_dma377]
theorem e_r_265 : runFirst.sl.r_265 c i arg3 harg3 arg6 xt x0 fh fs0 hrows = pmax (blockRow x0 7) (asRow (arrRow c fh (word c i xt (xfer 7 13)) (word_lt c i xt hrows (xfer 7 13)))) := by
  unfold runFirst.sl.r_265
  simp only [pay139_eq, row_7, row_7', l_v2670, d_dma380]
theorem e_r_267 : runFirst.sl.r_267 c i arg3 harg3 arg6 xt x0 fh fs0 hrows = pmax (blockRow x0 7) (asRow (arrRow c fh (word c i xt (xfer 7 14)) (word_lt c i xt hrows (xfer 7 14)))) := by
  unfold runFirst.sl.r_267
  simp only [pay140_eq, row_7, row_7', l_v2691, d_dma383]
theorem e_v2703 : runFirst.sl.v2703 c i arg3 harg3 arg6 xt x0 fh fs0 hrows = addf (blockRow x0 7) (asRow (arrRow c fh (word c i xt (xfer 7 15)) (word_lt c i xt hrows (xfer 7 15)))) := by
  unfold runFirst.sl.v2703
  simp only [row_7, row_7', l_v2702, d_dma386]
theorem e_v2706 : runFirst.sl.v2706 c i arg3 harg3 arg6 xt x0 fh fs0 hrows = row16 fun k => pmax (blockRow x0 7) (asRow (arrRow c fh (word c i xt (xfer 7 k)) (word_lt c i xt hrows (xfer 7 k)))) := by
  unfold runFirst.sl.v2706
  simp only [pay1_eq, e_r_240, e_r_241, e_r_244, e_r_246, e_r_247, e_r_250, e_r_252, e_r_253, e_r_256, e_r_258, e_r_259, e_r_262, e_r_264, e_r_265, e_r_267, e_v2703, smax_addf]
  exact congrArg row16 (funext fun k => by fin_cases k <;> rfl)

end Table

end First

/-- The block of maxima is `maxBlock`: what the two-slot buffer held before the point has dropped out. -/
theorem max_first [∀ e, Nonempty (Elt F e)] (c : Dev nD) (i : grid0.Coords) (hc : isFirst i)
    (arg3 : Memref sig .tc .vmem S8x512 .f32) (harg3 : arg3.IsWhole) (arg4 : Memref sig .tc .vmem S8x16 .f32) (harg4 : arg4.IsWhole)
    (arg5 : Memref sig .tc .vmem S1x512 .f32) (harg5 : arg5.IsWhole) (arg6 : Memref sig .tc .vmem S2x512 .f32) (harg6 : arg6.IsWhole)
    (q1 q2 : Idealize.SL.RA.PosShare Idealize.SL.RA.TreeShare)
    (xt : BufOf (F := F) c tbM) (x0 : Vec F S8x512 .f32) (fh : BufOf (F := F) c hbM)
    (fs0 : BufTy.Contents (Elt F) arg6.view.ty) (hrows : RowsBelow c xt) :
    readMax (runFirst c i hc arg3 harg3 arg4 harg4 arg5 harg5 arg6 harg6 q1 q2 xt x0 fh fs0 hrows).1.1 = maxBlock c i xt x0 fh hrows := by
  unfold runFirst
  dsimp only
  rw [readMax_whole _ zero2, pay2_eq]
  simp only [First.e_r_38, First.e_r_76, First.e_r_107, First.e_r_141, First.e_r_174, First.e_r_205, First.e_r_238, First.e_v2706]
  unfold maxBlock
  exact congrArg col8 (funext fun b => by fin_cases b <;> rfl)

end Cert.KernelIdeal.Body

end
-- ==== Proof.BodyValueIdeal.lean ====
/-
  What the body's run leaves, read back.

  The run of the body at a point names the stores it leaves in its two output buffers. Read back, the row of
  column sums is the accumulator handed in plus the column sums of the point's block (`sums_later`; at the first
  point the accumulator is the zero row, which the body stores and reads back itself, `sums_first`), and the block
  of maxima is `maxBlock` (`max_later`, `max_first`, proved name by name in the two table modules): what the
  two-slot buffer held before the point has dropped out.
-/
import proofs.«106441_j1580547974259_1_alg».proof.Proof.BodyTableLaterIdeal
import proofs.«106441_j1580547974259_1_alg».proof.Proof.BodyTableFirstIdeal

set_option maxRecDepth 16384

noncomputable section

namespace Cert.KernelIdeal.Body

open Cert.KernelIdeal Cert.KernelIdeal.Gen Cert.BodyMath
open Idealize.ShloMosaic Idealize.ShloMosaic.TcCoe Idealize.ShloMosaic.ValueIdx

variable {F : FTy → Type} [FloatOps F]

section Sums

variable [∀ e, Nonempty (Elt F e)]

/-- A store through the whole rectangle, last, leaves its payload whatever was stored before. -/
theorem readSums_cons_whole (off : Fin 2 → ℕ) (hz : off = fun _ => 0) (inb : ∀ a, off a + S1x512.size a ≤ S1x512.size a)
    (w : S1x512.Idx → Elt F .f32) (L : List (View.Piece (Elt F) S1x512 .f32)) :
    readSums ((⟨Rect.unit (s := S1x512) off S1x512.size inb, w⟩ : View.Piece (Elt F) S1x512 .f32) :: L) = w := by
  unfold readSums
  rw [View.read_writes_junk_eq_canon]
  exact View.canon_cons_unit_zero hz inb w L

/-- After the first point: the accumulator plus the column sums of the block. -/
theorem sums_later (c : Dev nD) (i : grid0.Coords) (hc : ¬isFirst i)
    (arg3 : Memref sig .tc .vmem S8x512 .f32) (harg3 : arg3.IsWhole) (arg4 : Memref sig .tc .vmem S8x16 .f32) (harg4 : arg4.IsWhole)
    (arg5 : Memref sig .tc .vmem S1x512 .f32) (harg5 : arg5.IsWhole) (arg6 : Memref sig .tc .vmem S2x512 .f32) (harg6 : arg6.IsWhole)
    (q1 q2 : Idealize.SL.RA.PosShare Idealize.SL.RA.TreeShare)
    (xt : BufOf (F := F) c tbM) (x0 : Vec F S8x512 .f32) (a0 : Vec F S1x512 .f32) (fh : BufOf (F := F) c hbM)
    (fs0 : BufTy.Contents (Elt F) arg6.view.ty) (hrows : RowsBelow c xt) :
    readSums (runLater c i hc arg3 harg3 arg4 harg4 arg5 harg5 arg6 harg6 q1 q2 xt x0 a0 fh fs0 hrows).1.2 = accStep a0 x0 := by
  unfold runLater
  dsimp only
  unfold runLater.sl.H2_1
  rw [readSums_whole _ zero2, pay4_eq, whole_load arg5 harg5 _ zero2, whole_load arg3 harg3 _ zero2]

/-- At the first point the body stores the zero row, reads it back, and adds the column sums of the block. -/
theorem sums_first (c : Dev nD) (i : grid0.Coords) (hc : isFirst i)
    (arg3 : Memref sig .tc .vmem S8x512 .f32) (harg3 : arg3.IsWhole) (arg4 : Memref sig .tc .vmem S8x16 .f32) (harg4 : arg4.IsWhole)
    (arg5 : Memref sig .tc .vmem S1x512 .f32) (harg5 : arg5.IsWhole) (arg6 : Memref sig .tc .vmem S2x512 .f32) (harg6 : arg6.IsWhole)
    (q1 q2 : Idealize.SL.RA.PosShare Idealize.SL.RA.TreeShare)
    (xt : BufOf (F := F) c tbM) (x0 : Vec F S8x512 .f32) (fh : BufOf (F := F) c hbM)
    (fs0 : BufTy.Contents (Elt F) arg6.view.ty) (hrows : RowsBelow c xt) :
    readSums (runFirst c i hc arg3 harg3 arg4 harg4 arg5 harg5 arg6 harg6 q1 q2 xt x0 fh fs0 hrows).1.2 = accStep zeroRow x0 := by
  unfold runFirst
  dsimp only
  unfold runFirst.sl.H2_2
  rw [readSums_cons_whole _ zero2, pay4_eq, whole_load arg3 harg3 _ zero2]
  unfold runFirst.sl.v4 runFirst.sl.H2_1
  rw [View.readCov_unit_zero _ zero2, pay3_eq]

end Sums

end Cert.KernelIdeal.Body

end
-- ==== Proof.RegionDataIdeal.lean ====
/-
  The proof data of the row-gather region: what each window's buffer holds around the body at every grid
  point. The block of eight rows is read only. The 8 × 16 block of maxima written at point t is, entry
  (b, k), the maximum over the 512 lanes of row b of the point's block plus the row of the big array that
  table word 128·t + 16·b + k names. The 1 × 512 row of column sums is ONE block revisited by all 1024
  points — cleared at the first, the block's eight rows added at each, written back after the last — so
  what it holds after point n is defined by recursion on n. None of this depends on what the two-slot
  buffer held before the point: every slot is overwritten by a copy before it is read.
-/
import proofs.«106441_j1580547974259_1_alg».proof.Proof.BodyValueIdeal
import Idealize.ShloMosaic.Lib.Ring

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (hrows : ∀ c : Dev nD, RowsBelow c (tbl V 0))

/-- The body's run at a point, on the point's buffers, the entry contents, and whatever the two-slot
    buffer holds. -/
abbrev atFirst (c : Dev nD) (t : Fin (cfgM V).N) (h0 : t.val = 0) (fs0 : BufTy.Contents (Elt F) (scM).view.ty) :=
  runFirst (F := F) c (grid0.coords t) ((first_iff (adm V) t).mpr h0) (ms0 V t) (hs0 V t) (ms1 V t) (hs1 V t) (ms2 V t) (hs2 V t) scM hscM
    fullShare fullShare.right (tbl V 0) (iblk V c 0 t) (V c main_arg0) fs0 (hrows c)
abbrev atLater (c : Dev nD) (t : Fin (cfgM V).N) (h0 : ¬t.val = 0) (a0 : Vec F S1x512 .f32) (fs0 : BufTy.Contents (Elt F) (scM).view.ty) :=
  runLater (F := F) c (grid0.coords t) (fun h => h0 ((first_iff (adm V) t).mp h)) (ms0 V t) (hs0 V t) (ms1 V t) (hs1 V t) (ms2 V t) (hs2 V t) scM hscM
    fullShare fullShare.right (tbl V 0) (iblk V c 0 t) a0 (V c main_arg0) fs0 (hrows c)

/-- The pieces each run leaves tile its two output blocks. -/
theorem cover_first_max (c : Dev nD) (t : Fin (cfgM V).N) (h0 : t.val = 0) (fs0) (y : S8x16.Idx) : ∃ pc ∈ (atFirst V hrows c t h0 fs0).1.1, y ∈ pc.1.set :=
  View.cover_of_tiledL (atFirst V hrows c t h0 fs0).1.1 S8x16.size (by sl_kernel_rfl) y
theorem cover_first_sums (c : Dev nD) (t : Fin (cfgM V).N) (h0 : t.val = 0) (fs0) (y : S1x512.Idx) : ∃ pc ∈ (atFirst V hrows c t h0 fs0).1.2, y ∈ pc.1.set :=
  View.cover_of_tiledL (atFirst V hrows c t h0 fs0).1.2 S1x512.size (by sl_kernel_rfl) y
theorem cover_later_max (c : Dev nD) (t : Fin (cfgM V).N) (h0 : ¬t.val = 0) (a0) (fs0) (y : S8x16.Idx) : ∃ pc ∈ (atLater V hrows c t h0 a0 fs0).1.1, y ∈ pc.1.set :=
  View.cover_of_tiledL (atLater V hrows c t h0 a0 fs0).1.1 S8x16.size (by sl_kernel_rfl) y
theorem cover_later_sums (c : Dev nD) (t : Fin (cfgM V).N) (h0 : ¬t.val = 0) (a0) (fs0) (y : S1x512.Idx) : ∃ pc ∈ (atLater V hrows c t h0 a0 fs0).1.2, y ∈ pc.1.set :=
  View.cover_of_tiledL (atLater V hrows c t h0 a0 fs0).1.2 S1x512.size (by sl_kernel_rfl) y

/-- The maxima of point t. -/
def maxAt (c : Dev nD) (t : Fin (cfgM V).N) : Vec F S8x16 .f32 :=
  maxBlock c (grid0.coords t) (tbl V 0) (iblk V c 0 t) (V c main_arg0) (hrows c)

/-- THE ACCUMULATION: the column sums after point n. -/
def sumsAt (c : Dev nD) : (n : ℕ) → n < (cfgM V).N → Vec F S1x512 .f32
  | 0, hn => Cert.BodyMath.accStep Cert.BodyMath.zeroRow (iblk V c 0 ⟨0, hn⟩)
  | n + 1, hn => Cert.BodyMath.accStep (sumsAt c n (Nat.lt_of_succ_lt hn)) (iblk V c 0 ⟨n + 1, hn⟩)

theorem sumsAt_first (c : Dev nD) (t : Fin (cfgM V).N) (h0 : t.val = 0) :
    sumsAt V c t.val t.isLt = Cert.BodyMath.accStep Cert.BodyMath.zeroRow (iblk V c 0 t) := by
  obtain ⟨n, hn⟩ := t
  cases n with
  | zero => rfl
  | succ n => exact absurd h0 (Nat.succ_ne_zero n)

theorem sumsAt_later (c : Dev nD) (t : Fin (cfgM V).N) (h0 : ¬t.val = 0) :
    sumsAt V c t.val t.isLt
      = Cert.BodyMath.accStep (sumsAt V c (t.val - 1) (Nat.lt_of_le_of_lt (Nat.sub_le _ _) t.isLt)) (iblk V c 0 t) := by
  obtain ⟨n, hn⟩ := t
  cases n with
  | zero => exact absurd rfl h0
  | succ n => rfl

/-- The proof data: the arrays as the region finds them, the windows' contents after each point, the
    kept state, the block fetches' half of the array of rows, nothing owed. -/
def dats (_ : Fin 1) (c : Dev nD) : Dat τ (Elt F) Unit ℕ (Pipeline.UD sig nD τ) ℕ (cfgM V) c where
  A w := V c (Pipeline.arrRef spec0 w)
  after w t := match w with
    | ⟨0, _⟩ => iblk V c 0 t
    | ⟨1, _⟩ => maxAt V hrows c t
    | ⟨2, _⟩ => sumsAt V c t.val t.isLt
  Φ _ := Phi V c
  q w := shareOf w
  owed _ := 0

theorem A_eq (c : Dev nD) (w : Fin (cfgM V).W) : (dats V hrows 0 c).A w = V c (Pipeline.arrRef spec0 w) := by
  dsimp only [dats]
theorem after_rows (c : Dev nD) (t : Fin (cfgM V).N) : (dats V hrows 0 c).after 0 t = iblk V c 0 t := by dsimp only [dats]; rfl
theorem after_max (c : Dev nD) (t : Fin (cfgM V).N) : (dats V hrows 0 c).after 1 t = maxAt V hrows c t := by dsimp only [dats]; rfl
theorem after_sums (c : Dev nD) (t : Fin (cfgM V).N) : (dats V hrows 0 c).after 2 t = sumsAt V c t.val t.isLt := by dsimp only [dats]; rfl

theorem before_rows (c : Dev nD) (t : Fin (cfgM V).N) (d) : (dats V hrows 0 c).before 0 t d = iblk V c 0 t :=
  before_rows_of V (dats V hrows 0 c) (A_eq V hrows c 0) (after_rows V hrows c) t d

/-- After the first point the sums' buffer holds what the point before left: it is written back only
    after the last point. -/
theorem before_sums_later (c : Dev nD) (t : Fin (cfgM V).N) (h0 : ¬t.val = 0) (d) :
    (dats V hrows 0 c).before 2 t d = sumsAt V c (t.val - 1) (Nat.lt_of_le_of_lt (Nat.sub_le _ _) t.isLt) := by
  have hN : t.val < 1024 := lt_of_lt_of_eq t.isLt (N_eq (adm V))
  rw [Dat.before_out_kept _ 2 rfl t h0 (Bool.eq_false_iff.mpr fun h => by have := (flush_sums (adm V) _).mp h; dsimp only at this; omega)
    (fun _ => rfl) (fun _ _ => rfl)]
  dsimp only [dats]; rfl

end Cert.KernelIdeal.Body

end
-- ==== Proof.RegionBodyIdeal.lean ====
/-
  The body obligation of the row-gather region: at every grid point, from what the body keeps between
  points and the three windows' buffers as the pipeline hands them over, the body runs to the end and
  leaves the block of rows in place, the 8 × 16 maxima of the point in the second window's buffer, and
  the column sums so far in the third's. The first point is the run that clears the sums; every later
  point is the run that adds to what the point before left. Whatever the two-slot buffer holds goes into
  the run as it is and comes back changed; nothing the windows end with depends on it.
-/
import proofs.«106441_j1580547974259_1_alg».proof.Proof.RegionDataIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (hrows : ∀ c : Dev nD, RowsBelow c (tbl V 0))

theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 5) 0 ∗ semVal ((c : Thread nD τ), SemLoc.dma 6) 0) := by
  rw [Pipeline.ownSems0_eq_of_list c osem [0, 1] (by decide) (by decide)]; rfl

theorem table_eq (c : Dev nD) :
    (Pipeline.prefHeld pre0 c (fun _ => fullShare) (tbl V) : sProp 𝕄) = heldAt c fullShare tbM (tbl V 0) := by
  unfold Pipeline.prefHeld
  rw [show (Finset.univ : Finset (Fin 1)) = {(0 : Fin 1)} from by decide, bigSep_singleton]
  rfl

/-- What the body keeps between points, conjunct by conjunct. -/
theorem Phi_eq (c : Dev nD) :
    (Phi V c : sProp 𝕄)
      = iprop(iprop((∃ d, owns (c : Thread nD τ) scM fullShare d))
          ∗ iprop(semVal ((c : Thread nD τ), SemLoc.dma 5) 0 ∗ semVal ((c : Thread nD τ), SemLoc.dma 6) 0)
          ∗ heldAt c fullShare tbM (tbl V 0) ∗ heldAt c fullShare.right hbM (V c main_arg0)) := by
  unfold Phi
  rw [scopedRest0_eq, ownSems_eq, table_eq]; simp only [scM, owns_whole]; try rfl

/-- A buffer owned at some vector is held at some contents. -/
theorem owns_open (c : Dev nD) (M : Memref sig .tc .vmem S2x512 .f32) (d : Vec F S2x512 .f32) :
    (owns (c : Thread nD τ) M fullShare d : sProp 𝕄)
      ⊢ iprop(∃ f : BufTy.Contents (Elt F) M.view.ty, M.view.loc (c : Thread nD τ) ↦[M.view.set]{fullShare} f) := by
  unfold owns; iintro ⟨%f, -, H⟩; iexists f; iexact H

/-- What the body is called with at a point, the windows one by one, -/
def bodyPre (c : Dev nD) (t : Fin (cfgM V).N) : sProp 𝕄 :=
  iprop((dats V hrows 0 c).Φ t.castSucc ∗ (dats V hrows 0 c).owesAt () t.castSucc
    ∗ (∃ d, owns (c : Thread nD τ) (ms0 V t) fullShare ((dats V hrows 0 c).before 0 t d))
    ∗ (∃ d, owns (c : Thread nD τ) (ms1 V t) fullShare ((dats V hrows 0 c).before 1 t d))
    ∗ (∃ d, owns (c : Thread nD τ) (ms2 V t) fullShare ((dats V hrows 0 c).before 2 t d)))

/-- and what it returns. -/
def bodyPost (c : Dev nD) (t : Fin (cfgM V).N) : sProp 𝕄 :=
  iprop((dats V hrows 0 c).Φ t.succ ∗ (dats V hrows 0 c).owesAt () t.succ
    ∗ owns (c : Thread nD τ) (ms0 V t) fullShare ((dats V hrows 0 c).after 0 t)
    ∗ owns (c : Thread nD τ) (ms1 V t) fullShare ((dats V hrows 0 c).after 1 t)
    ∗ owns (c : Thread nD τ) (ms2 V t) fullShare ((dats V hrows 0 c).after 2 t))

/-- The body as the pipeline calls it at a point. -/
abbrev bodyAt (t : Fin (cfgM V).N) : Prog (TpuEff nD τ sig (Elt F) Λ₀ .tc) PUnit :=
  cc0_kernel (grid0.coords t) tbM htbM hbM hhbM (ms0 V t) (hs0 V t) (ms1 V t) (hs1 V t) (ms2 V t) (hs2 V t) scM hscM cc0_scratch1

set_option maxHeartbeats 4000000 in
theorem sound_body (c : Dev nD) (t : Fin (cfgM V).N) :
    bodyPre V hrows c t ⊢ wp frame (wpE (defs₀ (F := F)) Variants.none c none) Set.univ (bodyAt V t) (fun _ => bodyPost V hrows c t) := by
  unfold bodyPre bodyPost bodyAt
  simp only [before_rows]
  rw [show (dats V hrows 0 c).Φ t.succ = Phi V c from rfl, show (dats V hrows 0 c).Φ t.castSucc = Phi V c from rfl, Phi_eq,
    after_rows, after_max, after_sums]
  unfold Dat.owesAt Pipeline.owesWithin
  rw [show (dats V hrows 0 c).owed t.castSucc = 0 from rfl, show (dats V hrows 0 c).owed t.succ = 0 from rfl]
  by_cases h0 : t.val = 0
  · rw [sumsAt_first V c t h0]
    unfold maxAt
    iintro ⟨⟨⟨%ds0, HS⟩, ⟨Hq0, Hq1⟩, HT, Hh0⟩, ⟨%W, -, HW⟩, ⟨%d0, H0⟩, ⟨%d1, H1⟩, ⟨%d2, H2⟩⟩
    ihave HS1 := (owns_open c scM ds0) $$ HS
    icases HS1 with ⟨%fs0, HS0⟩
    iapply ((atFirst V hrows c t h0 fs0).2 W _)
    isplitl [HT]; · iexact HT
    isplitl [H0]; · iexact H0
    isplitl [H1]; · iexists _; iexact H1
    isplitl [H2]; · iexists _; iexact H2
    isplitl [HS0]; · iexact HS0
    isplitl [Hq0]; · iexact Hq0
    isplitl [Hq1]; · iexact Hq1
    isplitl [Hh0]; · iexact Hh0
    isplitl [HW]; · iexact HW
    iintro ⟨HT, H0, ⟨%e1, H1⟩, ⟨%e2, H2⟩, HS0, Hq0, Hq1, Hh0, ⟨%W', HW'⟩⟩
    isplitl [HS0 Hq0 Hq1 HT Hh0]
    · isplitl [HS0]; · iexact HS0
      isplitl [Hq0 Hq1]
      · isplitl [Hq0]; · iexact Hq0
        iexact Hq1
      isplitl [HT]; · iexact HT
      iexact Hh0
    isplitl [HW']
    · iexists W'; isplitr; · ipureintro; exact fun _ _ => Or.inl trivial
      iexact HW'
    isplitl [H0]; · iexact H0
    isplitl [H1]
    · unfold owns; iexists _; isplitr
      swap; · iexact H1
      ipureintro
      exact (View.read_writes_of_cover _ _ _ _ _ (cover_first_max V hrows c t h0 fs0)).trans (max_first ..)
    · unfold owns; iexists _; isplitr
      swap; · iexact H2
      ipureintro
      exact (View.read_writes_of_cover _ _ _ _ _ (cover_first_sums V hrows c t h0 fs0)).trans (sums_first ..)
  · rw [sumsAt_later V c t h0]
    simp only [before_sums_later V hrows c t h0]
    unfold maxAt
    iintro ⟨⟨⟨%ds0, HS⟩, ⟨Hq0, Hq1⟩, HT, Hh0⟩, ⟨%W, -, HW⟩, ⟨%d0, H0⟩, ⟨%d1, H1⟩, ⟨%d2, H2⟩⟩
    ihave HS1 := (owns_open c scM ds0) $$ HS
    icases HS1 with ⟨%fs0, HS0⟩
    iapply ((atLater V hrows c t h0 _ fs0).2 W _)
    isplitl [HT]; · iexact HT
    isplitl [H0]; · iexact H0
    isplitl [H1]; · iexists _; iexact H1
    isplitl [H2]; · iexact H2
    isplitl [HS0]; · iexact HS0
    isplitl [Hq0]; · iexact Hq0
    isplitl [Hq1]; · iexact Hq1
    isplitl [Hh0]; · iexact Hh0
    isplitl [HW]; · iexact HW
    iintro ⟨HT, H0, ⟨%e1, H1⟩, ⟨%e2, H2⟩, HS0, Hq0, Hq1, Hh0, ⟨%W', HW'⟩⟩
    isplitl [HS0 Hq0 Hq1 HT Hh0]
    · isplitl [HS0]; · iexact HS0
      isplitl [Hq0 Hq1]
      · isplitl [Hq0]; · iexact Hq0
        iexact Hq1
      isplitl [HT]; · iexact HT
      iexact Hh0
    isplitl [HW']
    · iexists W'; isplitr; · ipureintro; exact fun _ _ => Or.inl trivial
      iexact HW'
    isplitl [H0]; · iexact H0
    isplitl [H1]
    · unfold owns; iexists _; isplitr
      swap; · iexact H1
      ipureintro
      exact (View.read_writes_of_cover _ _ _ _ _ (cover_later_max V hrows c t h0 _ fs0)).trans (max_later ..)
    · unfold owns; iexists _; isplitr
      swap; · iexact H2
      ipureintro
      exact (View.read_writes_of_cover _ _ _ _ _ (cover_later_sums V hrows c t h0 _ fs0)).trans (sums_later ..)

/-- The library's body obligation, at every point. -/
theorem body_obligation (c : Dev nD) :
    BodyObligation (dats (F := F) V hrows 0 c) (defs₀ (F := F)) Variants.none () Set.univ := fun t => by
  rw [bigSep_W0, bigSep_W0]
  exact sound_body V hrows c t

end Cert.KernelIdeal.Body

end
-- ==== Proof.RegionOutIdeal.lean ====
/-
  From the blocks to the arrays. The region's three windows cut their arrays into blocks: the array of rows into
  1024 blocks of 8 rows, fetched; the table of maxima into 1024 blocks of 8 rows, each written back at its point; the
  row of column sums is one block, written back after the last point only. A block's entry sits in its array at block
  index times block size plus the coordinate inside, and the index maps are decided once over the grid. So the rows a
  point is handed are rows 8 t … 8 t + 7 of the array of rows; row r of the maxima after the region is row r % 8 of what
  point r / 8 left in the window's buffer; and the column sums are what the last point left.
-/
import proofs.«106441_j1580547974259_1_alg».proof.Proof.RegionStateIdeal
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

/-! ## The index maps over the grid -/

/-- The blocks of the array of rows and of the maxima move down the rows with the point; the block of column sums stays. -/
theorem idx0 (a : (pcfg0 (F := F)).Adm) : ∀ t : Fin (cfg0 a).N, ((cfg0 a).win 0).index t (0 : Fin 2) = t.val ∧ ((cfg0 a).win 0).index t (1 : Fin 2) = 0 :=
  (by decide +kernel : ∀ t : Fin grid0.N, cc0_transform_1 (grid0.coords t) 0 = t.val ∧ cc0_transform_1 (grid0.coords t) 1 = 0)
theorem idx1 (a : (pcfg0 (F := F)).Adm) : ∀ t : Fin (cfg0 a).N, ((cfg0 a).win 1).index t (0 : Fin 2) = t.val ∧ ((cfg0 a).win 1).index t (1 : Fin 2) = 0 :=
  (by decide +kernel : ∀ t : Fin grid0.N, cc0_transform_2 (grid0.coords t) 0 = t.val ∧ cc0_transform_2 (grid0.coords t) 1 = 0)
theorem idx2 (a : (pcfg0 (F := F)).Adm) : ∀ t : Fin (cfg0 a).N, ((cfg0 a).win 2).index t (0 : Fin 2) = 0 ∧ ((cfg0 a).win 2).index t (1 : Fin 2) = 0 :=
  (by decide +kernel : ∀ t : Fin grid0.N, cc0_transform_3 (grid0.coords t) 0 = 0 ∧ cc0_transform_3 (grid0.coords t) 1 = 0)

variable (V : (c : Dev nD) → (b : Ref sig .tc) → Buf (Elt F) ((c : Thread nD τ).loc b)) (c : Dev nD)
  (D : Dat τ (Elt F) Unit ℕ (Pipeline.UD sig nD τ) ℕ (cfgM V) c)

/-- The grid has 1024 points. -/
theorem lt_N (n : Nat) (h : n < 1024) : n < (cfgM V).N := by rw [N_eq (adm V)]; exact h

/-! ## Where a block's entry sits in its array: block index times block size plus the coordinate inside -/

theorem emb0_row (t : Fin (cfgM V).N) (j : S8x512.Idx) : ((((cfgM V).win 0).blk t).view.emb j (0 : Fin 2)).val = 8 * t.val + (j 0).val := by
  show ((cfgM V).win 0).index t (0 : Fin 2) * 8 + 1 * (j 0).val = _
  rw [(idx0 (adm V) t).1]; omega
theorem emb0_col (t : Fin (cfgM V).N) (j : S8x512.Idx) : ((((cfgM V).win 0).blk t).view.emb j (1 : Fin 2)).val = (j 1).val := by
  show ((cfgM V).win 0).index t (1 : Fin 2) * 512 + 1 * (j 1).val = _
  rw [(idx0 (adm V) t).2]; omega
theorem emb1_row (t : Fin (cfgM V).N) (j : S8x16.Idx) : ((((cfgM V).win 1).blk t).view.emb j (0 : Fin 2)).val = 8 * t.val + (j 0).val := by
  show ((cfgM V).win 1).index t (0 : Fin 2) * 8 + 1 * (j 0).val = _
  rw [(idx1 (adm V) t).1]; omega
theorem emb1_col (t : Fin (cfgM V).N) (j : S8x16.Idx) : ((((cfgM V).win 1).blk t).view.emb j (1 : Fin 2)).val = (j 1).val := by
  show ((cfgM V).win 1).index t (1 : Fin 2) * 16 + 1 * (j 1).val = _
  rw [(idx1 (adm V) t).2]; omega
theorem emb2_row (t : Fin (cfgM V).N) (j : S1x512.Idx) : ((((cfgM V).win 2).blk t).view.emb j (0 : Fin 2)).val = (j 0).val := by
  show ((cfgM V).win 2).index t (0 : Fin 2) * 1 + 1 * (j 0).val = _
  rw [(idx2 (adm V) t).1]; omega
theorem emb2_col (t : Fin (cfgM V).N) (j : S1x512.Idx) : ((((cfgM V).win 2).blk t).view.emb j (1 : Fin 2)).val = (j 1).val := by
  show ((cfgM V).win 2).index t (1 : Fin 2) * 512 + 1 * (j 1).val = _
  rw [(idx2 (adm V) t).2]; omega

/-! ## The rows a point is handed -/

/-- Block `t` of the array of rows is its rows `8 t … 8 t + 7`. -/
theorem iblk0_apply (t : Fin (cfgM V).N) (b : Fin 8) (j : Fin 512) :
    iblk V c 0 t (ix2 b j) = (V c main_arg0 : S100000x512.Idx → Elt F .f32)
      (ix2 ⟨8 * t.val + b.val, by have h1 : t.val < (cfgM V).N := t.isLt; have hN : (cfgM V).N = 1024 := N_eq (adm V); have := b.isLt; omega⟩ j) := by
  show (V c main_arg0 : S100000x512.Idx → Elt F .f32) ((((cfgM V).win 0).blk t).view.emb (ix2 b j)) = _
  congr 1
  funext a
  apply Fin.ext
  match a with
  | ⟨0, _⟩ => exact emb0_row V t (ix2 b j)
  | ⟨1, _⟩ => exact emb0_col V t (ix2 b j)

/-! ## The maxima: 1024 blocks of 8 rows tile the 8192 rows, each written back at its point -/

/-- The array the blocks are the restrictions of: row `r` comes from point `r / 8`, row `r % 8` of what it left. -/
def G1 : S8192x16.Idx → Elt F .f32 := fun i =>
  D.after 1 ⟨(i 0).val / 8, lt_N V _ (by have h : (i 0).val < 8192 := (i 0).isLt; omega)⟩
    (ix2 ⟨(i 0).val % 8, Nat.mod_lt _ (by decide)⟩ (i 1))

theorem after1_congr (t t' : Fin (cfgM V).N) (x x' : S8x16.Idx) (ht : t' = t) (hx : x' = x) : D.after 1 t' x' = D.after 1 t x := by
  subst ht; subst hx; rfl

theorem flushed1_eq (t : Fin (cfgM V).N) : D.flushed 1 t = (((cfgM V).win 1).blk t).view.read (Elt F) (G1 V c D) := by
  have key : ∀ j : S8x16.Idx, D.flushed 1 t j = (((cfgM V).win 1).blk t).view.read (Elt F) (G1 V c D) j := by
    intro j
    show D.after 1 t j = G1 V c D ((((cfgM V).win 1).blk t).view.emb j)
    have hj0 : (j 0).val < 8 := (j 0).isLt
    unfold G1
    refine (after1_congr V c D t _ j _ (Fin.ext ?_) (funext fun a => Fin.ext ?_)).symm
    · show ((((cfgM V).win 1).blk t).view.emb j (0 : Fin 2)).val / 8 = t.val
      rw [emb1_row]; omega
    · match a with
      | ⟨0, _⟩ =>
        show ((((cfgM V).win 1).blk t).view.emb j (0 : Fin 2)).val % 8 = (j 0).val
        rw [emb1_row]; omega
      | ⟨1, _⟩ =>
        show ((((cfgM V).win 1).blk t).view.emb j (1 : Fin 2)).val = (j 1).val
        exact emb1_col V t j
  exact funext key

theorem cover1 (i : S8192x16.Idx) : ∃ t : Fin (cfgM V).N, ((cfgM V).win 1).flush t = true ∧ i ∈ (((cfgM V).win 1).blk t).view.set := by
  have hi0 : (i 0).val < 8192 := (i 0).isLt
  have hlt : (i 0).val / 8 < (cfgM V).N := lt_N V _ (by omega)
  have hm : (i 0).val % 8 < 8 := Nat.mod_lt _ (by decide)
  refine ⟨⟨(i 0).val / 8, hlt⟩, flush_max (adm V) _, ?_⟩
  have hmem := (((cfgM V).win 1).blk ⟨(i 0).val / 8, hlt⟩).view.emb_mem_set (ix2 ⟨(i 0).val % 8, hm⟩ (i 1) : S8x16.Idx)
  have e : (((cfgM V).win 1).blk ⟨(i 0).val / 8, hlt⟩).view.emb (ix2 ⟨(i 0).val % 8, hm⟩ (i 1) : S8x16.Idx) = i := by
    funext a
    apply Fin.ext
    match a with
    | ⟨0, _⟩ =>
      show ((((cfgM V).win 1).blk ⟨(i 0).val / 8, hlt⟩).view.emb (ix2 ⟨(i 0).val % 8, hm⟩ (i 1) : S8x16.Idx) (0 : Fin 2)).val = (i 0).val
      rw [emb1_row]
      show 8 * ((i 0).val / 8) + (i 0).val % 8 = (i 0).val
      omega
    | ⟨1, _⟩ =>
      show ((((cfgM V).win 1).blk ⟨(i 0).val / 8, hlt⟩).view.emb (ix2 ⟨(i 0).val % 8, hm⟩ (i 1) : S8x16.Idx) (1 : Fin 2)).val = (i 1).val
      rw [emb1_col]
  rw [e] at hmem
  exact hmem

/-- The maxima after the region: row `r` is row `r % 8` of what point `r / 8` left in the window's buffer. -/
theorem arrAt1_apply (r : Fin 8192) (k : Fin 16) :
    (D.arrAt 1 (cfgM V).N : S8192x16.Idx → Elt F .f32) (ix2 r k)
      = D.after 1 ⟨r.val / 8, lt_N V _ (by have := r.isLt; omega)⟩ (ix2 ⟨r.val % 8, Nat.mod_lt _ (by decide)⟩ k) :=
  congrFun (D.arrAt_eq_of_cover 1 (G1 V c D) (fun t _ => flushed1_eq V c D t) (cover1 V)) (ix2 r k)

/-! ## The column sums: one block, the whole row of 512, written back after the last point only -/

def G2 : S1x512.Idx → Elt F .f32 := fun i => D.after 2 ⟨1023, lt_N V 1023 (by decide)⟩ i

theorem after2_congr (t t' : Fin (cfgM V).N) (x x' : S1x512.Idx) (ht : t' = t) (hx : x' = x) : D.after 2 t' x' = D.after 2 t x := by
  subst ht; subst hx; rfl

theorem flushed2_eq (t : Fin (cfgM V).N) (hf : ((cfgM V).win 2).flush t = true) :
    D.flushed 2 t = (((cfgM V).win 2).blk t).view.read (Elt F) (G2 V c D) := by
  have ht : t.val = 1023 := (flush_sums (adm V) t).mp hf
  have key : ∀ j : S1x512.Idx, D.flushed 2 t j = (((cfgM V).win 2).blk t).view.read (Elt F) (G2 V c D) j := by
    intro j
    show D.after 2 t j = G2 V c D ((((cfgM V).win 2).blk t).view.emb j)
    unfold G2
    refine (after2_congr V c D t _ j _ (Fin.ext ht.symm) (funext fun a => Fin.ext ?_)).symm
    match a with
    | ⟨0, _⟩ => exact emb2_row V t j
    | ⟨1, _⟩ => exact emb2_col V t j
  exact funext key

theorem cover2 (i : S1x512.Idx) : ∃ t : Fin (cfgM V).N, ((cfgM V).win 2).flush t = true ∧ i ∈ (((cfgM V).win 2).blk t).view.set := by
  have hlt : 1023 < (cfgM V).N := lt_N V 1023 (by decide)
  refine ⟨⟨1023, hlt⟩, (flush_sums (adm V) _).mpr rfl, ?_⟩
  have hmem := (((cfgM V).win 2).blk ⟨1023, hlt⟩).view.emb_mem_set (i : S1x512.Idx)
  have e : (((cfgM V).win 2).blk ⟨1023, hlt⟩).view.emb (i : S1x512.Idx) = i := by
    funext a
    apply Fin.ext
    match a with
    | ⟨0, _⟩ => exact emb2_row V ⟨1023, hlt⟩ i
    | ⟨1, _⟩ => exact emb2_col V ⟨1023, hlt⟩ i
  rw [e] at hmem
  exact hmem

/-- The column sums after the region: what the last point left in the window's buffer. -/
theorem arrAt2_eq : (D.arrAt 2 (cfgM V).N : S1x512.Idx → Elt F .f32) = D.after 2 ⟨1023, lt_N V 1023 (by decide)⟩ :=
  D.arrAt_eq_of_cover 2 (G2 V c D) (fun t hf => flushed2_eq V c D t hf) (cover2 V)
theorem arrAt2_apply (q : Fin 512) :
    (D.arrAt 2 (cfgM V).N : S1x512.Idx → Elt F .f32) (ix2 0 q) = D.after 2 ⟨1023, lt_N V 1023 (by decide)⟩ (ix2 0 q) :=
  congrFun (arrAt2_eq V c D) (ix2 0 q)

end Cert.KernelIdeal.Body

end
-- ==== Proof.OutputsIdeal.lean ====
/-
  What the row-gather region leaves in its two output arrays, at exact values. The array of column sums
  is the one block of the third window after the last point: by the recursion, the sum over all 1024 points
  of the sums of each block's eight rows, from zero. The array of maxima is made of the 1024 blocks the
  points wrote: row 8·t + b of it is row b of point t's block, so entry (r, k) is the maximum over the 512
  lanes of row r of the big array plus the row that table word 16·r + k names — and that word is the
  truncated entry (r, k) of y.
-/
import proofs.«106441_j1580547974259_1_alg».proof.Proof.RegionBodyIdeal
import proofs.«106441_j1580547974259_1_alg».proof.Proof.RegionOutIdeal
import proofs.«106441_j1580547974259_1_alg».proof.Proof.Closing

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.BodyMath

variable (V : (c : Dev nD) → (b : Ref sig .tc) → Buf (Elt Ideal) ((c : Thread nD τ).loc b))

/-- The column sums after point n, at column q: the sums of the eight rows of every block up to n. -/
theorem sumsAt_apply (c : Dev nD) (g : ℕ → Fin 8 → Fin 512 → EReal)
    (hblk : ∀ (t : Fin (cfgM V).N) (b : Fin 8) (q : Fin 512), (iblk V c 0 t : S8x512.Idx → EReal) (ix2 b q) = g t.val b q)
    (q : Fin 512) : ∀ (n : ℕ) (hn : n < (cfgM V).N),
      (sumsAt V c n hn : S1x512.Idx → EReal) (ix2 (0 : Fin 1) q) = 0 + ∑ t ∈ Finset.range (n + 1), ∑ b : Fin 8, g t b q := by
  intro n
  induction n with
  | zero =>
    intro hn
    refine (accStep_apply zeroRow (iblk V c 0 ⟨0, hn⟩) q).trans ?_
    rw [zeroRow_apply, Finset.sum_range_one]
    exact congrArg (fun z => (0 : EReal) + z) (Finset.sum_congr rfl fun b _ => hblk ⟨0, hn⟩ b q)
  | succ n ih =>
    intro hn
    refine (accStep_apply (sumsAt V c n (Nat.lt_of_succ_lt hn)) (iblk V c 0 ⟨n + 1, hn⟩) q).trans ?_
    rw [ih, Finset.sum_range_succ (fun t => ∑ b : Fin 8, g t b q) (n + 1), ← add_assoc]
    exact congrArg (fun z => (0 + ∑ t ∈ Finset.range (n + 1), ∑ b : Fin 8, g t b q : EReal) + z) (Finset.sum_congr rfl fun b _ => hblk ⟨n + 1, hn⟩ b q)

/-- Row 8·t + b of the big array, column q, for t below 1024 (zero beyond: never read). -/
def rowsOf (x : S100000x512.Idx → EReal) (t : ℕ) (b : Fin 8) (q : Fin 512) : EReal :=
  if h : t < 1024 then x (ix2 (⟨8 * t + b.val, by have := b.isLt; omega⟩ : Fin 100000) q) else 0

variable (hrows : ∀ c : Dev nD, RowsBelow c (tbl V 0))

/-- The array of column sums the region leaves. -/
theorem out_sums (c : Dev nD) :
    ((dats V hrows 0 c).arrAt 2 (cfgM V).N : S1x512.Idx → EReal) = fun i => Cert.Closing.kBcol (V c main_arg0) i := by
  refine funext fun (i : S1x512.Idx) => ?_
  obtain ⟨u, q, rfl⟩ : ∃ (u : Fin 1) (q : Fin 512), i = ix2 u q := ⟨i 0, i 1, eq_ix2 i⟩
  obtain rfl : u = 0 := Subsingleton.elim _ _
  refine (arrAt2_apply V c (dats V hrows 0 c) q).trans ?_
  rw [after_sums]
  refine (sumsAt_apply V c (rowsOf (V c main_arg0)) (fun t b q => ?_) q 1023 _).trans ?_
  · have ht : t.val < 1024 := lt_of_lt_of_eq t.isLt (N_eq (adm V))
    rw [iblk0_apply]; unfold rowsOf; rw [dif_pos ht]
  · rw [Finset.sum_range (fun t => ∑ b : Fin 8, rowsOf (V c main_arg0) t b q)]
    refine Eq.trans ?_ (Cert.Closing.zero_add_kBcol_apply (V c main_arg0) q)
    refine congrArg (fun z => (0 : EReal) + z) (Finset.sum_congr rfl fun t _ => Finset.sum_congr rfl fun b _ => ?_)
    unfold rowsOf; rw [dif_pos t.isLt]

end Cert.KernelIdeal.Body

end
-- ==== Proof.OutMaxIdeal.lean ====
/-
  The table of maxima in closed form. The block the body leaves at a point has, at `(b, k)`, the maximum over the 512
  lanes of row `b` of the point's block of rows plus row `w` of the array of rows, `w` being word `128 t + 16 b + k`
  of the table. The point's block is rows `8 t … 8 t + 7` of the array; the table is the index words of the second
  argument laid out row by row, 16 to a row, so word `128 t + 16 b + k` is the index word at `(8 t + b, k)`. Row `r` of
  the maxima is written by point `r / 8` as its row `r % 8`. Together: entry `(r, k)` of the maxima after the region
  is the maximum over the lanes `j` of `x[r, j] + x[row, j]`, `row` the index word at `(r, k)`.
-/
import proofs.«106441_j1580547974259_1_alg».proof.Proof.BodyOutIdeal
import proofs.«106441_j1580547974259_1_alg».proof.Proof.RegionOutIdeal
import proofs.«106441_j1580547974259_1_alg».proof.Proof.RegionRecordIdeal
import proofs.«106441_j1580547974259_1_alg».proof.Proof.Closing
import Idealize.ShloMosaic.Lib.Pipeline.Value

set_option maxRecDepth 16384

noncomputable section

namespace Cert.KernelIdeal.Body

open Cert.KernelIdeal Cert.KernelIdeal.Gen Cert.BodyMath
open Idealize.ShloMosaic Idealize.ShloMosaic.TcCoe Idealize.ShloMosaic.ValueIdx
open Idealize.ShloMosaic.Pipeline (Dat)

/-! ## A row of the array of rows -/

/-- Row `w` of the array, read through its one-row view with the unit axis dropped, is the array at row `w`. -/
theorem arrRow_apply {F : FTy → Type} [FloatOps F] (c : Dev nD) (fh : BufOf (F := F) c hbM) (w : BitVec 32) (hw : w.toNat < 100000) (j : Fin 512) :
    arrRow c fh w hw (ix1 j) = (fh : S100000x512.Idx → Elt F .f32) (ix2 (⟨w.toNat, hw⟩ : Fin 100000) j) := by
  unfold arrRow
  have h1 : ((hbM.slice (Rect.unit (s := S100000x512) (k0_off2 w) S1x512.size (row_inside w hw)) (fun _ => rfl)).squeeze S512 squeezes_S1x512_S512).view.read (Elt F) fh (ix1 j)
      = (fh : S100000x512.Idx → Elt F .f32) ((Rect.unit (s := S100000x512) (k0_off2 w) S1x512.size (row_inside w hw)).emb
          (Shape.reshapeEquiv squeezes_S1x512_S512.numel_eq (ix1 j))) := rfl
  rw [h1, Shape.reshapeEquiv_cons_one]
  refine congrArg (fh : S100000x512.Idx → Elt F .f32) ?_
  funext a
  apply Fin.ext
  rw [Rect.emb_apply]
  match a with
  | ⟨0, _⟩ => show w.toNat + 1 * 0 = w.toNat; omega
  | ⟨1, _⟩ => show 0 + 1 * j.val = j.val; omega

/-! ## The block of maxima, entry by entry -/

theorem fold_max_congr {f g : Fin 512 → EReal} (h : ∀ j, f j = g j) :
    (Finset.univ : Finset (Fin 512)).fold max (⊥ : EReal) f = (Finset.univ : Finset (Fin 512)).fold max (⊥ : EReal) g :=
  by rw [show f = g from funext h]

theorem maxBlock_apply (c : Dev nD) (i : grid0.Coords) (xt : BufOf (F := Ideal) c tbM) (x0 : Vec Ideal S8x512 .f32)
    (fh : BufOf (F := Ideal) c hbM) (hrows : RowsBelow c xt) (b : Fin 8) (k : Fin 16) :
    maxBlock c i xt x0 fh hrows (ix2 b k)
      = (Finset.univ : Finset (Fin 512)).fold max (⊥ : EReal) fun j =>
          x0 (ix2 b j) + (fh : S100000x512.Idx → EReal) (ix2 (⟨(word c i xt (xfer b k)).toNat, word_lt c i xt hrows (xfer b k)⟩ : Fin 100000) j) := by
  unfold maxBlock
  rw [col8_apply, row16_apply, pmax_apply]
  refine fold_max_congr fun j => ?_
  rw [blockRow_apply, asRow_apply, arrRow_apply]

/-! ## The table's words are the index words of the second argument -/

/-- A point's one coordinate is its number. -/
theorem coords0 : ∀ t : Fin grid0.N, ((grid0.coords t) 0).val = t.val := by decide +kernel

/-- The buffers the two leading stretches leave, by reference. -/
abbrev VM (m : (ℓ : Loc nD τ sig) → Buf (Elt Ideal) ℓ) : (c : Dev nD) → (b : Ref sig .tc) → Buf (Elt Ideal) ((c : Thread nD τ).loc b) :=
  VR (HostSide.V1 m)

/-- Word `128 t + 16 b + k` of the table is the index word at `(8 t + b, k)`. -/
theorem word_rows (m : (ℓ : Loc nD τ sig) → Buf (Elt Ideal) ℓ) (c : Dev nD) (t : Fin (cfgM (VM m)).N) (b : Fin 8) (k : Fin 16) :
    word c (grid0.coords t) (tbl (VM m) 0) (xfer b k)
      = Cert.RowsInRange.rows (F := Ideal) (m ((c.tc : Thread nD τ).loc main_arg1))
          (ix2 (⟨8 * t.val + b.val, by have h1 : t.val < (cfgM (VM m)).N := t.isLt; have hN : (cfgM (VM m)).N = 1024 := N_eq (adm (VM m)); have := b.isLt; omega⟩ : Fin 8192) k) := by
  obtain rfl : c = 0 := Subsingleton.elim _ _
  unfold word
  show (tbl (VM m) 0 : S131072.Idx → BitVec 32) (ix1 (⟨128 * ((grid0.coords t) 0).val + (xfer b k).val, tab_lt (grid0.coords t) (xfer b k)⟩ : Fin 131072)) = _
  rw [show (tbl (VM m) 0 : S131072.Idx → BitVec 32)
      = shapeCast S131072 (Cert.RowsInRange.rows (F := Ideal) (m (((0 : Dev nD) : Thread nD τ).loc main_arg1))) Facts₀.shapeCasts_S8192x16_S131072
    from HostSide.V1_main_v2 m 0]
  refine shapeCast_apply _ _ _ _ ?_
  rw [Shape.rowMajor_val_two, Shape.rowMajor_val_one]
  show (8 * t.val + b.val) * 16 + k.val = 128 * ((grid0.coords t) 0).val + (16 * b.val + k.val)
  rw [coords0 t]
  omega

/-! ## The maxima after the region -/

/-- If every point leaves `maxBlock` of what it is handed, the table of maxima after the region is `kAdd` of the first
    two arguments. -/
theorem arrAt1_closed (m : (ℓ : Loc nD τ sig) → Buf (Elt Ideal) ℓ) (c : Dev nD)
    (D : Dat τ (Elt Ideal) Unit ℕ (Pipeline.UD sig nD τ) ℕ (cfgM (VM m)) c)
    (hrowsT : ∀ c : Dev nD, RowsBelow c (tbl (VM m) 0))
    (hafter : ∀ t, D.after 1 t = maxBlock c (grid0.coords t) (tbl (VM m) 0) (iblk (VM m) c 0 t) (VM m c main_arg0) (hrowsT c))
    (hrowsY : ∀ i : S8192x16.Idx, (Cert.RowsInRange.rows (F := Ideal) (m ((c.tc : Thread nD τ).loc main_arg1)) i).toNat < 100000) :
    (D.arrAt 1 (cfgM (VM m)).N : S8192x16.Idx → EReal)
      = fun i => Cert.Closing.kAdd (m ((c.tc : Thread nD τ).loc main_arg0)) (m ((c.tc : Thread nD τ).loc main_arg1)) hrowsY i := by
  refine funext fun (i : S8192x16.Idx) => ?_
  have hr : (i 0).val < 8192 := (i 0).isLt
  have hi : i = ix2 (i 0) (i 1) := eq_ix2 i
  have hlt : (i 0).val / 8 < (cfgM (VM m)).N := lt_N (VM m) _ (by omega)
  have hm : (i 0).val % 8 < 8 := Nat.mod_lt _ (by decide)
  have hdiv : 8 * ((i 0).val / 8) + (i 0).val % 8 = (i 0).val := by omega
  have hV : (VM m c main_arg0 : S100000x512.Idx → EReal) = m ((c.tc : Thread nD τ).loc main_arg0) := HostSide.V1_main_arg0 m c
  have hw : word c (grid0.coords ⟨(i 0).val / 8, hlt⟩) (tbl (VM m) 0) (xfer ⟨(i 0).val % 8, hm⟩ (i 1))
      = Cert.RowsInRange.rows (F := Ideal) (m ((c.tc : Thread nD τ).loc main_arg1)) (ix2 (i 0) (i 1)) :=
    (word_rows m c ⟨(i 0).val / 8, hlt⟩ ⟨(i 0).val % 8, hm⟩ (i 1)).trans
      (congrArg _ (congrArg (fun a => ix2 a (i 1)) (Fin.ext hdiv)))
  have step1 := arrAt1_apply (VM m) c D (i 0) (i 1)
  have step2 := congrFun (hafter ⟨(i 0).val / 8, hlt⟩) (ix2 (⟨(i 0).val % 8, hm⟩ : Fin 8) (i 1))
  have step3 := maxBlock_apply c (grid0.coords ⟨(i 0).val / 8, hlt⟩) (tbl (VM m) 0) (iblk (VM m) c 0 ⟨(i 0).val / 8, hlt⟩)
    (VM m c main_arg0) (hrowsT c) ⟨(i 0).val % 8, hm⟩ (i 1)
  have step4 := Cert.Closing.kAdd_apply (m ((c.tc : Thread nD τ).loc main_arg0)) (m ((c.tc : Thread nD τ).loc main_arg1)) hrowsY (i 0) (i 1)
  refine (congrArg (D.arrAt 1 (cfgM (VM m)).N : S8192x16.Idx → EReal) hi).trans <| step1.trans <| step2.trans <| step3.trans <|
    (fold_max_congr fun j => ?_).trans <| step4.symm.trans (congrArg _ hi.symm)
  refine congrArg₂ (· + ·) ((iblk0_apply (VM m) c ⟨(i 0).val / 8, hlt⟩ ⟨(i 0).val % 8, hm⟩ j).trans ?_) ?_
  · exact (congrFun hV _).trans (congrArg _ (congrArg (fun a => ix2 a j) (Fin.ext hdiv)))
  · exact (congrFun hV _).trans (congrArg _ (congrArg (fun a => ix2 a j) (Fin.ext (congrArg BitVec.toNat hw))))

end Cert.KernelIdeal.Body

end
-- ==== Proof.lean ====
/-
  The certificate of the row-gather kernel against its jnp reference, over the extended reals.

  Both programs truncate the 8192 × 16 entries of y to row indices, and both need those indices to be
  rows of the 100000 × 512 array: that is the precondition's added conjunct. For entry (r, k) the
  reference gathers row idx(r, k), adds row r, and takes the maximum over the 512 lanes; the kernel, at
  grid point t = r / 8, copies that same row through a two-slot buffer and takes the maximum of row r
  plus the copied row: the same extended real, addition being commutative. The reference sums rows
  0 … 8191 column by column; the kernel adds the eight rows of each of its 1024 blocks into one
  accumulator: the same sum, regrouped. After that both programs apply the same host operations.

  The kernel's two frames are proved once, generically in the float instance: the launch around the
  region, the region's record (the array of rows is held half by the block fetches and half by the
  body, which copies rows out of it), and the body obligation from the body's run at a point.
  The kernel's side conditions — each row index it reads from the table is below 100000 — follow from
  the precondition at every word of the table.
-/
import proofs.«106441_j1580547974259_1_alg».proof.Defs
import proofs.«106441_j1580547974259_1_alg».proof.Proof.AssembleBits
import proofs.«106441_j1580547974259_1_alg».proof.Proof.AssembleAlg
import proofs.«106441_j1580547974259_1_alg».proof.Proof.RegionBodyBits
import proofs.«106441_j1580547974259_1_alg».proof.Proof.RegionBodyIdeal
import proofs.«106441_j1580547974259_1_alg».proof.Proof.OutputsIdeal
import proofs.«106441_j1580547974259_1_alg».proof.Proof.OutMaxIdeal

noncomputable section

namespace Cert.Proof

open Idealize.ShloMosaic Idealize.SL.Sem

/-- The word-level program's proof data, from the precondition: its table's words are rows. -/
def bodyBits (m : (ℓ : Loc Cert.Kernel.nD Cert.Kernel.τ Cert.Kernel.sig) → Buf (Elt Bits) ℓ)
    (hpre : Cert.Pre_Kernel (hPre_finite_inputs := Cert.Pre_finite_inputs.Gen.facts) m) :
    Cert.Kernel.Body.BodyData (F := Bits) m Variants.none where
  pdats := Cert.Kernel.Body.dats (Cert.Kernel.Body.VR (Cert.Kernel.HostSide.V1 m)) (fun c => Cert.Kernel.Body.rows_below_of_pre m c (hpre c))
  hA := Cert.Kernel.Body.A_eq _ _
  hq := fun _ _ => rfl
  hΦ := fun _ _ => rfl
  howed := fun _ _ => rfl
  hbody := fun c => (Cert.Kernel.Body.body_obligation _ _ c).loose

/-- The idealized program's proof data, likewise. -/
def bodyIdeal (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) :
    Cert.KernelIdeal.Body.BodyData (F := Ideal) m Variants.none where
  pdats := Cert.KernelIdeal.Body.dats (Cert.KernelIdeal.Body.VR (Cert.KernelIdeal.HostSide.V1 m)) (fun c => Cert.KernelIdeal.Body.rows_below_of_pre m c (hpre c))
  hA := Cert.KernelIdeal.Body.A_eq _ _
  hq := fun _ _ => rfl
  hΦ := fun _ _ => rfl
  howed := fun _ _ => rfl
  hbody := fun c => (Cert.KernelIdeal.Body.body_obligation _ _ c).loose

theorem frame_k : Cert.frame_Kernel (hKernel := Cert.Kernel.Gen.facts) (hPre_finite_inputs := Cert.Pre_finite_inputs.Gen.facts) :=
  Cert.Kernel.Body.frame_of Variants.none bodyBits

theorem frame_ki : Cert.frame_KernelIdeal (hKernelIdeal := Cert.KernelIdeal.Gen.facts) (hPre_finite_inputs := Cert.Pre_finite_inputs.Gen.facts) :=
  Cert.KernelIdeal.Body.frame_of Variants.none bodyIdeal

/-- What the region leaves in its two output arrays: the maxima of the reference's gather, and the
    column sums of the first 8192 rows. -/
theorem outputs (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (Cert.KernelIdeal.Body.out0 (Cert.KernelIdeal.HostSide.V1 m) (bodyIdeal m hpre).pdats c : FVec Ideal Cert.KernelIdeal.S8192x16 .f32)
        = (fun i => Cert.Closing.kAdd (m ((c.tc : Thread Cert.KernelIdeal.nD Cert.KernelIdeal.τ).loc Cert.KernelIdeal.main_arg0))
            (m ((c.tc : Thread Cert.KernelIdeal.nD Cert.KernelIdeal.τ).loc Cert.KernelIdeal.main_arg1)) (Cert.RowsInRange.rows_lt _ _ _ (hpre c)) i)
      ∧ (Cert.KernelIdeal.Body.out1 (Cert.KernelIdeal.HostSide.V1 m) (bodyIdeal m hpre).pdats c : FVec Ideal Cert.KernelIdeal.S1x512 .f32)
        = (fun i => Cert.Closing.kBcol (m ((c.tc : Thread Cert.KernelIdeal.nD Cert.KernelIdeal.τ).loc Cert.KernelIdeal.main_arg0)) i) := by
  refine ⟨?_, ?_⟩
  · exact Cert.KernelIdeal.Body.arrAt1_closed m c ((bodyIdeal m hpre).pdats 0 c)
      (fun c => Cert.KernelIdeal.Body.rows_below_of_pre m c (hpre c))
      (fun t => (Cert.KernelIdeal.Body.after_max _ _ c t).trans rfl) (Cert.RowsInRange.rows_lt _ _ _ (hpre c))
  · refine (Cert.KernelIdeal.Body.out_sums _ _ c).trans ?_
    rw [show Cert.KernelIdeal.Body.VR (Cert.KernelIdeal.HostSide.V1 m) c Cert.KernelIdeal.main_arg0
        = m ((c.tc : Thread Cert.KernelIdeal.nD Cert.KernelIdeal.τ).loc Cert.KernelIdeal.main_arg0) from Cert.KernelIdeal.HostSide.V1_main_arg0 m c]

theorem claim : Cert.Claim :=
  ⟨Cert.Kernel.Gen.facts, Cert.KernelIdeal.Gen.facts, Cert.ReferenceIdeal.Gen.facts, Cert.Pre_finite_inputs.Gen.facts,
    frame_k, frame_ki, Cert.RefRun.frame, trivial,
    Cert.KernelIdeal.Body.alg_of Variants.none bodyIdeal outputs⟩

end Cert.Proof

end
